-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v546)) (v1 : (c : Dev Cert.KernelIdeal.nD) → Buf (Elt Ideal) ((c.tc : Thread Cert.KernelIdeal.nD Cert.KernelIdeal.τ).loc Cert.KernelIdeal.main_v543)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v546) = v0 c
          ∧ r.2.mem ((c.tc : Thread Cert.KernelIdeal.nD Cert.KernelIdeal.τ).loc Cert.KernelIdeal.main_v543) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v606) = v0 c
          ∧ r.2.mem ((c.tc : Thread Cert.ReferenceIdeal.nD Cert.ReferenceIdeal.τ).loc Cert.ReferenceIdeal.main_v603) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x125 : Shape := ⟨2, ![4096, 125]⟩
abbrev S4096 : Shape := ⟨1, ![4096]⟩
abbrev S10x2000x64 : Shape := ⟨3, ![10, 2000, 64]⟩
abbrev S10x64 : Shape := ⟨2, ![10, 64]⟩
abbrev S10x64x4000 : Shape := ⟨3, ![10, 64, 4000]⟩
abbrev S10x4000 : Shape := ⟨2, ![10, 4000]⟩
abbrev S_ : Shape := ⟨0, ![]⟩

class Facts : Prop where
  bcast_S_S4096x125 : S_.BroadcastsInDim S4096x125 (![] : Fin 0 → Fin S4096x125.rank)
  reducesTo_S4096x125_S_d0_1 : S4096x125.ReducesTo [0, 1] S_
  h_S_ : 0 < S_.numel
  bcast_S_S4096 : S_.BroadcastsInDim S4096 (![] : Fin 0 → Fin S4096.rank)
  reducesTo_S4096_S_d0 : S4096.ReducesTo [0] S_
  bcast_S_S10x2000x64 : S_.BroadcastsInDim S10x2000x64 (![] : Fin 0 → Fin S10x2000x64.rank)
  reducesTo_S10x2000x64_S_d0_1_2 : S10x2000x64.ReducesTo [0, 1, 2] S_
  bcast_S_S10x64 : S_.BroadcastsInDim S10x64 (![] : Fin 0 → Fin S10x64.rank)
  reducesTo_S10x64_S_d0_1 : S10x64.ReducesTo [0, 1] S_
  bcast_S_S10x64x4000 : S_.BroadcastsInDim S10x64x4000 (![] : Fin 0 → Fin S10x64x4000.rank)
  reducesTo_S10x64x4000_S_d0_1_2 : S10x64x4000.ReducesTo [0, 1, 2] S_
  bcast_S_S10x4000 : S_.BroadcastsInDim S10x4000 (![] : Fin 0 → Fin S10x4000.rank)
  reducesTo_S10x4000_S_d0_1 : S10x4000.ReducesTo [0, 1] S_

variable [Facts]

def fn_part1 {F : FTy → Type} [FloatOps F] (main_arg4 : FVec F S10x64x4000 .f32) (main_arg5 : FVec F S10x4000 .f32) (main_v13 : IVec S_ 1) (main_v16 : IVec S10x64 1) : IVec S_ 1 :=
  let main_c_5 : IVec S_ 1 := constantI S_ 1 1#1
  let main_v17 : IVec S_ 1 := (fun x v => Host.reduce IntOp.andi x v reducesTo_S10x64_S_d0_1 h_S_) main_v16 main_c_5
  let main_v18 : IVec S_ 1 := andi main_v13 main_v17
  let main_v19 : FVec F S10x64x4000 .f32 := Host.absf main_arg4
  let main_cst_6 : FVec F S_ .f32 := constant S_ .f32 0x7F800000#32
  let main_v20 : FVec F S10x64x4000 .f32 := broadcastInDim S10x64x4000 ![] bcast_S_S10x64x4000 main_cst_6
  let main_v21 : IVec S10x64x4000 1 := cmpf .olt main_v19 main_v20
  let main_c_7 : IVec S_ 1 := constantI S_ 1 1#1
  let main_v22 : IVec S_ 1 := (fun x v => Host.reduce IntOp.andi x v reducesTo_S10x64x4000_S_d0_1_2 h_S_) main_v21 main_c_7
  let main_v23 : IVec S_ 1 := andi main_v18 main_v22
  let main_v24 : FVec F S10x4000 .f32 := Host.absf main_arg5
  let main_cst_8 : FVec F S_ .f32 := constant S_ .f32 0x7F800000#32
  let main_v25 : FVec F S10x4000 .f32 := broadcastInDim S10x4000 ![] bcast_S_S10x4000 main_cst_8
  let main_v26 : IVec S10x4000 1 := cmpf .olt main_v24 main_v25
  let main_c_9 : IVec S_ 1 := constantI S_ 1 1#1
  let main_v27 : IVec S_ 1 := (fun x v => Host.reduce IntOp.andi x v reducesTo_S10x4000_S_d0_1 h_S_) main_v26 main_c_9
  let main_v28 : IVec S_ 1 := andi main_v23 main_v27
  main_v28

def fn {F : FTy → Type} [FloatOps F] (main_arg0 : FVec F S4096x125 .f32) (main_arg1 : FVec F S4096 .f32) (main_arg2 : FVec F S10x2000x64 .f32) (main_arg3 : FVec F S10x64 .f32) (main_arg4 : FVec F S10x64x4000 .f32) (main_arg5 : FVec F S10x4000 .f32) (main_arg6 : IVec S4096x125 32) : IVec S_ 1 :=
  let main_v0 : FVec F S4096x125 .f32 := Host.absf main_arg0
  let main_cst : FVec F S_ .f32 := constant S_ .f32 0x7F800000#32
  let main_v1 : FVec F S4096x125 .f32 := broadcastInDim S4096x125 ![] bcast_S_S4096x125 main_cst
  let main_v2 : IVec S4096x125 1 := cmpf .olt main_v0 main_v1
  let main_c : IVec S_ 1 := constantI S_ 1 1#1
  let main_v3 : IVec S_ 1 := (fun x v => Host.reduce IntOp.andi x v reducesTo_S4096x125_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S10x2000x64 .f32 := Host.absf main_arg2
  let main_cst_2 : FVec F S_ .f32 := constant S_ .f32 0x7F800000#32
  let main_v10 : FVec F S10x2000x64 .f32 := broadcastInDim S10x2000x64 ![] bcast_S_S10x2000x64 main_cst_2
  let main_v11 : IVec S10x2000x64 1 := cmpf .olt main_v9 main_v10
  let main_c_3 : IVec S_ 1 := constantI S_ 1 1#1
  let main_v12 : IVec S_ 1 := (fun x v => Host.reduce IntOp.andi x v reducesTo_S10x2000x64_S_d0_1_2 h_S_) main_v11 main_c_3
  let main_v13 : IVec S_ 1 := andi main_v8 main_v12
  let main_v14 : FVec F S10x64 .f32 := Host.absf main_arg3
  let main_cst_4 : FVec F S_ .f32 := constant S_ .f32 0x7F800000#32
  let main_v15 : FVec F S10x64 .f32 := broadcastInDim S10x64 ![] bcast_S_S10x64 main_cst_4
  let main_v16 : IVec S10x64 1 := cmpf .olt main_v14 main_v15
  fn_part1 (F := F) main_arg4 main_arg5 main_v13 main_v16
-- ==== Kernel.lean ====
abbrev S4096x125 : Shape := ⟨2, ![4096, 125]⟩
abbrev S4096 : Shape := ⟨1, ![4096]⟩
abbrev S10x2000x64 : Shape := ⟨3, ![10, 2000, 64]⟩
abbrev S10x64 : Shape := ⟨2, ![10, 64]⟩
abbrev S10x64x4000 : Shape := ⟨3, ![10, 64, 4000]⟩
abbrev S10x4000 : Shape := ⟨2, ![10, 4000]⟩
abbrev S4096x64 : Shape := ⟨2, ![4096, 64]⟩
abbrev S4096x61 : Shape := ⟨2, ![4096, 61]⟩
abbrev S_ : Shape := ⟨0, ![]⟩
abbrev S4096x128 : Shape := ⟨2, ![4096, 128]⟩
abbrev S1x2000x64 : Shape := ⟨3, ![1, 2000, 64]⟩
abbrev S2000x64 : Shape := ⟨2, ![2000, 64]⟩
abbrev S1x64 : Shape := ⟨2, ![1, 64]⟩
abbrev S64 : Shape := ⟨1, ![64]⟩
abbrev S1x64x4000 : Shape := ⟨3, ![1, 64, 4000]⟩
abbrev S64x4000 : Shape := ⟨2, ![64, 4000]⟩
abbrev S1x4000 : Shape := ⟨2, ![1, 4000]⟩
abbrev S4000 : Shape := ⟨1, ![4000]⟩
abbrev S4096x1 : Shape := ⟨2, ![4096, 1]⟩
abbrev S4096x2001 : Shape := ⟨2, ![4096, 2001]⟩
abbrev S4096x61x1 : Shape := ⟨3, ![4096, 61, 1]⟩
abbrev S4096x61x2 : Shape := ⟨3, ![4096, 61, 2]⟩
abbrev S4096x2000 : Shape := ⟨2, ![4096, 2000]⟩
abbrev S4096x4000 : Shape := ⟨2, ![4096, 4000]⟩
abbrev S512x2000 : Shape := ⟨2, ![512, 2000]⟩
abbrev S512x4000 : Shape := ⟨2, ![512, 4000]⟩
abbrev S512x64 : Shape := ⟨2, ![512, 64]⟩
abbrev S4096x4001 : Shape := ⟨2, ![4096, 4001]⟩
abbrev S4096x128x1 : Shape := ⟨3, ![4096, 128, 1]⟩
abbrev S1 : Shape := ⟨1, ![1]⟩
abbrev S1x1x1 : Shape := ⟨3, ![1, 1, 1]⟩
abbrev S4096x122 : Shape := ⟨2, ![4096, 122]⟩
abbrev S4096x64x1 : Shape := ⟨3, ![4096, 64, 1]⟩
abbrev S4096x64x2 : Shape := ⟨3, ![4096, 64, 2]⟩
abbrev S4096x122x1 : Shape := ⟨3, ![4096, 122, 1]⟩

abbrev nBuf : Space → Nat
  | .hbm => 915
  | .vmem => 80
  | .smem => 0
  | _ => 0

abbrev hbmTy0_0 (i : Nat) : BufTy := match i % 128 with
  | 0 => ⟨S4096x125, .f32⟩
  | 1 => ⟨S4096, .f32⟩
  | 2 => ⟨S10x2000x64, .f32⟩
  | 3 => ⟨S10x64, .f32⟩
  | 4 => ⟨S10x64x4000, .f32⟩
  | 5 => ⟨S10x4000, .f32⟩
  | 6 => ⟨S4096x125, .i32⟩
  | 7 => ⟨S4096x64, .f32⟩
  | 8 => ⟨S4096x61, .f32⟩
  | 9 => ⟨S4096x64, .i32⟩
  | 10 => ⟨S4096x61, .i32⟩
  | 11 => ⟨S_, .i32⟩
  | 12 => ⟨S4096x64, .i32⟩
  | 13 => ⟨S4096x64, .i1⟩
  | 14 => ⟨S_, .i32⟩
  | 15 => ⟨S4096x64, .i32⟩
  | 16 => ⟨S4096x64, .i32⟩
  | 17 => ⟨S_, .i32⟩
  | 18 => ⟨S_, .i32⟩
  | 19 => ⟨S4096x64, .i32⟩
  | 20 => ⟨S4096x64, .i32⟩
  | 21 => ⟨S4096x128, .i32⟩
  | 22 => ⟨S1x2000x64, .f32⟩
  | 23 => ⟨S2000x64, .f32⟩
  | 24 => ⟨S1x64, .f32⟩
  | 25 => ⟨S64, .f32⟩
  | 26 => ⟨S1x64x4000, .f32⟩
  | 27 => ⟨S64x4000, .f32⟩
  | 28 => ⟨S1x4000, .f32⟩
  | 29 => ⟨S4000, .f32⟩
  | 30 => ⟨S4096, .i32⟩
  | 31 => ⟨S4096x1, .i32⟩
  | 32 => ⟨S_, .f32⟩
  | 33 => ⟨S4096x2001, .f32⟩
  | 34 => ⟨S_, .i32⟩
  | 35 => ⟨S4096x1, .i32⟩
  | 36 => ⟨S4096x1, .i1⟩
  | 37 => ⟨S_, .i32⟩
  | 38 => ⟨S4096x1, .i32⟩
  | 39 => ⟨S4096x1, .i32⟩
  | 40 => ⟨S4096x1, .i32⟩
  | 41 => ⟨S_, .i32⟩
  | 42 => ⟨S4096x61, .i32⟩
  | 43 => ⟨S4096x61, .i1⟩
  | 44 => ⟨S_, .i32⟩
  | 45 => ⟨S4096x61, .i32⟩
  | 46 => ⟨S4096x61, .i32⟩
  | 47 => ⟨S4096x61, .i32⟩
  | 48 => ⟨S4096x61, .i32⟩
  | 49 => ⟨S4096x61x1, .i32⟩
  | 50 => ⟨S4096x61x1, .i32⟩
  | 51 => ⟨S4096x61x2, .i32⟩
  | 52 => ⟨S4096x2001, .f32⟩
  | 53 => ⟨S4096x2000, .f32⟩
  | 54 => ⟨S1x64, .f32⟩
  | 55 => ⟨S1x4000, .f32⟩
  | 56 => ⟨S4096x4000, .f32⟩
  | 57 => ⟨S_, .f32⟩
  | 58 => ⟨S4096x1, .f32⟩
  | 59 => ⟨S4096x4001, .f32⟩
  | 60 => ⟨S_, .i32⟩
  | 61 => ⟨S4096x128, .i32⟩
  | 62 => ⟨S4096x128, .i1⟩
  | 63 => ⟨S_, .i32⟩
  | 64 => ⟨S4096x128, .i32⟩
  | 65 => ⟨S4096x128, .i32⟩
  | 66 => ⟨S4096x128, .i32⟩
  | 67 => ⟨S4096x128x1, .i32⟩
  | 68 => ⟨S1, .i32⟩
  | 69 => ⟨S_, .i32⟩
  | 70 => ⟨S4096x128x1, .i32⟩
  | 71 => ⟨S4096x128x1, .i1⟩
  | 72 => ⟨S1x1x1, .i32⟩
  | 73 => ⟨S4096x128x1, .i32⟩
  | 74 => ⟨S4096x128x1, .i1⟩
  | 75 => ⟨S4096x128x1, .i1⟩
  | 76 => ⟨S_, .i1⟩
  | 77 => ⟨S4096x128, .i1⟩
  | 78 => ⟨S4096x128, .f32⟩
  | 79 => ⟨S_, .f32⟩
  | 80 => ⟨S4096x128, .f32⟩
  | 81 => ⟨S4096x128, .f32⟩
  | 82 => ⟨S4096x64, .f32⟩
  | 83 => ⟨S4096x64, .f32⟩
  | 84 => ⟨S_, .f32⟩
  | 85 => ⟨S4096x64, .f32⟩
  | 86 => ⟨S4096x64, .f32⟩
  | 87 => ⟨S4096x64, .f32⟩
  | 88 => ⟨S4096x64, .f32⟩
  | 89 => ⟨S_, .f32⟩
  | 90 => ⟨S4096x64, .f32⟩
  | 91 => ⟨S4096x64, .f32⟩
  | 92 => ⟨S_, .f32⟩
  | 93 => ⟨S4096x64, .f32⟩
  | 94 => ⟨S4096x64, .f32⟩
  | 95 => ⟨S4096x64, .f32⟩
  | 96 => ⟨S4096x64, .f32⟩
  | 97 => ⟨S4096x64, .f32⟩
  | 98 => ⟨S_, .f32⟩
  | 99 => ⟨S4096, .f32⟩
  | 100 => ⟨S4096, .f32⟩
  | 101 => ⟨S_, .i32⟩
  | 102 => ⟨S4096x61, .i32⟩
  | 103 => ⟨S4096x61, .i1⟩
  | 104 => ⟨S_, .i32⟩
  | 105 => ⟨S4096x61, .i32⟩
  | 106 => ⟨S4096x61, .i32⟩
  | 107 => ⟨S_, .i32⟩
  | 108 => ⟨S_, .i32⟩
  | 109 => ⟨S4096x61, .i32⟩
  | 110 => ⟨S4096x61, .i32⟩
  | 111 => ⟨S4096x122, .i32⟩
  | 112 => ⟨S1x2000x64, .f32⟩
  | 113 => ⟨S2000x64, .f32⟩
  | 114 => ⟨S1x64, .f32⟩
  | 115 => ⟨S64, .f32⟩
  | 116 => ⟨S1x64x4000, .f32⟩
  | 117 => ⟨S64x4000, .f32⟩
  | 118 => ⟨S1x4000, .f32⟩
  | 119 => ⟨S4000, .f32⟩
  | 120 => ⟨S4096, .i32⟩
  | 121 => ⟨S4096x1, .i32⟩
  | 122 => ⟨S_, .f32⟩
  | 123 => ⟨S4096x2001, .f32⟩
  | 124 => ⟨S_, .i32⟩
  | 125 => ⟨S4096x1, .i32⟩
  | 126 => ⟨S4096x1, .i1⟩
  | 127 => ⟨S_, .i32⟩
  | _ => ⟨S4096x125, .f32⟩

abbrev hbmTy0_1 (i : Nat) : BufTy := match i % 128 with
  | 0 => ⟨S4096x1, .i32⟩
  | 1 => ⟨S4096x1, .i32⟩
  | 2 => ⟨S4096x1, .i32⟩
  | 3 => ⟨S_, .i32⟩
  | 4 => ⟨S4096x64, .i32⟩
  | 5 => ⟨S4096x64, .i1⟩
  | 6 => ⟨S_, .i32⟩
  | 7 => ⟨S4096x64, .i32⟩
  | 8 => ⟨S4096x64, .i32⟩
  | 9 => ⟨S4096x64, .i32⟩
  | 10 => ⟨S4096x64, .i32⟩
  | 11 => ⟨S4096x64x1, .i32⟩
  | 12 => ⟨S4096x64x1, .i32⟩
  | 13 => ⟨S4096x64x2, .i32⟩
  | 14 => ⟨S4096x2001, .f32⟩
  | 15 => ⟨S4096x2000, .f32⟩
  | 16 => ⟨S1x64, .f32⟩
  | 17 => ⟨S1x4000, .f32⟩
  | 18 => ⟨S4096x4000, .f32⟩
  | 19 => ⟨S_, .f32⟩
  | 20 => ⟨S4096x1, .f32⟩
  | 21 => ⟨S4096x4001, .f32⟩
  | 22 => ⟨S_, .i32⟩
  | 23 => ⟨S4096x122, .i32⟩
  | 24 => ⟨S4096x122, .i1⟩
  | 25 => ⟨S_, .i32⟩
  | 26 => ⟨S4096x122, .i32⟩
  | 27 => ⟨S4096x122, .i32⟩
  | 28 => ⟨S4096x122, .i32⟩
  | 29 => ⟨S4096x122x1, .i32⟩
  | 30 => ⟨S1, .i32⟩
  | 31 => ⟨S_, .i32⟩
  | 32 => ⟨S4096x122x1, .i32⟩
  | 33 => ⟨S4096x122x1, .i1⟩
  | 34 => ⟨S1x1x1, .i32⟩
  | 35 => ⟨S4096x122x1, .i32⟩
  | 36 => ⟨S4096x122x1, .i1⟩
  | 37 => ⟨S4096x122x1, .i1⟩
  | 38 => ⟨S_, .i1⟩
  | 39 => ⟨S4096x122, .i1⟩
  | 40 => ⟨S4096x122, .f32⟩
  | 41 => ⟨S_, .f32⟩
  | 42 => ⟨S4096x122, .f32⟩
  | 43 => ⟨S4096x122, .f32⟩
  | 44 => ⟨S4096x61, .f32⟩
  | 45 => ⟨S4096x61, .f32⟩
  | 46 => ⟨S_, .f32⟩
  | 47 => ⟨S4096x61, .f32⟩
  | 48 => ⟨S4096x61, .f32⟩
  | 49 => ⟨S4096x61, .f32⟩
  | 50 => ⟨S4096x61, .f32⟩
  | 51 => ⟨S_, .f32⟩
  | 52 => ⟨S4096x61, .f32⟩
  | 53 => ⟨S4096x61, .f32⟩
  | 54 => ⟨S_, .f32⟩
  | 55 => ⟨S4096x61, .f32⟩
  | 56 => ⟨S4096x61, .f32⟩
  | 57 => ⟨S4096x61, .f32⟩
  | 58 => ⟨S4096x61, .f32⟩
  | 59 => ⟨S4096x61, .f32⟩
  | 60 => ⟨S_, .f32⟩
  | 61 => ⟨S4096, .f32⟩
  | 62 => ⟨S4096, .f32⟩
  | 63 => ⟨S_, .i32⟩
  | 64 => ⟨S4096x64, .i32⟩
  | 65 => ⟨S4096x64, .i1⟩
  | 66 => ⟨S_, .i32⟩
  | 67 => ⟨S4096x64, .i32⟩
  | 68 => ⟨S4096x64, .i32⟩
  | 69 => ⟨S_, .i32⟩
  | 70 => ⟨S_, .i32⟩
  | 71 => ⟨S4096x64, .i32⟩
  | 72 => ⟨S4096x64, .i32⟩
  | 73 => ⟨S4096x128, .i32⟩
  | 74 => ⟨S1x2000x64, .f32⟩
  | 75 => ⟨S2000x64, .f32⟩
  | 76 => ⟨S1x64, .f32⟩
  | 77 => ⟨S64, .f32⟩
  | 78 => ⟨S1x64x4000, .f32⟩
  | 79 => ⟨S64x4000, .f32⟩
  | 80 => ⟨S1x4000, .f32⟩
  | 81 => ⟨S4000, .f32⟩
  | 82 => ⟨S4096, .i32⟩
  | 83 => ⟨S4096x1, .i32⟩
  | 84 => ⟨S_, .f32⟩
  | 85 => ⟨S4096x2001, .f32⟩
  | 86 => ⟨S_, .i32⟩
  | 87 => ⟨S4096x1, .i32⟩
  | 88 => ⟨S4096x1, .i1⟩
  | 89 => ⟨S_, .i32⟩
  | 90 => ⟨S4096x1, .i32⟩
  | 91 => ⟨S4096x1, .i32⟩
  | 92 => ⟨S4096x1, .i32⟩
  | 93 => ⟨S_, .i32⟩
  | 94 => ⟨S4096x61, .i32⟩
  | 95 => ⟨S4096x61, .i1⟩
  | 96 => ⟨S_, .i32⟩
  | 97 => ⟨S4096x61, .i32⟩
  | 98 => ⟨S4096x61, .i32⟩
  | 99 => ⟨S4096x61, .i32⟩
  | 100 => ⟨S4096x61, .i32⟩
  | 101 => ⟨S4096x61x1, .i32⟩
  | 102 => ⟨S4096x61x1, .i32⟩
  | 103 => ⟨S4096x61x2, .i32⟩
  | 104 => ⟨S4096x2001, .f32⟩
  | 105 => ⟨S4096x2000, .f32⟩
  | 106 => ⟨S1x64, .f32⟩
  | 107 => ⟨S1x4000, .f32⟩
  | 108 => ⟨S4096x4000, .f32⟩
  | 109 => ⟨S_, .f32⟩
  | 110 => ⟨S4096x1, .f32⟩
  | 111 => ⟨S4096x4001, .f32⟩
  | 112 => ⟨S_, .i32⟩
  | 113 => ⟨S4096x128, .i32⟩
  | 114 => ⟨S4096x128, .i1⟩
  | 115 => ⟨S_, .i32⟩
  | 116 => ⟨S4096x128, .i32⟩
  | 117 => ⟨S4096x128, .i32⟩
  | 118 => ⟨S4096x128, .i32⟩
  | 119 => ⟨S4096x128x1, .i32⟩
  | 120 => ⟨S1, .i32⟩
  | 121 => ⟨S_, .i32⟩
  | 122 => ⟨S4096x128x1, .i32⟩
  | 123 => ⟨S4096x128x1, .i1⟩
  | 124 => ⟨S1x1x1, .i32⟩
  | 125 => ⟨S4096x128x1, .i32⟩
  | 126 => ⟨S4096x128x1, .i1⟩
  | 127 => ⟨S4096x128x1, .i1⟩
  | _ => ⟨S4096x125, .f32⟩

abbrev hbmTy0_2 (i : Nat) : BufTy := match i % 128 with
  | 0 => ⟨S_, .i1⟩
  | 1 => ⟨S4096x128, .i1⟩
  | 2 => ⟨S4096x128, .f32⟩
  | 3 => ⟨S_, .f32⟩
  | 4 => ⟨S4096x128, .f32⟩
  | 5 => ⟨S4096x128, .f32⟩
  | 6 => ⟨S4096x64, .f32⟩
  | 7 => ⟨S4096x64, .f32⟩
  | 8 => ⟨S_, .f32⟩
  | 9 => ⟨S4096x64, .f32⟩
  | 10 => ⟨S4096x64, .f32⟩
  | 11 => ⟨S4096x64, .f32⟩
  | 12 => ⟨S4096x64, .f32⟩
  | 13 => ⟨S_, .f32⟩
  | 14 => ⟨S4096x64, .f32⟩
  | 15 => ⟨S4096x64, .f32⟩
  | 16 => ⟨S_, .f32⟩
  | 17 => ⟨S4096x64, .f32⟩
  | 18 => ⟨S4096x64, .f32⟩
  | 19 => ⟨S4096x64, .f32⟩
  | 20 => ⟨S4096x64, .f32⟩
  | 21 => ⟨S4096x64, .f32⟩
  | 22 => ⟨S_, .f32⟩
  | 23 => ⟨S4096, .f32⟩
  | 24 => ⟨S4096, .f32⟩
  | 25 => ⟨S_, .i32⟩
  | 26 => ⟨S4096x61, .i32⟩
  | 27 => ⟨S4096x61, .i1⟩
  | 28 => ⟨S_, .i32⟩
  | 29 => ⟨S4096x61, .i32⟩
  | 30 => ⟨S4096x61, .i32⟩
  | 31 => ⟨S_, .i32⟩
  | 32 => ⟨S_, .i32⟩
  | 33 => ⟨S4096x61, .i32⟩
  | 34 => ⟨S4096x61, .i32⟩
  | 35 => ⟨S4096x122, .i32⟩
  | 36 => ⟨S1x2000x64, .f32⟩
  | 37 => ⟨S2000x64, .f32⟩
  | 38 => ⟨S1x64, .f32⟩
  | 39 => ⟨S64, .f32⟩
  | 40 => ⟨S1x64x4000, .f32⟩
  | 41 => ⟨S64x4000, .f32⟩
  | 42 => ⟨S1x4000, .f32⟩
  | 43 => ⟨S4000, .f32⟩
  | 44 => ⟨S4096, .i32⟩
  | 45 => ⟨S4096x1, .i32⟩
  | 46 => ⟨S_, .f32⟩
  | 47 => ⟨S4096x2001, .f32⟩
  | 48 => ⟨S_, .i32⟩
  | 49 => ⟨S4096x1, .i32⟩
  | 50 => ⟨S4096x1, .i1⟩
  | 51 => ⟨S_, .i32⟩
  | 52 => ⟨S4096x1, .i32⟩
  | 53 => ⟨S4096x1, .i32⟩
  | 54 => ⟨S4096x1, .i32⟩
  | 55 => ⟨S_, .i32⟩
  | 56 => ⟨S4096x64, .i32⟩
  | 57 => ⟨S4096x64, .i1⟩
  | 58 => ⟨S_, .i32⟩
  | 59 => ⟨S4096x64, .i32⟩
  | 60 => ⟨S4096x64, .i32⟩
  | 61 => ⟨S4096x64, .i32⟩
  | 62 => ⟨S4096x64, .i32⟩
  | 63 => ⟨S4096x64x1, .i32⟩
  | 64 => ⟨S4096x64x1, .i32⟩
  | 65 => ⟨S4096x64x2, .i32⟩
  | 66 => ⟨S4096x2001, .f32⟩
  | 67 => ⟨S4096x2000, .f32⟩
  | 68 => ⟨S1x64, .f32⟩
  | 69 => ⟨S1x4000, .f32⟩
  | 70 => ⟨S4096x4000, .f32⟩
  | 71 => ⟨S_, .f32⟩
  | 72 => ⟨S4096x1, .f32⟩
  | 73 => ⟨S4096x4001, .f32⟩
  | 74 => ⟨S_, .i32⟩
  | 75 => ⟨S4096x122, .i32⟩
  | 76 => ⟨S4096x122, .i1⟩
  | 77 => ⟨S_, .i32⟩
  | 78 => ⟨S4096x122, .i32⟩
  | 79 => ⟨S4096x122, .i32⟩
  | 80 => ⟨S4096x122, .i32⟩
  | 81 => ⟨S4096x122x1, .i32⟩
  | 82 => ⟨S1, .i32⟩
  | 83 => ⟨S_, .i32⟩
  | 84 => ⟨S4096x122x1, .i32⟩
  | 85 => ⟨S4096x122x1, .i1⟩
  | 86 => ⟨S1x1x1, .i32⟩
  | 87 => ⟨S4096x122x1, .i32⟩
  | 88 => ⟨S4096x122x1, .i1⟩
  | 89 => ⟨S4096x122x1, .i1⟩
  | 90 => ⟨S_, .i1⟩
  | 91 => ⟨S4096x122, .i1⟩
  | 92 => ⟨S4096x122, .f32⟩
  | 93 => ⟨S_, .f32⟩
  | 94 => ⟨S4096x122, .f32⟩
  | 95 => ⟨S4096x122, .f32⟩
  | 96 => ⟨S4096x61, .f32⟩
  | 97 => ⟨S4096x61, .f32⟩
  | 98 => ⟨S_, .f32⟩
  | 99 => ⟨S4096x61, .f32⟩
  | 100 => ⟨S4096x61, .f32⟩
  | 101 => ⟨S4096x61, .f32⟩
  | 102 => ⟨S4096x61, .f32⟩
  | 103 => ⟨S_, .f32⟩
  | 104 => ⟨S4096x61, .f32⟩
  | 105 => ⟨S4096x61, .f32⟩
  | 106 => ⟨S_, .f32⟩
  | 107 => ⟨S4096x61, .f32⟩
  | 108 => ⟨S4096x61, .f32⟩
  | 109 => ⟨S4096x61, .f32⟩
  | 110 => ⟨S4096x61, .f32⟩
  | 111 => ⟨S4096x61, .f32⟩
  | 112 => ⟨S_, .f32⟩
  | 113 => ⟨S4096, .f32⟩
  | 114 => ⟨S4096, .f32⟩
  | 115 => ⟨S_, .i32⟩
  | 116 => ⟨S4096x64, .i32⟩
  | 117 => ⟨S4096x64, .i1⟩
  | 118 => ⟨S_, .i32⟩
  | 119 => ⟨S4096x64, .i32⟩
  | 120 => ⟨S4096x64, .i32⟩
  | 121 => ⟨S_, .i32⟩
  | 122 => ⟨S_, .i32⟩
  | 123 => ⟨S4096x64, .i32⟩
  | 124 => ⟨S4096x64, .i32⟩
  | 125 => ⟨S4096x128, .i32⟩
  | 126 => ⟨S1x2000x64, .f32⟩
  | 127 => ⟨S2000x64, .f32⟩
  | _ => ⟨S4096x125, .f32⟩

abbrev hbmTy0_3 (i : Nat) : BufTy := match i % 128 with
  | 0 => ⟨S1x64, .f32⟩
  | 1 => ⟨S64, .f32⟩
  | 2 => ⟨S1x64x4000, .f32⟩
  | 3 => ⟨S64x4000, .f32⟩
  | 4 => ⟨S1x4000, .f32⟩
  | 5 => ⟨S4000, .f32⟩
  | 6 => ⟨S4096, .i32⟩
  | 7 => ⟨S4096x1, .i32⟩
  | 8 => ⟨S_, .f32⟩
  | 9 => ⟨S4096x2001, .f32⟩
  | 10 => ⟨S_, .i32⟩
  | 11 => ⟨S4096x1, .i32⟩
  | 12 => ⟨S4096x1, .i1⟩
  | 13 => ⟨S_, .i32⟩
  | 14 => ⟨S4096x1, .i32⟩
  | 15 => ⟨S4096x1, .i32⟩
  | 16 => ⟨S4096x1, .i32⟩
  | 17 => ⟨S_, .i32⟩
  | 18 => ⟨S4096x61, .i32⟩
  | 19 => ⟨S4096x61, .i1⟩
  | 20 => ⟨S_, .i32⟩
  | 21 => ⟨S4096x61, .i32⟩
  | 22 => ⟨S4096x61, .i32⟩
  | 23 => ⟨S4096x61, .i32⟩
  | 24 => ⟨S4096x61, .i32⟩
  | 25 => ⟨S4096x61x1, .i32⟩
  | 26 => ⟨S4096x61x1, .i32⟩
  | 27 => ⟨S4096x61x2, .i32⟩
  | 28 => ⟨S4096x2001, .f32⟩
  | 29 => ⟨S4096x2000, .f32⟩
  | 30 => ⟨S1x64, .f32⟩
  | 31 => ⟨S1x4000, .f32⟩
  | 32 => ⟨S4096x4000, .f32⟩
  | 33 => ⟨S_, .f32⟩
  | 34 => ⟨S4096x1, .f32⟩
  | 35 => ⟨S4096x4001, .f32⟩
  | 36 => ⟨S_, .i32⟩
  | 37 => ⟨S4096x128, .i32⟩
  | 38 => ⟨S4096x128, .i1⟩
  | 39 => ⟨S_, .i32⟩
  | 40 => ⟨S4096x128, .i32⟩
  | 41 => ⟨S4096x128, .i32⟩
  | 42 => ⟨S4096x128, .i32⟩
  | 43 => ⟨S4096x128x1, .i32⟩
  | 44 => ⟨S1, .i32⟩
  | 45 => ⟨S_, .i32⟩
  | 46 => ⟨S4096x128x1, .i32⟩
  | 47 => ⟨S4096x128x1, .i1⟩
  | 48 => ⟨S1x1x1, .i32⟩
  | 49 => ⟨S4096x128x1, .i32⟩
  | 50 => ⟨S4096x128x1, .i1⟩
  | 51 => ⟨S4096x128x1, .i1⟩
  | 52 => ⟨S_, .i1⟩
  | 53 => ⟨S4096x128, .i1⟩
  | 54 => ⟨S4096x128, .f32⟩
  | 55 => ⟨S_, .f32⟩
  | 56 => ⟨S4096x128, .f32⟩
  | 57 => ⟨S4096x128, .f32⟩
  | 58 => ⟨S4096x64, .f32⟩
  | 59 => ⟨S4096x64, .f32⟩
  | 60 => ⟨S_, .f32⟩
  | 61 => ⟨S4096x64, .f32⟩
  | 62 => ⟨S4096x64, .f32⟩
  | 63 => ⟨S4096x64, .f32⟩
  | 64 => ⟨S4096x64, .f32⟩
  | 65 => ⟨S_, .f32⟩
  | 66 => ⟨S4096x64, .f32⟩
  | 67 => ⟨S4096x64, .f32⟩
  | 68 => ⟨S_, .f32⟩
  | 69 => ⟨S4096x64, .f32⟩
  | 70 => ⟨S4096x64, .f32⟩
  | 71 => ⟨S4096x64, .f32⟩
  | 72 => ⟨S4096x64, .f32⟩
  | 73 => ⟨S4096x64, .f32⟩
  | 74 => ⟨S_, .f32⟩
  | 75 => ⟨S4096, .f32⟩
  | 76 => ⟨S4096, .f32⟩
  | 77 => ⟨S_, .i32⟩
  | 78 => ⟨S4096x61, .i32⟩
  | 79 => ⟨S4096x61, .i1⟩
  | 80 => ⟨S_, .i32⟩
  | 81 => ⟨S4096x61, .i32⟩
  | 82 => ⟨S4096x61, .i32⟩
  | 83 => ⟨S_, .i32⟩
  | 84 => ⟨S_, .i32⟩
  | 85 => ⟨S4096x61, .i32⟩
  | 86 => ⟨S4096x61, .i32⟩
  | 87 => ⟨S4096x122, .i32⟩
  | 88 => ⟨S1x2000x64, .f32⟩
  | 89 => ⟨S2000x64, .f32⟩
  | 90 => ⟨S1x64, .f32⟩
  | 91 => ⟨S64, .f32⟩
  | 92 => ⟨S1x64x4000, .f32⟩
  | 93 => ⟨S64x4000, .f32⟩
  | 94 => ⟨S1x4000, .f32⟩
  | 95 => ⟨S4000, .f32⟩
  | 96 => ⟨S4096, .i32⟩
  | 97 => ⟨S4096x1, .i32⟩
  | 98 => ⟨S_, .f32⟩
  | 99 => ⟨S4096x2001, .f32⟩
  | 100 => ⟨S_, .i32⟩
  | 101 => ⟨S4096x1, .i32⟩
  | 102 => ⟨S4096x1, .i1⟩
  | 103 => ⟨S_, .i32⟩
  | 104 => ⟨S4096x1, .i32⟩
  | 105 => ⟨S4096x1, .i32⟩
  | 106 => ⟨S4096x1, .i32⟩
  | 107 => ⟨S_, .i32⟩
  | 108 => ⟨S4096x64, .i32⟩
  | 109 => ⟨S4096x64, .i1⟩
  | 110 => ⟨S_, .i32⟩
  | 111 => ⟨S4096x64, .i32⟩
  | 112 => ⟨S4096x64, .i32⟩
  | 113 => ⟨S4096x64, .i32⟩
  | 114 => ⟨S4096x64, .i32⟩
  | 115 => ⟨S4096x64x1, .i32⟩
  | 116 => ⟨S4096x64x1, .i32⟩
  | 117 => ⟨S4096x64x2, .i32⟩
  | 118 => ⟨S4096x2001, .f32⟩
  | 119 => ⟨S4096x2000, .f32⟩
  | 120 => ⟨S1x64, .f32⟩
  | 121 => ⟨S1x4000, .f32⟩
  | 122 => ⟨S4096x4000, .f32⟩
  | 123 => ⟨S_, .f32⟩
  | 124 => ⟨S4096x1, .f32⟩
  | 125 => ⟨S4096x4001, .f32⟩
  | 126 => ⟨S_, .i32⟩
  | 127 => ⟨S4096x122, .i32⟩
  | _ => ⟨S4096x125, .f32⟩

abbrev hbmTy0_4 (i : Nat) : BufTy := match i % 128 with
  | 0 => ⟨S4096x122, .i1⟩
  | 1 => ⟨S_, .i32⟩
  | 2 => ⟨S4096x122, .i32⟩
  | 3 => ⟨S4096x122, .i32⟩
  | 4 => ⟨S4096x122, .i32⟩
  | 5 => ⟨S4096x122x1, .i32⟩
  | 6 => ⟨S1, .i32⟩
  | 7 => ⟨S_, .i32⟩
  | 8 => ⟨S4096x122x1, .i32⟩
  | 9 => ⟨S4096x122x1, .i1⟩
  | 10 => ⟨S1x1x1, .i32⟩
  | 11 => ⟨S4096x122x1, .i32⟩
  | 12 => ⟨S4096x122x1, .i1⟩
  | 13 => ⟨S4096x122x1, .i1⟩
  | 14 => ⟨S_, .i1⟩
  | 15 => ⟨S4096x122, .i1⟩
  | 16 => ⟨S4096x122, .f32⟩
  | 17 => ⟨S_, .f32⟩
  | 18 => ⟨S4096x122, .f32⟩
  | 19 => ⟨S4096x122, .f32⟩
  | 20 => ⟨S4096x61, .f32⟩
  | 21 => ⟨S4096x61, .f32⟩
  | 22 => ⟨S_, .f32⟩
  | 23 => ⟨S4096x61, .f32⟩
  | 24 => ⟨S4096x61, .f32⟩
  | 25 => ⟨S4096x61, .f32⟩
  | 26 => ⟨S4096x61, .f32⟩
  | 27 => ⟨S_, .f32⟩
  | 28 => ⟨S4096x61, .f32⟩
  | 29 => ⟨S4096x61, .f32⟩
  | 30 => ⟨S_, .f32⟩
  | 31 => ⟨S4096x61, .f32⟩
  | 32 => ⟨S4096x61, .f32⟩
  | 33 => ⟨S4096x61, .f32⟩
  | 34 => ⟨S4096x61, .f32⟩
  | 35 => ⟨S4096x61, .f32⟩
  | 36 => ⟨S_, .f32⟩
  | 37 => ⟨S4096, .f32⟩
  | 38 => ⟨S4096, .f32⟩
  | 39 => ⟨S_, .i32⟩
  | 40 => ⟨S4096x64, .i32⟩
  | 41 => ⟨S4096x64, .i1⟩
  | 42 => ⟨S_, .i32⟩
  | 43 => ⟨S4096x64, .i32⟩
  | 44 => ⟨S4096x64, .i32⟩
  | 45 => ⟨S_, .i32⟩
  | 46 => ⟨S_, .i32⟩
  | 47 => ⟨S4096x64, .i32⟩
  | 48 => ⟨S4096x64, .i32⟩
  | 49 => ⟨S4096x128, .i32⟩
  | 50 => ⟨S1x2000x64, .f32⟩
  | 51 => ⟨S2000x64, .f32⟩
  | 52 => ⟨S1x64, .f32⟩
  | 53 => ⟨S64, .f32⟩
  | 54 => ⟨S1x64x4000, .f32⟩
  | 55 => ⟨S64x4000, .f32⟩
  | 56 => ⟨S1x4000, .f32⟩
  | 57 => ⟨S4000, .f32⟩
  | 58 => ⟨S4096, .i32⟩
  | 59 => ⟨S4096x1, .i32⟩
  | 60 => ⟨S_, .f32⟩
  | 61 => ⟨S4096x2001, .f32⟩
  | 62 => ⟨S_, .i32⟩
  | 63 => ⟨S4096x1, .i32⟩
  | 64 => ⟨S4096x1, .i1⟩
  | 65 => ⟨S_, .i32⟩
  | 66 => ⟨S4096x1, .i32⟩
  | 67 => ⟨S4096x1, .i32⟩
  | 68 => ⟨S4096x1, .i32⟩
  | 69 => ⟨S_, .i32⟩
  | 70 => ⟨S4096x61, .i32⟩
  | 71 => ⟨S4096x61, .i1⟩
  | 72 => ⟨S_, .i32⟩
  | 73 => ⟨S4096x61, .i32⟩
  | 74 => ⟨S4096x61, .i32⟩
  | 75 => ⟨S4096x61, .i32⟩
  | 76 => ⟨S4096x61, .i32⟩
  | 77 => ⟨S4096x61x1, .i32⟩
  | 78 => ⟨S4096x61x1, .i32⟩
  | 79 => ⟨S4096x61x2, .i32⟩
  | 80 => ⟨S4096x2001, .f32⟩
  | 81 => ⟨S4096x2000, .f32⟩
  | 82 => ⟨S1x64, .f32⟩
  | 83 => ⟨S1x4000, .f32⟩
  | 84 => ⟨S4096x4000, .f32⟩
  | 85 => ⟨S_, .f32⟩
  | 86 => ⟨S4096x1, .f32⟩
  | 87 => ⟨S4096x4001, .f32⟩
  | 88 => ⟨S_, .i32⟩
  | 89 => ⟨S4096x128, .i32⟩
  | 90 => ⟨S4096x128, .i1⟩
  | 91 => ⟨S_, .i32⟩
  | 92 => ⟨S4096x128, .i32⟩
  | 93 => ⟨S4096x128, .i32⟩
  | 94 => ⟨S4096x128, .i32⟩
  | 95 => ⟨S4096x128x1, .i32⟩
  | 96 => ⟨S1, .i32⟩
  | 97 => ⟨S_, .i32⟩
  | 98 => ⟨S4096x128x1, .i32⟩
  | 99 => ⟨S4096x128x1, .i1⟩
  | 100 => ⟨S1x1x1, .i32⟩
  | 101 => ⟨S4096x128x1, .i32⟩
  | 102 => ⟨S4096x128x1, .i1⟩
  | 103 => ⟨S4096x128x1, .i1⟩
  | 104 => ⟨S_, .i1⟩
  | 105 => ⟨S4096x128, .i1⟩
  | 106 => ⟨S4096x128, .f32⟩
  | 107 => ⟨S_, .f32⟩
  | 108 => ⟨S4096x128, .f32⟩
  | 109 => ⟨S4096x128, .f32⟩
  | 110 => ⟨S4096x64, .f32⟩
  | 111 => ⟨S4096x64, .f32⟩
  | 112 => ⟨S_, .f32⟩
  | 113 => ⟨S4096x64, .f32⟩
  | 114 => ⟨S4096x64, .f32⟩
  | 115 => ⟨S4096x64, .f32⟩
  | 116 => ⟨S4096x64, .f32⟩
  | 117 => ⟨S_, .f32⟩
  | 118 => ⟨S4096x64, .f32⟩
  | 119 => ⟨S4096x64, .f32⟩
  | 120 => ⟨S_, .f32⟩
  | 121 => ⟨S4096x64, .f32⟩
  | 122 => ⟨S4096x64, .f32⟩
  | 123 => ⟨S4096x64, .f32⟩
  | 124 => ⟨S4096x64, .f32⟩
  | 125 => ⟨S4096x64, .f32⟩
  | 126 => ⟨S_, .f32⟩
  | 127 => ⟨S4096, .f32⟩
  | _ => ⟨S4096x125, .f32⟩

abbrev hbmTy0_5 (i : Nat) : BufTy := match i % 128 with
  | 0 => ⟨S4096, .f32⟩
  | 1 => ⟨S_, .i32⟩
  | 2 => ⟨S4096x61, .i32⟩
  | 3 => ⟨S4096x61, .i1⟩
  | 4 => ⟨S_, .i32⟩
  | 5 => ⟨S4096x61, .i32⟩
  | 6 => ⟨S4096x61, .i32⟩
  | 7 => ⟨S_, .i32⟩
  | 8 => ⟨S_, .i32⟩
  | 9 => ⟨S4096x61, .i32⟩
  | 10 => ⟨S4096x61, .i32⟩
  | 11 => ⟨S4096x122, .i32⟩
  | 12 => ⟨S1x2000x64, .f32⟩
  | 13 => ⟨S2000x64, .f32⟩
  | 14 => ⟨S1x64, .f32⟩
  | 15 => ⟨S64, .f32⟩
  | 16 => ⟨S1x64x4000, .f32⟩
  | 17 => ⟨S64x4000, .f32⟩
  | 18 => ⟨S1x4000, .f32⟩
  | 19 => ⟨S4000, .f32⟩
  | 20 => ⟨S4096, .i32⟩
  | 21 => ⟨S4096x1, .i32⟩
  | 22 => ⟨S_, .f32⟩
  | 23 => ⟨S4096x2001, .f32⟩
  | 24 => ⟨S_, .i32⟩
  | 25 => ⟨S4096x1, .i32⟩
  | 26 => ⟨S4096x1, .i1⟩
  | 27 => ⟨S_, .i32⟩
  | 28 => ⟨S4096x1, .i32⟩
  | 29 => ⟨S4096x1, .i32⟩
  | 30 => ⟨S4096x1, .i32⟩
  | 31 => ⟨S_, .i32⟩
  | 32 => ⟨S4096x64, .i32⟩
  | 33 => ⟨S4096x64, .i1⟩
  | 34 => ⟨S_, .i32⟩
  | 35 => ⟨S4096x64, .i32⟩
  | 36 => ⟨S4096x64, .i32⟩
  | 37 => ⟨S4096x64, .i32⟩
  | 38 => ⟨S4096x64, .i32⟩
  | 39 => ⟨S4096x64x1, .i32⟩
  | 40 => ⟨S4096x64x1, .i32⟩
  | 41 => ⟨S4096x64x2, .i32⟩
  | 42 => ⟨S4096x2001, .f32⟩
  | 43 => ⟨S4096x2000, .f32⟩
  | 44 => ⟨S1x64, .f32⟩
  | 45 => ⟨S1x4000, .f32⟩
  | 46 => ⟨S4096x4000, .f32⟩
  | 47 => ⟨S_, .f32⟩
  | 48 => ⟨S4096x1, .f32⟩
  | 49 => ⟨S4096x4001, .f32⟩
  | 50 => ⟨S_, .i32⟩
  | 51 => ⟨S4096x122, .i32⟩
  | 52 => ⟨S4096x122, .i1⟩
  | 53 => ⟨S_, .i32⟩
  | 54 => ⟨S4096x122, .i32⟩
  | 55 => ⟨S4096x122, .i32⟩
  | 56 => ⟨S4096x122, .i32⟩
  | 57 => ⟨S4096x122x1, .i32⟩
  | 58 => ⟨S1, .i32⟩
  | 59 => ⟨S_, .i32⟩
  | 60 => ⟨S4096x122x1, .i32⟩
  | 61 => ⟨S4096x122x1, .i1⟩
  | 62 => ⟨S1x1x1, .i32⟩
  | 63 => ⟨S4096x122x1, .i32⟩
  | 64 => ⟨S4096x122x1, .i1⟩
  | 65 => ⟨S4096x122x1, .i1⟩
  | 66 => ⟨S_, .i1⟩
  | 67 => ⟨S4096x122, .i1⟩
  | 68 => ⟨S4096x122, .f32⟩
  | 69 => ⟨S_, .f32⟩
  | 70 => ⟨S4096x122, .f32⟩
  | 71 => ⟨S4096x122, .f32⟩
  | 72 => ⟨S4096x61, .f32⟩
  | 73 => ⟨S4096x61, .f32⟩
  | 74 => ⟨S_, .f32⟩
  | 75 => ⟨S4096x61, .f32⟩
  | 76 => ⟨S4096x61, .f32⟩
  | 77 => ⟨S4096x61, .f32⟩
  | 78 => ⟨S4096x61, .f32⟩
  | 79 => ⟨S_, .f32⟩
  | 80 => ⟨S4096x61, .f32⟩
  | 81 => ⟨S4096x61, .f32⟩
  | 82 => ⟨S_, .f32⟩
  | 83 => ⟨S4096x61, .f32⟩
  | 84 => ⟨S4096x61, .f32⟩
  | 85 => ⟨S4096x61, .f32⟩
  | 86 => ⟨S4096x61, .f32⟩
  | 87 => ⟨S4096x61, .f32⟩
  | 88 => ⟨S_, .f32⟩
  | 89 => ⟨S4096, .f32⟩
  | 90 => ⟨S4096, .f32⟩
  | 91 => ⟨S_, .i32⟩
  | 92 => ⟨S4096x64, .i32⟩
  | 93 => ⟨S4096x64, .i1⟩
  | 94 => ⟨S_, .i32⟩
  | 95 => ⟨S4096x64, .i32⟩
  | 96 => ⟨S4096x64, .i32⟩
  | 97 => ⟨S_, .i32⟩
  | 98 => ⟨S_, .i32⟩
  | 99 => ⟨S4096x64, .i32⟩
  | 100 => ⟨S4096x64, .i32⟩
  | 101 => ⟨S4096x128, .i32⟩
  | 102 => ⟨S1x2000x64, .f32⟩
  | 103 => ⟨S2000x64, .f32⟩
  | 104 => ⟨S1x64, .f32⟩
  | 105 => ⟨S64, .f32⟩
  | 106 => ⟨S1x64x4000, .f32⟩
  | 107 => ⟨S64x4000, .f32⟩
  | 108 => ⟨S1x4000, .f32⟩
  | 109 => ⟨S4000, .f32⟩
  | 110 => ⟨S4096, .i32⟩
  | 111 => ⟨S4096x1, .i32⟩
  | 112 => ⟨S_, .f32⟩
  | 113 => ⟨S4096x2001, .f32⟩
  | 114 => ⟨S_, .i32⟩
  | 115 => ⟨S4096x1, .i32⟩
  | 116 => ⟨S4096x1, .i1⟩
  | 117 => ⟨S_, .i32⟩
  | 118 => ⟨S4096x1, .i32⟩
  | 119 => ⟨S4096x1, .i32⟩
  | 120 => ⟨S4096x1, .i32⟩
  | 121 => ⟨S_, .i32⟩
  | 122 => ⟨S4096x61, .i32⟩
  | 123 => ⟨S4096x61, .i1⟩
  | 124 => ⟨S_, .i32⟩
  | 125 => ⟨S4096x61, .i32⟩
  | 126 => ⟨S4096x61, .i32⟩
  | 127 => ⟨S4096x61, .i32⟩
  | _ => ⟨S4096x125, .f32⟩

abbrev hbmTy0_6 (i : Nat) : BufTy := match i % 128 with
  | 0 => ⟨S4096x61, .i32⟩
  | 1 => ⟨S4096x61x1, .i32⟩
  | 2 => ⟨S4096x61x1, .i32⟩
  | 3 => ⟨S4096x61x2, .i32⟩
  | 4 => ⟨S4096x2001, .f32⟩
  | 5 => ⟨S4096x2000, .f32⟩
  | 6 => ⟨S1x64, .f32⟩
  | 7 => ⟨S1x4000, .f32⟩
  | 8 => ⟨S4096x4000, .f32⟩
  | 9 => ⟨S_, .f32⟩
  | 10 => ⟨S4096x1, .f32⟩
  | 11 => ⟨S4096x4001, .f32⟩
  | 12 => ⟨S_, .i32⟩
  | 13 => ⟨S4096x128, .i32⟩
  | 14 => ⟨S4096x128, .i1⟩
  | 15 => ⟨S_, .i32⟩
  | 16 => ⟨S4096x128, .i32⟩
  | 17 => ⟨S4096x128, .i32⟩
  | 18 => ⟨S4096x128, .i32⟩
  | 19 => ⟨S4096x128x1, .i32⟩
  | 20 => ⟨S1, .i32⟩
  | 21 => ⟨S_, .i32⟩
  | 22 => ⟨S4096x128x1, .i32⟩
  | 23 => ⟨S4096x128x1, .i1⟩
  | 24 => ⟨S1x1x1, .i32⟩
  | 25 => ⟨S4096x128x1, .i32⟩
  | 26 => ⟨S4096x128x1, .i1⟩
  | 27 => ⟨S4096x128x1, .i1⟩
  | 28 => ⟨S_, .i1⟩
  | 29 => ⟨S4096x128, .i1⟩
  | 30 => ⟨S4096x128, .f32⟩
  | 31 => ⟨S_, .f32⟩
  | 32 => ⟨S4096x128, .f32⟩
  | 33 => ⟨S4096x128, .f32⟩
  | 34 => ⟨S4096x64, .f32⟩
  | 35 => ⟨S4096x64, .f32⟩
  | 36 => ⟨S_, .f32⟩
  | 37 => ⟨S4096x64, .f32⟩
  | 38 => ⟨S4096x64, .f32⟩
  | 39 => ⟨S4096x64, .f32⟩
  | 40 => ⟨S4096x64, .f32⟩
  | 41 => ⟨S_, .f32⟩
  | 42 => ⟨S4096x64, .f32⟩
  | 43 => ⟨S4096x64, .f32⟩
  | 44 => ⟨S_, .f32⟩
  | 45 => ⟨S4096x64, .f32⟩
  | 46 => ⟨S4096x64, .f32⟩
  | 47 => ⟨S4096x64, .f32⟩
  | 48 => ⟨S4096x64, .f32⟩
  | 49 => ⟨S4096x64, .f32⟩
  | 50 => ⟨S_, .f32⟩
  | 51 => ⟨S4096, .f32⟩
  | 52 => ⟨S4096, .f32⟩
  | 53 => ⟨S_, .i32⟩
  | 54 => ⟨S4096x61, .i32⟩
  | 55 => ⟨S4096x61, .i1⟩
  | 56 => ⟨S_, .i32⟩
  | 57 => ⟨S4096x61, .i32⟩
  | 58 => ⟨S4096x61, .i32⟩
  | 59 => ⟨S_, .i32⟩
  | 60 => ⟨S_, .i32⟩
  | 61 => ⟨S4096x61, .i32⟩
  | 62 => ⟨S4096x61, .i32⟩
  | 63 => ⟨S4096x122, .i32⟩
  | 64 => ⟨S1x2000x64, .f32⟩
  | 65 => ⟨S2000x64, .f32⟩
  | 66 => ⟨S1x64, .f32⟩
  | 67 => ⟨S64, .f32⟩
  | 68 => ⟨S1x64x4000, .f32⟩
  | 69 => ⟨S64x4000, .f32⟩
  | 70 => ⟨S1x4000, .f32⟩
  | 71 => ⟨S4000, .f32⟩
  | 72 => ⟨S4096, .i32⟩
  | 73 => ⟨S4096x1, .i32⟩
  | 74 => ⟨S_, .f32⟩
  | 75 => ⟨S4096x2001, .f32⟩
  | 76 => ⟨S_, .i32⟩
  | 77 => ⟨S4096x1, .i32⟩
  | 78 => ⟨S4096x1, .i1⟩
  | 79 => ⟨S_, .i32⟩
  | 80 => ⟨S4096x1, .i32⟩
  | 81 => ⟨S4096x1, .i32⟩
  | 82 => ⟨S4096x1, .i32⟩
  | 83 => ⟨S_, .i32⟩
  | 84 => ⟨S4096x64, .i32⟩
  | 85 => ⟨S4096x64, .i1⟩
  | 86 => ⟨S_, .i32⟩
  | 87 => ⟨S4096x64, .i32⟩
  | 88 => ⟨S4096x64, .i32⟩
  | 89 => ⟨S4096x64, .i32⟩
  | 90 => ⟨S4096x64, .i32⟩
  | 91 => ⟨S4096x64x1, .i32⟩
  | 92 => ⟨S4096x64x1, .i32⟩
  | 93 => ⟨S4096x64x2, .i32⟩
  | 94 => ⟨S4096x2001, .f32⟩
  | 95 => ⟨S4096x2000, .f32⟩
  | 96 => ⟨S1x64, .f32⟩
  | 97 => ⟨S1x4000, .f32⟩
  | 98 => ⟨S4096x4000, .f32⟩
  | 99 => ⟨S_, .f32⟩
  | 100 => ⟨S4096x1, .f32⟩
  | 101 => ⟨S4096x4001, .f32⟩
  | 102 => ⟨S_, .i32⟩
  | 103 => ⟨S4096x122, .i32⟩
  | 104 => ⟨S4096x122, .i1⟩
  | 105 => ⟨S_, .i32⟩
  | 106 => ⟨S4096x122, .i32⟩
  | 107 => ⟨S4096x122, .i32⟩
  | 108 => ⟨S4096x122, .i32⟩
  | 109 => ⟨S4096x122x1, .i32⟩
  | 110 => ⟨S1, .i32⟩
  | 111 => ⟨S_, .i32⟩
  | 112 => ⟨S4096x122x1, .i32⟩
  | 113 => ⟨S4096x122x1, .i1⟩
  | 114 => ⟨S1x1x1, .i32⟩
  | 115 => ⟨S4096x122x1, .i32⟩
  | 116 => ⟨S4096x122x1, .i1⟩
  | 117 => ⟨S4096x122x1, .i1⟩
  | 118 => ⟨S_, .i1⟩
  | 119 => ⟨S4096x122, .i1⟩
  | 120 => ⟨S4096x122, .f32⟩
  | 121 => ⟨S_, .f32⟩
  | 122 => ⟨S4096x122, .f32⟩
  | 123 => ⟨S4096x122, .f32⟩
  | 124 => ⟨S4096x61, .f32⟩
  | 125 => ⟨S4096x61, .f32⟩
  | 126 => ⟨S_, .f32⟩
  | 127 => ⟨S4096x61, .f32⟩
  | _ => ⟨S4096x125, .f32⟩

abbrev hbmTy0_7 (i : Nat) : BufTy := match i % 128 with
  | 0 => ⟨S4096x61, .f32⟩
  | 1 => ⟨S4096x61, .f32⟩
  | 2 => ⟨S4096x61, .f32⟩
  | 3 => ⟨S_, .f32⟩
  | 4 => ⟨S4096x61, .f32⟩
  | 5 => ⟨S4096x61, .f32⟩
  | 6 => ⟨S_, .f32⟩
  | 7 => ⟨S4096x61, .f32⟩
  | 8 => ⟨S4096x61, .f32⟩
  | 9 => ⟨S4096x61, .f32⟩
  | 10 => ⟨S4096x61, .f32⟩
  | 11 => ⟨S4096x61, .f32⟩
  | 12 => ⟨S_, .f32⟩
  | 13 => ⟨S4096, .f32⟩
  | 14 => ⟨S4096, .f32⟩
  | 15 => ⟨S4096x125, .f32⟩
  | 16 => ⟨S_, .f32⟩
  | 17 => ⟨S4096x125, .f32⟩
  | 18 => ⟨S4096x125, .f32⟩
  | _ => ⟨S4096x125, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S4096x125, .f32⟩

abbrev bufTy : (tb : Table) → Fin (tcTables nBuf tb) → BufTy
  | .hbm, ⟨i, _⟩ => hbmTy i
  | .local _ .vmem, ⟨0, _⟩ => ⟨S512x2000, .f32⟩
  | .local _ .vmem, ⟨1, _⟩ => ⟨S512x2000, .f32⟩
  | .local _ .vmem, ⟨2, _⟩ => ⟨S2000x64, .f32⟩
  | .local _ .vmem, ⟨3, _⟩ => ⟨S1x64, .f32⟩
  | .local _ .vmem, ⟨4, _⟩ => ⟨S64x4000, .f32⟩
  | .local _ .vmem, ⟨5, _⟩ => ⟨S1x4000, .f32⟩
  | .local _ .vmem, ⟨6, _⟩ => ⟨S512x4000, .f32⟩
  | .local _ .vmem, ⟨7, _⟩ => ⟨S512x4000, .f32⟩
  | .local _ .vmem, ⟨8, _⟩ => ⟨S512x2000, .f32⟩
  | .local _ .vmem, ⟨9, _⟩ => ⟨S512x2000, .f32⟩
  | .local _ .vmem, ⟨10, _⟩ => ⟨S2000x64, .f32⟩
  | .local _ .vmem, ⟨11, _⟩ => ⟨S1x64, .f32⟩
  | .local _ .vmem, ⟨12, _⟩ => ⟨S64x4000, .f32⟩
  | .local _ .vmem, ⟨13, _⟩ => ⟨S1x4000, .f32⟩
  | .local _ .vmem, ⟨14, _⟩ => ⟨S512x4000, .f32⟩
  | .local _ .vmem, ⟨15, _⟩ => ⟨S512x4000, .f32⟩
  | .local _ .vmem, ⟨16, _⟩ => ⟨S512x2000, .f32⟩
  | .local _ .vmem, ⟨17, _⟩ => ⟨S512x2000, .f32⟩
  | .local _ .vmem, ⟨18, _⟩ => ⟨S2000x64, .f32⟩
  | .local _ .vmem, ⟨19, _⟩ => ⟨S1x64, .f32⟩
  | .local _ .vmem, ⟨20, _⟩ => ⟨S64x4000, .f32⟩
  | .local _ .vmem, ⟨21, _⟩ => ⟨S1x4000, .f32⟩
  | .local _ .vmem, ⟨22, _⟩ => ⟨S512x4000, .f32⟩
  | .local _ .vmem, ⟨23, _⟩ => ⟨S512x4000, .f32⟩
  | .local _ .vmem, ⟨24, _⟩ => ⟨S512x2000, .f32⟩
  | .local _ .vmem, ⟨25, _⟩ => ⟨S512x2000, .f32⟩
  | .local _ .vmem, ⟨26, _⟩ => ⟨S2000x64, .f32⟩
  | .local _ .vmem, ⟨27, _⟩ => ⟨S1x64, .f32⟩
  | .local _ .vmem, ⟨28, _⟩ => ⟨S64x4000, .f32⟩
  | .local _ .vmem, ⟨29, _⟩ => ⟨S1x4000, .f32⟩
  | .local _ .vmem, ⟨30, _⟩ => ⟨S512x4000, .f32⟩
  | .local _ .vmem, ⟨31, _⟩ => ⟨S512x4000, .f32⟩
  | .local _ .vmem, ⟨32, _⟩ => ⟨S512x2000, .f32⟩
  | .local _ .vmem, ⟨33, _⟩ => ⟨S512x2000, .f32⟩
  | .local _ .vmem, ⟨34, _⟩ => ⟨S2000x64, .f32⟩
  | .local _ .vmem, ⟨35, _⟩ => ⟨S1x64, .f32⟩
  | .local _ .vmem, ⟨36, _⟩ => ⟨S64x4000, .f32⟩
  | .local _ .vmem, ⟨37, _⟩ => ⟨S1x4000, .f32⟩
  | .local _ .vmem, ⟨38, _⟩ => ⟨S512x4000, .f32⟩
  | .local _ .vmem, ⟨39, _⟩ => ⟨S512x4000, .f32⟩
  | .local _ .vmem, ⟨40, _⟩ => ⟨S512x2000, .f32⟩
  | .local _ .vmem, ⟨41, _⟩ => ⟨S512x2000, .f32⟩
  | .local _ .vmem, ⟨42, _⟩ => ⟨S2000x64, .f32⟩
  | .local _ .vmem, ⟨43, _⟩ => ⟨S1x64, .f32⟩
  | .local _ .vmem, ⟨44, _⟩ => ⟨S64x4000, .f32⟩
  | .local _ .vmem, ⟨45, _⟩ => ⟨S1x4000, .f32⟩
  | .local _ .vmem, ⟨46, _⟩ => ⟨S512x4000, .f32⟩
  | .local _ .vmem, ⟨47, _⟩ => ⟨S512x4000, .f32⟩
  | .local _ .vmem, ⟨48, _⟩ => ⟨S512x2000, .f32⟩
  | .local _ .vmem, ⟨49, _⟩ => ⟨S512x2000, .f32⟩
  | .local _ .vmem, ⟨50, _⟩ => ⟨S2000x64, .f32⟩
  | .local _ .vmem, ⟨51, _⟩ => ⟨S1x64, .f32⟩
  | .local _ .vmem, ⟨52, _⟩ => ⟨S64x4000, .f32⟩
  | .local _ .vmem, ⟨53, _⟩ => ⟨S1x4000, .f32⟩
  | .local _ .vmem, ⟨54, _⟩ => ⟨S512x4000, .f32⟩
  | .local _ .vmem, ⟨55, _⟩ => ⟨S512x4000, .f32⟩
  | .local _ .vmem, ⟨56, _⟩ => ⟨S512x2000, .f32⟩
  | .local _ .vmem, ⟨57, _⟩ => ⟨S512x2000, .f32⟩
  | .local _ .vmem, ⟨58, _⟩ => ⟨S2000x64, .f32⟩
  | .local _ .vmem, ⟨59, _⟩ => ⟨S1x64, .f32⟩
  | .local _ .vmem, ⟨60, _⟩ => ⟨S64x4000, .f32⟩
  | .local _ .vmem, ⟨61, _⟩ => ⟨S1x4000, .f32⟩
  | .local _ .vmem, ⟨62, _⟩ => ⟨S512x4000, .f32⟩
  | .local _ .vmem, ⟨63, _⟩ => ⟨S512x4000, .f32⟩
  | .local _ .vmem, ⟨64, _⟩ => ⟨S512x2000, .f32⟩
  | .local _ .vmem, ⟨65, _⟩ => ⟨S512x2000, .f32⟩
  | .local _ .vmem, ⟨66, _⟩ => ⟨S2000x64, .f32⟩
  | .local _ .vmem, ⟨67, _⟩ => ⟨S1x64, .f32⟩
  | .local _ .vmem, ⟨68, _⟩ => ⟨S64x4000, .f32⟩
  | .local _ .vmem, ⟨69, _⟩ => ⟨S1x4000, .f32⟩
  | .local _ .vmem, ⟨70, _⟩ => ⟨S512x4000, .f32⟩
  | .local _ .vmem, ⟨71, _⟩ => ⟨S512x4000, .f32⟩
  | .local _ .vmem, ⟨72, _⟩ => ⟨S512x2000, .f32⟩
  | .local _ .vmem, ⟨73, _⟩ => ⟨S512x2000, .f32⟩
  | .local _ .vmem, ⟨74, _⟩ => ⟨S2000x64, .f32⟩
  | .local _ .vmem, ⟨75, _⟩ => ⟨S1x64, .f32⟩
  | .local _ .vmem, ⟨76, _⟩ => ⟨S64x4000, .f32⟩
  | .local _ .vmem, ⟨77, _⟩ => ⟨S1x4000, .f32⟩
  | .local _ .vmem, ⟨78, _⟩ => ⟨S512x4000, .f32⟩
  | .local _ .vmem, ⟨79, _⟩ => ⟨S512x4000, .f32⟩
  | _, _ => ⟨S4096x125, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_c_2 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_call1_c : Ref sig .tc := ⟨.hbm, 60, rfl⟩
abbrev main_call1_v0 : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_c_1 : Ref sig .tc := ⟨.hbm, 68, rfl⟩
abbrev main_call1_c_2 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_c_3 : Ref sig .tc := ⟨.hbm, 76, rfl⟩
abbrev main_call1_v12 : Ref sig .tc := ⟨.hbm, 77, rfl⟩
abbrev main_call1_v13 : Ref sig .tc := ⟨.hbm, 78, rfl⟩
abbrev main_call1_cst : Ref sig .tc := ⟨.hbm, 79, rfl⟩
abbrev main_call1_v14 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst_7 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_cst_8 : Ref sig .tc := ⟨.hbm, 89, rfl⟩
abbrev main_v49 : Ref sig .tc := ⟨.hbm, 90, rfl⟩
abbrev main_v50 : Ref sig .tc := ⟨.hbm, 91, rfl⟩
abbrev main_cst_9 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_cst_10 : Ref sig .tc := ⟨.hbm, 98, rfl⟩
abbrev main_v56 : Ref sig .tc := ⟨.hbm, 99, rfl⟩
abbrev main_v57 : Ref sig .tc := ⟨.hbm, 100, rfl⟩
abbrev main_c_11 : Ref sig .tc := ⟨.hbm, 101, rfl⟩
abbrev main_v58 : Ref sig .tc := ⟨.hbm, 102, rfl⟩
abbrev main_v59 : Ref sig .tc := ⟨.hbm, 103, rfl⟩
abbrev main_c_12 : Ref sig .tc := ⟨.hbm, 104, rfl⟩
abbrev main_v60 : Ref sig .tc := ⟨.hbm, 105, rfl⟩
abbrev main_v61 : Ref sig .tc := ⟨.hbm, 106, rfl⟩
abbrev main_c_13 : Ref sig .tc := ⟨.hbm, 107, rfl⟩
abbrev main_call2_v0 : Ref sig .tc := ⟨.hbm, 108, rfl⟩
abbrev main_call2_v1 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_cst_14 : Ref sig .tc := ⟨.hbm, 122, rfl⟩
abbrev main_v74 : Ref sig .tc := ⟨.hbm, 123, rfl⟩
abbrev main_c_15 : Ref sig .tc := ⟨.hbm, 124, rfl⟩
abbrev main_v75 : Ref sig .tc := ⟨.hbm, 125, rfl⟩
abbrev main_v76 : Ref sig .tc := ⟨.hbm, 126, rfl⟩
abbrev main_c_16 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_c_17 : Ref sig .tc := ⟨.hbm, 131, rfl⟩
abbrev main_v80 : Ref sig .tc := ⟨.hbm, 132, rfl⟩
abbrev main_v81 : Ref sig .tc := ⟨.hbm, 133, rfl⟩
abbrev main_c_18 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_cst_19 : Ref sig .tc := ⟨.hbm, 147, rfl⟩
abbrev main_v94 : Ref sig .tc := ⟨.hbm, 148, rfl⟩
abbrev main_v95 : Ref sig .tc := ⟨.hbm, 149, rfl⟩
abbrev main_call3_c : Ref sig .tc := ⟨.hbm, 150, rfl⟩
abbrev main_call3_v0 : Ref sig .tc := ⟨.hbm, 151, rfl⟩
abbrev main_call3_v1 : Ref sig .tc := ⟨.hbm, 152, rfl⟩
abbrev main_call3_c_0 : Ref sig .tc := ⟨.hbm, 153, rfl⟩
abbrev main_call3_v2 : Ref sig .tc := ⟨.hbm, 154, rfl⟩
abbrev main_call3_v3 : Ref sig .tc := ⟨.hbm, 155, rfl⟩
abbrev main_call3_v4 : Ref sig .tc := ⟨.hbm, 156, rfl⟩
abbrev main_call3_v5 : Ref sig .tc := ⟨.hbm, 157, rfl⟩
abbrev main_call3_c_1 : Ref sig .tc := ⟨.hbm, 158, rfl⟩
abbrev main_call3_c_2 : Ref sig .tc := ⟨.hbm, 159, rfl⟩
abbrev main_call3_v6 : Ref sig .tc := ⟨.hbm, 160, rfl⟩
abbrev main_call3_v7 : Ref sig .tc := ⟨.hbm, 161, rfl⟩
abbrev main_call3_v8 : Ref sig .tc := ⟨.hbm, 162, rfl⟩
abbrev main_call3_v9 : Ref sig .tc := ⟨.hbm, 163, rfl⟩
abbrev main_call3_v10 : Ref sig .tc := ⟨.hbm, 164, rfl⟩
abbrev main_call3_v11 : Ref sig .tc := ⟨.hbm, 165, rfl⟩
abbrev main_call3_c_3 : Ref sig .tc := ⟨.hbm, 166, rfl⟩
abbrev main_call3_v12 : Ref sig .tc := ⟨.hbm, 167, rfl⟩
abbrev main_call3_v13 : Ref sig .tc := ⟨.hbm, 168, rfl⟩
abbrev main_call3_cst : Ref sig .tc := ⟨.hbm, 169, rfl⟩
abbrev main_call3_v14 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_cst_20 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_cst_21 : Ref sig .tc := ⟨.hbm, 179, rfl⟩
abbrev main_v103 : Ref sig .tc := ⟨.hbm, 180, rfl⟩
abbrev main_v104 : Ref sig .tc := ⟨.hbm, 181, rfl⟩
abbrev main_cst_22 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_cst_23 : Ref sig .tc := ⟨.hbm, 188, rfl⟩
abbrev main_v110 : Ref sig .tc := ⟨.hbm, 189, rfl⟩
abbrev main_v111 : Ref sig .tc := ⟨.hbm, 190, rfl⟩
abbrev main_c_24 : Ref sig .tc := ⟨.hbm, 191, rfl⟩
abbrev main_v112 : Ref sig .tc := ⟨.hbm, 192, rfl⟩
abbrev main_v113 : Ref sig .tc := ⟨.hbm, 193, rfl⟩
abbrev main_c_25 : Ref sig .tc := ⟨.hbm, 194, rfl⟩
abbrev main_v114 : Ref sig .tc := ⟨.hbm, 195, rfl⟩
abbrev main_v115 : Ref sig .tc := ⟨.hbm, 196, rfl⟩
abbrev main_c_26 : Ref sig .tc := ⟨.hbm, 197, rfl⟩
abbrev main_call4_v0 : Ref sig .tc := ⟨.hbm, 198, rfl⟩
abbrev main_call4_v1 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_cst_27 : Ref sig .tc := ⟨.hbm, 212, rfl⟩
abbrev main_v128 : Ref sig .tc := ⟨.hbm, 213, rfl⟩
abbrev main_c_28 : Ref sig .tc := ⟨.hbm, 214, rfl⟩
abbrev main_v129 : Ref sig .tc := ⟨.hbm, 215, rfl⟩
abbrev main_v130 : Ref sig .tc := ⟨.hbm, 216, rfl⟩
abbrev main_c_29 : Ref sig .tc := ⟨.hbm, 217, rfl⟩
abbrev main_v131 : Ref sig .tc := ⟨.hbm, 218, rfl⟩
abbrev main_v132 : Ref sig .tc := ⟨.hbm, 219, rfl⟩
abbrev main_v133 : Ref sig .tc := ⟨.hbm, 220, rfl⟩
abbrev main_c_30 : Ref sig .tc := ⟨.hbm, 221, rfl⟩
abbrev main_v134 : Ref sig .tc := ⟨.hbm, 222, rfl⟩
abbrev main_v135 : Ref sig .tc := ⟨.hbm, 223, rfl⟩
abbrev main_c_31 : Ref sig .tc := ⟨.hbm, 224, rfl⟩
abbrev main_v136 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_v145 : Ref sig .tc := ⟨.hbm, 234, rfl⟩
abbrev main_v146 : Ref sig .tc := ⟨.hbm, 235, rfl⟩
abbrev main_v147 : Ref sig .tc := ⟨.hbm, 236, rfl⟩
abbrev main_cst_32 : Ref sig .tc := ⟨.hbm, 237, rfl⟩
abbrev main_v148 : Ref sig .tc := ⟨.hbm, 238, rfl⟩
abbrev main_v149 : Ref sig .tc := ⟨.hbm, 239, rfl⟩
abbrev main_call5_c : Ref sig .tc := ⟨.hbm, 240, rfl⟩
abbrev main_call5_v0 : Ref sig .tc := ⟨.hbm, 241, rfl⟩
abbrev main_call5_v1 : Ref sig .tc := ⟨.hbm, 242, rfl⟩
abbrev main_call5_c_0 : Ref sig .tc := ⟨.hbm, 243, rfl⟩
abbrev main_call5_v2 : Ref sig .tc := ⟨.hbm, 244, rfl⟩
abbrev main_call5_v3 : Ref sig .tc := ⟨.hbm, 245, rfl⟩
abbrev main_call5_v4 : Ref sig .tc := ⟨.hbm, 246, rfl⟩
abbrev main_call5_v5 : Ref sig .tc := ⟨.hbm, 247, rfl⟩
abbrev main_call5_c_1 : Ref sig .tc := ⟨.hbm, 248, rfl⟩
abbrev main_call5_c_2 : Ref sig .tc := ⟨.hbm, 249, rfl⟩
abbrev main_call5_v6 : Ref sig .tc := ⟨.hbm, 250, rfl⟩
abbrev main_call5_v7 : Ref sig .tc := ⟨.hbm, 251, rfl⟩
abbrev main_call5_v8 : Ref sig .tc := ⟨.hbm, 252, rfl⟩
abbrev main_call5_v9 : Ref sig .tc := ⟨.hbm, 253, rfl⟩
abbrev main_call5_v10 : Ref sig .tc := ⟨.hbm, 254, rfl⟩
abbrev main_call5_v11 : Ref sig .tc := ⟨.hbm, 255, rfl⟩
abbrev main_call5_c_3 : Ref sig .tc := ⟨.hbm, 256, rfl⟩
abbrev main_call5_v12 : Ref sig .tc := ⟨.hbm, 257, rfl⟩
abbrev main_call5_v13 : Ref sig .tc := ⟨.hbm, 258, rfl⟩
abbrev main_call5_cst : Ref sig .tc := ⟨.hbm, 259, rfl⟩
abbrev main_call5_v14 : Ref sig .tc := ⟨.hbm, 260, rfl⟩
abbrev main_v150 : Ref sig .tc := ⟨.hbm, 261, rfl⟩
abbrev main_v151 : Ref sig .tc := ⟨.hbm, 262, rfl⟩
abbrev main_v152 : Ref sig .tc := ⟨.hbm, 263, rfl⟩
abbrev main_cst_33 : Ref sig .tc := ⟨.hbm, 264, rfl⟩
abbrev main_v153 : Ref sig .tc := ⟨.hbm, 265, rfl⟩
abbrev main_v154 : Ref sig .tc := ⟨.hbm, 266, rfl⟩
abbrev main_v155 : Ref sig .tc := ⟨.hbm, 267, rfl⟩
abbrev main_v156 : Ref sig .tc := ⟨.hbm, 268, rfl⟩
abbrev main_cst_34 : Ref sig .tc := ⟨.hbm, 269, rfl⟩
abbrev main_v157 : Ref sig .tc := ⟨.hbm, 270, rfl⟩
abbrev main_v158 : Ref sig .tc := ⟨.hbm, 271, rfl⟩
abbrev main_cst_35 : Ref sig .tc := ⟨.hbm, 272, rfl⟩
abbrev main_v159 : Ref sig .tc := ⟨.hbm, 273, rfl⟩
abbrev main_v160 : Ref sig .tc := ⟨.hbm, 274, rfl⟩
abbrev main_v161 : Ref sig .tc := ⟨.hbm, 275, rfl⟩
abbrev main_v162 : Ref sig .tc := ⟨.hbm, 276, rfl⟩
abbrev main_v163 : Ref sig .tc := ⟨.hbm, 277, rfl⟩
abbrev main_cst_36 : Ref sig .tc := ⟨.hbm, 278, rfl⟩
abbrev main_v164 : Ref sig .tc := ⟨.hbm, 279, rfl⟩
abbrev main_v165 : Ref sig .tc := ⟨.hbm, 280, rfl⟩
abbrev main_c_37 : Ref sig .tc := ⟨.hbm, 281, rfl⟩
abbrev main_v166 : Ref sig .tc := ⟨.hbm, 282, rfl⟩
abbrev main_v167 : Ref sig .tc := ⟨.hbm, 283, rfl⟩
abbrev main_c_38 : Ref sig .tc := ⟨.hbm, 284, rfl⟩
abbrev main_v168 : Ref sig .tc := ⟨.hbm, 285, rfl⟩
abbrev main_v169 : Ref sig .tc := ⟨.hbm, 286, rfl⟩
abbrev main_c_39 : Ref sig .tc := ⟨.hbm, 287, rfl⟩
abbrev main_call6_v0 : Ref sig .tc := ⟨.hbm, 288, rfl⟩
abbrev main_call6_v1 : Ref sig .tc := ⟨.hbm, 289, rfl⟩
abbrev main_v170 : Ref sig .tc := ⟨.hbm, 290, rfl⟩
abbrev main_v171 : Ref sig .tc := ⟨.hbm, 291, rfl⟩
abbrev main_v172 : Ref sig .tc := ⟨.hbm, 292, rfl⟩
abbrev main_v173 : Ref sig .tc := ⟨.hbm, 293, rfl⟩
abbrev main_v174 : Ref sig .tc := ⟨.hbm, 294, rfl⟩
abbrev main_v175 : Ref sig .tc := ⟨.hbm, 295, rfl⟩
abbrev main_v176 : Ref sig .tc := ⟨.hbm, 296, rfl⟩
abbrev main_v177 : Ref sig .tc := ⟨.hbm, 297, rfl⟩
abbrev main_v178 : Ref sig .tc := ⟨.hbm, 298, rfl⟩
abbrev main_v179 : Ref sig .tc := ⟨.hbm, 299, rfl⟩
abbrev main_v180 : Ref sig .tc := ⟨.hbm, 300, rfl⟩
abbrev main_v181 : Ref sig .tc := ⟨.hbm, 301, rfl⟩
abbrev main_cst_40 : Ref sig .tc := ⟨.hbm, 302, rfl⟩
abbrev main_v182 : Ref sig .tc := ⟨.hbm, 303, rfl⟩
abbrev main_c_41 : Ref sig .tc := ⟨.hbm, 304, rfl⟩
abbrev main_v183 : Ref sig .tc := ⟨.hbm, 305, rfl⟩
abbrev main_v184 : Ref sig .tc := ⟨.hbm, 306, rfl⟩
abbrev main_c_42 : Ref sig .tc := ⟨.hbm, 307, rfl⟩
abbrev main_v185 : Ref sig .tc := ⟨.hbm, 308, rfl⟩
abbrev main_v186 : Ref sig .tc := ⟨.hbm, 309, rfl⟩
abbrev main_v187 : Ref sig .tc := ⟨.hbm, 310, rfl⟩
abbrev main_c_43 : Ref sig .tc := ⟨.hbm, 311, rfl⟩
abbrev main_v188 : Ref sig .tc := ⟨.hbm, 312, rfl⟩
abbrev main_v189 : Ref sig .tc := ⟨.hbm, 313, rfl⟩
abbrev main_c_44 : Ref sig .tc := ⟨.hbm, 314, rfl⟩
abbrev main_v190 : Ref sig .tc := ⟨.hbm, 315, rfl⟩
abbrev main_v191 : Ref sig .tc := ⟨.hbm, 316, rfl⟩
abbrev main_v192 : Ref sig .tc := ⟨.hbm, 317, rfl⟩
abbrev main_v193 : Ref sig .tc := ⟨.hbm, 318, rfl⟩
abbrev main_v194 : Ref sig .tc := ⟨.hbm, 319, rfl⟩
abbrev main_v195 : Ref sig .tc := ⟨.hbm, 320, rfl⟩
abbrev main_v196 : Ref sig .tc := ⟨.hbm, 321, rfl⟩
abbrev main_v197 : Ref sig .tc := ⟨.hbm, 322, rfl⟩
abbrev main_v198 : Ref sig .tc := ⟨.hbm, 323, rfl⟩
abbrev main_v199 : Ref sig .tc := ⟨.hbm, 324, rfl⟩
abbrev main_v200 : Ref sig .tc := ⟨.hbm, 325, rfl⟩
abbrev main_v201 : Ref sig .tc := ⟨.hbm, 326, rfl⟩
abbrev main_cst_45 : Ref sig .tc := ⟨.hbm, 327, rfl⟩
abbrev main_v202 : Ref sig .tc := ⟨.hbm, 328, rfl⟩
abbrev main_v203 : Ref sig .tc := ⟨.hbm, 329, rfl⟩
abbrev main_call7_c : Ref sig .tc := ⟨.hbm, 330, rfl⟩
abbrev main_call7_v0 : Ref sig .tc := ⟨.hbm, 331, rfl⟩
abbrev main_call7_v1 : Ref sig .tc := ⟨.hbm, 332, rfl⟩
abbrev main_call7_c_0 : Ref sig .tc := ⟨.hbm, 333, rfl⟩
abbrev main_call7_v2 : Ref sig .tc := ⟨.hbm, 334, rfl⟩
abbrev main_call7_v3 : Ref sig .tc := ⟨.hbm, 335, rfl⟩
abbrev main_call7_v4 : Ref sig .tc := ⟨.hbm, 336, rfl⟩
abbrev main_call7_v5 : Ref sig .tc := ⟨.hbm, 337, rfl⟩
abbrev main_call7_c_1 : Ref sig .tc := ⟨.hbm, 338, rfl⟩
abbrev main_call7_c_2 : Ref sig .tc := ⟨.hbm, 339, rfl⟩
abbrev main_call7_v6 : Ref sig .tc := ⟨.hbm, 340, rfl⟩
abbrev main_call7_v7 : Ref sig .tc := ⟨.hbm, 341, rfl⟩
abbrev main_call7_v8 : Ref sig .tc := ⟨.hbm, 342, rfl⟩
abbrev main_call7_v9 : Ref sig .tc := ⟨.hbm, 343, rfl⟩
abbrev main_call7_v10 : Ref sig .tc := ⟨.hbm, 344, rfl⟩
abbrev main_call7_v11 : Ref sig .tc := ⟨.hbm, 345, rfl⟩
abbrev main_call7_c_3 : Ref sig .tc := ⟨.hbm, 346, rfl⟩
abbrev main_call7_v12 : Ref sig .tc := ⟨.hbm, 347, rfl⟩
abbrev main_call7_v13 : Ref sig .tc := ⟨.hbm, 348, rfl⟩
abbrev main_call7_cst : Ref sig .tc := ⟨.hbm, 349, rfl⟩
abbrev main_call7_v14 : Ref sig .tc := ⟨.hbm, 350, rfl⟩
abbrev main_v204 : Ref sig .tc := ⟨.hbm, 351, rfl⟩
abbrev main_v205 : Ref sig .tc := ⟨.hbm, 352, rfl⟩
abbrev main_v206 : Ref sig .tc := ⟨.hbm, 353, rfl⟩
abbrev main_cst_46 : Ref sig .tc := ⟨.hbm, 354, rfl⟩
abbrev main_v207 : Ref sig .tc := ⟨.hbm, 355, rfl⟩
abbrev main_v208 : Ref sig .tc := ⟨.hbm, 356, rfl⟩
abbrev main_v209 : Ref sig .tc := ⟨.hbm, 357, rfl⟩
abbrev main_v210 : Ref sig .tc := ⟨.hbm, 358, rfl⟩
abbrev main_cst_47 : Ref sig .tc := ⟨.hbm, 359, rfl⟩
abbrev main_v211 : Ref sig .tc := ⟨.hbm, 360, rfl⟩
abbrev main_v212 : Ref sig .tc := ⟨.hbm, 361, rfl⟩
abbrev main_cst_48 : Ref sig .tc := ⟨.hbm, 362, rfl⟩
abbrev main_v213 : Ref sig .tc := ⟨.hbm, 363, rfl⟩
abbrev main_v214 : Ref sig .tc := ⟨.hbm, 364, rfl⟩
abbrev main_v215 : Ref sig .tc := ⟨.hbm, 365, rfl⟩
abbrev main_v216 : Ref sig .tc := ⟨.hbm, 366, rfl⟩
abbrev main_v217 : Ref sig .tc := ⟨.hbm, 367, rfl⟩
abbrev main_cst_49 : Ref sig .tc := ⟨.hbm, 368, rfl⟩
abbrev main_v218 : Ref sig .tc := ⟨.hbm, 369, rfl⟩
abbrev main_v219 : Ref sig .tc := ⟨.hbm, 370, rfl⟩
abbrev main_c_50 : Ref sig .tc := ⟨.hbm, 371, rfl⟩
abbrev main_v220 : Ref sig .tc := ⟨.hbm, 372, rfl⟩
abbrev main_v221 : Ref sig .tc := ⟨.hbm, 373, rfl⟩
abbrev main_c_51 : Ref sig .tc := ⟨.hbm, 374, rfl⟩
abbrev main_v222 : Ref sig .tc := ⟨.hbm, 375, rfl⟩
abbrev main_v223 : Ref sig .tc := ⟨.hbm, 376, rfl⟩
abbrev main_c_52 : Ref sig .tc := ⟨.hbm, 377, rfl⟩
abbrev main_call8_v0 : Ref sig .tc := ⟨.hbm, 378, rfl⟩
abbrev main_call8_v1 : Ref sig .tc := ⟨.hbm, 379, rfl⟩
abbrev main_v224 : Ref sig .tc := ⟨.hbm, 380, rfl⟩
abbrev main_v225 : Ref sig .tc := ⟨.hbm, 381, rfl⟩
abbrev main_v226 : Ref sig .tc := ⟨.hbm, 382, rfl⟩
abbrev main_v227 : Ref sig .tc := ⟨.hbm, 383, rfl⟩
abbrev main_v228 : Ref sig .tc := ⟨.hbm, 384, rfl⟩
abbrev main_v229 : Ref sig .tc := ⟨.hbm, 385, rfl⟩
abbrev main_v230 : Ref sig .tc := ⟨.hbm, 386, rfl⟩
abbrev main_v231 : Ref sig .tc := ⟨.hbm, 387, rfl⟩
abbrev main_v232 : Ref sig .tc := ⟨.hbm, 388, rfl⟩
abbrev main_v233 : Ref sig .tc := ⟨.hbm, 389, rfl⟩
abbrev main_v234 : Ref sig .tc := ⟨.hbm, 390, rfl⟩
abbrev main_v235 : Ref sig .tc := ⟨.hbm, 391, rfl⟩
abbrev main_cst_53 : Ref sig .tc := ⟨.hbm, 392, rfl⟩
abbrev main_v236 : Ref sig .tc := ⟨.hbm, 393, rfl⟩
abbrev main_c_54 : Ref sig .tc := ⟨.hbm, 394, rfl⟩
abbrev main_v237 : Ref sig .tc := ⟨.hbm, 395, rfl⟩
abbrev main_v238 : Ref sig .tc := ⟨.hbm, 396, rfl⟩
abbrev main_c_55 : Ref sig .tc := ⟨.hbm, 397, rfl⟩
abbrev main_v239 : Ref sig .tc := ⟨.hbm, 398, rfl⟩
abbrev main_v240 : Ref sig .tc := ⟨.hbm, 399, rfl⟩
abbrev main_v241 : Ref sig .tc := ⟨.hbm, 400, rfl⟩
abbrev main_c_56 : Ref sig .tc := ⟨.hbm, 401, rfl⟩
abbrev main_v242 : Ref sig .tc := ⟨.hbm, 402, rfl⟩
abbrev main_v243 : Ref sig .tc := ⟨.hbm, 403, rfl⟩
abbrev main_c_57 : Ref sig .tc := ⟨.hbm, 404, rfl⟩
abbrev main_v244 : Ref sig .tc := ⟨.hbm, 405, rfl⟩
abbrev main_v245 : Ref sig .tc := ⟨.hbm, 406, rfl⟩
abbrev main_v246 : Ref sig .tc := ⟨.hbm, 407, rfl⟩
abbrev main_v247 : Ref sig .tc := ⟨.hbm, 408, rfl⟩
abbrev main_v248 : Ref sig .tc := ⟨.hbm, 409, rfl⟩
abbrev main_v249 : Ref sig .tc := ⟨.hbm, 410, rfl⟩
abbrev main_v250 : Ref sig .tc := ⟨.hbm, 411, rfl⟩
abbrev main_v251 : Ref sig .tc := ⟨.hbm, 412, rfl⟩
abbrev main_v252 : Ref sig .tc := ⟨.hbm, 413, rfl⟩
abbrev main_v253 : Ref sig .tc := ⟨.hbm, 414, rfl⟩
abbrev main_v254 : Ref sig .tc := ⟨.hbm, 415, rfl⟩
abbrev main_v255 : Ref sig .tc := ⟨.hbm, 416, rfl⟩
abbrev main_cst_58 : Ref sig .tc := ⟨.hbm, 417, rfl⟩
abbrev main_v256 : Ref sig .tc := ⟨.hbm, 418, rfl⟩
abbrev main_v257 : Ref sig .tc := ⟨.hbm, 419, rfl⟩
abbrev main_call9_c : Ref sig .tc := ⟨.hbm, 420, rfl⟩
abbrev main_call9_v0 : Ref sig .tc := ⟨.hbm, 421, rfl⟩
abbrev main_call9_v1 : Ref sig .tc := ⟨.hbm, 422, rfl⟩
abbrev main_call9_c_0 : Ref sig .tc := ⟨.hbm, 423, rfl⟩
abbrev main_call9_v2 : Ref sig .tc := ⟨.hbm, 424, rfl⟩
abbrev main_call9_v3 : Ref sig .tc := ⟨.hbm, 425, rfl⟩
abbrev main_call9_v4 : Ref sig .tc := ⟨.hbm, 426, rfl⟩
abbrev main_call9_v5 : Ref sig .tc := ⟨.hbm, 427, rfl⟩
abbrev main_call9_c_1 : Ref sig .tc := ⟨.hbm, 428, rfl⟩
abbrev main_call9_c_2 : Ref sig .tc := ⟨.hbm, 429, rfl⟩
abbrev main_call9_v6 : Ref sig .tc := ⟨.hbm, 430, rfl⟩
abbrev main_call9_v7 : Ref sig .tc := ⟨.hbm, 431, rfl⟩
abbrev main_call9_v8 : Ref sig .tc := ⟨.hbm, 432, rfl⟩
abbrev main_call9_v9 : Ref sig .tc := ⟨.hbm, 433, rfl⟩
abbrev main_call9_v10 : Ref sig .tc := ⟨.hbm, 434, rfl⟩
abbrev main_call9_v11 : Ref sig .tc := ⟨.hbm, 435, rfl⟩
abbrev main_call9_c_3 : Ref sig .tc := ⟨.hbm, 436, rfl⟩
abbrev main_call9_v12 : Ref sig .tc := ⟨.hbm, 437, rfl⟩
abbrev main_call9_v13 : Ref sig .tc := ⟨.hbm, 438, rfl⟩
abbrev main_call9_cst : Ref sig .tc := ⟨.hbm, 439, rfl⟩
abbrev main_call9_v14 : Ref sig .tc := ⟨.hbm, 440, rfl⟩
abbrev main_v258 : Ref sig .tc := ⟨.hbm, 441, rfl⟩
abbrev main_v259 : Ref sig .tc := ⟨.hbm, 442, rfl⟩
abbrev main_v260 : Ref sig .tc := ⟨.hbm, 443, rfl⟩
abbrev main_cst_59 : Ref sig .tc := ⟨.hbm, 444, rfl⟩
abbrev main_v261 : Ref sig .tc := ⟨.hbm, 445, rfl⟩
abbrev main_v262 : Ref sig .tc := ⟨.hbm, 446, rfl⟩
abbrev main_v263 : Ref sig .tc := ⟨.hbm, 447, rfl⟩
abbrev main_v264 : Ref sig .tc := ⟨.hbm, 448, rfl⟩
abbrev main_cst_60 : Ref sig .tc := ⟨.hbm, 449, rfl⟩
abbrev main_v265 : Ref sig .tc := ⟨.hbm, 450, rfl⟩
abbrev main_v266 : Ref sig .tc := ⟨.hbm, 451, rfl⟩
abbrev main_cst_61 : Ref sig .tc := ⟨.hbm, 452, rfl⟩
abbrev main_v267 : Ref sig .tc := ⟨.hbm, 453, rfl⟩
abbrev main_v268 : Ref sig .tc := ⟨.hbm, 454, rfl⟩
abbrev main_v269 : Ref sig .tc := ⟨.hbm, 455, rfl⟩
abbrev main_v270 : Ref sig .tc := ⟨.hbm, 456, rfl⟩
abbrev main_v271 : Ref sig .tc := ⟨.hbm, 457, rfl⟩
abbrev main_cst_62 : Ref sig .tc := ⟨.hbm, 458, rfl⟩
abbrev main_v272 : Ref sig .tc := ⟨.hbm, 459, rfl⟩
abbrev main_v273 : Ref sig .tc := ⟨.hbm, 460, rfl⟩
abbrev main_c_63 : Ref sig .tc := ⟨.hbm, 461, rfl⟩
abbrev main_v274 : Ref sig .tc := ⟨.hbm, 462, rfl⟩
abbrev main_v275 : Ref sig .tc := ⟨.hbm, 463, rfl⟩
abbrev main_c_64 : Ref sig .tc := ⟨.hbm, 464, rfl⟩
abbrev main_v276 : Ref sig .tc := ⟨.hbm, 465, rfl⟩
abbrev main_v277 : Ref sig .tc := ⟨.hbm, 466, rfl⟩
abbrev main_c_65 : Ref sig .tc := ⟨.hbm, 467, rfl⟩
abbrev main_call10_v0 : Ref sig .tc := ⟨.hbm, 468, rfl⟩
abbrev main_call10_v1 : Ref sig .tc := ⟨.hbm, 469, rfl⟩
abbrev main_v278 : Ref sig .tc := ⟨.hbm, 470, rfl⟩
abbrev main_v279 : Ref sig .tc := ⟨.hbm, 471, rfl⟩
abbrev main_v280 : Ref sig .tc := ⟨.hbm, 472, rfl⟩
abbrev main_v281 : Ref sig .tc := ⟨.hbm, 473, rfl⟩
abbrev main_v282 : Ref sig .tc := ⟨.hbm, 474, rfl⟩
abbrev main_v283 : Ref sig .tc := ⟨.hbm, 475, rfl⟩
abbrev main_v284 : Ref sig .tc := ⟨.hbm, 476, rfl⟩
abbrev main_v285 : Ref sig .tc := ⟨.hbm, 477, rfl⟩
abbrev main_v286 : Ref sig .tc := ⟨.hbm, 478, rfl⟩
abbrev main_v287 : Ref sig .tc := ⟨.hbm, 479, rfl⟩
abbrev main_v288 : Ref sig .tc := ⟨.hbm, 480, rfl⟩
abbrev main_v289 : Ref sig .tc := ⟨.hbm, 481, rfl⟩
abbrev main_cst_66 : Ref sig .tc := ⟨.hbm, 482, rfl⟩
abbrev main_v290 : Ref sig .tc := ⟨.hbm, 483, rfl⟩
abbrev main_c_67 : Ref sig .tc := ⟨.hbm, 484, rfl⟩
abbrev main_v291 : Ref sig .tc := ⟨.hbm, 485, rfl⟩
abbrev main_v292 : Ref sig .tc := ⟨.hbm, 486, rfl⟩
abbrev main_c_68 : Ref sig .tc := ⟨.hbm, 487, rfl⟩
abbrev main_v293 : Ref sig .tc := ⟨.hbm, 488, rfl⟩
abbrev main_v294 : Ref sig .tc := ⟨.hbm, 489, rfl⟩
abbrev main_v295 : Ref sig .tc := ⟨.hbm, 490, rfl⟩
abbrev main_c_69 : Ref sig .tc := ⟨.hbm, 491, rfl⟩
abbrev main_v296 : Ref sig .tc := ⟨.hbm, 492, rfl⟩
abbrev main_v297 : Ref sig .tc := ⟨.hbm, 493, rfl⟩
abbrev main_c_70 : Ref sig .tc := ⟨.hbm, 494, rfl⟩
abbrev main_v298 : Ref sig .tc := ⟨.hbm, 495, rfl⟩
abbrev main_v299 : Ref sig .tc := ⟨.hbm, 496, rfl⟩
abbrev main_v300 : Ref sig .tc := ⟨.hbm, 497, rfl⟩
abbrev main_v301 : Ref sig .tc := ⟨.hbm, 498, rfl⟩
abbrev main_v302 : Ref sig .tc := ⟨.hbm, 499, rfl⟩
abbrev main_v303 : Ref sig .tc := ⟨.hbm, 500, rfl⟩
abbrev main_v304 : Ref sig .tc := ⟨.hbm, 501, rfl⟩
abbrev main_v305 : Ref sig .tc := ⟨.hbm, 502, rfl⟩
abbrev main_v306 : Ref sig .tc := ⟨.hbm, 503, rfl⟩
abbrev main_v307 : Ref sig .tc := ⟨.hbm, 504, rfl⟩
abbrev main_v308 : Ref sig .tc := ⟨.hbm, 505, rfl⟩
abbrev main_v309 : Ref sig .tc := ⟨.hbm, 506, rfl⟩
abbrev main_cst_71 : Ref sig .tc := ⟨.hbm, 507, rfl⟩
abbrev main_v310 : Ref sig .tc := ⟨.hbm, 508, rfl⟩
abbrev main_v311 : Ref sig .tc := ⟨.hbm, 509, rfl⟩
abbrev main_call11_c : Ref sig .tc := ⟨.hbm, 510, rfl⟩
abbrev main_call11_v0 : Ref sig .tc := ⟨.hbm, 511, rfl⟩
abbrev main_call11_v1 : Ref sig .tc := ⟨.hbm, 512, rfl⟩
abbrev main_call11_c_0 : Ref sig .tc := ⟨.hbm, 513, rfl⟩
abbrev main_call11_v2 : Ref sig .tc := ⟨.hbm, 514, rfl⟩
abbrev main_call11_v3 : Ref sig .tc := ⟨.hbm, 515, rfl⟩
abbrev main_call11_v4 : Ref sig .tc := ⟨.hbm, 516, rfl⟩
abbrev main_call11_v5 : Ref sig .tc := ⟨.hbm, 517, rfl⟩
abbrev main_call11_c_1 : Ref sig .tc := ⟨.hbm, 518, rfl⟩
abbrev main_call11_c_2 : Ref sig .tc := ⟨.hbm, 519, rfl⟩
abbrev main_call11_v6 : Ref sig .tc := ⟨.hbm, 520, rfl⟩
abbrev main_call11_v7 : Ref sig .tc := ⟨.hbm, 521, rfl⟩
abbrev main_call11_v8 : Ref sig .tc := ⟨.hbm, 522, rfl⟩
abbrev main_call11_v9 : Ref sig .tc := ⟨.hbm, 523, rfl⟩
abbrev main_call11_v10 : Ref sig .tc := ⟨.hbm, 524, rfl⟩
abbrev main_call11_v11 : Ref sig .tc := ⟨.hbm, 525, rfl⟩
abbrev main_call11_c_3 : Ref sig .tc := ⟨.hbm, 526, rfl⟩
abbrev main_call11_v12 : Ref sig .tc := ⟨.hbm, 527, rfl⟩
abbrev main_call11_v13 : Ref sig .tc := ⟨.hbm, 528, rfl⟩
abbrev main_call11_cst : Ref sig .tc := ⟨.hbm, 529, rfl⟩
abbrev main_call11_v14 : Ref sig .tc := ⟨.hbm, 530, rfl⟩
abbrev main_v312 : Ref sig .tc := ⟨.hbm, 531, rfl⟩
abbrev main_v313 : Ref sig .tc := ⟨.hbm, 532, rfl⟩
abbrev main_v314 : Ref sig .tc := ⟨.hbm, 533, rfl⟩
abbrev main_cst_72 : Ref sig .tc := ⟨.hbm, 534, rfl⟩
abbrev main_v315 : Ref sig .tc := ⟨.hbm, 535, rfl⟩
abbrev main_v316 : Ref sig .tc := ⟨.hbm, 536, rfl⟩
abbrev main_v317 : Ref sig .tc := ⟨.hbm, 537, rfl⟩
abbrev main_v318 : Ref sig .tc := ⟨.hbm, 538, rfl⟩
abbrev main_cst_73 : Ref sig .tc := ⟨.hbm, 539, rfl⟩
abbrev main_v319 : Ref sig .tc := ⟨.hbm, 540, rfl⟩
abbrev main_v320 : Ref sig .tc := ⟨.hbm, 541, rfl⟩
abbrev main_cst_74 : Ref sig .tc := ⟨.hbm, 542, rfl⟩
abbrev main_v321 : Ref sig .tc := ⟨.hbm, 543, rfl⟩
abbrev main_v322 : Ref sig .tc := ⟨.hbm, 544, rfl⟩
abbrev main_v323 : Ref sig .tc := ⟨.hbm, 545, rfl⟩
abbrev main_v324 : Ref sig .tc := ⟨.hbm, 546, rfl⟩
abbrev main_v325 : Ref sig .tc := ⟨.hbm, 547, rfl⟩
abbrev main_cst_75 : Ref sig .tc := ⟨.hbm, 548, rfl⟩
abbrev main_v326 : Ref sig .tc := ⟨.hbm, 549, rfl⟩
abbrev main_v327 : Ref sig .tc := ⟨.hbm, 550, rfl⟩
abbrev main_c_76 : Ref sig .tc := ⟨.hbm, 551, rfl⟩
abbrev main_v328 : Ref sig .tc := ⟨.hbm, 552, rfl⟩
abbrev main_v329 : Ref sig .tc := ⟨.hbm, 553, rfl⟩
abbrev main_c_77 : Ref sig .tc := ⟨.hbm, 554, rfl⟩
abbrev main_v330 : Ref sig .tc := ⟨.hbm, 555, rfl⟩
abbrev main_v331 : Ref sig .tc := ⟨.hbm, 556, rfl⟩
abbrev main_c_78 : Ref sig .tc := ⟨.hbm, 557, rfl⟩
abbrev main_call12_v0 : Ref sig .tc := ⟨.hbm, 558, rfl⟩
abbrev main_call12_v1 : Ref sig .tc := ⟨.hbm, 559, rfl⟩
abbrev main_v332 : Ref sig .tc := ⟨.hbm, 560, rfl⟩
abbrev main_v333 : Ref sig .tc := ⟨.hbm, 561, rfl⟩
abbrev main_v334 : Ref sig .tc := ⟨.hbm, 562, rfl⟩
abbrev main_v335 : Ref sig .tc := ⟨.hbm, 563, rfl⟩
abbrev main_v336 : Ref sig .tc := ⟨.hbm, 564, rfl⟩
abbrev main_v337 : Ref sig .tc := ⟨.hbm, 565, rfl⟩
abbrev main_v338 : Ref sig .tc := ⟨.hbm, 566, rfl⟩
abbrev main_v339 : Ref sig .tc := ⟨.hbm, 567, rfl⟩
abbrev main_v340 : Ref sig .tc := ⟨.hbm, 568, rfl⟩
abbrev main_v341 : Ref sig .tc := ⟨.hbm, 569, rfl⟩
abbrev main_v342 : Ref sig .tc := ⟨.hbm, 570, rfl⟩
abbrev main_v343 : Ref sig .tc := ⟨.hbm, 571, rfl⟩
abbrev main_cst_79 : Ref sig .tc := ⟨.hbm, 572, rfl⟩
abbrev main_v344 : Ref sig .tc := ⟨.hbm, 573, rfl⟩
abbrev main_c_80 : Ref sig .tc := ⟨.hbm, 574, rfl⟩
abbrev main_v345 : Ref sig .tc := ⟨.hbm, 575, rfl⟩
abbrev main_v346 : Ref sig .tc := ⟨.hbm, 576, rfl⟩
abbrev main_c_81 : Ref sig .tc := ⟨.hbm, 577, rfl⟩
abbrev main_v347 : Ref sig .tc := ⟨.hbm, 578, rfl⟩
abbrev main_v348 : Ref sig .tc := ⟨.hbm, 579, rfl⟩
abbrev main_v349 : Ref sig .tc := ⟨.hbm, 580, rfl⟩
abbrev main_c_82 : Ref sig .tc := ⟨.hbm, 581, rfl⟩
abbrev main_v350 : Ref sig .tc := ⟨.hbm, 582, rfl⟩
abbrev main_v351 : Ref sig .tc := ⟨.hbm, 583, rfl⟩
abbrev main_c_83 : Ref sig .tc := ⟨.hbm, 584, rfl⟩
abbrev main_v352 : Ref sig .tc := ⟨.hbm, 585, rfl⟩
abbrev main_v353 : Ref sig .tc := ⟨.hbm, 586, rfl⟩
abbrev main_v354 : Ref sig .tc := ⟨.hbm, 587, rfl⟩
abbrev main_v355 : Ref sig .tc := ⟨.hbm, 588, rfl⟩
abbrev main_v356 : Ref sig .tc := ⟨.hbm, 589, rfl⟩
abbrev main_v357 : Ref sig .tc := ⟨.hbm, 590, rfl⟩
abbrev main_v358 : Ref sig .tc := ⟨.hbm, 591, rfl⟩
abbrev main_v359 : Ref sig .tc := ⟨.hbm, 592, rfl⟩
abbrev main_v360 : Ref sig .tc := ⟨.hbm, 593, rfl⟩
abbrev main_v361 : Ref sig .tc := ⟨.hbm, 594, rfl⟩
abbrev main_v362 : Ref sig .tc := ⟨.hbm, 595, rfl⟩
abbrev main_v363 : Ref sig .tc := ⟨.hbm, 596, rfl⟩
abbrev main_cst_84 : Ref sig .tc := ⟨.hbm, 597, rfl⟩
abbrev main_v364 : Ref sig .tc := ⟨.hbm, 598, rfl⟩
abbrev main_v365 : Ref sig .tc := ⟨.hbm, 599, rfl⟩
abbrev main_call13_c : Ref sig .tc := ⟨.hbm, 600, rfl⟩
abbrev main_call13_v0 : Ref sig .tc := ⟨.hbm, 601, rfl⟩
abbrev main_call13_v1 : Ref sig .tc := ⟨.hbm, 602, rfl⟩
abbrev main_call13_c_0 : Ref sig .tc := ⟨.hbm, 603, rfl⟩
abbrev main_call13_v2 : Ref sig .tc := ⟨.hbm, 604, rfl⟩
abbrev main_call13_v3 : Ref sig .tc := ⟨.hbm, 605, rfl⟩
abbrev main_call13_v4 : Ref sig .tc := ⟨.hbm, 606, rfl⟩
abbrev main_call13_v5 : Ref sig .tc := ⟨.hbm, 607, rfl⟩
abbrev main_call13_c_1 : Ref sig .tc := ⟨.hbm, 608, rfl⟩
abbrev main_call13_c_2 : Ref sig .tc := ⟨.hbm, 609, rfl⟩
abbrev main_call13_v6 : Ref sig .tc := ⟨.hbm, 610, rfl⟩
abbrev main_call13_v7 : Ref sig .tc := ⟨.hbm, 611, rfl⟩
abbrev main_call13_v8 : Ref sig .tc := ⟨.hbm, 612, rfl⟩
abbrev main_call13_v9 : Ref sig .tc := ⟨.hbm, 613, rfl⟩
abbrev main_call13_v10 : Ref sig .tc := ⟨.hbm, 614, rfl⟩
abbrev main_call13_v11 : Ref sig .tc := ⟨.hbm, 615, rfl⟩
abbrev main_call13_c_3 : Ref sig .tc := ⟨.hbm, 616, rfl⟩
abbrev main_call13_v12 : Ref sig .tc := ⟨.hbm, 617, rfl⟩
abbrev main_call13_v13 : Ref sig .tc := ⟨.hbm, 618, rfl⟩
abbrev main_call13_cst : Ref sig .tc := ⟨.hbm, 619, rfl⟩
abbrev main_call13_v14 : Ref sig .tc := ⟨.hbm, 620, rfl⟩
abbrev main_v366 : Ref sig .tc := ⟨.hbm, 621, rfl⟩
abbrev main_v367 : Ref sig .tc := ⟨.hbm, 622, rfl⟩
abbrev main_v368 : Ref sig .tc := ⟨.hbm, 623, rfl⟩
abbrev main_cst_85 : Ref sig .tc := ⟨.hbm, 624, rfl⟩
abbrev main_v369 : Ref sig .tc := ⟨.hbm, 625, rfl⟩
abbrev main_v370 : Ref sig .tc := ⟨.hbm, 626, rfl⟩
abbrev main_v371 : Ref sig .tc := ⟨.hbm, 627, rfl⟩
abbrev main_v372 : Ref sig .tc := ⟨.hbm, 628, rfl⟩
abbrev main_cst_86 : Ref sig .tc := ⟨.hbm, 629, rfl⟩
abbrev main_v373 : Ref sig .tc := ⟨.hbm, 630, rfl⟩
abbrev main_v374 : Ref sig .tc := ⟨.hbm, 631, rfl⟩
abbrev main_cst_87 : Ref sig .tc := ⟨.hbm, 632, rfl⟩
abbrev main_v375 : Ref sig .tc := ⟨.hbm, 633, rfl⟩
abbrev main_v376 : Ref sig .tc := ⟨.hbm, 634, rfl⟩
abbrev main_v377 : Ref sig .tc := ⟨.hbm, 635, rfl⟩
abbrev main_v378 : Ref sig .tc := ⟨.hbm, 636, rfl⟩
abbrev main_v379 : Ref sig .tc := ⟨.hbm, 637, rfl⟩
abbrev main_cst_88 : Ref sig .tc := ⟨.hbm, 638, rfl⟩
abbrev main_v380 : Ref sig .tc := ⟨.hbm, 639, rfl⟩
abbrev main_v381 : Ref sig .tc := ⟨.hbm, 640, rfl⟩
abbrev main_c_89 : Ref sig .tc := ⟨.hbm, 641, rfl⟩
abbrev main_v382 : Ref sig .tc := ⟨.hbm, 642, rfl⟩
abbrev main_v383 : Ref sig .tc := ⟨.hbm, 643, rfl⟩
abbrev main_c_90 : Ref sig .tc := ⟨.hbm, 644, rfl⟩
abbrev main_v384 : Ref sig .tc := ⟨.hbm, 645, rfl⟩
abbrev main_v385 : Ref sig .tc := ⟨.hbm, 646, rfl⟩
abbrev main_c_91 : Ref sig .tc := ⟨.hbm, 647, rfl⟩
abbrev main_call14_v0 : Ref sig .tc := ⟨.hbm, 648, rfl⟩
abbrev main_call14_v1 : Ref sig .tc := ⟨.hbm, 649, rfl⟩
abbrev main_v386 : Ref sig .tc := ⟨.hbm, 650, rfl⟩
abbrev main_v387 : Ref sig .tc := ⟨.hbm, 651, rfl⟩
abbrev main_v388 : Ref sig .tc := ⟨.hbm, 652, rfl⟩
abbrev main_v389 : Ref sig .tc := ⟨.hbm, 653, rfl⟩
abbrev main_v390 : Ref sig .tc := ⟨.hbm, 654, rfl⟩
abbrev main_v391 : Ref sig .tc := ⟨.hbm, 655, rfl⟩
abbrev main_v392 : Ref sig .tc := ⟨.hbm, 656, rfl⟩
abbrev main_v393 : Ref sig .tc := ⟨.hbm, 657, rfl⟩
abbrev main_v394 : Ref sig .tc := ⟨.hbm, 658, rfl⟩
abbrev main_v395 : Ref sig .tc := ⟨.hbm, 659, rfl⟩
abbrev main_v396 : Ref sig .tc := ⟨.hbm, 660, rfl⟩
abbrev main_v397 : Ref sig .tc := ⟨.hbm, 661, rfl⟩
abbrev main_cst_92 : Ref sig .tc := ⟨.hbm, 662, rfl⟩
abbrev main_v398 : Ref sig .tc := ⟨.hbm, 663, rfl⟩
abbrev main_c_93 : Ref sig .tc := ⟨.hbm, 664, rfl⟩
abbrev main_v399 : Ref sig .tc := ⟨.hbm, 665, rfl⟩
abbrev main_v400 : Ref sig .tc := ⟨.hbm, 666, rfl⟩
abbrev main_c_94 : Ref sig .tc := ⟨.hbm, 667, rfl⟩
abbrev main_v401 : Ref sig .tc := ⟨.hbm, 668, rfl⟩
abbrev main_v402 : Ref sig .tc := ⟨.hbm, 669, rfl⟩
abbrev main_v403 : Ref sig .tc := ⟨.hbm, 670, rfl⟩
abbrev main_c_95 : Ref sig .tc := ⟨.hbm, 671, rfl⟩
abbrev main_v404 : Ref sig .tc := ⟨.hbm, 672, rfl⟩
abbrev main_v405 : Ref sig .tc := ⟨.hbm, 673, rfl⟩
abbrev main_c_96 : Ref sig .tc := ⟨.hbm, 674, rfl⟩
abbrev main_v406 : Ref sig .tc := ⟨.hbm, 675, rfl⟩
abbrev main_v407 : Ref sig .tc := ⟨.hbm, 676, rfl⟩
abbrev main_v408 : Ref sig .tc := ⟨.hbm, 677, rfl⟩
abbrev main_v409 : Ref sig .tc := ⟨.hbm, 678, rfl⟩
abbrev main_v410 : Ref sig .tc := ⟨.hbm, 679, rfl⟩
abbrev main_v411 : Ref sig .tc := ⟨.hbm, 680, rfl⟩
abbrev main_v412 : Ref sig .tc := ⟨.hbm, 681, rfl⟩
abbrev main_v413 : Ref sig .tc := ⟨.hbm, 682, rfl⟩
abbrev main_v414 : Ref sig .tc := ⟨.hbm, 683, rfl⟩
abbrev main_v415 : Ref sig .tc := ⟨.hbm, 684, rfl⟩
abbrev main_v416 : Ref sig .tc := ⟨.hbm, 685, rfl⟩
abbrev main_v417 : Ref sig .tc := ⟨.hbm, 686, rfl⟩
abbrev main_cst_97 : Ref sig .tc := ⟨.hbm, 687, rfl⟩
abbrev main_v418 : Ref sig .tc := ⟨.hbm, 688, rfl⟩
abbrev main_v419 : Ref sig .tc := ⟨.hbm, 689, rfl⟩
abbrev main_call15_c : Ref sig .tc := ⟨.hbm, 690, rfl⟩
abbrev main_call15_v0 : Ref sig .tc := ⟨.hbm, 691, rfl⟩
abbrev main_call15_v1 : Ref sig .tc := ⟨.hbm, 692, rfl⟩
abbrev main_call15_c_0 : Ref sig .tc := ⟨.hbm, 693, rfl⟩
abbrev main_call15_v2 : Ref sig .tc := ⟨.hbm, 694, rfl⟩
abbrev main_call15_v3 : Ref sig .tc := ⟨.hbm, 695, rfl⟩
abbrev main_call15_v4 : Ref sig .tc := ⟨.hbm, 696, rfl⟩
abbrev main_call15_v5 : Ref sig .tc := ⟨.hbm, 697, rfl⟩
abbrev main_call15_c_1 : Ref sig .tc := ⟨.hbm, 698, rfl⟩
abbrev main_call15_c_2 : Ref sig .tc := ⟨.hbm, 699, rfl⟩
abbrev main_call15_v6 : Ref sig .tc := ⟨.hbm, 700, rfl⟩
abbrev main_call15_v7 : Ref sig .tc := ⟨.hbm, 701, rfl⟩
abbrev main_call15_v8 : Ref sig .tc := ⟨.hbm, 702, rfl⟩
abbrev main_call15_v9 : Ref sig .tc := ⟨.hbm, 703, rfl⟩
abbrev main_call15_v10 : Ref sig .tc := ⟨.hbm, 704, rfl⟩
abbrev main_call15_v11 : Ref sig .tc := ⟨.hbm, 705, rfl⟩
abbrev main_call15_c_3 : Ref sig .tc := ⟨.hbm, 706, rfl⟩
abbrev main_call15_v12 : Ref sig .tc := ⟨.hbm, 707, rfl⟩
abbrev main_call15_v13 : Ref sig .tc := ⟨.hbm, 708, rfl⟩
abbrev main_call15_cst : Ref sig .tc := ⟨.hbm, 709, rfl⟩
abbrev main_call15_v14 : Ref sig .tc := ⟨.hbm, 710, rfl⟩
abbrev main_v420 : Ref sig .tc := ⟨.hbm, 711, rfl⟩
abbrev main_v421 : Ref sig .tc := ⟨.hbm, 712, rfl⟩
abbrev main_v422 : Ref sig .tc := ⟨.hbm, 713, rfl⟩
abbrev main_cst_98 : Ref sig .tc := ⟨.hbm, 714, rfl⟩
abbrev main_v423 : Ref sig .tc := ⟨.hbm, 715, rfl⟩
abbrev main_v424 : Ref sig .tc := ⟨.hbm, 716, rfl⟩
abbrev main_v425 : Ref sig .tc := ⟨.hbm, 717, rfl⟩
abbrev main_v426 : Ref sig .tc := ⟨.hbm, 718, rfl⟩
abbrev main_cst_99 : Ref sig .tc := ⟨.hbm, 719, rfl⟩
abbrev main_v427 : Ref sig .tc := ⟨.hbm, 720, rfl⟩
abbrev main_v428 : Ref sig .tc := ⟨.hbm, 721, rfl⟩
abbrev main_cst_100 : Ref sig .tc := ⟨.hbm, 722, rfl⟩
abbrev main_v429 : Ref sig .tc := ⟨.hbm, 723, rfl⟩
abbrev main_v430 : Ref sig .tc := ⟨.hbm, 724, rfl⟩
abbrev main_v431 : Ref sig .tc := ⟨.hbm, 725, rfl⟩
abbrev main_v432 : Ref sig .tc := ⟨.hbm, 726, rfl⟩
abbrev main_v433 : Ref sig .tc := ⟨.hbm, 727, rfl⟩
abbrev main_cst_101 : Ref sig .tc := ⟨.hbm, 728, rfl⟩
abbrev main_v434 : Ref sig .tc := ⟨.hbm, 729, rfl⟩
abbrev main_v435 : Ref sig .tc := ⟨.hbm, 730, rfl⟩
abbrev main_c_102 : Ref sig .tc := ⟨.hbm, 731, rfl⟩
abbrev main_v436 : Ref sig .tc := ⟨.hbm, 732, rfl⟩
abbrev main_v437 : Ref sig .tc := ⟨.hbm, 733, rfl⟩
abbrev main_c_103 : Ref sig .tc := ⟨.hbm, 734, rfl⟩
abbrev main_v438 : Ref sig .tc := ⟨.hbm, 735, rfl⟩
abbrev main_v439 : Ref sig .tc := ⟨.hbm, 736, rfl⟩
abbrev main_c_104 : Ref sig .tc := ⟨.hbm, 737, rfl⟩
abbrev main_call16_v0 : Ref sig .tc := ⟨.hbm, 738, rfl⟩
abbrev main_call16_v1 : Ref sig .tc := ⟨.hbm, 739, rfl⟩
abbrev main_v440 : Ref sig .tc := ⟨.hbm, 740, rfl⟩
abbrev main_v441 : Ref sig .tc := ⟨.hbm, 741, rfl⟩
abbrev main_v442 : Ref sig .tc := ⟨.hbm, 742, rfl⟩
abbrev main_v443 : Ref sig .tc := ⟨.hbm, 743, rfl⟩
abbrev main_v444 : Ref sig .tc := ⟨.hbm, 744, rfl⟩
abbrev main_v445 : Ref sig .tc := ⟨.hbm, 745, rfl⟩
abbrev main_v446 : Ref sig .tc := ⟨.hbm, 746, rfl⟩
abbrev main_v447 : Ref sig .tc := ⟨.hbm, 747, rfl⟩
abbrev main_v448 : Ref sig .tc := ⟨.hbm, 748, rfl⟩
abbrev main_v449 : Ref sig .tc := ⟨.hbm, 749, rfl⟩
abbrev main_v450 : Ref sig .tc := ⟨.hbm, 750, rfl⟩
abbrev main_v451 : Ref sig .tc := ⟨.hbm, 751, rfl⟩
abbrev main_cst_105 : Ref sig .tc := ⟨.hbm, 752, rfl⟩
abbrev main_v452 : Ref sig .tc := ⟨.hbm, 753, rfl⟩
abbrev main_c_106 : Ref sig .tc := ⟨.hbm, 754, rfl⟩
abbrev main_v453 : Ref sig .tc := ⟨.hbm, 755, rfl⟩
abbrev main_v454 : Ref sig .tc := ⟨.hbm, 756, rfl⟩
abbrev main_c_107 : Ref sig .tc := ⟨.hbm, 757, rfl⟩
abbrev main_v455 : Ref sig .tc := ⟨.hbm, 758, rfl⟩
abbrev main_v456 : Ref sig .tc := ⟨.hbm, 759, rfl⟩
abbrev main_v457 : Ref sig .tc := ⟨.hbm, 760, rfl⟩
abbrev main_c_108 : Ref sig .tc := ⟨.hbm, 761, rfl⟩
abbrev main_v458 : Ref sig .tc := ⟨.hbm, 762, rfl⟩
abbrev main_v459 : Ref sig .tc := ⟨.hbm, 763, rfl⟩
abbrev main_c_109 : Ref sig .tc := ⟨.hbm, 764, rfl⟩
abbrev main_v460 : Ref sig .tc := ⟨.hbm, 765, rfl⟩
abbrev main_v461 : Ref sig .tc := ⟨.hbm, 766, rfl⟩
abbrev main_v462 : Ref sig .tc := ⟨.hbm, 767, rfl⟩
abbrev main_v463 : Ref sig .tc := ⟨.hbm, 768, rfl⟩
abbrev main_v464 : Ref sig .tc := ⟨.hbm, 769, rfl⟩
abbrev main_v465 : Ref sig .tc := ⟨.hbm, 770, rfl⟩
abbrev main_v466 : Ref sig .tc := ⟨.hbm, 771, rfl⟩
abbrev main_v467 : Ref sig .tc := ⟨.hbm, 772, rfl⟩
abbrev main_v468 : Ref sig .tc := ⟨.hbm, 773, rfl⟩
abbrev main_v469 : Ref sig .tc := ⟨.hbm, 774, rfl⟩
abbrev main_v470 : Ref sig .tc := ⟨.hbm, 775, rfl⟩
abbrev main_v471 : Ref sig .tc := ⟨.hbm, 776, rfl⟩
abbrev main_cst_110 : Ref sig .tc := ⟨.hbm, 777, rfl⟩
abbrev main_v472 : Ref sig .tc := ⟨.hbm, 778, rfl⟩
abbrev main_v473 : Ref sig .tc := ⟨.hbm, 779, rfl⟩
abbrev main_call17_c : Ref sig .tc := ⟨.hbm, 780, rfl⟩
abbrev main_call17_v0 : Ref sig .tc := ⟨.hbm, 781, rfl⟩
abbrev main_call17_v1 : Ref sig .tc := ⟨.hbm, 782, rfl⟩
abbrev main_call17_c_0 : Ref sig .tc := ⟨.hbm, 783, rfl⟩
abbrev main_call17_v2 : Ref sig .tc := ⟨.hbm, 784, rfl⟩
abbrev main_call17_v3 : Ref sig .tc := ⟨.hbm, 785, rfl⟩
abbrev main_call17_v4 : Ref sig .tc := ⟨.hbm, 786, rfl⟩
abbrev main_call17_v5 : Ref sig .tc := ⟨.hbm, 787, rfl⟩
abbrev main_call17_c_1 : Ref sig .tc := ⟨.hbm, 788, rfl⟩
abbrev main_call17_c_2 : Ref sig .tc := ⟨.hbm, 789, rfl⟩
abbrev main_call17_v6 : Ref sig .tc := ⟨.hbm, 790, rfl⟩
abbrev main_call17_v7 : Ref sig .tc := ⟨.hbm, 791, rfl⟩
abbrev main_call17_v8 : Ref sig .tc := ⟨.hbm, 792, rfl⟩
abbrev main_call17_v9 : Ref sig .tc := ⟨.hbm, 793, rfl⟩
abbrev main_call17_v10 : Ref sig .tc := ⟨.hbm, 794, rfl⟩
abbrev main_call17_v11 : Ref sig .tc := ⟨.hbm, 795, rfl⟩
abbrev main_call17_c_3 : Ref sig .tc := ⟨.hbm, 796, rfl⟩
abbrev main_call17_v12 : Ref sig .tc := ⟨.hbm, 797, rfl⟩
abbrev main_call17_v13 : Ref sig .tc := ⟨.hbm, 798, rfl⟩
abbrev main_call17_cst : Ref sig .tc := ⟨.hbm, 799, rfl⟩
abbrev main_call17_v14 : Ref sig .tc := ⟨.hbm, 800, rfl⟩
abbrev main_v474 : Ref sig .tc := ⟨.hbm, 801, rfl⟩
abbrev main_v475 : Ref sig .tc := ⟨.hbm, 802, rfl⟩
abbrev main_v476 : Ref sig .tc := ⟨.hbm, 803, rfl⟩
abbrev main_cst_111 : Ref sig .tc := ⟨.hbm, 804, rfl⟩
abbrev main_v477 : Ref sig .tc := ⟨.hbm, 805, rfl⟩
abbrev main_v478 : Ref sig .tc := ⟨.hbm, 806, rfl⟩
abbrev main_v479 : Ref sig .tc := ⟨.hbm, 807, rfl⟩
abbrev main_v480 : Ref sig .tc := ⟨.hbm, 808, rfl⟩
abbrev main_cst_112 : Ref sig .tc := ⟨.hbm, 809, rfl⟩
abbrev main_v481 : Ref sig .tc := ⟨.hbm, 810, rfl⟩
abbrev main_v482 : Ref sig .tc := ⟨.hbm, 811, rfl⟩
abbrev main_cst_113 : Ref sig .tc := ⟨.hbm, 812, rfl⟩
abbrev main_v483 : Ref sig .tc := ⟨.hbm, 813, rfl⟩
abbrev main_v484 : Ref sig .tc := ⟨.hbm, 814, rfl⟩
abbrev main_v485 : Ref sig .tc := ⟨.hbm, 815, rfl⟩
abbrev main_v486 : Ref sig .tc := ⟨.hbm, 816, rfl⟩
abbrev main_v487 : Ref sig .tc := ⟨.hbm, 817, rfl⟩
abbrev main_cst_114 : Ref sig .tc := ⟨.hbm, 818, rfl⟩
abbrev main_v488 : Ref sig .tc := ⟨.hbm, 819, rfl⟩
abbrev main_v489 : Ref sig .tc := ⟨.hbm, 820, rfl⟩
abbrev main_c_115 : Ref sig .tc := ⟨.hbm, 821, rfl⟩
abbrev main_v490 : Ref sig .tc := ⟨.hbm, 822, rfl⟩
abbrev main_v491 : Ref sig .tc := ⟨.hbm, 823, rfl⟩
abbrev main_c_116 : Ref sig .tc := ⟨.hbm, 824, rfl⟩
abbrev main_v492 : Ref sig .tc := ⟨.hbm, 825, rfl⟩
abbrev main_v493 : Ref sig .tc := ⟨.hbm, 826, rfl⟩
abbrev main_c_117 : Ref sig .tc := ⟨.hbm, 827, rfl⟩
abbrev main_call18_v0 : Ref sig .tc := ⟨.hbm, 828, rfl⟩
abbrev main_call18_v1 : Ref sig .tc := ⟨.hbm, 829, rfl⟩
abbrev main_v494 : Ref sig .tc := ⟨.hbm, 830, rfl⟩
abbrev main_v495 : Ref sig .tc := ⟨.hbm, 831, rfl⟩
abbrev main_v496 : Ref sig .tc := ⟨.hbm, 832, rfl⟩
abbrev main_v497 : Ref sig .tc := ⟨.hbm, 833, rfl⟩
abbrev main_v498 : Ref sig .tc := ⟨.hbm, 834, rfl⟩
abbrev main_v499 : Ref sig .tc := ⟨.hbm, 835, rfl⟩
abbrev main_v500 : Ref sig .tc := ⟨.hbm, 836, rfl⟩
abbrev main_v501 : Ref sig .tc := ⟨.hbm, 837, rfl⟩
abbrev main_v502 : Ref sig .tc := ⟨.hbm, 838, rfl⟩
abbrev main_v503 : Ref sig .tc := ⟨.hbm, 839, rfl⟩
abbrev main_v504 : Ref sig .tc := ⟨.hbm, 840, rfl⟩
abbrev main_v505 : Ref sig .tc := ⟨.hbm, 841, rfl⟩
abbrev main_cst_118 : Ref sig .tc := ⟨.hbm, 842, rfl⟩
abbrev main_v506 : Ref sig .tc := ⟨.hbm, 843, rfl⟩
abbrev main_c_119 : Ref sig .tc := ⟨.hbm, 844, rfl⟩
abbrev main_v507 : Ref sig .tc := ⟨.hbm, 845, rfl⟩
abbrev main_v508 : Ref sig .tc := ⟨.hbm, 846, rfl⟩
abbrev main_c_120 : Ref sig .tc := ⟨.hbm, 847, rfl⟩
abbrev main_v509 : Ref sig .tc := ⟨.hbm, 848, rfl⟩
abbrev main_v510 : Ref sig .tc := ⟨.hbm, 849, rfl⟩
abbrev main_v511 : Ref sig .tc := ⟨.hbm, 850, rfl⟩
abbrev main_c_121 : Ref sig .tc := ⟨.hbm, 851, rfl⟩
abbrev main_v512 : Ref sig .tc := ⟨.hbm, 852, rfl⟩
abbrev main_v513 : Ref sig .tc := ⟨.hbm, 853, rfl⟩
abbrev main_c_122 : Ref sig .tc := ⟨.hbm, 854, rfl⟩
abbrev main_v514 : Ref sig .tc := ⟨.hbm, 855, rfl⟩
abbrev main_v515 : Ref sig .tc := ⟨.hbm, 856, rfl⟩
abbrev main_v516 : Ref sig .tc := ⟨.hbm, 857, rfl⟩
abbrev main_v517 : Ref sig .tc := ⟨.hbm, 858, rfl⟩
abbrev main_v518 : Ref sig .tc := ⟨.hbm, 859, rfl⟩
abbrev main_v519 : Ref sig .tc := ⟨.hbm, 860, rfl⟩
abbrev main_v520 : Ref sig .tc := ⟨.hbm, 861, rfl⟩
abbrev main_v521 : Ref sig .tc := ⟨.hbm, 862, rfl⟩
abbrev main_v522 : Ref sig .tc := ⟨.hbm, 863, rfl⟩
abbrev main_v523 : Ref sig .tc := ⟨.hbm, 864, rfl⟩
abbrev main_v524 : Ref sig .tc := ⟨.hbm, 865, rfl⟩
abbrev main_v525 : Ref sig .tc := ⟨.hbm, 866, rfl⟩
abbrev main_cst_123 : Ref sig .tc := ⟨.hbm, 867, rfl⟩
abbrev main_v526 : Ref sig .tc := ⟨.hbm, 868, rfl⟩
abbrev main_v527 : Ref sig .tc := ⟨.hbm, 869, rfl⟩
abbrev main_call19_c : Ref sig .tc := ⟨.hbm, 870, rfl⟩
abbrev main_call19_v0 : Ref sig .tc := ⟨.hbm, 871, rfl⟩
abbrev main_call19_v1 : Ref sig .tc := ⟨.hbm, 872, rfl⟩
abbrev main_call19_c_0 : Ref sig .tc := ⟨.hbm, 873, rfl⟩
abbrev main_call19_v2 : Ref sig .tc := ⟨.hbm, 874, rfl⟩
abbrev main_call19_v3 : Ref sig .tc := ⟨.hbm, 875, rfl⟩
abbrev main_call19_v4 : Ref sig .tc := ⟨.hbm, 876, rfl⟩
abbrev main_call19_v5 : Ref sig .tc := ⟨.hbm, 877, rfl⟩
abbrev main_call19_c_1 : Ref sig .tc := ⟨.hbm, 878, rfl⟩
abbrev main_call19_c_2 : Ref sig .tc := ⟨.hbm, 879, rfl⟩
abbrev main_call19_v6 : Ref sig .tc := ⟨.hbm, 880, rfl⟩
abbrev main_call19_v7 : Ref sig .tc := ⟨.hbm, 881, rfl⟩
abbrev main_call19_v8 : Ref sig .tc := ⟨.hbm, 882, rfl⟩
abbrev main_call19_v9 : Ref sig .tc := ⟨.hbm, 883, rfl⟩
abbrev main_call19_v10 : Ref sig .tc := ⟨.hbm, 884, rfl⟩
abbrev main_call19_v11 : Ref sig .tc := ⟨.hbm, 885, rfl⟩
abbrev main_call19_c_3 : Ref sig .tc := ⟨.hbm, 886, rfl⟩
abbrev main_call19_v12 : Ref sig .tc := ⟨.hbm, 887, rfl⟩
abbrev main_call19_v13 : Ref sig .tc := ⟨.hbm, 888, rfl⟩
abbrev main_call19_cst : Ref sig .tc := ⟨.hbm, 889, rfl⟩
abbrev main_call19_v14 : Ref sig .tc := ⟨.hbm, 890, rfl⟩
abbrev main_v528 : Ref sig .tc := ⟨.hbm, 891, rfl⟩
abbrev main_v529 : Ref sig .tc := ⟨.hbm, 892, rfl⟩
abbrev main_v530 : Ref sig .tc := ⟨.hbm, 893, rfl⟩
abbrev main_cst_124 : Ref sig .tc := ⟨.hbm, 894, rfl⟩
abbrev main_v531 : Ref sig .tc := ⟨.hbm, 895, rfl⟩
abbrev main_v532 : Ref sig .tc := ⟨.hbm, 896, rfl⟩
abbrev main_v533 : Ref sig .tc := ⟨.hbm, 897, rfl⟩
abbrev main_v534 : Ref sig .tc := ⟨.hbm, 898, rfl⟩
abbrev main_cst_125 : Ref sig .tc := ⟨.hbm, 899, rfl⟩
abbrev main_v535 : Ref sig .tc := ⟨.hbm, 900, rfl⟩
abbrev main_v536 : Ref sig .tc := ⟨.hbm, 901, rfl⟩
abbrev main_cst_126 : Ref sig .tc := ⟨.hbm, 902, rfl⟩
abbrev main_v537 : Ref sig .tc := ⟨.hbm, 903, rfl⟩
abbrev main_v538 : Ref sig .tc := ⟨.hbm, 904, rfl⟩
abbrev main_v539 : Ref sig .tc := ⟨.hbm, 905, rfl⟩
abbrev main_v540 : Ref sig .tc := ⟨.hbm, 906, rfl⟩
abbrev main_v541 : Ref sig .tc := ⟨.hbm, 907, rfl⟩
abbrev main_cst_127 : Ref sig .tc := ⟨.hbm, 908, rfl⟩
abbrev main_v542 : Ref sig .tc := ⟨.hbm, 909, rfl⟩
abbrev main_v543 : Ref sig .tc := ⟨.hbm, 910, rfl⟩
abbrev main_v544 : Ref sig .tc := ⟨.hbm, 911, rfl⟩
abbrev main_cst_128 : Ref sig .tc := ⟨.hbm, 912, rfl⟩
abbrev main_v545 : Ref sig .tc := ⟨.hbm, 913, rfl⟩
abbrev main_v546 : Ref sig .tc := ⟨.hbm, 914, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg5_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg4_0 : Ref sig .tc := ⟨.vmem, 53, rfl⟩
abbrev cc6_stg5_0 : Ref sig .tc := ⟨.vmem, 54, rfl⟩
abbrev cc6_stg5_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg2_0 : Ref sig .tc := ⟨.vmem, 59, rfl⟩
abbrev cc7_stg3_0 : Ref sig .tc := ⟨.vmem, 60, rfl⟩
abbrev cc7_stg4_0 : Ref sig .tc := ⟨.vmem, 61, rfl⟩
abbrev cc7_stg5_0 : Ref sig .tc := ⟨.vmem, 62, rfl⟩
abbrev cc7_stg5_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg2_0 : Ref sig .tc := ⟨.vmem, 67, rfl⟩
abbrev cc8_stg3_0 : Ref sig .tc := ⟨.vmem, 68, rfl⟩
abbrev cc8_stg4_0 : Ref sig .tc := ⟨.vmem, 69, rfl⟩
abbrev cc8_stg5_0 : Ref sig .tc := ⟨.vmem, 70, rfl⟩
abbrev cc8_stg5_1 : Ref sig .tc := ⟨.vmem, 71, rfl⟩
abbrev cc9_stg0_0 : Ref sig .tc := ⟨.vmem, 72, rfl⟩
abbrev cc9_stg0_1 : Ref sig .tc := ⟨.vmem, 73, rfl⟩
abbrev cc9_stg1_0 : Ref sig .tc := ⟨.vmem, 74, rfl⟩
abbrev cc9_stg2_0 : Ref sig .tc := ⟨.vmem, 75, rfl⟩
abbrev cc9_stg3_0 : Ref sig .tc := ⟨.vmem, 76, rfl⟩
abbrev cc9_stg4_0 : Ref sig .tc := ⟨.vmem, 77, rfl⟩
abbrev cc9_stg5_0 : Ref sig .tc := ⟨.vmem, 78, rfl⟩
abbrev cc9_stg5_1 : Ref sig .tc := ⟨.vmem, 79, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem4_0 : DmaSem sig := 37
abbrev cc4_sem5_0 : DmaSem sig := 38
abbrev cc4_sem5_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem4_0 : DmaSem sig := 53
abbrev cc6_sem5_0 : DmaSem sig := 54
abbrev cc6_sem5_1 : DmaSem sig := 55
abbrev cc7_sem0_0 : DmaSem sig := 56
abbrev cc7_sem0_1 : DmaSem sig := 57
abbrev cc7_sem1_0 : DmaSem sig := 58
abbrev cc7_sem2_0 : DmaSem sig := 59
abbrev cc7_sem3_0 : DmaSem sig := 60
abbrev cc7_sem4_0 : DmaSem sig := 61
abbrev cc7_sem5_0 : DmaSem sig := 62
abbrev cc7_sem5_1 : DmaSem sig := 63
abbrev cc8_sem0_0 : DmaSem sig := 64
abbrev cc8_sem0_1 : DmaSem sig := 65
abbrev cc8_sem1_0 : DmaSem sig := 66
abbrev cc8_sem2_0 : DmaSem sig := 67
abbrev cc8_sem3_0 : DmaSem sig := 68
abbrev cc8_sem4_0 : DmaSem sig := 69
abbrev cc8_sem5_0 : DmaSem sig := 70
abbrev cc8_sem5_1 : DmaSem sig := 71
abbrev cc9_sem0_0 : DmaSem sig := 72
abbrev cc9_sem0_1 : DmaSem sig := 73
abbrev cc9_sem1_0 : DmaSem sig := 74
abbrev cc9_sem2_0 : DmaSem sig := 75
abbrev cc9_sem3_0 : DmaSem sig := 76
abbrev cc9_sem4_0 : DmaSem sig := 77
abbrev cc9_sem5_0 : DmaSem sig := 78
abbrev cc9_sem5_1 : DmaSem sig := 79

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2000x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x4000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x4000 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4000 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x4000 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2000x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x4000 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x4000 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x4000 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x2000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2000x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x4000 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x4000 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S512x4000 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x2000 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2000x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x4000 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x4000 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S512x4000 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x2000 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S2000x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x4000 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x4000 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S512x4000 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x2000 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S2000x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x4000 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x4000 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S512x4000 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S512x2000 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S2000x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x4000 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x4000 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S512x4000 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![8], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S512x2000 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S2000x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S64x4000 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x4000 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S512x4000 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![8], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S512x2000 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S2000x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S64x4000 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x4000 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S512x4000 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

class Facts₀ : Prop where
  slices_S4096x125_S4096x64_0_0 : S4096x125.Slices ![0, 0] S4096x64
  slices_S4096x125_S4096x61_0_64 : S4096x125.Slices ![0, 64] S4096x61
  bcast_S_S4096x64 : S_.BroadcastsInDim S4096x64 (![] : Fin 0 → Fin S4096x64.rank)
  concatenates_S4096x64_S4096x64_S4096x128_d1 : Shape.Concatenates [S4096x64, S4096x64] S4096x128 1
  slices_S10x2000x64_S1x2000x64_0_0_0 : S10x2000x64.Slices ![0, 0, 0] S1x2000x64
  shapeCasts_S1x2000x64_S2000x64 : S1x2000x64.ShapeCasts S2000x64
  slices_S10x64_S1x64_0_0 : S10x64.Slices ![0, 0] S1x64
  shapeCasts_S1x64_S64 : S1x64.ShapeCasts S64
  slices_S10x64x4000_S1x64x4000_0_0_0 : S10x64x4000.Slices ![0, 0, 0] S1x64x4000
  shapeCasts_S1x64x4000_S64x4000 : S1x64x4000.ShapeCasts S64x4000
  slices_S10x4000_S1x4000_0_0 : S10x4000.Slices ![0, 0] S1x4000
  shapeCasts_S1x4000_S4000 : S1x4000.ShapeCasts S4000
  bcast_S4096_S4096x1_0 : S4096.BroadcastsInDim S4096x1 (![0] : Fin 1 → Fin S4096x1.rank)
  bcast_S_S4096x2001 : S_.BroadcastsInDim S4096x2001 (![] : Fin 0 → Fin S4096x2001.rank)
  bcast_S_S4096x1 : S_.BroadcastsInDim S4096x1 (![] : Fin 0 → Fin S4096x1.rank)
  bcast_S_S4096x61 : S_.BroadcastsInDim S4096x61 (![] : Fin 0 → Fin S4096x61.rank)
  bcast_S4096x1_S4096x61_0_1 : S4096x1.BroadcastsInDim S4096x61 (![0, 1] : Fin 2 → Fin S4096x61.rank)
  bcast_S4096x61_S4096x61x1_0_1 : S4096x61.BroadcastsInDim S4096x61x1 (![0, 1] : Fin 2 → Fin S4096x61x1.rank)
  concatenates_S4096x61x1_S4096x61x1_S4096x61x2_d2 : Shape.Concatenates [S4096x61x1, S4096x61x1] S4096x61x2 2
  slices_S4096x2001_S4096x2000_0_0 : S4096x2001.Slices ![0, 0] S4096x2000
  shapeCasts_S64_S1x64 : S64.ShapeCasts S1x64
  shapeCasts_S4000_S1x4000 : S4000.ShapeCasts S1x4000
  inb_S512x2000_S512x2000_0_0 : ∀ a, (![0, 0] : Fin 2 → Nat) a + S512x2000.size a ≤ S512x2000.size a
  h_S512x2000 : 0 < S512x2000.numel
  shapeCasts_S512x2000_S512x2000 : S512x2000.ShapeCasts S512x2000
  bitsLt_bf16_f32 : FTy.bits .bf16 < FTy.bits .f32
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S64x4000_S64x4000_0_0 : ∀ a, (![0, 0] : Fin 2 → Nat) a + S64x4000.size a ≤ S64x4000.size a
  h_S64x4000 : 0 < S64x4000.numel
  shapeCasts_S64x4000_S64x4000 : S64x4000.ShapeCasts S64x4000
  inb_S1x4000_S1x4000_0_0 : ∀ a, (![0, 0] : Fin 2 → Nat) a + S1x4000.size a ≤ S1x4000.size a
  h_S1x4000 : 0 < S1x4000.numel
  shapeCasts_S1x4000_S1x4000 : S1x4000.ShapeCasts S1x4000
  broadcasts_S1x4000_S512x4000 : S1x4000.Broadcasts S512x4000
  inb_S512x4000_S512x4000_0_0 : ∀ a, (![0, 0] : Fin 2 → Nat) a + S512x4000.size a ≤ S512x4000.size a
  h_S512x4000 : 0 < S512x4000.numel
  concatenates_S4096x4000_S4096x1_S4096x4001_d1 : Shape.Concatenates [S4096x4000, S4096x1] S4096x4001 1
  bcast_S_S4096x128 : S_.BroadcastsInDim S4096x128 (![] : Fin 0 → Fin S4096x128.rank)
  shapeCasts_S4096x128_S4096x128x1 : S4096x128.ShapeCasts S4096x128x1
  bcast_S_S4096x128x1 : S_.BroadcastsInDim S4096x128x1 (![] : Fin 0 → Fin S4096x128x1.rank)
  bcast_S1_S1x1x1_2 : S1.BroadcastsInDim S1x1x1 (![2] : Fin 1 → Fin S1x1x1.rank)
  bcast_S1x1x1_S4096x128x1_0_1_2 : S1x1x1.BroadcastsInDim S4096x128x1 (![0, 1, 2] : Fin 3 → Fin S4096x128x1.rank)
  reducesTo_S4096x128x1_S4096x128_d2 : S4096x128x1.ReducesTo [2] S4096x128
  h_S_ : 0 < S_.numel
  slices_S4096x128_S4096x64_0_0 : S4096x128.Slices ![0, 0] S4096x64
  slices_S4096x128_S4096x64_0_64 : S4096x128.Slices ![0, 64] S4096x64
  reducesTo_S4096x64_S4096_d1 : S4096x64.ReducesTo [1] S4096
  concatenates_S4096x61_S4096x61_S4096x122_d1 : Shape.Concatenates [S4096x61, S4096x61] S4096x122 1
  slices_S10x2000x64_S1x2000x64_1_0_0 : S10x2000x64.Slices ![1, 0, 0] S1x2000x64
  slices_S10x64_S1x64_1_0 : S10x64.Slices ![1, 0] S1x64
  slices_S10x64x4000_S1x64x4000_1_0_0 : S10x64x4000.Slices ![1, 0, 0] S1x64x4000
  slices_S10x4000_S1x4000_1_0 : S10x4000.Slices ![1, 0] S1x4000
  bcast_S4096x1_S4096x64_0_1 : S4096x1.BroadcastsInDim S4096x64 (![0, 1] : Fin 2 → Fin S4096x64.rank)
  bcast_S4096x64_S4096x64x1_0_1 : S4096x64.BroadcastsInDim S4096x64x1 (![0, 1] : Fin 2 → Fin S4096x64x1.rank)
  concatenates_S4096x64x1_S4096x64x1_S4096x64x2_d2 : Shape.Concatenates [S4096x64x1, S4096x64x1] S4096x64x2 2
  bcast_S_S4096x122 : S_.BroadcastsInDim S4096x122 (![] : Fin 0 → Fin S4096x122.rank)
  shapeCasts_S4096x122_S4096x122x1 : S4096x122.ShapeCasts S4096x122x1
  bcast_S_S4096x122x1 : S_.BroadcastsInDim S4096x122x1 (![] : Fin 0 → Fin S4096x122x1.rank)
  bcast_S1x1x1_S4096x122x1_0_1_2 : S1x1x1.BroadcastsInDim S4096x122x1 (![0, 1, 2] : Fin 3 → Fin S4096x122x1.rank)
  reducesTo_S4096x122x1_S4096x122_d2 : S4096x122x1.ReducesTo [2] S4096x122
  slices_S4096x122_S4096x61_0_0 : S4096x122.Slices ![0, 0] S4096x61
  slices_S4096x122_S4096x61_0_61 : S4096x122.Slices ![0, 61] S4096x61
  reducesTo_S4096x61_S4096_d1 : S4096x61.ReducesTo [1] S4096
  slices_S10x2000x64_S1x2000x64_2_0_0 : S10x2000x64.Slices ![2, 0, 0] S1x2000x64
  slices_S10x64_S1x64_2_0 : S10x64.Slices ![2, 0] S1x64
  slices_S10x64x4000_S1x64x4000_2_0_0 : S10x64x4000.Slices ![2, 0, 0] S1x64x4000
  slices_S10x4000_S1x4000_2_0 : S10x4000.Slices ![2, 0] S1x4000
  slices_S10x2000x64_S1x2000x64_3_0_0 : S10x2000x64.Slices ![3, 0, 0] S1x2000x64
  slices_S10x64_S1x64_3_0 : S10x64.Slices ![3, 0] S1x64
  slices_S10x64x4000_S1x64x4000_3_0_0 : S10x64x4000.Slices ![3, 0, 0] S1x64x4000
  slices_S10x4000_S1x4000_3_0 : S10x4000.Slices ![3, 0] S1x4000
  slices_S10x2000x64_S1x2000x64_4_0_0 : S10x2000x64.Slices ![4, 0, 0] S1x2000x64
  slices_S10x64_S1x64_4_0 : S10x64.Slices ![4, 0] S1x64
  slices_S10x64x4000_S1x64x4000_4_0_0 : S10x64x4000.Slices ![4, 0, 0] S1x64x4000
  slices_S10x4000_S1x4000_4_0 : S10x4000.Slices ![4, 0] S1x4000
  slices_S10x2000x64_S1x2000x64_5_0_0 : S10x2000x64.Slices ![5, 0, 0] S1x2000x64
  slices_S10x64_S1x64_5_0 : S10x64.Slices ![5, 0] S1x64
  slices_S10x64x4000_S1x64x4000_5_0_0 : S10x64x4000.Slices ![5, 0, 0] S1x64x4000
  slices_S10x4000_S1x4000_5_0 : S10x4000.Slices ![5, 0] S1x4000
  slices_S10x2000x64_S1x2000x64_6_0_0 : S10x2000x64.Slices ![6, 0, 0] S1x2000x64
  slices_S10x64_S1x64_6_0 : S10x64.Slices ![6, 0] S1x64
  slices_S10x64x4000_S1x64x4000_6_0_0 : S10x64x4000.Slices ![6, 0, 0] S1x64x4000
  slices_S10x4000_S1x4000_6_0 : S10x4000.Slices ![6, 0] S1x4000
  slices_S10x2000x64_S1x2000x64_7_0_0 : S10x2000x64.Slices ![7, 0, 0] S1x2000x64
  slices_S10x64_S1x64_7_0 : S10x64.Slices ![7, 0] S1x64
  slices_S10x64x4000_S1x64x4000_7_0_0 : S10x64x4000.Slices ![7, 0, 0] S1x64x4000
  slices_S10x4000_S1x4000_7_0 : S10x4000.Slices ![7, 0] S1x4000
  slices_S10x2000x64_S1x2000x64_8_0_0 : S10x2000x64.Slices ![8, 0, 0] S1x2000x64
  slices_S10x64_S1x64_8_0 : S10x64.Slices ![8, 0] S1x64
  slices_S10x64x4000_S1x64x4000_8_0_0 : S10x64x4000.Slices ![8, 0, 0] S1x64x4000
  slices_S10x4000_S1x4000_8_0 : S10x4000.Slices ![8, 0] S1x4000
  slices_S10x2000x64_S1x2000x64_9_0_0 : S10x2000x64.Slices ![9, 0, 0] S1x2000x64
  slices_S10x64_S1x64_9_0 : S10x64.Slices ![9, 0] S1x64
  slices_S10x64x4000_S1x64x4000_9_0_0 : S10x64x4000.Slices ![9, 0, 0] S1x64x4000
  slices_S10x4000_S1x4000_9_0 : S10x4000.Slices ![9, 0] S1x4000
  concatenates_S4096x64_S4096x61_S4096x125_d1 : Shape.Concatenates [S4096x64, S4096x61] S4096x125 1
  bcast_S_S4096x125 : S_.BroadcastsInDim S4096x125 (![] : Fin 0 → Fin S4096x125.rank)
  scatter_S4096x2001_S4096x61x2_S4096x61_n_01_01_2_wf : ScatterDims.WF S4096x2001 S4096x61x2 S4096x61 [] [0, 1] [0, 1] 2
  dot_S512x2000_S2000x64_S512x64_1_0_0_1_n_n_wf : DotDims.WF S512x2000 S2000x64 S512x64 [1] [0] [0] [1] [] []
  dot_S512x64_S64x4000_S512x4000_1_0_0_1_n_n_wf : DotDims.WF S512x64 S64x4000 S512x4000 [1] [0] [0] [1] [] []
  gather_S4096x4001_S4096x128x1_S4096x128_n_1_0_0_1_2_11_wf : GatherDims.WF S4096x4001 S4096x128x1 S4096x128 [] [1] [0] [1] [0] 2 ![1, 1]
  scatter_S4096x2001_S4096x64x2_S4096x64_n_01_01_2_wf : ScatterDims.WF S4096x2001 S4096x64x2 S4096x64 [] [0, 1] [0, 1] 2
  gather_S4096x4001_S4096x122x1_S4096x122_n_1_0_0_1_2_11_wf : GatherDims.WF S4096x4001 S4096x122x1 S4096x122 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2000.size a ≤ S4096x2000.size a
  hwx0_0 : ∀ i : grid0.Coords, EltTy.bits .f32 = 32 ∨ (Rect.block (s := S4096x2000) S512x2000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S2000x64.size a
  hwx0_1 : ∀ i : grid0.Coords, EltTy.bits .f32 = 32 ∨ (Rect.block (s := S2000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x4000.size a ≤ S64x4000.size a
  hwx0_3 : ∀ i : grid0.Coords, EltTy.bits .f32 = 32 ∨ (Rect.block (s := S64x4000) S64x4000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4000.size a ≤ S1x4000.size a
  hwx0_4 : ∀ i : grid0.Coords, EltTy.bits .f32 = 32 ∨ (Rect.block (s := S1x4000) S1x4000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x4000.size a ≤ S4096x4000.size a
  hwx0_5 : ∀ i : grid0.Coords, EltTy.bits .f32 = 32 ∨ (Rect.block (s := S4096x4000) S512x4000.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2000.size a ≤ S4096x2000.size a
  hwx1_0 : ∀ i : grid1.Coords, EltTy.bits .f32 = 32 ∨ (Rect.block (s := S4096x2000) S512x2000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S2000x64.size a
  hwx1_1 : ∀ i : grid1.Coords, EltTy.bits .f32 = 32 ∨ (Rect.block (s := S2000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x4000.size a ≤ S64x4000.size a
  hwx1_3 : ∀ i : grid1.Coords, EltTy.bits .f32 = 32 ∨ (Rect.block (s := S64x4000) S64x4000.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4000.size a ≤ S1x4000.size a
  hwx1_4 : ∀ i : grid1.Coords, EltTy.bits .f32 = 32 ∨ (Rect.block (s := S1x4000) S1x4000.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x4000.size a ≤ S4096x4000.size a
  hwx1_5 : ∀ i : grid1.Coords, EltTy.bits .f32 = 32 ∨ (Rect.block (s := S4096x4000) S512x4000.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2000.size a ≤ S4096x2000.size a
  hwx2_0 : ∀ i : grid2.Coords, EltTy.bits .f32 = 32 ∨ (Rect.block (s := S4096x2000) S512x2000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S2000x64.size a
  hwx2_1 : ∀ i : grid2.Coords, EltTy.bits .f32 = 32 ∨ (Rect.block (s := S2000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x4000.size a ≤ S64x4000.size a
  hwx2_3 : ∀ i : grid2.Coords, EltTy.bits .f32 = 32 ∨ (Rect.block (s := S64x4000) S64x4000.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x4000.size a ≤ S1x4000.size a
  hwx2_4 : ∀ i : grid2.Coords, EltTy.bits .f32 = 32 ∨ (Rect.block (s := S1x4000) S1x4000.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x4000.size a ≤ S4096x4000.size a
  hwx2_5 : ∀ i : grid2.Coords, EltTy.bits .f32 = 32 ∨ (Rect.block (s := S4096x4000) S512x4000.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x2000.size a ≤ S4096x2000.size a
  hwx3_0 : ∀ i : grid3.Coords, EltTy.bits .f32 = 32 ∨ (Rect.block (s := S4096x2000) S512x2000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S2000x64.size a
  hwx3_1 : ∀ i : grid3.Coords, EltTy.bits .f32 = 32 ∨ (Rect.block (s := S2000x64) S2000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x4000.size a ≤ S64x4000.size a
  hwx3_3 : ∀ i : grid3.Coords, EltTy.bits .f32 = 32 ∨ (Rect.block (s := S64x4000) S64x4000.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x4000.size a ≤ S1x4000.size a
  hwx3_4 : ∀ i : grid3.Coords, EltTy.bits .f32 = 32 ∨ (Rect.block (s := S1x4000) S1x4000.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S512x4000.size a ≤ S4096x4000.size a
  hwx3_5 : ∀ i : grid3.Coords, EltTy.bits .f32 = 32 ∨ (Rect.block (s := S4096x4000) S512x4000.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x2000.size a ≤ S4096x2000.size a
  hwx4_0 : ∀ i : grid4.Coords, EltTy.bits .f32 = 32 ∨ (Rect.block (s := S4096x2000) S512x2000.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S2000x64.size a
  hwx4_1 : ∀ i : grid4.Coords, EltTy.bits .f32 = 32 ∨ (Rect.block (s := S2000x64) S2000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x4000.size a ≤ S64x4000.size a
  hwx4_3 : ∀ i : grid4.Coords, EltTy.bits .f32 = 32 ∨ (Rect.block (s := S64x4000) S64x4000.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x4000.size a ≤ S1x4000.size a
  hwx4_4 : ∀ i : grid4.Coords, EltTy.bits .f32 = 32 ∨ (Rect.block (s := S1x4000) S1x4000.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S512x4000.size a ≤ S4096x4000.size a
  hwx4_5 : ∀ i : grid4.Coords, EltTy.bits .f32 = 32 ∨ (Rect.block (s := S4096x4000) S512x4000.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x2000.size a ≤ S4096x2000.size a
  hwx5_0 : ∀ i : grid5.Coords, EltTy.bits .f32 = 32 ∨ (Rect.block (s := S4096x2000) S512x2000.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S2000x64.size a
  hwx5_1 : ∀ i : grid5.Coords, EltTy.bits .f32 = 32 ∨ (Rect.block (s := S2000x64) S2000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x4000.size a ≤ S64x4000.size a
  hwx5_3 : ∀ i : grid5.Coords, EltTy.bits .f32 = 32 ∨ (Rect.block (s := S64x4000) S64x4000.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x4000.size a ≤ S1x4000.size a
  hwx5_4 : ∀ i : grid5.Coords, EltTy.bits .f32 = 32 ∨ (Rect.block (s := S1x4000) S1x4000.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S512x4000.size a ≤ S4096x4000.size a
  hwx5_5 : ∀ i : grid5.Coords, EltTy.bits .f32 = 32 ∨ (Rect.block (s := S4096x4000) S512x4000.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S512x2000.size a ≤ S4096x2000.size a
  hwx6_0 : ∀ i : grid6.Coords, EltTy.bits .f32 = 32 ∨ (Rect.block (s := S4096x2000) S512x2000.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S2000x64.size a ≤ S2000x64.size a
  hwx6_1 : ∀ i : grid6.Coords, EltTy.bits .f32 = 32 ∨ (Rect.block (s := S2000x64) S2000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x4000.size a ≤ S64x4000.size a
  hwx6_3 : ∀ i : grid6.Coords, EltTy.bits .f32 = 32 ∨ (Rect.block (s := S64x4000) S64x4000.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x4000.size a ≤ S1x4000.size a
  hwx6_4 : ∀ i : grid6.Coords, EltTy.bits .f32 = 32 ∨ (Rect.block (s := S1x4000) S1x4000.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S512x4000.size a ≤ S4096x4000.size a
  hwx6_5 : ∀ i : grid6.Coords, EltTy.bits .f32 = 32 ∨ (Rect.block (s := S4096x4000) S512x4000.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S512x2000.size a ≤ S4096x2000.size a
  hwx7_0 : ∀ i : grid7.Coords, EltTy.bits .f32 = 32 ∨ (Rect.block (s := S4096x2000) S512x2000.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S2000x64.size a ≤ S2000x64.size a
  hwx7_1 : ∀ i : grid7.Coords, EltTy.bits .f32 = 32 ∨ (Rect.block (s := S2000x64) S2000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x4000.size a ≤ S64x4000.size a
  hwx7_3 : ∀ i : grid7.Coords, EltTy.bits .f32 = 32 ∨ (Rect.block (s := S64x4000) S64x4000.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x4000.size a ≤ S1x4000.size a
  hwx7_4 : ∀ i : grid7.Coords, EltTy.bits .f32 = 32 ∨ (Rect.block (s := S1x4000) S1x4000.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S512x4000.size a ≤ S4096x4000.size a
  hwx7_5 : ∀ i : grid7.Coords, EltTy.bits .f32 = 32 ∨ (Rect.block (s := S4096x4000) S512x4000.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S512x2000.size a ≤ S4096x2000.size a
  hwx8_0 : ∀ i : grid8.Coords, EltTy.bits .f32 = 32 ∨ (Rect.block (s := S4096x2000) S512x2000.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S2000x64.size a ≤ S2000x64.size a
  hwx8_1 : ∀ i : grid8.Coords, EltTy.bits .f32 = 32 ∨ (Rect.block (s := S2000x64) S2000x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x4000.size a ≤ S64x4000.size a
  hwx8_3 : ∀ i : grid8.Coords, EltTy.bits .f32 = 32 ∨ (Rect.block (s := S64x4000) S64x4000.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x4000.size a ≤ S1x4000.size a
  hwx8_4 : ∀ i : grid8.Coords, EltTy.bits .f32 = 32 ∨ (Rect.block (s := S1x4000) S1x4000.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S512x4000.size a ≤ S4096x4000.size a
  hwx8_5 : ∀ i : grid8.Coords, EltTy.bits .f32 = 32 ∨ (Rect.block (s := S4096x4000) S512x4000.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S512x2000.size a ≤ S4096x2000.size a
  hwx9_0 : ∀ i : grid9.Coords, EltTy.bits .f32 = 32 ∨ (Rect.block (s := S4096x2000) S512x2000.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S2000x64.size a ≤ S2000x64.size a
  hwx9_1 : ∀ i : grid9.Coords, EltTy.bits .f32 = 32 ∨ (Rect.block (s := S2000x64) S2000x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S64x4000.size a ≤ S64x4000.size a
  hwx9_3 : ∀ i : grid9.Coords, EltTy.bits .f32 = 32 ∨ (Rect.block (s := S64x4000) S64x4000.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x4000.size a ≤ S1x4000.size a
  hwx9_4 : ∀ i : grid9.Coords, EltTy.bits .f32 = 32 ∨ (Rect.block (s := S1x4000) S1x4000.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S512x4000.size a ≤ S4096x4000.size a
  hwx9_5 : ∀ i : grid9.Coords, EltTy.bits .f32 = 32 ∨ (Rect.block (s := S4096x4000) S512x4000.size (cc9_transform_5 i) (hinb9_5 i)).WholeWords (EltTy.packing .f32)

variable [Facts₀]

def scatter_S4096x2001_S4096x61x2_S4096x61_n_01_01_2 : ScatterDims S4096x2001 S4096x61x2 S4096x61 where
  updateWindowDims := []
  insertedWindowDims := [0, 1]
  scatterDimsToOperandDims := [0, 1]
  indexVectorDim := 2
  wf := scatter_S4096x2001_S4096x61x2_S4096x61_n_01_01_2_wf
def dot_S512x2000_S2000x64_S512x64_1_0_0_1_n_n : DotDims S512x2000 S2000x64 S512x64 where
  lhsContracting := [1]
  rhsContracting := [0]
  lhsNonContracting := [0]
  rhsNonContracting := [1]
  lhsBatch := []
  rhsBatch := []
  wf := dot_S512x2000_S2000x64_S512x64_1_0_0_1_n_n_wf
def dot_S512x64_S64x4000_S512x4000_1_0_0_1_n_n : DotDims S512x64 S64x4000 S512x4000 where
  lhsContracting := [1]
  rhsContracting := [0]
  lhsNonContracting := [0]
  rhsNonContracting := [1]
  lhsBatch := []
  rhsBatch := []
  wf := dot_S512x64_S64x4000_S512x4000_1_0_0_1_n_n_wf
def gather_S4096x4001_S4096x128x1_S4096x128_n_1_0_0_1_2_11 : GatherDims S4096x4001 S4096x128x1 S4096x128 where
  offsetDims := []
  collapsedSliceDims := [1]
  operandBatchingDims := [0]
  startIndicesBatchingDims := [0]
  startIndexMap := [1]
  indexVectorDim := 2
  sliceSizes := ![1, 1]
  wf := gather_S4096x4001_S4096x128x1_S4096x128_n_1_0_0_1_2_11_wf
def scatter_S4096x2001_S4096x64x2_S4096x64_n_01_01_2 : ScatterDims S4096x2001 S4096x64x2 S4096x64 where
  updateWindowDims := []
  insertedWindowDims := [0, 1]
  scatterDimsToOperandDims := [0, 1]
  indexVectorDim := 2
  wf := scatter_S4096x2001_S4096x64x2_S4096x64_n_01_01_2_wf
def gather_S4096x4001_S4096x122x1_S4096x122_n_1_0_0_1_2_11 : GatherDims S4096x4001 S4096x122x1 S4096x122 where
  offsetDims := []
  collapsedSliceDims := [1]
  operandBatchingDims := [0]
  startIndicesBatchingDims := [0]
  startIndexMap := [1]
  indexVectorDim := 2
  sliceSizes := ![1, 1]
  wf := gather_S4096x4001_S4096x122x1_S4096x122_n_1_0_0_1_2_11_wf

abbrev win0_0 : Pipeline.Window sig grid0 :=
  Pipeline.Window.ofSpec (Memref.whole main_v36) S512x2000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2000x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S64x4000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S1x4000.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S512x4000.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v90) S512x2000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v65) S2000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v91) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v69) S64x4000.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v92) S1x4000.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v93) S512x4000.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v144) S512x2000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v119) S2000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v145) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v123) S64x4000.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v146) S1x4000.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v147) S512x4000.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v198) S512x2000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v173) S2000x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v199) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v177) S64x4000.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v200) S1x4000.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v201) S512x4000.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v252) S512x2000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v227) S2000x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v253) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v231) S64x4000.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v254) S1x4000.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v255) S512x4000.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v306) S512x2000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v281) S2000x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v307) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v285) S64x4000.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v308) S1x4000.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v309) S512x4000.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v360) S512x2000.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v335) S2000x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v361) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v339) S64x4000.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v362) S1x4000.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v363) S512x4000.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v414) S512x2000.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v389) S2000x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v415) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v393) S64x4000.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v416) S1x4000.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v417) S512x4000.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v468) S512x2000.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v443) S2000x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v469) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v447) S64x4000.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v470) S1x4000.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v471) S512x4000.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v522) S512x2000.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v497) S2000x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v523) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v501) S64x4000.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v524) S1x4000.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v525) S512x4000.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

class Facts : Prop extends Facts₀ where

variable [Facts]
-- ==== ReferenceIdeal.lean ====
abbrev S4096x125 : Shape := ⟨2, ![4096, 125]⟩
abbrev S4096 : Shape := ⟨1, ![4096]⟩
abbrev S10x2000x64 : Shape := ⟨3, ![10, 2000, 64]⟩
abbrev S10x64 : Shape := ⟨2, ![10, 64]⟩
abbrev S10x64x4000 : Shape := ⟨3, ![10, 64, 4000]⟩
abbrev S10x4000 : Shape := ⟨2, ![10, 4000]⟩
abbrev S4096x64 : Shape := ⟨2, ![4096, 64]⟩
abbrev S4096x61 : Shape := ⟨2, ![4096, 61]⟩
abbrev S_ : Shape := ⟨0, ![]⟩
abbrev S4096x128 : Shape := ⟨2, ![4096, 128]⟩
abbrev S1x2000x64 : Shape := ⟨3, ![1, 2000, 64]⟩
abbrev S2000x64 : Shape := ⟨2, ![2000, 64]⟩
abbrev S1x64 : Shape := ⟨2, ![1, 64]⟩
abbrev S64 : Shape := ⟨1, ![64]⟩
abbrev S1x64x4000 : Shape := ⟨3, ![1, 64, 4000]⟩
abbrev S64x4000 : Shape := ⟨2, ![64, 4000]⟩
abbrev S1x4000 : Shape := ⟨2, ![1, 4000]⟩
abbrev S4000 : Shape := ⟨1, ![4000]⟩
abbrev S4096x1 : Shape := ⟨2, ![4096, 1]⟩
abbrev S4096x2001 : Shape := ⟨2, ![4096, 2001]⟩
abbrev S4096x61x1 : Shape := ⟨3, ![4096, 61, 1]⟩
abbrev S4096x61x2 : Shape := ⟨3, ![4096, 61, 2]⟩
abbrev S4096x2000 : Shape := ⟨2, ![4096, 2000]⟩
abbrev S4096x4000 : Shape := ⟨2, ![4096, 4000]⟩
abbrev S4096x4001 : Shape := ⟨2, ![4096, 4001]⟩
abbrev S4096x128x1 : Shape := ⟨3, ![4096, 128, 1]⟩
abbrev S1 : Shape := ⟨1, ![1]⟩
abbrev S1x1x1 : Shape := ⟨3, ![1, 1, 1]⟩
abbrev S4096x122 : Shape := ⟨2, ![4096, 122]⟩
abbrev S4096x64x1 : Shape := ⟨3, ![4096, 64, 1]⟩
abbrev S4096x64x2 : Shape := ⟨3, ![4096, 64, 2]⟩
abbrev S4096x122x1 : Shape := ⟨3, ![4096, 122, 1]⟩

abbrev nBuf : Space → Nat
  | .hbm => 1115
  | .vmem => 0
  | .smem => 0
  | _ => 0

abbrev hbmTy0_0 (i : Nat) : BufTy := match i % 128 with
  | 0 => ⟨S4096x125, .f32⟩
  | 1 => ⟨S4096, .f32⟩
  | 2 => ⟨S10x2000x64, .f32⟩
  | 3 => ⟨S10x64, .f32⟩
  | 4 => ⟨S10x64x4000, .f32⟩
  | 5 => ⟨S10x4000, .f32⟩
  | 6 => ⟨S4096x125, .i32⟩
  | 7 => ⟨S4096x64, .f32⟩
  | 8 => ⟨S4096x61, .f32⟩
  | 9 => ⟨S4096x64, .i32⟩
  | 10 => ⟨S4096x61, .i32⟩
  | 11 => ⟨S_, .i32⟩
  | 12 => ⟨S4096x64, .i32⟩
  | 13 => ⟨S4096x64, .i1⟩
  | 14 => ⟨S_, .i32⟩
  | 15 => ⟨S4096x64, .i32⟩
  | 16 => ⟨S4096x64, .i32⟩
  | 17 => ⟨S_, .i32⟩
  | 18 => ⟨S_, .i32⟩
  | 19 => ⟨S4096x64, .i32⟩
  | 20 => ⟨S4096x64, .i32⟩
  | 21 => ⟨S4096x128, .i32⟩
  | 22 => ⟨S1x2000x64, .f32⟩
  | 23 => ⟨S2000x64, .f32⟩
  | 24 => ⟨S1x64, .f32⟩
  | 25 => ⟨S64, .f32⟩
  | 26 => ⟨S1x64x4000, .f32⟩
  | 27 => ⟨S64x4000, .f32⟩
  | 28 => ⟨S1x4000, .f32⟩
  | 29 => ⟨S4000, .f32⟩
  | 30 => ⟨S4096, .i32⟩
  | 31 => ⟨S4096x1, .i32⟩
  | 32 => ⟨S_, .f32⟩
  | 33 => ⟨S4096x2001, .f32⟩
  | 34 => ⟨S_, .i32⟩
  | 35 => ⟨S4096x1, .i32⟩
  | 36 => ⟨S4096x1, .i1⟩
  | 37 => ⟨S_, .i32⟩
  | 38 => ⟨S4096x1, .i32⟩
  | 39 => ⟨S4096x1, .i32⟩
  | 40 => ⟨S4096x1, .i32⟩
  | 41 => ⟨S_, .i32⟩
  | 42 => ⟨S4096x61, .i32⟩
  | 43 => ⟨S4096x61, .i1⟩
  | 44 => ⟨S_, .i32⟩
  | 45 => ⟨S4096x61, .i32⟩
  | 46 => ⟨S4096x61, .i32⟩
  | 47 => ⟨S4096x61, .i32⟩
  | 48 => ⟨S4096x61, .i32⟩
  | 49 => ⟨S4096x61x1, .i32⟩
  | 50 => ⟨S4096x61x1, .i32⟩
  | 51 => ⟨S4096x61x2, .i32⟩
  | 52 => ⟨S4096x2001, .f32⟩
  | 53 => ⟨S4096x2000, .f32⟩
  | 54 => ⟨S4096x64, .f32⟩
  | 55 => ⟨S1x64, .f32⟩
  | 56 => ⟨S4096x64, .f32⟩
  | 57 => ⟨S4096x64, .f32⟩
  | 58 => ⟨S_, .f32⟩
  | 59 => ⟨S4096x64, .f32⟩
  | 60 => ⟨S4096x64, .i1⟩
  | 61 => ⟨S_, .f32⟩
  | 62 => ⟨S4096x64, .f32⟩
  | 63 => ⟨S4096x64, .i1⟩
  | 64 => ⟨S_, .f32⟩
  | 65 => ⟨S_, .f32⟩
  | 66 => ⟨S4096x64, .f32⟩
  | 67 => ⟨S4096x64, .f32⟩
  | 68 => ⟨S4096x64, .f32⟩
  | 69 => ⟨S_, .f32⟩
  | 70 => ⟨S4096x64, .f32⟩
  | 71 => ⟨S4096x64, .f32⟩
  | 72 => ⟨S4096x64, .f32⟩
  | 73 => ⟨S4096x4000, .f32⟩
  | 74 => ⟨S1x4000, .f32⟩
  | 75 => ⟨S4096x4000, .f32⟩
  | 76 => ⟨S4096x4000, .f32⟩
  | 77 => ⟨S_, .f32⟩
  | 78 => ⟨S4096x1, .f32⟩
  | 79 => ⟨S4096x4001, .f32⟩
  | 80 => ⟨S_, .i32⟩
  | 81 => ⟨S4096x128, .i32⟩
  | 82 => ⟨S4096x128, .i1⟩
  | 83 => ⟨S_, .i32⟩
  | 84 => ⟨S4096x128, .i32⟩
  | 85 => ⟨S4096x128, .i32⟩
  | 86 => ⟨S4096x128, .i32⟩
  | 87 => ⟨S4096x128x1, .i32⟩
  | 88 => ⟨S1, .i32⟩
  | 89 => ⟨S_, .i32⟩
  | 90 => ⟨S4096x128x1, .i32⟩
  | 91 => ⟨S4096x128x1, .i1⟩
  | 92 => ⟨S1x1x1, .i32⟩
  | 93 => ⟨S4096x128x1, .i32⟩
  | 94 => ⟨S4096x128x1, .i1⟩
  | 95 => ⟨S4096x128x1, .i1⟩
  | 96 => ⟨S_, .i1⟩
  | 97 => ⟨S4096x128, .i1⟩
  | 98 => ⟨S4096x128, .f32⟩
  | 99 => ⟨S_, .f32⟩
  | 100 => ⟨S4096x128, .f32⟩
  | 101 => ⟨S4096x128, .f32⟩
  | 102 => ⟨S4096x64, .f32⟩
  | 103 => ⟨S4096x64, .f32⟩
  | 104 => ⟨S_, .f32⟩
  | 105 => ⟨S4096x64, .f32⟩
  | 106 => ⟨S4096x64, .f32⟩
  | 107 => ⟨S4096x64, .f32⟩
  | 108 => ⟨S4096x64, .f32⟩
  | 109 => ⟨S_, .f32⟩
  | 110 => ⟨S4096x64, .f32⟩
  | 111 => ⟨S4096x64, .f32⟩
  | 112 => ⟨S_, .f32⟩
  | 113 => ⟨S4096x64, .f32⟩
  | 114 => ⟨S4096x64, .f32⟩
  | 115 => ⟨S4096x64, .f32⟩
  | 116 => ⟨S4096x64, .f32⟩
  | 117 => ⟨S4096x64, .f32⟩
  | 118 => ⟨S_, .f32⟩
  | 119 => ⟨S4096, .f32⟩
  | 120 => ⟨S4096, .f32⟩
  | 121 => ⟨S_, .i32⟩
  | 122 => ⟨S4096x61, .i32⟩
  | 123 => ⟨S4096x61, .i1⟩
  | 124 => ⟨S_, .i32⟩
  | 125 => ⟨S4096x61, .i32⟩
  | 126 => ⟨S4096x61, .i32⟩
  | 127 => ⟨S_, .i32⟩
  | _ => ⟨S4096x125, .f32⟩

abbrev hbmTy0_1 (i : Nat) : BufTy := match i % 128 with
  | 0 => ⟨S_, .i32⟩
  | 1 => ⟨S4096x61, .i32⟩
  | 2 => ⟨S4096x61, .i32⟩
  | 3 => ⟨S4096x122, .i32⟩
  | 4 => ⟨S1x2000x64, .f32⟩
  | 5 => ⟨S2000x64, .f32⟩
  | 6 => ⟨S1x64, .f32⟩
  | 7 => ⟨S64, .f32⟩
  | 8 => ⟨S1x64x4000, .f32⟩
  | 9 => ⟨S64x4000, .f32⟩
  | 10 => ⟨S1x4000, .f32⟩
  | 11 => ⟨S4000, .f32⟩
  | 12 => ⟨S4096, .i32⟩
  | 13 => ⟨S4096x1, .i32⟩
  | 14 => ⟨S_, .f32⟩
  | 15 => ⟨S4096x2001, .f32⟩
  | 16 => ⟨S_, .i32⟩
  | 17 => ⟨S4096x1, .i32⟩
  | 18 => ⟨S4096x1, .i1⟩
  | 19 => ⟨S_, .i32⟩
  | 20 => ⟨S4096x1, .i32⟩
  | 21 => ⟨S4096x1, .i32⟩
  | 22 => ⟨S4096x1, .i32⟩
  | 23 => ⟨S_, .i32⟩
  | 24 => ⟨S4096x64, .i32⟩
  | 25 => ⟨S4096x64, .i1⟩
  | 26 => ⟨S_, .i32⟩
  | 27 => ⟨S4096x64, .i32⟩
  | 28 => ⟨S4096x64, .i32⟩
  | 29 => ⟨S4096x64, .i32⟩
  | 30 => ⟨S4096x64, .i32⟩
  | 31 => ⟨S4096x64x1, .i32⟩
  | 32 => ⟨S4096x64x1, .i32⟩
  | 33 => ⟨S4096x64x2, .i32⟩
  | 34 => ⟨S4096x2001, .f32⟩
  | 35 => ⟨S4096x2000, .f32⟩
  | 36 => ⟨S4096x64, .f32⟩
  | 37 => ⟨S1x64, .f32⟩
  | 38 => ⟨S4096x64, .f32⟩
  | 39 => ⟨S4096x64, .f32⟩
  | 40 => ⟨S_, .f32⟩
  | 41 => ⟨S4096x64, .f32⟩
  | 42 => ⟨S4096x64, .i1⟩
  | 43 => ⟨S_, .f32⟩
  | 44 => ⟨S4096x64, .f32⟩
  | 45 => ⟨S4096x64, .i1⟩
  | 46 => ⟨S_, .f32⟩
  | 47 => ⟨S_, .f32⟩
  | 48 => ⟨S4096x64, .f32⟩
  | 49 => ⟨S4096x64, .f32⟩
  | 50 => ⟨S4096x64, .f32⟩
  | 51 => ⟨S_, .f32⟩
  | 52 => ⟨S4096x64, .f32⟩
  | 53 => ⟨S4096x64, .f32⟩
  | 54 => ⟨S4096x64, .f32⟩
  | 55 => ⟨S4096x4000, .f32⟩
  | 56 => ⟨S1x4000, .f32⟩
  | 57 => ⟨S4096x4000, .f32⟩
  | 58 => ⟨S4096x4000, .f32⟩
  | 59 => ⟨S_, .f32⟩
  | 60 => ⟨S4096x1, .f32⟩
  | 61 => ⟨S4096x4001, .f32⟩
  | 62 => ⟨S_, .i32⟩
  | 63 => ⟨S4096x122, .i32⟩
  | 64 => ⟨S4096x122, .i1⟩
  | 65 => ⟨S_, .i32⟩
  | 66 => ⟨S4096x122, .i32⟩
  | 67 => ⟨S4096x122, .i32⟩
  | 68 => ⟨S4096x122, .i32⟩
  | 69 => ⟨S4096x122x1, .i32⟩
  | 70 => ⟨S1, .i32⟩
  | 71 => ⟨S_, .i32⟩
  | 72 => ⟨S4096x122x1, .i32⟩
  | 73 => ⟨S4096x122x1, .i1⟩
  | 74 => ⟨S1x1x1, .i32⟩
  | 75 => ⟨S4096x122x1, .i32⟩
  | 76 => ⟨S4096x122x1, .i1⟩
  | 77 => ⟨S4096x122x1, .i1⟩
  | 78 => ⟨S_, .i1⟩
  | 79 => ⟨S4096x122, .i1⟩
  | 80 => ⟨S4096x122, .f32⟩
  | 81 => ⟨S_, .f32⟩
  | 82 => ⟨S4096x122, .f32⟩
  | 83 => ⟨S4096x122, .f32⟩
  | 84 => ⟨S4096x61, .f32⟩
  | 85 => ⟨S4096x61, .f32⟩
  | 86 => ⟨S_, .f32⟩
  | 87 => ⟨S4096x61, .f32⟩
  | 88 => ⟨S4096x61, .f32⟩
  | 89 => ⟨S4096x61, .f32⟩
  | 90 => ⟨S4096x61, .f32⟩
  | 91 => ⟨S_, .f32⟩
  | 92 => ⟨S4096x61, .f32⟩
  | 93 => ⟨S4096x61, .f32⟩
  | 94 => ⟨S_, .f32⟩
  | 95 => ⟨S4096x61, .f32⟩
  | 96 => ⟨S4096x61, .f32⟩
  | 97 => ⟨S4096x61, .f32⟩
  | 98 => ⟨S4096x61, .f32⟩
  | 99 => ⟨S4096x61, .f32⟩
  | 100 => ⟨S_, .f32⟩
  | 101 => ⟨S4096, .f32⟩
  | 102 => ⟨S4096, .f32⟩
  | 103 => ⟨S_, .i32⟩
  | 104 => ⟨S4096x64, .i32⟩
  | 105 => ⟨S4096x64, .i1⟩
  | 106 => ⟨S_, .i32⟩
  | 107 => ⟨S4096x64, .i32⟩
  | 108 => ⟨S4096x64, .i32⟩
  | 109 => ⟨S_, .i32⟩
  | 110 => ⟨S_, .i32⟩
  | 111 => ⟨S4096x64, .i32⟩
  | 112 => ⟨S4096x64, .i32⟩
  | 113 => ⟨S4096x128, .i32⟩
  | 114 => ⟨S1x2000x64, .f32⟩
  | 115 => ⟨S2000x64, .f32⟩
  | 116 => ⟨S1x64, .f32⟩
  | 117 => ⟨S64, .f32⟩
  | 118 => ⟨S1x64x4000, .f32⟩
  | 119 => ⟨S64x4000, .f32⟩
  | 120 => ⟨S1x4000, .f32⟩
  | 121 => ⟨S4000, .f32⟩
  | 122 => ⟨S4096, .i32⟩
  | 123 => ⟨S4096x1, .i32⟩
  | 124 => ⟨S_, .f32⟩
  | 125 => ⟨S4096x2001, .f32⟩
  | 126 => ⟨S_, .i32⟩
  | 127 => ⟨S4096x1, .i32⟩
  | _ => ⟨S4096x125, .f32⟩

abbrev hbmTy0_2 (i : Nat) : BufTy := match i % 128 with
  | 0 => ⟨S4096x1, .i1⟩
  | 1 => ⟨S_, .i32⟩
  | 2 => ⟨S4096x1, .i32⟩
  | 3 => ⟨S4096x1, .i32⟩
  | 4 => ⟨S4096x1, .i32⟩
  | 5 => ⟨S_, .i32⟩
  | 6 => ⟨S4096x61, .i32⟩
  | 7 => ⟨S4096x61, .i1⟩
  | 8 => ⟨S_, .i32⟩
  | 9 => ⟨S4096x61, .i32⟩
  | 10 => ⟨S4096x61, .i32⟩
  | 11 => ⟨S4096x61, .i32⟩
  | 12 => ⟨S4096x61, .i32⟩
  | 13 => ⟨S4096x61x1, .i32⟩
  | 14 => ⟨S4096x61x1, .i32⟩
  | 15 => ⟨S4096x61x2, .i32⟩
  | 16 => ⟨S4096x2001, .f32⟩
  | 17 => ⟨S4096x2000, .f32⟩
  | 18 => ⟨S4096x64, .f32⟩
  | 19 => ⟨S1x64, .f32⟩
  | 20 => ⟨S4096x64, .f32⟩
  | 21 => ⟨S4096x64, .f32⟩
  | 22 => ⟨S_, .f32⟩
  | 23 => ⟨S4096x64, .f32⟩
  | 24 => ⟨S4096x64, .i1⟩
  | 25 => ⟨S_, .f32⟩
  | 26 => ⟨S4096x64, .f32⟩
  | 27 => ⟨S4096x64, .i1⟩
  | 28 => ⟨S_, .f32⟩
  | 29 => ⟨S_, .f32⟩
  | 30 => ⟨S4096x64, .f32⟩
  | 31 => ⟨S4096x64, .f32⟩
  | 32 => ⟨S4096x64, .f32⟩
  | 33 => ⟨S_, .f32⟩
  | 34 => ⟨S4096x64, .f32⟩
  | 35 => ⟨S4096x64, .f32⟩
  | 36 => ⟨S4096x64, .f32⟩
  | 37 => ⟨S4096x4000, .f32⟩
  | 38 => ⟨S1x4000, .f32⟩
  | 39 => ⟨S4096x4000, .f32⟩
  | 40 => ⟨S4096x4000, .f32⟩
  | 41 => ⟨S_, .f32⟩
  | 42 => ⟨S4096x1, .f32⟩
  | 43 => ⟨S4096x4001, .f32⟩
  | 44 => ⟨S_, .i32⟩
  | 45 => ⟨S4096x128, .i32⟩
  | 46 => ⟨S4096x128, .i1⟩
  | 47 => ⟨S_, .i32⟩
  | 48 => ⟨S4096x128, .i32⟩
  | 49 => ⟨S4096x128, .i32⟩
  | 50 => ⟨S4096x128, .i32⟩
  | 51 => ⟨S4096x128x1, .i32⟩
  | 52 => ⟨S1, .i32⟩
  | 53 => ⟨S_, .i32⟩
  | 54 => ⟨S4096x128x1, .i32⟩
  | 55 => ⟨S4096x128x1, .i1⟩
  | 56 => ⟨S1x1x1, .i32⟩
  | 57 => ⟨S4096x128x1, .i32⟩
  | 58 => ⟨S4096x128x1, .i1⟩
  | 59 => ⟨S4096x128x1, .i1⟩
  | 60 => ⟨S_, .i1⟩
  | 61 => ⟨S4096x128, .i1⟩
  | 62 => ⟨S4096x128, .f32⟩
  | 63 => ⟨S_, .f32⟩
  | 64 => ⟨S4096x128, .f32⟩
  | 65 => ⟨S4096x128, .f32⟩
  | 66 => ⟨S4096x64, .f32⟩
  | 67 => ⟨S4096x64, .f32⟩
  | 68 => ⟨S_, .f32⟩
  | 69 => ⟨S4096x64, .f32⟩
  | 70 => ⟨S4096x64, .f32⟩
  | 71 => ⟨S4096x64, .f32⟩
  | 72 => ⟨S4096x64, .f32⟩
  | 73 => ⟨S_, .f32⟩
  | 74 => ⟨S4096x64, .f32⟩
  | 75 => ⟨S4096x64, .f32⟩
  | 76 => ⟨S_, .f32⟩
  | 77 => ⟨S4096x64, .f32⟩
  | 78 => ⟨S4096x64, .f32⟩
  | 79 => ⟨S4096x64, .f32⟩
  | 80 => ⟨S4096x64, .f32⟩
  | 81 => ⟨S4096x64, .f32⟩
  | 82 => ⟨S_, .f32⟩
  | 83 => ⟨S4096, .f32⟩
  | 84 => ⟨S4096, .f32⟩
  | 85 => ⟨S_, .i32⟩
  | 86 => ⟨S4096x61, .i32⟩
  | 87 => ⟨S4096x61, .i1⟩
  | 88 => ⟨S_, .i32⟩
  | 89 => ⟨S4096x61, .i32⟩
  | 90 => ⟨S4096x61, .i32⟩
  | 91 => ⟨S_, .i32⟩
  | 92 => ⟨S_, .i32⟩
  | 93 => ⟨S4096x61, .i32⟩
  | 94 => ⟨S4096x61, .i32⟩
  | 95 => ⟨S4096x122, .i32⟩
  | 96 => ⟨S1x2000x64, .f32⟩
  | 97 => ⟨S2000x64, .f32⟩
  | 98 => ⟨S1x64, .f32⟩
  | 99 => ⟨S64, .f32⟩
  | 100 => ⟨S1x64x4000, .f32⟩
  | 101 => ⟨S64x4000, .f32⟩
  | 102 => ⟨S1x4000, .f32⟩
  | 103 => ⟨S4000, .f32⟩
  | 104 => ⟨S4096, .i32⟩
  | 105 => ⟨S4096x1, .i32⟩
  | 106 => ⟨S_, .f32⟩
  | 107 => ⟨S4096x2001, .f32⟩
  | 108 => ⟨S_, .i32⟩
  | 109 => ⟨S4096x1, .i32⟩
  | 110 => ⟨S4096x1, .i1⟩
  | 111 => ⟨S_, .i32⟩
  | 112 => ⟨S4096x1, .i32⟩
  | 113 => ⟨S4096x1, .i32⟩
  | 114 => ⟨S4096x1, .i32⟩
  | 115 => ⟨S_, .i32⟩
  | 116 => ⟨S4096x64, .i32⟩
  | 117 => ⟨S4096x64, .i1⟩
  | 118 => ⟨S_, .i32⟩
  | 119 => ⟨S4096x64, .i32⟩
  | 120 => ⟨S4096x64, .i32⟩
  | 121 => ⟨S4096x64, .i32⟩
  | 122 => ⟨S4096x64, .i32⟩
  | 123 => ⟨S4096x64x1, .i32⟩
  | 124 => ⟨S4096x64x1, .i32⟩
  | 125 => ⟨S4096x64x2, .i32⟩
  | 126 => ⟨S4096x2001, .f32⟩
  | 127 => ⟨S4096x2000, .f32⟩
  | _ => ⟨S4096x125, .f32⟩

abbrev hbmTy0_3 (i : Nat) : BufTy := match i % 128 with
  | 0 => ⟨S4096x64, .f32⟩
  | 1 => ⟨S1x64, .f32⟩
  | 2 => ⟨S4096x64, .f32⟩
  | 3 => ⟨S4096x64, .f32⟩
  | 4 => ⟨S_, .f32⟩
  | 5 => ⟨S4096x64, .f32⟩
  | 6 => ⟨S4096x64, .i1⟩
  | 7 => ⟨S_, .f32⟩
  | 8 => ⟨S4096x64, .f32⟩
  | 9 => ⟨S4096x64, .i1⟩
  | 10 => ⟨S_, .f32⟩
  | 11 => ⟨S_, .f32⟩
  | 12 => ⟨S4096x64, .f32⟩
  | 13 => ⟨S4096x64, .f32⟩
  | 14 => ⟨S4096x64, .f32⟩
  | 15 => ⟨S_, .f32⟩
  | 16 => ⟨S4096x64, .f32⟩
  | 17 => ⟨S4096x64, .f32⟩
  | 18 => ⟨S4096x64, .f32⟩
  | 19 => ⟨S4096x4000, .f32⟩
  | 20 => ⟨S1x4000, .f32⟩
  | 21 => ⟨S4096x4000, .f32⟩
  | 22 => ⟨S4096x4000, .f32⟩
  | 23 => ⟨S_, .f32⟩
  | 24 => ⟨S4096x1, .f32⟩
  | 25 => ⟨S4096x4001, .f32⟩
  | 26 => ⟨S_, .i32⟩
  | 27 => ⟨S4096x122, .i32⟩
  | 28 => ⟨S4096x122, .i1⟩
  | 29 => ⟨S_, .i32⟩
  | 30 => ⟨S4096x122, .i32⟩
  | 31 => ⟨S4096x122, .i32⟩
  | 32 => ⟨S4096x122, .i32⟩
  | 33 => ⟨S4096x122x1, .i32⟩
  | 34 => ⟨S1, .i32⟩
  | 35 => ⟨S_, .i32⟩
  | 36 => ⟨S4096x122x1, .i32⟩
  | 37 => ⟨S4096x122x1, .i1⟩
  | 38 => ⟨S1x1x1, .i32⟩
  | 39 => ⟨S4096x122x1, .i32⟩
  | 40 => ⟨S4096x122x1, .i1⟩
  | 41 => ⟨S4096x122x1, .i1⟩
  | 42 => ⟨S_, .i1⟩
  | 43 => ⟨S4096x122, .i1⟩
  | 44 => ⟨S4096x122, .f32⟩
  | 45 => ⟨S_, .f32⟩
  | 46 => ⟨S4096x122, .f32⟩
  | 47 => ⟨S4096x122, .f32⟩
  | 48 => ⟨S4096x61, .f32⟩
  | 49 => ⟨S4096x61, .f32⟩
  | 50 => ⟨S_, .f32⟩
  | 51 => ⟨S4096x61, .f32⟩
  | 52 => ⟨S4096x61, .f32⟩
  | 53 => ⟨S4096x61, .f32⟩
  | 54 => ⟨S4096x61, .f32⟩
  | 55 => ⟨S_, .f32⟩
  | 56 => ⟨S4096x61, .f32⟩
  | 57 => ⟨S4096x61, .f32⟩
  | 58 => ⟨S_, .f32⟩
  | 59 => ⟨S4096x61, .f32⟩
  | 60 => ⟨S4096x61, .f32⟩
  | 61 => ⟨S4096x61, .f32⟩
  | 62 => ⟨S4096x61, .f32⟩
  | 63 => ⟨S4096x61, .f32⟩
  | 64 => ⟨S_, .f32⟩
  | 65 => ⟨S4096, .f32⟩
  | 66 => ⟨S4096, .f32⟩
  | 67 => ⟨S_, .i32⟩
  | 68 => ⟨S4096x64, .i32⟩
  | 69 => ⟨S4096x64, .i1⟩
  | 70 => ⟨S_, .i32⟩
  | 71 => ⟨S4096x64, .i32⟩
  | 72 => ⟨S4096x64, .i32⟩
  | 73 => ⟨S_, .i32⟩
  | 74 => ⟨S_, .i32⟩
  | 75 => ⟨S4096x64, .i32⟩
  | 76 => ⟨S4096x64, .i32⟩
  | 77 => ⟨S4096x128, .i32⟩
  | 78 => ⟨S1x2000x64, .f32⟩
  | 79 => ⟨S2000x64, .f32⟩
  | 80 => ⟨S1x64, .f32⟩
  | 81 => ⟨S64, .f32⟩
  | 82 => ⟨S1x64x4000, .f32⟩
  | 83 => ⟨S64x4000, .f32⟩
  | 84 => ⟨S1x4000, .f32⟩
  | 85 => ⟨S4000, .f32⟩
  | 86 => ⟨S4096, .i32⟩
  | 87 => ⟨S4096x1, .i32⟩
  | 88 => ⟨S_, .f32⟩
  | 89 => ⟨S4096x2001, .f32⟩
  | 90 => ⟨S_, .i32⟩
  | 91 => ⟨S4096x1, .i32⟩
  | 92 => ⟨S4096x1, .i1⟩
  | 93 => ⟨S_, .i32⟩
  | 94 => ⟨S4096x1, .i32⟩
  | 95 => ⟨S4096x1, .i32⟩
  | 96 => ⟨S4096x1, .i32⟩
  | 97 => ⟨S_, .i32⟩
  | 98 => ⟨S4096x61, .i32⟩
  | 99 => ⟨S4096x61, .i1⟩
  | 100 => ⟨S_, .i32⟩
  | 101 => ⟨S4096x61, .i32⟩
  | 102 => ⟨S4096x61, .i32⟩
  | 103 => ⟨S4096x61, .i32⟩
  | 104 => ⟨S4096x61, .i32⟩
  | 105 => ⟨S4096x61x1, .i32⟩
  | 106 => ⟨S4096x61x1, .i32⟩
  | 107 => ⟨S4096x61x2, .i32⟩
  | 108 => ⟨S4096x2001, .f32⟩
  | 109 => ⟨S4096x2000, .f32⟩
  | 110 => ⟨S4096x64, .f32⟩
  | 111 => ⟨S1x64, .f32⟩
  | 112 => ⟨S4096x64, .f32⟩
  | 113 => ⟨S4096x64, .f32⟩
  | 114 => ⟨S_, .f32⟩
  | 115 => ⟨S4096x64, .f32⟩
  | 116 => ⟨S4096x64, .i1⟩
  | 117 => ⟨S_, .f32⟩
  | 118 => ⟨S4096x64, .f32⟩
  | 119 => ⟨S4096x64, .i1⟩
  | 120 => ⟨S_, .f32⟩
  | 121 => ⟨S_, .f32⟩
  | 122 => ⟨S4096x64, .f32⟩
  | 123 => ⟨S4096x64, .f32⟩
  | 124 => ⟨S4096x64, .f32⟩
  | 125 => ⟨S_, .f32⟩
  | 126 => ⟨S4096x64, .f32⟩
  | 127 => ⟨S4096x64, .f32⟩
  | _ => ⟨S4096x125, .f32⟩

abbrev hbmTy0_4 (i : Nat) : BufTy := match i % 128 with
  | 0 => ⟨S4096x64, .f32⟩
  | 1 => ⟨S4096x4000, .f32⟩
  | 2 => ⟨S1x4000, .f32⟩
  | 3 => ⟨S4096x4000, .f32⟩
  | 4 => ⟨S4096x4000, .f32⟩
  | 5 => ⟨S_, .f32⟩
  | 6 => ⟨S4096x1, .f32⟩
  | 7 => ⟨S4096x4001, .f32⟩
  | 8 => ⟨S_, .i32⟩
  | 9 => ⟨S4096x128, .i32⟩
  | 10 => ⟨S4096x128, .i1⟩
  | 11 => ⟨S_, .i32⟩
  | 12 => ⟨S4096x128, .i32⟩
  | 13 => ⟨S4096x128, .i32⟩
  | 14 => ⟨S4096x128, .i32⟩
  | 15 => ⟨S4096x128x1, .i32⟩
  | 16 => ⟨S1, .i32⟩
  | 17 => ⟨S_, .i32⟩
  | 18 => ⟨S4096x128x1, .i32⟩
  | 19 => ⟨S4096x128x1, .i1⟩
  | 20 => ⟨S1x1x1, .i32⟩
  | 21 => ⟨S4096x128x1, .i32⟩
  | 22 => ⟨S4096x128x1, .i1⟩
  | 23 => ⟨S4096x128x1, .i1⟩
  | 24 => ⟨S_, .i1⟩
  | 25 => ⟨S4096x128, .i1⟩
  | 26 => ⟨S4096x128, .f32⟩
  | 27 => ⟨S_, .f32⟩
  | 28 => ⟨S4096x128, .f32⟩
  | 29 => ⟨S4096x128, .f32⟩
  | 30 => ⟨S4096x64, .f32⟩
  | 31 => ⟨S4096x64, .f32⟩
  | 32 => ⟨S_, .f32⟩
  | 33 => ⟨S4096x64, .f32⟩
  | 34 => ⟨S4096x64, .f32⟩
  | 35 => ⟨S4096x64, .f32⟩
  | 36 => ⟨S4096x64, .f32⟩
  | 37 => ⟨S_, .f32⟩
  | 38 => ⟨S4096x64, .f32⟩
  | 39 => ⟨S4096x64, .f32⟩
  | 40 => ⟨S_, .f32⟩
  | 41 => ⟨S4096x64, .f32⟩
  | 42 => ⟨S4096x64, .f32⟩
  | 43 => ⟨S4096x64, .f32⟩
  | 44 => ⟨S4096x64, .f32⟩
  | 45 => ⟨S4096x64, .f32⟩
  | 46 => ⟨S_, .f32⟩
  | 47 => ⟨S4096, .f32⟩
  | 48 => ⟨S4096, .f32⟩
  | 49 => ⟨S_, .i32⟩
  | 50 => ⟨S4096x61, .i32⟩
  | 51 => ⟨S4096x61, .i1⟩
  | 52 => ⟨S_, .i32⟩
  | 53 => ⟨S4096x61, .i32⟩
  | 54 => ⟨S4096x61, .i32⟩
  | 55 => ⟨S_, .i32⟩
  | 56 => ⟨S_, .i32⟩
  | 57 => ⟨S4096x61, .i32⟩
  | 58 => ⟨S4096x61, .i32⟩
  | 59 => ⟨S4096x122, .i32⟩
  | 60 => ⟨S1x2000x64, .f32⟩
  | 61 => ⟨S2000x64, .f32⟩
  | 62 => ⟨S1x64, .f32⟩
  | 63 => ⟨S64, .f32⟩
  | 64 => ⟨S1x64x4000, .f32⟩
  | 65 => ⟨S64x4000, .f32⟩
  | 66 => ⟨S1x4000, .f32⟩
  | 67 => ⟨S4000, .f32⟩
  | 68 => ⟨S4096, .i32⟩
  | 69 => ⟨S4096x1, .i32⟩
  | 70 => ⟨S_, .f32⟩
  | 71 => ⟨S4096x2001, .f32⟩
  | 72 => ⟨S_, .i32⟩
  | 73 => ⟨S4096x1, .i32⟩
  | 74 => ⟨S4096x1, .i1⟩
  | 75 => ⟨S_, .i32⟩
  | 76 => ⟨S4096x1, .i32⟩
  | 77 => ⟨S4096x1, .i32⟩
  | 78 => ⟨S4096x1, .i32⟩
  | 79 => ⟨S_, .i32⟩
  | 80 => ⟨S4096x64, .i32⟩
  | 81 => ⟨S4096x64, .i1⟩
  | 82 => ⟨S_, .i32⟩
  | 83 => ⟨S4096x64, .i32⟩
  | 84 => ⟨S4096x64, .i32⟩
  | 85 => ⟨S4096x64, .i32⟩
  | 86 => ⟨S4096x64, .i32⟩
  | 87 => ⟨S4096x64x1, .i32⟩
  | 88 => ⟨S4096x64x1, .i32⟩
  | 89 => ⟨S4096x64x2, .i32⟩
  | 90 => ⟨S4096x2001, .f32⟩
  | 91 => ⟨S4096x2000, .f32⟩
  | 92 => ⟨S4096x64, .f32⟩
  | 93 => ⟨S1x64, .f32⟩
  | 94 => ⟨S4096x64, .f32⟩
  | 95 => ⟨S4096x64, .f32⟩
  | 96 => ⟨S_, .f32⟩
  | 97 => ⟨S4096x64, .f32⟩
  | 98 => ⟨S4096x64, .i1⟩
  | 99 => ⟨S_, .f32⟩
  | 100 => ⟨S4096x64, .f32⟩
  | 101 => ⟨S4096x64, .i1⟩
  | 102 => ⟨S_, .f32⟩
  | 103 => ⟨S_, .f32⟩
  | 104 => ⟨S4096x64, .f32⟩
  | 105 => ⟨S4096x64, .f32⟩
  | 106 => ⟨S4096x64, .f32⟩
  | 107 => ⟨S_, .f32⟩
  | 108 => ⟨S4096x64, .f32⟩
  | 109 => ⟨S4096x64, .f32⟩
  | 110 => ⟨S4096x64, .f32⟩
  | 111 => ⟨S4096x4000, .f32⟩
  | 112 => ⟨S1x4000, .f32⟩
  | 113 => ⟨S4096x4000, .f32⟩
  | 114 => ⟨S4096x4000, .f32⟩
  | 115 => ⟨S_, .f32⟩
  | 116 => ⟨S4096x1, .f32⟩
  | 117 => ⟨S4096x4001, .f32⟩
  | 118 => ⟨S_, .i32⟩
  | 119 => ⟨S4096x122, .i32⟩
  | 120 => ⟨S4096x122, .i1⟩
  | 121 => ⟨S_, .i32⟩
  | 122 => ⟨S4096x122, .i32⟩
  | 123 => ⟨S4096x122, .i32⟩
  | 124 => ⟨S4096x122, .i32⟩
  | 125 => ⟨S4096x122x1, .i32⟩
  | 126 => ⟨S1, .i32⟩
  | 127 => ⟨S_, .i32⟩
  | _ => ⟨S4096x125, .f32⟩

abbrev hbmTy0_5 (i : Nat) : BufTy := match i % 128 with
  | 0 => ⟨S4096x122x1, .i32⟩
  | 1 => ⟨S4096x122x1, .i1⟩
  | 2 => ⟨S1x1x1, .i32⟩
  | 3 => ⟨S4096x122x1, .i32⟩
  | 4 => ⟨S4096x122x1, .i1⟩
  | 5 => ⟨S4096x122x1, .i1⟩
  | 6 => ⟨S_, .i1⟩
  | 7 => ⟨S4096x122, .i1⟩
  | 8 => ⟨S4096x122, .f32⟩
  | 9 => ⟨S_, .f32⟩
  | 10 => ⟨S4096x122, .f32⟩
  | 11 => ⟨S4096x122, .f32⟩
  | 12 => ⟨S4096x61, .f32⟩
  | 13 => ⟨S4096x61, .f32⟩
  | 14 => ⟨S_, .f32⟩
  | 15 => ⟨S4096x61, .f32⟩
  | 16 => ⟨S4096x61, .f32⟩
  | 17 => ⟨S4096x61, .f32⟩
  | 18 => ⟨S4096x61, .f32⟩
  | 19 => ⟨S_, .f32⟩
  | 20 => ⟨S4096x61, .f32⟩
  | 21 => ⟨S4096x61, .f32⟩
  | 22 => ⟨S_, .f32⟩
  | 23 => ⟨S4096x61, .f32⟩
  | 24 => ⟨S4096x61, .f32⟩
  | 25 => ⟨S4096x61, .f32⟩
  | 26 => ⟨S4096x61, .f32⟩
  | 27 => ⟨S4096x61, .f32⟩
  | 28 => ⟨S_, .f32⟩
  | 29 => ⟨S4096, .f32⟩
  | 30 => ⟨S4096, .f32⟩
  | 31 => ⟨S_, .i32⟩
  | 32 => ⟨S4096x64, .i32⟩
  | 33 => ⟨S4096x64, .i1⟩
  | 34 => ⟨S_, .i32⟩
  | 35 => ⟨S4096x64, .i32⟩
  | 36 => ⟨S4096x64, .i32⟩
  | 37 => ⟨S_, .i32⟩
  | 38 => ⟨S_, .i32⟩
  | 39 => ⟨S4096x64, .i32⟩
  | 40 => ⟨S4096x64, .i32⟩
  | 41 => ⟨S4096x128, .i32⟩
  | 42 => ⟨S1x2000x64, .f32⟩
  | 43 => ⟨S2000x64, .f32⟩
  | 44 => ⟨S1x64, .f32⟩
  | 45 => ⟨S64, .f32⟩
  | 46 => ⟨S1x64x4000, .f32⟩
  | 47 => ⟨S64x4000, .f32⟩
  | 48 => ⟨S1x4000, .f32⟩
  | 49 => ⟨S4000, .f32⟩
  | 50 => ⟨S4096, .i32⟩
  | 51 => ⟨S4096x1, .i32⟩
  | 52 => ⟨S_, .f32⟩
  | 53 => ⟨S4096x2001, .f32⟩
  | 54 => ⟨S_, .i32⟩
  | 55 => ⟨S4096x1, .i32⟩
  | 56 => ⟨S4096x1, .i1⟩
  | 57 => ⟨S_, .i32⟩
  | 58 => ⟨S4096x1, .i32⟩
  | 59 => ⟨S4096x1, .i32⟩
  | 60 => ⟨S4096x1, .i32⟩
  | 61 => ⟨S_, .i32⟩
  | 62 => ⟨S4096x61, .i32⟩
  | 63 => ⟨S4096x61, .i1⟩
  | 64 => ⟨S_, .i32⟩
  | 65 => ⟨S4096x61, .i32⟩
  | 66 => ⟨S4096x61, .i32⟩
  | 67 => ⟨S4096x61, .i32⟩
  | 68 => ⟨S4096x61, .i32⟩
  | 69 => ⟨S4096x61x1, .i32⟩
  | 70 => ⟨S4096x61x1, .i32⟩
  | 71 => ⟨S4096x61x2, .i32⟩
  | 72 => ⟨S4096x2001, .f32⟩
  | 73 => ⟨S4096x2000, .f32⟩
  | 74 => ⟨S4096x64, .f32⟩
  | 75 => ⟨S1x64, .f32⟩
  | 76 => ⟨S4096x64, .f32⟩
  | 77 => ⟨S4096x64, .f32⟩
  | 78 => ⟨S_, .f32⟩
  | 79 => ⟨S4096x64, .f32⟩
  | 80 => ⟨S4096x64, .i1⟩
  | 81 => ⟨S_, .f32⟩
  | 82 => ⟨S4096x64, .f32⟩
  | 83 => ⟨S4096x64, .i1⟩
  | 84 => ⟨S_, .f32⟩
  | 85 => ⟨S_, .f32⟩
  | 86 => ⟨S4096x64, .f32⟩
  | 87 => ⟨S4096x64, .f32⟩
  | 88 => ⟨S4096x64, .f32⟩
  | 89 => ⟨S_, .f32⟩
  | 90 => ⟨S4096x64, .f32⟩
  | 91 => ⟨S4096x64, .f32⟩
  | 92 => ⟨S4096x64, .f32⟩
  | 93 => ⟨S4096x4000, .f32⟩
  | 94 => ⟨S1x4000, .f32⟩
  | 95 => ⟨S4096x4000, .f32⟩
  | 96 => ⟨S4096x4000, .f32⟩
  | 97 => ⟨S_, .f32⟩
  | 98 => ⟨S4096x1, .f32⟩
  | 99 => ⟨S4096x4001, .f32⟩
  | 100 => ⟨S_, .i32⟩
  | 101 => ⟨S4096x128, .i32⟩
  | 102 => ⟨S4096x128, .i1⟩
  | 103 => ⟨S_, .i32⟩
  | 104 => ⟨S4096x128, .i32⟩
  | 105 => ⟨S4096x128, .i32⟩
  | 106 => ⟨S4096x128, .i32⟩
  | 107 => ⟨S4096x128x1, .i32⟩
  | 108 => ⟨S1, .i32⟩
  | 109 => ⟨S_, .i32⟩
  | 110 => ⟨S4096x128x1, .i32⟩
  | 111 => ⟨S4096x128x1, .i1⟩
  | 112 => ⟨S1x1x1, .i32⟩
  | 113 => ⟨S4096x128x1, .i32⟩
  | 114 => ⟨S4096x128x1, .i1⟩
  | 115 => ⟨S4096x128x1, .i1⟩
  | 116 => ⟨S_, .i1⟩
  | 117 => ⟨S4096x128, .i1⟩
  | 118 => ⟨S4096x128, .f32⟩
  | 119 => ⟨S_, .f32⟩
  | 120 => ⟨S4096x128, .f32⟩
  | 121 => ⟨S4096x128, .f32⟩
  | 122 => ⟨S4096x64, .f32⟩
  | 123 => ⟨S4096x64, .f32⟩
  | 124 => ⟨S_, .f32⟩
  | 125 => ⟨S4096x64, .f32⟩
  | 126 => ⟨S4096x64, .f32⟩
  | 127 => ⟨S4096x64, .f32⟩
  | _ => ⟨S4096x125, .f32⟩

abbrev hbmTy0_6 (i : Nat) : BufTy := match i % 128 with
  | 0 => ⟨S4096x64, .f32⟩
  | 1 => ⟨S_, .f32⟩
  | 2 => ⟨S4096x64, .f32⟩
  | 3 => ⟨S4096x64, .f32⟩
  | 4 => ⟨S_, .f32⟩
  | 5 => ⟨S4096x64, .f32⟩
  | 6 => ⟨S4096x64, .f32⟩
  | 7 => ⟨S4096x64, .f32⟩
  | 8 => ⟨S4096x64, .f32⟩
  | 9 => ⟨S4096x64, .f32⟩
  | 10 => ⟨S_, .f32⟩
  | 11 => ⟨S4096, .f32⟩
  | 12 => ⟨S4096, .f32⟩
  | 13 => ⟨S_, .i32⟩
  | 14 => ⟨S4096x61, .i32⟩
  | 15 => ⟨S4096x61, .i1⟩
  | 16 => ⟨S_, .i32⟩
  | 17 => ⟨S4096x61, .i32⟩
  | 18 => ⟨S4096x61, .i32⟩
  | 19 => ⟨S_, .i32⟩
  | 20 => ⟨S_, .i32⟩
  | 21 => ⟨S4096x61, .i32⟩
  | 22 => ⟨S4096x61, .i32⟩
  | 23 => ⟨S4096x122, .i32⟩
  | 24 => ⟨S1x2000x64, .f32⟩
  | 25 => ⟨S2000x64, .f32⟩
  | 26 => ⟨S1x64, .f32⟩
  | 27 => ⟨S64, .f32⟩
  | 28 => ⟨S1x64x4000, .f32⟩
  | 29 => ⟨S64x4000, .f32⟩
  | 30 => ⟨S1x4000, .f32⟩
  | 31 => ⟨S4000, .f32⟩
  | 32 => ⟨S4096, .i32⟩
  | 33 => ⟨S4096x1, .i32⟩
  | 34 => ⟨S_, .f32⟩
  | 35 => ⟨S4096x2001, .f32⟩
  | 36 => ⟨S_, .i32⟩
  | 37 => ⟨S4096x1, .i32⟩
  | 38 => ⟨S4096x1, .i1⟩
  | 39 => ⟨S_, .i32⟩
  | 40 => ⟨S4096x1, .i32⟩
  | 41 => ⟨S4096x1, .i32⟩
  | 42 => ⟨S4096x1, .i32⟩
  | 43 => ⟨S_, .i32⟩
  | 44 => ⟨S4096x64, .i32⟩
  | 45 => ⟨S4096x64, .i1⟩
  | 46 => ⟨S_, .i32⟩
  | 47 => ⟨S4096x64, .i32⟩
  | 48 => ⟨S4096x64, .i32⟩
  | 49 => ⟨S4096x64, .i32⟩
  | 50 => ⟨S4096x64, .i32⟩
  | 51 => ⟨S4096x64x1, .i32⟩
  | 52 => ⟨S4096x64x1, .i32⟩
  | 53 => ⟨S4096x64x2, .i32⟩
  | 54 => ⟨S4096x2001, .f32⟩
  | 55 => ⟨S4096x2000, .f32⟩
  | 56 => ⟨S4096x64, .f32⟩
  | 57 => ⟨S1x64, .f32⟩
  | 58 => ⟨S4096x64, .f32⟩
  | 59 => ⟨S4096x64, .f32⟩
  | 60 => ⟨S_, .f32⟩
  | 61 => ⟨S4096x64, .f32⟩
  | 62 => ⟨S4096x64, .i1⟩
  | 63 => ⟨S_, .f32⟩
  | 64 => ⟨S4096x64, .f32⟩
  | 65 => ⟨S4096x64, .i1⟩
  | 66 => ⟨S_, .f32⟩
  | 67 => ⟨S_, .f32⟩
  | 68 => ⟨S4096x64, .f32⟩
  | 69 => ⟨S4096x64, .f32⟩
  | 70 => ⟨S4096x64, .f32⟩
  | 71 => ⟨S_, .f32⟩
  | 72 => ⟨S4096x64, .f32⟩
  | 73 => ⟨S4096x64, .f32⟩
  | 74 => ⟨S4096x64, .f32⟩
  | 75 => ⟨S4096x4000, .f32⟩
  | 76 => ⟨S1x4000, .f32⟩
  | 77 => ⟨S4096x4000, .f32⟩
  | 78 => ⟨S4096x4000, .f32⟩
  | 79 => ⟨S_, .f32⟩
  | 80 => ⟨S4096x1, .f32⟩
  | 81 => ⟨S4096x4001, .f32⟩
  | 82 => ⟨S_, .i32⟩
  | 83 => ⟨S4096x122, .i32⟩
  | 84 => ⟨S4096x122, .i1⟩
  | 85 => ⟨S_, .i32⟩
  | 86 => ⟨S4096x122, .i32⟩
  | 87 => ⟨S4096x122, .i32⟩
  | 88 => ⟨S4096x122, .i32⟩
  | 89 => ⟨S4096x122x1, .i32⟩
  | 90 => ⟨S1, .i32⟩
  | 91 => ⟨S_, .i32⟩
  | 92 => ⟨S4096x122x1, .i32⟩
  | 93 => ⟨S4096x122x1, .i1⟩
  | 94 => ⟨S1x1x1, .i32⟩
  | 95 => ⟨S4096x122x1, .i32⟩
  | 96 => ⟨S4096x122x1, .i1⟩
  | 97 => ⟨S4096x122x1, .i1⟩
  | 98 => ⟨S_, .i1⟩
  | 99 => ⟨S4096x122, .i1⟩
  | 100 => ⟨S4096x122, .f32⟩
  | 101 => ⟨S_, .f32⟩
  | 102 => ⟨S4096x122, .f32⟩
  | 103 => ⟨S4096x122, .f32⟩
  | 104 => ⟨S4096x61, .f32⟩
  | 105 => ⟨S4096x61, .f32⟩
  | 106 => ⟨S_, .f32⟩
  | 107 => ⟨S4096x61, .f32⟩
  | 108 => ⟨S4096x61, .f32⟩
  | 109 => ⟨S4096x61, .f32⟩
  | 110 => ⟨S4096x61, .f32⟩
  | 111 => ⟨S_, .f32⟩
  | 112 => ⟨S4096x61, .f32⟩
  | 113 => ⟨S4096x61, .f32⟩
  | 114 => ⟨S_, .f32⟩
  | 115 => ⟨S4096x61, .f32⟩
  | 116 => ⟨S4096x61, .f32⟩
  | 117 => ⟨S4096x61, .f32⟩
  | 118 => ⟨S4096x61, .f32⟩
  | 119 => ⟨S4096x61, .f32⟩
  | 120 => ⟨S_, .f32⟩
  | 121 => ⟨S4096, .f32⟩
  | 122 => ⟨S4096, .f32⟩
  | 123 => ⟨S_, .i32⟩
  | 124 => ⟨S4096x64, .i32⟩
  | 125 => ⟨S4096x64, .i1⟩
  | 126 => ⟨S_, .i32⟩
  | 127 => ⟨S4096x64, .i32⟩
  | _ => ⟨S4096x125, .f32⟩

abbrev hbmTy0_7 (i : Nat) : BufTy := match i % 128 with
  | 0 => ⟨S4096x64, .i32⟩
  | 1 => ⟨S_, .i32⟩
  | 2 => ⟨S_, .i32⟩
  | 3 => ⟨S4096x64, .i32⟩
  | 4 => ⟨S4096x64, .i32⟩
  | 5 => ⟨S4096x128, .i32⟩
  | 6 => ⟨S1x2000x64, .f32⟩
  | 7 => ⟨S2000x64, .f32⟩
  | 8 => ⟨S1x64, .f32⟩
  | 9 => ⟨S64, .f32⟩
  | 10 => ⟨S1x64x4000, .f32⟩
  | 11 => ⟨S64x4000, .f32⟩
  | 12 => ⟨S1x4000, .f32⟩
  | 13 => ⟨S4000, .f32⟩
  | 14 => ⟨S4096, .i32⟩
  | 15 => ⟨S4096x1, .i32⟩
  | 16 => ⟨S_, .f32⟩
  | 17 => ⟨S4096x2001, .f32⟩
  | 18 => ⟨S_, .i32⟩
  | 19 => ⟨S4096x1, .i32⟩
  | 20 => ⟨S4096x1, .i1⟩
  | 21 => ⟨S_, .i32⟩
  | 22 => ⟨S4096x1, .i32⟩
  | 23 => ⟨S4096x1, .i32⟩
  | 24 => ⟨S4096x1, .i32⟩
  | 25 => ⟨S_, .i32⟩
  | 26 => ⟨S4096x61, .i32⟩
  | 27 => ⟨S4096x61, .i1⟩
  | 28 => ⟨S_, .i32⟩
  | 29 => ⟨S4096x61, .i32⟩
  | 30 => ⟨S4096x61, .i32⟩
  | 31 => ⟨S4096x61, .i32⟩
  | 32 => ⟨S4096x61, .i32⟩
  | 33 => ⟨S4096x61x1, .i32⟩
  | 34 => ⟨S4096x61x1, .i32⟩
  | 35 => ⟨S4096x61x2, .i32⟩
  | 36 => ⟨S4096x2001, .f32⟩
  | 37 => ⟨S4096x2000, .f32⟩
  | 38 => ⟨S4096x64, .f32⟩
  | 39 => ⟨S1x64, .f32⟩
  | 40 => ⟨S4096x64, .f32⟩
  | 41 => ⟨S4096x64, .f32⟩
  | 42 => ⟨S_, .f32⟩
  | 43 => ⟨S4096x64, .f32⟩
  | 44 => ⟨S4096x64, .i1⟩
  | 45 => ⟨S_, .f32⟩
  | 46 => ⟨S4096x64, .f32⟩
  | 47 => ⟨S4096x64, .i1⟩
  | 48 => ⟨S_, .f32⟩
  | 49 => ⟨S_, .f32⟩
  | 50 => ⟨S4096x64, .f32⟩
  | 51 => ⟨S4096x64, .f32⟩
  | 52 => ⟨S4096x64, .f32⟩
  | 53 => ⟨S_, .f32⟩
  | 54 => ⟨S4096x64, .f32⟩
  | 55 => ⟨S4096x64, .f32⟩
  | 56 => ⟨S4096x64, .f32⟩
  | 57 => ⟨S4096x4000, .f32⟩
  | 58 => ⟨S1x4000, .f32⟩
  | 59 => ⟨S4096x4000, .f32⟩
  | 60 => ⟨S4096x4000, .f32⟩
  | 61 => ⟨S_, .f32⟩
  | 62 => ⟨S4096x1, .f32⟩
  | 63 => ⟨S4096x4001, .f32⟩
  | 64 => ⟨S_, .i32⟩
  | 65 => ⟨S4096x128, .i32⟩
  | 66 => ⟨S4096x128, .i1⟩
  | 67 => ⟨S_, .i32⟩
  | 68 => ⟨S4096x128, .i32⟩
  | 69 => ⟨S4096x128, .i32⟩
  | 70 => ⟨S4096x128, .i32⟩
  | 71 => ⟨S4096x128x1, .i32⟩
  | 72 => ⟨S1, .i32⟩
  | 73 => ⟨S_, .i32⟩
  | 74 => ⟨S4096x128x1, .i32⟩
  | 75 => ⟨S4096x128x1, .i1⟩
  | 76 => ⟨S1x1x1, .i32⟩
  | 77 => ⟨S4096x128x1, .i32⟩
  | 78 => ⟨S4096x128x1, .i1⟩
  | 79 => ⟨S4096x128x1, .i1⟩
  | 80 => ⟨S_, .i1⟩
  | 81 => ⟨S4096x128, .i1⟩
  | 82 => ⟨S4096x128, .f32⟩
  | 83 => ⟨S_, .f32⟩
  | 84 => ⟨S4096x128, .f32⟩
  | 85 => ⟨S4096x128, .f32⟩
  | 86 => ⟨S4096x64, .f32⟩
  | 87 => ⟨S4096x64, .f32⟩
  | 88 => ⟨S_, .f32⟩
  | 89 => ⟨S4096x64, .f32⟩
  | 90 => ⟨S4096x64, .f32⟩
  | 91 => ⟨S4096x64, .f32⟩
  | 92 => ⟨S4096x64, .f32⟩
  | 93 => ⟨S_, .f32⟩
  | 94 => ⟨S4096x64, .f32⟩
  | 95 => ⟨S4096x64, .f32⟩
  | 96 => ⟨S_, .f32⟩
  | 97 => ⟨S4096x64, .f32⟩
  | 98 => ⟨S4096x64, .f32⟩
  | 99 => ⟨S4096x64, .f32⟩
  | 100 => ⟨S4096x64, .f32⟩
  | 101 => ⟨S4096x64, .f32⟩
  | 102 => ⟨S_, .f32⟩
  | 103 => ⟨S4096, .f32⟩
  | 104 => ⟨S4096, .f32⟩
  | 105 => ⟨S_, .i32⟩
  | 106 => ⟨S4096x61, .i32⟩
  | 107 => ⟨S4096x61, .i1⟩
  | 108 => ⟨S_, .i32⟩
  | 109 => ⟨S4096x61, .i32⟩
  | 110 => ⟨S4096x61, .i32⟩
  | 111 => ⟨S_, .i32⟩
  | 112 => ⟨S_, .i32⟩
  | 113 => ⟨S4096x61, .i32⟩
  | 114 => ⟨S4096x61, .i32⟩
  | 115 => ⟨S4096x122, .i32⟩
  | 116 => ⟨S1x2000x64, .f32⟩
  | 117 => ⟨S2000x64, .f32⟩
  | 118 => ⟨S1x64, .f32⟩
  | 119 => ⟨S64, .f32⟩
  | 120 => ⟨S1x64x4000, .f32⟩
  | 121 => ⟨S64x4000, .f32⟩
  | 122 => ⟨S1x4000, .f32⟩
  | 123 => ⟨S4000, .f32⟩
  | 124 => ⟨S4096, .i32⟩
  | 125 => ⟨S4096x1, .i32⟩
  | 126 => ⟨S_, .f32⟩
  | 127 => ⟨S4096x2001, .f32⟩
  | _ => ⟨S4096x125, .f32⟩

abbrev hbmTy0_8 (i : Nat) : BufTy := match i % 128 with
  | 0 => ⟨S_, .i32⟩
  | 1 => ⟨S4096x1, .i32⟩
  | 2 => ⟨S4096x1, .i1⟩
  | 3 => ⟨S_, .i32⟩
  | 4 => ⟨S4096x1, .i32⟩
  | 5 => ⟨S4096x1, .i32⟩
  | 6 => ⟨S4096x1, .i32⟩
  | 7 => ⟨S_, .i32⟩
  | 8 => ⟨S4096x64, .i32⟩
  | 9 => ⟨S4096x64, .i1⟩
  | 10 => ⟨S_, .i32⟩
  | 11 => ⟨S4096x64, .i32⟩
  | 12 => ⟨S4096x64, .i32⟩
  | 13 => ⟨S4096x64, .i32⟩
  | 14 => ⟨S4096x64, .i32⟩
  | 15 => ⟨S4096x64x1, .i32⟩
  | 16 => ⟨S4096x64x1, .i32⟩
  | 17 => ⟨S4096x64x2, .i32⟩
  | 18 => ⟨S4096x2001, .f32⟩
  | 19 => ⟨S4096x2000, .f32⟩
  | 20 => ⟨S4096x64, .f32⟩
  | 21 => ⟨S1x64, .f32⟩
  | 22 => ⟨S4096x64, .f32⟩
  | 23 => ⟨S4096x64, .f32⟩
  | 24 => ⟨S_, .f32⟩
  | 25 => ⟨S4096x64, .f32⟩
  | 26 => ⟨S4096x64, .i1⟩
  | 27 => ⟨S_, .f32⟩
  | 28 => ⟨S4096x64, .f32⟩
  | 29 => ⟨S4096x64, .i1⟩
  | 30 => ⟨S_, .f32⟩
  | 31 => ⟨S_, .f32⟩
  | 32 => ⟨S4096x64, .f32⟩
  | 33 => ⟨S4096x64, .f32⟩
  | 34 => ⟨S4096x64, .f32⟩
  | 35 => ⟨S_, .f32⟩
  | 36 => ⟨S4096x64, .f32⟩
  | 37 => ⟨S4096x64, .f32⟩
  | 38 => ⟨S4096x64, .f32⟩
  | 39 => ⟨S4096x4000, .f32⟩
  | 40 => ⟨S1x4000, .f32⟩
  | 41 => ⟨S4096x4000, .f32⟩
  | 42 => ⟨S4096x4000, .f32⟩
  | 43 => ⟨S_, .f32⟩
  | 44 => ⟨S4096x1, .f32⟩
  | 45 => ⟨S4096x4001, .f32⟩
  | 46 => ⟨S_, .i32⟩
  | 47 => ⟨S4096x122, .i32⟩
  | 48 => ⟨S4096x122, .i1⟩
  | 49 => ⟨S_, .i32⟩
  | 50 => ⟨S4096x122, .i32⟩
  | 51 => ⟨S4096x122, .i32⟩
  | 52 => ⟨S4096x122, .i32⟩
  | 53 => ⟨S4096x122x1, .i32⟩
  | 54 => ⟨S1, .i32⟩
  | 55 => ⟨S_, .i32⟩
  | 56 => ⟨S4096x122x1, .i32⟩
  | 57 => ⟨S4096x122x1, .i1⟩
  | 58 => ⟨S1x1x1, .i32⟩
  | 59 => ⟨S4096x122x1, .i32⟩
  | 60 => ⟨S4096x122x1, .i1⟩
  | 61 => ⟨S4096x122x1, .i1⟩
  | 62 => ⟨S_, .i1⟩
  | 63 => ⟨S4096x122, .i1⟩
  | 64 => ⟨S4096x122, .f32⟩
  | 65 => ⟨S_, .f32⟩
  | 66 => ⟨S4096x122, .f32⟩
  | 67 => ⟨S4096x122, .f32⟩
  | 68 => ⟨S4096x61, .f32⟩
  | 69 => ⟨S4096x61, .f32⟩
  | 70 => ⟨S_, .f32⟩
  | 71 => ⟨S4096x61, .f32⟩
  | 72 => ⟨S4096x61, .f32⟩
  | 73 => ⟨S4096x61, .f32⟩
  | 74 => ⟨S4096x61, .f32⟩
  | 75 => ⟨S_, .f32⟩
  | 76 => ⟨S4096x61, .f32⟩
  | 77 => ⟨S4096x61, .f32⟩
  | 78 => ⟨S_, .f32⟩
  | 79 => ⟨S4096x61, .f32⟩
  | 80 => ⟨S4096x61, .f32⟩
  | 81 => ⟨S4096x61, .f32⟩
  | 82 => ⟨S4096x61, .f32⟩
  | 83 => ⟨S4096x61, .f32⟩
  | 84 => ⟨S_, .f32⟩
  | 85 => ⟨S4096, .f32⟩
  | 86 => ⟨S4096, .f32⟩
  | 87 => ⟨S4096x125, .f32⟩
  | 88 => ⟨S_, .f32⟩
  | 89 => ⟨S4096x125, .f32⟩
  | 90 => ⟨S4096x125, .f32⟩
  | _ => ⟨S4096x125, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S4096x125, .f32⟩

abbrev bufTy : (tb : Table) → Fin (tcTables nBuf tb) → BufTy
  | .hbm, ⟨i, _⟩ => hbmTy i
  | _, _ => ⟨S4096x125, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_c_2 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_call1_cst : Ref sig .tc := ⟨.hbm, 58, rfl⟩
abbrev main_call1_v0 : Ref sig .tc := ⟨.hbm, 59, rfl⟩
abbrev main_call1_v1 : Ref sig .tc := ⟨.hbm, 60, rfl⟩
abbrev main_call1_cst_0 : Ref sig .tc := ⟨.hbm, 61, rfl⟩
abbrev main_call1_v2 : Ref sig .tc := ⟨.hbm, 62, rfl⟩
abbrev main_call1_v3 : Ref sig .tc := ⟨.hbm, 63, rfl⟩
abbrev main_call1_cst_1 : Ref sig .tc := ⟨.hbm, 64, rfl⟩
abbrev main_call1_call0_v0 : Ref sig .tc := ⟨.hbm, 65, rfl⟩
abbrev main_call1_call0_v1 : Ref sig .tc := ⟨.hbm, 66, rfl⟩
abbrev main_call1_v4 : Ref sig .tc := ⟨.hbm, 67, rfl⟩
abbrev main_call1_v5 : Ref sig .tc := ⟨.hbm, 68, rfl⟩
abbrev main_call1_cst_2 : Ref sig .tc := ⟨.hbm, 69, rfl⟩
abbrev main_call1_v6 : Ref sig .tc := ⟨.hbm, 70, rfl⟩
abbrev main_call1_v7 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_6 : Ref sig .tc := ⟨.hbm, 77, rfl⟩
abbrev main_v46 : Ref sig .tc := ⟨.hbm, 78, rfl⟩
abbrev main_v47 : Ref sig .tc := ⟨.hbm, 79, rfl⟩
abbrev main_call2_c : Ref sig .tc := ⟨.hbm, 80, rfl⟩
abbrev main_call2_v0 : Ref sig .tc := ⟨.hbm, 81, rfl⟩
abbrev main_call2_v1 : Ref sig .tc := ⟨.hbm, 82, rfl⟩
abbrev main_call2_c_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_c_1 : Ref sig .tc := ⟨.hbm, 88, rfl⟩
abbrev main_call2_c_2 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_c_3 : Ref sig .tc := ⟨.hbm, 96, rfl⟩
abbrev main_call2_v12 : Ref sig .tc := ⟨.hbm, 97, rfl⟩
abbrev main_call2_v13 : Ref sig .tc := ⟨.hbm, 98, rfl⟩
abbrev main_call2_cst : Ref sig .tc := ⟨.hbm, 99, rfl⟩
abbrev main_call2_v14 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_cst_7 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_cst_8 : Ref sig .tc := ⟨.hbm, 109, rfl⟩
abbrev main_v55 : Ref sig .tc := ⟨.hbm, 110, rfl⟩
abbrev main_v56 : Ref sig .tc := ⟨.hbm, 111, rfl⟩
abbrev main_cst_9 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_cst_10 : Ref sig .tc := ⟨.hbm, 118, rfl⟩
abbrev main_v62 : Ref sig .tc := ⟨.hbm, 119, rfl⟩
abbrev main_v63 : Ref sig .tc := ⟨.hbm, 120, rfl⟩
abbrev main_c_11 : Ref sig .tc := ⟨.hbm, 121, rfl⟩
abbrev main_v64 : Ref sig .tc := ⟨.hbm, 122, rfl⟩
abbrev main_v65 : Ref sig .tc := ⟨.hbm, 123, rfl⟩
abbrev main_c_12 : Ref sig .tc := ⟨.hbm, 124, rfl⟩
abbrev main_v66 : Ref sig .tc := ⟨.hbm, 125, rfl⟩
abbrev main_v67 : Ref sig .tc := ⟨.hbm, 126, rfl⟩
abbrev main_c_13 : Ref sig .tc := ⟨.hbm, 127, rfl⟩
abbrev main_call3_v0 : Ref sig .tc := ⟨.hbm, 128, rfl⟩
abbrev main_call3_v1 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_cst_14 : Ref sig .tc := ⟨.hbm, 142, rfl⟩
abbrev main_v80 : Ref sig .tc := ⟨.hbm, 143, rfl⟩
abbrev main_c_15 : Ref sig .tc := ⟨.hbm, 144, rfl⟩
abbrev main_v81 : Ref sig .tc := ⟨.hbm, 145, rfl⟩
abbrev main_v82 : Ref sig .tc := ⟨.hbm, 146, rfl⟩
abbrev main_c_16 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_c_17 : Ref sig .tc := ⟨.hbm, 151, rfl⟩
abbrev main_v86 : Ref sig .tc := ⟨.hbm, 152, rfl⟩
abbrev main_v87 : Ref sig .tc := ⟨.hbm, 153, rfl⟩
abbrev main_c_18 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_call4_cst : Ref sig .tc := ⟨.hbm, 168, rfl⟩
abbrev main_call4_v0 : Ref sig .tc := ⟨.hbm, 169, rfl⟩
abbrev main_call4_v1 : Ref sig .tc := ⟨.hbm, 170, rfl⟩
abbrev main_call4_cst_0 : Ref sig .tc := ⟨.hbm, 171, rfl⟩
abbrev main_call4_v2 : Ref sig .tc := ⟨.hbm, 172, rfl⟩
abbrev main_call4_v3 : Ref sig .tc := ⟨.hbm, 173, rfl⟩
abbrev main_call4_cst_1 : Ref sig .tc := ⟨.hbm, 174, rfl⟩
abbrev main_call4_call0_v0 : Ref sig .tc := ⟨.hbm, 175, rfl⟩
abbrev main_call4_call0_v1 : Ref sig .tc := ⟨.hbm, 176, rfl⟩
abbrev main_call4_v4 : Ref sig .tc := ⟨.hbm, 177, rfl⟩
abbrev main_call4_v5 : Ref sig .tc := ⟨.hbm, 178, rfl⟩
abbrev main_call4_cst_2 : Ref sig .tc := ⟨.hbm, 179, rfl⟩
abbrev main_call4_v6 : Ref sig .tc := ⟨.hbm, 180, rfl⟩
abbrev main_call4_v7 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_cst_19 : Ref sig .tc := ⟨.hbm, 187, rfl⟩
abbrev main_v106 : Ref sig .tc := ⟨.hbm, 188, rfl⟩
abbrev main_v107 : Ref sig .tc := ⟨.hbm, 189, rfl⟩
abbrev main_call5_c : Ref sig .tc := ⟨.hbm, 190, rfl⟩
abbrev main_call5_v0 : Ref sig .tc := ⟨.hbm, 191, rfl⟩
abbrev main_call5_v1 : Ref sig .tc := ⟨.hbm, 192, rfl⟩
abbrev main_call5_c_0 : Ref sig .tc := ⟨.hbm, 193, rfl⟩
abbrev main_call5_v2 : Ref sig .tc := ⟨.hbm, 194, rfl⟩
abbrev main_call5_v3 : Ref sig .tc := ⟨.hbm, 195, rfl⟩
abbrev main_call5_v4 : Ref sig .tc := ⟨.hbm, 196, rfl⟩
abbrev main_call5_v5 : Ref sig .tc := ⟨.hbm, 197, rfl⟩
abbrev main_call5_c_1 : Ref sig .tc := ⟨.hbm, 198, rfl⟩
abbrev main_call5_c_2 : Ref sig .tc := ⟨.hbm, 199, rfl⟩
abbrev main_call5_v6 : Ref sig .tc := ⟨.hbm, 200, rfl⟩
abbrev main_call5_v7 : Ref sig .tc := ⟨.hbm, 201, rfl⟩
abbrev main_call5_v8 : Ref sig .tc := ⟨.hbm, 202, rfl⟩
abbrev main_call5_v9 : Ref sig .tc := ⟨.hbm, 203, rfl⟩
abbrev main_call5_v10 : Ref sig .tc := ⟨.hbm, 204, rfl⟩
abbrev main_call5_v11 : Ref sig .tc := ⟨.hbm, 205, rfl⟩
abbrev main_call5_c_3 : Ref sig .tc := ⟨.hbm, 206, rfl⟩
abbrev main_call5_v12 : Ref sig .tc := ⟨.hbm, 207, rfl⟩
abbrev main_call5_v13 : Ref sig .tc := ⟨.hbm, 208, rfl⟩
abbrev main_call5_cst : Ref sig .tc := ⟨.hbm, 209, rfl⟩
abbrev main_call5_v14 : Ref sig .tc := ⟨.hbm, 210, rfl⟩
abbrev main_v108 : Ref sig .tc := ⟨.hbm, 211, rfl⟩
abbrev main_v109 : Ref sig .tc := ⟨.hbm, 212, rfl⟩
abbrev main_v110 : Ref sig .tc := ⟨.hbm, 213, rfl⟩
abbrev main_cst_20 : Ref sig .tc := ⟨.hbm, 214, rfl⟩
abbrev main_v111 : Ref sig .tc := ⟨.hbm, 215, rfl⟩
abbrev main_v112 : Ref sig .tc := ⟨.hbm, 216, rfl⟩
abbrev main_v113 : Ref sig .tc := ⟨.hbm, 217, rfl⟩
abbrev main_v114 : Ref sig .tc := ⟨.hbm, 218, rfl⟩
abbrev main_cst_21 : Ref sig .tc := ⟨.hbm, 219, rfl⟩
abbrev main_v115 : Ref sig .tc := ⟨.hbm, 220, rfl⟩
abbrev main_v116 : Ref sig .tc := ⟨.hbm, 221, rfl⟩
abbrev main_cst_22 : Ref sig .tc := ⟨.hbm, 222, rfl⟩
abbrev main_v117 : Ref sig .tc := ⟨.hbm, 223, rfl⟩
abbrev main_v118 : Ref sig .tc := ⟨.hbm, 224, rfl⟩
abbrev main_v119 : Ref sig .tc := ⟨.hbm, 225, rfl⟩
abbrev main_v120 : Ref sig .tc := ⟨.hbm, 226, rfl⟩
abbrev main_v121 : Ref sig .tc := ⟨.hbm, 227, rfl⟩
abbrev main_cst_23 : Ref sig .tc := ⟨.hbm, 228, rfl⟩
abbrev main_v122 : Ref sig .tc := ⟨.hbm, 229, rfl⟩
abbrev main_v123 : Ref sig .tc := ⟨.hbm, 230, rfl⟩
abbrev main_c_24 : Ref sig .tc := ⟨.hbm, 231, rfl⟩
abbrev main_v124 : Ref sig .tc := ⟨.hbm, 232, rfl⟩
abbrev main_v125 : Ref sig .tc := ⟨.hbm, 233, rfl⟩
abbrev main_c_25 : Ref sig .tc := ⟨.hbm, 234, rfl⟩
abbrev main_v126 : Ref sig .tc := ⟨.hbm, 235, rfl⟩
abbrev main_v127 : Ref sig .tc := ⟨.hbm, 236, rfl⟩
abbrev main_c_26 : Ref sig .tc := ⟨.hbm, 237, rfl⟩
abbrev main_call6_v0 : Ref sig .tc := ⟨.hbm, 238, rfl⟩
abbrev main_call6_v1 : Ref sig .tc := ⟨.hbm, 239, rfl⟩
abbrev main_v128 : Ref sig .tc := ⟨.hbm, 240, rfl⟩
abbrev main_v129 : Ref sig .tc := ⟨.hbm, 241, rfl⟩
abbrev main_v130 : Ref sig .tc := ⟨.hbm, 242, rfl⟩
abbrev main_v131 : Ref sig .tc := ⟨.hbm, 243, rfl⟩
abbrev main_v132 : Ref sig .tc := ⟨.hbm, 244, rfl⟩
abbrev main_v133 : Ref sig .tc := ⟨.hbm, 245, rfl⟩
abbrev main_v134 : Ref sig .tc := ⟨.hbm, 246, rfl⟩
abbrev main_v135 : Ref sig .tc := ⟨.hbm, 247, rfl⟩
abbrev main_v136 : Ref sig .tc := ⟨.hbm, 248, rfl⟩
abbrev main_v137 : Ref sig .tc := ⟨.hbm, 249, rfl⟩
abbrev main_v138 : Ref sig .tc := ⟨.hbm, 250, rfl⟩
abbrev main_v139 : Ref sig .tc := ⟨.hbm, 251, rfl⟩
abbrev main_cst_27 : Ref sig .tc := ⟨.hbm, 252, rfl⟩
abbrev main_v140 : Ref sig .tc := ⟨.hbm, 253, rfl⟩
abbrev main_c_28 : Ref sig .tc := ⟨.hbm, 254, rfl⟩
abbrev main_v141 : Ref sig .tc := ⟨.hbm, 255, rfl⟩
abbrev main_v142 : Ref sig .tc := ⟨.hbm, 256, rfl⟩
abbrev main_c_29 : Ref sig .tc := ⟨.hbm, 257, rfl⟩
abbrev main_v143 : Ref sig .tc := ⟨.hbm, 258, rfl⟩
abbrev main_v144 : Ref sig .tc := ⟨.hbm, 259, rfl⟩
abbrev main_v145 : Ref sig .tc := ⟨.hbm, 260, rfl⟩
abbrev main_c_30 : Ref sig .tc := ⟨.hbm, 261, rfl⟩
abbrev main_v146 : Ref sig .tc := ⟨.hbm, 262, rfl⟩
abbrev main_v147 : Ref sig .tc := ⟨.hbm, 263, rfl⟩
abbrev main_c_31 : Ref sig .tc := ⟨.hbm, 264, rfl⟩
abbrev main_v148 : Ref sig .tc := ⟨.hbm, 265, rfl⟩
abbrev main_v149 : Ref sig .tc := ⟨.hbm, 266, rfl⟩
abbrev main_v150 : Ref sig .tc := ⟨.hbm, 267, rfl⟩
abbrev main_v151 : Ref sig .tc := ⟨.hbm, 268, rfl⟩
abbrev main_v152 : Ref sig .tc := ⟨.hbm, 269, rfl⟩
abbrev main_v153 : Ref sig .tc := ⟨.hbm, 270, rfl⟩
abbrev main_v154 : Ref sig .tc := ⟨.hbm, 271, rfl⟩
abbrev main_v155 : Ref sig .tc := ⟨.hbm, 272, rfl⟩
abbrev main_v156 : Ref sig .tc := ⟨.hbm, 273, rfl⟩
abbrev main_v157 : Ref sig .tc := ⟨.hbm, 274, rfl⟩
abbrev main_v158 : Ref sig .tc := ⟨.hbm, 275, rfl⟩
abbrev main_v159 : Ref sig .tc := ⟨.hbm, 276, rfl⟩
abbrev main_v160 : Ref sig .tc := ⟨.hbm, 277, rfl⟩
abbrev main_call7_cst : Ref sig .tc := ⟨.hbm, 278, rfl⟩
abbrev main_call7_v0 : Ref sig .tc := ⟨.hbm, 279, rfl⟩
abbrev main_call7_v1 : Ref sig .tc := ⟨.hbm, 280, rfl⟩
abbrev main_call7_cst_0 : Ref sig .tc := ⟨.hbm, 281, rfl⟩
abbrev main_call7_v2 : Ref sig .tc := ⟨.hbm, 282, rfl⟩
abbrev main_call7_v3 : Ref sig .tc := ⟨.hbm, 283, rfl⟩
abbrev main_call7_cst_1 : Ref sig .tc := ⟨.hbm, 284, rfl⟩
abbrev main_call7_call0_v0 : Ref sig .tc := ⟨.hbm, 285, rfl⟩
abbrev main_call7_call0_v1 : Ref sig .tc := ⟨.hbm, 286, rfl⟩
abbrev main_call7_v4 : Ref sig .tc := ⟨.hbm, 287, rfl⟩
abbrev main_call7_v5 : Ref sig .tc := ⟨.hbm, 288, rfl⟩
abbrev main_call7_cst_2 : Ref sig .tc := ⟨.hbm, 289, rfl⟩
abbrev main_call7_v6 : Ref sig .tc := ⟨.hbm, 290, rfl⟩
abbrev main_call7_v7 : Ref sig .tc := ⟨.hbm, 291, rfl⟩
abbrev main_v161 : Ref sig .tc := ⟨.hbm, 292, rfl⟩
abbrev main_v162 : Ref sig .tc := ⟨.hbm, 293, rfl⟩
abbrev main_v163 : Ref sig .tc := ⟨.hbm, 294, rfl⟩
abbrev main_v164 : Ref sig .tc := ⟨.hbm, 295, rfl⟩
abbrev main_v165 : Ref sig .tc := ⟨.hbm, 296, rfl⟩
abbrev main_cst_32 : Ref sig .tc := ⟨.hbm, 297, rfl⟩
abbrev main_v166 : Ref sig .tc := ⟨.hbm, 298, rfl⟩
abbrev main_v167 : Ref sig .tc := ⟨.hbm, 299, rfl⟩
abbrev main_call8_c : Ref sig .tc := ⟨.hbm, 300, rfl⟩
abbrev main_call8_v0 : Ref sig .tc := ⟨.hbm, 301, rfl⟩
abbrev main_call8_v1 : Ref sig .tc := ⟨.hbm, 302, rfl⟩
abbrev main_call8_c_0 : Ref sig .tc := ⟨.hbm, 303, rfl⟩
abbrev main_call8_v2 : Ref sig .tc := ⟨.hbm, 304, rfl⟩
abbrev main_call8_v3 : Ref sig .tc := ⟨.hbm, 305, rfl⟩
abbrev main_call8_v4 : Ref sig .tc := ⟨.hbm, 306, rfl⟩
abbrev main_call8_v5 : Ref sig .tc := ⟨.hbm, 307, rfl⟩
abbrev main_call8_c_1 : Ref sig .tc := ⟨.hbm, 308, rfl⟩
abbrev main_call8_c_2 : Ref sig .tc := ⟨.hbm, 309, rfl⟩
abbrev main_call8_v6 : Ref sig .tc := ⟨.hbm, 310, rfl⟩
abbrev main_call8_v7 : Ref sig .tc := ⟨.hbm, 311, rfl⟩
abbrev main_call8_v8 : Ref sig .tc := ⟨.hbm, 312, rfl⟩
abbrev main_call8_v9 : Ref sig .tc := ⟨.hbm, 313, rfl⟩
abbrev main_call8_v10 : Ref sig .tc := ⟨.hbm, 314, rfl⟩
abbrev main_call8_v11 : Ref sig .tc := ⟨.hbm, 315, rfl⟩
abbrev main_call8_c_3 : Ref sig .tc := ⟨.hbm, 316, rfl⟩
abbrev main_call8_v12 : Ref sig .tc := ⟨.hbm, 317, rfl⟩
abbrev main_call8_v13 : Ref sig .tc := ⟨.hbm, 318, rfl⟩
abbrev main_call8_cst : Ref sig .tc := ⟨.hbm, 319, rfl⟩
abbrev main_call8_v14 : Ref sig .tc := ⟨.hbm, 320, rfl⟩
abbrev main_v168 : Ref sig .tc := ⟨.hbm, 321, rfl⟩
abbrev main_v169 : Ref sig .tc := ⟨.hbm, 322, rfl⟩
abbrev main_v170 : Ref sig .tc := ⟨.hbm, 323, rfl⟩
abbrev main_cst_33 : Ref sig .tc := ⟨.hbm, 324, rfl⟩
abbrev main_v171 : Ref sig .tc := ⟨.hbm, 325, rfl⟩
abbrev main_v172 : Ref sig .tc := ⟨.hbm, 326, rfl⟩
abbrev main_v173 : Ref sig .tc := ⟨.hbm, 327, rfl⟩
abbrev main_v174 : Ref sig .tc := ⟨.hbm, 328, rfl⟩
abbrev main_cst_34 : Ref sig .tc := ⟨.hbm, 329, rfl⟩
abbrev main_v175 : Ref sig .tc := ⟨.hbm, 330, rfl⟩
abbrev main_v176 : Ref sig .tc := ⟨.hbm, 331, rfl⟩
abbrev main_cst_35 : Ref sig .tc := ⟨.hbm, 332, rfl⟩
abbrev main_v177 : Ref sig .tc := ⟨.hbm, 333, rfl⟩
abbrev main_v178 : Ref sig .tc := ⟨.hbm, 334, rfl⟩
abbrev main_v179 : Ref sig .tc := ⟨.hbm, 335, rfl⟩
abbrev main_v180 : Ref sig .tc := ⟨.hbm, 336, rfl⟩
abbrev main_v181 : Ref sig .tc := ⟨.hbm, 337, rfl⟩
abbrev main_cst_36 : Ref sig .tc := ⟨.hbm, 338, rfl⟩
abbrev main_v182 : Ref sig .tc := ⟨.hbm, 339, rfl⟩
abbrev main_v183 : Ref sig .tc := ⟨.hbm, 340, rfl⟩
abbrev main_c_37 : Ref sig .tc := ⟨.hbm, 341, rfl⟩
abbrev main_v184 : Ref sig .tc := ⟨.hbm, 342, rfl⟩
abbrev main_v185 : Ref sig .tc := ⟨.hbm, 343, rfl⟩
abbrev main_c_38 : Ref sig .tc := ⟨.hbm, 344, rfl⟩
abbrev main_v186 : Ref sig .tc := ⟨.hbm, 345, rfl⟩
abbrev main_v187 : Ref sig .tc := ⟨.hbm, 346, rfl⟩
abbrev main_c_39 : Ref sig .tc := ⟨.hbm, 347, rfl⟩
abbrev main_call9_v0 : Ref sig .tc := ⟨.hbm, 348, rfl⟩
abbrev main_call9_v1 : Ref sig .tc := ⟨.hbm, 349, rfl⟩
abbrev main_v188 : Ref sig .tc := ⟨.hbm, 350, rfl⟩
abbrev main_v189 : Ref sig .tc := ⟨.hbm, 351, rfl⟩
abbrev main_v190 : Ref sig .tc := ⟨.hbm, 352, rfl⟩
abbrev main_v191 : Ref sig .tc := ⟨.hbm, 353, rfl⟩
abbrev main_v192 : Ref sig .tc := ⟨.hbm, 354, rfl⟩
abbrev main_v193 : Ref sig .tc := ⟨.hbm, 355, rfl⟩
abbrev main_v194 : Ref sig .tc := ⟨.hbm, 356, rfl⟩
abbrev main_v195 : Ref sig .tc := ⟨.hbm, 357, rfl⟩
abbrev main_v196 : Ref sig .tc := ⟨.hbm, 358, rfl⟩
abbrev main_v197 : Ref sig .tc := ⟨.hbm, 359, rfl⟩
abbrev main_v198 : Ref sig .tc := ⟨.hbm, 360, rfl⟩
abbrev main_v199 : Ref sig .tc := ⟨.hbm, 361, rfl⟩
abbrev main_cst_40 : Ref sig .tc := ⟨.hbm, 362, rfl⟩
abbrev main_v200 : Ref sig .tc := ⟨.hbm, 363, rfl⟩
abbrev main_c_41 : Ref sig .tc := ⟨.hbm, 364, rfl⟩
abbrev main_v201 : Ref sig .tc := ⟨.hbm, 365, rfl⟩
abbrev main_v202 : Ref sig .tc := ⟨.hbm, 366, rfl⟩
abbrev main_c_42 : Ref sig .tc := ⟨.hbm, 367, rfl⟩
abbrev main_v203 : Ref sig .tc := ⟨.hbm, 368, rfl⟩
abbrev main_v204 : Ref sig .tc := ⟨.hbm, 369, rfl⟩
abbrev main_v205 : Ref sig .tc := ⟨.hbm, 370, rfl⟩
abbrev main_c_43 : Ref sig .tc := ⟨.hbm, 371, rfl⟩
abbrev main_v206 : Ref sig .tc := ⟨.hbm, 372, rfl⟩
abbrev main_v207 : Ref sig .tc := ⟨.hbm, 373, rfl⟩
abbrev main_c_44 : Ref sig .tc := ⟨.hbm, 374, rfl⟩
abbrev main_v208 : Ref sig .tc := ⟨.hbm, 375, rfl⟩
abbrev main_v209 : Ref sig .tc := ⟨.hbm, 376, rfl⟩
abbrev main_v210 : Ref sig .tc := ⟨.hbm, 377, rfl⟩
abbrev main_v211 : Ref sig .tc := ⟨.hbm, 378, rfl⟩
abbrev main_v212 : Ref sig .tc := ⟨.hbm, 379, rfl⟩
abbrev main_v213 : Ref sig .tc := ⟨.hbm, 380, rfl⟩
abbrev main_v214 : Ref sig .tc := ⟨.hbm, 381, rfl⟩
abbrev main_v215 : Ref sig .tc := ⟨.hbm, 382, rfl⟩
abbrev main_v216 : Ref sig .tc := ⟨.hbm, 383, rfl⟩
abbrev main_v217 : Ref sig .tc := ⟨.hbm, 384, rfl⟩
abbrev main_v218 : Ref sig .tc := ⟨.hbm, 385, rfl⟩
abbrev main_v219 : Ref sig .tc := ⟨.hbm, 386, rfl⟩
abbrev main_v220 : Ref sig .tc := ⟨.hbm, 387, rfl⟩
abbrev main_call10_cst : Ref sig .tc := ⟨.hbm, 388, rfl⟩
abbrev main_call10_v0 : Ref sig .tc := ⟨.hbm, 389, rfl⟩
abbrev main_call10_v1 : Ref sig .tc := ⟨.hbm, 390, rfl⟩
abbrev main_call10_cst_0 : Ref sig .tc := ⟨.hbm, 391, rfl⟩
abbrev main_call10_v2 : Ref sig .tc := ⟨.hbm, 392, rfl⟩
abbrev main_call10_v3 : Ref sig .tc := ⟨.hbm, 393, rfl⟩
abbrev main_call10_cst_1 : Ref sig .tc := ⟨.hbm, 394, rfl⟩
abbrev main_call10_call0_v0 : Ref sig .tc := ⟨.hbm, 395, rfl⟩
abbrev main_call10_call0_v1 : Ref sig .tc := ⟨.hbm, 396, rfl⟩
abbrev main_call10_v4 : Ref sig .tc := ⟨.hbm, 397, rfl⟩
abbrev main_call10_v5 : Ref sig .tc := ⟨.hbm, 398, rfl⟩
abbrev main_call10_cst_2 : Ref sig .tc := ⟨.hbm, 399, rfl⟩
abbrev main_call10_v6 : Ref sig .tc := ⟨.hbm, 400, rfl⟩
abbrev main_call10_v7 : Ref sig .tc := ⟨.hbm, 401, rfl⟩
abbrev main_v221 : Ref sig .tc := ⟨.hbm, 402, rfl⟩
abbrev main_v222 : Ref sig .tc := ⟨.hbm, 403, rfl⟩
abbrev main_v223 : Ref sig .tc := ⟨.hbm, 404, rfl⟩
abbrev main_v224 : Ref sig .tc := ⟨.hbm, 405, rfl⟩
abbrev main_v225 : Ref sig .tc := ⟨.hbm, 406, rfl⟩
abbrev main_cst_45 : Ref sig .tc := ⟨.hbm, 407, rfl⟩
abbrev main_v226 : Ref sig .tc := ⟨.hbm, 408, rfl⟩
abbrev main_v227 : Ref sig .tc := ⟨.hbm, 409, rfl⟩
abbrev main_call11_c : Ref sig .tc := ⟨.hbm, 410, rfl⟩
abbrev main_call11_v0 : Ref sig .tc := ⟨.hbm, 411, rfl⟩
abbrev main_call11_v1 : Ref sig .tc := ⟨.hbm, 412, rfl⟩
abbrev main_call11_c_0 : Ref sig .tc := ⟨.hbm, 413, rfl⟩
abbrev main_call11_v2 : Ref sig .tc := ⟨.hbm, 414, rfl⟩
abbrev main_call11_v3 : Ref sig .tc := ⟨.hbm, 415, rfl⟩
abbrev main_call11_v4 : Ref sig .tc := ⟨.hbm, 416, rfl⟩
abbrev main_call11_v5 : Ref sig .tc := ⟨.hbm, 417, rfl⟩
abbrev main_call11_c_1 : Ref sig .tc := ⟨.hbm, 418, rfl⟩
abbrev main_call11_c_2 : Ref sig .tc := ⟨.hbm, 419, rfl⟩
abbrev main_call11_v6 : Ref sig .tc := ⟨.hbm, 420, rfl⟩
abbrev main_call11_v7 : Ref sig .tc := ⟨.hbm, 421, rfl⟩
abbrev main_call11_v8 : Ref sig .tc := ⟨.hbm, 422, rfl⟩
abbrev main_call11_v9 : Ref sig .tc := ⟨.hbm, 423, rfl⟩
abbrev main_call11_v10 : Ref sig .tc := ⟨.hbm, 424, rfl⟩
abbrev main_call11_v11 : Ref sig .tc := ⟨.hbm, 425, rfl⟩
abbrev main_call11_c_3 : Ref sig .tc := ⟨.hbm, 426, rfl⟩
abbrev main_call11_v12 : Ref sig .tc := ⟨.hbm, 427, rfl⟩
abbrev main_call11_v13 : Ref sig .tc := ⟨.hbm, 428, rfl⟩
abbrev main_call11_cst : Ref sig .tc := ⟨.hbm, 429, rfl⟩
abbrev main_call11_v14 : Ref sig .tc := ⟨.hbm, 430, rfl⟩
abbrev main_v228 : Ref sig .tc := ⟨.hbm, 431, rfl⟩
abbrev main_v229 : Ref sig .tc := ⟨.hbm, 432, rfl⟩
abbrev main_v230 : Ref sig .tc := ⟨.hbm, 433, rfl⟩
abbrev main_cst_46 : Ref sig .tc := ⟨.hbm, 434, rfl⟩
abbrev main_v231 : Ref sig .tc := ⟨.hbm, 435, rfl⟩
abbrev main_v232 : Ref sig .tc := ⟨.hbm, 436, rfl⟩
abbrev main_v233 : Ref sig .tc := ⟨.hbm, 437, rfl⟩
abbrev main_v234 : Ref sig .tc := ⟨.hbm, 438, rfl⟩
abbrev main_cst_47 : Ref sig .tc := ⟨.hbm, 439, rfl⟩
abbrev main_v235 : Ref sig .tc := ⟨.hbm, 440, rfl⟩
abbrev main_v236 : Ref sig .tc := ⟨.hbm, 441, rfl⟩
abbrev main_cst_48 : Ref sig .tc := ⟨.hbm, 442, rfl⟩
abbrev main_v237 : Ref sig .tc := ⟨.hbm, 443, rfl⟩
abbrev main_v238 : Ref sig .tc := ⟨.hbm, 444, rfl⟩
abbrev main_v239 : Ref sig .tc := ⟨.hbm, 445, rfl⟩
abbrev main_v240 : Ref sig .tc := ⟨.hbm, 446, rfl⟩
abbrev main_v241 : Ref sig .tc := ⟨.hbm, 447, rfl⟩
abbrev main_cst_49 : Ref sig .tc := ⟨.hbm, 448, rfl⟩
abbrev main_v242 : Ref sig .tc := ⟨.hbm, 449, rfl⟩
abbrev main_v243 : Ref sig .tc := ⟨.hbm, 450, rfl⟩
abbrev main_c_50 : Ref sig .tc := ⟨.hbm, 451, rfl⟩
abbrev main_v244 : Ref sig .tc := ⟨.hbm, 452, rfl⟩
abbrev main_v245 : Ref sig .tc := ⟨.hbm, 453, rfl⟩
abbrev main_c_51 : Ref sig .tc := ⟨.hbm, 454, rfl⟩
abbrev main_v246 : Ref sig .tc := ⟨.hbm, 455, rfl⟩
abbrev main_v247 : Ref sig .tc := ⟨.hbm, 456, rfl⟩
abbrev main_c_52 : Ref sig .tc := ⟨.hbm, 457, rfl⟩
abbrev main_call12_v0 : Ref sig .tc := ⟨.hbm, 458, rfl⟩
abbrev main_call12_v1 : Ref sig .tc := ⟨.hbm, 459, rfl⟩
abbrev main_v248 : Ref sig .tc := ⟨.hbm, 460, rfl⟩
abbrev main_v249 : Ref sig .tc := ⟨.hbm, 461, rfl⟩
abbrev main_v250 : Ref sig .tc := ⟨.hbm, 462, rfl⟩
abbrev main_v251 : Ref sig .tc := ⟨.hbm, 463, rfl⟩
abbrev main_v252 : Ref sig .tc := ⟨.hbm, 464, rfl⟩
abbrev main_v253 : Ref sig .tc := ⟨.hbm, 465, rfl⟩
abbrev main_v254 : Ref sig .tc := ⟨.hbm, 466, rfl⟩
abbrev main_v255 : Ref sig .tc := ⟨.hbm, 467, rfl⟩
abbrev main_v256 : Ref sig .tc := ⟨.hbm, 468, rfl⟩
abbrev main_v257 : Ref sig .tc := ⟨.hbm, 469, rfl⟩
abbrev main_v258 : Ref sig .tc := ⟨.hbm, 470, rfl⟩
abbrev main_v259 : Ref sig .tc := ⟨.hbm, 471, rfl⟩
abbrev main_cst_53 : Ref sig .tc := ⟨.hbm, 472, rfl⟩
abbrev main_v260 : Ref sig .tc := ⟨.hbm, 473, rfl⟩
abbrev main_c_54 : Ref sig .tc := ⟨.hbm, 474, rfl⟩
abbrev main_v261 : Ref sig .tc := ⟨.hbm, 475, rfl⟩
abbrev main_v262 : Ref sig .tc := ⟨.hbm, 476, rfl⟩
abbrev main_c_55 : Ref sig .tc := ⟨.hbm, 477, rfl⟩
abbrev main_v263 : Ref sig .tc := ⟨.hbm, 478, rfl⟩
abbrev main_v264 : Ref sig .tc := ⟨.hbm, 479, rfl⟩
abbrev main_v265 : Ref sig .tc := ⟨.hbm, 480, rfl⟩
abbrev main_c_56 : Ref sig .tc := ⟨.hbm, 481, rfl⟩
abbrev main_v266 : Ref sig .tc := ⟨.hbm, 482, rfl⟩
abbrev main_v267 : Ref sig .tc := ⟨.hbm, 483, rfl⟩
abbrev main_c_57 : Ref sig .tc := ⟨.hbm, 484, rfl⟩
abbrev main_v268 : Ref sig .tc := ⟨.hbm, 485, rfl⟩
abbrev main_v269 : Ref sig .tc := ⟨.hbm, 486, rfl⟩
abbrev main_v270 : Ref sig .tc := ⟨.hbm, 487, rfl⟩
abbrev main_v271 : Ref sig .tc := ⟨.hbm, 488, rfl⟩
abbrev main_v272 : Ref sig .tc := ⟨.hbm, 489, rfl⟩
abbrev main_v273 : Ref sig .tc := ⟨.hbm, 490, rfl⟩
abbrev main_v274 : Ref sig .tc := ⟨.hbm, 491, rfl⟩
abbrev main_v275 : Ref sig .tc := ⟨.hbm, 492, rfl⟩
abbrev main_v276 : Ref sig .tc := ⟨.hbm, 493, rfl⟩
abbrev main_v277 : Ref sig .tc := ⟨.hbm, 494, rfl⟩
abbrev main_v278 : Ref sig .tc := ⟨.hbm, 495, rfl⟩
abbrev main_v279 : Ref sig .tc := ⟨.hbm, 496, rfl⟩
abbrev main_v280 : Ref sig .tc := ⟨.hbm, 497, rfl⟩
abbrev main_call13_cst : Ref sig .tc := ⟨.hbm, 498, rfl⟩
abbrev main_call13_v0 : Ref sig .tc := ⟨.hbm, 499, rfl⟩
abbrev main_call13_v1 : Ref sig .tc := ⟨.hbm, 500, rfl⟩
abbrev main_call13_cst_0 : Ref sig .tc := ⟨.hbm, 501, rfl⟩
abbrev main_call13_v2 : Ref sig .tc := ⟨.hbm, 502, rfl⟩
abbrev main_call13_v3 : Ref sig .tc := ⟨.hbm, 503, rfl⟩
abbrev main_call13_cst_1 : Ref sig .tc := ⟨.hbm, 504, rfl⟩
abbrev main_call13_call0_v0 : Ref sig .tc := ⟨.hbm, 505, rfl⟩
abbrev main_call13_call0_v1 : Ref sig .tc := ⟨.hbm, 506, rfl⟩
abbrev main_call13_v4 : Ref sig .tc := ⟨.hbm, 507, rfl⟩
abbrev main_call13_v5 : Ref sig .tc := ⟨.hbm, 508, rfl⟩
abbrev main_call13_cst_2 : Ref sig .tc := ⟨.hbm, 509, rfl⟩
abbrev main_call13_v6 : Ref sig .tc := ⟨.hbm, 510, rfl⟩
abbrev main_call13_v7 : Ref sig .tc := ⟨.hbm, 511, rfl⟩
abbrev main_v281 : Ref sig .tc := ⟨.hbm, 512, rfl⟩
abbrev main_v282 : Ref sig .tc := ⟨.hbm, 513, rfl⟩
abbrev main_v283 : Ref sig .tc := ⟨.hbm, 514, rfl⟩
abbrev main_v284 : Ref sig .tc := ⟨.hbm, 515, rfl⟩
abbrev main_v285 : Ref sig .tc := ⟨.hbm, 516, rfl⟩
abbrev main_cst_58 : Ref sig .tc := ⟨.hbm, 517, rfl⟩
abbrev main_v286 : Ref sig .tc := ⟨.hbm, 518, rfl⟩
abbrev main_v287 : Ref sig .tc := ⟨.hbm, 519, rfl⟩
abbrev main_call14_c : Ref sig .tc := ⟨.hbm, 520, rfl⟩
abbrev main_call14_v0 : Ref sig .tc := ⟨.hbm, 521, rfl⟩
abbrev main_call14_v1 : Ref sig .tc := ⟨.hbm, 522, rfl⟩
abbrev main_call14_c_0 : Ref sig .tc := ⟨.hbm, 523, rfl⟩
abbrev main_call14_v2 : Ref sig .tc := ⟨.hbm, 524, rfl⟩
abbrev main_call14_v3 : Ref sig .tc := ⟨.hbm, 525, rfl⟩
abbrev main_call14_v4 : Ref sig .tc := ⟨.hbm, 526, rfl⟩
abbrev main_call14_v5 : Ref sig .tc := ⟨.hbm, 527, rfl⟩
abbrev main_call14_c_1 : Ref sig .tc := ⟨.hbm, 528, rfl⟩
abbrev main_call14_c_2 : Ref sig .tc := ⟨.hbm, 529, rfl⟩
abbrev main_call14_v6 : Ref sig .tc := ⟨.hbm, 530, rfl⟩
abbrev main_call14_v7 : Ref sig .tc := ⟨.hbm, 531, rfl⟩
abbrev main_call14_v8 : Ref sig .tc := ⟨.hbm, 532, rfl⟩
abbrev main_call14_v9 : Ref sig .tc := ⟨.hbm, 533, rfl⟩
abbrev main_call14_v10 : Ref sig .tc := ⟨.hbm, 534, rfl⟩
abbrev main_call14_v11 : Ref sig .tc := ⟨.hbm, 535, rfl⟩
abbrev main_call14_c_3 : Ref sig .tc := ⟨.hbm, 536, rfl⟩
abbrev main_call14_v12 : Ref sig .tc := ⟨.hbm, 537, rfl⟩
abbrev main_call14_v13 : Ref sig .tc := ⟨.hbm, 538, rfl⟩
abbrev main_call14_cst : Ref sig .tc := ⟨.hbm, 539, rfl⟩
abbrev main_call14_v14 : Ref sig .tc := ⟨.hbm, 540, rfl⟩
abbrev main_v288 : Ref sig .tc := ⟨.hbm, 541, rfl⟩
abbrev main_v289 : Ref sig .tc := ⟨.hbm, 542, rfl⟩
abbrev main_v290 : Ref sig .tc := ⟨.hbm, 543, rfl⟩
abbrev main_cst_59 : Ref sig .tc := ⟨.hbm, 544, rfl⟩
abbrev main_v291 : Ref sig .tc := ⟨.hbm, 545, rfl⟩
abbrev main_v292 : Ref sig .tc := ⟨.hbm, 546, rfl⟩
abbrev main_v293 : Ref sig .tc := ⟨.hbm, 547, rfl⟩
abbrev main_v294 : Ref sig .tc := ⟨.hbm, 548, rfl⟩
abbrev main_cst_60 : Ref sig .tc := ⟨.hbm, 549, rfl⟩
abbrev main_v295 : Ref sig .tc := ⟨.hbm, 550, rfl⟩
abbrev main_v296 : Ref sig .tc := ⟨.hbm, 551, rfl⟩
abbrev main_cst_61 : Ref sig .tc := ⟨.hbm, 552, rfl⟩
abbrev main_v297 : Ref sig .tc := ⟨.hbm, 553, rfl⟩
abbrev main_v298 : Ref sig .tc := ⟨.hbm, 554, rfl⟩
abbrev main_v299 : Ref sig .tc := ⟨.hbm, 555, rfl⟩
abbrev main_v300 : Ref sig .tc := ⟨.hbm, 556, rfl⟩
abbrev main_v301 : Ref sig .tc := ⟨.hbm, 557, rfl⟩
abbrev main_cst_62 : Ref sig .tc := ⟨.hbm, 558, rfl⟩
abbrev main_v302 : Ref sig .tc := ⟨.hbm, 559, rfl⟩
abbrev main_v303 : Ref sig .tc := ⟨.hbm, 560, rfl⟩
abbrev main_c_63 : Ref sig .tc := ⟨.hbm, 561, rfl⟩
abbrev main_v304 : Ref sig .tc := ⟨.hbm, 562, rfl⟩
abbrev main_v305 : Ref sig .tc := ⟨.hbm, 563, rfl⟩
abbrev main_c_64 : Ref sig .tc := ⟨.hbm, 564, rfl⟩
abbrev main_v306 : Ref sig .tc := ⟨.hbm, 565, rfl⟩
abbrev main_v307 : Ref sig .tc := ⟨.hbm, 566, rfl⟩
abbrev main_c_65 : Ref sig .tc := ⟨.hbm, 567, rfl⟩
abbrev main_call15_v0 : Ref sig .tc := ⟨.hbm, 568, rfl⟩
abbrev main_call15_v1 : Ref sig .tc := ⟨.hbm, 569, rfl⟩
abbrev main_v308 : Ref sig .tc := ⟨.hbm, 570, rfl⟩
abbrev main_v309 : Ref sig .tc := ⟨.hbm, 571, rfl⟩
abbrev main_v310 : Ref sig .tc := ⟨.hbm, 572, rfl⟩
abbrev main_v311 : Ref sig .tc := ⟨.hbm, 573, rfl⟩
abbrev main_v312 : Ref sig .tc := ⟨.hbm, 574, rfl⟩
abbrev main_v313 : Ref sig .tc := ⟨.hbm, 575, rfl⟩
abbrev main_v314 : Ref sig .tc := ⟨.hbm, 576, rfl⟩
abbrev main_v315 : Ref sig .tc := ⟨.hbm, 577, rfl⟩
abbrev main_v316 : Ref sig .tc := ⟨.hbm, 578, rfl⟩
abbrev main_v317 : Ref sig .tc := ⟨.hbm, 579, rfl⟩
abbrev main_v318 : Ref sig .tc := ⟨.hbm, 580, rfl⟩
abbrev main_v319 : Ref sig .tc := ⟨.hbm, 581, rfl⟩
abbrev main_cst_66 : Ref sig .tc := ⟨.hbm, 582, rfl⟩
abbrev main_v320 : Ref sig .tc := ⟨.hbm, 583, rfl⟩
abbrev main_c_67 : Ref sig .tc := ⟨.hbm, 584, rfl⟩
abbrev main_v321 : Ref sig .tc := ⟨.hbm, 585, rfl⟩
abbrev main_v322 : Ref sig .tc := ⟨.hbm, 586, rfl⟩
abbrev main_c_68 : Ref sig .tc := ⟨.hbm, 587, rfl⟩
abbrev main_v323 : Ref sig .tc := ⟨.hbm, 588, rfl⟩
abbrev main_v324 : Ref sig .tc := ⟨.hbm, 589, rfl⟩
abbrev main_v325 : Ref sig .tc := ⟨.hbm, 590, rfl⟩
abbrev main_c_69 : Ref sig .tc := ⟨.hbm, 591, rfl⟩
abbrev main_v326 : Ref sig .tc := ⟨.hbm, 592, rfl⟩
abbrev main_v327 : Ref sig .tc := ⟨.hbm, 593, rfl⟩
abbrev main_c_70 : Ref sig .tc := ⟨.hbm, 594, rfl⟩
abbrev main_v328 : Ref sig .tc := ⟨.hbm, 595, rfl⟩
abbrev main_v329 : Ref sig .tc := ⟨.hbm, 596, rfl⟩
abbrev main_v330 : Ref sig .tc := ⟨.hbm, 597, rfl⟩
abbrev main_v331 : Ref sig .tc := ⟨.hbm, 598, rfl⟩
abbrev main_v332 : Ref sig .tc := ⟨.hbm, 599, rfl⟩
abbrev main_v333 : Ref sig .tc := ⟨.hbm, 600, rfl⟩
abbrev main_v334 : Ref sig .tc := ⟨.hbm, 601, rfl⟩
abbrev main_v335 : Ref sig .tc := ⟨.hbm, 602, rfl⟩
abbrev main_v336 : Ref sig .tc := ⟨.hbm, 603, rfl⟩
abbrev main_v337 : Ref sig .tc := ⟨.hbm, 604, rfl⟩
abbrev main_v338 : Ref sig .tc := ⟨.hbm, 605, rfl⟩
abbrev main_v339 : Ref sig .tc := ⟨.hbm, 606, rfl⟩
abbrev main_v340 : Ref sig .tc := ⟨.hbm, 607, rfl⟩
abbrev main_call16_cst : Ref sig .tc := ⟨.hbm, 608, rfl⟩
abbrev main_call16_v0 : Ref sig .tc := ⟨.hbm, 609, rfl⟩
abbrev main_call16_v1 : Ref sig .tc := ⟨.hbm, 610, rfl⟩
abbrev main_call16_cst_0 : Ref sig .tc := ⟨.hbm, 611, rfl⟩
abbrev main_call16_v2 : Ref sig .tc := ⟨.hbm, 612, rfl⟩
abbrev main_call16_v3 : Ref sig .tc := ⟨.hbm, 613, rfl⟩
abbrev main_call16_cst_1 : Ref sig .tc := ⟨.hbm, 614, rfl⟩
abbrev main_call16_call0_v0 : Ref sig .tc := ⟨.hbm, 615, rfl⟩
abbrev main_call16_call0_v1 : Ref sig .tc := ⟨.hbm, 616, rfl⟩
abbrev main_call16_v4 : Ref sig .tc := ⟨.hbm, 617, rfl⟩
abbrev main_call16_v5 : Ref sig .tc := ⟨.hbm, 618, rfl⟩
abbrev main_call16_cst_2 : Ref sig .tc := ⟨.hbm, 619, rfl⟩
abbrev main_call16_v6 : Ref sig .tc := ⟨.hbm, 620, rfl⟩
abbrev main_call16_v7 : Ref sig .tc := ⟨.hbm, 621, rfl⟩
abbrev main_v341 : Ref sig .tc := ⟨.hbm, 622, rfl⟩
abbrev main_v342 : Ref sig .tc := ⟨.hbm, 623, rfl⟩
abbrev main_v343 : Ref sig .tc := ⟨.hbm, 624, rfl⟩
abbrev main_v344 : Ref sig .tc := ⟨.hbm, 625, rfl⟩
abbrev main_v345 : Ref sig .tc := ⟨.hbm, 626, rfl⟩
abbrev main_cst_71 : Ref sig .tc := ⟨.hbm, 627, rfl⟩
abbrev main_v346 : Ref sig .tc := ⟨.hbm, 628, rfl⟩
abbrev main_v347 : Ref sig .tc := ⟨.hbm, 629, rfl⟩
abbrev main_call17_c : Ref sig .tc := ⟨.hbm, 630, rfl⟩
abbrev main_call17_v0 : Ref sig .tc := ⟨.hbm, 631, rfl⟩
abbrev main_call17_v1 : Ref sig .tc := ⟨.hbm, 632, rfl⟩
abbrev main_call17_c_0 : Ref sig .tc := ⟨.hbm, 633, rfl⟩
abbrev main_call17_v2 : Ref sig .tc := ⟨.hbm, 634, rfl⟩
abbrev main_call17_v3 : Ref sig .tc := ⟨.hbm, 635, rfl⟩
abbrev main_call17_v4 : Ref sig .tc := ⟨.hbm, 636, rfl⟩
abbrev main_call17_v5 : Ref sig .tc := ⟨.hbm, 637, rfl⟩
abbrev main_call17_c_1 : Ref sig .tc := ⟨.hbm, 638, rfl⟩
abbrev main_call17_c_2 : Ref sig .tc := ⟨.hbm, 639, rfl⟩
abbrev main_call17_v6 : Ref sig .tc := ⟨.hbm, 640, rfl⟩
abbrev main_call17_v7 : Ref sig .tc := ⟨.hbm, 641, rfl⟩
abbrev main_call17_v8 : Ref sig .tc := ⟨.hbm, 642, rfl⟩
abbrev main_call17_v9 : Ref sig .tc := ⟨.hbm, 643, rfl⟩
abbrev main_call17_v10 : Ref sig .tc := ⟨.hbm, 644, rfl⟩
abbrev main_call17_v11 : Ref sig .tc := ⟨.hbm, 645, rfl⟩
abbrev main_call17_c_3 : Ref sig .tc := ⟨.hbm, 646, rfl⟩
abbrev main_call17_v12 : Ref sig .tc := ⟨.hbm, 647, rfl⟩
abbrev main_call17_v13 : Ref sig .tc := ⟨.hbm, 648, rfl⟩
abbrev main_call17_cst : Ref sig .tc := ⟨.hbm, 649, rfl⟩
abbrev main_call17_v14 : Ref sig .tc := ⟨.hbm, 650, rfl⟩
abbrev main_v348 : Ref sig .tc := ⟨.hbm, 651, rfl⟩
abbrev main_v349 : Ref sig .tc := ⟨.hbm, 652, rfl⟩
abbrev main_v350 : Ref sig .tc := ⟨.hbm, 653, rfl⟩
abbrev main_cst_72 : Ref sig .tc := ⟨.hbm, 654, rfl⟩
abbrev main_v351 : Ref sig .tc := ⟨.hbm, 655, rfl⟩
abbrev main_v352 : Ref sig .tc := ⟨.hbm, 656, rfl⟩
abbrev main_v353 : Ref sig .tc := ⟨.hbm, 657, rfl⟩
abbrev main_v354 : Ref sig .tc := ⟨.hbm, 658, rfl⟩
abbrev main_cst_73 : Ref sig .tc := ⟨.hbm, 659, rfl⟩
abbrev main_v355 : Ref sig .tc := ⟨.hbm, 660, rfl⟩
abbrev main_v356 : Ref sig .tc := ⟨.hbm, 661, rfl⟩
abbrev main_cst_74 : Ref sig .tc := ⟨.hbm, 662, rfl⟩
abbrev main_v357 : Ref sig .tc := ⟨.hbm, 663, rfl⟩
abbrev main_v358 : Ref sig .tc := ⟨.hbm, 664, rfl⟩
abbrev main_v359 : Ref sig .tc := ⟨.hbm, 665, rfl⟩
abbrev main_v360 : Ref sig .tc := ⟨.hbm, 666, rfl⟩
abbrev main_v361 : Ref sig .tc := ⟨.hbm, 667, rfl⟩
abbrev main_cst_75 : Ref sig .tc := ⟨.hbm, 668, rfl⟩
abbrev main_v362 : Ref sig .tc := ⟨.hbm, 669, rfl⟩
abbrev main_v363 : Ref sig .tc := ⟨.hbm, 670, rfl⟩
abbrev main_c_76 : Ref sig .tc := ⟨.hbm, 671, rfl⟩
abbrev main_v364 : Ref sig .tc := ⟨.hbm, 672, rfl⟩
abbrev main_v365 : Ref sig .tc := ⟨.hbm, 673, rfl⟩
abbrev main_c_77 : Ref sig .tc := ⟨.hbm, 674, rfl⟩
abbrev main_v366 : Ref sig .tc := ⟨.hbm, 675, rfl⟩
abbrev main_v367 : Ref sig .tc := ⟨.hbm, 676, rfl⟩
abbrev main_c_78 : Ref sig .tc := ⟨.hbm, 677, rfl⟩
abbrev main_call18_v0 : Ref sig .tc := ⟨.hbm, 678, rfl⟩
abbrev main_call18_v1 : Ref sig .tc := ⟨.hbm, 679, rfl⟩
abbrev main_v368 : Ref sig .tc := ⟨.hbm, 680, rfl⟩
abbrev main_v369 : Ref sig .tc := ⟨.hbm, 681, rfl⟩
abbrev main_v370 : Ref sig .tc := ⟨.hbm, 682, rfl⟩
abbrev main_v371 : Ref sig .tc := ⟨.hbm, 683, rfl⟩
abbrev main_v372 : Ref sig .tc := ⟨.hbm, 684, rfl⟩
abbrev main_v373 : Ref sig .tc := ⟨.hbm, 685, rfl⟩
abbrev main_v374 : Ref sig .tc := ⟨.hbm, 686, rfl⟩
abbrev main_v375 : Ref sig .tc := ⟨.hbm, 687, rfl⟩
abbrev main_v376 : Ref sig .tc := ⟨.hbm, 688, rfl⟩
abbrev main_v377 : Ref sig .tc := ⟨.hbm, 689, rfl⟩
abbrev main_v378 : Ref sig .tc := ⟨.hbm, 690, rfl⟩
abbrev main_v379 : Ref sig .tc := ⟨.hbm, 691, rfl⟩
abbrev main_cst_79 : Ref sig .tc := ⟨.hbm, 692, rfl⟩
abbrev main_v380 : Ref sig .tc := ⟨.hbm, 693, rfl⟩
abbrev main_c_80 : Ref sig .tc := ⟨.hbm, 694, rfl⟩
abbrev main_v381 : Ref sig .tc := ⟨.hbm, 695, rfl⟩
abbrev main_v382 : Ref sig .tc := ⟨.hbm, 696, rfl⟩
abbrev main_c_81 : Ref sig .tc := ⟨.hbm, 697, rfl⟩
abbrev main_v383 : Ref sig .tc := ⟨.hbm, 698, rfl⟩
abbrev main_v384 : Ref sig .tc := ⟨.hbm, 699, rfl⟩
abbrev main_v385 : Ref sig .tc := ⟨.hbm, 700, rfl⟩
abbrev main_c_82 : Ref sig .tc := ⟨.hbm, 701, rfl⟩
abbrev main_v386 : Ref sig .tc := ⟨.hbm, 702, rfl⟩
abbrev main_v387 : Ref sig .tc := ⟨.hbm, 703, rfl⟩
abbrev main_c_83 : Ref sig .tc := ⟨.hbm, 704, rfl⟩
abbrev main_v388 : Ref sig .tc := ⟨.hbm, 705, rfl⟩
abbrev main_v389 : Ref sig .tc := ⟨.hbm, 706, rfl⟩
abbrev main_v390 : Ref sig .tc := ⟨.hbm, 707, rfl⟩
abbrev main_v391 : Ref sig .tc := ⟨.hbm, 708, rfl⟩
abbrev main_v392 : Ref sig .tc := ⟨.hbm, 709, rfl⟩
abbrev main_v393 : Ref sig .tc := ⟨.hbm, 710, rfl⟩
abbrev main_v394 : Ref sig .tc := ⟨.hbm, 711, rfl⟩
abbrev main_v395 : Ref sig .tc := ⟨.hbm, 712, rfl⟩
abbrev main_v396 : Ref sig .tc := ⟨.hbm, 713, rfl⟩
abbrev main_v397 : Ref sig .tc := ⟨.hbm, 714, rfl⟩
abbrev main_v398 : Ref sig .tc := ⟨.hbm, 715, rfl⟩
abbrev main_v399 : Ref sig .tc := ⟨.hbm, 716, rfl⟩
abbrev main_v400 : Ref sig .tc := ⟨.hbm, 717, rfl⟩
abbrev main_call19_cst : Ref sig .tc := ⟨.hbm, 718, rfl⟩
abbrev main_call19_v0 : Ref sig .tc := ⟨.hbm, 719, rfl⟩
abbrev main_call19_v1 : Ref sig .tc := ⟨.hbm, 720, rfl⟩
abbrev main_call19_cst_0 : Ref sig .tc := ⟨.hbm, 721, rfl⟩
abbrev main_call19_v2 : Ref sig .tc := ⟨.hbm, 722, rfl⟩
abbrev main_call19_v3 : Ref sig .tc := ⟨.hbm, 723, rfl⟩
abbrev main_call19_cst_1 : Ref sig .tc := ⟨.hbm, 724, rfl⟩
abbrev main_call19_call0_v0 : Ref sig .tc := ⟨.hbm, 725, rfl⟩
abbrev main_call19_call0_v1 : Ref sig .tc := ⟨.hbm, 726, rfl⟩
abbrev main_call19_v4 : Ref sig .tc := ⟨.hbm, 727, rfl⟩
abbrev main_call19_v5 : Ref sig .tc := ⟨.hbm, 728, rfl⟩
abbrev main_call19_cst_2 : Ref sig .tc := ⟨.hbm, 729, rfl⟩
abbrev main_call19_v6 : Ref sig .tc := ⟨.hbm, 730, rfl⟩
abbrev main_call19_v7 : Ref sig .tc := ⟨.hbm, 731, rfl⟩
abbrev main_v401 : Ref sig .tc := ⟨.hbm, 732, rfl⟩
abbrev main_v402 : Ref sig .tc := ⟨.hbm, 733, rfl⟩
abbrev main_v403 : Ref sig .tc := ⟨.hbm, 734, rfl⟩
abbrev main_v404 : Ref sig .tc := ⟨.hbm, 735, rfl⟩
abbrev main_v405 : Ref sig .tc := ⟨.hbm, 736, rfl⟩
abbrev main_cst_84 : Ref sig .tc := ⟨.hbm, 737, rfl⟩
abbrev main_v406 : Ref sig .tc := ⟨.hbm, 738, rfl⟩
abbrev main_v407 : Ref sig .tc := ⟨.hbm, 739, rfl⟩
abbrev main_call20_c : Ref sig .tc := ⟨.hbm, 740, rfl⟩
abbrev main_call20_v0 : Ref sig .tc := ⟨.hbm, 741, rfl⟩
abbrev main_call20_v1 : Ref sig .tc := ⟨.hbm, 742, rfl⟩
abbrev main_call20_c_0 : Ref sig .tc := ⟨.hbm, 743, rfl⟩
abbrev main_call20_v2 : Ref sig .tc := ⟨.hbm, 744, rfl⟩
abbrev main_call20_v3 : Ref sig .tc := ⟨.hbm, 745, rfl⟩
abbrev main_call20_v4 : Ref sig .tc := ⟨.hbm, 746, rfl⟩
abbrev main_call20_v5 : Ref sig .tc := ⟨.hbm, 747, rfl⟩
abbrev main_call20_c_1 : Ref sig .tc := ⟨.hbm, 748, rfl⟩
abbrev main_call20_c_2 : Ref sig .tc := ⟨.hbm, 749, rfl⟩
abbrev main_call20_v6 : Ref sig .tc := ⟨.hbm, 750, rfl⟩
abbrev main_call20_v7 : Ref sig .tc := ⟨.hbm, 751, rfl⟩
abbrev main_call20_v8 : Ref sig .tc := ⟨.hbm, 752, rfl⟩
abbrev main_call20_v9 : Ref sig .tc := ⟨.hbm, 753, rfl⟩
abbrev main_call20_v10 : Ref sig .tc := ⟨.hbm, 754, rfl⟩
abbrev main_call20_v11 : Ref sig .tc := ⟨.hbm, 755, rfl⟩
abbrev main_call20_c_3 : Ref sig .tc := ⟨.hbm, 756, rfl⟩
abbrev main_call20_v12 : Ref sig .tc := ⟨.hbm, 757, rfl⟩
abbrev main_call20_v13 : Ref sig .tc := ⟨.hbm, 758, rfl⟩
abbrev main_call20_cst : Ref sig .tc := ⟨.hbm, 759, rfl⟩
abbrev main_call20_v14 : Ref sig .tc := ⟨.hbm, 760, rfl⟩
abbrev main_v408 : Ref sig .tc := ⟨.hbm, 761, rfl⟩
abbrev main_v409 : Ref sig .tc := ⟨.hbm, 762, rfl⟩
abbrev main_v410 : Ref sig .tc := ⟨.hbm, 763, rfl⟩
abbrev main_cst_85 : Ref sig .tc := ⟨.hbm, 764, rfl⟩
abbrev main_v411 : Ref sig .tc := ⟨.hbm, 765, rfl⟩
abbrev main_v412 : Ref sig .tc := ⟨.hbm, 766, rfl⟩
abbrev main_v413 : Ref sig .tc := ⟨.hbm, 767, rfl⟩
abbrev main_v414 : Ref sig .tc := ⟨.hbm, 768, rfl⟩
abbrev main_cst_86 : Ref sig .tc := ⟨.hbm, 769, rfl⟩
abbrev main_v415 : Ref sig .tc := ⟨.hbm, 770, rfl⟩
abbrev main_v416 : Ref sig .tc := ⟨.hbm, 771, rfl⟩
abbrev main_cst_87 : Ref sig .tc := ⟨.hbm, 772, rfl⟩
abbrev main_v417 : Ref sig .tc := ⟨.hbm, 773, rfl⟩
abbrev main_v418 : Ref sig .tc := ⟨.hbm, 774, rfl⟩
abbrev main_v419 : Ref sig .tc := ⟨.hbm, 775, rfl⟩
abbrev main_v420 : Ref sig .tc := ⟨.hbm, 776, rfl⟩
abbrev main_v421 : Ref sig .tc := ⟨.hbm, 777, rfl⟩
abbrev main_cst_88 : Ref sig .tc := ⟨.hbm, 778, rfl⟩
abbrev main_v422 : Ref sig .tc := ⟨.hbm, 779, rfl⟩
abbrev main_v423 : Ref sig .tc := ⟨.hbm, 780, rfl⟩
abbrev main_c_89 : Ref sig .tc := ⟨.hbm, 781, rfl⟩
abbrev main_v424 : Ref sig .tc := ⟨.hbm, 782, rfl⟩
abbrev main_v425 : Ref sig .tc := ⟨.hbm, 783, rfl⟩
abbrev main_c_90 : Ref sig .tc := ⟨.hbm, 784, rfl⟩
abbrev main_v426 : Ref sig .tc := ⟨.hbm, 785, rfl⟩
abbrev main_v427 : Ref sig .tc := ⟨.hbm, 786, rfl⟩
abbrev main_c_91 : Ref sig .tc := ⟨.hbm, 787, rfl⟩
abbrev main_call21_v0 : Ref sig .tc := ⟨.hbm, 788, rfl⟩
abbrev main_call21_v1 : Ref sig .tc := ⟨.hbm, 789, rfl⟩
abbrev main_v428 : Ref sig .tc := ⟨.hbm, 790, rfl⟩
abbrev main_v429 : Ref sig .tc := ⟨.hbm, 791, rfl⟩
abbrev main_v430 : Ref sig .tc := ⟨.hbm, 792, rfl⟩
abbrev main_v431 : Ref sig .tc := ⟨.hbm, 793, rfl⟩
abbrev main_v432 : Ref sig .tc := ⟨.hbm, 794, rfl⟩
abbrev main_v433 : Ref sig .tc := ⟨.hbm, 795, rfl⟩
abbrev main_v434 : Ref sig .tc := ⟨.hbm, 796, rfl⟩
abbrev main_v435 : Ref sig .tc := ⟨.hbm, 797, rfl⟩
abbrev main_v436 : Ref sig .tc := ⟨.hbm, 798, rfl⟩
abbrev main_v437 : Ref sig .tc := ⟨.hbm, 799, rfl⟩
abbrev main_v438 : Ref sig .tc := ⟨.hbm, 800, rfl⟩
abbrev main_v439 : Ref sig .tc := ⟨.hbm, 801, rfl⟩
abbrev main_cst_92 : Ref sig .tc := ⟨.hbm, 802, rfl⟩
abbrev main_v440 : Ref sig .tc := ⟨.hbm, 803, rfl⟩
abbrev main_c_93 : Ref sig .tc := ⟨.hbm, 804, rfl⟩
abbrev main_v441 : Ref sig .tc := ⟨.hbm, 805, rfl⟩
abbrev main_v442 : Ref sig .tc := ⟨.hbm, 806, rfl⟩
abbrev main_c_94 : Ref sig .tc := ⟨.hbm, 807, rfl⟩
abbrev main_v443 : Ref sig .tc := ⟨.hbm, 808, rfl⟩
abbrev main_v444 : Ref sig .tc := ⟨.hbm, 809, rfl⟩
abbrev main_v445 : Ref sig .tc := ⟨.hbm, 810, rfl⟩
abbrev main_c_95 : Ref sig .tc := ⟨.hbm, 811, rfl⟩
abbrev main_v446 : Ref sig .tc := ⟨.hbm, 812, rfl⟩
abbrev main_v447 : Ref sig .tc := ⟨.hbm, 813, rfl⟩
abbrev main_c_96 : Ref sig .tc := ⟨.hbm, 814, rfl⟩
abbrev main_v448 : Ref sig .tc := ⟨.hbm, 815, rfl⟩
abbrev main_v449 : Ref sig .tc := ⟨.hbm, 816, rfl⟩
abbrev main_v450 : Ref sig .tc := ⟨.hbm, 817, rfl⟩
abbrev main_v451 : Ref sig .tc := ⟨.hbm, 818, rfl⟩
abbrev main_v452 : Ref sig .tc := ⟨.hbm, 819, rfl⟩
abbrev main_v453 : Ref sig .tc := ⟨.hbm, 820, rfl⟩
abbrev main_v454 : Ref sig .tc := ⟨.hbm, 821, rfl⟩
abbrev main_v455 : Ref sig .tc := ⟨.hbm, 822, rfl⟩
abbrev main_v456 : Ref sig .tc := ⟨.hbm, 823, rfl⟩
abbrev main_v457 : Ref sig .tc := ⟨.hbm, 824, rfl⟩
abbrev main_v458 : Ref sig .tc := ⟨.hbm, 825, rfl⟩
abbrev main_v459 : Ref sig .tc := ⟨.hbm, 826, rfl⟩
abbrev main_v460 : Ref sig .tc := ⟨.hbm, 827, rfl⟩
abbrev main_call22_cst : Ref sig .tc := ⟨.hbm, 828, rfl⟩
abbrev main_call22_v0 : Ref sig .tc := ⟨.hbm, 829, rfl⟩
abbrev main_call22_v1 : Ref sig .tc := ⟨.hbm, 830, rfl⟩
abbrev main_call22_cst_0 : Ref sig .tc := ⟨.hbm, 831, rfl⟩
abbrev main_call22_v2 : Ref sig .tc := ⟨.hbm, 832, rfl⟩
abbrev main_call22_v3 : Ref sig .tc := ⟨.hbm, 833, rfl⟩
abbrev main_call22_cst_1 : Ref sig .tc := ⟨.hbm, 834, rfl⟩
abbrev main_call22_call0_v0 : Ref sig .tc := ⟨.hbm, 835, rfl⟩
abbrev main_call22_call0_v1 : Ref sig .tc := ⟨.hbm, 836, rfl⟩
abbrev main_call22_v4 : Ref sig .tc := ⟨.hbm, 837, rfl⟩
abbrev main_call22_v5 : Ref sig .tc := ⟨.hbm, 838, rfl⟩
abbrev main_call22_cst_2 : Ref sig .tc := ⟨.hbm, 839, rfl⟩
abbrev main_call22_v6 : Ref sig .tc := ⟨.hbm, 840, rfl⟩
abbrev main_call22_v7 : Ref sig .tc := ⟨.hbm, 841, rfl⟩
abbrev main_v461 : Ref sig .tc := ⟨.hbm, 842, rfl⟩
abbrev main_v462 : Ref sig .tc := ⟨.hbm, 843, rfl⟩
abbrev main_v463 : Ref sig .tc := ⟨.hbm, 844, rfl⟩
abbrev main_v464 : Ref sig .tc := ⟨.hbm, 845, rfl⟩
abbrev main_v465 : Ref sig .tc := ⟨.hbm, 846, rfl⟩
abbrev main_cst_97 : Ref sig .tc := ⟨.hbm, 847, rfl⟩
abbrev main_v466 : Ref sig .tc := ⟨.hbm, 848, rfl⟩
abbrev main_v467 : Ref sig .tc := ⟨.hbm, 849, rfl⟩
abbrev main_call23_c : Ref sig .tc := ⟨.hbm, 850, rfl⟩
abbrev main_call23_v0 : Ref sig .tc := ⟨.hbm, 851, rfl⟩
abbrev main_call23_v1 : Ref sig .tc := ⟨.hbm, 852, rfl⟩
abbrev main_call23_c_0 : Ref sig .tc := ⟨.hbm, 853, rfl⟩
abbrev main_call23_v2 : Ref sig .tc := ⟨.hbm, 854, rfl⟩
abbrev main_call23_v3 : Ref sig .tc := ⟨.hbm, 855, rfl⟩
abbrev main_call23_v4 : Ref sig .tc := ⟨.hbm, 856, rfl⟩
abbrev main_call23_v5 : Ref sig .tc := ⟨.hbm, 857, rfl⟩
abbrev main_call23_c_1 : Ref sig .tc := ⟨.hbm, 858, rfl⟩
abbrev main_call23_c_2 : Ref sig .tc := ⟨.hbm, 859, rfl⟩
abbrev main_call23_v6 : Ref sig .tc := ⟨.hbm, 860, rfl⟩
abbrev main_call23_v7 : Ref sig .tc := ⟨.hbm, 861, rfl⟩
abbrev main_call23_v8 : Ref sig .tc := ⟨.hbm, 862, rfl⟩
abbrev main_call23_v9 : Ref sig .tc := ⟨.hbm, 863, rfl⟩
abbrev main_call23_v10 : Ref sig .tc := ⟨.hbm, 864, rfl⟩
abbrev main_call23_v11 : Ref sig .tc := ⟨.hbm, 865, rfl⟩
abbrev main_call23_c_3 : Ref sig .tc := ⟨.hbm, 866, rfl⟩
abbrev main_call23_v12 : Ref sig .tc := ⟨.hbm, 867, rfl⟩
abbrev main_call23_v13 : Ref sig .tc := ⟨.hbm, 868, rfl⟩
abbrev main_call23_cst : Ref sig .tc := ⟨.hbm, 869, rfl⟩
abbrev main_call23_v14 : Ref sig .tc := ⟨.hbm, 870, rfl⟩
abbrev main_v468 : Ref sig .tc := ⟨.hbm, 871, rfl⟩
abbrev main_v469 : Ref sig .tc := ⟨.hbm, 872, rfl⟩
abbrev main_v470 : Ref sig .tc := ⟨.hbm, 873, rfl⟩
abbrev main_cst_98 : Ref sig .tc := ⟨.hbm, 874, rfl⟩
abbrev main_v471 : Ref sig .tc := ⟨.hbm, 875, rfl⟩
abbrev main_v472 : Ref sig .tc := ⟨.hbm, 876, rfl⟩
abbrev main_v473 : Ref sig .tc := ⟨.hbm, 877, rfl⟩
abbrev main_v474 : Ref sig .tc := ⟨.hbm, 878, rfl⟩
abbrev main_cst_99 : Ref sig .tc := ⟨.hbm, 879, rfl⟩
abbrev main_v475 : Ref sig .tc := ⟨.hbm, 880, rfl⟩
abbrev main_v476 : Ref sig .tc := ⟨.hbm, 881, rfl⟩
abbrev main_cst_100 : Ref sig .tc := ⟨.hbm, 882, rfl⟩
abbrev main_v477 : Ref sig .tc := ⟨.hbm, 883, rfl⟩
abbrev main_v478 : Ref sig .tc := ⟨.hbm, 884, rfl⟩
abbrev main_v479 : Ref sig .tc := ⟨.hbm, 885, rfl⟩
abbrev main_v480 : Ref sig .tc := ⟨.hbm, 886, rfl⟩
abbrev main_v481 : Ref sig .tc := ⟨.hbm, 887, rfl⟩
abbrev main_cst_101 : Ref sig .tc := ⟨.hbm, 888, rfl⟩
abbrev main_v482 : Ref sig .tc := ⟨.hbm, 889, rfl⟩
abbrev main_v483 : Ref sig .tc := ⟨.hbm, 890, rfl⟩
abbrev main_c_102 : Ref sig .tc := ⟨.hbm, 891, rfl⟩
abbrev main_v484 : Ref sig .tc := ⟨.hbm, 892, rfl⟩
abbrev main_v485 : Ref sig .tc := ⟨.hbm, 893, rfl⟩
abbrev main_c_103 : Ref sig .tc := ⟨.hbm, 894, rfl⟩
abbrev main_v486 : Ref sig .tc := ⟨.hbm, 895, rfl⟩
abbrev main_v487 : Ref sig .tc := ⟨.hbm, 896, rfl⟩
abbrev main_c_104 : Ref sig .tc := ⟨.hbm, 897, rfl⟩
abbrev main_call24_v0 : Ref sig .tc := ⟨.hbm, 898, rfl⟩
abbrev main_call24_v1 : Ref sig .tc := ⟨.hbm, 899, rfl⟩
abbrev main_v488 : Ref sig .tc := ⟨.hbm, 900, rfl⟩
abbrev main_v489 : Ref sig .tc := ⟨.hbm, 901, rfl⟩
abbrev main_v490 : Ref sig .tc := ⟨.hbm, 902, rfl⟩
abbrev main_v491 : Ref sig .tc := ⟨.hbm, 903, rfl⟩
abbrev main_v492 : Ref sig .tc := ⟨.hbm, 904, rfl⟩
abbrev main_v493 : Ref sig .tc := ⟨.hbm, 905, rfl⟩
abbrev main_v494 : Ref sig .tc := ⟨.hbm, 906, rfl⟩
abbrev main_v495 : Ref sig .tc := ⟨.hbm, 907, rfl⟩
abbrev main_v496 : Ref sig .tc := ⟨.hbm, 908, rfl⟩
abbrev main_v497 : Ref sig .tc := ⟨.hbm, 909, rfl⟩
abbrev main_v498 : Ref sig .tc := ⟨.hbm, 910, rfl⟩
abbrev main_v499 : Ref sig .tc := ⟨.hbm, 911, rfl⟩
abbrev main_cst_105 : Ref sig .tc := ⟨.hbm, 912, rfl⟩
abbrev main_v500 : Ref sig .tc := ⟨.hbm, 913, rfl⟩
abbrev main_c_106 : Ref sig .tc := ⟨.hbm, 914, rfl⟩
abbrev main_v501 : Ref sig .tc := ⟨.hbm, 915, rfl⟩
abbrev main_v502 : Ref sig .tc := ⟨.hbm, 916, rfl⟩
abbrev main_c_107 : Ref sig .tc := ⟨.hbm, 917, rfl⟩
abbrev main_v503 : Ref sig .tc := ⟨.hbm, 918, rfl⟩
abbrev main_v504 : Ref sig .tc := ⟨.hbm, 919, rfl⟩
abbrev main_v505 : Ref sig .tc := ⟨.hbm, 920, rfl⟩
abbrev main_c_108 : Ref sig .tc := ⟨.hbm, 921, rfl⟩
abbrev main_v506 : Ref sig .tc := ⟨.hbm, 922, rfl⟩
abbrev main_v507 : Ref sig .tc := ⟨.hbm, 923, rfl⟩
abbrev main_c_109 : Ref sig .tc := ⟨.hbm, 924, rfl⟩
abbrev main_v508 : Ref sig .tc := ⟨.hbm, 925, rfl⟩
abbrev main_v509 : Ref sig .tc := ⟨.hbm, 926, rfl⟩
abbrev main_v510 : Ref sig .tc := ⟨.hbm, 927, rfl⟩
abbrev main_v511 : Ref sig .tc := ⟨.hbm, 928, rfl⟩
abbrev main_v512 : Ref sig .tc := ⟨.hbm, 929, rfl⟩
abbrev main_v513 : Ref sig .tc := ⟨.hbm, 930, rfl⟩
abbrev main_v514 : Ref sig .tc := ⟨.hbm, 931, rfl⟩
abbrev main_v515 : Ref sig .tc := ⟨.hbm, 932, rfl⟩
abbrev main_v516 : Ref sig .tc := ⟨.hbm, 933, rfl⟩
abbrev main_v517 : Ref sig .tc := ⟨.hbm, 934, rfl⟩
abbrev main_v518 : Ref sig .tc := ⟨.hbm, 935, rfl⟩
abbrev main_v519 : Ref sig .tc := ⟨.hbm, 936, rfl⟩
abbrev main_v520 : Ref sig .tc := ⟨.hbm, 937, rfl⟩
abbrev main_call25_cst : Ref sig .tc := ⟨.hbm, 938, rfl⟩
abbrev main_call25_v0 : Ref sig .tc := ⟨.hbm, 939, rfl⟩
abbrev main_call25_v1 : Ref sig .tc := ⟨.hbm, 940, rfl⟩
abbrev main_call25_cst_0 : Ref sig .tc := ⟨.hbm, 941, rfl⟩
abbrev main_call25_v2 : Ref sig .tc := ⟨.hbm, 942, rfl⟩
abbrev main_call25_v3 : Ref sig .tc := ⟨.hbm, 943, rfl⟩
abbrev main_call25_cst_1 : Ref sig .tc := ⟨.hbm, 944, rfl⟩
abbrev main_call25_call0_v0 : Ref sig .tc := ⟨.hbm, 945, rfl⟩
abbrev main_call25_call0_v1 : Ref sig .tc := ⟨.hbm, 946, rfl⟩
abbrev main_call25_v4 : Ref sig .tc := ⟨.hbm, 947, rfl⟩
abbrev main_call25_v5 : Ref sig .tc := ⟨.hbm, 948, rfl⟩
abbrev main_call25_cst_2 : Ref sig .tc := ⟨.hbm, 949, rfl⟩
abbrev main_call25_v6 : Ref sig .tc := ⟨.hbm, 950, rfl⟩
abbrev main_call25_v7 : Ref sig .tc := ⟨.hbm, 951, rfl⟩
abbrev main_v521 : Ref sig .tc := ⟨.hbm, 952, rfl⟩
abbrev main_v522 : Ref sig .tc := ⟨.hbm, 953, rfl⟩
abbrev main_v523 : Ref sig .tc := ⟨.hbm, 954, rfl⟩
abbrev main_v524 : Ref sig .tc := ⟨.hbm, 955, rfl⟩
abbrev main_v525 : Ref sig .tc := ⟨.hbm, 956, rfl⟩
abbrev main_cst_110 : Ref sig .tc := ⟨.hbm, 957, rfl⟩
abbrev main_v526 : Ref sig .tc := ⟨.hbm, 958, rfl⟩
abbrev main_v527 : Ref sig .tc := ⟨.hbm, 959, rfl⟩
abbrev main_call26_c : Ref sig .tc := ⟨.hbm, 960, rfl⟩
abbrev main_call26_v0 : Ref sig .tc := ⟨.hbm, 961, rfl⟩
abbrev main_call26_v1 : Ref sig .tc := ⟨.hbm, 962, rfl⟩
abbrev main_call26_c_0 : Ref sig .tc := ⟨.hbm, 963, rfl⟩
abbrev main_call26_v2 : Ref sig .tc := ⟨.hbm, 964, rfl⟩
abbrev main_call26_v3 : Ref sig .tc := ⟨.hbm, 965, rfl⟩
abbrev main_call26_v4 : Ref sig .tc := ⟨.hbm, 966, rfl⟩
abbrev main_call26_v5 : Ref sig .tc := ⟨.hbm, 967, rfl⟩
abbrev main_call26_c_1 : Ref sig .tc := ⟨.hbm, 968, rfl⟩
abbrev main_call26_c_2 : Ref sig .tc := ⟨.hbm, 969, rfl⟩
abbrev main_call26_v6 : Ref sig .tc := ⟨.hbm, 970, rfl⟩
abbrev main_call26_v7 : Ref sig .tc := ⟨.hbm, 971, rfl⟩
abbrev main_call26_v8 : Ref sig .tc := ⟨.hbm, 972, rfl⟩
abbrev main_call26_v9 : Ref sig .tc := ⟨.hbm, 973, rfl⟩
abbrev main_call26_v10 : Ref sig .tc := ⟨.hbm, 974, rfl⟩
abbrev main_call26_v11 : Ref sig .tc := ⟨.hbm, 975, rfl⟩
abbrev main_call26_c_3 : Ref sig .tc := ⟨.hbm, 976, rfl⟩
abbrev main_call26_v12 : Ref sig .tc := ⟨.hbm, 977, rfl⟩
abbrev main_call26_v13 : Ref sig .tc := ⟨.hbm, 978, rfl⟩
abbrev main_call26_cst : Ref sig .tc := ⟨.hbm, 979, rfl⟩
abbrev main_call26_v14 : Ref sig .tc := ⟨.hbm, 980, rfl⟩
abbrev main_v528 : Ref sig .tc := ⟨.hbm, 981, rfl⟩
abbrev main_v529 : Ref sig .tc := ⟨.hbm, 982, rfl⟩
abbrev main_v530 : Ref sig .tc := ⟨.hbm, 983, rfl⟩
abbrev main_cst_111 : Ref sig .tc := ⟨.hbm, 984, rfl⟩
abbrev main_v531 : Ref sig .tc := ⟨.hbm, 985, rfl⟩
abbrev main_v532 : Ref sig .tc := ⟨.hbm, 986, rfl⟩
abbrev main_v533 : Ref sig .tc := ⟨.hbm, 987, rfl⟩
abbrev main_v534 : Ref sig .tc := ⟨.hbm, 988, rfl⟩
abbrev main_cst_112 : Ref sig .tc := ⟨.hbm, 989, rfl⟩
abbrev main_v535 : Ref sig .tc := ⟨.hbm, 990, rfl⟩
abbrev main_v536 : Ref sig .tc := ⟨.hbm, 991, rfl⟩
abbrev main_cst_113 : Ref sig .tc := ⟨.hbm, 992, rfl⟩
abbrev main_v537 : Ref sig .tc := ⟨.hbm, 993, rfl⟩
abbrev main_v538 : Ref sig .tc := ⟨.hbm, 994, rfl⟩
abbrev main_v539 : Ref sig .tc := ⟨.hbm, 995, rfl⟩
abbrev main_v540 : Ref sig .tc := ⟨.hbm, 996, rfl⟩
abbrev main_v541 : Ref sig .tc := ⟨.hbm, 997, rfl⟩
abbrev main_cst_114 : Ref sig .tc := ⟨.hbm, 998, rfl⟩
abbrev main_v542 : Ref sig .tc := ⟨.hbm, 999, rfl⟩
abbrev main_v543 : Ref sig .tc := ⟨.hbm, 1000, rfl⟩
abbrev main_c_115 : Ref sig .tc := ⟨.hbm, 1001, rfl⟩
abbrev main_v544 : Ref sig .tc := ⟨.hbm, 1002, rfl⟩
abbrev main_v545 : Ref sig .tc := ⟨.hbm, 1003, rfl⟩
abbrev main_c_116 : Ref sig .tc := ⟨.hbm, 1004, rfl⟩
abbrev main_v546 : Ref sig .tc := ⟨.hbm, 1005, rfl⟩
abbrev main_v547 : Ref sig .tc := ⟨.hbm, 1006, rfl⟩
abbrev main_c_117 : Ref sig .tc := ⟨.hbm, 1007, rfl⟩
abbrev main_call27_v0 : Ref sig .tc := ⟨.hbm, 1008, rfl⟩
abbrev main_call27_v1 : Ref sig .tc := ⟨.hbm, 1009, rfl⟩
abbrev main_v548 : Ref sig .tc := ⟨.hbm, 1010, rfl⟩
abbrev main_v549 : Ref sig .tc := ⟨.hbm, 1011, rfl⟩
abbrev main_v550 : Ref sig .tc := ⟨.hbm, 1012, rfl⟩
abbrev main_v551 : Ref sig .tc := ⟨.hbm, 1013, rfl⟩
abbrev main_v552 : Ref sig .tc := ⟨.hbm, 1014, rfl⟩
abbrev main_v553 : Ref sig .tc := ⟨.hbm, 1015, rfl⟩
abbrev main_v554 : Ref sig .tc := ⟨.hbm, 1016, rfl⟩
abbrev main_v555 : Ref sig .tc := ⟨.hbm, 1017, rfl⟩
abbrev main_v556 : Ref sig .tc := ⟨.hbm, 1018, rfl⟩
abbrev main_v557 : Ref sig .tc := ⟨.hbm, 1019, rfl⟩
abbrev main_v558 : Ref sig .tc := ⟨.hbm, 1020, rfl⟩
abbrev main_v559 : Ref sig .tc := ⟨.hbm, 1021, rfl⟩
abbrev main_cst_118 : Ref sig .tc := ⟨.hbm, 1022, rfl⟩
abbrev main_v560 : Ref sig .tc := ⟨.hbm, 1023, rfl⟩
abbrev main_c_119 : Ref sig .tc := ⟨.hbm, 1024, rfl⟩
abbrev main_v561 : Ref sig .tc := ⟨.hbm, 1025, rfl⟩
abbrev main_v562 : Ref sig .tc := ⟨.hbm, 1026, rfl⟩
abbrev main_c_120 : Ref sig .tc := ⟨.hbm, 1027, rfl⟩
abbrev main_v563 : Ref sig .tc := ⟨.hbm, 1028, rfl⟩
abbrev main_v564 : Ref sig .tc := ⟨.hbm, 1029, rfl⟩
abbrev main_v565 : Ref sig .tc := ⟨.hbm, 1030, rfl⟩
abbrev main_c_121 : Ref sig .tc := ⟨.hbm, 1031, rfl⟩
abbrev main_v566 : Ref sig .tc := ⟨.hbm, 1032, rfl⟩
abbrev main_v567 : Ref sig .tc := ⟨.hbm, 1033, rfl⟩
abbrev main_c_122 : Ref sig .tc := ⟨.hbm, 1034, rfl⟩
abbrev main_v568 : Ref sig .tc := ⟨.hbm, 1035, rfl⟩
abbrev main_v569 : Ref sig .tc := ⟨.hbm, 1036, rfl⟩
abbrev main_v570 : Ref sig .tc := ⟨.hbm, 1037, rfl⟩
abbrev main_v571 : Ref sig .tc := ⟨.hbm, 1038, rfl⟩
abbrev main_v572 : Ref sig .tc := ⟨.hbm, 1039, rfl⟩
abbrev main_v573 : Ref sig .tc := ⟨.hbm, 1040, rfl⟩
abbrev main_v574 : Ref sig .tc := ⟨.hbm, 1041, rfl⟩
abbrev main_v575 : Ref sig .tc := ⟨.hbm, 1042, rfl⟩
abbrev main_v576 : Ref sig .tc := ⟨.hbm, 1043, rfl⟩
abbrev main_v577 : Ref sig .tc := ⟨.hbm, 1044, rfl⟩
abbrev main_v578 : Ref sig .tc := ⟨.hbm, 1045, rfl⟩
abbrev main_v579 : Ref sig .tc := ⟨.hbm, 1046, rfl⟩
abbrev main_v580 : Ref sig .tc := ⟨.hbm, 1047, rfl⟩
abbrev main_call28_cst : Ref sig .tc := ⟨.hbm, 1048, rfl⟩
abbrev main_call28_v0 : Ref sig .tc := ⟨.hbm, 1049, rfl⟩
abbrev main_call28_v1 : Ref sig .tc := ⟨.hbm, 1050, rfl⟩
abbrev main_call28_cst_0 : Ref sig .tc := ⟨.hbm, 1051, rfl⟩
abbrev main_call28_v2 : Ref sig .tc := ⟨.hbm, 1052, rfl⟩
abbrev main_call28_v3 : Ref sig .tc := ⟨.hbm, 1053, rfl⟩
abbrev main_call28_cst_1 : Ref sig .tc := ⟨.hbm, 1054, rfl⟩
abbrev main_call28_call0_v0 : Ref sig .tc := ⟨.hbm, 1055, rfl⟩
abbrev main_call28_call0_v1 : Ref sig .tc := ⟨.hbm, 1056, rfl⟩
abbrev main_call28_v4 : Ref sig .tc := ⟨.hbm, 1057, rfl⟩
abbrev main_call28_v5 : Ref sig .tc := ⟨.hbm, 1058, rfl⟩
abbrev main_call28_cst_2 : Ref sig .tc := ⟨.hbm, 1059, rfl⟩
abbrev main_call28_v6 : Ref sig .tc := ⟨.hbm, 1060, rfl⟩
abbrev main_call28_v7 : Ref sig .tc := ⟨.hbm, 1061, rfl⟩
abbrev main_v581 : Ref sig .tc := ⟨.hbm, 1062, rfl⟩
abbrev main_v582 : Ref sig .tc := ⟨.hbm, 1063, rfl⟩
abbrev main_v583 : Ref sig .tc := ⟨.hbm, 1064, rfl⟩
abbrev main_v584 : Ref sig .tc := ⟨.hbm, 1065, rfl⟩
abbrev main_v585 : Ref sig .tc := ⟨.hbm, 1066, rfl⟩
abbrev main_cst_123 : Ref sig .tc := ⟨.hbm, 1067, rfl⟩
abbrev main_v586 : Ref sig .tc := ⟨.hbm, 1068, rfl⟩
abbrev main_v587 : Ref sig .tc := ⟨.hbm, 1069, rfl⟩
abbrev main_call29_c : Ref sig .tc := ⟨.hbm, 1070, rfl⟩
abbrev main_call29_v0 : Ref sig .tc := ⟨.hbm, 1071, rfl⟩
abbrev main_call29_v1 : Ref sig .tc := ⟨.hbm, 1072, rfl⟩
abbrev main_call29_c_0 : Ref sig .tc := ⟨.hbm, 1073, rfl⟩
abbrev main_call29_v2 : Ref sig .tc := ⟨.hbm, 1074, rfl⟩
abbrev main_call29_v3 : Ref sig .tc := ⟨.hbm, 1075, rfl⟩
abbrev main_call29_v4 : Ref sig .tc := ⟨.hbm, 1076, rfl⟩
abbrev main_call29_v5 : Ref sig .tc := ⟨.hbm, 1077, rfl⟩
abbrev main_call29_c_1 : Ref sig .tc := ⟨.hbm, 1078, rfl⟩
abbrev main_call29_c_2 : Ref sig .tc := ⟨.hbm, 1079, rfl⟩
abbrev main_call29_v6 : Ref sig .tc := ⟨.hbm, 1080, rfl⟩
abbrev main_call29_v7 : Ref sig .tc := ⟨.hbm, 1081, rfl⟩
abbrev main_call29_v8 : Ref sig .tc := ⟨.hbm, 1082, rfl⟩
abbrev main_call29_v9 : Ref sig .tc := ⟨.hbm, 1083, rfl⟩
abbrev main_call29_v10 : Ref sig .tc := ⟨.hbm, 1084, rfl⟩
abbrev main_call29_v11 : Ref sig .tc := ⟨.hbm, 1085, rfl⟩
abbrev main_call29_c_3 : Ref sig .tc := ⟨.hbm, 1086, rfl⟩
abbrev main_call29_v12 : Ref sig .tc := ⟨.hbm, 1087, rfl⟩
abbrev main_call29_v13 : Ref sig .tc := ⟨.hbm, 1088, rfl⟩
abbrev main_call29_cst : Ref sig .tc := ⟨.hbm, 1089, rfl⟩
abbrev main_call29_v14 : Ref sig .tc := ⟨.hbm, 1090, rfl⟩
abbrev main_v588 : Ref sig .tc := ⟨.hbm, 1091, rfl⟩
abbrev main_v589 : Ref sig .tc := ⟨.hbm, 1092, rfl⟩
abbrev main_v590 : Ref sig .tc := ⟨.hbm, 1093, rfl⟩
abbrev main_cst_124 : Ref sig .tc := ⟨.hbm, 1094, rfl⟩
abbrev main_v591 : Ref sig .tc := ⟨.hbm, 1095, rfl⟩
abbrev main_v592 : Ref sig .tc := ⟨.hbm, 1096, rfl⟩
abbrev main_v593 : Ref sig .tc := ⟨.hbm, 1097, rfl⟩
abbrev main_v594 : Ref sig .tc := ⟨.hbm, 1098, rfl⟩
abbrev main_cst_125 : Ref sig .tc := ⟨.hbm, 1099, rfl⟩
abbrev main_v595 : Ref sig .tc := ⟨.hbm, 1100, rfl⟩
abbrev main_v596 : Ref sig .tc := ⟨.hbm, 1101, rfl⟩
abbrev main_cst_126 : Ref sig .tc := ⟨.hbm, 1102, rfl⟩
abbrev main_v597 : Ref sig .tc := ⟨.hbm, 1103, rfl⟩
abbrev main_v598 : Ref sig .tc := ⟨.hbm, 1104, rfl⟩
abbrev main_v599 : Ref sig .tc := ⟨.hbm, 1105, rfl⟩
abbrev main_v600 : Ref sig .tc := ⟨.hbm, 1106, rfl⟩
abbrev main_v601 : Ref sig .tc := ⟨.hbm, 1107, rfl⟩
abbrev main_cst_127 : Ref sig .tc := ⟨.hbm, 1108, rfl⟩
abbrev main_v602 : Ref sig .tc := ⟨.hbm, 1109, rfl⟩
abbrev main_v603 : Ref sig .tc := ⟨.hbm, 1110, rfl⟩
abbrev main_v604 : Ref sig .tc := ⟨.hbm, 1111, rfl⟩
abbrev main_cst_128 : Ref sig .tc := ⟨.hbm, 1112, rfl⟩
abbrev main_v605 : Ref sig .tc := ⟨.hbm, 1113, rfl⟩
abbrev main_v606 : Ref sig .tc := ⟨.hbm, 1114, rfl⟩

abbrev nD : Nat := 1
abbrev τ : Topo := Topo.v7x

variable {F : FTy → Type} [FloatOps F]

class Facts₀ : Prop where
  slices_S4096x125_S4096x64_0_0 : S4096x125.Slices ![0, 0] S4096x64
  slices_S4096x125_S4096x61_0_64 : S4096x125.Slices ![0, 64] S4096x61
  bcast_S_S4096x64 : S_.BroadcastsInDim S4096x64 (![] : Fin 0 → Fin S4096x64.rank)
  concatenates_S4096x64_S4096x64_S4096x128_d1 : Shape.Concatenates [S4096x64, S4096x64] S4096x128 1
  slices_S10x2000x64_S1x2000x64_0_0_0 : S10x2000x64.Slices ![0, 0, 0] S1x2000x64
  shapeCasts_S1x2000x64_S2000x64 : S1x2000x64.ShapeCasts S2000x64
  slices_S10x64_S1x64_0_0 : S10x64.Slices ![0, 0] S1x64
  shapeCasts_S1x64_S64 : S1x64.ShapeCasts S64
  slices_S10x64x4000_S1x64x4000_0_0_0 : S10x64x4000.Slices ![0, 0, 0] S1x64x4000
  shapeCasts_S1x64x4000_S64x4000 : S1x64x4000.ShapeCasts S64x4000
  slices_S10x4000_S1x4000_0_0 : S10x4000.Slices ![0, 0] S1x4000
  shapeCasts_S1x4000_S4000 : S1x4000.ShapeCasts S4000
  bcast_S4096_S4096x1_0 : S4096.BroadcastsInDim S4096x1 (![0] : Fin 1 → Fin S4096x1.rank)
  bcast_S_S4096x2001 : S_.BroadcastsInDim S4096x2001 (![] : Fin 0 → Fin S4096x2001.rank)
  bcast_S_S4096x1 : S_.BroadcastsInDim S4096x1 (![] : Fin 0 → Fin S4096x1.rank)
  bcast_S_S4096x61 : S_.BroadcastsInDim S4096x61 (![] : Fin 0 → Fin S4096x61.rank)
  bcast_S4096x1_S4096x61_0_1 : S4096x1.BroadcastsInDim S4096x61 (![0, 1] : Fin 2 → Fin S4096x61.rank)
  bcast_S4096x61_S4096x61x1_0_1 : S4096x61.BroadcastsInDim S4096x61x1 (![0, 1] : Fin 2 → Fin S4096x61x1.rank)
  concatenates_S4096x61x1_S4096x61x1_S4096x61x2_d2 : Shape.Concatenates [S4096x61x1, S4096x61x1] S4096x61x2 2
  slices_S4096x2001_S4096x2000_0_0 : S4096x2001.Slices ![0, 0] S4096x2000
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S4000_S1x4000_1 : S4000.BroadcastsInDim S1x4000 (![1] : Fin 1 → Fin S1x4000.rank)
  bcast_S1x4000_S4096x4000_0_1 : S1x4000.BroadcastsInDim S4096x4000 (![0, 1] : Fin 2 → Fin S4096x4000.rank)
  concatenates_S4096x4000_S4096x1_S4096x4001_d1 : Shape.Concatenates [S4096x4000, S4096x1] S4096x4001 1
  bcast_S_S4096x128 : S_.BroadcastsInDim S4096x128 (![] : Fin 0 → Fin S4096x128.rank)
  shapeCasts_S4096x128_S4096x128x1 : S4096x128.ShapeCasts S4096x128x1
  bcast_S_S4096x128x1 : S_.BroadcastsInDim S4096x128x1 (![] : Fin 0 → Fin S4096x128x1.rank)
  bcast_S1_S1x1x1_2 : S1.BroadcastsInDim S1x1x1 (![2] : Fin 1 → Fin S1x1x1.rank)
  bcast_S1x1x1_S4096x128x1_0_1_2 : S1x1x1.BroadcastsInDim S4096x128x1 (![0, 1, 2] : Fin 3 → Fin S4096x128x1.rank)
  reducesTo_S4096x128x1_S4096x128_d2 : S4096x128x1.ReducesTo [2] S4096x128
  h_S_ : 0 < S_.numel
  slices_S4096x128_S4096x64_0_0 : S4096x128.Slices ![0, 0] S4096x64
  slices_S4096x128_S4096x64_0_64 : S4096x128.Slices ![0, 64] S4096x64
  reducesTo_S4096x64_S4096_d1 : S4096x64.ReducesTo [1] S4096
  concatenates_S4096x61_S4096x61_S4096x122_d1 : Shape.Concatenates [S4096x61, S4096x61] S4096x122 1
  slices_S10x2000x64_S1x2000x64_1_0_0 : S10x2000x64.Slices ![1, 0, 0] S1x2000x64
  slices_S10x64_S1x64_1_0 : S10x64.Slices ![1, 0] S1x64
  slices_S10x64x4000_S1x64x4000_1_0_0 : S10x64x4000.Slices ![1, 0, 0] S1x64x4000
  slices_S10x4000_S1x4000_1_0 : S10x4000.Slices ![1, 0] S1x4000
  bcast_S4096x1_S4096x64_0_1 : S4096x1.BroadcastsInDim S4096x64 (![0, 1] : Fin 2 → Fin S4096x64.rank)
  bcast_S4096x64_S4096x64x1_0_1 : S4096x64.BroadcastsInDim S4096x64x1 (![0, 1] : Fin 2 → Fin S4096x64x1.rank)
  concatenates_S4096x64x1_S4096x64x1_S4096x64x2_d2 : Shape.Concatenates [S4096x64x1, S4096x64x1] S4096x64x2 2
  bcast_S_S4096x122 : S_.BroadcastsInDim S4096x122 (![] : Fin 0 → Fin S4096x122.rank)
  shapeCasts_S4096x122_S4096x122x1 : S4096x122.ShapeCasts S4096x122x1
  bcast_S_S4096x122x1 : S_.BroadcastsInDim S4096x122x1 (![] : Fin 0 → Fin S4096x122x1.rank)
  bcast_S1x1x1_S4096x122x1_0_1_2 : S1x1x1.BroadcastsInDim S4096x122x1 (![0, 1, 2] : Fin 3 → Fin S4096x122x1.rank)
  reducesTo_S4096x122x1_S4096x122_d2 : S4096x122x1.ReducesTo [2] S4096x122
  slices_S4096x122_S4096x61_0_0 : S4096x122.Slices ![0, 0] S4096x61
  slices_S4096x122_S4096x61_0_61 : S4096x122.Slices ![0, 61] S4096x61
  reducesTo_S4096x61_S4096_d1 : S4096x61.ReducesTo [1] S4096
  slices_S10x2000x64_S1x2000x64_2_0_0 : S10x2000x64.Slices ![2, 0, 0] S1x2000x64
  slices_S10x64_S1x64_2_0 : S10x64.Slices ![2, 0] S1x64
  slices_S10x64x4000_S1x64x4000_2_0_0 : S10x64x4000.Slices ![2, 0, 0] S1x64x4000
  slices_S10x4000_S1x4000_2_0 : S10x4000.Slices ![2, 0] S1x4000
  slices_S10x2000x64_S1x2000x64_3_0_0 : S10x2000x64.Slices ![3, 0, 0] S1x2000x64
  slices_S10x64_S1x64_3_0 : S10x64.Slices ![3, 0] S1x64
  slices_S10x64x4000_S1x64x4000_3_0_0 : S10x64x4000.Slices ![3, 0, 0] S1x64x4000
  slices_S10x4000_S1x4000_3_0 : S10x4000.Slices ![3, 0] S1x4000
  slices_S10x2000x64_S1x2000x64_4_0_0 : S10x2000x64.Slices ![4, 0, 0] S1x2000x64
  slices_S10x64_S1x64_4_0 : S10x64.Slices ![4, 0] S1x64
  slices_S10x64x4000_S1x64x4000_4_0_0 : S10x64x4000.Slices ![4, 0, 0] S1x64x4000
  slices_S10x4000_S1x4000_4_0 : S10x4000.Slices ![4, 0] S1x4000
  slices_S10x2000x64_S1x2000x64_5_0_0 : S10x2000x64.Slices ![5, 0, 0] S1x2000x64
  slices_S10x64_S1x64_5_0 : S10x64.Slices ![5, 0] S1x64
  slices_S10x64x4000_S1x64x4000_5_0_0 : S10x64x4000.Slices ![5, 0, 0] S1x64x4000
  slices_S10x4000_S1x4000_5_0 : S10x4000.Slices ![5, 0] S1x4000
  slices_S10x2000x64_S1x2000x64_6_0_0 : S10x2000x64.Slices ![6, 0, 0] S1x2000x64
  slices_S10x64_S1x64_6_0 : S10x64.Slices ![6, 0] S1x64
  slices_S10x64x4000_S1x64x4000_6_0_0 : S10x64x4000.Slices ![6, 0, 0] S1x64x4000
  slices_S10x4000_S1x4000_6_0 : S10x4000.Slices ![6, 0] S1x4000
  slices_S10x2000x64_S1x2000x64_7_0_0 : S10x2000x64.Slices ![7, 0, 0] S1x2000x64
  slices_S10x64_S1x64_7_0 : S10x64.Slices ![7, 0] S1x64
  slices_S10x64x4000_S1x64x4000_7_0_0 : S10x64x4000.Slices ![7, 0, 0] S1x64x4000
  slices_S10x4000_S1x4000_7_0 : S10x4000.Slices ![7, 0] S1x4000
  slices_S10x2000x64_S1x2000x64_8_0_0 : S10x2000x64.Slices ![8, 0, 0] S1x2000x64
  slices_S10x64_S1x64_8_0 : S10x64.Slices ![8, 0] S1x64
  slices_S10x64x4000_S1x64x4000_8_0_0 : S10x64x4000.Slices ![8, 0, 0] S1x64x4000
  slices_S10x4000_S1x4000_8_0 : S10x4000.Slices ![8, 0] S1x4000
  slices_S10x2000x64_S1x2000x64_9_0_0 : S10x2000x64.Slices ![9, 0, 0] S1x2000x64
  slices_S10x64_S1x64_9_0 : S10x64.Slices ![9, 0] S1x64
  slices_S10x64x4000_S1x64x4000_9_0_0 : S10x64x4000.Slices ![9, 0, 0] S1x64x4000
  slices_S10x4000_S1x4000_9_0 : S10x4000.Slices ![9, 0] S1x4000
  concatenates_S4096x64_S4096x61_S4096x125_d1 : Shape.Concatenates [S4096x64, S4096x61] S4096x125 1
  bcast_S_S4096x125 : S_.BroadcastsInDim S4096x125 (![] : Fin 0 → Fin S4096x125.rank)
  scatter_S4096x2001_S4096x61x2_S4096x61_n_01_01_2_wf : ScatterDims.WF S4096x2001 S4096x61x2 S4096x61 [] [0, 1] [0, 1] 2
  dot_S4096x2000_S2000x64_S4096x64_1_0_0_1_n_n_wf : DotDims.WF S4096x2000 S2000x64 S4096x64 [1] [0] [0] [1] [] []
  dot_S4096x64_S64x4000_S4096x4000_1_0_0_1_n_n_wf : DotDims.WF S4096x64 S64x4000 S4096x4000 [1] [0] [0] [1] [] []
  gather_S4096x4001_S4096x128x1_S4096x128_n_1_0_0_1_2_11_wf : GatherDims.WF S4096x4001 S4096x128x1 S4096x128 [] [1] [0] [1] [0] 2 ![1, 1]
  scatter_S4096x2001_S4096x64x2_S4096x64_n_01_01_2_wf : ScatterDims.WF S4096x2001 S4096x64x2 S4096x64 [] [0, 1] [0, 1] 2
  gather_S4096x4001_S4096x122x1_S4096x122_n_1_0_0_1_2_11_wf : GatherDims.WF S4096x4001 S4096x122x1 S4096x122 [] [1] [0] [1] [0] 2 ![1, 1]

variable [Facts₀]

def scatter_S4096x2001_S4096x61x2_S4096x61_n_01_01_2 : ScatterDims S4096x2001 S4096x61x2 S4096x61 where
  updateWindowDims := []
  insertedWindowDims := [0, 1]
  scatterDimsToOperandDims := [0, 1]
  indexVectorDim := 2
  wf := scatter_S4096x2001_S4096x61x2_S4096x61_n_01_01_2_wf
def dot_S4096x2000_S2000x64_S4096x64_1_0_0_1_n_n : DotDims S4096x2000 S2000x64 S4096x64 where
  lhsContracting := [1]
  rhsContracting := [0]
  lhsNonContracting := [0]
  rhsNonContracting := [1]
  lhsBatch := []
  rhsBatch := []
  wf := dot_S4096x2000_S2000x64_S4096x64_1_0_0_1_n_n_wf
def dot_S4096x64_S64x4000_S4096x4000_1_0_0_1_n_n : DotDims S4096x64 S64x4000 S4096x4000 where
  lhsContracting := [1]
  rhsContracting := [0]
  lhsNonContracting := [0]
  rhsNonContracting := [1]
  lhsBatch := []
  rhsBatch := []
  wf := dot_S4096x64_S64x4000_S4096x4000_1_0_0_1_n_n_wf
def gather_S4096x4001_S4096x128x1_S4096x128_n_1_0_0_1_2_11 : GatherDims S4096x4001 S4096x128x1 S4096x128 where
  offsetDims := []
  collapsedSliceDims := [1]
  operandBatchingDims := [0]
  startIndicesBatchingDims := [0]
  startIndexMap := [1]
  indexVectorDim := 2
  sliceSizes := ![1, 1]
  wf := gather_S4096x4001_S4096x128x1_S4096x128_n_1_0_0_1_2_11_wf
def scatter_S4096x2001_S4096x64x2_S4096x64_n_01_01_2 : ScatterDims S4096x2001 S4096x64x2 S4096x64 where
  updateWindowDims := []
  insertedWindowDims := [0, 1]
  scatterDimsToOperandDims := [0, 1]
  indexVectorDim := 2
  wf := scatter_S4096x2001_S4096x64x2_S4096x64_n_01_01_2_wf
def gather_S4096x4001_S4096x122x1_S4096x122_n_1_0_0_1_2_11 : GatherDims S4096x4001 S4096x122x1 S4096x122 where
  offsetDims := []
  collapsedSliceDims := [1]
  operandBatchingDims := [0]
  startIndicesBatchingDims := [0]
  startIndexMap := [1]
  indexVectorDim := 2
  sliceSizes := ![1, 1]
  wf := gather_S4096x4001_S4096x122x1_S4096x122_n_1_0_0_1_2_11_wf

class Facts : Prop extends Facts₀ where

variable [Facts]
-- ==== Proof.KRun.lean ====
/-
  The idealized kernel's run with its results named. Every weakly fair execution of the kernel program
  terminates without a fault; in the final state the two result buffers hold what the fold of the program's
  segments leaves there — the host stretches applied in order, each kernel region replacing its arrays by what
  its grid of block write-backs leaves — and the seven argument arrays are as launched. The fold is the one
  the frame of this program is stated over; here its value at the result buffers is kept in the post.
-/
import proofs.«140670_j11424613007642_1_alg».proof.Proof.KernelIdealFrameP

set_option maxRecDepth 16384

noncomputable section

namespace Cert.KernelIdeal.KRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every weakly fair execution terminates, nothing faulting; the results end at the fold's value and the
    arguments as launched. -/
theorem run_values : θ_run defs (onTc (τ := τ) (main (F := F))) ⟨m, fun _ => 0, ρ⟩ (fun r => ∀ c : Dev nD,
      r.2.mem ((c.tc : Thread nD τ).loc main_v546) = W61 m ρ c (Proc.devRef .tc main_v546)
      ∧ r.2.mem ((c.tc : Thread nD τ).loc main_v543) = W61 m ρ c (Proc.devRef .tc main_v543)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W61 m ρ c b)
    (hfin := fun c s' => by
      iintro ⟨⟨Hh, -⟩, HSI⟩
      unfold StableHlo.held
      imodintro
      iapply (pointsTo_read_all (Pipeline.ucRefs τ sig) (fun b => (((c : Thread nD τ)).1, b)) (W61 m ρ c) s')
      isplitl [Hh] <;> iassumption)
    (hQ := fun s h c =>
      ⟨h c _ (mem_uc main_v546 (by decide)), h c _ (mem_uc main_v543 (by decide)),
       (h c _ (mem_uc main_arg0 (by decide))).trans (W61_main_arg0 m ρ c),
       (h c _ (mem_uc main_arg1 (by decide))).trans (W61_main_arg1 m ρ c),
       (h c _ (mem_uc main_arg2 (by decide))).trans (W61_main_arg2 m ρ c),
       (h c _ (mem_uc main_arg3 (by decide))).trans (W61_main_arg3 m ρ c),
       (h c _ (mem_uc main_arg4 (by decide))).trans (W61_main_arg4 m ρ c),
       (h c _ (mem_uc main_arg5 (by decide))).trans (W61_main_arg5 m ρ c),
       (h c _ (mem_uc main_arg6 (by decide))).trans (W61_main_arg6 m ρ c)⟩)

end Cert.KernelIdeal.KRun

end
-- ==== Proof.RefRun.lean ====
/- The reference program's @main read as ONE straight line of host operations: its windows in order, each
   outlined function's operations written in its call's place over that call's record of buffers. The line is
   stated as eleven consecutive segments, the first ten ending at the operation that writes a layer's sum of
   the second product and its bias, each segment a concatenation of shorter literal lists. @main is `seq` of
   the line, so from any memory with zero counters every weakly fair execution of @main terminates with every
   buffer at the fold (`after`) of the line's operations over the launch contents; and the line writes none of
   @main's seven arguments, so each holds at the end what it held at the launch. -/
import proofs.«140670_j11424613007642_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## What is used of lines of operations -/

/-- The fold over a concatenation is the fold over the second line from the fold over the first. -/
theorem after_append_line : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append_line l₁ l₂]

/-- @main's seven arguments. -/
abbrev argRefs : List (Ref sig .tc) := [main_arg0, main_arg1, main_arg2, main_arg3, main_arg4, main_arg5, main_arg6]

/-- A line of operations leaves each argument's buffer as it found it. -/
def KeepsArgs (l : List (HloOp τ sig (Elt F))) : Prop :=
  ∀ r ∈ argRefs, ∀ V : Valuation τ sig (Elt F), after l V (Proc.devRef .tc r) = V (Proc.devRef .tc r)

/-- Two lines that each leave the arguments alone do so one after the other. -/
theorem KeepsArgs.append {l₁ l₂ : List (HloOp τ sig (Elt F))} (h₁ : KeepsArgs l₁) (h₂ : KeepsArgs l₂) :
    KeepsArgs (l₁ ++ l₂) :=
  fun r hr V => by rw [after_append_line, h₂ r hr, h₁ r hr]

/-- A line all of whose operations write inside a list of references that holds no argument leaves the
    arguments alone (`after_of_writes_sub`). -/
theorem keepsArgs_of_writes {l : List (HloOp τ sig (Elt F))} {W : List (Ref sig .tc)}
    (hW : l.Forall fun op => op.writes ⊆ (W.map (Proc.devRef (τ := τ) .tc)).toFinset)
    (hA : ∀ r ∈ argRefs, r ∉ W) : KeepsArgs l :=
  fun r hr V => after_of_writes_sub l V hW (hA r hr)

/-- The one buffer an operation writes is inside a list that holds its reference. -/
theorem writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-! ## The operations, in order -/

set_option maxHeartbeats 40000000 in
/-- Operations 1 … 40 of 1108 (segment 0, window 0 of @main). -/
abbrev rseg0_a : List (HloOp τ sig (Elt F)) :=
  [ StableHlo.unary main_arg0 main_v0 ((extractStridedSlice S4096x64 ![0, 0] · slices_S4096x125_S4096x64_0_0) : (⟨S4096x125, .f32⟩ : BufTy).Contents (Elt F) → (⟨S4096x64, .f32⟩ : BufTy).Contents (Elt F)),
    StableHlo.unary main_arg0 main_v1 ((extractStridedSlice S4096x61 ![0, 64] · slices_S4096x125_S4096x61_0_64) : (⟨S4096x125, .f32⟩ : BufTy).Contents (Elt F) → (⟨S4096x61, .f32⟩ : BufTy).Contents (Elt F)),
    StableHlo.unary main_arg6 main_v2 ((extractStridedSlice S4096x64 ![0, 0] · slices_S4096x125_S4096x64_0_0) : (⟨S4096x125, .i32⟩ : BufTy).Contents (Elt F) → (⟨S4096x64, .i32⟩ : BufTy).Contents (Elt F)),
    StableHlo.unary main_arg6 main_v3 ((extractStridedSlice S4096x61 ![0, 64] · slices_S4096x125_S4096x61_0_64) : (⟨S4096x125, .i32⟩ : BufTy).Contents (Elt F) → (⟨S4096x61, .i32⟩ : BufTy).Contents (Elt F)),
    StableHlo.nullary main_c (constantI S_ 32 2000#32),
    StableHlo.unary main_c main_v4 (broadcastInDim S4096x64 ![] bcast_S_S4096x64 : (⟨S_, .i32⟩ : BufTy).Contents (Elt F) → (⟨S4096x64, .i32⟩ : BufTy).Contents (Elt F)),
    StableHlo.binary main_v2 main_v4 main_v5 (cmpi .eq : (⟨S4096x64, .i32⟩ : BufTy).Contents (Elt F) → (⟨S4096x64, .i32⟩ : BufTy).Contents (Elt F) → (⟨S4096x64, .i1⟩ : BufTy).Contents (Elt F)),
    StableHlo.nullary main_c_0 (constantI S_ 32 2000#32),
    StableHlo.unary main_c_0 main_v6 (broadcastInDim S4096x64 ![] bcast_S_S4096x64 : (⟨S_, .i32⟩ : BufTy).Contents (Elt F) → (⟨S4096x64, .i32⟩ : BufTy).Contents (Elt F)),
    StableHlo.binary main_v2 main_v6 main_v7 (addi : (⟨S4096x64, .i32⟩ : BufTy).Contents (Elt F) → (⟨S4096x64, .i32⟩ : BufTy).Contents (Elt F) → (⟨S4096x64, .i32⟩ : BufTy).Contents (Elt F)),
    StableHlo.nullary main_c_1 (constantI S_ 32 4000#32),
    StableHlo.TRef.unary (.of main_c_1 : StableHlo.TRef sig ⟨S_, .i32⟩) main_call0.v0 id,
    StableHlo.TRef.unary main_call0.v0 main_call0.v1 (broadcastInDim S4096x64 ![] bcast_S_S4096x64),
    StableHlo.TRef.ternary (.of main_v5 : StableHlo.TRef sig ⟨S4096x64, .i1⟩) main_call0.v1 (.of main_v7 : StableHlo.TRef sig ⟨S4096x64, .i32⟩) main_call0.v2 select,
    StableHlo.binary main_v2 main_v8 main_v9 ((fun a b => concatenate S4096x128 1 [⟨S4096x64, a⟩, ⟨S4096x64, b⟩] concatenates_S4096x64_S4096x64_S4096x128_d1) : (⟨S4096x64, .i32⟩ : BufTy).Contents (Elt F) → (⟨S4096x64, .i32⟩ : BufTy).Contents (Elt F) → (⟨S4096x128, .i32⟩ : BufTy).Contents (Elt F)),
    StableHlo.unary main_arg2 main_v10 ((extractStridedSlice S1x2000x64 ![0, 0, 0] · slices_S10x2000x64_S1x2000x64_0_0_0) : (⟨S10x2000x64, .f32⟩ : BufTy).Contents (Elt F) → (⟨S1x2000x64, .f32⟩ : BufTy).Contents (Elt F)),
    StableHlo.reshape main_v10 main_v11 rfl shapeCasts_S1x2000x64_S2000x64,
    StableHlo.unary main_arg3 main_v12 ((extractStridedSlice S1x64 ![0, 0] · slices_S10x64_S1x64_0_0) : (⟨S10x64, .f32⟩ : BufTy).Contents (Elt F) → (⟨S1x64, .f32⟩ : BufTy).Contents (Elt F)),
    StableHlo.reshape main_v12 main_v13 rfl shapeCasts_S1x64_S64,
    StableHlo.unary main_arg4 main_v14 ((extractStridedSlice S1x64x4000 ![0, 0, 0] · slices_S10x64x4000_S1x64x4000_0_0_0) : (⟨S10x64x4000, .f32⟩ : BufTy).Contents (Elt F) → (⟨S1x64x4000, .f32⟩ : BufTy).Contents (Elt F)),
    StableHlo.reshape main_v14 main_v15 rfl shapeCasts_S1x64x4000_S64x4000,
    StableHlo.unary main_arg5 main_v16 ((extractStridedSlice S1x4000 ![0, 0] · slices_S10x4000_S1x4000_0_0) : (⟨S10x4000, .f32⟩ : BufTy).Contents (Elt F) → (⟨S1x4000, .f32⟩ : BufTy).Contents (Elt F)),
    StableHlo.reshape main_v16 main_v17 rfl shapeCasts_S1x4000_S4000,
    StableHlo.nullary main_v18 (iotaInDim S4096 32 0),
    StableHlo.unary main_v18 main_v19 (broadcastInDim S4096x1 ![0] bcast_S4096_S4096x1_0 : (⟨S4096, .i32⟩ : BufTy).Contents (Elt F) → (⟨S4096x1, .i32⟩ : BufTy).Contents (Elt F)),
    StableHlo.nullary main_cst (constant S_ .f32 0x00000000#32),
    StableHlo.unary main_cst main_v20 (broadcastInDim S4096x2001 ![] bcast_S_S4096x2001 : (⟨S_, .f32⟩ : BufTy).Contents (Elt F) → (⟨S4096x2001, .f32⟩ : BufTy).Contents (Elt F)),
    StableHlo.nullary main_c_2 (constantI S_ 32 0#32),
    StableHlo.unary main_c_2 main_v21 (broadcastInDim S4096x1 ![] bcast_S_S4096x1 : (⟨S_, .i32⟩ : BufTy).Contents (Elt F) → (⟨S4096x1, .i32⟩ : BufTy).Contents (Elt F)),
    StableHlo.binary main_v19 main_v21 main_v22 (cmpi .slt : (⟨S4096x1, .i32⟩ : BufTy).Contents (Elt F) → (⟨S4096x1, .i32⟩ : BufTy).Contents (Elt F) → (⟨S4096x1, .i1⟩ : BufTy).Contents (Elt F)),
    StableHlo.nullary main_c_3 (constantI S_ 32 4096#32),
    StableHlo.unary main_c_3 main_v23 (broadcastInDim S4096x1 ![] bcast_S_S4096x1 : (⟨S_, .i32⟩ : BufTy).Contents (Elt F) → (⟨S4096x1, .i32⟩ : BufTy).Contents (Elt F)),
    StableHlo.binary main_v19 main_v23 main_v24 (addi : (⟨S4096x1, .i32⟩ : BufTy).Contents (Elt F) → (⟨S4096x1, .i32⟩ : BufTy).Contents (Elt F) → (⟨S4096x1, .i32⟩ : BufTy).Contents (Elt F)),
    StableHlo.ternary main_v22 main_v24 main_v19 main_v25 (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)),
    StableHlo.nullary main_c_4 (constantI S_ 32 0#32),
    StableHlo.unary main_c_4 main_v26 (broadcastInDim S4096x61 ![] bcast_S_S4096x61 : (⟨S_, .i32⟩ : BufTy).Contents (Elt F) → (⟨S4096x61, .i32⟩ : BufTy).Contents (Elt F)),
    StableHlo.binary main_v3 main_v26 main_v27 (cmpi .slt : (⟨S4096x61, .i32⟩ : BufTy).Contents (Elt F) → (⟨S4096x61, .i32⟩ : BufTy).Contents (Elt F) → (⟨S4096x61, .i1⟩ : BufTy).Contents (Elt F)),
    StableHlo.nullary main_c_5 (constantI S_ 32 2001#32),
    StableHlo.unary main_c_5 main_v28 (broadcastInDim S4096x61 ![] bcast_S_S4096x61 : (⟨S_, .i32⟩ : BufTy).Contents (Elt F) → (⟨S4096x61, .i32⟩ : BufTy).Contents (Elt F)),
    StableHlo.binary main_v3 main_v28 main_v29 (addi : (⟨S4096x61, .i32⟩ : BufTy).Contents (Elt F) → (⟨S4096x61, .i32⟩ : BufTy).Contents (Elt F) → (⟨S4096x61, .i32⟩ : BufTy).Contents (Elt F)) ]
/-- The references they write, in order. -/
abbrev rseg0_a_W : List (Ref sig .tc) :=
  [main_v0, main_v1, main_v2, main_v3, main_c, main_v4, main_v5, main_c_0, main_v6, main_v7, main_c_1, main_call0.v0.ref, main_call0.v1.ref, main_call0.v2.ref, main_v9, main_v10, main_v11, main_v12, main_v13, main_v14, main_v15, main_v16, main_v17, main_v18, main_v19, main_cst, main_v20, main_c_2, main_v21, main_v22, main_c_3, main_v23, main_v24, main_v25, main_c_4, main_v26, main_v27, main_c_5, main_v28, main_v29]
set_option maxRecDepth 8192 in
/-- Each touches TensorCore references only. -/
theorem rseg0_a_sub : (rseg0_a : List (HloOp τ sig (Elt F))).Forall fun op => op.bufs ⊆ tcRefs τ sig :=
  ⟨unary_bufs_sub .., unary_bufs_sub .., unary_bufs_sub .., unary_bufs_sub .., nullary_bufs_sub .., unary_bufs_sub .., binary_bufs_sub .., nullary_bufs_sub .., unary_bufs_sub .., binary_bufs_sub .., nullary_bufs_sub .., unary_bufs_sub .., unary_bufs_sub .., ternary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub ..⟩
set_option maxRecDepth 8192 in
/-- None allocates a buffer. -/
theorem rseg0_a_fresh : (rseg0_a : List (HloOp τ sig (Elt F))).Forall fun op => op.fresh = ∅ := by
  simp only [List.Forall]; repeat' constructor
set_option maxRecDepth 8192 in
/-- Each writes inside the list. -/
theorem rseg0_a_writes : (rseg0_a : List (HloOp τ sig (Elt F))).Forall fun op => op.writes ⊆ (rseg0_a_W.map (Proc.devRef (τ := τ) .tc)).toFinset :=
  ⟨writes_sub_of_mem (y := main_v0) (by decide), writes_sub_of_mem (y := main_v1) (by decide), writes_sub_of_mem (y := main_v2) (by decide), writes_sub_of_mem (y := main_v3) (by decide), writes_sub_of_mem (y := main_c) (by decide), writes_sub_of_mem (y := main_v4) (by decide), writes_sub_of_mem (y := main_v5) (by decide), writes_sub_of_mem (y := main_c_0) (by decide), writes_sub_of_mem (y := main_v6) (by decide), writes_sub_of_mem (y := main_v7) (by decide), writes_sub_of_mem (y := main_c_1) (by decide), writes_sub_of_mem (y := main_call0.v0.ref) (by decide), writes_sub_of_mem (y := main_call0.v1.ref) (by decide), writes_sub_of_mem (y := main_call0.v2.ref) (by decide), writes_sub_of_mem (y := main_v9) (by decide), writes_sub_of_mem (y := main_v10) (by decide), writes_sub_of_mem (y := main_v11) (by decide), writes_sub_of_mem (y := main_v12) (by decide), writes_sub_of_mem (y := main_v13) (by decide), writes_sub_of_mem (y := main_v14) (by decide), writes_sub_of_mem (y := main_v15) (by decide), writes_sub_of_mem (y := main_v16) (by decide), writes_sub_of_mem (y := main_v17) (by decide), writes_sub_of_mem (y := main_v18) (by decide), writes_sub_of_mem (y := main_v19) (by decide), writes_sub_of_mem (y := main_cst) (by decide), writes_sub_of_mem (y := main_v20) (by decide), writes_sub_of_mem (y := main_c_2) (by decide), writes_sub_of_mem (y := main_v21) (by decide), writes_sub_of_mem (y := main_v22) (by decide), writes_sub_of_mem (y := main_c_3) (by decide), writes_sub_of_mem (y := main_v23) (by decide), writes_sub_of_mem (y := main_v24) (by decide), writes_sub_of_mem (y := main_v25) (by decide), writes_sub_of_mem (y := main_c_4) (by decide), writes_sub_of_mem (y := main_v26) (by decide), writes_sub_of_mem (y := main_v27) (by decide), writes_sub_of_mem (y := main_c_5) (by decide), writes_sub_of_mem (y := main_v28) (by decide), writes_sub_of_mem (y := main_v29) (by decide)⟩
set_option maxRecDepth 8192 in
/-- The list holds no argument: the operations leave the arguments alone. -/
theorem rseg0_a_keeps : KeepsArgs (F := F) rseg0_a := keepsArgs_of_writes rseg0_a_writes (by decide)

set_option maxHeartbeats 40000000 in
/-- Operations 41 … 70 of 1108 (segment 0, window 0 of @main). -/
abbrev rseg0_b : List (HloOp τ sig (Elt F)) :=
  [ StableHlo.ternary main_v27 main_v29 main_v3 main_v30 (select : (⟨S4096x61, .i1⟩ : BufTy).Contents (Elt F) → (⟨S4096x61, .i32⟩ : BufTy).Contents (Elt F) → (⟨S4096x61, .i32⟩ : BufTy).Contents (Elt F) → (⟨S4096x61, .i32⟩ : BufTy).Contents (Elt F)),
    StableHlo.unary main_v25 main_v31 (broadcastInDim S4096x61 ![0, 1] bcast_S4096x1_S4096x61_0_1 : (⟨S4096x1, .i32⟩ : BufTy).Contents (Elt F) → (⟨S4096x61, .i32⟩ : BufTy).Contents (Elt F)),
    StableHlo.unary main_v31 main_v32 (broadcastInDim S4096x61x1 ![0, 1] bcast_S4096x61_S4096x61x1_0_1 : (⟨S4096x61, .i32⟩ : BufTy).Contents (Elt F) → (⟨S4096x61x1, .i32⟩ : BufTy).Contents (Elt F)),
    StableHlo.unary main_v30 main_v33 (broadcastInDim S4096x61x1 ![0, 1] bcast_S4096x61_S4096x61x1_0_1 : (⟨S4096x61, .i32⟩ : BufTy).Contents (Elt F) → (⟨S4096x61x1, .i32⟩ : BufTy).Contents (Elt F)),
    StableHlo.binary main_v32 main_v33 main_v34 ((fun a b => concatenate S4096x61x2 2 [⟨S4096x61x1, a⟩, ⟨S4096x61x1, b⟩] concatenates_S4096x61x1_S4096x61x1_S4096x61x2_d2) : (⟨S4096x61x1, .i32⟩ : BufTy).Contents (Elt F) → (⟨S4096x61x1, .i32⟩ : BufTy).Contents (Elt F) → (⟨S4096x61x2, .i32⟩ : BufTy).Contents (Elt F)),
    StableHlo.ternary main_v20 main_v34 main_v1 main_v35 ((fun x i u => Host.scatterAdd scatter_S4096x2001_S4096x61x2_S4096x61_n_01_01_2 x i u) : (⟨S4096x2001, .f32⟩ : BufTy).Contents (Elt F) → (⟨S4096x61x2, .i32⟩ : BufTy).Contents (Elt F) → (⟨S4096x61, .f32⟩ : BufTy).Contents (Elt F) → (⟨S4096x2001, .f32⟩ : BufTy).Contents (Elt F)),
    StableHlo.unary main_v35 main_v36 ((extractStridedSlice S4096x2000 ![0, 0] · slices_S4096x2001_S4096x2000_0_0) : (⟨S4096x2001, .f32⟩ : BufTy).Contents (Elt F) → (⟨S4096x2000, .f32⟩ : BufTy).Contents (Elt F)),
    StableHlo.binary main_v36 main_v11 main_v37 ((fun l r => Host.dotGeneral dot_S4096x2000_S2000x64_S4096x64_1_0_0_1_n_n none l r) : (⟨S4096x2000, .f32⟩ : BufTy).Contents (Elt F) → (⟨S2000x64, .f32⟩ : BufTy).Contents (Elt F) → (⟨S4096x64, .f32⟩ : BufTy).Contents (Elt F)),
    StableHlo.unary main_v13 main_v38 (broadcastInDim S1x64 ![1] bcast_S64_S1x64_1 : (⟨S64, .f32⟩ : BufTy).Contents (Elt F) → (⟨S1x64, .f32⟩ : BufTy).Contents (Elt F)),
    StableHlo.unary main_v38 main_v39 (broadcastInDim S4096x64 ![0, 1] bcast_S1x64_S4096x64_0_1 : (⟨S1x64, .f32⟩ : BufTy).Contents (Elt F) → (⟨S4096x64, .f32⟩ : BufTy).Contents (Elt F)),
    StableHlo.binary main_v37 main_v39 main_v40 (addf : (⟨S4096x64, .f32⟩ : BufTy).Contents (Elt F) → (⟨S4096x64, .f32⟩ : BufTy).Contents (Elt F) → (⟨S4096x64, .f32⟩ : BufTy).Contents (Elt F)),
    StableHlo.TRef.nullary main_call1.cst (constant S_ .f32 0x00000000#32),
    StableHlo.TRef.unary main_call1.cst main_call1.v0 (broadcastInDim S4096x64 ![] bcast_S_S4096x64),
    StableHlo.TRef.binary (.of main_v40 : StableHlo.TRef sig ⟨S4096x64, .f32⟩) main_call1.v0 main_call1.v1 (cmpf .ogt),
    StableHlo.TRef.nullary main_call1.cst_0 (constant S_ .f32 0x00000000#32),
    StableHlo.TRef.unary main_call1.cst_0 main_call1.v2 (broadcastInDim S4096x64 ![] bcast_S_S4096x64),
    StableHlo.TRef.binary (.of main_v40 : StableHlo.TRef sig ⟨S4096x64, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S4096x64 ![] bcast_S_S4096x64),
    StableHlo.TRef.ternary main_call1.v3 main_call1.call0.v1 (.of main_v40 : StableHlo.TRef sig ⟨S4096x64, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S4096x64 ![] bcast_S_S4096x64),
    StableHlo.TRef.binary main_call1.v6 main_call1.v5 main_call1.v7 mulf,
    StableHlo.TRef.ternary main_call1.v1 (.of main_v40 : StableHlo.TRef sig ⟨S4096x64, .f32⟩) main_call1.v7 main_call1.call1.v0 select,
    StableHlo.binary main_v41 main_v15 main_v42 ((fun l r => Host.dotGeneral dot_S4096x64_S64x4000_S4096x4000_1_0_0_1_n_n none l r) : (⟨S4096x64, .f32⟩ : BufTy).Contents (Elt F) → (⟨S64x4000, .f32⟩ : BufTy).Contents (Elt F) → (⟨S4096x4000, .f32⟩ : BufTy).Contents (Elt F)),
    StableHlo.unary main_v17 main_v43 (broadcastInDim S1x4000 ![1] bcast_S4000_S1x4000_1 : (⟨S4000, .f32⟩ : BufTy).Contents (Elt F) → (⟨S1x4000, .f32⟩ : BufTy).Contents (Elt F)),
    StableHlo.unary main_v43 main_v44 (broadcastInDim S4096x4000 ![0, 1] bcast_S1x4000_S4096x4000_0_1 : (⟨S1x4000, .f32⟩ : BufTy).Contents (Elt F) → (⟨S4096x4000, .f32⟩ : BufTy).Contents (Elt F)),
    StableHlo.binary main_v42 main_v44 main_v45 (addf : (⟨S4096x4000, .f32⟩ : BufTy).Contents (Elt F) → (⟨S4096x4000, .f32⟩ : BufTy).Contents (Elt F) → (⟨S4096x4000, .f32⟩ : BufTy).Contents (Elt F)) ]
/-- The references they write, in order. -/
abbrev rseg0_b_W : List (Ref sig .tc) :=
  [main_v30, main_v31, main_v32, main_v33, main_v34, main_v35, main_v36, main_v37, main_v38, main_v39, main_v40, main_call1.cst.ref, main_call1.v0.ref, main_call1.v1.ref, main_call1.cst_0.ref, main_call1.v2.ref, main_call1.v3.ref, main_call1.cst_1.ref, main_call1.call0.v0.ref, main_call1.call0.v1.ref, main_call1.call0.v2.ref, main_call1.v5.ref, main_call1.cst_2.ref, main_call1.v6.ref, main_call1.v7.ref, main_call1.call1.v0.ref, main_v42, main_v43, main_v44, main_v45]
set_option maxRecDepth 8192 in
/-- Each touches TensorCore references only. -/
theorem rseg0_b_sub : (rseg0_b : List (HloOp τ sig (Elt F))).Forall fun op => op.bufs ⊆ tcRefs τ sig :=
  ⟨ternary_bufs_sub .., unary_bufs_sub .., unary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub ..⟩
set_option maxRecDepth 8192 in
/-- None allocates a buffer. -/
theorem rseg0_b_fresh : (rseg0_b : List (HloOp τ sig (Elt F))).Forall fun op => op.fresh = ∅ := by
  simp only [List.Forall]; repeat' constructor
set_option maxRecDepth 8192 in
/-- Each writes inside the list. -/
theorem rseg0_b_writes : (rseg0_b : List (HloOp τ sig (Elt F))).Forall fun op => op.writes ⊆ (rseg0_b_W.map (Proc.devRef (τ := τ) .tc)).toFinset :=
  ⟨writes_sub_of_mem (y := main_v30) (by decide), writes_sub_of_mem (y := main_v31) (by decide), writes_sub_of_mem (y := main_v32) (by decide), writes_sub_of_mem (y := main_v33) (by decide), writes_sub_of_mem (y := main_v34) (by decide), writes_sub_of_mem (y := main_v35) (by decide), writes_sub_of_mem (y := main_v36) (by decide), writes_sub_of_mem (y := main_v37) (by decide), writes_sub_of_mem (y := main_v38) (by decide), writes_sub_of_mem (y := main_v39) (by decide), writes_sub_of_mem (y := main_v40) (by decide), writes_sub_of_mem (y := main_call1.cst.ref) (by decide), writes_sub_of_mem (y := main_call1.v0.ref) (by decide), writes_sub_of_mem (y := main_call1.v1.ref) (by decide), writes_sub_of_mem (y := main_call1.cst_0.ref) (by decide), writes_sub_of_mem (y := main_call1.v2.ref) (by decide), writes_sub_of_mem (y := main_call1.v3.ref) (by decide), writes_sub_of_mem (y := main_call1.cst_1.ref) (by decide), writes_sub_of_mem (y := main_call1.call0.v0.ref) (by decide), writes_sub_of_mem (y := main_call1.call0.v1.ref) (by decide), writes_sub_of_mem (y := main_call1.call0.v2.ref) (by decide), writes_sub_of_mem (y := main_call1.v5.ref) (by decide), writes_sub_of_mem (y := main_call1.cst_2.ref) (by decide), writes_sub_of_mem (y := main_call1.v6.ref) (by decide), writes_sub_of_mem (y := main_call1.v7.ref) (by decide), writes_sub_of_mem (y := main_call1.call1.v0.ref) (by decide), writes_sub_of_mem (y := main_v42) (by decide), writes_sub_of_mem (y := main_v43) (by decide), writes_sub_of_mem (y := main_v44) (by decide), writes_sub_of_mem (y := main_v45) (by decide)⟩
set_option maxRecDepth 8192 in
/-- The list holds no argument: the operations leave the arguments alone. -/
theorem rseg0_b_keeps : KeepsArgs (F := F) rseg0_b := keepsArgs_of_writes rseg0_b_writes (by decide)

set_option maxHeartbeats 40000000 in
/-- Operations 71 … 97 of 1108 (segment 1, window 0 of @main). -/
abbrev rseg1_a : List (HloOp τ sig (Elt F)) :=
  [ StableHlo.nullary main_cst_6 (constant S_ .f32 0x00000000#32),
    StableHlo.unary main_cst_6 main_v46 (broadcastInDim S4096x1 ![] bcast_S_S4096x1 : (⟨S_, .f32⟩ : BufTy).Contents (Elt F) → (⟨S4096x1, .f32⟩ : BufTy).Contents (Elt F)),
    StableHlo.binary main_v45 main_v46 main_v47 ((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F)),
    StableHlo.TRef.nullary main_call2.c (constantI S_ 32 0#32),
    StableHlo.TRef.unary main_call2.c main_call2.v0 (broadcastInDim S4096x128 ![] bcast_S_S4096x128),
    StableHlo.TRef.binary (.of main_v9 : StableHlo.TRef sig ⟨S4096x128, .i32⟩) main_call2.v0 main_call2.v1 (cmpi .slt),
    StableHlo.TRef.nullary main_call2.c_0 (constantI S_ 32 4001#32),
    StableHlo.TRef.unary main_call2.c_0 main_call2.v2 (broadcastInDim S4096x128 ![] bcast_S_S4096x128),
    StableHlo.TRef.binary (.of main_v9 : StableHlo.TRef sig ⟨S4096x128, .i32⟩) main_call2.v2 main_call2.v3 addi,
    StableHlo.TRef.ternary main_call2.v1 main_call2.v3 (.of main_v9 : StableHlo.TRef sig ⟨S4096x128, .i32⟩) main_call2.v4 select,
    StableHlo.TRef.reshape main_call2.v4 main_call2.v5 rfl shapeCasts_S4096x128_S4096x128x1,
    StableHlo.TRef.nullary main_call2.c_1 (constantI S1 32 4000#32),
    StableHlo.TRef.nullary main_call2.c_2 (constantI S_ 32 0#32),
    StableHlo.TRef.unary main_call2.c_2 main_call2.v6 (broadcastInDim S4096x128x1 ![] bcast_S_S4096x128x1),
    StableHlo.TRef.binary main_call2.v5 main_call2.v6 main_call2.v7 (cmpi .sge),
    StableHlo.TRef.unary main_call2.c_1 main_call2.v8 (broadcastInDim S1x1x1 ![2] bcast_S1_S1x1x1_2),
    StableHlo.TRef.unary main_call2.v8 main_call2.v9 (broadcastInDim S4096x128x1 ![0, 1, 2] bcast_S1x1x1_S4096x128x1_0_1_2),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S4096x128x1_S4096x128_d2 h_S_),
    StableHlo.TRef.binary (.of main_v47 : StableHlo.TRef sig ⟨S4096x4001, .f32⟩) main_call2.v5 main_call2.v13 (fun x i => Host.gather gather_S4096x4001_S4096x128x1_S4096x128_n_1_0_0_1_2_11 x i),
    StableHlo.TRef.nullary main_call2.cst (constant S_ .f32 0x7FC00000#32),
    StableHlo.TRef.unary main_call2.cst main_call2.v14 (broadcastInDim S4096x128 ![] bcast_S_S4096x128),
    StableHlo.TRef.ternary main_call2.v12 main_call2.v13 main_call2.v14 main_call2.v15 select,
    StableHlo.unary main_v48 main_v49 ((extractStridedSlice S4096x64 ![0, 0] · slices_S4096x128_S4096x64_0_0) : (⟨S4096x128, .f32⟩ : BufTy).Contents (Elt F) → (⟨S4096x64, .f32⟩ : BufTy).Contents (Elt F)),
    StableHlo.unary main_v48 main_v50 ((extractStridedSlice S4096x64 ![0, 64] · slices_S4096x128_S4096x64_0_64) : (⟨S4096x128, .f32⟩ : BufTy).Contents (Elt F) → (⟨S4096x64, .f32⟩ : BufTy).Contents (Elt F)) ]
/-- The references they write, in order. -/
abbrev rseg1_a_W : List (Ref sig .tc) :=
  [main_cst_6, main_v46, main_v47, main_call2.c.ref, main_call2.v0.ref, main_call2.v1.ref, main_call2.c_0.ref, main_call2.v2.ref, main_call2.v3.ref, main_call2.v4.ref, main_call2.v5.ref, main_call2.c_1.ref, main_call2.c_2.ref, main_call2.v6.ref, main_call2.v7.ref, main_call2.v8.ref, main_call2.v9.ref, main_call2.v10.ref, main_call2.v11.ref, main_call2.c_3.ref, main_call2.v12.ref, main_call2.v13.ref, main_call2.cst.ref, main_call2.v14.ref, main_call2.v15.ref, main_v49, main_v50]
set_option maxRecDepth 8192 in
/-- Each touches TensorCore references only. -/
theorem rseg1_a_sub : (rseg1_a : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., unary_bufs_sub ..⟩
set_option maxRecDepth 8192 in
/-- None allocates a buffer. -/
theorem rseg1_a_fresh : (rseg1_a : List (HloOp τ sig (Elt F))).Forall fun op => op.fresh = ∅ := by
  simp only [List.Forall]; repeat' constructor
set_option maxRecDepth 8192 in
/-- Each writes inside the list. -/
theorem rseg1_a_writes : (rseg1_a : List (HloOp τ sig (Elt F))).Forall fun op => op.writes ⊆ (rseg1_a_W.map (Proc.devRef (τ := τ) .tc)).toFinset :=
  ⟨writes_sub_of_mem (y := main_cst_6) (by decide), writes_sub_of_mem (y := main_v46) (by decide), writes_sub_of_mem (y := main_v47) (by decide), writes_sub_of_mem (y := main_call2.c.ref) (by decide), writes_sub_of_mem (y := main_call2.v0.ref) (by decide), writes_sub_of_mem (y := main_call2.v1.ref) (by decide), writes_sub_of_mem (y := main_call2.c_0.ref) (by decide), writes_sub_of_mem (y := main_call2.v2.ref) (by decide), writes_sub_of_mem (y := main_call2.v3.ref) (by decide), writes_sub_of_mem (y := main_call2.v4.ref) (by decide), writes_sub_of_mem (y := main_call2.v5.ref) (by decide), writes_sub_of_mem (y := main_call2.c_1.ref) (by decide), writes_sub_of_mem (y := main_call2.c_2.ref) (by decide), writes_sub_of_mem (y := main_call2.v6.ref) (by decide), writes_sub_of_mem (y := main_call2.v7.ref) (by decide), writes_sub_of_mem (y := main_call2.v8.ref) (by decide), writes_sub_of_mem (y := main_call2.v9.ref) (by decide), writes_sub_of_mem (y := main_call2.v10.ref) (by decide), writes_sub_of_mem (y := main_call2.v11.ref) (by decide), writes_sub_of_mem (y := main_call2.c_3.ref) (by decide), writes_sub_of_mem (y := main_call2.v12.ref) (by decide), writes_sub_of_mem (y := main_call2.v13.ref) (by decide), writes_sub_of_mem (y := main_call2.cst.ref) (by decide), writes_sub_of_mem (y := main_call2.v14.ref) (by decide), writes_sub_of_mem (y := main_call2.v15.ref) (by decide), writes_sub_of_mem (y := main_v49) (by decide), writes_sub_of_mem (y := main_v50) (by decide)⟩
set_option maxRecDepth 8192 in
/-- The list holds no argument: the operations leave the arguments alone. -/
theorem rseg1_a_keeps : KeepsArgs (F := F) rseg1_a := keepsArgs_of_writes rseg1_a_writes (by decide)

set_option maxHeartbeats 40000000 in
/-- Operations 98 … 137 of 1108 (segment 1, window 1 of @main). -/
abbrev rseg1_b : List (HloOp τ sig (Elt F)) :=
  [ StableHlo.nullary main_cst_7 (constant S_ .f32 0x40000000#32),
    StableHlo.unary main_cst_7 main_v51 (broadcastInDim S4096x64 ![] bcast_S_S4096x64 : (⟨S_, .f32⟩ : BufTy).Contents (Elt F) → (⟨S4096x64, .f32⟩ : BufTy).Contents (Elt F)),
    StableHlo.binary main_v49 main_v51 main_v52 (addf : (⟨S4096x64, .f32⟩ : BufTy).Contents (Elt F) → (⟨S4096x64, .f32⟩ : BufTy).Contents (Elt F) → (⟨S4096x64, .f32⟩ : BufTy).Contents (Elt F)),
    StableHlo.unary main_v52 main_v53 (Host.negf : (⟨S4096x64, .f32⟩ : BufTy).Contents (Elt F) → (⟨S4096x64, .f32⟩ : BufTy).Contents (Elt F)),
    StableHlo.unary main_v53 main_v54 (Host.exp : (⟨S4096x64, .f32⟩ : BufTy).Contents (Elt F) → (⟨S4096x64, .f32⟩ : BufTy).Contents (Elt F)),
    StableHlo.nullary main_cst_8 (constant S_ .f32 0x3F800000#32),
    StableHlo.unary main_cst_8 main_v55 (broadcastInDim S4096x64 ![] bcast_S_S4096x64 : (⟨S_, .f32⟩ : BufTy).Contents (Elt F) → (⟨S4096x64, .f32⟩ : BufTy).Contents (Elt F)),
    StableHlo.binary main_v55 main_v54 main_v56 (addf : (⟨S4096x64, .f32⟩ : BufTy).Contents (Elt F) → (⟨S4096x64, .f32⟩ : BufTy).Contents (Elt F) → (⟨S4096x64, .f32⟩ : BufTy).Contents (Elt F)),
    StableHlo.nullary main_cst_9 (constant S_ .f32 0x3F800000#32),
    StableHlo.unary main_cst_9 main_v57 (broadcastInDim S4096x64 ![] bcast_S_S4096x64 : (⟨S_, .f32⟩ : BufTy).Contents (Elt F) → (⟨S4096x64, .f32⟩ : BufTy).Contents (Elt F)),
    StableHlo.binary main_v57 main_v56 main_v58 (Host.divf : (⟨S4096x64, .f32⟩ : BufTy).Contents (Elt F) → (⟨S4096x64, .f32⟩ : BufTy).Contents (Elt F) → (⟨S4096x64, .f32⟩ : BufTy).Contents (Elt F)),
    StableHlo.binary main_v58 main_v0 main_v59 (mulf : (⟨S4096x64, .f32⟩ : BufTy).Contents (Elt F) → (⟨S4096x64, .f32⟩ : BufTy).Contents (Elt F) → (⟨S4096x64, .f32⟩ : BufTy).Contents (Elt F)),
    StableHlo.binary main_v59 main_v50 main_v60 (addf : (⟨S4096x64, .f32⟩ : BufTy).Contents (Elt F) → (⟨S4096x64, .f32⟩ : BufTy).Contents (Elt F) → (⟨S4096x64, .f32⟩ : BufTy).Contents (Elt F)),
    StableHlo.unary main_v58 main_v61 (Host.log : (⟨S4096x64, .f32⟩ : BufTy).Contents (Elt F) → (⟨S4096x64, .f32⟩ : BufTy).Contents (Elt F)),
    StableHlo.nullary main_cst_10 (constant S_ .f32 0x00000000#32),
    StableHlo.binary main_v61 main_cst_10 main_v62 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    StableHlo.binary main_arg1 main_v62 main_v63 (subf : (⟨S4096, .f32⟩ : BufTy).Contents (Elt F) → (⟨S4096, .f32⟩ : BufTy).Contents (Elt F) → (⟨S4096, .f32⟩ : BufTy).Contents (Elt F)),
    StableHlo.nullary main_c_11 (constantI S_ 32 2000#32),
    StableHlo.unary main_c_11 main_v64 (broadcastInDim S4096x61 ![] bcast_S_S4096x61 : (⟨S_, .i32⟩ : BufTy).Contents (Elt F) → (⟨S4096x61, .i32⟩ : BufTy).Contents (Elt F)),
    StableHlo.binary main_v3 main_v64 main_v65 (cmpi .eq : (⟨S4096x61, .i32⟩ : BufTy).Contents (Elt F) → (⟨S4096x61, .i32⟩ : BufTy).Contents (Elt F) → (⟨S4096x61, .i1⟩ : BufTy).Contents (Elt F)),
    StableHlo.nullary main_c_12 (constantI S_ 32 2000#32),
    StableHlo.unary main_c_12 main_v66 (broadcastInDim S4096x61 ![] bcast_S_S4096x61 : (⟨S_, .i32⟩ : BufTy).Contents (Elt F) → (⟨S4096x61, .i32⟩ : BufTy).Contents (Elt F)),
    StableHlo.binary main_v3 main_v66 main_v67 (addi : (⟨S4096x61, .i32⟩ : BufTy).Contents (Elt F) → (⟨S4096x61, .i32⟩ : BufTy).Contents (Elt F) → (⟨S4096x61, .i32⟩ : BufTy).Contents (Elt F)),
    StableHlo.nullary main_c_13 (constantI S_ 32 4000#32),
    StableHlo.TRef.unary (.of main_c_13 : StableHlo.TRef sig ⟨S_, .i32⟩) main_call3.v0 id,
    StableHlo.TRef.unary main_call3.v0 main_call3.v1 (broadcastInDim S4096x61 ![] bcast_S_S4096x61),
    StableHlo.TRef.ternary (.of main_v65 : StableHlo.TRef sig ⟨S4096x61, .i1⟩) main_call3.v1 (.of main_v67 : StableHlo.TRef sig ⟨S4096x61, .i32⟩) main_call3.v2 select,
    StableHlo.binary main_v3 main_v68 main_v69 ((fun a b => concatenate S4096x122 1 [⟨S4096x61, a⟩, ⟨S4096x61, b⟩] concatenates_S4096x61_S4096x61_S4096x122_d1) : (⟨S4096x61, .i32⟩ : BufTy).Contents (Elt F) → (⟨S4096x61, .i32⟩ : BufTy).Contents (Elt F) → (⟨S4096x122, .i32⟩ : BufTy).Contents (Elt F)),
    StableHlo.unary main_arg2 main_v70 ((extractStridedSlice S1x2000x64 ![1, 0, 0] · slices_S10x2000x64_S1x2000x64_1_0_0) : (⟨S10x2000x64, .f32⟩ : BufTy).Contents (Elt F) → (⟨S1x2000x64, .f32⟩ : BufTy).Contents (Elt F)),
    StableHlo.reshape main_v70 main_v71 rfl shapeCasts_S1x2000x64_S2000x64,
    StableHlo.unary main_arg3 main_v72 ((extractStridedSlice S1x64 ![1, 0] · slices_S10x64_S1x64_1_0) : (⟨S10x64, .f32⟩ : BufTy).Contents (Elt F) → (⟨S1x64, .f32⟩ : BufTy).Contents (Elt F)),
    StableHlo.reshape main_v72 main_v73 rfl shapeCasts_S1x64_S64,
    StableHlo.unary main_arg4 main_v74 ((extractStridedSlice S1x64x4000 ![1, 0, 0] · slices_S10x64x4000_S1x64x4000_1_0_0) : (⟨S10x64x4000, .f32⟩ : BufTy).Contents (Elt F) → (⟨S1x64x4000, .f32⟩ : BufTy).Contents (Elt F)),
    StableHlo.reshape main_v74 main_v75 rfl shapeCasts_S1x64x4000_S64x4000,
    StableHlo.unary main_arg5 main_v76 ((extractStridedSlice S1x4000 ![1, 0] · slices_S10x4000_S1x4000_1_0) : (⟨S10x4000, .f32⟩ : BufTy).Contents (Elt F) → (⟨S1x4000, .f32⟩ : BufTy).Contents (Elt F)),
    StableHlo.reshape main_v76 main_v77 rfl shapeCasts_S1x4000_S4000,
    StableHlo.nullary main_v78 (iotaInDim S4096 32 0),
    StableHlo.unary main_v78 main_v79 (broadcastInDim S4096x1 ![0] bcast_S4096_S4096x1_0 : (⟨S4096, .i32⟩ : BufTy).Contents (Elt F) → (⟨S4096x1, .i32⟩ : BufTy).Contents (Elt F)),
    StableHlo.nullary main_cst_14 (constant S_ .f32 0x00000000#32),
    StableHlo.unary main_cst_14 main_v80 (broadcastInDim S4096x2001 ![] bcast_S_S4096x2001 : (⟨S_, .f32⟩ : BufTy).Contents (Elt F) → (⟨S4096x2001, .f32⟩ : BufTy).Contents (Elt F)) ]
/-- The references they write, in order. -/
abbrev rseg1_b_W : List (Ref sig .tc) :=
  [main_cst_7, main_v51, main_v52, main_v53, main_v54, main_cst_8, main_v55, main_v56, main_cst_9, main_v57, main_v58, main_v59, main_v60, main_v61, main_cst_10, main_v62, main_v63, main_c_11, main_v64, main_v65, main_c_12, main_v66, main_v67, main_c_13, main_call3.v0.ref, main_call3.v1.ref, main_call3.v2.ref, main_v69, main_v70, main_v71, main_v72, main_v73, main_v74, main_v75, main_v76, main_v77, main_v78, main_v79, main_cst_14, main_v80]
set_option maxRecDepth 8192 in
/-- Each touches TensorCore references only. -/
theorem rseg1_b_sub : (rseg1_b : List (HloOp τ sig (Elt F))).Forall fun op => op.bufs ⊆ tcRefs τ sig :=
  ⟨nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub ..⟩
set_option maxRecDepth 8192 in
/-- None allocates a buffer. -/
theorem rseg1_b_fresh : (rseg1_b : List (HloOp τ sig (Elt F))).Forall fun op => op.fresh = ∅ := by
  simp only [List.Forall]; repeat' constructor
set_option maxRecDepth 8192 in
/-- Each writes inside the list. -/
theorem rseg1_b_writes : (rseg1_b : List (HloOp τ sig (Elt F))).Forall fun op => op.writes ⊆ (rseg1_b_W.map (Proc.devRef (τ := τ) .tc)).toFinset :=
  ⟨writes_sub_of_mem (y := main_cst_7) (by decide), writes_sub_of_mem (y := main_v51) (by decide), writes_sub_of_mem (y := main_v52) (by decide), writes_sub_of_mem (y := main_v53) (by decide), writes_sub_of_mem (y := main_v54) (by decide), writes_sub_of_mem (y := main_cst_8) (by decide), writes_sub_of_mem (y := main_v55) (by decide), writes_sub_of_mem (y := main_v56) (by decide), writes_sub_of_mem (y := main_cst_9) (by decide), writes_sub_of_mem (y := main_v57) (by decide), writes_sub_of_mem (y := main_v58) (by decide), writes_sub_of_mem (y := main_v59) (by decide), writes_sub_of_mem (y := main_v60) (by decide), writes_sub_of_mem (y := main_v61) (by decide), writes_sub_of_mem (y := main_cst_10) (by decide), writes_sub_of_mem (y := main_v62) (by decide), writes_sub_of_mem (y := main_v63) (by decide), writes_sub_of_mem (y := main_c_11) (by decide), writes_sub_of_mem (y := main_v64) (by decide), writes_sub_of_mem (y := main_v65) (by decide), writes_sub_of_mem (y := main_c_12) (by decide), writes_sub_of_mem (y := main_v66) (by decide), writes_sub_of_mem (y := main_v67) (by decide), writes_sub_of_mem (y := main_c_13) (by decide), writes_sub_of_mem (y := main_call3.v0.ref) (by decide), writes_sub_of_mem (y := main_call3.v1.ref) (by decide), writes_sub_of_mem (y := main_call3.v2.ref) (by decide), writes_sub_of_mem (y := main_v69) (by decide), writes_sub_of_mem (y := main_v70) (by decide), writes_sub_of_mem (y := main_v71) (by decide), writes_sub_of_mem (y := main_v72) (by decide), writes_sub_of_mem (y := main_v73) (by decide), writes_sub_of_mem (y := main_v74) (by decide), writes_sub_of_mem (y := main_v75) (by decide), writes_sub_of_mem (y := main_v76) (by decide), writes_sub_of_mem (y := main_v77) (by decide), writes_sub_of_mem (y := main_v78) (by decide), writes_sub_of_mem (y := main_v79) (by decide), writes_sub_of_mem (y := main_cst_14) (by decide), writes_sub_of_mem (y := main_v80) (by decide)⟩
set_option maxRecDepth 8192 in
/-- The list holds no argument: the operations leave the arguments alone. -/
theorem rseg1_b_keeps : KeepsArgs (F := F) rseg1_b := keepsArgs_of_writes rseg1_b_writes (by decide)

set_option maxHeartbeats 40000000 in
/-- Operations 138 … 159 of 1108 (segment 1, window 1 of @main). -/
abbrev rseg1_c : List (HloOp τ sig (Elt F)) :=
  [ StableHlo.nullary main_c_15 (constantI S_ 32 0#32),
    StableHlo.unary main_c_15 main_v81 (broadcastInDim S4096x1 ![] bcast_S_S4096x1 : (⟨S_, .i32⟩ : BufTy).Contents (Elt F) → (⟨S4096x1, .i32⟩ : BufTy).Contents (Elt F)),
    StableHlo.binary main_v79 main_v81 main_v82 (cmpi .slt : (⟨S4096x1, .i32⟩ : BufTy).Contents (Elt F) → (⟨S4096x1, .i32⟩ : BufTy).Contents (Elt F) → (⟨S4096x1, .i1⟩ : BufTy).Contents (Elt F)),
    StableHlo.nullary main_c_16 (constantI S_ 32 4096#32),
    StableHlo.unary main_c_16 main_v83 (broadcastInDim S4096x1 ![] bcast_S_S4096x1 : (⟨S_, .i32⟩ : BufTy).Contents (Elt F) → (⟨S4096x1, .i32⟩ : BufTy).Contents (Elt F)),
    StableHlo.binary main_v79 main_v83 main_v84 (addi : (⟨S4096x1, .i32⟩ : BufTy).Contents (Elt F) → (⟨S4096x1, .i32⟩ : BufTy).Contents (Elt F) → (⟨S4096x1, .i32⟩ : BufTy).Contents (Elt F)),
    StableHlo.ternary main_v82 main_v84 main_v79 main_v85 (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)),
    StableHlo.nullary main_c_17 (constantI S_ 32 0#32),
    StableHlo.unary main_c_17 main_v86 (broadcastInDim S4096x64 ![] bcast_S_S4096x64 : (⟨S_, .i32⟩ : BufTy).Contents (Elt F) → (⟨S4096x64, .i32⟩ : BufTy).Contents (Elt F)),
    StableHlo.binary main_v2 main_v86 main_v87 (cmpi .slt : (⟨S4096x64, .i32⟩ : BufTy).Contents (Elt F) → (⟨S4096x64, .i32⟩ : BufTy).Contents (Elt F) → (⟨S4096x64, .i1⟩ : BufTy).Contents (Elt F)),
    StableHlo.nullary main_c_18 (constantI S_ 32 2001#32),
    StableHlo.unary main_c_18 main_v88 (broadcastInDim S4096x64 ![] bcast_S_S4096x64 : (⟨S_, .i32⟩ : BufTy).Contents (Elt F) → (⟨S4096x64, .i32⟩ : BufTy).Contents (Elt F)),
    StableHlo.binary main_v2 main_v88 main_v89 (addi : (⟨S4096x64, .i32⟩ : BufTy).Contents (Elt F) → (⟨S4096x64, .i32⟩ : BufTy).Contents (Elt F) → (⟨S4096x64, .i32⟩ : BufTy).Contents (Elt F)),
    StableHlo.ternary main_v87 main_v89 main_v2 main_v90 (select : (⟨S4096x64, .i1⟩ : BufTy).Contents (Elt F) → (⟨S4096x64, .i32⟩ : BufTy).Contents (Elt F) → (⟨S4096x64, .i32⟩ : BufTy).Contents (Elt F) → (⟨S4096x64, .i32⟩ : BufTy).Contents (Elt F)),
    StableHlo.unary main_v85 main_v91 (broadcastInDim S4096x64 ![0, 1] bcast_S4096x1_S4096x64_0_1 : (⟨S4096x1, .i32⟩ : BufTy).Contents (Elt F) → (⟨S4096x64, .i32⟩ : BufTy).Contents (Elt F)),
    StableHlo.unary main_v91 main_v92 (broadcastInDim S4096x64x1 ![0, 1] bcast_S4096x64_S4096x64x1_0_1 : (⟨S4096x64, .i32⟩ : BufTy).Contents (Elt F) → (⟨S4096x64x1, .i32⟩ : BufTy).Contents (Elt F)),
    StableHlo.unary main_v90 main_v93 (broadcastInDim S4096x64x1 ![0, 1] bcast_S4096x64_S4096x64x1_0_1 : (⟨S4096x64, .i32⟩ : BufTy).Contents (Elt F) → (⟨S4096x64x1, .i32⟩ : BufTy).Contents (Elt F)),
    StableHlo.binary main_v92 main_v93 main_v94 ((fun a b => concatenate S4096x64x2 2 [⟨S4096x64x1, a⟩, ⟨S4096x64x1, b⟩] concatenates_S4096x64x1_S4096x64x1_S4096x64x2_d2) : (⟨S4096x64x1, .i32⟩ : BufTy).Contents (Elt F) → (⟨S4096x64x1, .i32⟩ : BufTy).Contents (Elt F) → (⟨S4096x64x2, .i32⟩ : BufTy).Contents (Elt F)),
    StableHlo.ternary main_v80 main_v94 main_v60 main_v95 ((fun x i u => Host.scatterAdd scatter_S4096x2001_S4096x64x2_S4096x64_n_01_01_2 x i u) : (⟨S4096x2001, .f32⟩ : BufTy).Contents (Elt F) → (⟨S4096x64x2, .i32⟩ : BufTy).Contents (Elt F) → (⟨S4096x64, .f32⟩ : BufTy).Contents (Elt F) → (⟨S4096x2001, .f32⟩ : BufTy).Contents (Elt F)),
    StableHlo.unary main_v95 main_v96 ((extractStridedSlice S4096x2000 ![0, 0] · slices_S4096x2001_S4096x2000_0_0) : (⟨S4096x2001, .f32⟩ : BufTy).Contents (Elt F) → (⟨S4096x2000, .f32⟩ : BufTy).Contents (Elt F)),
    StableHlo.binary main_v96 main_v71 main_v97 ((fun l r => Host.dotGeneral dot_S4096x2000_S2000x64_S4096x64_1_0_0_1_n_n none l r) : (⟨S4096x2000, .f32⟩ : BufTy).Contents (Elt F) → (⟨S2000x64, .f32⟩ : BufTy).Contents (Elt F) → (⟨S4096x64, .f32⟩ : BufTy).Contents (Elt F)),
    StableHlo.unary main_v73 main_v98 (broadcastInDim S1x64 ![1] bcast_S64_S1x64_1 : (⟨S64, .f32⟩ : BufTy).Contents (Elt F) → (⟨S1x64, .f32⟩ : BufTy).Contents (Elt F)) ]
/-- The references they write, in order. -/
abbrev rseg1_c_W : List (Ref sig .tc) :=
  [main_c_15, main_v81, main_v82, main_c_16, main_v83, main_v84, main_v85, main_c_17, main_v86, main_v87, main_c_18, main_v88, main_v89, main_v90, main_v91, main_v92, main_v93, main_v94, main_v95, main_v96, main_v97, main_v98]
set_option maxRecDepth 8192 in
/-- Each touches TensorCore references only. -/
theorem rseg1_c_sub : (rseg1_c : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., ternary_bufs_sub .., unary_bufs_sub .., binary_bufs_sub .., unary_bufs_sub ..⟩
set_option maxRecDepth 8192 in
/-- None allocates a buffer. -/
theorem rseg1_c_fresh : (rseg1_c : List (HloOp τ sig (Elt F))).Forall fun op => op.fresh = ∅ := by
  simp only [List.Forall]; repeat' constructor
set_option maxRecDepth 8192 in
/-- Each writes inside the list. -/
theorem rseg1_c_writes : (rseg1_c : List (HloOp τ sig (Elt F))).Forall fun op => op.writes ⊆ (rseg1_c_W.map (Proc.devRef (τ := τ) .tc)).toFinset :=
  ⟨writes_sub_of_mem (y := main_c_15) (by decide), writes_sub_of_mem (y := main_v81) (by decide), writes_sub_of_mem (y := main_v82) (by decide), writes_sub_of_mem (y := main_c_16) (by decide), writes_sub_of_mem (y := main_v83) (by decide), writes_sub_of_mem (y := main_v84) (by decide), writes_sub_of_mem (y := main_v85) (by decide), writes_sub_of_mem (y := main_c_17) (by decide), writes_sub_of_mem (y := main_v86) (by decide), writes_sub_of_mem (y := main_v87) (by decide), writes_sub_of_mem (y := main_c_18) (by decide), writes_sub_of_mem (y := main_v88) (by decide), writes_sub_of_mem (y := main_v89) (by decide), writes_sub_of_mem (y := main_v90) (by decide), writes_sub_of_mem (y := main_v91) (by decide), writes_sub_of_mem (y := main_v92) (by decide), writes_sub_of_mem (y := main_v93) (by decide), writes_sub_of_mem (y := main_v94) (by decide), writes_sub_of_mem (y := main_v95) (by decide), writes_sub_of_mem (y := main_v96) (by decide), writes_sub_of_mem (y := main_v97) (by decide), writes_sub_of_mem (y := main_v98) (by decide)⟩
set_option maxRecDepth 8192 in
/-- The list holds no argument: the operations leave the arguments alone. -/
theorem rseg1_c_keeps : KeepsArgs (F := F) rseg1_c := keepsArgs_of_writes rseg1_c_writes (by decide)

set_option maxHeartbeats 40000000 in
/-- Operations 160 … 180 of 1108 (segment 1, window 2 of @main). -/
abbrev rseg1_d : List (HloOp τ sig (Elt F)) :=
  [ StableHlo.unary main_v98 main_v99 (broadcastInDim S4096x64 ![0, 1] bcast_S1x64_S4096x64_0_1 : (⟨S1x64, .f32⟩ : BufTy).Contents (Elt F) → (⟨S4096x64, .f32⟩ : BufTy).Contents (Elt F)),
    StableHlo.binary main_v97 main_v99 main_v100 (addf : (⟨S4096x64, .f32⟩ : BufTy).Contents (Elt F) → (⟨S4096x64, .f32⟩ : BufTy).Contents (Elt F) → (⟨S4096x64, .f32⟩ : BufTy).Contents (Elt F)),
    StableHlo.TRef.nullary main_call4.cst (constant S_ .f32 0x00000000#32),
    StableHlo.TRef.unary main_call4.cst main_call4.v0 (broadcastInDim S4096x64 ![] bcast_S_S4096x64),
    StableHlo.TRef.binary (.of main_v100 : StableHlo.TRef sig ⟨S4096x64, .f32⟩) main_call4.v0 main_call4.v1 (cmpf .ogt),
    StableHlo.TRef.nullary main_call4.cst_0 (constant S_ .f32 0x00000000#32),
    StableHlo.TRef.unary main_call4.cst_0 main_call4.v2 (broadcastInDim S4096x64 ![] bcast_S_S4096x64),
    StableHlo.TRef.binary (.of main_v100 : StableHlo.TRef sig ⟨S4096x64, .f32⟩) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S4096x64 ![] bcast_S_S4096x64),
    StableHlo.TRef.ternary main_call4.v3 main_call4.call0.v1 (.of main_v100 : StableHlo.TRef sig ⟨S4096x64, .f32⟩) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S4096x64 ![] bcast_S_S4096x64),
    StableHlo.TRef.binary main_call4.v6 main_call4.v5 main_call4.v7 mulf,
    StableHlo.TRef.ternary main_call4.v1 (.of main_v100 : StableHlo.TRef sig ⟨S4096x64, .f32⟩) main_call4.v7 main_call4.call1.v0 select,
    StableHlo.binary main_v101 main_v75 main_v102 ((fun l r => Host.dotGeneral dot_S4096x64_S64x4000_S4096x4000_1_0_0_1_n_n none l r) : (⟨S4096x64, .f32⟩ : BufTy).Contents (Elt F) → (⟨S64x4000, .f32⟩ : BufTy).Contents (Elt F) → (⟨S4096x4000, .f32⟩ : BufTy).Contents (Elt F)),
    StableHlo.unary main_v77 main_v103 (broadcastInDim S1x4000 ![1] bcast_S4000_S1x4000_1 : (⟨S4000, .f32⟩ : BufTy).Contents (Elt F) → (⟨S1x4000, .f32⟩ : BufTy).Contents (Elt F)),
    StableHlo.unary main_v103 main_v104 (broadcastInDim S4096x4000 ![0, 1] bcast_S1x4000_S4096x4000_0_1 : (⟨S1x4000, .f32⟩ : BufTy).Contents (Elt F) → (⟨S4096x4000, .f32⟩ : BufTy).Contents (Elt F)),
    StableHlo.binary main_v102 main_v104 main_v105 (addf : (⟨S4096x4000, .f32⟩ : BufTy).Contents (Elt F) → (⟨S4096x4000, .f32⟩ : BufTy).Contents (Elt F) → (⟨S4096x4000, .f32⟩ : BufTy).Contents (Elt F)) ]
/-- The references they write, in order. -/
abbrev rseg1_d_W : List (Ref sig .tc) :=
  [main_v99, main_v100, main_call4.cst.ref, main_call4.v0.ref, main_call4.v1.ref, main_call4.cst_0.ref, main_call4.v2.ref, main_call4.v3.ref, main_call4.cst_1.ref, main_call4.call0.v0.ref, main_call4.call0.v1.ref, main_call4.call0.v2.ref, main_call4.v5.ref, main_call4.cst_2.ref, main_call4.v6.ref, main_call4.v7.ref, main_call4.call1.v0.ref, main_v102, main_v103, main_v104, main_v105]
set_option maxRecDepth 8192 in
/-- Each touches TensorCore references only. -/
theorem rseg1_d_sub : (rseg1_d : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub ..⟩
set_option maxRecDepth 8192 in
/-- None allocates a buffer. -/
theorem rseg1_d_fresh : (rseg1_d : List (HloOp τ sig (Elt F))).Forall fun op => op.fresh = ∅ := by
  simp only [List.Forall]; repeat' constructor
set_option maxRecDepth 8192 in
/-- Each writes inside the list. -/
theorem rseg1_d_writes : (rseg1_d : List (HloOp τ sig (Elt F))).Forall fun op => op.writes ⊆ (rseg1_d_W.map (Proc.devRef (τ := τ) .tc)).toFinset :=
  ⟨writes_sub_of_mem (y := main_v99) (by decide), writes_sub_of_mem (y := main_v100) (by decide), writes_sub_of_mem (y := main_call4.cst.ref) (by decide), writes_sub_of_mem (y := main_call4.v0.ref) (by decide), writes_sub_of_mem (y := main_call4.v1.ref) (by decide), writes_sub_of_mem (y := main_call4.cst_0.ref) (by decide), writes_sub_of_mem (y := main_call4.v2.ref) (by decide), writes_sub_of_mem (y := main_call4.v3.ref) (by decide), writes_sub_of_mem (y := main_call4.cst_1.ref) (by decide), writes_sub_of_mem (y := main_call4.call0.v0.ref) (by decide), writes_sub_of_mem (y := main_call4.call0.v1.ref) (by decide), writes_sub_of_mem (y := main_call4.call0.v2.ref) (by decide), writes_sub_of_mem (y := main_call4.v5.ref) (by decide), writes_sub_of_mem (y := main_call4.cst_2.ref) (by decide), writes_sub_of_mem (y := main_call4.v6.ref) (by decide), writes_sub_of_mem (y := main_call4.v7.ref) (by decide), writes_sub_of_mem (y := main_call4.call1.v0.ref) (by decide), writes_sub_of_mem (y := main_v102) (by decide), writes_sub_of_mem (y := main_v103) (by decide), writes_sub_of_mem (y := main_v104) (by decide), writes_sub_of_mem (y := main_v105) (by decide)⟩
set_option maxRecDepth 8192 in
/-- The list holds no argument: the operations leave the arguments alone. -/
theorem rseg1_d_keeps : KeepsArgs (F := F) rseg1_d := keepsArgs_of_writes rseg1_d_writes (by decide)

set_option maxHeartbeats 40000000 in
/-- Operations 181 … 220 of 1108 (segment 2, window 2 of @main). -/
abbrev rseg2_a : List (HloOp τ sig (Elt F)) :=
  [ StableHlo.nullary main_cst_19 (constant S_ .f32 0x00000000#32),
    StableHlo.unary main_cst_19 main_v106 (broadcastInDim S4096x1 ![] bcast_S_S4096x1 : (⟨S_, .f32⟩ : BufTy).Contents (Elt F) → (⟨S4096x1, .f32⟩ : BufTy).Contents (Elt F)),
    StableHlo.binary main_v105 main_v106 main_v107 ((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F)),
    StableHlo.TRef.nullary main_call5.c (constantI S_ 32 0#32),
    StableHlo.TRef.unary main_call5.c main_call5.v0 (broadcastInDim S4096x122 ![] bcast_S_S4096x122),
    StableHlo.TRef.binary (.of main_v69 : StableHlo.TRef sig ⟨S4096x122, .i32⟩) main_call5.v0 main_call5.v1 (cmpi .slt),
    StableHlo.TRef.nullary main_call5.c_0 (constantI S_ 32 4001#32),
    StableHlo.TRef.unary main_call5.c_0 main_call5.v2 (broadcastInDim S4096x122 ![] bcast_S_S4096x122),
    StableHlo.TRef.binary (.of main_v69 : StableHlo.TRef sig ⟨S4096x122, .i32⟩) main_call5.v2 main_call5.v3 addi,
    StableHlo.TRef.ternary main_call5.v1 main_call5.v3 (.of main_v69 : StableHlo.TRef sig ⟨S4096x122, .i32⟩) main_call5.v4 select,
    StableHlo.TRef.reshape main_call5.v4 main_call5.v5 rfl shapeCasts_S4096x122_S4096x122x1,
    StableHlo.TRef.nullary main_call5.c_1 (constantI S1 32 4000#32),
    StableHlo.TRef.nullary main_call5.c_2 (constantI S_ 32 0#32),
    StableHlo.TRef.unary main_call5.c_2 main_call5.v6 (broadcastInDim S4096x122x1 ![] bcast_S_S4096x122x1),
    StableHlo.TRef.binary main_call5.v5 main_call5.v6 main_call5.v7 (cmpi .sge),
    StableHlo.TRef.unary main_call5.c_1 main_call5.v8 (broadcastInDim S1x1x1 ![2] bcast_S1_S1x1x1_2),
    StableHlo.TRef.unary main_call5.v8 main_call5.v9 (broadcastInDim S4096x122x1 ![0, 1, 2] bcast_S1x1x1_S4096x122x1_0_1_2),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S4096x122x1_S4096x122_d2 h_S_),
    StableHlo.TRef.binary (.of main_v107 : StableHlo.TRef sig ⟨S4096x4001, .f32⟩) main_call5.v5 main_call5.v13 (fun x i => Host.gather gather_S4096x4001_S4096x122x1_S4096x122_n_1_0_0_1_2_11 x i),
    StableHlo.TRef.nullary main_call5.cst (constant S_ .f32 0x7FC00000#32),
    StableHlo.TRef.unary main_call5.cst main_call5.v14 (broadcastInDim S4096x122 ![] bcast_S_S4096x122),
    StableHlo.TRef.ternary main_call5.v12 main_call5.v13 main_call5.v14 main_call5.v15 select,
    StableHlo.unary main_v108 main_v109 ((extractStridedSlice S4096x61 ![0, 0] · slices_S4096x122_S4096x61_0_0) : (⟨S4096x122, .f32⟩ : BufTy).Contents (Elt F) → (⟨S4096x61, .f32⟩ : BufTy).Contents (Elt F)),
    StableHlo.unary main_v108 main_v110 ((extractStridedSlice S4096x61 ![0, 61] · slices_S4096x122_S4096x61_0_61) : (⟨S4096x122, .f32⟩ : BufTy).Contents (Elt F) → (⟨S4096x61, .f32⟩ : BufTy).Contents (Elt F)),
    StableHlo.nullary main_cst_20 (constant S_ .f32 0x40000000#32),
    StableHlo.unary main_cst_20 main_v111 (broadcastInDim S4096x61 ![] bcast_S_S4096x61 : (⟨S_, .f32⟩ : BufTy).Contents (Elt F) → (⟨S4096x61, .f32⟩ : BufTy).Contents (Elt F)),
    StableHlo.binary main_v109 main_v111 main_v112 (addf : (⟨S4096x61, .f32⟩ : BufTy).Contents (Elt F) → (⟨S4096x61, .f32⟩ : BufTy).Contents (Elt F) → (⟨S4096x61, .f32⟩ : BufTy).Contents (Elt F)),
    StableHlo.unary main_v112 main_v113 (Host.negf : (⟨S4096x61, .f32⟩ : BufTy).Contents (Elt F) → (⟨S4096x61, .f32⟩ : BufTy).Contents (Elt F)),
    StableHlo.unary main_v113 main_v114 (Host.exp : (⟨S4096x61, .f32⟩ : BufTy).Contents (Elt F) → (⟨S4096x61, .f32⟩ : BufTy).Contents (Elt F)),
    StableHlo.nullary main_cst_21 (constant S_ .f32 0x3F800000#32),
    StableHlo.unary main_cst_21 main_v115 (broadcastInDim S4096x61 ![] bcast_S_S4096x61 : (⟨S_, .f32⟩ : BufTy).Contents (Elt F) → (⟨S4096x61, .f32⟩ : BufTy).Contents (Elt F)),
    StableHlo.binary main_v115 main_v114 main_v116 (addf : (⟨S4096x61, .f32⟩ : BufTy).Contents (Elt F) → (⟨S4096x61, .f32⟩ : BufTy).Contents (Elt F) → (⟨S4096x61, .f32⟩ : BufTy).Contents (Elt F)),
    StableHlo.nullary main_cst_22 (constant S_ .f32 0x3F800000#32),
    StableHlo.unary main_cst_22 main_v117 (broadcastInDim S4096x61 ![] bcast_S_S4096x61 : (⟨S_, .f32⟩ : BufTy).Contents (Elt F) → (⟨S4096x61, .f32⟩ : BufTy).Contents (Elt F)),
    StableHlo.binary main_v117 main_v116 main_v118 (Host.divf : (⟨S4096x61, .f32⟩ : BufTy).Contents (Elt F) → (⟨S4096x61, .f32⟩ : BufTy).Contents (Elt F) → (⟨S4096x61, .f32⟩ : BufTy).Contents (Elt F)),
    StableHlo.binary main_v118 main_v1 main_v119 (mulf : (⟨S4096x61, .f32⟩ : BufTy).Contents (Elt F) → (⟨S4096x61, .f32⟩ : BufTy).Contents (Elt F) → (⟨S4096x61, .f32⟩ : BufTy).Contents (Elt F)),
    StableHlo.binary main_v119 main_v110 main_v120 (addf : (⟨S4096x61, .f32⟩ : BufTy).Contents (Elt F) → (⟨S4096x61, .f32⟩ : BufTy).Contents (Elt F) → (⟨S4096x61, .f32⟩ : BufTy).Contents (Elt F)) ]
/-- The references they write, in order. -/
abbrev rseg2_a_W : List (Ref sig .tc) :=
  [main_cst_19, main_v106, main_v107, main_call5.c.ref, main_call5.v0.ref, main_call5.v1.ref, main_call5.c_0.ref, main_call5.v2.ref, main_call5.v3.ref, main_call5.v4.ref, main_call5.v5.ref, main_call5.c_1.ref, main_call5.c_2.ref, main_call5.v6.ref, main_call5.v7.ref, main_call5.v8.ref, main_call5.v9.ref, main_call5.v10.ref, main_call5.v11.ref, main_call5.c_3.ref, main_call5.v12.ref, main_call5.v13.ref, main_call5.cst.ref, main_call5.v14.ref, main_call5.v15.ref, main_v109, main_v110, main_cst_20, main_v111, main_v112, main_v113, main_v114, main_cst_21, main_v115, main_v116, main_cst_22, main_v117, main_v118, main_v119, main_v120]
set_option maxRecDepth 8192 in
/-- Each touches TensorCore references only. -/
theorem rseg2_a_sub : (rseg2_a : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub ..⟩
set_option maxRecDepth 8192 in
/-- None allocates a buffer. -/
theorem rseg2_a_fresh : (rseg2_a : List (HloOp τ sig (Elt F))).Forall fun op => op.fresh = ∅ := by
  simp only [List.Forall]; repeat' constructor
set_option maxRecDepth 8192 in
/-- Each writes inside the list. -/
theorem rseg2_a_writes : (rseg2_a : List (HloOp τ sig (Elt F))).Forall fun op => op.writes ⊆ (rseg2_a_W.map (Proc.devRef (τ := τ) .tc)).toFinset :=
  ⟨writes_sub_of_mem (y := main_cst_19) (by decide), writes_sub_of_mem (y := main_v106) (by decide), writes_sub_of_mem (y := main_v107) (by decide), writes_sub_of_mem (y := main_call5.c.ref) (by decide), writes_sub_of_mem (y := main_call5.v0.ref) (by decide), writes_sub_of_mem (y := main_call5.v1.ref) (by decide), writes_sub_of_mem (y := main_call5.c_0.ref) (by decide), writes_sub_of_mem (y := main_call5.v2.ref) (by decide), writes_sub_of_mem (y := main_call5.v3.ref) (by decide), writes_sub_of_mem (y := main_call5.v4.ref) (by decide), writes_sub_of_mem (y := main_call5.v5.ref) (by decide), writes_sub_of_mem (y := main_call5.c_1.ref) (by decide), writes_sub_of_mem (y := main_call5.c_2.ref) (by decide), writes_sub_of_mem (y := main_call5.v6.ref) (by decide), writes_sub_of_mem (y := main_call5.v7.ref) (by decide), writes_sub_of_mem (y := main_call5.v8.ref) (by decide), writes_sub_of_mem (y := main_call5.v9.ref) (by decide), writes_sub_of_mem (y := main_call5.v10.ref) (by decide), writes_sub_of_mem (y := main_call5.v11.ref) (by decide), writes_sub_of_mem (y := main_call5.c_3.ref) (by decide), writes_sub_of_mem (y := main_call5.v12.ref) (by decide), writes_sub_of_mem (y := main_call5.v13.ref) (by decide), writes_sub_of_mem (y := main_call5.cst.ref) (by decide), writes_sub_of_mem (y := main_call5.v14.ref) (by decide), writes_sub_of_mem (y := main_call5.v15.ref) (by decide), writes_sub_of_mem (y := main_v109) (by decide), writes_sub_of_mem (y := main_v110) (by decide), writes_sub_of_mem (y := main_cst_20) (by decide), writes_sub_of_mem (y := main_v111) (by decide), writes_sub_of_mem (y := main_v112) (by decide), writes_sub_of_mem (y := main_v113) (by decide), writes_sub_of_mem (y := main_v114) (by decide), writes_sub_of_mem (y := main_cst_21) (by decide), writes_sub_of_mem (y := main_v115) (by decide), writes_sub_of_mem (y := main_v116) (by decide), writes_sub_of_mem (y := main_cst_22) (by decide), writes_sub_of_mem (y := main_v117) (by decide), writes_sub_of_mem (y := main_v118) (by decide), writes_sub_of_mem (y := main_v119) (by decide), writes_sub_of_mem (y := main_v120) (by decide)⟩
set_option maxRecDepth 8192 in
/-- The list holds no argument: the operations leave the arguments alone. -/
theorem rseg2_a_keeps : KeepsArgs (F := F) rseg2_a := keepsArgs_of_writes rseg2_a_writes (by decide)

set_option maxHeartbeats 40000000 in
/-- Operations 221 … 256 of 1108 (segment 2, window 2 of @main). -/
abbrev rseg2_b : List (HloOp τ sig (Elt F)) :=
  [ StableHlo.unary main_v118 main_v121 (Host.log : (⟨S4096x61, .f32⟩ : BufTy).Contents (Elt F) → (⟨S4096x61, .f32⟩ : BufTy).Contents (Elt F)),
    StableHlo.nullary main_cst_23 (constant S_ .f32 0x00000000#32),
    StableHlo.binary main_v121 main_cst_23 main_v122 ((fun x v => Host.reduceAdd x v reducesTo_S4096x61_S4096_d1 h_S_) : (⟨S4096x61, .f32⟩ : BufTy).Contents (Elt F) → (⟨S_, .f32⟩ : BufTy).Contents (Elt F) → (⟨S4096, .f32⟩ : BufTy).Contents (Elt F)),
    StableHlo.binary main_v63 main_v122 main_v123 (subf : (⟨S4096, .f32⟩ : BufTy).Contents (Elt F) → (⟨S4096, .f32⟩ : BufTy).Contents (Elt F) → (⟨S4096, .f32⟩ : BufTy).Contents (Elt F)),
    StableHlo.nullary main_c_24 (constantI S_ 32 2000#32),
    StableHlo.unary main_c_24 main_v124 (broadcastInDim S4096x64 ![] bcast_S_S4096x64 : (⟨S_, .i32⟩ : BufTy).Contents (Elt F) → (⟨S4096x64, .i32⟩ : BufTy).Contents (Elt F)),
    StableHlo.binary main_v2 main_v124 main_v125 (cmpi .eq : (⟨S4096x64, .i32⟩ : BufTy).Contents (Elt F) → (⟨S4096x64, .i32⟩ : BufTy).Contents (Elt F) → (⟨S4096x64, .i1⟩ : BufTy).Contents (Elt F)),
    StableHlo.nullary main_c_25 (constantI S_ 32 2000#32),
    StableHlo.unary main_c_25 main_v126 (broadcastInDim S4096x64 ![] bcast_S_S4096x64 : (⟨S_, .i32⟩ : BufTy).Contents (Elt F) → (⟨S4096x64, .i32⟩ : BufTy).Contents (Elt F)),
    StableHlo.binary main_v2 main_v126 main_v127 (addi : (⟨S4096x64, .i32⟩ : BufTy).Contents (Elt F) → (⟨S4096x64, .i32⟩ : BufTy).Contents (Elt F) → (⟨S4096x64, .i32⟩ : BufTy).Contents (Elt F)),
    StableHlo.nullary main_c_26 (constantI S_ 32 4000#32),
    StableHlo.TRef.unary (.of main_c_26 : StableHlo.TRef sig ⟨S_, .i32⟩) main_call6.v0 id,
    StableHlo.TRef.unary main_call6.v0 main_call6.v1 (broadcastInDim S4096x64 ![] bcast_S_S4096x64),
    StableHlo.TRef.ternary (.of main_v125 : StableHlo.TRef sig ⟨S4096x64, .i1⟩) main_call6.v1 (.of main_v127 : StableHlo.TRef sig ⟨S4096x64, .i32⟩) main_call6.v2 select,
    StableHlo.binary main_v2 main_v128 main_v129 ((fun a b => concatenate S4096x128 1 [⟨S4096x64, a⟩, ⟨S4096x64, b⟩] concatenates_S4096x64_S4096x64_S4096x128_d1) : (⟨S4096x64, .i32⟩ : BufTy).Contents (Elt F) → (⟨S4096x64, .i32⟩ : BufTy).Contents (Elt F) → (⟨S4096x128, .i32⟩ : BufTy).Contents (Elt F)),
    StableHlo.unary main_arg2 main_v130 ((extractStridedSlice S1x2000x64 ![2, 0, 0] · slices_S10x2000x64_S1x2000x64_2_0_0) : (⟨S10x2000x64, .f32⟩ : BufTy).Contents (Elt F) → (⟨S1x2000x64, .f32⟩ : BufTy).Contents (Elt F)),
    StableHlo.reshape main_v130 main_v131 rfl shapeCasts_S1x2000x64_S2000x64,
    StableHlo.unary main_arg3 main_v132 ((extractStridedSlice S1x64 ![2, 0] · slices_S10x64_S1x64_2_0) : (⟨S10x64, .f32⟩ : BufTy).Contents (Elt F) → (⟨S1x64, .f32⟩ : BufTy).Contents (Elt F)),
    StableHlo.reshape main_v132 main_v133 rfl shapeCasts_S1x64_S64,
    StableHlo.unary main_arg4 main_v134 ((extractStridedSlice S1x64x4000 ![2, 0, 0] · slices_S10x64x4000_S1x64x4000_2_0_0) : (⟨S10x64x4000, .f32⟩ : BufTy).Contents (Elt F) → (⟨S1x64x4000, .f32⟩ : BufTy).Contents (Elt F)),
    StableHlo.reshape main_v134 main_v135 rfl shapeCasts_S1x64x4000_S64x4000,
    StableHlo.unary main_arg5 main_v136 ((extractStridedSlice S1x4000 ![2, 0] · slices_S10x4000_S1x4000_2_0) : (⟨S10x4000, .f32⟩ : BufTy).Contents (Elt F) → (⟨S1x4000, .f32⟩ : BufTy).Contents (Elt F)),
    StableHlo.reshape main_v136 main_v137 rfl shapeCasts_S1x4000_S4000,
    StableHlo.nullary main_v138 (iotaInDim S4096 32 0),
    StableHlo.unary main_v138 main_v139 (broadcastInDim S4096x1 ![0] bcast_S4096_S4096x1_0 : (⟨S4096, .i32⟩ : BufTy).Contents (Elt F) → (⟨S4096x1, .i32⟩ : BufTy).Contents (Elt F)),
    StableHlo.nullary main_cst_27 (constant S_ .f32 0x00000000#32),
    StableHlo.unary main_cst_27 main_v140 (broadcastInDim S4096x2001 ![] bcast_S_S4096x2001 : (⟨S_, .f32⟩ : BufTy).Contents (Elt F) → (⟨S4096x2001, .f32⟩ : BufTy).Contents (Elt F)),
    StableHlo.nullary main_c_28 (constantI S_ 32 0#32),
    StableHlo.unary main_c_28 main_v141 (broadcastInDim S4096x1 ![] bcast_S_S4096x1 : (⟨S_, .i32⟩ : BufTy).Contents (Elt F) → (⟨S4096x1, .i32⟩ : BufTy).Contents (Elt F)),
    StableHlo.binary main_v139 main_v141 main_v142 (cmpi .slt : (⟨S4096x1, .i32⟩ : BufTy).Contents (Elt F) → (⟨S4096x1, .i32⟩ : BufTy).Contents (Elt F) → (⟨S4096x1, .i1⟩ : BufTy).Contents (Elt F)),
    StableHlo.nullary main_c_29 (constantI S_ 32 4096#32),
    StableHlo.unary main_c_29 main_v143 (broadcastInDim S4096x1 ![] bcast_S_S4096x1 : (⟨S_, .i32⟩ : BufTy).Contents (Elt F) → (⟨S4096x1, .i32⟩ : BufTy).Contents (Elt F)),
    StableHlo.binary main_v139 main_v143 main_v144 (addi : (⟨S4096x1, .i32⟩ : BufTy).Contents (Elt F) → (⟨S4096x1, .i32⟩ : BufTy).Contents (Elt F) → (⟨S4096x1, .i32⟩ : BufTy).Contents (Elt F)),
    StableHlo.ternary main_v142 main_v144 main_v139 main_v145 (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)),
    StableHlo.nullary main_c_30 (constantI S_ 32 0#32),
    StableHlo.unary main_c_30 main_v146 (broadcastInDim S4096x61 ![] bcast_S_S4096x61 : (⟨S_, .i32⟩ : BufTy).Contents (Elt F) → (⟨S4096x61, .i32⟩ : BufTy).Contents (Elt F)) ]
/-- The references they write, in order. -/
abbrev rseg2_b_W : List (Ref sig .tc) :=
  [main_v121, main_cst_23, main_v122, main_v123, main_c_24, main_v124, main_v125, main_c_25, main_v126, main_v127, main_c_26, main_call6.v0.ref, main_call6.v1.ref, main_call6.v2.ref, main_v129, main_v130, main_v131, main_v132, main_v133, main_v134, main_v135, main_v136, main_v137, main_v138, main_v139, main_cst_27, main_v140, main_c_28, main_v141, main_v142, main_c_29, main_v143, main_v144, main_v145, main_c_30, main_v146]
set_option maxRecDepth 8192 in
/-- Each touches TensorCore references only. -/
theorem rseg2_b_sub : (rseg2_b : List (HloOp τ sig (Elt F))).Forall fun op => op.bufs ⊆ tcRefs τ sig :=
  ⟨unary_bufs_sub .., nullary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub ..⟩
set_option maxRecDepth 8192 in
/-- None allocates a buffer. -/
theorem rseg2_b_fresh : (rseg2_b : List (HloOp τ sig (Elt F))).Forall fun op => op.fresh = ∅ := by
  simp only [List.Forall]; repeat' constructor
set_option maxRecDepth 8192 in
/-- Each writes inside the list. -/
theorem rseg2_b_writes : (rseg2_b : List (HloOp τ sig (Elt F))).Forall fun op => op.writes ⊆ (rseg2_b_W.map (Proc.devRef (τ := τ) .tc)).toFinset :=
  ⟨writes_sub_of_mem (y := main_v121) (by decide), writes_sub_of_mem (y := main_cst_23) (by decide), writes_sub_of_mem (y := main_v122) (by decide), writes_sub_of_mem (y := main_v123) (by decide), writes_sub_of_mem (y := main_c_24) (by decide), writes_sub_of_mem (y := main_v124) (by decide), writes_sub_of_mem (y := main_v125) (by decide), writes_sub_of_mem (y := main_c_25) (by decide), writes_sub_of_mem (y := main_v126) (by decide), writes_sub_of_mem (y := main_v127) (by decide), writes_sub_of_mem (y := main_c_26) (by decide), writes_sub_of_mem (y := main_call6.v0.ref) (by decide), writes_sub_of_mem (y := main_call6.v1.ref) (by decide), writes_sub_of_mem (y := main_call6.v2.ref) (by decide), writes_sub_of_mem (y := main_v129) (by decide), writes_sub_of_mem (y := main_v130) (by decide), writes_sub_of_mem (y := main_v131) (by decide), writes_sub_of_mem (y := main_v132) (by decide), writes_sub_of_mem (y := main_v133) (by decide), writes_sub_of_mem (y := main_v134) (by decide), writes_sub_of_mem (y := main_v135) (by decide), writes_sub_of_mem (y := main_v136) (by decide), writes_sub_of_mem (y := main_v137) (by decide), writes_sub_of_mem (y := main_v138) (by decide), writes_sub_of_mem (y := main_v139) (by decide), writes_sub_of_mem (y := main_cst_27) (by decide), writes_sub_of_mem (y := main_v140) (by decide), writes_sub_of_mem (y := main_c_28) (by decide), writes_sub_of_mem (y := main_v141) (by decide), writes_sub_of_mem (y := main_v142) (by decide), writes_sub_of_mem (y := main_c_29) (by decide), writes_sub_of_mem (y := main_v143) (by decide), writes_sub_of_mem (y := main_v144) (by decide), writes_sub_of_mem (y := main_v145) (by decide), writes_sub_of_mem (y := main_c_30) (by decide), writes_sub_of_mem (y := main_v146) (by decide)⟩
set_option maxRecDepth 8192 in
/-- The list holds no argument: the operations leave the arguments alone. -/
theorem rseg2_b_keeps : KeepsArgs (F := F) rseg2_b := keepsArgs_of_writes rseg2_b_writes (by decide)

set_option maxHeartbeats 40000000 in
/-- Operations 257 … 290 of 1108 (segment 2, window 3 of @main). -/
abbrev rseg2_c : List (HloOp τ sig (Elt F)) :=
  [ StableHlo.binary main_v3 main_v146 main_v147 (cmpi .slt : (⟨S4096x61, .i32⟩ : BufTy).Contents (Elt F) → (⟨S4096x61, .i32⟩ : BufTy).Contents (Elt F) → (⟨S4096x61, .i1⟩ : BufTy).Contents (Elt F)),
    StableHlo.nullary main_c_31 (constantI S_ 32 2001#32),
    StableHlo.unary main_c_31 main_v148 (broadcastInDim S4096x61 ![] bcast_S_S4096x61 : (⟨S_, .i32⟩ : BufTy).Contents (Elt F) → (⟨S4096x61, .i32⟩ : BufTy).Contents (Elt F)),
    StableHlo.binary main_v3 main_v148 main_v149 (addi : (⟨S4096x61, .i32⟩ : BufTy).Contents (Elt F) → (⟨S4096x61, .i32⟩ : BufTy).Contents (Elt F) → (⟨S4096x61, .i32⟩ : BufTy).Contents (Elt F)),
    StableHlo.ternary main_v147 main_v149 main_v3 main_v150 (select : (⟨S4096x61, .i1⟩ : BufTy).Contents (Elt F) → (⟨S4096x61, .i32⟩ : BufTy).Contents (Elt F) → (⟨S4096x61, .i32⟩ : BufTy).Contents (Elt F) → (⟨S4096x61, .i32⟩ : BufTy).Contents (Elt F)),
    StableHlo.unary main_v145 main_v151 (broadcastInDim S4096x61 ![0, 1] bcast_S4096x1_S4096x61_0_1 : (⟨S4096x1, .i32⟩ : BufTy).Contents (Elt F) → (⟨S4096x61, .i32⟩ : BufTy).Contents (Elt F)),
    StableHlo.unary main_v151 main_v152 (broadcastInDim S4096x61x1 ![0, 1] bcast_S4096x61_S4096x61x1_0_1 : (⟨S4096x61, .i32⟩ : BufTy).Contents (Elt F) → (⟨S4096x61x1, .i32⟩ : BufTy).Contents (Elt F)),
    StableHlo.unary main_v150 main_v153 (broadcastInDim S4096x61x1 ![0, 1] bcast_S4096x61_S4096x61x1_0_1 : (⟨S4096x61, .i32⟩ : BufTy).Contents (Elt F) → (⟨S4096x61x1, .i32⟩ : BufTy).Contents (Elt F)),
    StableHlo.binary main_v152 main_v153 main_v154 ((fun a b => concatenate S4096x61x2 2 [⟨S4096x61x1, a⟩, ⟨S4096x61x1, b⟩] concatenates_S4096x61x1_S4096x61x1_S4096x61x2_d2) : (⟨S4096x61x1, .i32⟩ : BufTy).Contents (Elt F) → (⟨S4096x61x1, .i32⟩ : BufTy).Contents (Elt F) → (⟨S4096x61x2, .i32⟩ : BufTy).Contents (Elt F)),
    StableHlo.ternary main_v140 main_v154 main_v120 main_v155 ((fun x i u => Host.scatterAdd scatter_S4096x2001_S4096x61x2_S4096x61_n_01_01_2 x i u) : (⟨S4096x2001, .f32⟩ : BufTy).Contents (Elt F) → (⟨S4096x61x2, .i32⟩ : BufTy).Contents (Elt F) → (⟨S4096x61, .f32⟩ : BufTy).Contents (Elt F) → (⟨S4096x2001, .f32⟩ : BufTy).Contents (Elt F)),
    StableHlo.unary main_v155 main_v156 ((extractStridedSlice S4096x2000 ![0, 0] · slices_S4096x2001_S4096x2000_0_0) : (⟨S4096x2001, .f32⟩ : BufTy).Contents (Elt F) → (⟨S4096x2000, .f32⟩ : BufTy).Contents (Elt F)),
    StableHlo.binary main_v156 main_v131 main_v157 ((fun l r => Host.dotGeneral dot_S4096x2000_S2000x64_S4096x64_1_0_0_1_n_n none l r) : (⟨S4096x2000, .f32⟩ : BufTy).Contents (Elt F) → (⟨S2000x64, .f32⟩ : BufTy).Contents (Elt F) → (⟨S4096x64, .f32⟩ : BufTy).Contents (Elt F)),
    StableHlo.unary main_v133 main_v158 (broadcastInDim S1x64 ![1] bcast_S64_S1x64_1 : (⟨S64, .f32⟩ : BufTy).Contents (Elt F) → (⟨S1x64, .f32⟩ : BufTy).Contents (Elt F)),
    StableHlo.unary main_v158 main_v159 (broadcastInDim S4096x64 ![0, 1] bcast_S1x64_S4096x64_0_1 : (⟨S1x64, .f32⟩ : BufTy).Contents (Elt F) → (⟨S4096x64, .f32⟩ : BufTy).Contents (Elt F)),
    StableHlo.binary main_v157 main_v159 main_v160 (addf : (⟨S4096x64, .f32⟩ : BufTy).Contents (Elt F) → (⟨S4096x64, .f32⟩ : BufTy).Contents (Elt F) → (⟨S4096x64, .f32⟩ : BufTy).Contents (Elt F)),
    StableHlo.TRef.nullary main_call7.cst (constant S_ .f32 0x00000000#32),
    StableHlo.TRef.unary main_call7.cst main_call7.v0 (broadcastInDim S4096x64 ![] bcast_S_S4096x64),
    StableHlo.TRef.binary (.of main_v160 : StableHlo.TRef sig ⟨S4096x64, .f32⟩) main_call7.v0 main_call7.v1 (cmpf .ogt),
    StableHlo.TRef.nullary main_call7.cst_0 (constant S_ .f32 0x00000000#32),
    StableHlo.TRef.unary main_call7.cst_0 main_call7.v2 (broadcastInDim S4096x64 ![] bcast_S_S4096x64),
    StableHlo.TRef.binary (.of main_v160 : StableHlo.TRef sig ⟨S4096x64, .f32⟩) main_call7.v2 main_call7.v3 (cmpf .ogt),
    StableHlo.TRef.nullary main_call7.cst_1 (constant S_ .f32 0x00000000#32),
    StableHlo.TRef.unary main_call7.cst_1 main_call7.call0.v0 id,
    StableHlo.TRef.unary main_call7.call0.v0 main_call7.call0.v1 (broadcastInDim S4096x64 ![] bcast_S_S4096x64),
    StableHlo.TRef.ternary main_call7.v3 main_call7.call0.v1 (.of main_v160 : StableHlo.TRef sig ⟨S4096x64, .f32⟩) main_call7.call0.v2 select,
    StableHlo.TRef.unary main_call7.call0.v2 main_call7.v5 Host.expm1,
    StableHlo.TRef.nullary main_call7.cst_2 (constant S_ .f32 0x3F800000#32),
    StableHlo.TRef.unary main_call7.cst_2 main_call7.v6 (broadcastInDim S4096x64 ![] bcast_S_S4096x64),
    StableHlo.TRef.binary main_call7.v6 main_call7.v5 main_call7.v7 mulf,
    StableHlo.TRef.ternary main_call7.v1 (.of main_v160 : StableHlo.TRef sig ⟨S4096x64, .f32⟩) main_call7.v7 main_call7.call1.v0 select,
    StableHlo.binary main_v161 main_v135 main_v162 ((fun l r => Host.dotGeneral dot_S4096x64_S64x4000_S4096x4000_1_0_0_1_n_n none l r) : (⟨S4096x64, .f32⟩ : BufTy).Contents (Elt F) → (⟨S64x4000, .f32⟩ : BufTy).Contents (Elt F) → (⟨S4096x4000, .f32⟩ : BufTy).Contents (Elt F)),
    StableHlo.unary main_v137 main_v163 (broadcastInDim S1x4000 ![1] bcast_S4000_S1x4000_1 : (⟨S4000, .f32⟩ : BufTy).Contents (Elt F) → (⟨S1x4000, .f32⟩ : BufTy).Contents (Elt F)),
    StableHlo.unary main_v163 main_v164 (broadcastInDim S4096x4000 ![0, 1] bcast_S1x4000_S4096x4000_0_1 : (⟨S1x4000, .f32⟩ : BufTy).Contents (Elt F) → (⟨S4096x4000, .f32⟩ : BufTy).Contents (Elt F)),
    StableHlo.binary main_v162 main_v164 main_v165 (addf : (⟨S4096x4000, .f32⟩ : BufTy).Contents (Elt F) → (⟨S4096x4000, .f32⟩ : BufTy).Contents (Elt F) → (⟨S4096x4000, .f32⟩ : BufTy).Contents (Elt F)) ]
/-- The references they write, in order. -/
abbrev rseg2_c_W : List (Ref sig .tc) :=
  [main_v147, main_c_31, main_v148, main_v149, main_v150, main_v151, main_v152, main_v153, main_v154, main_v155, main_v156, main_v157, main_v158, main_v159, main_v160, main_call7.cst.ref, main_call7.v0.ref, main_call7.v1.ref, main_call7.cst_0.ref, main_call7.v2.ref, main_call7.v3.ref, main_call7.cst_1.ref, main_call7.call0.v0.ref, main_call7.call0.v1.ref, main_call7.call0.v2.ref, main_call7.v5.ref, main_call7.cst_2.ref, main_call7.v6.ref, main_call7.v7.ref, main_call7.call1.v0.ref, main_v162, main_v163, main_v164, main_v165]
set_option maxRecDepth 8192 in
/-- Each touches TensorCore references only. -/
theorem rseg2_c_sub : (rseg2_c : List (HloOp τ sig (Elt F))).Forall fun op => op.bufs ⊆ tcRefs τ sig :=
  ⟨binary_bufs_sub .., nullary_bufs_sub .., unary_bufs_sub .., binary_bufs_sub .., ternary_bufs_sub .., unary_bufs_sub .., unary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub ..⟩
set_option maxRecDepth 8192 in
/-- None allocates a buffer. -/
theorem rseg2_c_fresh : (rseg2_c : List (HloOp τ sig (Elt F))).Forall fun op => op.fresh = ∅ := by
  simp only [List.Forall]; repeat' constructor
set_option maxRecDepth 8192 in
/-- Each writes inside the list. -/
theorem rseg2_c_writes : (rseg2_c : List (HloOp τ sig (Elt F))).Forall fun op => op.writes ⊆ (rseg2_c_W.map (Proc.devRef (τ := τ) .tc)).toFinset :=
  ⟨writes_sub_of_mem (y := main_v147) (by decide), writes_sub_of_mem (y := main_c_31) (by decide), writes_sub_of_mem (y := main_v148) (by decide), writes_sub_of_mem (y := main_v149) (by decide), writes_sub_of_mem (y := main_v150) (by decide), writes_sub_of_mem (y := main_v151) (by decide), writes_sub_of_mem (y := main_v152) (by decide), writes_sub_of_mem (y := main_v153) (by decide), writes_sub_of_mem (y := main_v154) (by decide), writes_sub_of_mem (y := main_v155) (by decide), writes_sub_of_mem (y := main_v156) (by decide), writes_sub_of_mem (y := main_v157) (by decide), writes_sub_of_mem (y := main_v158) (by decide), writes_sub_of_mem (y := main_v159) (by decide), writes_sub_of_mem (y := main_v160) (by decide), writes_sub_of_mem (y := main_call7.cst.ref) (by decide), writes_sub_of_mem (y := main_call7.v0.ref) (by decide), writes_sub_of_mem (y := main_call7.v1.ref) (by decide), writes_sub_of_mem (y := main_call7.cst_0.ref) (by decide), writes_sub_of_mem (y := main_call7.v2.ref) (by decide), writes_sub_of_mem (y := main_call7.v3.ref) (by decide), writes_sub_of_mem (y := main_call7.cst_1.ref) (by decide), writes_sub_of_mem (y := main_call7.call0.v0.ref) (by decide), writes_sub_of_mem (y := main_call7.call0.v1.ref) (by decide), writes_sub_of_mem (y := main_call7.call0.v2.ref) (by decide), writes_sub_of_mem (y := main_call7.v5.ref) (by decide), writes_sub_of_mem (y := main_call7.cst_2.ref) (by decide), writes_sub_of_mem (y := main_call7.v6.ref) (by decide), writes_sub_of_mem (y := main_call7.v7.ref) (by decide), writes_sub_of_mem (y := main_call7.call1.v0.ref) (by decide), writes_sub_of_mem (y := main_v162) (by decide), writes_sub_of_mem (y := main_v163) (by decide), writes_sub_of_mem (y := main_v164) (by decide), writes_sub_of_mem (y := main_v165) (by decide)⟩
set_option maxRecDepth 8192 in
/-- The list holds no argument: the operations leave the arguments alone. -/
theorem rseg2_c_keeps : KeepsArgs (F := F) rseg2_c := keepsArgs_of_writes rseg2_c_writes (by decide)

set_option maxHeartbeats 40000000 in
/-- Operations 291 … 330 of 1108 (segment 3, window 3 of @main). -/
abbrev rseg3_a : List (HloOp τ sig (Elt F)) :=
  [ StableHlo.nullary main_cst_32 (constant S_ .f32 0x00000000#32),
    StableHlo.unary main_cst_32 main_v166 (broadcastInDim S4096x1 ![] bcast_S_S4096x1 : (⟨S_, .f32⟩ : BufTy).Contents (Elt F) → (⟨S4096x1, .f32⟩ : BufTy).Contents (Elt F)),
    StableHlo.binary main_v165 main_v166 main_v167 ((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F)),
    StableHlo.TRef.nullary main_call8.c (constantI S_ 32 0#32),
    StableHlo.TRef.unary main_call8.c main_call8.v0 (broadcastInDim S4096x128 ![] bcast_S_S4096x128),
    StableHlo.TRef.binary (.of main_v129 : StableHlo.TRef sig ⟨S4096x128, .i32⟩) main_call8.v0 main_call8.v1 (cmpi .slt),
    StableHlo.TRef.nullary main_call8.c_0 (constantI S_ 32 4001#32),
    StableHlo.TRef.unary main_call8.c_0 main_call8.v2 (broadcastInDim S4096x128 ![] bcast_S_S4096x128),
    StableHlo.TRef.binary (.of main_v129 : StableHlo.TRef sig ⟨S4096x128, .i32⟩) main_call8.v2 main_call8.v3 addi,
    StableHlo.TRef.ternary main_call8.v1 main_call8.v3 (.of main_v129 : StableHlo.TRef sig ⟨S4096x128, .i32⟩) main_call8.v4 select,
    StableHlo.TRef.reshape main_call8.v4 main_call8.v5 rfl shapeCasts_S4096x128_S4096x128x1,
    StableHlo.TRef.nullary main_call8.c_1 (constantI S1 32 4000#32),
    StableHlo.TRef.nullary main_call8.c_2 (constantI S_ 32 0#32),
    StableHlo.TRef.unary main_call8.c_2 main_call8.v6 (broadcastInDim S4096x128x1 ![] bcast_S_S4096x128x1),
    StableHlo.TRef.binary main_call8.v5 main_call8.v6 main_call8.v7 (cmpi .sge),
    StableHlo.TRef.unary main_call8.c_1 main_call8.v8 (broadcastInDim S1x1x1 ![2] bcast_S1_S1x1x1_2),
    StableHlo.TRef.unary main_call8.v8 main_call8.v9 (broadcastInDim S4096x128x1 ![0, 1, 2] bcast_S1x1x1_S4096x128x1_0_1_2),
    StableHlo.TRef.binary main_call8.v5 main_call8.v9 main_call8.v10 (cmpi .sle),
    StableHlo.TRef.binary main_call8.v7 main_call8.v10 main_call8.v11 andi,
    StableHlo.TRef.nullary main_call8.c_3 (constantI S_ 1 1#1),
    StableHlo.TRef.binary main_call8.v11 main_call8.c_3 main_call8.v12 (fun x v => Host.reduce IntOp.andi x v reducesTo_S4096x128x1_S4096x128_d2 h_S_),
    StableHlo.TRef.binary (.of main_v167 : StableHlo.TRef sig ⟨S4096x4001, .f32⟩) main_call8.v5 main_call8.v13 (fun x i => Host.gather gather_S4096x4001_S4096x128x1_S4096x128_n_1_0_0_1_2_11 x i),
    StableHlo.TRef.nullary main_call8.cst (constant S_ .f32 0x7FC00000#32),
    StableHlo.TRef.unary main_call8.cst main_call8.v14 (broadcastInDim S4096x128 ![] bcast_S_S4096x128),
    StableHlo.TRef.ternary main_call8.v12 main_call8.v13 main_call8.v14 main_call8.v15 select,
    StableHlo.unary main_v168 main_v169 ((extractStridedSlice S4096x64 ![0, 0] · slices_S4096x128_S4096x64_0_0) : (⟨S4096x128, .f32⟩ : BufTy).Contents (Elt F) → (⟨S4096x64, .f32⟩ : BufTy).Contents (Elt F)),
    StableHlo.unary main_v168 main_v170 ((extractStridedSlice S4096x64 ![0, 64] · slices_S4096x128_S4096x64_0_64) : (⟨S4096x128, .f32⟩ : BufTy).Contents (Elt F) → (⟨S4096x64, .f32⟩ : BufTy).Contents (Elt F)),
    StableHlo.nullary main_cst_33 (constant S_ .f32 0x40000000#32),
    StableHlo.unary main_cst_33 main_v171 (broadcastInDim S4096x64 ![] bcast_S_S4096x64 : (⟨S_, .f32⟩ : BufTy).Contents (Elt F) → (⟨S4096x64, .f32⟩ : BufTy).Contents (Elt F)),
    StableHlo.binary main_v169 main_v171 main_v172 (addf : (⟨S4096x64, .f32⟩ : BufTy).Contents (Elt F) → (⟨S4096x64, .f32⟩ : BufTy).Contents (Elt F) → (⟨S4096x64, .f32⟩ : BufTy).Contents (Elt F)),
    StableHlo.unary main_v172 main_v173 (Host.negf : (⟨S4096x64, .f32⟩ : BufTy).Contents (Elt F) → (⟨S4096x64, .f32⟩ : BufTy).Contents (Elt F)),
    StableHlo.unary main_v173 main_v174 (Host.exp : (⟨S4096x64, .f32⟩ : BufTy).Contents (Elt F) → (⟨S4096x64, .f32⟩ : BufTy).Contents (Elt F)),
    StableHlo.nullary main_cst_34 (constant S_ .f32 0x3F800000#32),
    StableHlo.unary main_cst_34 main_v175 (broadcastInDim S4096x64 ![] bcast_S_S4096x64 : (⟨S_, .f32⟩ : BufTy).Contents (Elt F) → (⟨S4096x64, .f32⟩ : BufTy).Contents (Elt F)),
    StableHlo.binary main_v175 main_v174 main_v176 (addf : (⟨S4096x64, .f32⟩ : BufTy).Contents (Elt F) → (⟨S4096x64, .f32⟩ : BufTy).Contents (Elt F) → (⟨S4096x64, .f32⟩ : BufTy).Contents (Elt F)),
    StableHlo.nullary main_cst_35 (constant S_ .f32 0x3F800000#32),
    StableHlo.unary main_cst_35 main_v177 (broadcastInDim S4096x64 ![] bcast_S_S4096x64 : (⟨S_, .f32⟩ : BufTy).Contents (Elt F) → (⟨S4096x64, .f32⟩ : BufTy).Contents (Elt F)),
    StableHlo.binary main_v177 main_v176 main_v178 (Host.divf : (⟨S4096x64, .f32⟩ : BufTy).Contents (Elt F) → (⟨S4096x64, .f32⟩ : BufTy).Contents (Elt F) → (⟨S4096x64, .f32⟩ : BufTy).Contents (Elt F)),
    StableHlo.binary main_v178 main_v60 main_v179 (mulf : (⟨S4096x64, .f32⟩ : BufTy).Contents (Elt F) → (⟨S4096x64, .f32⟩ : BufTy).Contents (Elt F) → (⟨S4096x64, .f32⟩ : BufTy).Contents (Elt F)),
    StableHlo.binary main_v179 main_v170 main_v180 (addf : (⟨S4096x64, .f32⟩ : BufTy).Contents (Elt F) → (⟨S4096x64, .f32⟩ : BufTy).Contents (Elt F) → (⟨S4096x64, .f32⟩ : BufTy).Contents (Elt F)) ]
/-- The references they write, in order. -/
abbrev rseg3_a_W : List (Ref sig .tc) :=
  [main_cst_32, main_v166, main_v167, main_call8.c.ref, main_call8.v0.ref, main_call8.v1.ref, main_call8.c_0.ref, main_call8.v2.ref, main_call8.v3.ref, main_call8.v4.ref, main_call8.v5.ref, main_call8.c_1.ref, main_call8.c_2.ref, main_call8.v6.ref, main_call8.v7.ref, main_call8.v8.ref, main_call8.v9.ref, main_call8.v10.ref, main_call8.v11.ref, main_call8.c_3.ref, main_call8.v12.ref, main_call8.v13.ref, main_call8.cst.ref, main_call8.v14.ref, main_call8.v15.ref, main_v169, main_v170, main_cst_33, main_v171, main_v172, main_v173, main_v174, main_cst_34, main_v175, main_v176, main_cst_35, main_v177, main_v178, main_v179, main_v180]
set_option maxRecDepth 8192 in
/-- Each touches TensorCore references only. -/
theorem rseg3_a_sub : (rseg3_a : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub ..⟩
set_option maxRecDepth 8192 in
/-- None allocates a buffer. -/
theorem rseg3_a_fresh : (rseg3_a : List (HloOp τ sig (Elt F))).Forall fun op => op.fresh = ∅ := by
  simp only [List.Forall]; repeat' constructor
set_option maxRecDepth 8192 in
/-- Each writes inside the list. -/
theorem rseg3_a_writes : (rseg3_a : List (HloOp τ sig (Elt F))).Forall fun op => op.writes ⊆ (rseg3_a_W.map (Proc.devRef (τ := τ) .tc)).toFinset :=
  ⟨writes_sub_of_mem (y := main_cst_32) (by decide), writes_sub_of_mem (y := main_v166) (by decide), writes_sub_of_mem (y := main_v167) (by decide), writes_sub_of_mem (y := main_call8.c.ref) (by decide), writes_sub_of_mem (y := main_call8.v0.ref) (by decide), writes_sub_of_mem (y := main_call8.v1.ref) (by decide), writes_sub_of_mem (y := main_call8.c_0.ref) (by decide), writes_sub_of_mem (y := main_call8.v2.ref) (by decide), writes_sub_of_mem (y := main_call8.v3.ref) (by decide), writes_sub_of_mem (y := main_call8.v4.ref) (by decide), writes_sub_of_mem (y := main_call8.v5.ref) (by decide), writes_sub_of_mem (y := main_call8.c_1.ref) (by decide), writes_sub_of_mem (y := main_call8.c_2.ref) (by decide), writes_sub_of_mem (y := main_call8.v6.ref) (by decide), writes_sub_of_mem (y := main_call8.v7.ref) (by decide), writes_sub_of_mem (y := main_call8.v8.ref) (by decide), writes_sub_of_mem (y := main_call8.v9.ref) (by decide), writes_sub_of_mem (y := main_call8.v10.ref) (by decide), writes_sub_of_mem (y := main_call8.v11.ref) (by decide), writes_sub_of_mem (y := main_call8.c_3.ref) (by decide), writes_sub_of_mem (y := main_call8.v12.ref) (by decide), writes_sub_of_mem (y := main_call8.v13.ref) (by decide), writes_sub_of_mem (y := main_call8.cst.ref) (by decide), writes_sub_of_mem (y := main_call8.v14.ref) (by decide), writes_sub_of_mem (y := main_call8.v15.ref) (by decide), writes_sub_of_mem (y := main_v169) (by decide), writes_sub_of_mem (y := main_v170) (by decide), writes_sub_of_mem (y := main_cst_33) (by decide), writes_sub_of_mem (y := main_v171) (by decide), writes_sub_of_mem (y := main_v172) (by decide), writes_sub_of_mem (y := main_v173) (by decide), writes_sub_of_mem (y := main_v174) (by decide), writes_sub_of_mem (y := main_cst_34) (by decide), writes_sub_of_mem (y := main_v175) (by decide), writes_sub_of_mem (y := main_v176) (by decide), writes_sub_of_mem (y := main_cst_35) (by decide), writes_sub_of_mem (y := main_v177) (by decide), writes_sub_of_mem (y := main_v178) (by decide), writes_sub_of_mem (y := main_v179) (by decide), writes_sub_of_mem (y := main_v180) (by decide)⟩
set_option maxRecDepth 8192 in
/-- The list holds no argument: the operations leave the arguments alone. -/
theorem rseg3_a_keeps : KeepsArgs (F := F) rseg3_a := keepsArgs_of_writes rseg3_a_writes (by decide)

set_option maxHeartbeats 40000000 in
/-- Operations 331 … 353 of 1108 (segment 3, window 3 of @main). -/
abbrev rseg3_b : List (HloOp τ sig (Elt F)) :=
  [ StableHlo.unary main_v178 main_v181 (Host.log : (⟨S4096x64, .f32⟩ : BufTy).Contents (Elt F) → (⟨S4096x64, .f32⟩ : BufTy).Contents (Elt F)),
    StableHlo.nullary main_cst_36 (constant S_ .f32 0x00000000#32),
    StableHlo.binary main_v181 main_cst_36 main_v182 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    StableHlo.binary main_v123 main_v182 main_v183 (subf : (⟨S4096, .f32⟩ : BufTy).Contents (Elt F) → (⟨S4096, .f32⟩ : BufTy).Contents (Elt F) → (⟨S4096, .f32⟩ : BufTy).Contents (Elt F)),
    StableHlo.nullary main_c_37 (constantI S_ 32 2000#32),
    StableHlo.unary main_c_37 main_v184 (broadcastInDim S4096x61 ![] bcast_S_S4096x61 : (⟨S_, .i32⟩ : BufTy).Contents (Elt F) → (⟨S4096x61, .i32⟩ : BufTy).Contents (Elt F)),
    StableHlo.binary main_v3 main_v184 main_v185 (cmpi .eq : (⟨S4096x61, .i32⟩ : BufTy).Contents (Elt F) → (⟨S4096x61, .i32⟩ : BufTy).Contents (Elt F) → (⟨S4096x61, .i1⟩ : BufTy).Contents (Elt F)),
    StableHlo.nullary main_c_38 (constantI S_ 32 2000#32),
    StableHlo.unary main_c_38 main_v186 (broadcastInDim S4096x61 ![] bcast_S_S4096x61 : (⟨S_, .i32⟩ : BufTy).Contents (Elt F) → (⟨S4096x61, .i32⟩ : BufTy).Contents (Elt F)),
    StableHlo.binary main_v3 main_v186 main_v187 (addi : (⟨S4096x61, .i32⟩ : BufTy).Contents (Elt F) → (⟨S4096x61, .i32⟩ : BufTy).Contents (Elt F) → (⟨S4096x61, .i32⟩ : BufTy).Contents (Elt F)),
    StableHlo.nullary main_c_39 (constantI S_ 32 4000#32),
    StableHlo.TRef.unary (.of main_c_39 : StableHlo.TRef sig ⟨S_, .i32⟩) main_call9.v0 id,
    StableHlo.TRef.unary main_call9.v0 main_call9.v1 (broadcastInDim S4096x61 ![] bcast_S_S4096x61),
    StableHlo.TRef.ternary (.of main_v185 : StableHlo.TRef sig ⟨S4096x61, .i1⟩) main_call9.v1 (.of main_v187 : StableHlo.TRef sig ⟨S4096x61, .i32⟩) main_call9.v2 select,
    StableHlo.binary main_v3 main_v188 main_v189 ((fun a b => concatenate S4096x122 1 [⟨S4096x61, a⟩, ⟨S4096x61, b⟩] concatenates_S4096x61_S4096x61_S4096x122_d1) : (⟨S4096x61, .i32⟩ : BufTy).Contents (Elt F) → (⟨S4096x61, .i32⟩ : BufTy).Contents (Elt F) → (⟨S4096x122, .i32⟩ : BufTy).Contents (Elt F)),
    StableHlo.unary main_arg2 main_v190 ((extractStridedSlice S1x2000x64 ![3, 0, 0] · slices_S10x2000x64_S1x2000x64_3_0_0) : (⟨S10x2000x64, .f32⟩ : BufTy).Contents (Elt F) → (⟨S1x2000x64, .f32⟩ : BufTy).Contents (Elt F)),
    StableHlo.reshape main_v190 main_v191 rfl shapeCasts_S1x2000x64_S2000x64,
    StableHlo.unary main_arg3 main_v192 ((extractStridedSlice S1x64 ![3, 0] · slices_S10x64_S1x64_3_0) : (⟨S10x64, .f32⟩ : BufTy).Contents (Elt F) → (⟨S1x64, .f32⟩ : BufTy).Contents (Elt F)),
    StableHlo.reshape main_v192 main_v193 rfl shapeCasts_S1x64_S64,
    StableHlo.unary main_arg4 main_v194 ((extractStridedSlice S1x64x4000 ![3, 0, 0] · slices_S10x64x4000_S1x64x4000_3_0_0) : (⟨S10x64x4000, .f32⟩ : BufTy).Contents (Elt F) → (⟨S1x64x4000, .f32⟩ : BufTy).Contents (Elt F)),
    StableHlo.reshape main_v194 main_v195 rfl shapeCasts_S1x64x4000_S64x4000,
    StableHlo.unary main_arg5 main_v196 ((extractStridedSlice S1x4000 ![3, 0] · slices_S10x4000_S1x4000_3_0) : (⟨S10x4000, .f32⟩ : BufTy).Contents (Elt F) → (⟨S1x4000, .f32⟩ : BufTy).Contents (Elt F)),
    StableHlo.reshape main_v196 main_v197 rfl shapeCasts_S1x4000_S4000 ]
/-- The references they write, in order. -/
abbrev rseg3_b_W : List (Ref sig .tc) :=
  [main_v181, main_cst_36, main_v182, main_v183, main_c_37, main_v184, main_v185, main_c_38, main_v186, main_v187, main_c_39, main_call9.v0.ref, main_call9.v1.ref, main_call9.v2.ref, main_v189, main_v190, main_v191, main_v192, main_v193, main_v194, main_v195, main_v196, main_v197]
set_option maxRecDepth 8192 in
/-- Each touches TensorCore references only. -/
theorem rseg3_b_sub : (rseg3_b : List (HloOp τ sig (Elt F))).Forall fun op => op.bufs ⊆ tcRefs τ sig :=
  ⟨unary_bufs_sub .., nullary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., binary_bufs_sub .., unary_bufs_sub .., reshape_bufs_sub .., unary_bufs_sub .., reshape_bufs_sub .., unary_bufs_sub .., reshape_bufs_sub .., unary_bufs_sub .., reshape_bufs_sub ..⟩
set_option maxRecDepth 8192 in
/-- None allocates a buffer. -/
theorem rseg3_b_fresh : (rseg3_b : List (HloOp τ sig (Elt F))).Forall fun op => op.fresh = ∅ := by
  simp only [List.Forall]; repeat' constructor
set_option maxRecDepth 8192 in
/-- Each writes inside the list. -/
theorem rseg3_b_writes : (rseg3_b : List (HloOp τ sig (Elt F))).Forall fun op => op.writes ⊆ (rseg3_b_W.map (Proc.devRef (τ := τ) .tc)).toFinset :=
  ⟨writes_sub_of_mem (y := main_v181) (by decide), writes_sub_of_mem (y := main_cst_36) (by decide), writes_sub_of_mem (y := main_v182) (by decide), writes_sub_of_mem (y := main_v183) (by decide), writes_sub_of_mem (y := main_c_37) (by decide), writes_sub_of_mem (y := main_v184) (by decide), writes_sub_of_mem (y := main_v185) (by decide), writes_sub_of_mem (y := main_c_38) (by decide), writes_sub_of_mem (y := main_v186) (by decide), writes_sub_of_mem (y := main_v187) (by decide), writes_sub_of_mem (y := main_c_39) (by decide), writes_sub_of_mem (y := main_call9.v0.ref) (by decide), writes_sub_of_mem (y := main_call9.v1.ref) (by decide), writes_sub_of_mem (y := main_call9.v2.ref) (by decide), writes_sub_of_mem (y := main_v189) (by decide), writes_sub_of_mem (y := main_v190) (by decide), writes_sub_of_mem (y := main_v191) (by decide), writes_sub_of_mem (y := main_v192) (by decide), writes_sub_of_mem (y := main_v193) (by decide), writes_sub_of_mem (y := main_v194) (by decide), writes_sub_of_mem (y := main_v195) (by decide), writes_sub_of_mem (y := main_v196) (by decide), writes_sub_of_mem (y := main_v197) (by decide)⟩
set_option maxRecDepth 8192 in
/-- The list holds no argument: the operations leave the arguments alone. -/
theorem rseg3_b_keeps : KeepsArgs (F := F) rseg3_b := keepsArgs_of_writes rseg3_b_writes (by decide)

set_option maxHeartbeats 40000000 in
/-- Operations 354 … 393 of 1108 (segment 3, window 4 of @main). -/
abbrev rseg3_c : List (HloOp τ sig (Elt F)) :=
  [ StableHlo.nullary main_v198 (iotaInDim S4096 32 0),
    StableHlo.unary main_v198 main_v199 (broadcastInDim S4096x1 ![0] bcast_S4096_S4096x1_0 : (⟨S4096, .i32⟩ : BufTy).Contents (Elt F) → (⟨S4096x1, .i32⟩ : BufTy).Contents (Elt F)),
    StableHlo.nullary main_cst_40 (constant S_ .f32 0x00000000#32),
    StableHlo.unary main_cst_40 main_v200 (broadcastInDim S4096x2001 ![] bcast_S_S4096x2001 : (⟨S_, .f32⟩ : BufTy).Contents (Elt F) → (⟨S4096x2001, .f32⟩ : BufTy).Contents (Elt F)),
    StableHlo.nullary main_c_41 (constantI S_ 32 0#32),
    StableHlo.unary main_c_41 main_v201 (broadcastInDim S4096x1 ![] bcast_S_S4096x1 : (⟨S_, .i32⟩ : BufTy).Contents (Elt F) → (⟨S4096x1, .i32⟩ : BufTy).Contents (Elt F)),
    StableHlo.binary main_v199 main_v201 main_v202 (cmpi .slt : (⟨S4096x1, .i32⟩ : BufTy).Contents (Elt F) → (⟨S4096x1, .i32⟩ : BufTy).Contents (Elt F) → (⟨S4096x1, .i1⟩ : BufTy).Contents (Elt F)),
    StableHlo.nullary main_c_42 (constantI S_ 32 4096#32),
    StableHlo.unary main_c_42 main_v203 (broadcastInDim S4096x1 ![] bcast_S_S4096x1 : (⟨S_, .i32⟩ : BufTy).Contents (Elt F) → (⟨S4096x1, .i32⟩ : BufTy).Contents (Elt F)),
    StableHlo.binary main_v199 main_v203 main_v204 (addi : (⟨S4096x1, .i32⟩ : BufTy).Contents (Elt F) → (⟨S4096x1, .i32⟩ : BufTy).Contents (Elt F) → (⟨S4096x1, .i32⟩ : BufTy).Contents (Elt F)),
    StableHlo.ternary main_v202 main_v204 main_v199 main_v205 (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)),
    StableHlo.nullary main_c_43 (constantI S_ 32 0#32),
    StableHlo.unary main_c_43 main_v206 (broadcastInDim S4096x64 ![] bcast_S_S4096x64 : (⟨S_, .i32⟩ : BufTy).Contents (Elt F) → (⟨S4096x64, .i32⟩ : BufTy).Contents (Elt F)),
    StableHlo.binary main_v2 main_v206 main_v207 (cmpi .slt : (⟨S4096x64, .i32⟩ : BufTy).Contents (Elt F) → (⟨S4096x64, .i32⟩ : BufTy).Contents (Elt F) → (⟨S4096x64, .i1⟩ : BufTy).Contents (Elt F)),
    StableHlo.nullary main_c_44 (constantI S_ 32 2001#32),
    StableHlo.unary main_c_44 main_v208 (broadcastInDim S4096x64 ![] bcast_S_S4096x64 : (⟨S_, .i32⟩ : BufTy).Contents (Elt F) → (⟨S4096x64, .i32⟩ : BufTy).Contents (Elt F)),
    StableHlo.binary main_v2 main_v208 main_v209 (addi : (⟨S4096x64, .i32⟩ : BufTy).Contents (Elt F) → (⟨S4096x64, .i32⟩ : BufTy).Contents (Elt F) → (⟨S4096x64, .i32⟩ : BufTy).Contents (Elt F)),
    StableHlo.ternary main_v207 main_v209 main_v2 main_v210 (select : (⟨S4096x64, .i1⟩ : BufTy).Contents (Elt F) → (⟨S4096x64, .i32⟩ : BufTy).Contents (Elt F) → (⟨S4096x64, .i32⟩ : BufTy).Contents (Elt F) → (⟨S4096x64, .i32⟩ : BufTy).Contents (Elt F)),
    StableHlo.unary main_v205 main_v211 (broadcastInDim S4096x64 ![0, 1] bcast_S4096x1_S4096x64_0_1 : (⟨S4096x1, .i32⟩ : BufTy).Contents (Elt F) → (⟨S4096x64, .i32⟩ : BufTy).Contents (Elt F)),
    StableHlo.unary main_v211 main_v212 (broadcastInDim S4096x64x1 ![0, 1] bcast_S4096x64_S4096x64x1_0_1 : (⟨S4096x64, .i32⟩ : BufTy).Contents (Elt F) → (⟨S4096x64x1, .i32⟩ : BufTy).Contents (Elt F)),
    StableHlo.unary main_v210 main_v213 (broadcastInDim S4096x64x1 ![0, 1] bcast_S4096x64_S4096x64x1_0_1 : (⟨S4096x64, .i32⟩ : BufTy).Contents (Elt F) → (⟨S4096x64x1, .i32⟩ : BufTy).Contents (Elt F)),
    StableHlo.binary main_v212 main_v213 main_v214 ((fun a b => concatenate S4096x64x2 2 [⟨S4096x64x1, a⟩, ⟨S4096x64x1, b⟩] concatenates_S4096x64x1_S4096x64x1_S4096x64x2_d2) : (⟨S4096x64x1, .i32⟩ : BufTy).Contents (Elt F) → (⟨S4096x64x1, .i32⟩ : BufTy).Contents (Elt F) → (⟨S4096x64x2, .i32⟩ : BufTy).Contents (Elt F)),
    StableHlo.ternary main_v200 main_v214 main_v180 main_v215 ((fun x i u => Host.scatterAdd scatter_S4096x2001_S4096x64x2_S4096x64_n_01_01_2 x i u) : (⟨S4096x2001, .f32⟩ : BufTy).Contents (Elt F) → (⟨S4096x64x2, .i32⟩ : BufTy).Contents (Elt F) → (⟨S4096x64, .f32⟩ : BufTy).Contents (Elt F) → (⟨S4096x2001, .f32⟩ : BufTy).Contents (Elt F)),
    StableHlo.unary main_v215 main_v216 ((extractStridedSlice S4096x2000 ![0, 0] · slices_S4096x2001_S4096x2000_0_0) : (⟨S4096x2001, .f32⟩ : BufTy).Contents (Elt F) → (⟨S4096x2000, .f32⟩ : BufTy).Contents (Elt F)),
    StableHlo.binary main_v216 main_v191 main_v217 ((fun l r => Host.dotGeneral dot_S4096x2000_S2000x64_S4096x64_1_0_0_1_n_n none l r) : (⟨S4096x2000, .f32⟩ : BufTy).Contents (Elt F) → (⟨S2000x64, .f32⟩ : BufTy).Contents (Elt F) → (⟨S4096x64, .f32⟩ : BufTy).Contents (Elt F)),
    StableHlo.unary main_v193 main_v218 (broadcastInDim S1x64 ![1] bcast_S64_S1x64_1 : (⟨S64, .f32⟩ : BufTy).Contents (Elt F) → (⟨S1x64, .f32⟩ : BufTy).Contents (Elt F)),
    StableHlo.unary main_v218 main_v219 (broadcastInDim S4096x64 ![0, 1] bcast_S1x64_S4096x64_0_1 : (⟨S1x64, .f32⟩ : BufTy).Contents (Elt F) → (⟨S4096x64, .f32⟩ : BufTy).Contents (Elt F)),
    StableHlo.binary main_v217 main_v219 main_v220 (addf : (⟨S4096x64, .f32⟩ : BufTy).Contents (Elt F) → (⟨S4096x64, .f32⟩ : BufTy).Contents (Elt F) → (⟨S4096x64, .f32⟩ : BufTy).Contents (Elt F)),
    StableHlo.TRef.nullary main_call10.cst (constant S_ .f32 0x00000000#32),
    StableHlo.TRef.unary main_call10.cst main_call10.v0 (broadcastInDim S4096x64 ![] bcast_S_S4096x64),
    StableHlo.TRef.binary (.of main_v220 : StableHlo.TRef sig ⟨S4096x64, .f32⟩) main_call10.v0 main_call10.v1 (cmpf .ogt),
    StableHlo.TRef.nullary main_call10.cst_0 (constant S_ .f32 0x00000000#32),
    StableHlo.TRef.unary main_call10.cst_0 main_call10.v2 (broadcastInDim S4096x64 ![] bcast_S_S4096x64),
    StableHlo.TRef.binary (.of main_v220 : StableHlo.TRef sig ⟨S4096x64, .f32⟩) main_call10.v2 main_call10.v3 (cmpf .ogt),
    StableHlo.TRef.nullary main_call10.cst_1 (constant S_ .f32 0x00000000#32),
    StableHlo.TRef.unary main_call10.cst_1 main_call10.call0.v0 id,
    StableHlo.TRef.unary main_call10.call0.v0 main_call10.call0.v1 (broadcastInDim S4096x64 ![] bcast_S_S4096x64),
    StableHlo.TRef.ternary main_call10.v3 main_call10.call0.v1 (.of main_v220 : StableHlo.TRef sig ⟨S4096x64, .f32⟩) main_call10.call0.v2 select,
    StableHlo.TRef.unary main_call10.call0.v2 main_call10.v5 Host.expm1,
    StableHlo.TRef.nullary main_call10.cst_2 (constant S_ .f32 0x3F800000#32) ]
/-- The references they write, in order. -/
abbrev rseg3_c_W : List (Ref sig .tc) :=
  [main_v198, main_v199, main_cst_40, main_v200, main_c_41, main_v201, main_v202, main_c_42, main_v203, main_v204, main_v205, main_c_43, main_v206, main_v207, main_c_44, main_v208, main_v209, main_v210, main_v211, main_v212, main_v213, main_v214, main_v215, main_v216, main_v217, main_v218, main_v219, main_v220, main_call10.cst.ref, main_call10.v0.ref, main_call10.v1.ref, main_call10.cst_0.ref, main_call10.v2.ref, main_call10.v3.ref, main_call10.cst_1.ref, main_call10.call0.v0.ref, main_call10.call0.v1.ref, main_call10.call0.v2.ref, main_call10.v5.ref, main_call10.cst_2.ref]
set_option maxRecDepth 8192 in
/-- Each touches TensorCore references only. -/
theorem rseg3_c_sub : (rseg3_c : List (HloOp τ sig (Elt F))).Forall fun op => op.bufs ⊆ tcRefs τ sig :=
  ⟨nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub ..⟩
set_option maxRecDepth 8192 in
/-- None allocates a buffer. -/
theorem rseg3_c_fresh : (rseg3_c : List (HloOp τ sig (Elt F))).Forall fun op => op.fresh = ∅ := by
  simp only [List.Forall]; repeat' constructor
set_option maxRecDepth 8192 in
/-- Each writes inside the list. -/
theorem rseg3_c_writes : (rseg3_c : List (HloOp τ sig (Elt F))).Forall fun op => op.writes ⊆ (rseg3_c_W.map (Proc.devRef (τ := τ) .tc)).toFinset :=
  ⟨writes_sub_of_mem (y := main_v198) (by decide), writes_sub_of_mem (y := main_v199) (by decide), writes_sub_of_mem (y := main_cst_40) (by decide), writes_sub_of_mem (y := main_v200) (by decide), writes_sub_of_mem (y := main_c_41) (by decide), writes_sub_of_mem (y := main_v201) (by decide), writes_sub_of_mem (y := main_v202) (by decide), writes_sub_of_mem (y := main_c_42) (by decide), writes_sub_of_mem (y := main_v203) (by decide), writes_sub_of_mem (y := main_v204) (by decide), writes_sub_of_mem (y := main_v205) (by decide), writes_sub_of_mem (y := main_c_43) (by decide), writes_sub_of_mem (y := main_v206) (by decide), writes_sub_of_mem (y := main_v207) (by decide), writes_sub_of_mem (y := main_c_44) (by decide), writes_sub_of_mem (y := main_v208) (by decide), writes_sub_of_mem (y := main_v209) (by decide), writes_sub_of_mem (y := main_v210) (by decide), writes_sub_of_mem (y := main_v211) (by decide), writes_sub_of_mem (y := main_v212) (by decide), writes_sub_of_mem (y := main_v213) (by decide), writes_sub_of_mem (y := main_v214) (by decide), writes_sub_of_mem (y := main_v215) (by decide), writes_sub_of_mem (y := main_v216) (by decide), writes_sub_of_mem (y := main_v217) (by decide), writes_sub_of_mem (y := main_v218) (by decide), writes_sub_of_mem (y := main_v219) (by decide), writes_sub_of_mem (y := main_v220) (by decide), writes_sub_of_mem (y := main_call10.cst.ref) (by decide), writes_sub_of_mem (y := main_call10.v0.ref) (by decide), writes_sub_of_mem (y := main_call10.v1.ref) (by decide), writes_sub_of_mem (y := main_call10.cst_0.ref) (by decide), writes_sub_of_mem (y := main_call10.v2.ref) (by decide), writes_sub_of_mem (y := main_call10.v3.ref) (by decide), writes_sub_of_mem (y := main_call10.cst_1.ref) (by decide), writes_sub_of_mem (y := main_call10.call0.v0.ref) (by decide), writes_sub_of_mem (y := main_call10.call0.v1.ref) (by decide), writes_sub_of_mem (y := main_call10.call0.v2.ref) (by decide), writes_sub_of_mem (y := main_call10.v5.ref) (by decide), writes_sub_of_mem (y := main_call10.cst_2.ref) (by decide)⟩
set_option maxRecDepth 8192 in
/-- The list holds no argument: the operations leave the arguments alone. -/
theorem rseg3_c_keeps : KeepsArgs (F := F) rseg3_c := keepsArgs_of_writes rseg3_c_writes (by decide)

set_option maxHeartbeats 40000000 in
/-- Operations 394 … 400 of 1108 (segment 3, window 4 of @main). -/
abbrev rseg3_d : List (HloOp τ sig (Elt F)) :=
  [ StableHlo.TRef.unary main_call10.cst_2 main_call10.v6 (broadcastInDim S4096x64 ![] bcast_S_S4096x64),
    StableHlo.TRef.binary main_call10.v6 main_call10.v5 main_call10.v7 mulf,
    StableHlo.TRef.ternary main_call10.v1 (.of main_v220 : StableHlo.TRef sig ⟨S4096x64, .f32⟩) main_call10.v7 main_call10.call1.v0 select,
    StableHlo.binary main_v221 main_v195 main_v222 ((fun l r => Host.dotGeneral dot_S4096x64_S64x4000_S4096x4000_1_0_0_1_n_n none l r) : (⟨S4096x64, .f32⟩ : BufTy).Contents (Elt F) → (⟨S64x4000, .f32⟩ : BufTy).Contents (Elt F) → (⟨S4096x4000, .f32⟩ : BufTy).Contents (Elt F)),
    StableHlo.unary main_v197 main_v223 (broadcastInDim S1x4000 ![1] bcast_S4000_S1x4000_1 : (⟨S4000, .f32⟩ : BufTy).Contents (Elt F) → (⟨S1x4000, .f32⟩ : BufTy).Contents (Elt F)),
    StableHlo.unary main_v223 main_v224 (broadcastInDim S4096x4000 ![0, 1] bcast_S1x4000_S4096x4000_0_1 : (⟨S1x4000, .f32⟩ : BufTy).Contents (Elt F) → (⟨S4096x4000, .f32⟩ : BufTy).Contents (Elt F)),
    StableHlo.binary main_v222 main_v224 main_v225 (addf : (⟨S4096x4000, .f32⟩ : BufTy).Contents (Elt F) → (⟨S4096x4000, .f32⟩ : BufTy).Contents (Elt F) → (⟨S4096x4000, .f32⟩ : BufTy).Contents (Elt F)) ]
/-- The references they write, in order. -/
abbrev rseg3_d_W : List (Ref sig .tc) :=
  [main_call10.v6.ref, main_call10.v7.ref, main_call10.call1.v0.ref, main_v222, main_v223, main_v224, main_v225]
set_option maxRecDepth 8192 in
/-- Each touches TensorCore references only. -/
theorem rseg3_d_sub : (rseg3_d : List (HloOp τ sig (Elt F))).Forall fun op => op.bufs ⊆ tcRefs τ sig :=
  ⟨unary_bufs_sub .., binary_bufs_sub .., ternary_bufs_sub .., binary_bufs_sub .., unary_bufs_sub .., unary_bufs_sub .., binary_bufs_sub ..⟩
set_option maxRecDepth 8192 in
/-- None allocates a buffer. -/
theorem rseg3_d_fresh : (rseg3_d : List (HloOp τ sig (Elt F))).Forall fun op => op.fresh = ∅ := by
  simp only [List.Forall]; repeat' constructor
set_option maxRecDepth 8192 in
/-- Each writes inside the list. -/
theorem rseg3_d_writes : (rseg3_d : List (HloOp τ sig (Elt F))).Forall fun op => op.writes ⊆ (rseg3_d_W.map (Proc.devRef (τ := τ) .tc)).toFinset :=
  ⟨writes_sub_of_mem (y := main_call10.v6.ref) (by decide), writes_sub_of_mem (y := main_call10.v7.ref) (by decide), writes_sub_of_mem (y := main_call10.call1.v0.ref) (by decide), writes_sub_of_mem (y := main_v222) (by decide), writes_sub_of_mem (y := main_v223) (by decide), writes_sub_of_mem (y := main_v224) (by decide), writes_sub_of_mem (y := main_v225) (by decide)⟩
set_option maxRecDepth 8192 in
/-- The list holds no argument: the operations leave the arguments alone. -/
theorem rseg3_d_keeps : KeepsArgs (F := F) rseg3_d := keepsArgs_of_writes rseg3_d_writes (by decide)

set_option maxHeartbeats 40000000 in
/-- Operations 401 … 440 of 1108 (segment 4, window 4 of @main). -/
abbrev rseg4_a : List (HloOp τ sig (Elt F)) :=
  [ StableHlo.nullary main_cst_45 (constant S_ .f32 0x00000000#32),
    StableHlo.unary main_cst_45 main_v226 (broadcastInDim S4096x1 ![] bcast_S_S4096x1 : (⟨S_, .f32⟩ : BufTy).Contents (Elt F) → (⟨S4096x1, .f32⟩ : BufTy).Contents (Elt F)),
    StableHlo.binary main_v225 main_v226 main_v227 ((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F)),
    StableHlo.TRef.nullary main_call11.c (constantI S_ 32 0#32),
    StableHlo.TRef.unary main_call11.c main_call11.v0 (broadcastInDim S4096x122 ![] bcast_S_S4096x122),
    StableHlo.TRef.binary (.of main_v189 : StableHlo.TRef sig ⟨S4096x122, .i32⟩) main_call11.v0 main_call11.v1 (cmpi .slt),
    StableHlo.TRef.nullary main_call11.c_0 (constantI S_ 32 4001#32),
    StableHlo.TRef.unary main_call11.c_0 main_call11.v2 (broadcastInDim S4096x122 ![] bcast_S_S4096x122),
    StableHlo.TRef.binary (.of main_v189 : StableHlo.TRef sig ⟨S4096x122, .i32⟩) main_call11.v2 main_call11.v3 addi,
    StableHlo.TRef.ternary main_call11.v1 main_call11.v3 (.of main_v189 : StableHlo.TRef sig ⟨S4096x122, .i32⟩) main_call11.v4 select,
    StableHlo.TRef.reshape main_call11.v4 main_call11.v5 rfl shapeCasts_S4096x122_S4096x122x1,
    StableHlo.TRef.nullary main_call11.c_1 (constantI S1 32 4000#32),
    StableHlo.TRef.nullary main_call11.c_2 (constantI S_ 32 0#32),
    StableHlo.TRef.unary main_call11.c_2 main_call11.v6 (broadcastInDim S4096x122x1 ![] bcast_S_S4096x122x1),
    StableHlo.TRef.binary main_call11.v5 main_call11.v6 main_call11.v7 (cmpi .sge),
    StableHlo.TRef.unary main_call11.c_1 main_call11.v8 (broadcastInDim S1x1x1 ![2] bcast_S1_S1x1x1_2),
    StableHlo.TRef.unary main_call11.v8 main_call11.v9 (broadcastInDim S4096x122x1 ![0, 1, 2] bcast_S1x1x1_S4096x122x1_0_1_2),
    StableHlo.TRef.binary main_call11.v5 main_call11.v9 main_call11.v10 (cmpi .sle),
    StableHlo.TRef.binary main_call11.v7 main_call11.v10 main_call11.v11 andi,
    StableHlo.TRef.nullary main_call11.c_3 (constantI S_ 1 1#1),
    StableHlo.TRef.binary main_call11.v11 main_call11.c_3 main_call11.v12 (fun x v => Host.reduce IntOp.andi x v reducesTo_S4096x122x1_S4096x122_d2 h_S_),
    StableHlo.TRef.binary (.of main_v227 : StableHlo.TRef sig ⟨S4096x4001, .f32⟩) main_call11.v5 main_call11.v13 (fun x i => Host.gather gather_S4096x4001_S4096x122x1_S4096x122_n_1_0_0_1_2_11 x i),
    StableHlo.TRef.nullary main_call11.cst (constant S_ .f32 0x7FC00000#32),
    StableHlo.TRef.unary main_call11.cst main_call11.v14 (broadcastInDim S4096x122 ![] bcast_S_S4096x122),
    StableHlo.TRef.ternary main_call11.v12 main_call11.v13 main_call11.v14 main_call11.v15 select,
    StableHlo.unary main_v228 main_v229 ((extractStridedSlice S4096x61 ![0, 0] · slices_S4096x122_S4096x61_0_0) : (⟨S4096x122, .f32⟩ : BufTy).Contents (Elt F) → (⟨S4096x61, .f32⟩ : BufTy).Contents (Elt F)),
    StableHlo.unary main_v228 main_v230 ((extractStridedSlice S4096x61 ![0, 61] · slices_S4096x122_S4096x61_0_61) : (⟨S4096x122, .f32⟩ : BufTy).Contents (Elt F) → (⟨S4096x61, .f32⟩ : BufTy).Contents (Elt F)),
    StableHlo.nullary main_cst_46 (constant S_ .f32 0x40000000#32),
    StableHlo.unary main_cst_46 main_v231 (broadcastInDim S4096x61 ![] bcast_S_S4096x61 : (⟨S_, .f32⟩ : BufTy).Contents (Elt F) → (⟨S4096x61, .f32⟩ : BufTy).Contents (Elt F)),
    StableHlo.binary main_v229 main_v231 main_v232 (addf : (⟨S4096x61, .f32⟩ : BufTy).Contents (Elt F) → (⟨S4096x61, .f32⟩ : BufTy).Contents (Elt F) → (⟨S4096x61, .f32⟩ : BufTy).Contents (Elt F)),
    StableHlo.unary main_v232 main_v233 (Host.negf : (⟨S4096x61, .f32⟩ : BufTy).Contents (Elt F) → (⟨S4096x61, .f32⟩ : BufTy).Contents (Elt F)),
    StableHlo.unary main_v233 main_v234 (Host.exp : (⟨S4096x61, .f32⟩ : BufTy).Contents (Elt F) → (⟨S4096x61, .f32⟩ : BufTy).Contents (Elt F)),
    StableHlo.nullary main_cst_47 (constant S_ .f32 0x3F800000#32),
    StableHlo.unary main_cst_47 main_v235 (broadcastInDim S4096x61 ![] bcast_S_S4096x61 : (⟨S_, .f32⟩ : BufTy).Contents (Elt F) → (⟨S4096x61, .f32⟩ : BufTy).Contents (Elt F)),
    StableHlo.binary main_v235 main_v234 main_v236 (addf : (⟨S4096x61, .f32⟩ : BufTy).Contents (Elt F) → (⟨S4096x61, .f32⟩ : BufTy).Contents (Elt F) → (⟨S4096x61, .f32⟩ : BufTy).Contents (Elt F)),
    StableHlo.nullary main_cst_48 (constant S_ .f32 0x3F800000#32),
    StableHlo.unary main_cst_48 main_v237 (broadcastInDim S4096x61 ![] bcast_S_S4096x61 : (⟨S_, .f32⟩ : BufTy).Contents (Elt F) → (⟨S4096x61, .f32⟩ : BufTy).Contents (Elt F)),
    StableHlo.binary main_v237 main_v236 main_v238 (Host.divf : (⟨S4096x61, .f32⟩ : BufTy).Contents (Elt F) → (⟨S4096x61, .f32⟩ : BufTy).Contents (Elt F) → (⟨S4096x61, .f32⟩ : BufTy).Contents (Elt F)),
    StableHlo.binary main_v238 main_v120 main_v239 (mulf : (⟨S4096x61, .f32⟩ : BufTy).Contents (Elt F) → (⟨S4096x61, .f32⟩ : BufTy).Contents (Elt F) → (⟨S4096x61, .f32⟩ : BufTy).Contents (Elt F)),
    StableHlo.binary main_v239 main_v230 main_v240 (addf : (⟨S4096x61, .f32⟩ : BufTy).Contents (Elt F) → (⟨S4096x61, .f32⟩ : BufTy).Contents (Elt F) → (⟨S4096x61, .f32⟩ : BufTy).Contents (Elt F)) ]
/-- The references they write, in order. -/
abbrev rseg4_a_W : List (Ref sig .tc) :=
  [main_cst_45, main_v226, main_v227, main_call11.c.ref, main_call11.v0.ref, main_call11.v1.ref, main_call11.c_0.ref, main_call11.v2.ref, main_call11.v3.ref, main_call11.v4.ref, main_call11.v5.ref, main_call11.c_1.ref, main_call11.c_2.ref, main_call11.v6.ref, main_call11.v7.ref, main_call11.v8.ref, main_call11.v9.ref, main_call11.v10.ref, main_call11.v11.ref, main_call11.c_3.ref, main_call11.v12.ref, main_call11.v13.ref, main_call11.cst.ref, main_call11.v14.ref, main_call11.v15.ref, main_v229, main_v230, main_cst_46, main_v231, main_v232, main_v233, main_v234, main_cst_47, main_v235, main_v236, main_cst_48, main_v237, main_v238, main_v239, main_v240]
set_option maxRecDepth 8192 in
/-- Each touches TensorCore references only. -/
theorem rseg4_a_sub : (rseg4_a : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub ..⟩
set_option maxRecDepth 8192 in
/-- None allocates a buffer. -/
theorem rseg4_a_fresh : (rseg4_a : List (HloOp τ sig (Elt F))).Forall fun op => op.fresh = ∅ := by
  simp only [List.Forall]; repeat' constructor
set_option maxRecDepth 8192 in
/-- Each writes inside the list. -/
theorem rseg4_a_writes : (rseg4_a : List (HloOp τ sig (Elt F))).Forall fun op => op.writes ⊆ (rseg4_a_W.map (Proc.devRef (τ := τ) .tc)).toFinset :=
  ⟨writes_sub_of_mem (y := main_cst_45) (by decide), writes_sub_of_mem (y := main_v226) (by decide), writes_sub_of_mem (y := main_v227) (by decide), writes_sub_of_mem (y := main_call11.c.ref) (by decide), writes_sub_of_mem (y := main_call11.v0.ref) (by decide), writes_sub_of_mem (y := main_call11.v1.ref) (by decide), writes_sub_of_mem (y := main_call11.c_0.ref) (by decide), writes_sub_of_mem (y := main_call11.v2.ref) (by decide), writes_sub_of_mem (y := main_call11.v3.ref) (by decide), writes_sub_of_mem (y := main_call11.v4.ref) (by decide), writes_sub_of_mem (y := main_call11.v5.ref) (by decide), writes_sub_of_mem (y := main_call11.c_1.ref) (by decide), writes_sub_of_mem (y := main_call11.c_2.ref) (by decide), writes_sub_of_mem (y := main_call11.v6.ref) (by decide), writes_sub_of_mem (y := main_call11.v7.ref) (by decide), writes_sub_of_mem (y := main_call11.v8.ref) (by decide), writes_sub_of_mem (y := main_call11.v9.ref) (by decide), writes_sub_of_mem (y := main_call11.v10.ref) (by decide), writes_sub_of_mem (y := main_call11.v11.ref) (by decide), writes_sub_of_mem (y := main_call11.c_3.ref) (by decide), writes_sub_of_mem (y := main_call11.v12.ref) (by decide), writes_sub_of_mem (y := main_call11.v13.ref) (by decide), writes_sub_of_mem (y := main_call11.cst.ref) (by decide), writes_sub_of_mem (y := main_call11.v14.ref) (by decide), writes_sub_of_mem (y := main_call11.v15.ref) (by decide), writes_sub_of_mem (y := main_v229) (by decide), writes_sub_of_mem (y := main_v230) (by decide), writes_sub_of_mem (y := main_cst_46) (by decide), writes_sub_of_mem (y := main_v231) (by decide), writes_sub_of_mem (y := main_v232) (by decide), writes_sub_of_mem (y := main_v233) (by decide), writes_sub_of_mem (y := main_v234) (by decide), writes_sub_of_mem (y := main_cst_47) (by decide), writes_sub_of_mem (y := main_v235) (by decide), writes_sub_of_mem (y := main_v236) (by decide), writes_sub_of_mem (y := main_cst_48) (by decide), writes_sub_of_mem (y := main_v237) (by decide), writes_sub_of_mem (y := main_v238) (by decide), writes_sub_of_mem (y := main_v239) (by decide), writes_sub_of_mem (y := main_v240) (by decide)⟩
set_option maxRecDepth 8192 in
/-- The list holds no argument: the operations leave the arguments alone. -/
theorem rseg4_a_keeps : KeepsArgs (F := F) rseg4_a := keepsArgs_of_writes rseg4_a_writes (by decide)

set_option maxHeartbeats 40000000 in
/-- Operations 441 … 448 of 1108 (segment 4, window 4 of @main). -/
abbrev rseg4_b : List (HloOp τ sig (Elt F)) :=
  [ StableHlo.unary main_v238 main_v241 (Host.log : (⟨S4096x61, .f32⟩ : BufTy).Contents (Elt F) → (⟨S4096x61, .f32⟩ : BufTy).Contents (Elt F)),
    StableHlo.nullary main_cst_49 (constant S_ .f32 0x00000000#32),
    StableHlo.binary main_v241 main_cst_49 main_v242 ((fun x v => Host.reduceAdd x v reducesTo_S4096x61_S4096_d1 h_S_) : (⟨S4096x61, .f32⟩ : BufTy).Contents (Elt F) → (⟨S_, .f32⟩ : BufTy).Contents (Elt F) → (⟨S4096, .f32⟩ : BufTy).Contents (Elt F)),
    StableHlo.binary main_v183 main_v242 main_v243 (subf : (⟨S4096, .f32⟩ : BufTy).Contents (Elt F) → (⟨S4096, .f32⟩ : BufTy).Contents (Elt F) → (⟨S4096, .f32⟩ : BufTy).Contents (Elt F)),
    StableHlo.nullary main_c_50 (constantI S_ 32 2000#32),
    StableHlo.unary main_c_50 main_v244 (broadcastInDim S4096x64 ![] bcast_S_S4096x64 : (⟨S_, .i32⟩ : BufTy).Contents (Elt F) → (⟨S4096x64, .i32⟩ : BufTy).Contents (Elt F)),
    StableHlo.binary main_v2 main_v244 main_v245 (cmpi .eq : (⟨S4096x64, .i32⟩ : BufTy).Contents (Elt F) → (⟨S4096x64, .i32⟩ : BufTy).Contents (Elt F) → (⟨S4096x64, .i1⟩ : BufTy).Contents (Elt F)),
    StableHlo.nullary main_c_51 (constantI S_ 32 2000#32) ]
/-- The references they write, in order. -/
abbrev rseg4_b_W : List (Ref sig .tc) :=
  [main_v241, main_cst_49, main_v242, main_v243, main_c_50, main_v244, main_v245, main_c_51]
set_option maxRecDepth 8192 in
/-- Each touches TensorCore references only. -/
theorem rseg4_b_sub : (rseg4_b : List (HloOp τ sig (Elt F))).Forall fun op => op.bufs ⊆ tcRefs τ sig :=
  ⟨unary_bufs_sub .., nullary_bufs_sub .., binary_bufs_sub .., binary_bufs_sub .., nullary_bufs_sub .., unary_bufs_sub .., binary_bufs_sub .., nullary_bufs_sub ..⟩
set_option maxRecDepth 8192 in
/-- None allocates a buffer. -/
theorem rseg4_b_fresh : (rseg4_b : List (HloOp τ sig (Elt F))).Forall fun op => op.fresh = ∅ := by
  simp only [List.Forall]; repeat' constructor
set_option maxRecDepth 8192 in
/-- Each writes inside the list. -/
theorem rseg4_b_writes : (rseg4_b : List (HloOp τ sig (Elt F))).Forall fun op => op.writes ⊆ (rseg4_b_W.map (Proc.devRef (τ := τ) .tc)).toFinset :=
  ⟨writes_sub_of_mem (y := main_v241) (by decide), writes_sub_of_mem (y := main_cst_49) (by decide), writes_sub_of_mem (y := main_v242) (by decide), writes_sub_of_mem (y := main_v243) (by decide), writes_sub_of_mem (y := main_c_50) (by decide), writes_sub_of_mem (y := main_v244) (by decide), writes_sub_of_mem (y := main_v245) (by decide), writes_sub_of_mem (y := main_c_51) (by decide)⟩
set_option maxRecDepth 8192 in
/-- The list holds no argument: the operations leave the arguments alone. -/
theorem rseg4_b_keeps : KeepsArgs (F := F) rseg4_b := keepsArgs_of_writes rseg4_b_writes (by decide)

set_option maxHeartbeats 40000000 in
/-- Operations 449 … 488 of 1108 (segment 4, window 5 of @main). -/
abbrev rseg4_c : List (HloOp τ sig (Elt F)) :=
  [ StableHlo.unary main_c_51 main_v246 (broadcastInDim S4096x64 ![] bcast_S_S4096x64 : (⟨S_, .i32⟩ : BufTy).Contents (Elt F) → (⟨S4096x64, .i32⟩ : BufTy).Contents (Elt F)),
    StableHlo.binary main_v2 main_v246 main_v247 (addi : (⟨S4096x64, .i32⟩ : BufTy).Contents (Elt F) → (⟨S4096x64, .i32⟩ : BufTy).Contents (Elt F) → (⟨S4096x64, .i32⟩ : BufTy).Contents (Elt F)),
    StableHlo.nullary main_c_52 (constantI S_ 32 4000#32),
    StableHlo.TRef.unary (.of main_c_52 : StableHlo.TRef sig ⟨S_, .i32⟩) main_call12.v0 id,
    StableHlo.TRef.unary main_call12.v0 main_call12.v1 (broadcastInDim S4096x64 ![] bcast_S_S4096x64),
    StableHlo.TRef.ternary (.of main_v245 : StableHlo.TRef sig ⟨S4096x64, .i1⟩) main_call12.v1 (.of main_v247 : StableHlo.TRef sig ⟨S4096x64, .i32⟩) main_call12.v2 select,
    StableHlo.binary main_v2 main_v248 main_v249 ((fun a b => concatenate S4096x128 1 [⟨S4096x64, a⟩, ⟨S4096x64, b⟩] concatenates_S4096x64_S4096x64_S4096x128_d1) : (⟨S4096x64, .i32⟩ : BufTy).Contents (Elt F) → (⟨S4096x64, .i32⟩ : BufTy).Contents (Elt F) → (⟨S4096x128, .i32⟩ : BufTy).Contents (Elt F)),
    StableHlo.unary main_arg2 main_v250 ((extractStridedSlice S1x2000x64 ![4, 0, 0] · slices_S10x2000x64_S1x2000x64_4_0_0) : (⟨S10x2000x64, .f32⟩ : BufTy).Contents (Elt F) → (⟨S1x2000x64, .f32⟩ : BufTy).Contents (Elt F)),
    StableHlo.reshape main_v250 main_v251 rfl shapeCasts_S1x2000x64_S2000x64,
    StableHlo.unary main_arg3 main_v252 ((extractStridedSlice S1x64 ![4, 0] · slices_S10x64_S1x64_4_0) : (⟨S10x64, .f32⟩ : BufTy).Contents (Elt F) → (⟨S1x64, .f32⟩ : BufTy).Contents (Elt F)),
    StableHlo.reshape main_v252 main_v253 rfl shapeCasts_S1x64_S64,
    StableHlo.unary main_arg4 main_v254 ((extractStridedSlice S1x64x4000 ![4, 0, 0] · slices_S10x64x4000_S1x64x4000_4_0_0) : (⟨S10x64x4000, .f32⟩ : BufTy).Contents (Elt F) → (⟨S1x64x4000, .f32⟩ : BufTy).Contents (Elt F)),
    StableHlo.reshape main_v254 main_v255 rfl shapeCasts_S1x64x4000_S64x4000,
    StableHlo.unary main_arg5 main_v256 ((extractStridedSlice S1x4000 ![4, 0] · slices_S10x4000_S1x4000_4_0) : (⟨S10x4000, .f32⟩ : BufTy).Contents (Elt F) → (⟨S1x4000, .f32⟩ : BufTy).Contents (Elt F)),
    StableHlo.reshape main_v256 main_v257 rfl shapeCasts_S1x4000_S4000,
    StableHlo.nullary main_v258 (iotaInDim S4096 32 0),
    StableHlo.unary main_v258 main_v259 (broadcastInDim S4096x1 ![0] bcast_S4096_S4096x1_0 : (⟨S4096, .i32⟩ : BufTy).Contents (Elt F) → (⟨S4096x1, .i32⟩ : BufTy).Contents (Elt F)),
    StableHlo.nullary main_cst_53 (constant S_ .f32 0x00000000#32),
    StableHlo.unary main_cst_53 main_v260 (broadcastInDim S4096x2001 ![] bcast_S_S4096x2001 : (⟨S_, .f32⟩ : BufTy).Contents (Elt F) → (⟨S4096x2001, .f32⟩ : BufTy).Contents (Elt F)),
    StableHlo.nullary main_c_54 (constantI S_ 32 0#32),
    StableHlo.unary main_c_54 main_v261 (broadcastInDim S4096x1 ![] bcast_S_S4096x1 : (⟨S_, .i32⟩ : BufTy).Contents (Elt F) → (⟨S4096x1, .i32⟩ : BufTy).Contents (Elt F)),
    StableHlo.binary main_v259 main_v261 main_v262 (cmpi .slt : (⟨S4096x1, .i32⟩ : BufTy).Contents (Elt F) → (⟨S4096x1, .i32⟩ : BufTy).Contents (Elt F) → (⟨S4096x1, .i1⟩ : BufTy).Contents (Elt F)),
    StableHlo.nullary main_c_55 (constantI S_ 32 4096#32),
    StableHlo.unary main_c_55 main_v263 (broadcastInDim S4096x1 ![] bcast_S_S4096x1 : (⟨S_, .i32⟩ : BufTy).Contents (Elt F) → (⟨S4096x1, .i32⟩ : BufTy).Contents (Elt F)),
    StableHlo.binary main_v259 main_v263 main_v264 (addi : (⟨S4096x1, .i32⟩ : BufTy).Contents (Elt F) → (⟨S4096x1, .i32⟩ : BufTy).Contents (Elt F) → (⟨S4096x1, .i32⟩ : BufTy).Contents (Elt F)),
    StableHlo.ternary main_v262 main_v264 main_v259 main_v265 (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)),
    StableHlo.nullary main_c_56 (constantI S_ 32 0#32),
    StableHlo.unary main_c_56 main_v266 (broadcastInDim S4096x61 ![] bcast_S_S4096x61 : (⟨S_, .i32⟩ : BufTy).Contents (Elt F) → (⟨S4096x61, .i32⟩ : BufTy).Contents (Elt F)),
    StableHlo.binary main_v3 main_v266 main_v267 (cmpi .slt : (⟨S4096x61, .i32⟩ : BufTy).Contents (Elt F) → (⟨S4096x61, .i32⟩ : BufTy).Contents (Elt F) → (⟨S4096x61, .i1⟩ : BufTy).Contents (Elt F)),
    StableHlo.nullary main_c_57 (constantI S_ 32 2001#32),
    StableHlo.unary main_c_57 main_v268 (broadcastInDim S4096x61 ![] bcast_S_S4096x61 : (⟨S_, .i32⟩ : BufTy).Contents (Elt F) → (⟨S4096x61, .i32⟩ : BufTy).Contents (Elt F)),
    StableHlo.binary main_v3 main_v268 main_v269 (addi : (⟨S4096x61, .i32⟩ : BufTy).Contents (Elt F) → (⟨S4096x61, .i32⟩ : BufTy).Contents (Elt F) → (⟨S4096x61, .i32⟩ : BufTy).Contents (Elt F)),
    StableHlo.ternary main_v267 main_v269 main_v3 main_v270 (select : (⟨S4096x61, .i1⟩ : BufTy).Contents (Elt F) → (⟨S4096x61, .i32⟩ : BufTy).Contents (Elt F) → (⟨S4096x61, .i32⟩ : BufTy).Contents (Elt F) → (⟨S4096x61, .i32⟩ : BufTy).Contents (Elt F)),
    StableHlo.unary main_v265 main_v271 (broadcastInDim S4096x61 ![0, 1] bcast_S4096x1_S4096x61_0_1 : (⟨S4096x1, .i32⟩ : BufTy).Contents (Elt F) → (⟨S4096x61, .i32⟩ : BufTy).Contents (Elt F)),
    StableHlo.unary main_v271 main_v272 (broadcastInDim S4096x61x1 ![0, 1] bcast_S4096x61_S4096x61x1_0_1 : (⟨S4096x61, .i32⟩ : BufTy).Contents (Elt F) → (⟨S4096x61x1, .i32⟩ : BufTy).Contents (Elt F)),
    StableHlo.unary main_v270 main_v273 (broadcastInDim S4096x61x1 ![0, 1] bcast_S4096x61_S4096x61x1_0_1 : (⟨S4096x61, .i32⟩ : BufTy).Contents (Elt F) → (⟨S4096x61x1, .i32⟩ : BufTy).Contents (Elt F)),
    StableHlo.binary main_v272 main_v273 main_v274 ((fun a b => concatenate S4096x61x2 2 [⟨S4096x61x1, a⟩, ⟨S4096x61x1, b⟩] concatenates_S4096x61x1_S4096x61x1_S4096x61x2_d2) : (⟨S4096x61x1, .i32⟩ : BufTy).Contents (Elt F) → (⟨S4096x61x1, .i32⟩ : BufTy).Contents (Elt F) → (⟨S4096x61x2, .i32⟩ : BufTy).Contents (Elt F)),
    StableHlo.ternary main_v260 main_v274 main_v240 main_v275 ((fun x i u => Host.scatterAdd scatter_S4096x2001_S4096x61x2_S4096x61_n_01_01_2 x i u) : (⟨S4096x2001, .f32⟩ : BufTy).Contents (Elt F) → (⟨S4096x61x2, .i32⟩ : BufTy).Contents (Elt F) → (⟨S4096x61, .f32⟩ : BufTy).Contents (Elt F) → (⟨S4096x2001, .f32⟩ : BufTy).Contents (Elt F)),
    StableHlo.unary main_v275 main_v276 ((extractStridedSlice S4096x2000 ![0, 0] · slices_S4096x2001_S4096x2000_0_0) : (⟨S4096x2001, .f32⟩ : BufTy).Contents (Elt F) → (⟨S4096x2000, .f32⟩ : BufTy).Contents (Elt F)),
    StableHlo.binary main_v276 main_v251 main_v277 ((fun l r => Host.dotGeneral dot_S4096x2000_S2000x64_S4096x64_1_0_0_1_n_n none l r) : (⟨S4096x2000, .f32⟩ : BufTy).Contents (Elt F) → (⟨S2000x64, .f32⟩ : BufTy).Contents (Elt F) → (⟨S4096x64, .f32⟩ : BufTy).Contents (Elt F)) ]
/-- The references they write, in order. -/
abbrev rseg4_c_W : List (Ref sig .tc) :=
  [main_v246, main_v247, main_c_52, main_call12.v0.ref, main_call12.v1.ref, main_call12.v2.ref, main_v249, main_v250, main_v251, main_v252, main_v253, main_v254, main_v255, main_v256, main_v257, main_v258, main_v259, main_cst_53, main_v260, main_c_54, main_v261, main_v262, main_c_55, main_v263, main_v264, main_v265, main_c_56, main_v266, main_v267, main_c_57, main_v268, main_v269, main_v270, main_v271, main_v272, main_v273, main_v274, main_v275, main_v276, main_v277]
set_option maxRecDepth 8192 in
/-- Each touches TensorCore references only. -/
theorem rseg4_c_sub : (rseg4_c : List (HloOp τ sig (Elt F))).Forall fun op => op.bufs ⊆ tcRefs τ sig :=
  ⟨unary_bufs_sub .., binary_bufs_sub .., nullary_bufs_sub .., unary_bufs_sub .., unary_bufs_sub .., ternary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., ternary_bufs_sub .., unary_bufs_sub .., binary_bufs_sub ..⟩
set_option maxRecDepth 8192 in
/-- None allocates a buffer. -/
theorem rseg4_c_fresh : (rseg4_c : List (HloOp τ sig (Elt F))).Forall fun op => op.fresh = ∅ := by
  simp only [List.Forall]; repeat' constructor
set_option maxRecDepth 8192 in
/-- Each writes inside the list. -/
theorem rseg4_c_writes : (rseg4_c : List (HloOp τ sig (Elt F))).Forall fun op => op.writes ⊆ (rseg4_c_W.map (Proc.devRef (τ := τ) .tc)).toFinset :=
  ⟨writes_sub_of_mem (y := main_v246) (by decide), writes_sub_of_mem (y := main_v247) (by decide), writes_sub_of_mem (y := main_c_52) (by decide), writes_sub_of_mem (y := main_call12.v0.ref) (by decide), writes_sub_of_mem (y := main_call12.v1.ref) (by decide), writes_sub_of_mem (y := main_call12.v2.ref) (by decide), writes_sub_of_mem (y := main_v249) (by decide), writes_sub_of_mem (y := main_v250) (by decide), writes_sub_of_mem (y := main_v251) (by decide), writes_sub_of_mem (y := main_v252) (by decide), writes_sub_of_mem (y := main_v253) (by decide), writes_sub_of_mem (y := main_v254) (by decide), writes_sub_of_mem (y := main_v255) (by decide), writes_sub_of_mem (y := main_v256) (by decide), writes_sub_of_mem (y := main_v257) (by decide), writes_sub_of_mem (y := main_v258) (by decide), writes_sub_of_mem (y := main_v259) (by decide), writes_sub_of_mem (y := main_cst_53) (by decide), writes_sub_of_mem (y := main_v260) (by decide), writes_sub_of_mem (y := main_c_54) (by decide), writes_sub_of_mem (y := main_v261) (by decide), writes_sub_of_mem (y := main_v262) (by decide), writes_sub_of_mem (y := main_c_55) (by decide), writes_sub_of_mem (y := main_v263) (by decide), writes_sub_of_mem (y := main_v264) (by decide), writes_sub_of_mem (y := main_v265) (by decide), writes_sub_of_mem (y := main_c_56) (by decide), writes_sub_of_mem (y := main_v266) (by decide), writes_sub_of_mem (y := main_v267) (by decide), writes_sub_of_mem (y := main_c_57) (by decide), writes_sub_of_mem (y := main_v268) (by decide), writes_sub_of_mem (y := main_v269) (by decide), writes_sub_of_mem (y := main_v270) (by decide), writes_sub_of_mem (y := main_v271) (by decide), writes_sub_of_mem (y := main_v272) (by decide), writes_sub_of_mem (y := main_v273) (by decide), writes_sub_of_mem (y := main_v274) (by decide), writes_sub_of_mem (y := main_v275) (by decide), writes_sub_of_mem (y := main_v276) (by decide), writes_sub_of_mem (y := main_v277) (by decide)⟩
set_option maxRecDepth 8192 in
/-- The list holds no argument: the operations leave the arguments alone. -/
theorem rseg4_c_keeps : KeepsArgs (F := F) rseg4_c := keepsArgs_of_writes rseg4_c_writes (by decide)

set_option maxHeartbeats 40000000 in
/-- Operations 489 … 510 of 1108 (segment 4, window 5 of @main). -/
abbrev rseg4_d : List (HloOp τ sig (Elt F)) :=
  [ StableHlo.unary main_v253 main_v278 (broadcastInDim S1x64 ![1] bcast_S64_S1x64_1 : (⟨S64, .f32⟩ : BufTy).Contents (Elt F) → (⟨S1x64, .f32⟩ : BufTy).Contents (Elt F)),
    StableHlo.unary main_v278 main_v279 (broadcastInDim S4096x64 ![0, 1] bcast_S1x64_S4096x64_0_1 : (⟨S1x64, .f32⟩ : BufTy).Contents (Elt F) → (⟨S4096x64, .f32⟩ : BufTy).Contents (Elt F)),
    StableHlo.binary main_v277 main_v279 main_v280 (addf : (⟨S4096x64, .f32⟩ : BufTy).Contents (Elt F) → (⟨S4096x64, .f32⟩ : BufTy).Contents (Elt F) → (⟨S4096x64, .f32⟩ : BufTy).Contents (Elt F)),
    StableHlo.TRef.nullary main_call13.cst (constant S_ .f32 0x00000000#32),
    StableHlo.TRef.unary main_call13.cst main_call13.v0 (broadcastInDim S4096x64 ![] bcast_S_S4096x64),
    StableHlo.TRef.binary (.of main_v280 : StableHlo.TRef sig ⟨S4096x64, .f32⟩) main_call13.v0 main_call13.v1 (cmpf .ogt),
    StableHlo.TRef.nullary main_call13.cst_0 (constant S_ .f32 0x00000000#32),
    StableHlo.TRef.unary main_call13.cst_0 main_call13.v2 (broadcastInDim S4096x64 ![] bcast_S_S4096x64),
    StableHlo.TRef.binary (.of main_v280 : StableHlo.TRef sig ⟨S4096x64, .f32⟩) main_call13.v2 main_call13.v3 (cmpf .ogt),
    StableHlo.TRef.nullary main_call13.cst_1 (constant S_ .f32 0x00000000#32),
    StableHlo.TRef.unary main_call13.cst_1 main_call13.call0.v0 id,
    StableHlo.TRef.unary main_call13.call0.v0 main_call13.call0.v1 (broadcastInDim S4096x64 ![] bcast_S_S4096x64),
    StableHlo.TRef.ternary main_call13.v3 main_call13.call0.v1 (.of main_v280 : StableHlo.TRef sig ⟨S4096x64, .f32⟩) main_call13.call0.v2 select,
    StableHlo.TRef.unary main_call13.call0.v2 main_call13.v5 Host.expm1,
    StableHlo.TRef.nullary main_call13.cst_2 (constant S_ .f32 0x3F800000#32),
    StableHlo.TRef.unary main_call13.cst_2 main_call13.v6 (broadcastInDim S4096x64 ![] bcast_S_S4096x64),
    StableHlo.TRef.binary main_call13.v6 main_call13.v5 main_call13.v7 mulf,
    StableHlo.TRef.ternary main_call13.v1 (.of main_v280 : StableHlo.TRef sig ⟨S4096x64, .f32⟩) main_call13.v7 main_call13.call1.v0 select,
    StableHlo.binary main_v281 main_v255 main_v282 ((fun l r => Host.dotGeneral dot_S4096x64_S64x4000_S4096x4000_1_0_0_1_n_n none l r) : (⟨S4096x64, .f32⟩ : BufTy).Contents (Elt F) → (⟨S64x4000, .f32⟩ : BufTy).Contents (Elt F) → (⟨S4096x4000, .f32⟩ : BufTy).Contents (Elt F)),
    StableHlo.unary main_v257 main_v283 (broadcastInDim S1x4000 ![1] bcast_S4000_S1x4000_1 : (⟨S4000, .f32⟩ : BufTy).Contents (Elt F) → (⟨S1x4000, .f32⟩ : BufTy).Contents (Elt F)),
    StableHlo.unary main_v283 main_v284 (broadcastInDim S4096x4000 ![0, 1] bcast_S1x4000_S4096x4000_0_1 : (⟨S1x4000, .f32⟩ : BufTy).Contents (Elt F) → (⟨S4096x4000, .f32⟩ : BufTy).Contents (Elt F)),
    StableHlo.binary main_v282 main_v284 main_v285 (addf : (⟨S4096x4000, .f32⟩ : BufTy).Contents (Elt F) → (⟨S4096x4000, .f32⟩ : BufTy).Contents (Elt F) → (⟨S4096x4000, .f32⟩ : BufTy).Contents (Elt F)) ]
/-- The references they write, in order. -/
abbrev rseg4_d_W : List (Ref sig .tc) :=
  [main_v278, main_v279, main_v280, main_call13.cst.ref, main_call13.v0.ref, main_call13.v1.ref, main_call13.cst_0.ref, main_call13.v2.ref, main_call13.v3.ref, main_call13.cst_1.ref, main_call13.call0.v0.ref, main_call13.call0.v1.ref, main_call13.call0.v2.ref, main_call13.v5.ref, main_call13.cst_2.ref, main_call13.v6.ref, main_call13.v7.ref, main_call13.call1.v0.ref, main_v282, main_v283, main_v284, main_v285]
set_option maxRecDepth 8192 in
/-- Each touches TensorCore references only. -/
theorem rseg4_d_sub : (rseg4_d : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub ..⟩
set_option maxRecDepth 8192 in
/-- None allocates a buffer. -/
theorem rseg4_d_fresh : (rseg4_d : List (HloOp τ sig (Elt F))).Forall fun op => op.fresh = ∅ := by
  simp only [List.Forall]; repeat' constructor
set_option maxRecDepth 8192 in
/-- Each writes inside the list. -/
theorem rseg4_d_writes : (rseg4_d : List (HloOp τ sig (Elt F))).Forall fun op => op.writes ⊆ (rseg4_d_W.map (Proc.devRef (τ := τ) .tc)).toFinset :=
  ⟨writes_sub_of_mem (y := main_v278) (by decide), writes_sub_of_mem (y := main_v279) (by decide), writes_sub_of_mem (y := main_v280) (by decide), writes_sub_of_mem (y := main_call13.cst.ref) (by decide), writes_sub_of_mem (y := main_call13.v0.ref) (by decide), writes_sub_of_mem (y := main_call13.v1.ref) (by decide), writes_sub_of_mem (y := main_call13.cst_0.ref) (by decide), writes_sub_of_mem (y := main_call13.v2.ref) (by decide), writes_sub_of_mem (y := main_call13.v3.ref) (by decide), writes_sub_of_mem (y := main_call13.cst_1.ref) (by decide), writes_sub_of_mem (y := main_call13.call0.v0.ref) (by decide), writes_sub_of_mem (y := main_call13.call0.v1.ref) (by decide), writes_sub_of_mem (y := main_call13.call0.v2.ref) (by decide), writes_sub_of_mem (y := main_call13.v5.ref) (by decide), writes_sub_of_mem (y := main_call13.cst_2.ref) (by decide), writes_sub_of_mem (y := main_call13.v6.ref) (by decide), writes_sub_of_mem (y := main_call13.v7.ref) (by decide), writes_sub_of_mem (y := main_call13.call1.v0.ref) (by decide), writes_sub_of_mem (y := main_v282) (by decide), writes_sub_of_mem (y := main_v283) (by decide), writes_sub_of_mem (y := main_v284) (by decide), writes_sub_of_mem (y := main_v285) (by decide)⟩
set_option maxRecDepth 8192 in
/-- The list holds no argument: the operations leave the arguments alone. -/
theorem rseg4_d_keeps : KeepsArgs (F := F) rseg4_d := keepsArgs_of_writes rseg4_d_writes (by decide)

set_option maxHeartbeats 40000000 in
/-- Operations 511 … 545 of 1108 (segment 5, window 5 of @main). -/
abbrev rseg5_a : List (HloOp τ sig (Elt F)) :=
  [ StableHlo.nullary main_cst_58 (constant S_ .f32 0x00000000#32),
    StableHlo.unary main_cst_58 main_v286 (broadcastInDim S4096x1 ![] bcast_S_S4096x1 : (⟨S_, .f32⟩ : BufTy).Contents (Elt F) → (⟨S4096x1, .f32⟩ : BufTy).Contents (Elt F)),
    StableHlo.binary main_v285 main_v286 main_v287 ((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F)),
    StableHlo.TRef.nullary main_call14.c (constantI S_ 32 0#32),
    StableHlo.TRef.unary main_call14.c main_call14.v0 (broadcastInDim S4096x128 ![] bcast_S_S4096x128),
    StableHlo.TRef.binary (.of main_v249 : StableHlo.TRef sig ⟨S4096x128, .i32⟩) main_call14.v0 main_call14.v1 (cmpi .slt),
    StableHlo.TRef.nullary main_call14.c_0 (constantI S_ 32 4001#32),
    StableHlo.TRef.unary main_call14.c_0 main_call14.v2 (broadcastInDim S4096x128 ![] bcast_S_S4096x128),
    StableHlo.TRef.binary (.of main_v249 : StableHlo.TRef sig ⟨S4096x128, .i32⟩) main_call14.v2 main_call14.v3 addi,
    StableHlo.TRef.ternary main_call14.v1 main_call14.v3 (.of main_v249 : StableHlo.TRef sig ⟨S4096x128, .i32⟩) main_call14.v4 select,
    StableHlo.TRef.reshape main_call14.v4 main_call14.v5 rfl shapeCasts_S4096x128_S4096x128x1,
    StableHlo.TRef.nullary main_call14.c_1 (constantI S1 32 4000#32),
    StableHlo.TRef.nullary main_call14.c_2 (constantI S_ 32 0#32),
    StableHlo.TRef.unary main_call14.c_2 main_call14.v6 (broadcastInDim S4096x128x1 ![] bcast_S_S4096x128x1),
    StableHlo.TRef.binary main_call14.v5 main_call14.v6 main_call14.v7 (cmpi .sge),
    StableHlo.TRef.unary main_call14.c_1 main_call14.v8 (broadcastInDim S1x1x1 ![2] bcast_S1_S1x1x1_2),
    StableHlo.TRef.unary main_call14.v8 main_call14.v9 (broadcastInDim S4096x128x1 ![0, 1, 2] bcast_S1x1x1_S4096x128x1_0_1_2),
    StableHlo.TRef.binary main_call14.v5 main_call14.v9 main_call14.v10 (cmpi .sle),
    StableHlo.TRef.binary main_call14.v7 main_call14.v10 main_call14.v11 andi,
    StableHlo.TRef.nullary main_call14.c_3 (constantI S_ 1 1#1),
    StableHlo.TRef.binary main_call14.v11 main_call14.c_3 main_call14.v12 (fun x v => Host.reduce IntOp.andi x v reducesTo_S4096x128x1_S4096x128_d2 h_S_),
    StableHlo.TRef.binary (.of main_v287 : StableHlo.TRef sig ⟨S4096x4001, .f32⟩) main_call14.v5 main_call14.v13 (fun x i => Host.gather gather_S4096x4001_S4096x128x1_S4096x128_n_1_0_0_1_2_11 x i),
    StableHlo.TRef.nullary main_call14.cst (constant S_ .f32 0x7FC00000#32),
    StableHlo.TRef.unary main_call14.cst main_call14.v14 (broadcastInDim S4096x128 ![] bcast_S_S4096x128),
    StableHlo.TRef.ternary main_call14.v12 main_call14.v13 main_call14.v14 main_call14.v15 select,
    StableHlo.unary main_v288 main_v289 ((extractStridedSlice S4096x64 ![0, 0] · slices_S4096x128_S4096x64_0_0) : (⟨S4096x128, .f32⟩ : BufTy).Contents (Elt F) → (⟨S4096x64, .f32⟩ : BufTy).Contents (Elt F)),
    StableHlo.unary main_v288 main_v290 ((extractStridedSlice S4096x64 ![0, 64] · slices_S4096x128_S4096x64_0_64) : (⟨S4096x128, .f32⟩ : BufTy).Contents (Elt F) → (⟨S4096x64, .f32⟩ : BufTy).Contents (Elt F)),
    StableHlo.nullary main_cst_59 (constant S_ .f32 0x40000000#32),
    StableHlo.unary main_cst_59 main_v291 (broadcastInDim S4096x64 ![] bcast_S_S4096x64 : (⟨S_, .f32⟩ : BufTy).Contents (Elt F) → (⟨S4096x64, .f32⟩ : BufTy).Contents (Elt F)),
    StableHlo.binary main_v289 main_v291 main_v292 (addf : (⟨S4096x64, .f32⟩ : BufTy).Contents (Elt F) → (⟨S4096x64, .f32⟩ : BufTy).Contents (Elt F) → (⟨S4096x64, .f32⟩ : BufTy).Contents (Elt F)),
    StableHlo.unary main_v292 main_v293 (Host.negf : (⟨S4096x64, .f32⟩ : BufTy).Contents (Elt F) → (⟨S4096x64, .f32⟩ : BufTy).Contents (Elt F)),
    StableHlo.unary main_v293 main_v294 (Host.exp : (⟨S4096x64, .f32⟩ : BufTy).Contents (Elt F) → (⟨S4096x64, .f32⟩ : BufTy).Contents (Elt F)),
    StableHlo.nullary main_cst_60 (constant S_ .f32 0x3F800000#32),
    StableHlo.unary main_cst_60 main_v295 (broadcastInDim S4096x64 ![] bcast_S_S4096x64 : (⟨S_, .f32⟩ : BufTy).Contents (Elt F) → (⟨S4096x64, .f32⟩ : BufTy).Contents (Elt F)),
    StableHlo.binary main_v295 main_v294 main_v296 (addf : (⟨S4096x64, .f32⟩ : BufTy).Contents (Elt F) → (⟨S4096x64, .f32⟩ : BufTy).Contents (Elt F) → (⟨S4096x64, .f32⟩ : BufTy).Contents (Elt F)) ]
/-- The references they write, in order. -/
abbrev rseg5_a_W : List (Ref sig .tc) :=
  [main_cst_58, main_v286, main_v287, main_call14.c.ref, main_call14.v0.ref, main_call14.v1.ref, main_call14.c_0.ref, main_call14.v2.ref, main_call14.v3.ref, main_call14.v4.ref, main_call14.v5.ref, main_call14.c_1.ref, main_call14.c_2.ref, main_call14.v6.ref, main_call14.v7.ref, main_call14.v8.ref, main_call14.v9.ref, main_call14.v10.ref, main_call14.v11.ref, main_call14.c_3.ref, main_call14.v12.ref, main_call14.v13.ref, main_call14.cst.ref, main_call14.v14.ref, main_call14.v15.ref, main_v289, main_v290, main_cst_59, main_v291, main_v292, main_v293, main_v294, main_cst_60, main_v295, main_v296]
set_option maxRecDepth 8192 in
/-- Each touches TensorCore references only. -/
theorem rseg5_a_sub : (rseg5_a : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., unary_bufs_sub .., nullary_bufs_sub .., unary_bufs_sub .., binary_bufs_sub .., unary_bufs_sub .., unary_bufs_sub .., nullary_bufs_sub .., unary_bufs_sub .., binary_bufs_sub ..⟩
set_option maxRecDepth 8192 in
/-- None allocates a buffer. -/
theorem rseg5_a_fresh : (rseg5_a : List (HloOp τ sig (Elt F))).Forall fun op => op.fresh = ∅ := by
  simp only [List.Forall]; repeat' constructor
set_option maxRecDepth 8192 in
/-- Each writes inside the list. -/
theorem rseg5_a_writes : (rseg5_a : List (HloOp τ sig (Elt F))).Forall fun op => op.writes ⊆ (rseg5_a_W.map (Proc.devRef (τ := τ) .tc)).toFinset :=
  ⟨writes_sub_of_mem (y := main_cst_58) (by decide), writes_sub_of_mem (y := main_v286) (by decide), writes_sub_of_mem (y := main_v287) (by decide), writes_sub_of_mem (y := main_call14.c.ref) (by decide), writes_sub_of_mem (y := main_call14.v0.ref) (by decide), writes_sub_of_mem (y := main_call14.v1.ref) (by decide), writes_sub_of_mem (y := main_call14.c_0.ref) (by decide), writes_sub_of_mem (y := main_call14.v2.ref) (by decide), writes_sub_of_mem (y := main_call14.v3.ref) (by decide), writes_sub_of_mem (y := main_call14.v4.ref) (by decide), writes_sub_of_mem (y := main_call14.v5.ref) (by decide), writes_sub_of_mem (y := main_call14.c_1.ref) (by decide), writes_sub_of_mem (y := main_call14.c_2.ref) (by decide), writes_sub_of_mem (y := main_call14.v6.ref) (by decide), writes_sub_of_mem (y := main_call14.v7.ref) (by decide), writes_sub_of_mem (y := main_call14.v8.ref) (by decide), writes_sub_of_mem (y := main_call14.v9.ref) (by decide), writes_sub_of_mem (y := main_call14.v10.ref) (by decide), writes_sub_of_mem (y := main_call14.v11.ref) (by decide), writes_sub_of_mem (y := main_call14.c_3.ref) (by decide), writes_sub_of_mem (y := main_call14.v12.ref) (by decide), writes_sub_of_mem (y := main_call14.v13.ref) (by decide), writes_sub_of_mem (y := main_call14.cst.ref) (by decide), writes_sub_of_mem (y := main_call14.v14.ref) (by decide), writes_sub_of_mem (y := main_call14.v15.ref) (by decide), writes_sub_of_mem (y := main_v289) (by decide), writes_sub_of_mem (y := main_v290) (by decide), writes_sub_of_mem (y := main_cst_59) (by decide), writes_sub_of_mem (y := main_v291) (by decide), writes_sub_of_mem (y := main_v292) (by decide), writes_sub_of_mem (y := main_v293) (by decide), writes_sub_of_mem (y := main_v294) (by decide), writes_sub_of_mem (y := main_cst_60) (by decide), writes_sub_of_mem (y := main_v295) (by decide), writes_sub_of_mem (y := main_v296) (by decide)⟩
set_option maxRecDepth 8192 in
/-- The list holds no argument: the operations leave the arguments alone. -/
theorem rseg5_a_keeps : KeepsArgs (F := F) rseg5_a := keepsArgs_of_writes rseg5_a_writes (by decide)

set_option maxHeartbeats 40000000 in
/-- Operations 546 … 585 of 1108 (segment 5, window 6 of @main). -/
abbrev rseg5_b : List (HloOp τ sig (Elt F)) :=
  [ StableHlo.nullary main_cst_61 (constant S_ .f32 0x3F800000#32),
    StableHlo.unary main_cst_61 main_v297 (broadcastInDim S4096x64 ![] bcast_S_S4096x64 : (⟨S_, .f32⟩ : BufTy).Contents (Elt F) → (⟨S4096x64, .f32⟩ : BufTy).Contents (Elt F)),
    StableHlo.binary main_v297 main_v296 main_v298 (Host.divf : (⟨S4096x64, .f32⟩ : BufTy).Contents (Elt F) → (⟨S4096x64, .f32⟩ : BufTy).Contents (Elt F) → (⟨S4096x64, .f32⟩ : BufTy).Contents (Elt F)),
    StableHlo.binary main_v298 main_v180 main_v299 (mulf : (⟨S4096x64, .f32⟩ : BufTy).Contents (Elt F) → (⟨S4096x64, .f32⟩ : BufTy).Contents (Elt F) → (⟨S4096x64, .f32⟩ : BufTy).Contents (Elt F)),
    StableHlo.binary main_v299 main_v290 main_v300 (addf : (⟨S4096x64, .f32⟩ : BufTy).Contents (Elt F) → (⟨S4096x64, .f32⟩ : BufTy).Contents (Elt F) → (⟨S4096x64, .f32⟩ : BufTy).Contents (Elt F)),
    StableHlo.unary main_v298 main_v301 (Host.log : (⟨S4096x64, .f32⟩ : BufTy).Contents (Elt F) → (⟨S4096x64, .f32⟩ : BufTy).Contents (Elt F)),
    StableHlo.nullary main_cst_62 (constant S_ .f32 0x00000000#32),
    StableHlo.binary main_v301 main_cst_62 main_v302 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    StableHlo.binary main_v243 main_v302 main_v303 (subf : (⟨S4096, .f32⟩ : BufTy).Contents (Elt F) → (⟨S4096, .f32⟩ : BufTy).Contents (Elt F) → (⟨S4096, .f32⟩ : BufTy).Contents (Elt F)),
    StableHlo.nullary main_c_63 (constantI S_ 32 2000#32),
    StableHlo.unary main_c_63 main_v304 (broadcastInDim S4096x61 ![] bcast_S_S4096x61 : (⟨S_, .i32⟩ : BufTy).Contents (Elt F) → (⟨S4096x61, .i32⟩ : BufTy).Contents (Elt F)),
    StableHlo.binary main_v3 main_v304 main_v305 (cmpi .eq : (⟨S4096x61, .i32⟩ : BufTy).Contents (Elt F) → (⟨S4096x61, .i32⟩ : BufTy).Contents (Elt F) → (⟨S4096x61, .i1⟩ : BufTy).Contents (Elt F)),
    StableHlo.nullary main_c_64 (constantI S_ 32 2000#32),
    StableHlo.unary main_c_64 main_v306 (broadcastInDim S4096x61 ![] bcast_S_S4096x61 : (⟨S_, .i32⟩ : BufTy).Contents (Elt F) → (⟨S4096x61, .i32⟩ : BufTy).Contents (Elt F)),
    StableHlo.binary main_v3 main_v306 main_v307 (addi : (⟨S4096x61, .i32⟩ : BufTy).Contents (Elt F) → (⟨S4096x61, .i32⟩ : BufTy).Contents (Elt F) → (⟨S4096x61, .i32⟩ : BufTy).Contents (Elt F)),
    StableHlo.nullary main_c_65 (constantI S_ 32 4000#32),
    StableHlo.TRef.unary (.of main_c_65 : StableHlo.TRef sig ⟨S_, .i32⟩) main_call15.v0 id,
    StableHlo.TRef.unary main_call15.v0 main_call15.v1 (broadcastInDim S4096x61 ![] bcast_S_S4096x61),
    StableHlo.TRef.ternary (.of main_v305 : StableHlo.TRef sig ⟨S4096x61, .i1⟩) main_call15.v1 (.of main_v307 : StableHlo.TRef sig ⟨S4096x61, .i32⟩) main_call15.v2 select,
    StableHlo.binary main_v3 main_v308 main_v309 ((fun a b => concatenate S4096x122 1 [⟨S4096x61, a⟩, ⟨S4096x61, b⟩] concatenates_S4096x61_S4096x61_S4096x122_d1) : (⟨S4096x61, .i32⟩ : BufTy).Contents (Elt F) → (⟨S4096x61, .i32⟩ : BufTy).Contents (Elt F) → (⟨S4096x122, .i32⟩ : BufTy).Contents (Elt F)),
    StableHlo.unary main_arg2 main_v310 ((extractStridedSlice S1x2000x64 ![5, 0, 0] · slices_S10x2000x64_S1x2000x64_5_0_0) : (⟨S10x2000x64, .f32⟩ : BufTy).Contents (Elt F) → (⟨S1x2000x64, .f32⟩ : BufTy).Contents (Elt F)),
    StableHlo.reshape main_v310 main_v311 rfl shapeCasts_S1x2000x64_S2000x64,
    StableHlo.unary main_arg3 main_v312 ((extractStridedSlice S1x64 ![5, 0] · slices_S10x64_S1x64_5_0) : (⟨S10x64, .f32⟩ : BufTy).Contents (Elt F) → (⟨S1x64, .f32⟩ : BufTy).Contents (Elt F)),
    StableHlo.reshape main_v312 main_v313 rfl shapeCasts_S1x64_S64,
    StableHlo.unary main_arg4 main_v314 ((extractStridedSlice S1x64x4000 ![5, 0, 0] · slices_S10x64x4000_S1x64x4000_5_0_0) : (⟨S10x64x4000, .f32⟩ : BufTy).Contents (Elt F) → (⟨S1x64x4000, .f32⟩ : BufTy).Contents (Elt F)),
    StableHlo.reshape main_v314 main_v315 rfl shapeCasts_S1x64x4000_S64x4000,
    StableHlo.unary main_arg5 main_v316 ((extractStridedSlice S1x4000 ![5, 0] · slices_S10x4000_S1x4000_5_0) : (⟨S10x4000, .f32⟩ : BufTy).Contents (Elt F) → (⟨S1x4000, .f32⟩ : BufTy).Contents (Elt F)),
    StableHlo.reshape main_v316 main_v317 rfl shapeCasts_S1x4000_S4000,
    StableHlo.nullary main_v318 (iotaInDim S4096 32 0),
    StableHlo.unary main_v318 main_v319 (broadcastInDim S4096x1 ![0] bcast_S4096_S4096x1_0 : (⟨S4096, .i32⟩ : BufTy).Contents (Elt F) → (⟨S4096x1, .i32⟩ : BufTy).Contents (Elt F)),
    StableHlo.nullary main_cst_66 (constant S_ .f32 0x00000000#32),
    StableHlo.unary main_cst_66 main_v320 (broadcastInDim S4096x2001 ![] bcast_S_S4096x2001 : (⟨S_, .f32⟩ : BufTy).Contents (Elt F) → (⟨S4096x2001, .f32⟩ : BufTy).Contents (Elt F)),
    StableHlo.nullary main_c_67 (constantI S_ 32 0#32),
    StableHlo.unary main_c_67 main_v321 (broadcastInDim S4096x1 ![] bcast_S_S4096x1 : (⟨S_, .i32⟩ : BufTy).Contents (Elt F) → (⟨S4096x1, .i32⟩ : BufTy).Contents (Elt F)),
    StableHlo.binary main_v319 main_v321 main_v322 (cmpi .slt : (⟨S4096x1, .i32⟩ : BufTy).Contents (Elt F) → (⟨S4096x1, .i32⟩ : BufTy).Contents (Elt F) → (⟨S4096x1, .i1⟩ : BufTy).Contents (Elt F)),
    StableHlo.nullary main_c_68 (constantI S_ 32 4096#32),
    StableHlo.unary main_c_68 main_v323 (broadcastInDim S4096x1 ![] bcast_S_S4096x1 : (⟨S_, .i32⟩ : BufTy).Contents (Elt F) → (⟨S4096x1, .i32⟩ : BufTy).Contents (Elt F)),
    StableHlo.binary main_v319 main_v323 main_v324 (addi : (⟨S4096x1, .i32⟩ : BufTy).Contents (Elt F) → (⟨S4096x1, .i32⟩ : BufTy).Contents (Elt F) → (⟨S4096x1, .i32⟩ : BufTy).Contents (Elt F)),
    StableHlo.ternary main_v322 main_v324 main_v319 main_v325 (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)),
    StableHlo.nullary main_c_69 (constantI S_ 32 0#32) ]
/-- The references they write, in order. -/
abbrev rseg5_b_W : List (Ref sig .tc) :=
  [main_cst_61, main_v297, main_v298, main_v299, main_v300, main_v301, main_cst_62, main_v302, main_v303, main_c_63, main_v304, main_v305, main_c_64, main_v306, main_v307, main_c_65, main_call15.v0.ref, main_call15.v1.ref, main_call15.v2.ref, main_v309, main_v310, main_v311, main_v312, main_v313, main_v314, main_v315, main_v316, main_v317, main_v318, main_v319, main_cst_66, main_v320, main_c_67, main_v321, main_v322, main_c_68, main_v323, main_v324, main_v325, main_c_69]
set_option maxRecDepth 8192 in
/-- Each touches TensorCore references only. -/
theorem rseg5_b_sub : (rseg5_b : List (HloOp τ sig (Elt F))).Forall fun op => op.bufs ⊆ tcRefs τ sig :=
  ⟨nullary_bufs_sub .., unary_bufs_sub .., binary_bufs_sub .., binary_bufs_sub .., binary_bufs_sub .., unary_bufs_sub .., nullary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub ..⟩
set_option maxRecDepth 8192 in
/-- None allocates a buffer. -/
theorem rseg5_b_fresh : (rseg5_b : List (HloOp τ sig (Elt F))).Forall fun op => op.fresh = ∅ := by
  simp only [List.Forall]; repeat' constructor
set_option maxRecDepth 8192 in
/-- Each writes inside the list. -/
theorem rseg5_b_writes : (rseg5_b : List (HloOp τ sig (Elt F))).Forall fun op => op.writes ⊆ (rseg5_b_W.map (Proc.devRef (τ := τ) .tc)).toFinset :=
  ⟨writes_sub_of_mem (y := main_cst_61) (by decide), writes_sub_of_mem (y := main_v297) (by decide), writes_sub_of_mem (y := main_v298) (by decide), writes_sub_of_mem (y := main_v299) (by decide), writes_sub_of_mem (y := main_v300) (by decide), writes_sub_of_mem (y := main_v301) (by decide), writes_sub_of_mem (y := main_cst_62) (by decide), writes_sub_of_mem (y := main_v302) (by decide), writes_sub_of_mem (y := main_v303) (by decide), writes_sub_of_mem (y := main_c_63) (by decide), writes_sub_of_mem (y := main_v304) (by decide), writes_sub_of_mem (y := main_v305) (by decide), writes_sub_of_mem (y := main_c_64) (by decide), writes_sub_of_mem (y := main_v306) (by decide), writes_sub_of_mem (y := main_v307) (by decide), writes_sub_of_mem (y := main_c_65) (by decide), writes_sub_of_mem (y := main_call15.v0.ref) (by decide), writes_sub_of_mem (y := main_call15.v1.ref) (by decide), writes_sub_of_mem (y := main_call15.v2.ref) (by decide), writes_sub_of_mem (y := main_v309) (by decide), writes_sub_of_mem (y := main_v310) (by decide), writes_sub_of_mem (y := main_v311) (by decide), writes_sub_of_mem (y := main_v312) (by decide), writes_sub_of_mem (y := main_v313) (by decide), writes_sub_of_mem (y := main_v314) (by decide), writes_sub_of_mem (y := main_v315) (by decide), writes_sub_of_mem (y := main_v316) (by decide), writes_sub_of_mem (y := main_v317) (by decide), writes_sub_of_mem (y := main_v318) (by decide), writes_sub_of_mem (y := main_v319) (by decide), writes_sub_of_mem (y := main_cst_66) (by decide), writes_sub_of_mem (y := main_v320) (by decide), writes_sub_of_mem (y := main_c_67) (by decide), writes_sub_of_mem (y := main_v321) (by decide), writes_sub_of_mem (y := main_v322) (by decide), writes_sub_of_mem (y := main_c_68) (by decide), writes_sub_of_mem (y := main_v323) (by decide), writes_sub_of_mem (y := main_v324) (by decide), writes_sub_of_mem (y := main_v325) (by decide), writes_sub_of_mem (y := main_c_69) (by decide)⟩
set_option maxRecDepth 8192 in
/-- The list holds no argument: the operations leave the arguments alone. -/
theorem rseg5_b_keeps : KeepsArgs (F := F) rseg5_b := keepsArgs_of_writes rseg5_b_writes (by decide)

set_option maxHeartbeats 40000000 in
/-- Operations 586 … 620 of 1108 (segment 5, window 6 of @main). -/
abbrev rseg5_c : List (HloOp τ sig (Elt F)) :=
  [ StableHlo.unary main_c_69 main_v326 (broadcastInDim S4096x64 ![] bcast_S_S4096x64 : (⟨S_, .i32⟩ : BufTy).Contents (Elt F) → (⟨S4096x64, .i32⟩ : BufTy).Contents (Elt F)),
    StableHlo.binary main_v2 main_v326 main_v327 (cmpi .slt : (⟨S4096x64, .i32⟩ : BufTy).Contents (Elt F) → (⟨S4096x64, .i32⟩ : BufTy).Contents (Elt F) → (⟨S4096x64, .i1⟩ : BufTy).Contents (Elt F)),
    StableHlo.nullary main_c_70 (constantI S_ 32 2001#32),
    StableHlo.unary main_c_70 main_v328 (broadcastInDim S4096x64 ![] bcast_S_S4096x64 : (⟨S_, .i32⟩ : BufTy).Contents (Elt F) → (⟨S4096x64, .i32⟩ : BufTy).Contents (Elt F)),
    StableHlo.binary main_v2 main_v328 main_v329 (addi : (⟨S4096x64, .i32⟩ : BufTy).Contents (Elt F) → (⟨S4096x64, .i32⟩ : BufTy).Contents (Elt F) → (⟨S4096x64, .i32⟩ : BufTy).Contents (Elt F)),
    StableHlo.ternary main_v327 main_v329 main_v2 main_v330 (select : (⟨S4096x64, .i1⟩ : BufTy).Contents (Elt F) → (⟨S4096x64, .i32⟩ : BufTy).Contents (Elt F) → (⟨S4096x64, .i32⟩ : BufTy).Contents (Elt F) → (⟨S4096x64, .i32⟩ : BufTy).Contents (Elt F)),
    StableHlo.unary main_v325 main_v331 (broadcastInDim S4096x64 ![0, 1] bcast_S4096x1_S4096x64_0_1 : (⟨S4096x1, .i32⟩ : BufTy).Contents (Elt F) → (⟨S4096x64, .i32⟩ : BufTy).Contents (Elt F)),
    StableHlo.unary main_v331 main_v332 (broadcastInDim S4096x64x1 ![0, 1] bcast_S4096x64_S4096x64x1_0_1 : (⟨S4096x64, .i32⟩ : BufTy).Contents (Elt F) → (⟨S4096x64x1, .i32⟩ : BufTy).Contents (Elt F)),
    StableHlo.unary main_v330 main_v333 (broadcastInDim S4096x64x1 ![0, 1] bcast_S4096x64_S4096x64x1_0_1 : (⟨S4096x64, .i32⟩ : BufTy).Contents (Elt F) → (⟨S4096x64x1, .i32⟩ : BufTy).Contents (Elt F)),
    StableHlo.binary main_v332 main_v333 main_v334 ((fun a b => concatenate S4096x64x2 2 [⟨S4096x64x1, a⟩, ⟨S4096x64x1, b⟩] concatenates_S4096x64x1_S4096x64x1_S4096x64x2_d2) : (⟨S4096x64x1, .i32⟩ : BufTy).Contents (Elt F) → (⟨S4096x64x1, .i32⟩ : BufTy).Contents (Elt F) → (⟨S4096x64x2, .i32⟩ : BufTy).Contents (Elt F)),
    StableHlo.ternary main_v320 main_v334 main_v300 main_v335 ((fun x i u => Host.scatterAdd scatter_S4096x2001_S4096x64x2_S4096x64_n_01_01_2 x i u) : (⟨S4096x2001, .f32⟩ : BufTy).Contents (Elt F) → (⟨S4096x64x2, .i32⟩ : BufTy).Contents (Elt F) → (⟨S4096x64, .f32⟩ : BufTy).Contents (Elt F) → (⟨S4096x2001, .f32⟩ : BufTy).Contents (Elt F)),
    StableHlo.unary main_v335 main_v336 ((extractStridedSlice S4096x2000 ![0, 0] · slices_S4096x2001_S4096x2000_0_0) : (⟨S4096x2001, .f32⟩ : BufTy).Contents (Elt F) → (⟨S4096x2000, .f32⟩ : BufTy).Contents (Elt F)),
    StableHlo.binary main_v336 main_v311 main_v337 ((fun l r => Host.dotGeneral dot_S4096x2000_S2000x64_S4096x64_1_0_0_1_n_n none l r) : (⟨S4096x2000, .f32⟩ : BufTy).Contents (Elt F) → (⟨S2000x64, .f32⟩ : BufTy).Contents (Elt F) → (⟨S4096x64, .f32⟩ : BufTy).Contents (Elt F)),
    StableHlo.unary main_v313 main_v338 (broadcastInDim S1x64 ![1] bcast_S64_S1x64_1 : (⟨S64, .f32⟩ : BufTy).Contents (Elt F) → (⟨S1x64, .f32⟩ : BufTy).Contents (Elt F)),
    StableHlo.unary main_v338 main_v339 (broadcastInDim S4096x64 ![0, 1] bcast_S1x64_S4096x64_0_1 : (⟨S1x64, .f32⟩ : BufTy).Contents (Elt F) → (⟨S4096x64, .f32⟩ : BufTy).Contents (Elt F)),
    StableHlo.binary main_v337 main_v339 main_v340 (addf : (⟨S4096x64, .f32⟩ : BufTy).Contents (Elt F) → (⟨S4096x64, .f32⟩ : BufTy).Contents (Elt F) → (⟨S4096x64, .f32⟩ : BufTy).Contents (Elt F)),
    StableHlo.TRef.nullary main_call16.cst (constant S_ .f32 0x00000000#32),
    StableHlo.TRef.unary main_call16.cst main_call16.v0 (broadcastInDim S4096x64 ![] bcast_S_S4096x64),
    StableHlo.TRef.binary (.of main_v340 : StableHlo.TRef sig ⟨S4096x64, .f32⟩) main_call16.v0 main_call16.v1 (cmpf .ogt),
    StableHlo.TRef.nullary main_call16.cst_0 (constant S_ .f32 0x00000000#32),
    StableHlo.TRef.unary main_call16.cst_0 main_call16.v2 (broadcastInDim S4096x64 ![] bcast_S_S4096x64),
    StableHlo.TRef.binary (.of main_v340 : StableHlo.TRef sig ⟨S4096x64, .f32⟩) main_call16.v2 main_call16.v3 (cmpf .ogt),
    StableHlo.TRef.nullary main_call16.cst_1 (constant S_ .f32 0x00000000#32),
    StableHlo.TRef.unary main_call16.cst_1 main_call16.call0.v0 id,
    StableHlo.TRef.unary main_call16.call0.v0 main_call16.call0.v1 (broadcastInDim S4096x64 ![] bcast_S_S4096x64),
    StableHlo.TRef.ternary main_call16.v3 main_call16.call0.v1 (.of main_v340 : StableHlo.TRef sig ⟨S4096x64, .f32⟩) main_call16.call0.v2 select,
    StableHlo.TRef.unary main_call16.call0.v2 main_call16.v5 Host.expm1,
    StableHlo.TRef.nullary main_call16.cst_2 (constant S_ .f32 0x3F800000#32),
    StableHlo.TRef.unary main_call16.cst_2 main_call16.v6 (broadcastInDim S4096x64 ![] bcast_S_S4096x64),
    StableHlo.TRef.binary main_call16.v6 main_call16.v5 main_call16.v7 mulf,
    StableHlo.TRef.ternary main_call16.v1 (.of main_v340 : StableHlo.TRef sig ⟨S4096x64, .f32⟩) main_call16.v7 main_call16.call1.v0 select,
    StableHlo.binary main_v341 main_v315 main_v342 ((fun l r => Host.dotGeneral dot_S4096x64_S64x4000_S4096x4000_1_0_0_1_n_n none l r) : (⟨S4096x64, .f32⟩ : BufTy).Contents (Elt F) → (⟨S64x4000, .f32⟩ : BufTy).Contents (Elt F) → (⟨S4096x4000, .f32⟩ : BufTy).Contents (Elt F)),
    StableHlo.unary main_v317 main_v343 (broadcastInDim S1x4000 ![1] bcast_S4000_S1x4000_1 : (⟨S4000, .f32⟩ : BufTy).Contents (Elt F) → (⟨S1x4000, .f32⟩ : BufTy).Contents (Elt F)),
    StableHlo.unary main_v343 main_v344 (broadcastInDim S4096x4000 ![0, 1] bcast_S1x4000_S4096x4000_0_1 : (⟨S1x4000, .f32⟩ : BufTy).Contents (Elt F) → (⟨S4096x4000, .f32⟩ : BufTy).Contents (Elt F)),
    StableHlo.binary main_v342 main_v344 main_v345 (addf : (⟨S4096x4000, .f32⟩ : BufTy).Contents (Elt F) → (⟨S4096x4000, .f32⟩ : BufTy).Contents (Elt F) → (⟨S4096x4000, .f32⟩ : BufTy).Contents (Elt F)) ]
/-- The references they write, in order. -/
abbrev rseg5_c_W : List (Ref sig .tc) :=
  [main_v326, main_v327, main_c_70, main_v328, main_v329, main_v330, main_v331, main_v332, main_v333, main_v334, main_v335, main_v336, main_v337, main_v338, main_v339, main_v340, main_call16.cst.ref, main_call16.v0.ref, main_call16.v1.ref, main_call16.cst_0.ref, main_call16.v2.ref, main_call16.v3.ref, main_call16.cst_1.ref, main_call16.call0.v0.ref, main_call16.call0.v1.ref, main_call16.call0.v2.ref, main_call16.v5.ref, main_call16.cst_2.ref, main_call16.v6.ref, main_call16.v7.ref, main_call16.call1.v0.ref, main_v342, main_v343, main_v344, main_v345]
set_option maxRecDepth 8192 in
/-- Each touches TensorCore references only. -/
theorem rseg5_c_sub : (rseg5_c : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., unary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub ..⟩
set_option maxRecDepth 8192 in
/-- None allocates a buffer. -/
theorem rseg5_c_fresh : (rseg5_c : List (HloOp τ sig (Elt F))).Forall fun op => op.fresh = ∅ := by
  simp only [List.Forall]; repeat' constructor
set_option maxRecDepth 8192 in
/-- Each writes inside the list. -/
theorem rseg5_c_writes : (rseg5_c : List (HloOp τ sig (Elt F))).Forall fun op => op.writes ⊆ (rseg5_c_W.map (Proc.devRef (τ := τ) .tc)).toFinset :=
  ⟨writes_sub_of_mem (y := main_v326) (by decide), writes_sub_of_mem (y := main_v327) (by decide), writes_sub_of_mem (y := main_c_70) (by decide), writes_sub_of_mem (y := main_v328) (by decide), writes_sub_of_mem (y := main_v329) (by decide), writes_sub_of_mem (y := main_v330) (by decide), writes_sub_of_mem (y := main_v331) (by decide), writes_sub_of_mem (y := main_v332) (by decide), writes_sub_of_mem (y := main_v333) (by decide), writes_sub_of_mem (y := main_v334) (by decide), writes_sub_of_mem (y := main_v335) (by decide), writes_sub_of_mem (y := main_v336) (by decide), writes_sub_of_mem (y := main_v337) (by decide), writes_sub_of_mem (y := main_v338) (by decide), writes_sub_of_mem (y := main_v339) (by decide), writes_sub_of_mem (y := main_v340) (by decide), writes_sub_of_mem (y := main_call16.cst.ref) (by decide), writes_sub_of_mem (y := main_call16.v0.ref) (by decide), writes_sub_of_mem (y := main_call16.v1.ref) (by decide), writes_sub_of_mem (y := main_call16.cst_0.ref) (by decide), writes_sub_of_mem (y := main_call16.v2.ref) (by decide), writes_sub_of_mem (y := main_call16.v3.ref) (by decide), writes_sub_of_mem (y := main_call16.cst_1.ref) (by decide), writes_sub_of_mem (y := main_call16.call0.v0.ref) (by decide), writes_sub_of_mem (y := main_call16.call0.v1.ref) (by decide), writes_sub_of_mem (y := main_call16.call0.v2.ref) (by decide), writes_sub_of_mem (y := main_call16.v5.ref) (by decide), writes_sub_of_mem (y := main_call16.cst_2.ref) (by decide), writes_sub_of_mem (y := main_call16.v6.ref) (by decide), writes_sub_of_mem (y := main_call16.v7.ref) (by decide), writes_sub_of_mem (y := main_call16.call1.v0.ref) (by decide), writes_sub_of_mem (y := main_v342) (by decide), writes_sub_of_mem (y := main_v343) (by decide), writes_sub_of_mem (y := main_v344) (by decide), writes_sub_of_mem (y := main_v345) (by decide)⟩
set_option maxRecDepth 8192 in
/-- The list holds no argument: the operations leave the arguments alone. -/
theorem rseg5_c_keeps : KeepsArgs (F := F) rseg5_c := keepsArgs_of_writes rseg5_c_writes (by decide)

set_option maxHeartbeats 40000000 in
/-- Operations 621 … 621 of 1108 (segment 6, window 6 of @main). -/
abbrev rseg6_a : List (HloOp τ sig (Elt F)) :=
  [ StableHlo.nullary main_cst_71 (constant S_ .f32 0x00000000#32) ]
/-- The references they write, in order. -/
abbrev rseg6_a_W : List (Ref sig .tc) :=
  [main_cst_71]
set_option maxRecDepth 8192 in
/-- Each touches TensorCore references only. -/
theorem rseg6_a_sub : (rseg6_a : List (HloOp τ sig (Elt F))).Forall fun op => op.bufs ⊆ tcRefs τ sig :=
  nullary_bufs_sub ..
set_option maxRecDepth 8192 in
/-- None allocates a buffer. -/
theorem rseg6_a_fresh : (rseg6_a : List (HloOp τ sig (Elt F))).Forall fun op => op.fresh = ∅ := by
  simp only [List.Forall]; repeat' constructor
set_option maxRecDepth 8192 in
/-- Each writes inside the list. -/
theorem rseg6_a_writes : (rseg6_a : List (HloOp τ sig (Elt F))).Forall fun op => op.writes ⊆ (rseg6_a_W.map (Proc.devRef (τ := τ) .tc)).toFinset :=
  writes_sub_of_mem (y := main_cst_71) (by decide)
set_option maxRecDepth 8192 in
/-- The list holds no argument: the operations leave the arguments alone. -/
theorem rseg6_a_keeps : KeepsArgs (F := F) rseg6_a := keepsArgs_of_writes rseg6_a_writes (by decide)

set_option maxHeartbeats 40000000 in
/-- Operations 622 … 661 of 1108 (segment 6, window 7 of @main). -/
abbrev rseg6_b : List (HloOp τ sig (Elt F)) :=
  [ StableHlo.unary main_cst_71 main_v346 (broadcastInDim S4096x1 ![] bcast_S_S4096x1 : (⟨S_, .f32⟩ : BufTy).Contents (Elt F) → (⟨S4096x1, .f32⟩ : BufTy).Contents (Elt F)),
    StableHlo.binary main_v345 main_v346 main_v347 ((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F)),
    StableHlo.TRef.nullary main_call17.c (constantI S_ 32 0#32),
    StableHlo.TRef.unary main_call17.c main_call17.v0 (broadcastInDim S4096x122 ![] bcast_S_S4096x122),
    StableHlo.TRef.binary (.of main_v309 : StableHlo.TRef sig ⟨S4096x122, .i32⟩) main_call17.v0 main_call17.v1 (cmpi .slt),
    StableHlo.TRef.nullary main_call17.c_0 (constantI S_ 32 4001#32),
    StableHlo.TRef.unary main_call17.c_0 main_call17.v2 (broadcastInDim S4096x122 ![] bcast_S_S4096x122),
    StableHlo.TRef.binary (.of main_v309 : StableHlo.TRef sig ⟨S4096x122, .i32⟩) main_call17.v2 main_call17.v3 addi,
    StableHlo.TRef.ternary main_call17.v1 main_call17.v3 (.of main_v309 : StableHlo.TRef sig ⟨S4096x122, .i32⟩) main_call17.v4 select,
    StableHlo.TRef.reshape main_call17.v4 main_call17.v5 rfl shapeCasts_S4096x122_S4096x122x1,
    StableHlo.TRef.nullary main_call17.c_1 (constantI S1 32 4000#32),
    StableHlo.TRef.nullary main_call17.c_2 (constantI S_ 32 0#32),
    StableHlo.TRef.unary main_call17.c_2 main_call17.v6 (broadcastInDim S4096x122x1 ![] bcast_S_S4096x122x1),
    StableHlo.TRef.binary main_call17.v5 main_call17.v6 main_call17.v7 (cmpi .sge),
    StableHlo.TRef.unary main_call17.c_1 main_call17.v8 (broadcastInDim S1x1x1 ![2] bcast_S1_S1x1x1_2),
    StableHlo.TRef.unary main_call17.v8 main_call17.v9 (broadcastInDim S4096x122x1 ![0, 1, 2] bcast_S1x1x1_S4096x122x1_0_1_2),
    StableHlo.TRef.binary main_call17.v5 main_call17.v9 main_call17.v10 (cmpi .sle),
    StableHlo.TRef.binary main_call17.v7 main_call17.v10 main_call17.v11 andi,
    StableHlo.TRef.nullary main_call17.c_3 (constantI S_ 1 1#1),
    StableHlo.TRef.binary main_call17.v11 main_call17.c_3 main_call17.v12 (fun x v => Host.reduce IntOp.andi x v reducesTo_S4096x122x1_S4096x122_d2 h_S_),
    StableHlo.TRef.binary (.of main_v347 : StableHlo.TRef sig ⟨S4096x4001, .f32⟩) main_call17.v5 main_call17.v13 (fun x i => Host.gather gather_S4096x4001_S4096x122x1_S4096x122_n_1_0_0_1_2_11 x i),
    StableHlo.TRef.nullary main_call17.cst (constant S_ .f32 0x7FC00000#32),
    StableHlo.TRef.unary main_call17.cst main_call17.v14 (broadcastInDim S4096x122 ![] bcast_S_S4096x122),
    StableHlo.TRef.ternary main_call17.v12 main_call17.v13 main_call17.v14 main_call17.v15 select,
    StableHlo.unary main_v348 main_v349 ((extractStridedSlice S4096x61 ![0, 0] · slices_S4096x122_S4096x61_0_0) : (⟨S4096x122, .f32⟩ : BufTy).Contents (Elt F) → (⟨S4096x61, .f32⟩ : BufTy).Contents (Elt F)),
    StableHlo.unary main_v348 main_v350 ((extractStridedSlice S4096x61 ![0, 61] · slices_S4096x122_S4096x61_0_61) : (⟨S4096x122, .f32⟩ : BufTy).Contents (Elt F) → (⟨S4096x61, .f32⟩ : BufTy).Contents (Elt F)),
    StableHlo.nullary main_cst_72 (constant S_ .f32 0x40000000#32),
    StableHlo.unary main_cst_72 main_v351 (broadcastInDim S4096x61 ![] bcast_S_S4096x61 : (⟨S_, .f32⟩ : BufTy).Contents (Elt F) → (⟨S4096x61, .f32⟩ : BufTy).Contents (Elt F)),
    StableHlo.binary main_v349 main_v351 main_v352 (addf : (⟨S4096x61, .f32⟩ : BufTy).Contents (Elt F) → (⟨S4096x61, .f32⟩ : BufTy).Contents (Elt F) → (⟨S4096x61, .f32⟩ : BufTy).Contents (Elt F)),
    StableHlo.unary main_v352 main_v353 (Host.negf : (⟨S4096x61, .f32⟩ : BufTy).Contents (Elt F) → (⟨S4096x61, .f32⟩ : BufTy).Contents (Elt F)),
    StableHlo.unary main_v353 main_v354 (Host.exp : (⟨S4096x61, .f32⟩ : BufTy).Contents (Elt F) → (⟨S4096x61, .f32⟩ : BufTy).Contents (Elt F)),
    StableHlo.nullary main_cst_73 (constant S_ .f32 0x3F800000#32),
    StableHlo.unary main_cst_73 main_v355 (broadcastInDim S4096x61 ![] bcast_S_S4096x61 : (⟨S_, .f32⟩ : BufTy).Contents (Elt F) → (⟨S4096x61, .f32⟩ : BufTy).Contents (Elt F)),
    StableHlo.binary main_v355 main_v354 main_v356 (addf : (⟨S4096x61, .f32⟩ : BufTy).Contents (Elt F) → (⟨S4096x61, .f32⟩ : BufTy).Contents (Elt F) → (⟨S4096x61, .f32⟩ : BufTy).Contents (Elt F)),
    StableHlo.nullary main_cst_74 (constant S_ .f32 0x3F800000#32),
    StableHlo.unary main_cst_74 main_v357 (broadcastInDim S4096x61 ![] bcast_S_S4096x61 : (⟨S_, .f32⟩ : BufTy).Contents (Elt F) → (⟨S4096x61, .f32⟩ : BufTy).Contents (Elt F)),
    StableHlo.binary main_v357 main_v356 main_v358 (Host.divf : (⟨S4096x61, .f32⟩ : BufTy).Contents (Elt F) → (⟨S4096x61, .f32⟩ : BufTy).Contents (Elt F) → (⟨S4096x61, .f32⟩ : BufTy).Contents (Elt F)),
    StableHlo.binary main_v358 main_v240 main_v359 (mulf : (⟨S4096x61, .f32⟩ : BufTy).Contents (Elt F) → (⟨S4096x61, .f32⟩ : BufTy).Contents (Elt F) → (⟨S4096x61, .f32⟩ : BufTy).Contents (Elt F)),
    StableHlo.binary main_v359 main_v350 main_v360 (addf : (⟨S4096x61, .f32⟩ : BufTy).Contents (Elt F) → (⟨S4096x61, .f32⟩ : BufTy).Contents (Elt F) → (⟨S4096x61, .f32⟩ : BufTy).Contents (Elt F)),
    StableHlo.unary main_v358 main_v361 (Host.log : (⟨S4096x61, .f32⟩ : BufTy).Contents (Elt F) → (⟨S4096x61, .f32⟩ : BufTy).Contents (Elt F)) ]
/-- The references they write, in order. -/
abbrev rseg6_b_W : List (Ref sig .tc) :=
  [main_v346, main_v347, main_call17.c.ref, main_call17.v0.ref, main_call17.v1.ref, main_call17.c_0.ref, main_call17.v2.ref, main_call17.v3.ref, main_call17.v4.ref, main_call17.v5.ref, main_call17.c_1.ref, main_call17.c_2.ref, main_call17.v6.ref, main_call17.v7.ref, main_call17.v8.ref, main_call17.v9.ref, main_call17.v10.ref, main_call17.v11.ref, main_call17.c_3.ref, main_call17.v12.ref, main_call17.v13.ref, main_call17.cst.ref, main_call17.v14.ref, main_call17.v15.ref, main_v349, main_v350, main_cst_72, main_v351, main_v352, main_v353, main_v354, main_cst_73, main_v355, main_v356, main_cst_74, main_v357, main_v358, main_v359, main_v360, main_v361]
set_option maxRecDepth 8192 in
/-- Each touches TensorCore references only. -/
theorem rseg6_b_sub : (rseg6_b : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub ..⟩
set_option maxRecDepth 8192 in
/-- None allocates a buffer. -/
theorem rseg6_b_fresh : (rseg6_b : List (HloOp τ sig (Elt F))).Forall fun op => op.fresh = ∅ := by
  simp only [List.Forall]; repeat' constructor
set_option maxRecDepth 8192 in
/-- Each writes inside the list. -/
theorem rseg6_b_writes : (rseg6_b : List (HloOp τ sig (Elt F))).Forall fun op => op.writes ⊆ (rseg6_b_W.map (Proc.devRef (τ := τ) .tc)).toFinset :=
  ⟨writes_sub_of_mem (y := main_v346) (by decide), writes_sub_of_mem (y := main_v347) (by decide), writes_sub_of_mem (y := main_call17.c.ref) (by decide), writes_sub_of_mem (y := main_call17.v0.ref) (by decide), writes_sub_of_mem (y := main_call17.v1.ref) (by decide), writes_sub_of_mem (y := main_call17.c_0.ref) (by decide), writes_sub_of_mem (y := main_call17.v2.ref) (by decide), writes_sub_of_mem (y := main_call17.v3.ref) (by decide), writes_sub_of_mem (y := main_call17.v4.ref) (by decide), writes_sub_of_mem (y := main_call17.v5.ref) (by decide), writes_sub_of_mem (y := main_call17.c_1.ref) (by decide), writes_sub_of_mem (y := main_call17.c_2.ref) (by decide), writes_sub_of_mem (y := main_call17.v6.ref) (by decide), writes_sub_of_mem (y := main_call17.v7.ref) (by decide), writes_sub_of_mem (y := main_call17.v8.ref) (by decide), writes_sub_of_mem (y := main_call17.v9.ref) (by decide), writes_sub_of_mem (y := main_call17.v10.ref) (by decide), writes_sub_of_mem (y := main_call17.v11.ref) (by decide), writes_sub_of_mem (y := main_call17.c_3.ref) (by decide), writes_sub_of_mem (y := main_call17.v12.ref) (by decide), writes_sub_of_mem (y := main_call17.v13.ref) (by decide), writes_sub_of_mem (y := main_call17.cst.ref) (by decide), writes_sub_of_mem (y := main_call17.v14.ref) (by decide), writes_sub_of_mem (y := main_call17.v15.ref) (by decide), writes_sub_of_mem (y := main_v349) (by decide), writes_sub_of_mem (y := main_v350) (by decide), writes_sub_of_mem (y := main_cst_72) (by decide), writes_sub_of_mem (y := main_v351) (by decide), writes_sub_of_mem (y := main_v352) (by decide), writes_sub_of_mem (y := main_v353) (by decide), writes_sub_of_mem (y := main_v354) (by decide), writes_sub_of_mem (y := main_cst_73) (by decide), writes_sub_of_mem (y := main_v355) (by decide), writes_sub_of_mem (y := main_v356) (by decide), writes_sub_of_mem (y := main_cst_74) (by decide), writes_sub_of_mem (y := main_v357) (by decide), writes_sub_of_mem (y := main_v358) (by decide), writes_sub_of_mem (y := main_v359) (by decide), writes_sub_of_mem (y := main_v360) (by decide), writes_sub_of_mem (y := main_v361) (by decide)⟩
set_option maxRecDepth 8192 in
/-- The list holds no argument: the operations leave the arguments alone. -/
theorem rseg6_b_keeps : KeepsArgs (F := F) rseg6_b := keepsArgs_of_writes rseg6_b_writes (by decide)

set_option maxHeartbeats 40000000 in
/-- Operations 662 … 701 of 1108 (segment 6, window 7 of @main). -/
abbrev rseg6_c : List (HloOp τ sig (Elt F)) :=
  [ StableHlo.nullary main_cst_75 (constant S_ .f32 0x00000000#32),
    StableHlo.binary main_v361 main_cst_75 main_v362 ((fun x v => Host.reduceAdd x v reducesTo_S4096x61_S4096_d1 h_S_) : (⟨S4096x61, .f32⟩ : BufTy).Contents (Elt F) → (⟨S_, .f32⟩ : BufTy).Contents (Elt F) → (⟨S4096, .f32⟩ : BufTy).Contents (Elt F)),
    StableHlo.binary main_v303 main_v362 main_v363 (subf : (⟨S4096, .f32⟩ : BufTy).Contents (Elt F) → (⟨S4096, .f32⟩ : BufTy).Contents (Elt F) → (⟨S4096, .f32⟩ : BufTy).Contents (Elt F)),
    StableHlo.nullary main_c_76 (constantI S_ 32 2000#32),
    StableHlo.unary main_c_76 main_v364 (broadcastInDim S4096x64 ![] bcast_S_S4096x64 : (⟨S_, .i32⟩ : BufTy).Contents (Elt F) → (⟨S4096x64, .i32⟩ : BufTy).Contents (Elt F)),
    StableHlo.binary main_v2 main_v364 main_v365 (cmpi .eq : (⟨S4096x64, .i32⟩ : BufTy).Contents (Elt F) → (⟨S4096x64, .i32⟩ : BufTy).Contents (Elt F) → (⟨S4096x64, .i1⟩ : BufTy).Contents (Elt F)),
    StableHlo.nullary main_c_77 (constantI S_ 32 2000#32),
    StableHlo.unary main_c_77 main_v366 (broadcastInDim S4096x64 ![] bcast_S_S4096x64 : (⟨S_, .i32⟩ : BufTy).Contents (Elt F) → (⟨S4096x64, .i32⟩ : BufTy).Contents (Elt F)),
    StableHlo.binary main_v2 main_v366 main_v367 (addi : (⟨S4096x64, .i32⟩ : BufTy).Contents (Elt F) → (⟨S4096x64, .i32⟩ : BufTy).Contents (Elt F) → (⟨S4096x64, .i32⟩ : BufTy).Contents (Elt F)),
    StableHlo.nullary main_c_78 (constantI S_ 32 4000#32),
    StableHlo.TRef.unary (.of main_c_78 : StableHlo.TRef sig ⟨S_, .i32⟩) main_call18.v0 id,
    StableHlo.TRef.unary main_call18.v0 main_call18.v1 (broadcastInDim S4096x64 ![] bcast_S_S4096x64),
    StableHlo.TRef.ternary (.of main_v365 : StableHlo.TRef sig ⟨S4096x64, .i1⟩) main_call18.v1 (.of main_v367 : StableHlo.TRef sig ⟨S4096x64, .i32⟩) main_call18.v2 select,
    StableHlo.binary main_v2 main_v368 main_v369 ((fun a b => concatenate S4096x128 1 [⟨S4096x64, a⟩, ⟨S4096x64, b⟩] concatenates_S4096x64_S4096x64_S4096x128_d1) : (⟨S4096x64, .i32⟩ : BufTy).Contents (Elt F) → (⟨S4096x64, .i32⟩ : BufTy).Contents (Elt F) → (⟨S4096x128, .i32⟩ : BufTy).Contents (Elt F)),
    StableHlo.unary main_arg2 main_v370 ((extractStridedSlice S1x2000x64 ![6, 0, 0] · slices_S10x2000x64_S1x2000x64_6_0_0) : (⟨S10x2000x64, .f32⟩ : BufTy).Contents (Elt F) → (⟨S1x2000x64, .f32⟩ : BufTy).Contents (Elt F)),
    StableHlo.reshape main_v370 main_v371 rfl shapeCasts_S1x2000x64_S2000x64,
    StableHlo.unary main_arg3 main_v372 ((extractStridedSlice S1x64 ![6, 0] · slices_S10x64_S1x64_6_0) : (⟨S10x64, .f32⟩ : BufTy).Contents (Elt F) → (⟨S1x64, .f32⟩ : BufTy).Contents (Elt F)),
    StableHlo.reshape main_v372 main_v373 rfl shapeCasts_S1x64_S64,
    StableHlo.unary main_arg4 main_v374 ((extractStridedSlice S1x64x4000 ![6, 0, 0] · slices_S10x64x4000_S1x64x4000_6_0_0) : (⟨S10x64x4000, .f32⟩ : BufTy).Contents (Elt F) → (⟨S1x64x4000, .f32⟩ : BufTy).Contents (Elt F)),
    StableHlo.reshape main_v374 main_v375 rfl shapeCasts_S1x64x4000_S64x4000,
    StableHlo.unary main_arg5 main_v376 ((extractStridedSlice S1x4000 ![6, 0] · slices_S10x4000_S1x4000_6_0) : (⟨S10x4000, .f32⟩ : BufTy).Contents (Elt F) → (⟨S1x4000, .f32⟩ : BufTy).Contents (Elt F)),
    StableHlo.reshape main_v376 main_v377 rfl shapeCasts_S1x4000_S4000,
    StableHlo.nullary main_v378 (iotaInDim S4096 32 0),
    StableHlo.unary main_v378 main_v379 (broadcastInDim S4096x1 ![0] bcast_S4096_S4096x1_0 : (⟨S4096, .i32⟩ : BufTy).Contents (Elt F) → (⟨S4096x1, .i32⟩ : BufTy).Contents (Elt F)),
    StableHlo.nullary main_cst_79 (constant S_ .f32 0x00000000#32),
    StableHlo.unary main_cst_79 main_v380 (broadcastInDim S4096x2001 ![] bcast_S_S4096x2001 : (⟨S_, .f32⟩ : BufTy).Contents (Elt F) → (⟨S4096x2001, .f32⟩ : BufTy).Contents (Elt F)),
    StableHlo.nullary main_c_80 (constantI S_ 32 0#32),
    StableHlo.unary main_c_80 main_v381 (broadcastInDim S4096x1 ![] bcast_S_S4096x1 : (⟨S_, .i32⟩ : BufTy).Contents (Elt F) → (⟨S4096x1, .i32⟩ : BufTy).Contents (Elt F)),
    StableHlo.binary main_v379 main_v381 main_v382 (cmpi .slt : (⟨S4096x1, .i32⟩ : BufTy).Contents (Elt F) → (⟨S4096x1, .i32⟩ : BufTy).Contents (Elt F) → (⟨S4096x1, .i1⟩ : BufTy).Contents (Elt F)),
    StableHlo.nullary main_c_81 (constantI S_ 32 4096#32),
    StableHlo.unary main_c_81 main_v383 (broadcastInDim S4096x1 ![] bcast_S_S4096x1 : (⟨S_, .i32⟩ : BufTy).Contents (Elt F) → (⟨S4096x1, .i32⟩ : BufTy).Contents (Elt F)),
    StableHlo.binary main_v379 main_v383 main_v384 (addi : (⟨S4096x1, .i32⟩ : BufTy).Contents (Elt F) → (⟨S4096x1, .i32⟩ : BufTy).Contents (Elt F) → (⟨S4096x1, .i32⟩ : BufTy).Contents (Elt F)),
    StableHlo.ternary main_v382 main_v384 main_v379 main_v385 (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)),
    StableHlo.nullary main_c_82 (constantI S_ 32 0#32),
    StableHlo.unary main_c_82 main_v386 (broadcastInDim S4096x61 ![] bcast_S_S4096x61 : (⟨S_, .i32⟩ : BufTy).Contents (Elt F) → (⟨S4096x61, .i32⟩ : BufTy).Contents (Elt F)),
    StableHlo.binary main_v3 main_v386 main_v387 (cmpi .slt : (⟨S4096x61, .i32⟩ : BufTy).Contents (Elt F) → (⟨S4096x61, .i32⟩ : BufTy).Contents (Elt F) → (⟨S4096x61, .i1⟩ : BufTy).Contents (Elt F)),
    StableHlo.nullary main_c_83 (constantI S_ 32 2001#32),
    StableHlo.unary main_c_83 main_v388 (broadcastInDim S4096x61 ![] bcast_S_S4096x61 : (⟨S_, .i32⟩ : BufTy).Contents (Elt F) → (⟨S4096x61, .i32⟩ : BufTy).Contents (Elt F)),
    StableHlo.binary main_v3 main_v388 main_v389 (addi : (⟨S4096x61, .i32⟩ : BufTy).Contents (Elt F) → (⟨S4096x61, .i32⟩ : BufTy).Contents (Elt F) → (⟨S4096x61, .i32⟩ : BufTy).Contents (Elt F)),
    StableHlo.ternary main_v387 main_v389 main_v3 main_v390 (select : (⟨S4096x61, .i1⟩ : BufTy).Contents (Elt F) → (⟨S4096x61, .i32⟩ : BufTy).Contents (Elt F) → (⟨S4096x61, .i32⟩ : BufTy).Contents (Elt F) → (⟨S4096x61, .i32⟩ : BufTy).Contents (Elt F)) ]
/-- The references they write, in order. -/
abbrev rseg6_c_W : List (Ref sig .tc) :=
  [main_cst_75, main_v362, main_v363, main_c_76, main_v364, main_v365, main_c_77, main_v366, main_v367, main_c_78, main_call18.v0.ref, main_call18.v1.ref, main_call18.v2.ref, main_v369, main_v370, main_v371, main_v372, main_v373, main_v374, main_v375, main_v376, main_v377, main_v378, main_v379, main_cst_79, main_v380, main_c_80, main_v381, main_v382, main_c_81, main_v383, main_v384, main_v385, main_c_82, main_v386, main_v387, main_c_83, main_v388, main_v389, main_v390]
set_option maxRecDepth 8192 in
/-- Each touches TensorCore references only. -/
theorem rseg6_c_sub : (rseg6_c : List (HloOp τ sig (Elt F))).Forall fun op => op.bufs ⊆ tcRefs τ sig :=
  ⟨nullary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub ..⟩
set_option maxRecDepth 8192 in
/-- None allocates a buffer. -/
theorem rseg6_c_fresh : (rseg6_c : List (HloOp τ sig (Elt F))).Forall fun op => op.fresh = ∅ := by
  simp only [List.Forall]; repeat' constructor
set_option maxRecDepth 8192 in
/-- Each writes inside the list. -/
theorem rseg6_c_writes : (rseg6_c : List (HloOp τ sig (Elt F))).Forall fun op => op.writes ⊆ (rseg6_c_W.map (Proc.devRef (τ := τ) .tc)).toFinset :=
  ⟨writes_sub_of_mem (y := main_cst_75) (by decide), writes_sub_of_mem (y := main_v362) (by decide), writes_sub_of_mem (y := main_v363) (by decide), writes_sub_of_mem (y := main_c_76) (by decide), writes_sub_of_mem (y := main_v364) (by decide), writes_sub_of_mem (y := main_v365) (by decide), writes_sub_of_mem (y := main_c_77) (by decide), writes_sub_of_mem (y := main_v366) (by decide), writes_sub_of_mem (y := main_v367) (by decide), writes_sub_of_mem (y := main_c_78) (by decide), writes_sub_of_mem (y := main_call18.v0.ref) (by decide), writes_sub_of_mem (y := main_call18.v1.ref) (by decide), writes_sub_of_mem (y := main_call18.v2.ref) (by decide), writes_sub_of_mem (y := main_v369) (by decide), writes_sub_of_mem (y := main_v370) (by decide), writes_sub_of_mem (y := main_v371) (by decide), writes_sub_of_mem (y := main_v372) (by decide), writes_sub_of_mem (y := main_v373) (by decide), writes_sub_of_mem (y := main_v374) (by decide), writes_sub_of_mem (y := main_v375) (by decide), writes_sub_of_mem (y := main_v376) (by decide), writes_sub_of_mem (y := main_v377) (by decide), writes_sub_of_mem (y := main_v378) (by decide), writes_sub_of_mem (y := main_v379) (by decide), writes_sub_of_mem (y := main_cst_79) (by decide), writes_sub_of_mem (y := main_v380) (by decide), writes_sub_of_mem (y := main_c_80) (by decide), writes_sub_of_mem (y := main_v381) (by decide), writes_sub_of_mem (y := main_v382) (by decide), writes_sub_of_mem (y := main_c_81) (by decide), writes_sub_of_mem (y := main_v383) (by decide), writes_sub_of_mem (y := main_v384) (by decide), writes_sub_of_mem (y := main_v385) (by decide), writes_sub_of_mem (y := main_c_82) (by decide), writes_sub_of_mem (y := main_v386) (by decide), writes_sub_of_mem (y := main_v387) (by decide), writes_sub_of_mem (y := main_c_83) (by decide), writes_sub_of_mem (y := main_v388) (by decide), writes_sub_of_mem (y := main_v389) (by decide), writes_sub_of_mem (y := main_v390) (by decide)⟩
set_option maxRecDepth 8192 in
/-- The list holds no argument: the operations leave the arguments alone. -/
theorem rseg6_c_keeps : KeepsArgs (F := F) rseg6_c := keepsArgs_of_writes rseg6_c_writes (by decide)

set_option maxHeartbeats 40000000 in
/-- Operations 702 … 704 of 1108 (segment 6, window 7 of @main). -/
abbrev rseg6_d : List (HloOp τ sig (Elt F)) :=
  [ StableHlo.unary main_v385 main_v391 (broadcastInDim S4096x61 ![0, 1] bcast_S4096x1_S4096x61_0_1 : (⟨S4096x1, .i32⟩ : BufTy).Contents (Elt F) → (⟨S4096x61, .i32⟩ : BufTy).Contents (Elt F)),
    StableHlo.unary main_v391 main_v392 (broadcastInDim S4096x61x1 ![0, 1] bcast_S4096x61_S4096x61x1_0_1 : (⟨S4096x61, .i32⟩ : BufTy).Contents (Elt F) → (⟨S4096x61x1, .i32⟩ : BufTy).Contents (Elt F)),
    StableHlo.unary main_v390 main_v393 (broadcastInDim S4096x61x1 ![0, 1] bcast_S4096x61_S4096x61x1_0_1 : (⟨S4096x61, .i32⟩ : BufTy).Contents (Elt F) → (⟨S4096x61x1, .i32⟩ : BufTy).Contents (Elt F)) ]
/-- The references they write, in order. -/
abbrev rseg6_d_W : List (Ref sig .tc) :=
  [main_v391, main_v392, main_v393]
set_option maxRecDepth 8192 in
/-- Each touches TensorCore references only. -/
theorem rseg6_d_sub : (rseg6_d : List (HloOp τ sig (Elt F))).Forall fun op => op.bufs ⊆ tcRefs τ sig :=
  ⟨unary_bufs_sub .., unary_bufs_sub .., unary_bufs_sub ..⟩
set_option maxRecDepth 8192 in
/-- None allocates a buffer. -/
theorem rseg6_d_fresh : (rseg6_d : List (HloOp τ sig (Elt F))).Forall fun op => op.fresh = ∅ := by
  simp only [List.Forall]; repeat' constructor
set_option maxRecDepth 8192 in
/-- Each writes inside the list. -/
theorem rseg6_d_writes : (rseg6_d : List (HloOp τ sig (Elt F))).Forall fun op => op.writes ⊆ (rseg6_d_W.map (Proc.devRef (τ := τ) .tc)).toFinset :=
  ⟨writes_sub_of_mem (y := main_v391) (by decide), writes_sub_of_mem (y := main_v392) (by decide), writes_sub_of_mem (y := main_v393) (by decide)⟩
set_option maxRecDepth 8192 in
/-- The list holds no argument: the operations leave the arguments alone. -/
theorem rseg6_d_keeps : KeepsArgs (F := F) rseg6_d := keepsArgs_of_writes rseg6_d_writes (by decide)

set_option maxHeartbeats 40000000 in
/-- Operations 705 … 730 of 1108 (segment 6, window 8 of @main). -/
abbrev rseg6_e : List (HloOp τ sig (Elt F)) :=
  [ StableHlo.binary main_v392 main_v393 main_v394 ((fun a b => concatenate S4096x61x2 2 [⟨S4096x61x1, a⟩, ⟨S4096x61x1, b⟩] concatenates_S4096x61x1_S4096x61x1_S4096x61x2_d2) : (⟨S4096x61x1, .i32⟩ : BufTy).Contents (Elt F) → (⟨S4096x61x1, .i32⟩ : BufTy).Contents (Elt F) → (⟨S4096x61x2, .i32⟩ : BufTy).Contents (Elt F)),
    StableHlo.ternary main_v380 main_v394 main_v360 main_v395 ((fun x i u => Host.scatterAdd scatter_S4096x2001_S4096x61x2_S4096x61_n_01_01_2 x i u) : (⟨S4096x2001, .f32⟩ : BufTy).Contents (Elt F) → (⟨S4096x61x2, .i32⟩ : BufTy).Contents (Elt F) → (⟨S4096x61, .f32⟩ : BufTy).Contents (Elt F) → (⟨S4096x2001, .f32⟩ : BufTy).Contents (Elt F)),
    StableHlo.unary main_v395 main_v396 ((extractStridedSlice S4096x2000 ![0, 0] · slices_S4096x2001_S4096x2000_0_0) : (⟨S4096x2001, .f32⟩ : BufTy).Contents (Elt F) → (⟨S4096x2000, .f32⟩ : BufTy).Contents (Elt F)),
    StableHlo.binary main_v396 main_v371 main_v397 ((fun l r => Host.dotGeneral dot_S4096x2000_S2000x64_S4096x64_1_0_0_1_n_n none l r) : (⟨S4096x2000, .f32⟩ : BufTy).Contents (Elt F) → (⟨S2000x64, .f32⟩ : BufTy).Contents (Elt F) → (⟨S4096x64, .f32⟩ : BufTy).Contents (Elt F)),
    StableHlo.unary main_v373 main_v398 (broadcastInDim S1x64 ![1] bcast_S64_S1x64_1 : (⟨S64, .f32⟩ : BufTy).Contents (Elt F) → (⟨S1x64, .f32⟩ : BufTy).Contents (Elt F)),
    StableHlo.unary main_v398 main_v399 (broadcastInDim S4096x64 ![0, 1] bcast_S1x64_S4096x64_0_1 : (⟨S1x64, .f32⟩ : BufTy).Contents (Elt F) → (⟨S4096x64, .f32⟩ : BufTy).Contents (Elt F)),
    StableHlo.binary main_v397 main_v399 main_v400 (addf : (⟨S4096x64, .f32⟩ : BufTy).Contents (Elt F) → (⟨S4096x64, .f32⟩ : BufTy).Contents (Elt F) → (⟨S4096x64, .f32⟩ : BufTy).Contents (Elt F)),
    StableHlo.TRef.nullary main_call19.cst (constant S_ .f32 0x00000000#32),
    StableHlo.TRef.unary main_call19.cst main_call19.v0 (broadcastInDim S4096x64 ![] bcast_S_S4096x64),
    StableHlo.TRef.binary (.of main_v400 : StableHlo.TRef sig ⟨S4096x64, .f32⟩) main_call19.v0 main_call19.v1 (cmpf .ogt),
    StableHlo.TRef.nullary main_call19.cst_0 (constant S_ .f32 0x00000000#32),
    StableHlo.TRef.unary main_call19.cst_0 main_call19.v2 (broadcastInDim S4096x64 ![] bcast_S_S4096x64),
    StableHlo.TRef.binary (.of main_v400 : StableHlo.TRef sig ⟨S4096x64, .f32⟩) main_call19.v2 main_call19.v3 (cmpf .ogt),
    StableHlo.TRef.nullary main_call19.cst_1 (constant S_ .f32 0x00000000#32),
    StableHlo.TRef.unary main_call19.cst_1 main_call19.call0.v0 id,
    StableHlo.TRef.unary main_call19.call0.v0 main_call19.call0.v1 (broadcastInDim S4096x64 ![] bcast_S_S4096x64),
    StableHlo.TRef.ternary main_call19.v3 main_call19.call0.v1 (.of main_v400 : StableHlo.TRef sig ⟨S4096x64, .f32⟩) main_call19.call0.v2 select,
    StableHlo.TRef.unary main_call19.call0.v2 main_call19.v5 Host.expm1,
    StableHlo.TRef.nullary main_call19.cst_2 (constant S_ .f32 0x3F800000#32),
    StableHlo.TRef.unary main_call19.cst_2 main_call19.v6 (broadcastInDim S4096x64 ![] bcast_S_S4096x64),
    StableHlo.TRef.binary main_call19.v6 main_call19.v5 main_call19.v7 mulf,
    StableHlo.TRef.ternary main_call19.v1 (.of main_v400 : StableHlo.TRef sig ⟨S4096x64, .f32⟩) main_call19.v7 main_call19.call1.v0 select,
    StableHlo.binary main_v401 main_v375 main_v402 ((fun l r => Host.dotGeneral dot_S4096x64_S64x4000_S4096x4000_1_0_0_1_n_n none l r) : (⟨S4096x64, .f32⟩ : BufTy).Contents (Elt F) → (⟨S64x4000, .f32⟩ : BufTy).Contents (Elt F) → (⟨S4096x4000, .f32⟩ : BufTy).Contents (Elt F)),
    StableHlo.unary main_v377 main_v403 (broadcastInDim S1x4000 ![1] bcast_S4000_S1x4000_1 : (⟨S4000, .f32⟩ : BufTy).Contents (Elt F) → (⟨S1x4000, .f32⟩ : BufTy).Contents (Elt F)),
    StableHlo.unary main_v403 main_v404 (broadcastInDim S4096x4000 ![0, 1] bcast_S1x4000_S4096x4000_0_1 : (⟨S1x4000, .f32⟩ : BufTy).Contents (Elt F) → (⟨S4096x4000, .f32⟩ : BufTy).Contents (Elt F)),
    StableHlo.binary main_v402 main_v404 main_v405 (addf : (⟨S4096x4000, .f32⟩ : BufTy).Contents (Elt F) → (⟨S4096x4000, .f32⟩ : BufTy).Contents (Elt F) → (⟨S4096x4000, .f32⟩ : BufTy).Contents (Elt F)) ]
/-- The references they write, in order. -/
abbrev rseg6_e_W : List (Ref sig .tc) :=
  [main_v394, main_v395, main_v396, main_v397, main_v398, main_v399, main_v400, main_call19.cst.ref, main_call19.v0.ref, main_call19.v1.ref, main_call19.cst_0.ref, main_call19.v2.ref, main_call19.v3.ref, main_call19.cst_1.ref, main_call19.call0.v0.ref, main_call19.call0.v1.ref, main_call19.call0.v2.ref, main_call19.v5.ref, main_call19.cst_2.ref, main_call19.v6.ref, main_call19.v7.ref, main_call19.call1.v0.ref, main_v402, main_v403, main_v404, main_v405]
set_option maxRecDepth 8192 in
/-- Each touches TensorCore references only. -/
theorem rseg6_e_sub : (rseg6_e : List (HloOp τ sig (Elt F))).Forall fun op => op.bufs ⊆ tcRefs τ sig :=
  ⟨binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub ..⟩
set_option maxRecDepth 8192 in
/-- None allocates a buffer. -/
theorem rseg6_e_fresh : (rseg6_e : List (HloOp τ sig (Elt F))).Forall fun op => op.fresh = ∅ := by
  simp only [List.Forall]; repeat' constructor
set_option maxRecDepth 8192 in
/-- Each writes inside the list. -/
theorem rseg6_e_writes : (rseg6_e : List (HloOp τ sig (Elt F))).Forall fun op => op.writes ⊆ (rseg6_e_W.map (Proc.devRef (τ := τ) .tc)).toFinset :=
  ⟨writes_sub_of_mem (y := main_v394) (by decide), writes_sub_of_mem (y := main_v395) (by decide), writes_sub_of_mem (y := main_v396) (by decide), writes_sub_of_mem (y := main_v397) (by decide), writes_sub_of_mem (y := main_v398) (by decide), writes_sub_of_mem (y := main_v399) (by decide), writes_sub_of_mem (y := main_v400) (by decide), writes_sub_of_mem (y := main_call19.cst.ref) (by decide), writes_sub_of_mem (y := main_call19.v0.ref) (by decide), writes_sub_of_mem (y := main_call19.v1.ref) (by decide), writes_sub_of_mem (y := main_call19.cst_0.ref) (by decide), writes_sub_of_mem (y := main_call19.v2.ref) (by decide), writes_sub_of_mem (y := main_call19.v3.ref) (by decide), writes_sub_of_mem (y := main_call19.cst_1.ref) (by decide), writes_sub_of_mem (y := main_call19.call0.v0.ref) (by decide), writes_sub_of_mem (y := main_call19.call0.v1.ref) (by decide), writes_sub_of_mem (y := main_call19.call0.v2.ref) (by decide), writes_sub_of_mem (y := main_call19.v5.ref) (by decide), writes_sub_of_mem (y := main_call19.cst_2.ref) (by decide), writes_sub_of_mem (y := main_call19.v6.ref) (by decide), writes_sub_of_mem (y := main_call19.v7.ref) (by decide), writes_sub_of_mem (y := main_call19.call1.v0.ref) (by decide), writes_sub_of_mem (y := main_v402) (by decide), writes_sub_of_mem (y := main_v403) (by decide), writes_sub_of_mem (y := main_v404) (by decide), writes_sub_of_mem (y := main_v405) (by decide)⟩
set_option maxRecDepth 8192 in
/-- The list holds no argument: the operations leave the arguments alone. -/
theorem rseg6_e_keeps : KeepsArgs (F := F) rseg6_e := keepsArgs_of_writes rseg6_e_writes (by decide)

set_option maxHeartbeats 40000000 in
/-- Operations 731 … 770 of 1108 (segment 7, window 8 of @main). -/
abbrev rseg7_a : List (HloOp τ sig (Elt F)) :=
  [ StableHlo.nullary main_cst_84 (constant S_ .f32 0x00000000#32),
    StableHlo.unary main_cst_84 main_v406 (broadcastInDim S4096x1 ![] bcast_S_S4096x1 : (⟨S_, .f32⟩ : BufTy).Contents (Elt F) → (⟨S4096x1, .f32⟩ : BufTy).Contents (Elt F)),
    StableHlo.binary main_v405 main_v406 main_v407 ((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F)),
    StableHlo.TRef.nullary main_call20.c (constantI S_ 32 0#32),
    StableHlo.TRef.unary main_call20.c main_call20.v0 (broadcastInDim S4096x128 ![] bcast_S_S4096x128),
    StableHlo.TRef.binary (.of main_v369 : StableHlo.TRef sig ⟨S4096x128, .i32⟩) main_call20.v0 main_call20.v1 (cmpi .slt),
    StableHlo.TRef.nullary main_call20.c_0 (constantI S_ 32 4001#32),
    StableHlo.TRef.unary main_call20.c_0 main_call20.v2 (broadcastInDim S4096x128 ![] bcast_S_S4096x128),
    StableHlo.TRef.binary (.of main_v369 : StableHlo.TRef sig ⟨S4096x128, .i32⟩) main_call20.v2 main_call20.v3 addi,
    StableHlo.TRef.ternary main_call20.v1 main_call20.v3 (.of main_v369 : StableHlo.TRef sig ⟨S4096x128, .i32⟩) main_call20.v4 select,
    StableHlo.TRef.reshape main_call20.v4 main_call20.v5 rfl shapeCasts_S4096x128_S4096x128x1,
    StableHlo.TRef.nullary main_call20.c_1 (constantI S1 32 4000#32),
    StableHlo.TRef.nullary main_call20.c_2 (constantI S_ 32 0#32),
    StableHlo.TRef.unary main_call20.c_2 main_call20.v6 (broadcastInDim S4096x128x1 ![] bcast_S_S4096x128x1),
    StableHlo.TRef.binary main_call20.v5 main_call20.v6 main_call20.v7 (cmpi .sge),
    StableHlo.TRef.unary main_call20.c_1 main_call20.v8 (broadcastInDim S1x1x1 ![2] bcast_S1_S1x1x1_2),
    StableHlo.TRef.unary main_call20.v8 main_call20.v9 (broadcastInDim S4096x128x1 ![0, 1, 2] bcast_S1x1x1_S4096x128x1_0_1_2),
    StableHlo.TRef.binary main_call20.v5 main_call20.v9 main_call20.v10 (cmpi .sle),
    StableHlo.TRef.binary main_call20.v7 main_call20.v10 main_call20.v11 andi,
    StableHlo.TRef.nullary main_call20.c_3 (constantI S_ 1 1#1),
    StableHlo.TRef.binary main_call20.v11 main_call20.c_3 main_call20.v12 (fun x v => Host.reduce IntOp.andi x v reducesTo_S4096x128x1_S4096x128_d2 h_S_),
    StableHlo.TRef.binary (.of main_v407 : StableHlo.TRef sig ⟨S4096x4001, .f32⟩) main_call20.v5 main_call20.v13 (fun x i => Host.gather gather_S4096x4001_S4096x128x1_S4096x128_n_1_0_0_1_2_11 x i),
    StableHlo.TRef.nullary main_call20.cst (constant S_ .f32 0x7FC00000#32),
    StableHlo.TRef.unary main_call20.cst main_call20.v14 (broadcastInDim S4096x128 ![] bcast_S_S4096x128),
    StableHlo.TRef.ternary main_call20.v12 main_call20.v13 main_call20.v14 main_call20.v15 select,
    StableHlo.unary main_v408 main_v409 ((extractStridedSlice S4096x64 ![0, 0] · slices_S4096x128_S4096x64_0_0) : (⟨S4096x128, .f32⟩ : BufTy).Contents (Elt F) → (⟨S4096x64, .f32⟩ : BufTy).Contents (Elt F)),
    StableHlo.unary main_v408 main_v410 ((extractStridedSlice S4096x64 ![0, 64] · slices_S4096x128_S4096x64_0_64) : (⟨S4096x128, .f32⟩ : BufTy).Contents (Elt F) → (⟨S4096x64, .f32⟩ : BufTy).Contents (Elt F)),
    StableHlo.nullary main_cst_85 (constant S_ .f32 0x40000000#32),
    StableHlo.unary main_cst_85 main_v411 (broadcastInDim S4096x64 ![] bcast_S_S4096x64 : (⟨S_, .f32⟩ : BufTy).Contents (Elt F) → (⟨S4096x64, .f32⟩ : BufTy).Contents (Elt F)),
    StableHlo.binary main_v409 main_v411 main_v412 (addf : (⟨S4096x64, .f32⟩ : BufTy).Contents (Elt F) → (⟨S4096x64, .f32⟩ : BufTy).Contents (Elt F) → (⟨S4096x64, .f32⟩ : BufTy).Contents (Elt F)),
    StableHlo.unary main_v412 main_v413 (Host.negf : (⟨S4096x64, .f32⟩ : BufTy).Contents (Elt F) → (⟨S4096x64, .f32⟩ : BufTy).Contents (Elt F)),
    StableHlo.unary main_v413 main_v414 (Host.exp : (⟨S4096x64, .f32⟩ : BufTy).Contents (Elt F) → (⟨S4096x64, .f32⟩ : BufTy).Contents (Elt F)),
    StableHlo.nullary main_cst_86 (constant S_ .f32 0x3F800000#32),
    StableHlo.unary main_cst_86 main_v415 (broadcastInDim S4096x64 ![] bcast_S_S4096x64 : (⟨S_, .f32⟩ : BufTy).Contents (Elt F) → (⟨S4096x64, .f32⟩ : BufTy).Contents (Elt F)),
    StableHlo.binary main_v415 main_v414 main_v416 (addf : (⟨S4096x64, .f32⟩ : BufTy).Contents (Elt F) → (⟨S4096x64, .f32⟩ : BufTy).Contents (Elt F) → (⟨S4096x64, .f32⟩ : BufTy).Contents (Elt F)),
    StableHlo.nullary main_cst_87 (constant S_ .f32 0x3F800000#32),
    StableHlo.unary main_cst_87 main_v417 (broadcastInDim S4096x64 ![] bcast_S_S4096x64 : (⟨S_, .f32⟩ : BufTy).Contents (Elt F) → (⟨S4096x64, .f32⟩ : BufTy).Contents (Elt F)),
    StableHlo.binary main_v417 main_v416 main_v418 (Host.divf : (⟨S4096x64, .f32⟩ : BufTy).Contents (Elt F) → (⟨S4096x64, .f32⟩ : BufTy).Contents (Elt F) → (⟨S4096x64, .f32⟩ : BufTy).Contents (Elt F)),
    StableHlo.binary main_v418 main_v300 main_v419 (mulf : (⟨S4096x64, .f32⟩ : BufTy).Contents (Elt F) → (⟨S4096x64, .f32⟩ : BufTy).Contents (Elt F) → (⟨S4096x64, .f32⟩ : BufTy).Contents (Elt F)),
    StableHlo.binary main_v419 main_v410 main_v420 (addf : (⟨S4096x64, .f32⟩ : BufTy).Contents (Elt F) → (⟨S4096x64, .f32⟩ : BufTy).Contents (Elt F) → (⟨S4096x64, .f32⟩ : BufTy).Contents (Elt F)) ]
/-- The references they write, in order. -/
abbrev rseg7_a_W : List (Ref sig .tc) :=
  [main_cst_84, main_v406, main_v407, main_call20.c.ref, main_call20.v0.ref, main_call20.v1.ref, main_call20.c_0.ref, main_call20.v2.ref, main_call20.v3.ref, main_call20.v4.ref, main_call20.v5.ref, main_call20.c_1.ref, main_call20.c_2.ref, main_call20.v6.ref, main_call20.v7.ref, main_call20.v8.ref, main_call20.v9.ref, main_call20.v10.ref, main_call20.v11.ref, main_call20.c_3.ref, main_call20.v12.ref, main_call20.v13.ref, main_call20.cst.ref, main_call20.v14.ref, main_call20.v15.ref, main_v409, main_v410, main_cst_85, main_v411, main_v412, main_v413, main_v414, main_cst_86, main_v415, main_v416, main_cst_87, main_v417, main_v418, main_v419, main_v420]
set_option maxRecDepth 8192 in
/-- Each touches TensorCore references only. -/
theorem rseg7_a_sub : (rseg7_a : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub ..⟩
set_option maxRecDepth 8192 in
/-- None allocates a buffer. -/
theorem rseg7_a_fresh : (rseg7_a : List (HloOp τ sig (Elt F))).Forall fun op => op.fresh = ∅ := by
  simp only [List.Forall]; repeat' constructor
set_option maxRecDepth 8192 in
/-- Each writes inside the list. -/
theorem rseg7_a_writes : (rseg7_a : List (HloOp τ sig (Elt F))).Forall fun op => op.writes ⊆ (rseg7_a_W.map (Proc.devRef (τ := τ) .tc)).toFinset :=
  ⟨writes_sub_of_mem (y := main_cst_84) (by decide), writes_sub_of_mem (y := main_v406) (by decide), writes_sub_of_mem (y := main_v407) (by decide), writes_sub_of_mem (y := main_call20.c.ref) (by decide), writes_sub_of_mem (y := main_call20.v0.ref) (by decide), writes_sub_of_mem (y := main_call20.v1.ref) (by decide), writes_sub_of_mem (y := main_call20.c_0.ref) (by decide), writes_sub_of_mem (y := main_call20.v2.ref) (by decide), writes_sub_of_mem (y := main_call20.v3.ref) (by decide), writes_sub_of_mem (y := main_call20.v4.ref) (by decide), writes_sub_of_mem (y := main_call20.v5.ref) (by decide), writes_sub_of_mem (y := main_call20.c_1.ref) (by decide), writes_sub_of_mem (y := main_call20.c_2.ref) (by decide), writes_sub_of_mem (y := main_call20.v6.ref) (by decide), writes_sub_of_mem (y := main_call20.v7.ref) (by decide), writes_sub_of_mem (y := main_call20.v8.ref) (by decide), writes_sub_of_mem (y := main_call20.v9.ref) (by decide), writes_sub_of_mem (y := main_call20.v10.ref) (by decide), writes_sub_of_mem (y := main_call20.v11.ref) (by decide), writes_sub_of_mem (y := main_call20.c_3.ref) (by decide), writes_sub_of_mem (y := main_call20.v12.ref) (by decide), writes_sub_of_mem (y := main_call20.v13.ref) (by decide), writes_sub_of_mem (y := main_call20.cst.ref) (by decide), writes_sub_of_mem (y := main_call20.v14.ref) (by decide), writes_sub_of_mem (y := main_call20.v15.ref) (by decide), writes_sub_of_mem (y := main_v409) (by decide), writes_sub_of_mem (y := main_v410) (by decide), writes_sub_of_mem (y := main_cst_85) (by decide), writes_sub_of_mem (y := main_v411) (by decide), writes_sub_of_mem (y := main_v412) (by decide), writes_sub_of_mem (y := main_v413) (by decide), writes_sub_of_mem (y := main_v414) (by decide), writes_sub_of_mem (y := main_cst_86) (by decide), writes_sub_of_mem (y := main_v415) (by decide), writes_sub_of_mem (y := main_v416) (by decide), writes_sub_of_mem (y := main_cst_87) (by decide), writes_sub_of_mem (y := main_v417) (by decide), writes_sub_of_mem (y := main_v418) (by decide), writes_sub_of_mem (y := main_v419) (by decide), writes_sub_of_mem (y := main_v420) (by decide)⟩
set_option maxRecDepth 8192 in
/-- The list holds no argument: the operations leave the arguments alone. -/
theorem rseg7_a_keeps : KeepsArgs (F := F) rseg7_a := keepsArgs_of_writes rseg7_a_writes (by decide)

set_option maxHeartbeats 40000000 in
/-- Operations 771 … 801 of 1108 (segment 7, window 8 of @main). -/
abbrev rseg7_b : List (HloOp τ sig (Elt F)) :=
  [ StableHlo.unary main_v418 main_v421 (Host.log : (⟨S4096x64, .f32⟩ : BufTy).Contents (Elt F) → (⟨S4096x64, .f32⟩ : BufTy).Contents (Elt F)),
    StableHlo.nullary main_cst_88 (constant S_ .f32 0x00000000#32),
    StableHlo.binary main_v421 main_cst_88 main_v422 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    StableHlo.binary main_v363 main_v422 main_v423 (subf : (⟨S4096, .f32⟩ : BufTy).Contents (Elt F) → (⟨S4096, .f32⟩ : BufTy).Contents (Elt F) → (⟨S4096, .f32⟩ : BufTy).Contents (Elt F)),
    StableHlo.nullary main_c_89 (constantI S_ 32 2000#32),
    StableHlo.unary main_c_89 main_v424 (broadcastInDim S4096x61 ![] bcast_S_S4096x61 : (⟨S_, .i32⟩ : BufTy).Contents (Elt F) → (⟨S4096x61, .i32⟩ : BufTy).Contents (Elt F)),
    StableHlo.binary main_v3 main_v424 main_v425 (cmpi .eq : (⟨S4096x61, .i32⟩ : BufTy).Contents (Elt F) → (⟨S4096x61, .i32⟩ : BufTy).Contents (Elt F) → (⟨S4096x61, .i1⟩ : BufTy).Contents (Elt F)),
    StableHlo.nullary main_c_90 (constantI S_ 32 2000#32),
    StableHlo.unary main_c_90 main_v426 (broadcastInDim S4096x61 ![] bcast_S_S4096x61 : (⟨S_, .i32⟩ : BufTy).Contents (Elt F) → (⟨S4096x61, .i32⟩ : BufTy).Contents (Elt F)),
    StableHlo.binary main_v3 main_v426 main_v427 (addi : (⟨S4096x61, .i32⟩ : BufTy).Contents (Elt F) → (⟨S4096x61, .i32⟩ : BufTy).Contents (Elt F) → (⟨S4096x61, .i32⟩ : BufTy).Contents (Elt F)),
    StableHlo.nullary main_c_91 (constantI S_ 32 4000#32),
    StableHlo.TRef.unary (.of main_c_91 : StableHlo.TRef sig ⟨S_, .i32⟩) main_call21.v0 id,
    StableHlo.TRef.unary main_call21.v0 main_call21.v1 (broadcastInDim S4096x61 ![] bcast_S_S4096x61),
    StableHlo.TRef.ternary (.of main_v425 : StableHlo.TRef sig ⟨S4096x61, .i1⟩) main_call21.v1 (.of main_v427 : StableHlo.TRef sig ⟨S4096x61, .i32⟩) main_call21.v2 select,
    StableHlo.binary main_v3 main_v428 main_v429 ((fun a b => concatenate S4096x122 1 [⟨S4096x61, a⟩, ⟨S4096x61, b⟩] concatenates_S4096x61_S4096x61_S4096x122_d1) : (⟨S4096x61, .i32⟩ : BufTy).Contents (Elt F) → (⟨S4096x61, .i32⟩ : BufTy).Contents (Elt F) → (⟨S4096x122, .i32⟩ : BufTy).Contents (Elt F)),
    StableHlo.unary main_arg2 main_v430 ((extractStridedSlice S1x2000x64 ![7, 0, 0] · slices_S10x2000x64_S1x2000x64_7_0_0) : (⟨S10x2000x64, .f32⟩ : BufTy).Contents (Elt F) → (⟨S1x2000x64, .f32⟩ : BufTy).Contents (Elt F)),
    StableHlo.reshape main_v430 main_v431 rfl shapeCasts_S1x2000x64_S2000x64,
    StableHlo.unary main_arg3 main_v432 ((extractStridedSlice S1x64 ![7, 0] · slices_S10x64_S1x64_7_0) : (⟨S10x64, .f32⟩ : BufTy).Contents (Elt F) → (⟨S1x64, .f32⟩ : BufTy).Contents (Elt F)),
    StableHlo.reshape main_v432 main_v433 rfl shapeCasts_S1x64_S64,
    StableHlo.unary main_arg4 main_v434 ((extractStridedSlice S1x64x4000 ![7, 0, 0] · slices_S10x64x4000_S1x64x4000_7_0_0) : (⟨S10x64x4000, .f32⟩ : BufTy).Contents (Elt F) → (⟨S1x64x4000, .f32⟩ : BufTy).Contents (Elt F)),
    StableHlo.reshape main_v434 main_v435 rfl shapeCasts_S1x64x4000_S64x4000,
    StableHlo.unary main_arg5 main_v436 ((extractStridedSlice S1x4000 ![7, 0] · slices_S10x4000_S1x4000_7_0) : (⟨S10x4000, .f32⟩ : BufTy).Contents (Elt F) → (⟨S1x4000, .f32⟩ : BufTy).Contents (Elt F)),
    StableHlo.reshape main_v436 main_v437 rfl shapeCasts_S1x4000_S4000,
    StableHlo.nullary main_v438 (iotaInDim S4096 32 0),
    StableHlo.unary main_v438 main_v439 (broadcastInDim S4096x1 ![0] bcast_S4096_S4096x1_0 : (⟨S4096, .i32⟩ : BufTy).Contents (Elt F) → (⟨S4096x1, .i32⟩ : BufTy).Contents (Elt F)),
    StableHlo.nullary main_cst_92 (constant S_ .f32 0x00000000#32),
    StableHlo.unary main_cst_92 main_v440 (broadcastInDim S4096x2001 ![] bcast_S_S4096x2001 : (⟨S_, .f32⟩ : BufTy).Contents (Elt F) → (⟨S4096x2001, .f32⟩ : BufTy).Contents (Elt F)),
    StableHlo.nullary main_c_93 (constantI S_ 32 0#32),
    StableHlo.unary main_c_93 main_v441 (broadcastInDim S4096x1 ![] bcast_S_S4096x1 : (⟨S_, .i32⟩ : BufTy).Contents (Elt F) → (⟨S4096x1, .i32⟩ : BufTy).Contents (Elt F)),
    StableHlo.binary main_v439 main_v441 main_v442 (cmpi .slt : (⟨S4096x1, .i32⟩ : BufTy).Contents (Elt F) → (⟨S4096x1, .i32⟩ : BufTy).Contents (Elt F) → (⟨S4096x1, .i1⟩ : BufTy).Contents (Elt F)),
    StableHlo.nullary main_c_94 (constantI S_ 32 4096#32) ]
/-- The references they write, in order. -/
abbrev rseg7_b_W : List (Ref sig .tc) :=
  [main_v421, main_cst_88, main_v422, main_v423, main_c_89, main_v424, main_v425, main_c_90, main_v426, main_v427, main_c_91, main_call21.v0.ref, main_call21.v1.ref, main_call21.v2.ref, main_v429, main_v430, main_v431, main_v432, main_v433, main_v434, main_v435, main_v436, main_v437, main_v438, main_v439, main_cst_92, main_v440, main_c_93, main_v441, main_v442, main_c_94]
set_option maxRecDepth 8192 in
/-- Each touches TensorCore references only. -/
theorem rseg7_b_sub : (rseg7_b : List (HloOp τ sig (Elt F))).Forall fun op => op.bufs ⊆ tcRefs τ sig :=
  ⟨unary_bufs_sub .., nullary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., nullary_bufs_sub .., unary_bufs_sub .., binary_bufs_sub .., nullary_bufs_sub ..⟩
set_option maxRecDepth 8192 in
/-- None allocates a buffer. -/
theorem rseg7_b_fresh : (rseg7_b : List (HloOp τ sig (Elt F))).Forall fun op => op.fresh = ∅ := by
  simp only [List.Forall]; repeat' constructor
set_option maxRecDepth 8192 in
/-- Each writes inside the list. -/
theorem rseg7_b_writes : (rseg7_b : List (HloOp τ sig (Elt F))).Forall fun op => op.writes ⊆ (rseg7_b_W.map (Proc.devRef (τ := τ) .tc)).toFinset :=
  ⟨writes_sub_of_mem (y := main_v421) (by decide), writes_sub_of_mem (y := main_cst_88) (by decide), writes_sub_of_mem (y := main_v422) (by decide), writes_sub_of_mem (y := main_v423) (by decide), writes_sub_of_mem (y := main_c_89) (by decide), writes_sub_of_mem (y := main_v424) (by decide), writes_sub_of_mem (y := main_v425) (by decide), writes_sub_of_mem (y := main_c_90) (by decide), writes_sub_of_mem (y := main_v426) (by decide), writes_sub_of_mem (y := main_v427) (by decide), writes_sub_of_mem (y := main_c_91) (by decide), writes_sub_of_mem (y := main_call21.v0.ref) (by decide), writes_sub_of_mem (y := main_call21.v1.ref) (by decide), writes_sub_of_mem (y := main_call21.v2.ref) (by decide), writes_sub_of_mem (y := main_v429) (by decide), writes_sub_of_mem (y := main_v430) (by decide), writes_sub_of_mem (y := main_v431) (by decide), writes_sub_of_mem (y := main_v432) (by decide), writes_sub_of_mem (y := main_v433) (by decide), writes_sub_of_mem (y := main_v434) (by decide), writes_sub_of_mem (y := main_v435) (by decide), writes_sub_of_mem (y := main_v436) (by decide), writes_sub_of_mem (y := main_v437) (by decide), writes_sub_of_mem (y := main_v438) (by decide), writes_sub_of_mem (y := main_v439) (by decide), writes_sub_of_mem (y := main_cst_92) (by decide), writes_sub_of_mem (y := main_v440) (by decide), writes_sub_of_mem (y := main_c_93) (by decide), writes_sub_of_mem (y := main_v441) (by decide), writes_sub_of_mem (y := main_v442) (by decide), writes_sub_of_mem (y := main_c_94) (by decide)⟩
set_option maxRecDepth 8192 in
/-- The list holds no argument: the operations leave the arguments alone. -/
theorem rseg7_b_keeps : KeepsArgs (F := F) rseg7_b := keepsArgs_of_writes rseg7_b_writes (by decide)

set_option maxHeartbeats 40000000 in
/-- Operations 802 … 840 of 1108 (segment 7, window 9 of @main). -/
abbrev rseg7_c : List (HloOp τ sig (Elt F)) :=
  [ StableHlo.unary main_c_94 main_v443 (broadcastInDim S4096x1 ![] bcast_S_S4096x1 : (⟨S_, .i32⟩ : BufTy).Contents (Elt F) → (⟨S4096x1, .i32⟩ : BufTy).Contents (Elt F)),
    StableHlo.binary main_v439 main_v443 main_v444 (addi : (⟨S4096x1, .i32⟩ : BufTy).Contents (Elt F) → (⟨S4096x1, .i32⟩ : BufTy).Contents (Elt F) → (⟨S4096x1, .i32⟩ : BufTy).Contents (Elt F)),
    StableHlo.ternary main_v442 main_v444 main_v439 main_v445 (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)),
    StableHlo.nullary main_c_95 (constantI S_ 32 0#32),
    StableHlo.unary main_c_95 main_v446 (broadcastInDim S4096x64 ![] bcast_S_S4096x64 : (⟨S_, .i32⟩ : BufTy).Contents (Elt F) → (⟨S4096x64, .i32⟩ : BufTy).Contents (Elt F)),
    StableHlo.binary main_v2 main_v446 main_v447 (cmpi .slt : (⟨S4096x64, .i32⟩ : BufTy).Contents (Elt F) → (⟨S4096x64, .i32⟩ : BufTy).Contents (Elt F) → (⟨S4096x64, .i1⟩ : BufTy).Contents (Elt F)),
    StableHlo.nullary main_c_96 (constantI S_ 32 2001#32),
    StableHlo.unary main_c_96 main_v448 (broadcastInDim S4096x64 ![] bcast_S_S4096x64 : (⟨S_, .i32⟩ : BufTy).Contents (Elt F) → (⟨S4096x64, .i32⟩ : BufTy).Contents (Elt F)),
    StableHlo.binary main_v2 main_v448 main_v449 (addi : (⟨S4096x64, .i32⟩ : BufTy).Contents (Elt F) → (⟨S4096x64, .i32⟩ : BufTy).Contents (Elt F) → (⟨S4096x64, .i32⟩ : BufTy).Contents (Elt F)),
    StableHlo.ternary main_v447 main_v449 main_v2 main_v450 (select : (⟨S4096x64, .i1⟩ : BufTy).Contents (Elt F) → (⟨S4096x64, .i32⟩ : BufTy).Contents (Elt F) → (⟨S4096x64, .i32⟩ : BufTy).Contents (Elt F) → (⟨S4096x64, .i32⟩ : BufTy).Contents (Elt F)),
    StableHlo.unary main_v445 main_v451 (broadcastInDim S4096x64 ![0, 1] bcast_S4096x1_S4096x64_0_1 : (⟨S4096x1, .i32⟩ : BufTy).Contents (Elt F) → (⟨S4096x64, .i32⟩ : BufTy).Contents (Elt F)),
    StableHlo.unary main_v451 main_v452 (broadcastInDim S4096x64x1 ![0, 1] bcast_S4096x64_S4096x64x1_0_1 : (⟨S4096x64, .i32⟩ : BufTy).Contents (Elt F) → (⟨S4096x64x1, .i32⟩ : BufTy).Contents (Elt F)),
    StableHlo.unary main_v450 main_v453 (broadcastInDim S4096x64x1 ![0, 1] bcast_S4096x64_S4096x64x1_0_1 : (⟨S4096x64, .i32⟩ : BufTy).Contents (Elt F) → (⟨S4096x64x1, .i32⟩ : BufTy).Contents (Elt F)),
    StableHlo.binary main_v452 main_v453 main_v454 ((fun a b => concatenate S4096x64x2 2 [⟨S4096x64x1, a⟩, ⟨S4096x64x1, b⟩] concatenates_S4096x64x1_S4096x64x1_S4096x64x2_d2) : (⟨S4096x64x1, .i32⟩ : BufTy).Contents (Elt F) → (⟨S4096x64x1, .i32⟩ : BufTy).Contents (Elt F) → (⟨S4096x64x2, .i32⟩ : BufTy).Contents (Elt F)),
    StableHlo.ternary main_v440 main_v454 main_v420 main_v455 ((fun x i u => Host.scatterAdd scatter_S4096x2001_S4096x64x2_S4096x64_n_01_01_2 x i u) : (⟨S4096x2001, .f32⟩ : BufTy).Contents (Elt F) → (⟨S4096x64x2, .i32⟩ : BufTy).Contents (Elt F) → (⟨S4096x64, .f32⟩ : BufTy).Contents (Elt F) → (⟨S4096x2001, .f32⟩ : BufTy).Contents (Elt F)),
    StableHlo.unary main_v455 main_v456 ((extractStridedSlice S4096x2000 ![0, 0] · slices_S4096x2001_S4096x2000_0_0) : (⟨S4096x2001, .f32⟩ : BufTy).Contents (Elt F) → (⟨S4096x2000, .f32⟩ : BufTy).Contents (Elt F)),
    StableHlo.binary main_v456 main_v431 main_v457 ((fun l r => Host.dotGeneral dot_S4096x2000_S2000x64_S4096x64_1_0_0_1_n_n none l r) : (⟨S4096x2000, .f32⟩ : BufTy).Contents (Elt F) → (⟨S2000x64, .f32⟩ : BufTy).Contents (Elt F) → (⟨S4096x64, .f32⟩ : BufTy).Contents (Elt F)),
    StableHlo.unary main_v433 main_v458 (broadcastInDim S1x64 ![1] bcast_S64_S1x64_1 : (⟨S64, .f32⟩ : BufTy).Contents (Elt F) → (⟨S1x64, .f32⟩ : BufTy).Contents (Elt F)),
    StableHlo.unary main_v458 main_v459 (broadcastInDim S4096x64 ![0, 1] bcast_S1x64_S4096x64_0_1 : (⟨S1x64, .f32⟩ : BufTy).Contents (Elt F) → (⟨S4096x64, .f32⟩ : BufTy).Contents (Elt F)),
    StableHlo.binary main_v457 main_v459 main_v460 (addf : (⟨S4096x64, .f32⟩ : BufTy).Contents (Elt F) → (⟨S4096x64, .f32⟩ : BufTy).Contents (Elt F) → (⟨S4096x64, .f32⟩ : BufTy).Contents (Elt F)),
    StableHlo.TRef.nullary main_call22.cst (constant S_ .f32 0x00000000#32),
    StableHlo.TRef.unary main_call22.cst main_call22.v0 (broadcastInDim S4096x64 ![] bcast_S_S4096x64),
    StableHlo.TRef.binary (.of main_v460 : StableHlo.TRef sig ⟨S4096x64, .f32⟩) main_call22.v0 main_call22.v1 (cmpf .ogt),
    StableHlo.TRef.nullary main_call22.cst_0 (constant S_ .f32 0x00000000#32),
    StableHlo.TRef.unary main_call22.cst_0 main_call22.v2 (broadcastInDim S4096x64 ![] bcast_S_S4096x64),
    StableHlo.TRef.binary (.of main_v460 : StableHlo.TRef sig ⟨S4096x64, .f32⟩) main_call22.v2 main_call22.v3 (cmpf .ogt),
    StableHlo.TRef.nullary main_call22.cst_1 (constant S_ .f32 0x00000000#32),
    StableHlo.TRef.unary main_call22.cst_1 main_call22.call0.v0 id,
    StableHlo.TRef.unary main_call22.call0.v0 main_call22.call0.v1 (broadcastInDim S4096x64 ![] bcast_S_S4096x64),
    StableHlo.TRef.ternary main_call22.v3 main_call22.call0.v1 (.of main_v460 : StableHlo.TRef sig ⟨S4096x64, .f32⟩) main_call22.call0.v2 select,
    StableHlo.TRef.unary main_call22.call0.v2 main_call22.v5 Host.expm1,
    StableHlo.TRef.nullary main_call22.cst_2 (constant S_ .f32 0x3F800000#32),
    StableHlo.TRef.unary main_call22.cst_2 main_call22.v6 (broadcastInDim S4096x64 ![] bcast_S_S4096x64),
    StableHlo.TRef.binary main_call22.v6 main_call22.v5 main_call22.v7 mulf,
    StableHlo.TRef.ternary main_call22.v1 (.of main_v460 : StableHlo.TRef sig ⟨S4096x64, .f32⟩) main_call22.v7 main_call22.call1.v0 select,
    StableHlo.binary main_v461 main_v435 main_v462 ((fun l r => Host.dotGeneral dot_S4096x64_S64x4000_S4096x4000_1_0_0_1_n_n none l r) : (⟨S4096x64, .f32⟩ : BufTy).Contents (Elt F) → (⟨S64x4000, .f32⟩ : BufTy).Contents (Elt F) → (⟨S4096x4000, .f32⟩ : BufTy).Contents (Elt F)),
    StableHlo.unary main_v437 main_v463 (broadcastInDim S1x4000 ![1] bcast_S4000_S1x4000_1 : (⟨S4000, .f32⟩ : BufTy).Contents (Elt F) → (⟨S1x4000, .f32⟩ : BufTy).Contents (Elt F)),
    StableHlo.unary main_v463 main_v464 (broadcastInDim S4096x4000 ![0, 1] bcast_S1x4000_S4096x4000_0_1 : (⟨S1x4000, .f32⟩ : BufTy).Contents (Elt F) → (⟨S4096x4000, .f32⟩ : BufTy).Contents (Elt F)),
    StableHlo.binary main_v462 main_v464 main_v465 (addf : (⟨S4096x4000, .f32⟩ : BufTy).Contents (Elt F) → (⟨S4096x4000, .f32⟩ : BufTy).Contents (Elt F) → (⟨S4096x4000, .f32⟩ : BufTy).Contents (Elt F)) ]
/-- The references they write, in order. -/
abbrev rseg7_c_W : List (Ref sig .tc) :=
  [main_v443, main_v444, main_v445, main_c_95, main_v446, main_v447, main_c_96, main_v448, main_v449, main_v450, main_v451, main_v452, main_v453, main_v454, main_v455, main_v456, main_v457, main_v458, main_v459, main_v460, main_call22.cst.ref, main_call22.v0.ref, main_call22.v1.ref, main_call22.cst_0.ref, main_call22.v2.ref, main_call22.v3.ref, main_call22.cst_1.ref, main_call22.call0.v0.ref, main_call22.call0.v1.ref, main_call22.call0.v2.ref, main_call22.v5.ref, main_call22.cst_2.ref, main_call22.v6.ref, main_call22.v7.ref, main_call22.call1.v0.ref, main_v462, main_v463, main_v464, main_v465]
set_option maxRecDepth 8192 in
/-- Each touches TensorCore references only. -/
theorem rseg7_c_sub : (rseg7_c : List (HloOp τ sig (Elt F))).Forall fun op => op.bufs ⊆ tcRefs τ sig :=
  ⟨unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub ..⟩
set_option maxRecDepth 8192 in
/-- None allocates a buffer. -/
theorem rseg7_c_fresh : (rseg7_c : List (HloOp τ sig (Elt F))).Forall fun op => op.fresh = ∅ := by
  simp only [List.Forall]; repeat' constructor
set_option maxRecDepth 8192 in
/-- Each writes inside the list. -/
theorem rseg7_c_writes : (rseg7_c : List (HloOp τ sig (Elt F))).Forall fun op => op.writes ⊆ (rseg7_c_W.map (Proc.devRef (τ := τ) .tc)).toFinset :=
  ⟨writes_sub_of_mem (y := main_v443) (by decide), writes_sub_of_mem (y := main_v444) (by decide), writes_sub_of_mem (y := main_v445) (by decide), writes_sub_of_mem (y := main_c_95) (by decide), writes_sub_of_mem (y := main_v446) (by decide), writes_sub_of_mem (y := main_v447) (by decide), writes_sub_of_mem (y := main_c_96) (by decide), writes_sub_of_mem (y := main_v448) (by decide), writes_sub_of_mem (y := main_v449) (by decide), writes_sub_of_mem (y := main_v450) (by decide), writes_sub_of_mem (y := main_v451) (by decide), writes_sub_of_mem (y := main_v452) (by decide), writes_sub_of_mem (y := main_v453) (by decide), writes_sub_of_mem (y := main_v454) (by decide), writes_sub_of_mem (y := main_v455) (by decide), writes_sub_of_mem (y := main_v456) (by decide), writes_sub_of_mem (y := main_v457) (by decide), writes_sub_of_mem (y := main_v458) (by decide), writes_sub_of_mem (y := main_v459) (by decide), writes_sub_of_mem (y := main_v460) (by decide), writes_sub_of_mem (y := main_call22.cst.ref) (by decide), writes_sub_of_mem (y := main_call22.v0.ref) (by decide), writes_sub_of_mem (y := main_call22.v1.ref) (by decide), writes_sub_of_mem (y := main_call22.cst_0.ref) (by decide), writes_sub_of_mem (y := main_call22.v2.ref) (by decide), writes_sub_of_mem (y := main_call22.v3.ref) (by decide), writes_sub_of_mem (y := main_call22.cst_1.ref) (by decide), writes_sub_of_mem (y := main_call22.call0.v0.ref) (by decide), writes_sub_of_mem (y := main_call22.call0.v1.ref) (by decide), writes_sub_of_mem (y := main_call22.call0.v2.ref) (by decide), writes_sub_of_mem (y := main_call22.v5.ref) (by decide), writes_sub_of_mem (y := main_call22.cst_2.ref) (by decide), writes_sub_of_mem (y := main_call22.v6.ref) (by decide), writes_sub_of_mem (y := main_call22.v7.ref) (by decide), writes_sub_of_mem (y := main_call22.call1.v0.ref) (by decide), writes_sub_of_mem (y := main_v462) (by decide), writes_sub_of_mem (y := main_v463) (by decide), writes_sub_of_mem (y := main_v464) (by decide), writes_sub_of_mem (y := main_v465) (by decide)⟩
set_option maxRecDepth 8192 in
/-- The list holds no argument: the operations leave the arguments alone. -/
theorem rseg7_c_keeps : KeepsArgs (F := F) rseg7_c := keepsArgs_of_writes rseg7_c_writes (by decide)

set_option maxHeartbeats 40000000 in
/-- Operations 841 … 880 of 1108 (segment 8, window 9 of @main). -/
abbrev rseg8_a : List (HloOp τ sig (Elt F)) :=
  [ StableHlo.nullary main_cst_97 (constant S_ .f32 0x00000000#32),
    StableHlo.unary main_cst_97 main_v466 (broadcastInDim S4096x1 ![] bcast_S_S4096x1 : (⟨S_, .f32⟩ : BufTy).Contents (Elt F) → (⟨S4096x1, .f32⟩ : BufTy).Contents (Elt F)),
    StableHlo.binary main_v465 main_v466 main_v467 ((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F)),
    StableHlo.TRef.nullary main_call23.c (constantI S_ 32 0#32),
    StableHlo.TRef.unary main_call23.c main_call23.v0 (broadcastInDim S4096x122 ![] bcast_S_S4096x122),
    StableHlo.TRef.binary (.of main_v429 : StableHlo.TRef sig ⟨S4096x122, .i32⟩) main_call23.v0 main_call23.v1 (cmpi .slt),
    StableHlo.TRef.nullary main_call23.c_0 (constantI S_ 32 4001#32),
    StableHlo.TRef.unary main_call23.c_0 main_call23.v2 (broadcastInDim S4096x122 ![] bcast_S_S4096x122),
    StableHlo.TRef.binary (.of main_v429 : StableHlo.TRef sig ⟨S4096x122, .i32⟩) main_call23.v2 main_call23.v3 addi,
    StableHlo.TRef.ternary main_call23.v1 main_call23.v3 (.of main_v429 : StableHlo.TRef sig ⟨S4096x122, .i32⟩) main_call23.v4 select,
    StableHlo.TRef.reshape main_call23.v4 main_call23.v5 rfl shapeCasts_S4096x122_S4096x122x1,
    StableHlo.TRef.nullary main_call23.c_1 (constantI S1 32 4000#32),
    StableHlo.TRef.nullary main_call23.c_2 (constantI S_ 32 0#32),
    StableHlo.TRef.unary main_call23.c_2 main_call23.v6 (broadcastInDim S4096x122x1 ![] bcast_S_S4096x122x1),
    StableHlo.TRef.binary main_call23.v5 main_call23.v6 main_call23.v7 (cmpi .sge),
    StableHlo.TRef.unary main_call23.c_1 main_call23.v8 (broadcastInDim S1x1x1 ![2] bcast_S1_S1x1x1_2),
    StableHlo.TRef.unary main_call23.v8 main_call23.v9 (broadcastInDim S4096x122x1 ![0, 1, 2] bcast_S1x1x1_S4096x122x1_0_1_2),
    StableHlo.TRef.binary main_call23.v5 main_call23.v9 main_call23.v10 (cmpi .sle),
    StableHlo.TRef.binary main_call23.v7 main_call23.v10 main_call23.v11 andi,
    StableHlo.TRef.nullary main_call23.c_3 (constantI S_ 1 1#1),
    StableHlo.TRef.binary main_call23.v11 main_call23.c_3 main_call23.v12 (fun x v => Host.reduce IntOp.andi x v reducesTo_S4096x122x1_S4096x122_d2 h_S_),
    StableHlo.TRef.binary (.of main_v467 : StableHlo.TRef sig ⟨S4096x4001, .f32⟩) main_call23.v5 main_call23.v13 (fun x i => Host.gather gather_S4096x4001_S4096x122x1_S4096x122_n_1_0_0_1_2_11 x i),
    StableHlo.TRef.nullary main_call23.cst (constant S_ .f32 0x7FC00000#32),
    StableHlo.TRef.unary main_call23.cst main_call23.v14 (broadcastInDim S4096x122 ![] bcast_S_S4096x122),
    StableHlo.TRef.ternary main_call23.v12 main_call23.v13 main_call23.v14 main_call23.v15 select,
    StableHlo.unary main_v468 main_v469 ((extractStridedSlice S4096x61 ![0, 0] · slices_S4096x122_S4096x61_0_0) : (⟨S4096x122, .f32⟩ : BufTy).Contents (Elt F) → (⟨S4096x61, .f32⟩ : BufTy).Contents (Elt F)),
    StableHlo.unary main_v468 main_v470 ((extractStridedSlice S4096x61 ![0, 61] · slices_S4096x122_S4096x61_0_61) : (⟨S4096x122, .f32⟩ : BufTy).Contents (Elt F) → (⟨S4096x61, .f32⟩ : BufTy).Contents (Elt F)),
    StableHlo.nullary main_cst_98 (constant S_ .f32 0x40000000#32),
    StableHlo.unary main_cst_98 main_v471 (broadcastInDim S4096x61 ![] bcast_S_S4096x61 : (⟨S_, .f32⟩ : BufTy).Contents (Elt F) → (⟨S4096x61, .f32⟩ : BufTy).Contents (Elt F)),
    StableHlo.binary main_v469 main_v471 main_v472 (addf : (⟨S4096x61, .f32⟩ : BufTy).Contents (Elt F) → (⟨S4096x61, .f32⟩ : BufTy).Contents (Elt F) → (⟨S4096x61, .f32⟩ : BufTy).Contents (Elt F)),
    StableHlo.unary main_v472 main_v473 (Host.negf : (⟨S4096x61, .f32⟩ : BufTy).Contents (Elt F) → (⟨S4096x61, .f32⟩ : BufTy).Contents (Elt F)),
    StableHlo.unary main_v473 main_v474 (Host.exp : (⟨S4096x61, .f32⟩ : BufTy).Contents (Elt F) → (⟨S4096x61, .f32⟩ : BufTy).Contents (Elt F)),
    StableHlo.nullary main_cst_99 (constant S_ .f32 0x3F800000#32),
    StableHlo.unary main_cst_99 main_v475 (broadcastInDim S4096x61 ![] bcast_S_S4096x61 : (⟨S_, .f32⟩ : BufTy).Contents (Elt F) → (⟨S4096x61, .f32⟩ : BufTy).Contents (Elt F)),
    StableHlo.binary main_v475 main_v474 main_v476 (addf : (⟨S4096x61, .f32⟩ : BufTy).Contents (Elt F) → (⟨S4096x61, .f32⟩ : BufTy).Contents (Elt F) → (⟨S4096x61, .f32⟩ : BufTy).Contents (Elt F)),
    StableHlo.nullary main_cst_100 (constant S_ .f32 0x3F800000#32),
    StableHlo.unary main_cst_100 main_v477 (broadcastInDim S4096x61 ![] bcast_S_S4096x61 : (⟨S_, .f32⟩ : BufTy).Contents (Elt F) → (⟨S4096x61, .f32⟩ : BufTy).Contents (Elt F)),
    StableHlo.binary main_v477 main_v476 main_v478 (Host.divf : (⟨S4096x61, .f32⟩ : BufTy).Contents (Elt F) → (⟨S4096x61, .f32⟩ : BufTy).Contents (Elt F) → (⟨S4096x61, .f32⟩ : BufTy).Contents (Elt F)),
    StableHlo.binary main_v478 main_v360 main_v479 (mulf : (⟨S4096x61, .f32⟩ : BufTy).Contents (Elt F) → (⟨S4096x61, .f32⟩ : BufTy).Contents (Elt F) → (⟨S4096x61, .f32⟩ : BufTy).Contents (Elt F)),
    StableHlo.binary main_v479 main_v470 main_v480 (addf : (⟨S4096x61, .f32⟩ : BufTy).Contents (Elt F) → (⟨S4096x61, .f32⟩ : BufTy).Contents (Elt F) → (⟨S4096x61, .f32⟩ : BufTy).Contents (Elt F)) ]
/-- The references they write, in order. -/
abbrev rseg8_a_W : List (Ref sig .tc) :=
  [main_cst_97, main_v466, main_v467, main_call23.c.ref, main_call23.v0.ref, main_call23.v1.ref, main_call23.c_0.ref, main_call23.v2.ref, main_call23.v3.ref, main_call23.v4.ref, main_call23.v5.ref, main_call23.c_1.ref, main_call23.c_2.ref, main_call23.v6.ref, main_call23.v7.ref, main_call23.v8.ref, main_call23.v9.ref, main_call23.v10.ref, main_call23.v11.ref, main_call23.c_3.ref, main_call23.v12.ref, main_call23.v13.ref, main_call23.cst.ref, main_call23.v14.ref, main_call23.v15.ref, main_v469, main_v470, main_cst_98, main_v471, main_v472, main_v473, main_v474, main_cst_99, main_v475, main_v476, main_cst_100, main_v477, main_v478, main_v479, main_v480]
set_option maxRecDepth 8192 in
/-- Each touches TensorCore references only. -/
theorem rseg8_a_sub : (rseg8_a : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub ..⟩
set_option maxRecDepth 8192 in
/-- None allocates a buffer. -/
theorem rseg8_a_fresh : (rseg8_a : List (HloOp τ sig (Elt F))).Forall fun op => op.fresh = ∅ := by
  simp only [List.Forall]; repeat' constructor
set_option maxRecDepth 8192 in
/-- Each writes inside the list. -/
theorem rseg8_a_writes : (rseg8_a : List (HloOp τ sig (Elt F))).Forall fun op => op.writes ⊆ (rseg8_a_W.map (Proc.devRef (τ := τ) .tc)).toFinset :=
  ⟨writes_sub_of_mem (y := main_cst_97) (by decide), writes_sub_of_mem (y := main_v466) (by decide), writes_sub_of_mem (y := main_v467) (by decide), writes_sub_of_mem (y := main_call23.c.ref) (by decide), writes_sub_of_mem (y := main_call23.v0.ref) (by decide), writes_sub_of_mem (y := main_call23.v1.ref) (by decide), writes_sub_of_mem (y := main_call23.c_0.ref) (by decide), writes_sub_of_mem (y := main_call23.v2.ref) (by decide), writes_sub_of_mem (y := main_call23.v3.ref) (by decide), writes_sub_of_mem (y := main_call23.v4.ref) (by decide), writes_sub_of_mem (y := main_call23.v5.ref) (by decide), writes_sub_of_mem (y := main_call23.c_1.ref) (by decide), writes_sub_of_mem (y := main_call23.c_2.ref) (by decide), writes_sub_of_mem (y := main_call23.v6.ref) (by decide), writes_sub_of_mem (y := main_call23.v7.ref) (by decide), writes_sub_of_mem (y := main_call23.v8.ref) (by decide), writes_sub_of_mem (y := main_call23.v9.ref) (by decide), writes_sub_of_mem (y := main_call23.v10.ref) (by decide), writes_sub_of_mem (y := main_call23.v11.ref) (by decide), writes_sub_of_mem (y := main_call23.c_3.ref) (by decide), writes_sub_of_mem (y := main_call23.v12.ref) (by decide), writes_sub_of_mem (y := main_call23.v13.ref) (by decide), writes_sub_of_mem (y := main_call23.cst.ref) (by decide), writes_sub_of_mem (y := main_call23.v14.ref) (by decide), writes_sub_of_mem (y := main_call23.v15.ref) (by decide), writes_sub_of_mem (y := main_v469) (by decide), writes_sub_of_mem (y := main_v470) (by decide), writes_sub_of_mem (y := main_cst_98) (by decide), writes_sub_of_mem (y := main_v471) (by decide), writes_sub_of_mem (y := main_v472) (by decide), writes_sub_of_mem (y := main_v473) (by decide), writes_sub_of_mem (y := main_v474) (by decide), writes_sub_of_mem (y := main_cst_99) (by decide), writes_sub_of_mem (y := main_v475) (by decide), writes_sub_of_mem (y := main_v476) (by decide), writes_sub_of_mem (y := main_cst_100) (by decide), writes_sub_of_mem (y := main_v477) (by decide), writes_sub_of_mem (y := main_v478) (by decide), writes_sub_of_mem (y := main_v479) (by decide), writes_sub_of_mem (y := main_v480) (by decide)⟩
set_option maxRecDepth 8192 in
/-- The list holds no argument: the operations leave the arguments alone. -/
theorem rseg8_a_keeps : KeepsArgs (F := F) rseg8_a := keepsArgs_of_writes rseg8_a_writes (by decide)

set_option maxHeartbeats 40000000 in
/-- Operations 881 … 898 of 1108 (segment 8, window 9 of @main). -/
abbrev rseg8_b : List (HloOp τ sig (Elt F)) :=
  [ StableHlo.unary main_v478 main_v481 (Host.log : (⟨S4096x61, .f32⟩ : BufTy).Contents (Elt F) → (⟨S4096x61, .f32⟩ : BufTy).Contents (Elt F)),
    StableHlo.nullary main_cst_101 (constant S_ .f32 0x00000000#32),
    StableHlo.binary main_v481 main_cst_101 main_v482 ((fun x v => Host.reduceAdd x v reducesTo_S4096x61_S4096_d1 h_S_) : (⟨S4096x61, .f32⟩ : BufTy).Contents (Elt F) → (⟨S_, .f32⟩ : BufTy).Contents (Elt F) → (⟨S4096, .f32⟩ : BufTy).Contents (Elt F)),
    StableHlo.binary main_v423 main_v482 main_v483 (subf : (⟨S4096, .f32⟩ : BufTy).Contents (Elt F) → (⟨S4096, .f32⟩ : BufTy).Contents (Elt F) → (⟨S4096, .f32⟩ : BufTy).Contents (Elt F)),
    StableHlo.nullary main_c_102 (constantI S_ 32 2000#32),
    StableHlo.unary main_c_102 main_v484 (broadcastInDim S4096x64 ![] bcast_S_S4096x64 : (⟨S_, .i32⟩ : BufTy).Contents (Elt F) → (⟨S4096x64, .i32⟩ : BufTy).Contents (Elt F)),
    StableHlo.binary main_v2 main_v484 main_v485 (cmpi .eq : (⟨S4096x64, .i32⟩ : BufTy).Contents (Elt F) → (⟨S4096x64, .i32⟩ : BufTy).Contents (Elt F) → (⟨S4096x64, .i1⟩ : BufTy).Contents (Elt F)),
    StableHlo.nullary main_c_103 (constantI S_ 32 2000#32),
    StableHlo.unary main_c_103 main_v486 (broadcastInDim S4096x64 ![] bcast_S_S4096x64 : (⟨S_, .i32⟩ : BufTy).Contents (Elt F) → (⟨S4096x64, .i32⟩ : BufTy).Contents (Elt F)),
    StableHlo.binary main_v2 main_v486 main_v487 (addi : (⟨S4096x64, .i32⟩ : BufTy).Contents (Elt F) → (⟨S4096x64, .i32⟩ : BufTy).Contents (Elt F) → (⟨S4096x64, .i32⟩ : BufTy).Contents (Elt F)),
    StableHlo.nullary main_c_104 (constantI S_ 32 4000#32),
    StableHlo.TRef.unary (.of main_c_104 : StableHlo.TRef sig ⟨S_, .i32⟩) main_call24.v0 id,
    StableHlo.TRef.unary main_call24.v0 main_call24.v1 (broadcastInDim S4096x64 ![] bcast_S_S4096x64),
    StableHlo.TRef.ternary (.of main_v485 : StableHlo.TRef sig ⟨S4096x64, .i1⟩) main_call24.v1 (.of main_v487 : StableHlo.TRef sig ⟨S4096x64, .i32⟩) main_call24.v2 select,
    StableHlo.binary main_v2 main_v488 main_v489 ((fun a b => concatenate S4096x128 1 [⟨S4096x64, a⟩, ⟨S4096x64, b⟩] concatenates_S4096x64_S4096x64_S4096x128_d1) : (⟨S4096x64, .i32⟩ : BufTy).Contents (Elt F) → (⟨S4096x64, .i32⟩ : BufTy).Contents (Elt F) → (⟨S4096x128, .i32⟩ : BufTy).Contents (Elt F)),
    StableHlo.unary main_arg2 main_v490 ((extractStridedSlice S1x2000x64 ![8, 0, 0] · slices_S10x2000x64_S1x2000x64_8_0_0) : (⟨S10x2000x64, .f32⟩ : BufTy).Contents (Elt F) → (⟨S1x2000x64, .f32⟩ : BufTy).Contents (Elt F)),
    StableHlo.reshape main_v490 main_v491 rfl shapeCasts_S1x2000x64_S2000x64,
    StableHlo.unary main_arg3 main_v492 ((extractStridedSlice S1x64 ![8, 0] · slices_S10x64_S1x64_8_0) : (⟨S10x64, .f32⟩ : BufTy).Contents (Elt F) → (⟨S1x64, .f32⟩ : BufTy).Contents (Elt F)) ]
/-- The references they write, in order. -/
abbrev rseg8_b_W : List (Ref sig .tc) :=
  [main_v481, main_cst_101, main_v482, main_v483, main_c_102, main_v484, main_v485, main_c_103, main_v486, main_v487, main_c_104, main_call24.v0.ref, main_call24.v1.ref, main_call24.v2.ref, main_v489, main_v490, main_v491, main_v492]
set_option maxRecDepth 8192 in
/-- Each touches TensorCore references only. -/
theorem rseg8_b_sub : (rseg8_b : List (HloOp τ sig (Elt F))).Forall fun op => op.bufs ⊆ tcRefs τ sig :=
  ⟨unary_bufs_sub .., nullary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., binary_bufs_sub .., unary_bufs_sub .., reshape_bufs_sub .., unary_bufs_sub ..⟩
set_option maxRecDepth 8192 in
/-- None allocates a buffer. -/
theorem rseg8_b_fresh : (rseg8_b : List (HloOp τ sig (Elt F))).Forall fun op => op.fresh = ∅ := by
  simp only [List.Forall]; repeat' constructor
set_option maxRecDepth 8192 in
/-- Each writes inside the list. -/
theorem rseg8_b_writes : (rseg8_b : List (HloOp τ sig (Elt F))).Forall fun op => op.writes ⊆ (rseg8_b_W.map (Proc.devRef (τ := τ) .tc)).toFinset :=
  ⟨writes_sub_of_mem (y := main_v481) (by decide), writes_sub_of_mem (y := main_cst_101) (by decide), writes_sub_of_mem (y := main_v482) (by decide), writes_sub_of_mem (y := main_v483) (by decide), writes_sub_of_mem (y := main_c_102) (by decide), writes_sub_of_mem (y := main_v484) (by decide), writes_sub_of_mem (y := main_v485) (by decide), writes_sub_of_mem (y := main_c_103) (by decide), writes_sub_of_mem (y := main_v486) (by decide), writes_sub_of_mem (y := main_v487) (by decide), writes_sub_of_mem (y := main_c_104) (by decide), writes_sub_of_mem (y := main_call24.v0.ref) (by decide), writes_sub_of_mem (y := main_call24.v1.ref) (by decide), writes_sub_of_mem (y := main_call24.v2.ref) (by decide), writes_sub_of_mem (y := main_v489) (by decide), writes_sub_of_mem (y := main_v490) (by decide), writes_sub_of_mem (y := main_v491) (by decide), writes_sub_of_mem (y := main_v492) (by decide)⟩
set_option maxRecDepth 8192 in
/-- The list holds no argument: the operations leave the arguments alone. -/
theorem rseg8_b_keeps : KeepsArgs (F := F) rseg8_b := keepsArgs_of_writes rseg8_b_writes (by decide)

set_option maxHeartbeats 40000000 in
/-- Operations 899 … 938 of 1108 (segment 8, window 10 of @main). -/
abbrev rseg8_c : List (HloOp τ sig (Elt F)) :=
  [ StableHlo.reshape main_v492 main_v493 rfl shapeCasts_S1x64_S64,
    StableHlo.unary main_arg4 main_v494 ((extractStridedSlice S1x64x4000 ![8, 0, 0] · slices_S10x64x4000_S1x64x4000_8_0_0) : (⟨S10x64x4000, .f32⟩ : BufTy).Contents (Elt F) → (⟨S1x64x4000, .f32⟩ : BufTy).Contents (Elt F)),
    StableHlo.reshape main_v494 main_v495 rfl shapeCasts_S1x64x4000_S64x4000,
    StableHlo.unary main_arg5 main_v496 ((extractStridedSlice S1x4000 ![8, 0] · slices_S10x4000_S1x4000_8_0) : (⟨S10x4000, .f32⟩ : BufTy).Contents (Elt F) → (⟨S1x4000, .f32⟩ : BufTy).Contents (Elt F)),
    StableHlo.reshape main_v496 main_v497 rfl shapeCasts_S1x4000_S4000,
    StableHlo.nullary main_v498 (iotaInDim S4096 32 0),
    StableHlo.unary main_v498 main_v499 (broadcastInDim S4096x1 ![0] bcast_S4096_S4096x1_0 : (⟨S4096, .i32⟩ : BufTy).Contents (Elt F) → (⟨S4096x1, .i32⟩ : BufTy).Contents (Elt F)),
    StableHlo.nullary main_cst_105 (constant S_ .f32 0x00000000#32),
    StableHlo.unary main_cst_105 main_v500 (broadcastInDim S4096x2001 ![] bcast_S_S4096x2001 : (⟨S_, .f32⟩ : BufTy).Contents (Elt F) → (⟨S4096x2001, .f32⟩ : BufTy).Contents (Elt F)),
    StableHlo.nullary main_c_106 (constantI S_ 32 0#32),
    StableHlo.unary main_c_106 main_v501 (broadcastInDim S4096x1 ![] bcast_S_S4096x1 : (⟨S_, .i32⟩ : BufTy).Contents (Elt F) → (⟨S4096x1, .i32⟩ : BufTy).Contents (Elt F)),
    StableHlo.binary main_v499 main_v501 main_v502 (cmpi .slt : (⟨S4096x1, .i32⟩ : BufTy).Contents (Elt F) → (⟨S4096x1, .i32⟩ : BufTy).Contents (Elt F) → (⟨S4096x1, .i1⟩ : BufTy).Contents (Elt F)),
    StableHlo.nullary main_c_107 (constantI S_ 32 4096#32),
    StableHlo.unary main_c_107 main_v503 (broadcastInDim S4096x1 ![] bcast_S_S4096x1 : (⟨S_, .i32⟩ : BufTy).Contents (Elt F) → (⟨S4096x1, .i32⟩ : BufTy).Contents (Elt F)),
    StableHlo.binary main_v499 main_v503 main_v504 (addi : (⟨S4096x1, .i32⟩ : BufTy).Contents (Elt F) → (⟨S4096x1, .i32⟩ : BufTy).Contents (Elt F) → (⟨S4096x1, .i32⟩ : BufTy).Contents (Elt F)),
    StableHlo.ternary main_v502 main_v504 main_v499 main_v505 (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)),
    StableHlo.nullary main_c_108 (constantI S_ 32 0#32),
    StableHlo.unary main_c_108 main_v506 (broadcastInDim S4096x61 ![] bcast_S_S4096x61 : (⟨S_, .i32⟩ : BufTy).Contents (Elt F) → (⟨S4096x61, .i32⟩ : BufTy).Contents (Elt F)),
    StableHlo.binary main_v3 main_v506 main_v507 (cmpi .slt : (⟨S4096x61, .i32⟩ : BufTy).Contents (Elt F) → (⟨S4096x61, .i32⟩ : BufTy).Contents (Elt F) → (⟨S4096x61, .i1⟩ : BufTy).Contents (Elt F)),
    StableHlo.nullary main_c_109 (constantI S_ 32 2001#32),
    StableHlo.unary main_c_109 main_v508 (broadcastInDim S4096x61 ![] bcast_S_S4096x61 : (⟨S_, .i32⟩ : BufTy).Contents (Elt F) → (⟨S4096x61, .i32⟩ : BufTy).Contents (Elt F)),
    StableHlo.binary main_v3 main_v508 main_v509 (addi : (⟨S4096x61, .i32⟩ : BufTy).Contents (Elt F) → (⟨S4096x61, .i32⟩ : BufTy).Contents (Elt F) → (⟨S4096x61, .i32⟩ : BufTy).Contents (Elt F)),
    StableHlo.ternary main_v507 main_v509 main_v3 main_v510 (select : (⟨S4096x61, .i1⟩ : BufTy).Contents (Elt F) → (⟨S4096x61, .i32⟩ : BufTy).Contents (Elt F) → (⟨S4096x61, .i32⟩ : BufTy).Contents (Elt F) → (⟨S4096x61, .i32⟩ : BufTy).Contents (Elt F)),
    StableHlo.unary main_v505 main_v511 (broadcastInDim S4096x61 ![0, 1] bcast_S4096x1_S4096x61_0_1 : (⟨S4096x1, .i32⟩ : BufTy).Contents (Elt F) → (⟨S4096x61, .i32⟩ : BufTy).Contents (Elt F)),
    StableHlo.unary main_v511 main_v512 (broadcastInDim S4096x61x1 ![0, 1] bcast_S4096x61_S4096x61x1_0_1 : (⟨S4096x61, .i32⟩ : BufTy).Contents (Elt F) → (⟨S4096x61x1, .i32⟩ : BufTy).Contents (Elt F)),
    StableHlo.unary main_v510 main_v513 (broadcastInDim S4096x61x1 ![0, 1] bcast_S4096x61_S4096x61x1_0_1 : (⟨S4096x61, .i32⟩ : BufTy).Contents (Elt F) → (⟨S4096x61x1, .i32⟩ : BufTy).Contents (Elt F)),
    StableHlo.binary main_v512 main_v513 main_v514 ((fun a b => concatenate S4096x61x2 2 [⟨S4096x61x1, a⟩, ⟨S4096x61x1, b⟩] concatenates_S4096x61x1_S4096x61x1_S4096x61x2_d2) : (⟨S4096x61x1, .i32⟩ : BufTy).Contents (Elt F) → (⟨S4096x61x1, .i32⟩ : BufTy).Contents (Elt F) → (⟨S4096x61x2, .i32⟩ : BufTy).Contents (Elt F)),
    StableHlo.ternary main_v500 main_v514 main_v480 main_v515 ((fun x i u => Host.scatterAdd scatter_S4096x2001_S4096x61x2_S4096x61_n_01_01_2 x i u) : (⟨S4096x2001, .f32⟩ : BufTy).Contents (Elt F) → (⟨S4096x61x2, .i32⟩ : BufTy).Contents (Elt F) → (⟨S4096x61, .f32⟩ : BufTy).Contents (Elt F) → (⟨S4096x2001, .f32⟩ : BufTy).Contents (Elt F)),
    StableHlo.unary main_v515 main_v516 ((extractStridedSlice S4096x2000 ![0, 0] · slices_S4096x2001_S4096x2000_0_0) : (⟨S4096x2001, .f32⟩ : BufTy).Contents (Elt F) → (⟨S4096x2000, .f32⟩ : BufTy).Contents (Elt F)),
    StableHlo.binary main_v516 main_v491 main_v517 ((fun l r => Host.dotGeneral dot_S4096x2000_S2000x64_S4096x64_1_0_0_1_n_n none l r) : (⟨S4096x2000, .f32⟩ : BufTy).Contents (Elt F) → (⟨S2000x64, .f32⟩ : BufTy).Contents (Elt F) → (⟨S4096x64, .f32⟩ : BufTy).Contents (Elt F)),
    StableHlo.unary main_v493 main_v518 (broadcastInDim S1x64 ![1] bcast_S64_S1x64_1 : (⟨S64, .f32⟩ : BufTy).Contents (Elt F) → (⟨S1x64, .f32⟩ : BufTy).Contents (Elt F)),
    StableHlo.unary main_v518 main_v519 (broadcastInDim S4096x64 ![0, 1] bcast_S1x64_S4096x64_0_1 : (⟨S1x64, .f32⟩ : BufTy).Contents (Elt F) → (⟨S4096x64, .f32⟩ : BufTy).Contents (Elt F)),
    StableHlo.binary main_v517 main_v519 main_v520 (addf : (⟨S4096x64, .f32⟩ : BufTy).Contents (Elt F) → (⟨S4096x64, .f32⟩ : BufTy).Contents (Elt F) → (⟨S4096x64, .f32⟩ : BufTy).Contents (Elt F)),
    StableHlo.TRef.nullary main_call25.cst (constant S_ .f32 0x00000000#32),
    StableHlo.TRef.unary main_call25.cst main_call25.v0 (broadcastInDim S4096x64 ![] bcast_S_S4096x64),
    StableHlo.TRef.binary (.of main_v520 : StableHlo.TRef sig ⟨S4096x64, .f32⟩) main_call25.v0 main_call25.v1 (cmpf .ogt),
    StableHlo.TRef.nullary main_call25.cst_0 (constant S_ .f32 0x00000000#32),
    StableHlo.TRef.unary main_call25.cst_0 main_call25.v2 (broadcastInDim S4096x64 ![] bcast_S_S4096x64),
    StableHlo.TRef.binary (.of main_v520 : StableHlo.TRef sig ⟨S4096x64, .f32⟩) main_call25.v2 main_call25.v3 (cmpf .ogt),
    StableHlo.TRef.nullary main_call25.cst_1 (constant S_ .f32 0x00000000#32) ]
/-- The references they write, in order. -/
abbrev rseg8_c_W : List (Ref sig .tc) :=
  [main_v493, main_v494, main_v495, main_v496, main_v497, main_v498, main_v499, main_cst_105, main_v500, main_c_106, main_v501, main_v502, main_c_107, main_v503, main_v504, main_v505, main_c_108, main_v506, main_v507, main_c_109, main_v508, main_v509, main_v510, main_v511, main_v512, main_v513, main_v514, main_v515, main_v516, main_v517, main_v518, main_v519, main_v520, main_call25.cst.ref, main_call25.v0.ref, main_call25.v1.ref, main_call25.cst_0.ref, main_call25.v2.ref, main_call25.v3.ref, main_call25.cst_1.ref]
set_option maxRecDepth 8192 in
/-- Each touches TensorCore references only. -/
theorem rseg8_c_sub : (rseg8_c : List (HloOp τ sig (Elt F))).Forall fun op => op.bufs ⊆ tcRefs τ sig :=
  ⟨reshape_bufs_sub .., unary_bufs_sub .., reshape_bufs_sub .., unary_bufs_sub .., reshape_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub ..⟩
set_option maxRecDepth 8192 in
/-- None allocates a buffer. -/
theorem rseg8_c_fresh : (rseg8_c : List (HloOp τ sig (Elt F))).Forall fun op => op.fresh = ∅ := by
  simp only [List.Forall]; repeat' constructor
set_option maxRecDepth 8192 in
/-- Each writes inside the list. -/
theorem rseg8_c_writes : (rseg8_c : List (HloOp τ sig (Elt F))).Forall fun op => op.writes ⊆ (rseg8_c_W.map (Proc.devRef (τ := τ) .tc)).toFinset :=
  ⟨writes_sub_of_mem (y := main_v493) (by decide), writes_sub_of_mem (y := main_v494) (by decide), writes_sub_of_mem (y := main_v495) (by decide), writes_sub_of_mem (y := main_v496) (by decide), writes_sub_of_mem (y := main_v497) (by decide), writes_sub_of_mem (y := main_v498) (by decide), writes_sub_of_mem (y := main_v499) (by decide), writes_sub_of_mem (y := main_cst_105) (by decide), writes_sub_of_mem (y := main_v500) (by decide), writes_sub_of_mem (y := main_c_106) (by decide), writes_sub_of_mem (y := main_v501) (by decide), writes_sub_of_mem (y := main_v502) (by decide), writes_sub_of_mem (y := main_c_107) (by decide), writes_sub_of_mem (y := main_v503) (by decide), writes_sub_of_mem (y := main_v504) (by decide), writes_sub_of_mem (y := main_v505) (by decide), writes_sub_of_mem (y := main_c_108) (by decide), writes_sub_of_mem (y := main_v506) (by decide), writes_sub_of_mem (y := main_v507) (by decide), writes_sub_of_mem (y := main_c_109) (by decide), writes_sub_of_mem (y := main_v508) (by decide), writes_sub_of_mem (y := main_v509) (by decide), writes_sub_of_mem (y := main_v510) (by decide), writes_sub_of_mem (y := main_v511) (by decide), writes_sub_of_mem (y := main_v512) (by decide), writes_sub_of_mem (y := main_v513) (by decide), writes_sub_of_mem (y := main_v514) (by decide), writes_sub_of_mem (y := main_v515) (by decide), writes_sub_of_mem (y := main_v516) (by decide), writes_sub_of_mem (y := main_v517) (by decide), writes_sub_of_mem (y := main_v518) (by decide), writes_sub_of_mem (y := main_v519) (by decide), writes_sub_of_mem (y := main_v520) (by decide), writes_sub_of_mem (y := main_call25.cst.ref) (by decide), writes_sub_of_mem (y := main_call25.v0.ref) (by decide), writes_sub_of_mem (y := main_call25.v1.ref) (by decide), writes_sub_of_mem (y := main_call25.cst_0.ref) (by decide), writes_sub_of_mem (y := main_call25.v2.ref) (by decide), writes_sub_of_mem (y := main_call25.v3.ref) (by decide), writes_sub_of_mem (y := main_call25.cst_1.ref) (by decide)⟩
set_option maxRecDepth 8192 in
/-- The list holds no argument: the operations leave the arguments alone. -/
theorem rseg8_c_keeps : KeepsArgs (F := F) rseg8_c := keepsArgs_of_writes rseg8_c_writes (by decide)

set_option maxHeartbeats 40000000 in
/-- Operations 939 … 950 of 1108 (segment 8, window 10 of @main). -/
abbrev rseg8_d : List (HloOp τ sig (Elt F)) :=
  [ StableHlo.TRef.unary main_call25.cst_1 main_call25.call0.v0 id,
    StableHlo.TRef.unary main_call25.call0.v0 main_call25.call0.v1 (broadcastInDim S4096x64 ![] bcast_S_S4096x64),
    StableHlo.TRef.ternary main_call25.v3 main_call25.call0.v1 (.of main_v520 : StableHlo.TRef sig ⟨S4096x64, .f32⟩) main_call25.call0.v2 select,
    StableHlo.TRef.unary main_call25.call0.v2 main_call25.v5 Host.expm1,
    StableHlo.TRef.nullary main_call25.cst_2 (constant S_ .f32 0x3F800000#32),
    StableHlo.TRef.unary main_call25.cst_2 main_call25.v6 (broadcastInDim S4096x64 ![] bcast_S_S4096x64),
    StableHlo.TRef.binary main_call25.v6 main_call25.v5 main_call25.v7 mulf,
    StableHlo.TRef.ternary main_call25.v1 (.of main_v520 : StableHlo.TRef sig ⟨S4096x64, .f32⟩) main_call25.v7 main_call25.call1.v0 select,
    StableHlo.binary main_v521 main_v495 main_v522 ((fun l r => Host.dotGeneral dot_S4096x64_S64x4000_S4096x4000_1_0_0_1_n_n none l r) : (⟨S4096x64, .f32⟩ : BufTy).Contents (Elt F) → (⟨S64x4000, .f32⟩ : BufTy).Contents (Elt F) → (⟨S4096x4000, .f32⟩ : BufTy).Contents (Elt F)),
    StableHlo.unary main_v497 main_v523 (broadcastInDim S1x4000 ![1] bcast_S4000_S1x4000_1 : (⟨S4000, .f32⟩ : BufTy).Contents (Elt F) → (⟨S1x4000, .f32⟩ : BufTy).Contents (Elt F)),
    StableHlo.unary main_v523 main_v524 (broadcastInDim S4096x4000 ![0, 1] bcast_S1x4000_S4096x4000_0_1 : (⟨S1x4000, .f32⟩ : BufTy).Contents (Elt F) → (⟨S4096x4000, .f32⟩ : BufTy).Contents (Elt F)),
    StableHlo.binary main_v522 main_v524 main_v525 (addf : (⟨S4096x4000, .f32⟩ : BufTy).Contents (Elt F) → (⟨S4096x4000, .f32⟩ : BufTy).Contents (Elt F) → (⟨S4096x4000, .f32⟩ : BufTy).Contents (Elt F)) ]
/-- The references they write, in order. -/
abbrev rseg8_d_W : List (Ref sig .tc) :=
  [main_call25.call0.v0.ref, main_call25.call0.v1.ref, main_call25.call0.v2.ref, main_call25.v5.ref, main_call25.cst_2.ref, main_call25.v6.ref, main_call25.v7.ref, main_call25.call1.v0.ref, main_v522, main_v523, main_v524, main_v525]
set_option maxRecDepth 8192 in
/-- Each touches TensorCore references only. -/
theorem rseg8_d_sub : (rseg8_d : List (HloOp τ sig (Elt F))).Forall fun op => op.bufs ⊆ tcRefs τ sig :=
  ⟨unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub ..⟩
set_option maxRecDepth 8192 in
/-- None allocates a buffer. -/
theorem rseg8_d_fresh : (rseg8_d : List (HloOp τ sig (Elt F))).Forall fun op => op.fresh = ∅ := by
  simp only [List.Forall]; repeat' constructor
set_option maxRecDepth 8192 in
/-- Each writes inside the list. -/
theorem rseg8_d_writes : (rseg8_d : List (HloOp τ sig (Elt F))).Forall fun op => op.writes ⊆ (rseg8_d_W.map (Proc.devRef (τ := τ) .tc)).toFinset :=
  ⟨writes_sub_of_mem (y := main_call25.call0.v0.ref) (by decide), writes_sub_of_mem (y := main_call25.call0.v1.ref) (by decide), writes_sub_of_mem (y := main_call25.call0.v2.ref) (by decide), writes_sub_of_mem (y := main_call25.v5.ref) (by decide), writes_sub_of_mem (y := main_call25.cst_2.ref) (by decide), writes_sub_of_mem (y := main_call25.v6.ref) (by decide), writes_sub_of_mem (y := main_call25.v7.ref) (by decide), writes_sub_of_mem (y := main_call25.call1.v0.ref) (by decide), writes_sub_of_mem (y := main_v522) (by decide), writes_sub_of_mem (y := main_v523) (by decide), writes_sub_of_mem (y := main_v524) (by decide), writes_sub_of_mem (y := main_v525) (by decide)⟩
set_option maxRecDepth 8192 in
/-- The list holds no argument: the operations leave the arguments alone. -/
theorem rseg8_d_keeps : KeepsArgs (F := F) rseg8_d := keepsArgs_of_writes rseg8_d_writes (by decide)

set_option maxHeartbeats 40000000 in
/-- Operations 951 … 990 of 1108 (segment 9, window 10 of @main). -/
abbrev rseg9_a : List (HloOp τ sig (Elt F)) :=
  [ StableHlo.nullary main_cst_110 (constant S_ .f32 0x00000000#32),
    StableHlo.unary main_cst_110 main_v526 (broadcastInDim S4096x1 ![] bcast_S_S4096x1 : (⟨S_, .f32⟩ : BufTy).Contents (Elt F) → (⟨S4096x1, .f32⟩ : BufTy).Contents (Elt F)),
    StableHlo.binary main_v525 main_v526 main_v527 ((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F)),
    StableHlo.TRef.nullary main_call26.c (constantI S_ 32 0#32),
    StableHlo.TRef.unary main_call26.c main_call26.v0 (broadcastInDim S4096x128 ![] bcast_S_S4096x128),
    StableHlo.TRef.binary (.of main_v489 : StableHlo.TRef sig ⟨S4096x128, .i32⟩) main_call26.v0 main_call26.v1 (cmpi .slt),
    StableHlo.TRef.nullary main_call26.c_0 (constantI S_ 32 4001#32),
    StableHlo.TRef.unary main_call26.c_0 main_call26.v2 (broadcastInDim S4096x128 ![] bcast_S_S4096x128),
    StableHlo.TRef.binary (.of main_v489 : StableHlo.TRef sig ⟨S4096x128, .i32⟩) main_call26.v2 main_call26.v3 addi,
    StableHlo.TRef.ternary main_call26.v1 main_call26.v3 (.of main_v489 : StableHlo.TRef sig ⟨S4096x128, .i32⟩) main_call26.v4 select,
    StableHlo.TRef.reshape main_call26.v4 main_call26.v5 rfl shapeCasts_S4096x128_S4096x128x1,
    StableHlo.TRef.nullary main_call26.c_1 (constantI S1 32 4000#32),
    StableHlo.TRef.nullary main_call26.c_2 (constantI S_ 32 0#32),
    StableHlo.TRef.unary main_call26.c_2 main_call26.v6 (broadcastInDim S4096x128x1 ![] bcast_S_S4096x128x1),
    StableHlo.TRef.binary main_call26.v5 main_call26.v6 main_call26.v7 (cmpi .sge),
    StableHlo.TRef.unary main_call26.c_1 main_call26.v8 (broadcastInDim S1x1x1 ![2] bcast_S1_S1x1x1_2),
    StableHlo.TRef.unary main_call26.v8 main_call26.v9 (broadcastInDim S4096x128x1 ![0, 1, 2] bcast_S1x1x1_S4096x128x1_0_1_2),
    StableHlo.TRef.binary main_call26.v5 main_call26.v9 main_call26.v10 (cmpi .sle),
    StableHlo.TRef.binary main_call26.v7 main_call26.v10 main_call26.v11 andi,
    StableHlo.TRef.nullary main_call26.c_3 (constantI S_ 1 1#1),
    StableHlo.TRef.binary main_call26.v11 main_call26.c_3 main_call26.v12 (fun x v => Host.reduce IntOp.andi x v reducesTo_S4096x128x1_S4096x128_d2 h_S_),
    StableHlo.TRef.binary (.of main_v527 : StableHlo.TRef sig ⟨S4096x4001, .f32⟩) main_call26.v5 main_call26.v13 (fun x i => Host.gather gather_S4096x4001_S4096x128x1_S4096x128_n_1_0_0_1_2_11 x i),
    StableHlo.TRef.nullary main_call26.cst (constant S_ .f32 0x7FC00000#32),
    StableHlo.TRef.unary main_call26.cst main_call26.v14 (broadcastInDim S4096x128 ![] bcast_S_S4096x128),
    StableHlo.TRef.ternary main_call26.v12 main_call26.v13 main_call26.v14 main_call26.v15 select,
    StableHlo.unary main_v528 main_v529 ((extractStridedSlice S4096x64 ![0, 0] · slices_S4096x128_S4096x64_0_0) : (⟨S4096x128, .f32⟩ : BufTy).Contents (Elt F) → (⟨S4096x64, .f32⟩ : BufTy).Contents (Elt F)),
    StableHlo.unary main_v528 main_v530 ((extractStridedSlice S4096x64 ![0, 64] · slices_S4096x128_S4096x64_0_64) : (⟨S4096x128, .f32⟩ : BufTy).Contents (Elt F) → (⟨S4096x64, .f32⟩ : BufTy).Contents (Elt F)),
    StableHlo.nullary main_cst_111 (constant S_ .f32 0x40000000#32),
    StableHlo.unary main_cst_111 main_v531 (broadcastInDim S4096x64 ![] bcast_S_S4096x64 : (⟨S_, .f32⟩ : BufTy).Contents (Elt F) → (⟨S4096x64, .f32⟩ : BufTy).Contents (Elt F)),
    StableHlo.binary main_v529 main_v531 main_v532 (addf : (⟨S4096x64, .f32⟩ : BufTy).Contents (Elt F) → (⟨S4096x64, .f32⟩ : BufTy).Contents (Elt F) → (⟨S4096x64, .f32⟩ : BufTy).Contents (Elt F)),
    StableHlo.unary main_v532 main_v533 (Host.negf : (⟨S4096x64, .f32⟩ : BufTy).Contents (Elt F) → (⟨S4096x64, .f32⟩ : BufTy).Contents (Elt F)),
    StableHlo.unary main_v533 main_v534 (Host.exp : (⟨S4096x64, .f32⟩ : BufTy).Contents (Elt F) → (⟨S4096x64, .f32⟩ : BufTy).Contents (Elt F)),
    StableHlo.nullary main_cst_112 (constant S_ .f32 0x3F800000#32),
    StableHlo.unary main_cst_112 main_v535 (broadcastInDim S4096x64 ![] bcast_S_S4096x64 : (⟨S_, .f32⟩ : BufTy).Contents (Elt F) → (⟨S4096x64, .f32⟩ : BufTy).Contents (Elt F)),
    StableHlo.binary main_v535 main_v534 main_v536 (addf : (⟨S4096x64, .f32⟩ : BufTy).Contents (Elt F) → (⟨S4096x64, .f32⟩ : BufTy).Contents (Elt F) → (⟨S4096x64, .f32⟩ : BufTy).Contents (Elt F)),
    StableHlo.nullary main_cst_113 (constant S_ .f32 0x3F800000#32),
    StableHlo.unary main_cst_113 main_v537 (broadcastInDim S4096x64 ![] bcast_S_S4096x64 : (⟨S_, .f32⟩ : BufTy).Contents (Elt F) → (⟨S4096x64, .f32⟩ : BufTy).Contents (Elt F)),
    StableHlo.binary main_v537 main_v536 main_v538 (Host.divf : (⟨S4096x64, .f32⟩ : BufTy).Contents (Elt F) → (⟨S4096x64, .f32⟩ : BufTy).Contents (Elt F) → (⟨S4096x64, .f32⟩ : BufTy).Contents (Elt F)),
    StableHlo.binary main_v538 main_v420 main_v539 (mulf : (⟨S4096x64, .f32⟩ : BufTy).Contents (Elt F) → (⟨S4096x64, .f32⟩ : BufTy).Contents (Elt F) → (⟨S4096x64, .f32⟩ : BufTy).Contents (Elt F)),
    StableHlo.binary main_v539 main_v530 main_v540 (addf : (⟨S4096x64, .f32⟩ : BufTy).Contents (Elt F) → (⟨S4096x64, .f32⟩ : BufTy).Contents (Elt F) → (⟨S4096x64, .f32⟩ : BufTy).Contents (Elt F)) ]
/-- The references they write, in order. -/
abbrev rseg9_a_W : List (Ref sig .tc) :=
  [main_cst_110, main_v526, main_v527, main_call26.c.ref, main_call26.v0.ref, main_call26.v1.ref, main_call26.c_0.ref, main_call26.v2.ref, main_call26.v3.ref, main_call26.v4.ref, main_call26.v5.ref, main_call26.c_1.ref, main_call26.c_2.ref, main_call26.v6.ref, main_call26.v7.ref, main_call26.v8.ref, main_call26.v9.ref, main_call26.v10.ref, main_call26.v11.ref, main_call26.c_3.ref, main_call26.v12.ref, main_call26.v13.ref, main_call26.cst.ref, main_call26.v14.ref, main_call26.v15.ref, main_v529, main_v530, main_cst_111, main_v531, main_v532, main_v533, main_v534, main_cst_112, main_v535, main_v536, main_cst_113, main_v537, main_v538, main_v539, main_v540]
set_option maxRecDepth 8192 in
/-- Each touches TensorCore references only. -/
theorem rseg9_a_sub : (rseg9_a : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub ..⟩
set_option maxRecDepth 8192 in
/-- None allocates a buffer. -/
theorem rseg9_a_fresh : (rseg9_a : List (HloOp τ sig (Elt F))).Forall fun op => op.fresh = ∅ := by
  simp only [List.Forall]; repeat' constructor
set_option maxRecDepth 8192 in
/-- Each writes inside the list. -/
theorem rseg9_a_writes : (rseg9_a : List (HloOp τ sig (Elt F))).Forall fun op => op.writes ⊆ (rseg9_a_W.map (Proc.devRef (τ := τ) .tc)).toFinset :=
  ⟨writes_sub_of_mem (y := main_cst_110) (by decide), writes_sub_of_mem (y := main_v526) (by decide), writes_sub_of_mem (y := main_v527) (by decide), writes_sub_of_mem (y := main_call26.c.ref) (by decide), writes_sub_of_mem (y := main_call26.v0.ref) (by decide), writes_sub_of_mem (y := main_call26.v1.ref) (by decide), writes_sub_of_mem (y := main_call26.c_0.ref) (by decide), writes_sub_of_mem (y := main_call26.v2.ref) (by decide), writes_sub_of_mem (y := main_call26.v3.ref) (by decide), writes_sub_of_mem (y := main_call26.v4.ref) (by decide), writes_sub_of_mem (y := main_call26.v5.ref) (by decide), writes_sub_of_mem (y := main_call26.c_1.ref) (by decide), writes_sub_of_mem (y := main_call26.c_2.ref) (by decide), writes_sub_of_mem (y := main_call26.v6.ref) (by decide), writes_sub_of_mem (y := main_call26.v7.ref) (by decide), writes_sub_of_mem (y := main_call26.v8.ref) (by decide), writes_sub_of_mem (y := main_call26.v9.ref) (by decide), writes_sub_of_mem (y := main_call26.v10.ref) (by decide), writes_sub_of_mem (y := main_call26.v11.ref) (by decide), writes_sub_of_mem (y := main_call26.c_3.ref) (by decide), writes_sub_of_mem (y := main_call26.v12.ref) (by decide), writes_sub_of_mem (y := main_call26.v13.ref) (by decide), writes_sub_of_mem (y := main_call26.cst.ref) (by decide), writes_sub_of_mem (y := main_call26.v14.ref) (by decide), writes_sub_of_mem (y := main_call26.v15.ref) (by decide), writes_sub_of_mem (y := main_v529) (by decide), writes_sub_of_mem (y := main_v530) (by decide), writes_sub_of_mem (y := main_cst_111) (by decide), writes_sub_of_mem (y := main_v531) (by decide), writes_sub_of_mem (y := main_v532) (by decide), writes_sub_of_mem (y := main_v533) (by decide), writes_sub_of_mem (y := main_v534) (by decide), writes_sub_of_mem (y := main_cst_112) (by decide), writes_sub_of_mem (y := main_v535) (by decide), writes_sub_of_mem (y := main_v536) (by decide), writes_sub_of_mem (y := main_cst_113) (by decide), writes_sub_of_mem (y := main_v537) (by decide), writes_sub_of_mem (y := main_v538) (by decide), writes_sub_of_mem (y := main_v539) (by decide), writes_sub_of_mem (y := main_v540) (by decide)⟩
set_option maxRecDepth 8192 in
/-- The list holds no argument: the operations leave the arguments alone. -/
theorem rseg9_a_keeps : KeepsArgs (F := F) rseg9_a := keepsArgs_of_writes rseg9_a_writes (by decide)

set_option maxHeartbeats 40000000 in
/-- Operations 991 … 993 of 1108 (segment 9, window 10 of @main). -/
abbrev rseg9_b : List (HloOp τ sig (Elt F)) :=
  [ StableHlo.unary main_v538 main_v541 (Host.log : (⟨S4096x64, .f32⟩ : BufTy).Contents (Elt F) → (⟨S4096x64, .f32⟩ : BufTy).Contents (Elt F)),
    StableHlo.nullary main_cst_114 (constant S_ .f32 0x00000000#32),
    StableHlo.binary main_v541 main_cst_114 main_v542 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)) ]
/-- The references they write, in order. -/
abbrev rseg9_b_W : List (Ref sig .tc) :=
  [main_v541, main_cst_114, main_v542]
set_option maxRecDepth 8192 in
/-- Each touches TensorCore references only. -/
theorem rseg9_b_sub : (rseg9_b : List (HloOp τ sig (Elt F))).Forall fun op => op.bufs ⊆ tcRefs τ sig :=
  ⟨unary_bufs_sub .., nullary_bufs_sub .., binary_bufs_sub ..⟩
set_option maxRecDepth 8192 in
/-- None allocates a buffer. -/
theorem rseg9_b_fresh : (rseg9_b : List (HloOp τ sig (Elt F))).Forall fun op => op.fresh = ∅ := by
  simp only [List.Forall]; repeat' constructor
set_option maxRecDepth 8192 in
/-- Each writes inside the list. -/
theorem rseg9_b_writes : (rseg9_b : List (HloOp τ sig (Elt F))).Forall fun op => op.writes ⊆ (rseg9_b_W.map (Proc.devRef (τ := τ) .tc)).toFinset :=
  ⟨writes_sub_of_mem (y := main_v541) (by decide), writes_sub_of_mem (y := main_cst_114) (by decide), writes_sub_of_mem (y := main_v542) (by decide)⟩
set_option maxRecDepth 8192 in
/-- The list holds no argument: the operations leave the arguments alone. -/
theorem rseg9_b_keeps : KeepsArgs (F := F) rseg9_b := keepsArgs_of_writes rseg9_b_writes (by decide)

set_option maxHeartbeats 40000000 in
/-- Operations 994 … 1033 of 1108 (segment 9, window 11 of @main). -/
abbrev rseg9_c : List (HloOp τ sig (Elt F)) :=
  [ StableHlo.binary main_v483 main_v542 main_v543 (subf : (⟨S4096, .f32⟩ : BufTy).Contents (Elt F) → (⟨S4096, .f32⟩ : BufTy).Contents (Elt F) → (⟨S4096, .f32⟩ : BufTy).Contents (Elt F)),
    StableHlo.nullary main_c_115 (constantI S_ 32 2000#32),
    StableHlo.unary main_c_115 main_v544 (broadcastInDim S4096x61 ![] bcast_S_S4096x61 : (⟨S_, .i32⟩ : BufTy).Contents (Elt F) → (⟨S4096x61, .i32⟩ : BufTy).Contents (Elt F)),
    StableHlo.binary main_v3 main_v544 main_v545 (cmpi .eq : (⟨S4096x61, .i32⟩ : BufTy).Contents (Elt F) → (⟨S4096x61, .i32⟩ : BufTy).Contents (Elt F) → (⟨S4096x61, .i1⟩ : BufTy).Contents (Elt F)),
    StableHlo.nullary main_c_116 (constantI S_ 32 2000#32),
    StableHlo.unary main_c_116 main_v546 (broadcastInDim S4096x61 ![] bcast_S_S4096x61 : (⟨S_, .i32⟩ : BufTy).Contents (Elt F) → (⟨S4096x61, .i32⟩ : BufTy).Contents (Elt F)),
    StableHlo.binary main_v3 main_v546 main_v547 (addi : (⟨S4096x61, .i32⟩ : BufTy).Contents (Elt F) → (⟨S4096x61, .i32⟩ : BufTy).Contents (Elt F) → (⟨S4096x61, .i32⟩ : BufTy).Contents (Elt F)),
    StableHlo.nullary main_c_117 (constantI S_ 32 4000#32),
    StableHlo.TRef.unary (.of main_c_117 : StableHlo.TRef sig ⟨S_, .i32⟩) main_call27.v0 id,
    StableHlo.TRef.unary main_call27.v0 main_call27.v1 (broadcastInDim S4096x61 ![] bcast_S_S4096x61),
    StableHlo.TRef.ternary (.of main_v545 : StableHlo.TRef sig ⟨S4096x61, .i1⟩) main_call27.v1 (.of main_v547 : StableHlo.TRef sig ⟨S4096x61, .i32⟩) main_call27.v2 select,
    StableHlo.binary main_v3 main_v548 main_v549 ((fun a b => concatenate S4096x122 1 [⟨S4096x61, a⟩, ⟨S4096x61, b⟩] concatenates_S4096x61_S4096x61_S4096x122_d1) : (⟨S4096x61, .i32⟩ : BufTy).Contents (Elt F) → (⟨S4096x61, .i32⟩ : BufTy).Contents (Elt F) → (⟨S4096x122, .i32⟩ : BufTy).Contents (Elt F)),
    StableHlo.unary main_arg2 main_v550 ((extractStridedSlice S1x2000x64 ![9, 0, 0] · slices_S10x2000x64_S1x2000x64_9_0_0) : (⟨S10x2000x64, .f32⟩ : BufTy).Contents (Elt F) → (⟨S1x2000x64, .f32⟩ : BufTy).Contents (Elt F)),
    StableHlo.reshape main_v550 main_v551 rfl shapeCasts_S1x2000x64_S2000x64,
    StableHlo.unary main_arg3 main_v552 ((extractStridedSlice S1x64 ![9, 0] · slices_S10x64_S1x64_9_0) : (⟨S10x64, .f32⟩ : BufTy).Contents (Elt F) → (⟨S1x64, .f32⟩ : BufTy).Contents (Elt F)),
    StableHlo.reshape main_v552 main_v553 rfl shapeCasts_S1x64_S64,
    StableHlo.unary main_arg4 main_v554 ((extractStridedSlice S1x64x4000 ![9, 0, 0] · slices_S10x64x4000_S1x64x4000_9_0_0) : (⟨S10x64x4000, .f32⟩ : BufTy).Contents (Elt F) → (⟨S1x64x4000, .f32⟩ : BufTy).Contents (Elt F)),
    StableHlo.reshape main_v554 main_v555 rfl shapeCasts_S1x64x4000_S64x4000,
    StableHlo.unary main_arg5 main_v556 ((extractStridedSlice S1x4000 ![9, 0] · slices_S10x4000_S1x4000_9_0) : (⟨S10x4000, .f32⟩ : BufTy).Contents (Elt F) → (⟨S1x4000, .f32⟩ : BufTy).Contents (Elt F)),
    StableHlo.reshape main_v556 main_v557 rfl shapeCasts_S1x4000_S4000,
    StableHlo.nullary main_v558 (iotaInDim S4096 32 0),
    StableHlo.unary main_v558 main_v559 (broadcastInDim S4096x1 ![0] bcast_S4096_S4096x1_0 : (⟨S4096, .i32⟩ : BufTy).Contents (Elt F) → (⟨S4096x1, .i32⟩ : BufTy).Contents (Elt F)),
    StableHlo.nullary main_cst_118 (constant S_ .f32 0x00000000#32),
    StableHlo.unary main_cst_118 main_v560 (broadcastInDim S4096x2001 ![] bcast_S_S4096x2001 : (⟨S_, .f32⟩ : BufTy).Contents (Elt F) → (⟨S4096x2001, .f32⟩ : BufTy).Contents (Elt F)),
    StableHlo.nullary main_c_119 (constantI S_ 32 0#32),
    StableHlo.unary main_c_119 main_v561 (broadcastInDim S4096x1 ![] bcast_S_S4096x1 : (⟨S_, .i32⟩ : BufTy).Contents (Elt F) → (⟨S4096x1, .i32⟩ : BufTy).Contents (Elt F)),
    StableHlo.binary main_v559 main_v561 main_v562 (cmpi .slt : (⟨S4096x1, .i32⟩ : BufTy).Contents (Elt F) → (⟨S4096x1, .i32⟩ : BufTy).Contents (Elt F) → (⟨S4096x1, .i1⟩ : BufTy).Contents (Elt F)),
    StableHlo.nullary main_c_120 (constantI S_ 32 4096#32),
    StableHlo.unary main_c_120 main_v563 (broadcastInDim S4096x1 ![] bcast_S_S4096x1 : (⟨S_, .i32⟩ : BufTy).Contents (Elt F) → (⟨S4096x1, .i32⟩ : BufTy).Contents (Elt F)),
    StableHlo.binary main_v559 main_v563 main_v564 (addi : (⟨S4096x1, .i32⟩ : BufTy).Contents (Elt F) → (⟨S4096x1, .i32⟩ : BufTy).Contents (Elt F) → (⟨S4096x1, .i32⟩ : BufTy).Contents (Elt F)),
    StableHlo.ternary main_v562 main_v564 main_v559 main_v565 (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)),
    StableHlo.nullary main_c_121 (constantI S_ 32 0#32),
    StableHlo.unary main_c_121 main_v566 (broadcastInDim S4096x64 ![] bcast_S_S4096x64 : (⟨S_, .i32⟩ : BufTy).Contents (Elt F) → (⟨S4096x64, .i32⟩ : BufTy).Contents (Elt F)),
    StableHlo.binary main_v2 main_v566 main_v567 (cmpi .slt : (⟨S4096x64, .i32⟩ : BufTy).Contents (Elt F) → (⟨S4096x64, .i32⟩ : BufTy).Contents (Elt F) → (⟨S4096x64, .i1⟩ : BufTy).Contents (Elt F)),
    StableHlo.nullary main_c_122 (constantI S_ 32 2001#32),
    StableHlo.unary main_c_122 main_v568 (broadcastInDim S4096x64 ![] bcast_S_S4096x64 : (⟨S_, .i32⟩ : BufTy).Contents (Elt F) → (⟨S4096x64, .i32⟩ : BufTy).Contents (Elt F)),
    StableHlo.binary main_v2 main_v568 main_v569 (addi : (⟨S4096x64, .i32⟩ : BufTy).Contents (Elt F) → (⟨S4096x64, .i32⟩ : BufTy).Contents (Elt F) → (⟨S4096x64, .i32⟩ : BufTy).Contents (Elt F)),
    StableHlo.ternary main_v567 main_v569 main_v2 main_v570 (select : (⟨S4096x64, .i1⟩ : BufTy).Contents (Elt F) → (⟨S4096x64, .i32⟩ : BufTy).Contents (Elt F) → (⟨S4096x64, .i32⟩ : BufTy).Contents (Elt F) → (⟨S4096x64, .i32⟩ : BufTy).Contents (Elt F)),
    StableHlo.unary main_v565 main_v571 (broadcastInDim S4096x64 ![0, 1] bcast_S4096x1_S4096x64_0_1 : (⟨S4096x1, .i32⟩ : BufTy).Contents (Elt F) → (⟨S4096x64, .i32⟩ : BufTy).Contents (Elt F)),
    StableHlo.unary main_v571 main_v572 (broadcastInDim S4096x64x1 ![0, 1] bcast_S4096x64_S4096x64x1_0_1 : (⟨S4096x64, .i32⟩ : BufTy).Contents (Elt F) → (⟨S4096x64x1, .i32⟩ : BufTy).Contents (Elt F)) ]
/-- The references they write, in order. -/
abbrev rseg9_c_W : List (Ref sig .tc) :=
  [main_v543, main_c_115, main_v544, main_v545, main_c_116, main_v546, main_v547, main_c_117, main_call27.v0.ref, main_call27.v1.ref, main_call27.v2.ref, main_v549, main_v550, main_v551, main_v552, main_v553, main_v554, main_v555, main_v556, main_v557, main_v558, main_v559, main_cst_118, main_v560, main_c_119, main_v561, main_v562, main_c_120, main_v563, main_v564, main_v565, main_c_121, main_v566, main_v567, main_c_122, main_v568, main_v569, main_v570, main_v571, main_v572]
set_option maxRecDepth 8192 in
/-- Each touches TensorCore references only. -/
theorem rseg9_c_sub : (rseg9_c : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩
set_option maxRecDepth 8192 in
/-- None allocates a buffer. -/
theorem rseg9_c_fresh : (rseg9_c : List (HloOp τ sig (Elt F))).Forall fun op => op.fresh = ∅ := by
  simp only [List.Forall]; repeat' constructor
set_option maxRecDepth 8192 in
/-- Each writes inside the list. -/
theorem rseg9_c_writes : (rseg9_c : List (HloOp τ sig (Elt F))).Forall fun op => op.writes ⊆ (rseg9_c_W.map (Proc.devRef (τ := τ) .tc)).toFinset :=
  ⟨writes_sub_of_mem (y := main_v543) (by decide), writes_sub_of_mem (y := main_c_115) (by decide), writes_sub_of_mem (y := main_v544) (by decide), writes_sub_of_mem (y := main_v545) (by decide), writes_sub_of_mem (y := main_c_116) (by decide), writes_sub_of_mem (y := main_v546) (by decide), writes_sub_of_mem (y := main_v547) (by decide), writes_sub_of_mem (y := main_c_117) (by decide), writes_sub_of_mem (y := main_call27.v0.ref) (by decide), writes_sub_of_mem (y := main_call27.v1.ref) (by decide), writes_sub_of_mem (y := main_call27.v2.ref) (by decide), writes_sub_of_mem (y := main_v549) (by decide), writes_sub_of_mem (y := main_v550) (by decide), writes_sub_of_mem (y := main_v551) (by decide), writes_sub_of_mem (y := main_v552) (by decide), writes_sub_of_mem (y := main_v553) (by decide), writes_sub_of_mem (y := main_v554) (by decide), writes_sub_of_mem (y := main_v555) (by decide), writes_sub_of_mem (y := main_v556) (by decide), writes_sub_of_mem (y := main_v557) (by decide), writes_sub_of_mem (y := main_v558) (by decide), writes_sub_of_mem (y := main_v559) (by decide), writes_sub_of_mem (y := main_cst_118) (by decide), writes_sub_of_mem (y := main_v560) (by decide), writes_sub_of_mem (y := main_c_119) (by decide), writes_sub_of_mem (y := main_v561) (by decide), writes_sub_of_mem (y := main_v562) (by decide), writes_sub_of_mem (y := main_c_120) (by decide), writes_sub_of_mem (y := main_v563) (by decide), writes_sub_of_mem (y := main_v564) (by decide), writes_sub_of_mem (y := main_v565) (by decide), writes_sub_of_mem (y := main_c_121) (by decide), writes_sub_of_mem (y := main_v566) (by decide), writes_sub_of_mem (y := main_v567) (by decide), writes_sub_of_mem (y := main_c_122) (by decide), writes_sub_of_mem (y := main_v568) (by decide), writes_sub_of_mem (y := main_v569) (by decide), writes_sub_of_mem (y := main_v570) (by decide), writes_sub_of_mem (y := main_v571) (by decide), writes_sub_of_mem (y := main_v572) (by decide)⟩
set_option maxRecDepth 8192 in
/-- The list holds no argument: the operations leave the arguments alone. -/
theorem rseg9_c_keeps : KeepsArgs (F := F) rseg9_c := keepsArgs_of_writes rseg9_c_writes (by decide)

set_option maxHeartbeats 40000000 in
/-- Operations 1034 … 1060 of 1108 (segment 9, window 11 of @main). -/
abbrev rseg9_d : List (HloOp τ sig (Elt F)) :=
  [ StableHlo.unary main_v570 main_v573 (broadcastInDim S4096x64x1 ![0, 1] bcast_S4096x64_S4096x64x1_0_1 : (⟨S4096x64, .i32⟩ : BufTy).Contents (Elt F) → (⟨S4096x64x1, .i32⟩ : BufTy).Contents (Elt F)),
    StableHlo.binary main_v572 main_v573 main_v574 ((fun a b => concatenate S4096x64x2 2 [⟨S4096x64x1, a⟩, ⟨S4096x64x1, b⟩] concatenates_S4096x64x1_S4096x64x1_S4096x64x2_d2) : (⟨S4096x64x1, .i32⟩ : BufTy).Contents (Elt F) → (⟨S4096x64x1, .i32⟩ : BufTy).Contents (Elt F) → (⟨S4096x64x2, .i32⟩ : BufTy).Contents (Elt F)),
    StableHlo.ternary main_v560 main_v574 main_v540 main_v575 ((fun x i u => Host.scatterAdd scatter_S4096x2001_S4096x64x2_S4096x64_n_01_01_2 x i u) : (⟨S4096x2001, .f32⟩ : BufTy).Contents (Elt F) → (⟨S4096x64x2, .i32⟩ : BufTy).Contents (Elt F) → (⟨S4096x64, .f32⟩ : BufTy).Contents (Elt F) → (⟨S4096x2001, .f32⟩ : BufTy).Contents (Elt F)),
    StableHlo.unary main_v575 main_v576 ((extractStridedSlice S4096x2000 ![0, 0] · slices_S4096x2001_S4096x2000_0_0) : (⟨S4096x2001, .f32⟩ : BufTy).Contents (Elt F) → (⟨S4096x2000, .f32⟩ : BufTy).Contents (Elt F)),
    StableHlo.binary main_v576 main_v551 main_v577 ((fun l r => Host.dotGeneral dot_S4096x2000_S2000x64_S4096x64_1_0_0_1_n_n none l r) : (⟨S4096x2000, .f32⟩ : BufTy).Contents (Elt F) → (⟨S2000x64, .f32⟩ : BufTy).Contents (Elt F) → (⟨S4096x64, .f32⟩ : BufTy).Contents (Elt F)),
    StableHlo.unary main_v553 main_v578 (broadcastInDim S1x64 ![1] bcast_S64_S1x64_1 : (⟨S64, .f32⟩ : BufTy).Contents (Elt F) → (⟨S1x64, .f32⟩ : BufTy).Contents (Elt F)),
    StableHlo.unary main_v578 main_v579 (broadcastInDim S4096x64 ![0, 1] bcast_S1x64_S4096x64_0_1 : (⟨S1x64, .f32⟩ : BufTy).Contents (Elt F) → (⟨S4096x64, .f32⟩ : BufTy).Contents (Elt F)),
    StableHlo.binary main_v577 main_v579 main_v580 (addf : (⟨S4096x64, .f32⟩ : BufTy).Contents (Elt F) → (⟨S4096x64, .f32⟩ : BufTy).Contents (Elt F) → (⟨S4096x64, .f32⟩ : BufTy).Contents (Elt F)),
    StableHlo.TRef.nullary main_call28.cst (constant S_ .f32 0x00000000#32),
    StableHlo.TRef.unary main_call28.cst main_call28.v0 (broadcastInDim S4096x64 ![] bcast_S_S4096x64),
    StableHlo.TRef.binary (.of main_v580 : StableHlo.TRef sig ⟨S4096x64, .f32⟩) main_call28.v0 main_call28.v1 (cmpf .ogt),
    StableHlo.TRef.nullary main_call28.cst_0 (constant S_ .f32 0x00000000#32),
    StableHlo.TRef.unary main_call28.cst_0 main_call28.v2 (broadcastInDim S4096x64 ![] bcast_S_S4096x64),
    StableHlo.TRef.binary (.of main_v580 : StableHlo.TRef sig ⟨S4096x64, .f32⟩) main_call28.v2 main_call28.v3 (cmpf .ogt),
    StableHlo.TRef.nullary main_call28.cst_1 (constant S_ .f32 0x00000000#32),
    StableHlo.TRef.unary main_call28.cst_1 main_call28.call0.v0 id,
    StableHlo.TRef.unary main_call28.call0.v0 main_call28.call0.v1 (broadcastInDim S4096x64 ![] bcast_S_S4096x64),
    StableHlo.TRef.ternary main_call28.v3 main_call28.call0.v1 (.of main_v580 : StableHlo.TRef sig ⟨S4096x64, .f32⟩) main_call28.call0.v2 select,
    StableHlo.TRef.unary main_call28.call0.v2 main_call28.v5 Host.expm1,
    StableHlo.TRef.nullary main_call28.cst_2 (constant S_ .f32 0x3F800000#32),
    StableHlo.TRef.unary main_call28.cst_2 main_call28.v6 (broadcastInDim S4096x64 ![] bcast_S_S4096x64),
    StableHlo.TRef.binary main_call28.v6 main_call28.v5 main_call28.v7 mulf,
    StableHlo.TRef.ternary main_call28.v1 (.of main_v580 : StableHlo.TRef sig ⟨S4096x64, .f32⟩) main_call28.v7 main_call28.call1.v0 select,
    StableHlo.binary main_v581 main_v555 main_v582 ((fun l r => Host.dotGeneral dot_S4096x64_S64x4000_S4096x4000_1_0_0_1_n_n none l r) : (⟨S4096x64, .f32⟩ : BufTy).Contents (Elt F) → (⟨S64x4000, .f32⟩ : BufTy).Contents (Elt F) → (⟨S4096x4000, .f32⟩ : BufTy).Contents (Elt F)),
    StableHlo.unary main_v557 main_v583 (broadcastInDim S1x4000 ![1] bcast_S4000_S1x4000_1 : (⟨S4000, .f32⟩ : BufTy).Contents (Elt F) → (⟨S1x4000, .f32⟩ : BufTy).Contents (Elt F)),
    StableHlo.unary main_v583 main_v584 (broadcastInDim S4096x4000 ![0, 1] bcast_S1x4000_S4096x4000_0_1 : (⟨S1x4000, .f32⟩ : BufTy).Contents (Elt F) → (⟨S4096x4000, .f32⟩ : BufTy).Contents (Elt F)),
    StableHlo.binary main_v582 main_v584 main_v585 (addf : (⟨S4096x4000, .f32⟩ : BufTy).Contents (Elt F) → (⟨S4096x4000, .f32⟩ : BufTy).Contents (Elt F) → (⟨S4096x4000, .f32⟩ : BufTy).Contents (Elt F)) ]
/-- The references they write, in order. -/
abbrev rseg9_d_W : List (Ref sig .tc) :=
  [main_v573, main_v574, main_v575, main_v576, main_v577, main_v578, main_v579, main_v580, main_call28.cst.ref, main_call28.v0.ref, main_call28.v1.ref, main_call28.cst_0.ref, main_call28.v2.ref, main_call28.v3.ref, main_call28.cst_1.ref, main_call28.call0.v0.ref, main_call28.call0.v1.ref, main_call28.call0.v2.ref, main_call28.v5.ref, main_call28.cst_2.ref, main_call28.v6.ref, main_call28.v7.ref, main_call28.call1.v0.ref, main_v582, main_v583, main_v584, main_v585]
set_option maxRecDepth 8192 in
/-- Each touches TensorCore references only. -/
theorem rseg9_d_sub : (rseg9_d : List (HloOp τ sig (Elt F))).Forall fun op => op.bufs ⊆ tcRefs τ sig :=
  ⟨unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub ..⟩
set_option maxRecDepth 8192 in
/-- None allocates a buffer. -/
theorem rseg9_d_fresh : (rseg9_d : List (HloOp τ sig (Elt F))).Forall fun op => op.fresh = ∅ := by
  simp only [List.Forall]; repeat' constructor
set_option maxRecDepth 8192 in
/-- Each writes inside the list. -/
theorem rseg9_d_writes : (rseg9_d : List (HloOp τ sig (Elt F))).Forall fun op => op.writes ⊆ (rseg9_d_W.map (Proc.devRef (τ := τ) .tc)).toFinset :=
  ⟨writes_sub_of_mem (y := main_v573) (by decide), writes_sub_of_mem (y := main_v574) (by decide), writes_sub_of_mem (y := main_v575) (by decide), writes_sub_of_mem (y := main_v576) (by decide), writes_sub_of_mem (y := main_v577) (by decide), writes_sub_of_mem (y := main_v578) (by decide), writes_sub_of_mem (y := main_v579) (by decide), writes_sub_of_mem (y := main_v580) (by decide), writes_sub_of_mem (y := main_call28.cst.ref) (by decide), writes_sub_of_mem (y := main_call28.v0.ref) (by decide), writes_sub_of_mem (y := main_call28.v1.ref) (by decide), writes_sub_of_mem (y := main_call28.cst_0.ref) (by decide), writes_sub_of_mem (y := main_call28.v2.ref) (by decide), writes_sub_of_mem (y := main_call28.v3.ref) (by decide), writes_sub_of_mem (y := main_call28.cst_1.ref) (by decide), writes_sub_of_mem (y := main_call28.call0.v0.ref) (by decide), writes_sub_of_mem (y := main_call28.call0.v1.ref) (by decide), writes_sub_of_mem (y := main_call28.call0.v2.ref) (by decide), writes_sub_of_mem (y := main_call28.v5.ref) (by decide), writes_sub_of_mem (y := main_call28.cst_2.ref) (by decide), writes_sub_of_mem (y := main_call28.v6.ref) (by decide), writes_sub_of_mem (y := main_call28.v7.ref) (by decide), writes_sub_of_mem (y := main_call28.call1.v0.ref) (by decide), writes_sub_of_mem (y := main_v582) (by decide), writes_sub_of_mem (y := main_v583) (by decide), writes_sub_of_mem (y := main_v584) (by decide), writes_sub_of_mem (y := main_v585) (by decide)⟩
set_option maxRecDepth 8192 in
/-- The list holds no argument: the operations leave the arguments alone. -/
theorem rseg9_d_keeps : KeepsArgs (F := F) rseg9_d := keepsArgs_of_writes rseg9_d_writes (by decide)

set_option maxHeartbeats 40000000 in
/-- Operations 1061 … 1090 of 1108 (segment 10, window 11 of @main). -/
abbrev rseg10_a : List (HloOp τ sig (Elt F)) :=
  [ StableHlo.nullary main_cst_123 (constant S_ .f32 0x00000000#32),
    StableHlo.unary main_cst_123 main_v586 (broadcastInDim S4096x1 ![] bcast_S_S4096x1 : (⟨S_, .f32⟩ : BufTy).Contents (Elt F) → (⟨S4096x1, .f32⟩ : BufTy).Contents (Elt F)),
    StableHlo.binary main_v585 main_v586 main_v587 ((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F)),
    StableHlo.TRef.nullary main_call29.c (constantI S_ 32 0#32),
    StableHlo.TRef.unary main_call29.c main_call29.v0 (broadcastInDim S4096x122 ![] bcast_S_S4096x122),
    StableHlo.TRef.binary (.of main_v549 : StableHlo.TRef sig ⟨S4096x122, .i32⟩) main_call29.v0 main_call29.v1 (cmpi .slt),
    StableHlo.TRef.nullary main_call29.c_0 (constantI S_ 32 4001#32),
    StableHlo.TRef.unary main_call29.c_0 main_call29.v2 (broadcastInDim S4096x122 ![] bcast_S_S4096x122),
    StableHlo.TRef.binary (.of main_v549 : StableHlo.TRef sig ⟨S4096x122, .i32⟩) main_call29.v2 main_call29.v3 addi,
    StableHlo.TRef.ternary main_call29.v1 main_call29.v3 (.of main_v549 : StableHlo.TRef sig ⟨S4096x122, .i32⟩) main_call29.v4 select,
    StableHlo.TRef.reshape main_call29.v4 main_call29.v5 rfl shapeCasts_S4096x122_S4096x122x1,
    StableHlo.TRef.nullary main_call29.c_1 (constantI S1 32 4000#32),
    StableHlo.TRef.nullary main_call29.c_2 (constantI S_ 32 0#32),
    StableHlo.TRef.unary main_call29.c_2 main_call29.v6 (broadcastInDim S4096x122x1 ![] bcast_S_S4096x122x1),
    StableHlo.TRef.binary main_call29.v5 main_call29.v6 main_call29.v7 (cmpi .sge),
    StableHlo.TRef.unary main_call29.c_1 main_call29.v8 (broadcastInDim S1x1x1 ![2] bcast_S1_S1x1x1_2),
    StableHlo.TRef.unary main_call29.v8 main_call29.v9 (broadcastInDim S4096x122x1 ![0, 1, 2] bcast_S1x1x1_S4096x122x1_0_1_2),
    StableHlo.TRef.binary main_call29.v5 main_call29.v9 main_call29.v10 (cmpi .sle),
    StableHlo.TRef.binary main_call29.v7 main_call29.v10 main_call29.v11 andi,
    StableHlo.TRef.nullary main_call29.c_3 (constantI S_ 1 1#1),
    StableHlo.TRef.binary main_call29.v11 main_call29.c_3 main_call29.v12 (fun x v => Host.reduce IntOp.andi x v reducesTo_S4096x122x1_S4096x122_d2 h_S_),
    StableHlo.TRef.binary (.of main_v587 : StableHlo.TRef sig ⟨S4096x4001, .f32⟩) main_call29.v5 main_call29.v13 (fun x i => Host.gather gather_S4096x4001_S4096x122x1_S4096x122_n_1_0_0_1_2_11 x i),
    StableHlo.TRef.nullary main_call29.cst (constant S_ .f32 0x7FC00000#32),
    StableHlo.TRef.unary main_call29.cst main_call29.v14 (broadcastInDim S4096x122 ![] bcast_S_S4096x122),
    StableHlo.TRef.ternary main_call29.v12 main_call29.v13 main_call29.v14 main_call29.v15 select,
    StableHlo.unary main_v588 main_v589 ((extractStridedSlice S4096x61 ![0, 0] · slices_S4096x122_S4096x61_0_0) : (⟨S4096x122, .f32⟩ : BufTy).Contents (Elt F) → (⟨S4096x61, .f32⟩ : BufTy).Contents (Elt F)),
    StableHlo.unary main_v588 main_v590 ((extractStridedSlice S4096x61 ![0, 61] · slices_S4096x122_S4096x61_0_61) : (⟨S4096x122, .f32⟩ : BufTy).Contents (Elt F) → (⟨S4096x61, .f32⟩ : BufTy).Contents (Elt F)),
    StableHlo.nullary main_cst_124 (constant S_ .f32 0x40000000#32),
    StableHlo.unary main_cst_124 main_v591 (broadcastInDim S4096x61 ![] bcast_S_S4096x61 : (⟨S_, .f32⟩ : BufTy).Contents (Elt F) → (⟨S4096x61, .f32⟩ : BufTy).Contents (Elt F)),
    StableHlo.binary main_v589 main_v591 main_v592 (addf : (⟨S4096x61, .f32⟩ : BufTy).Contents (Elt F) → (⟨S4096x61, .f32⟩ : BufTy).Contents (Elt F) → (⟨S4096x61, .f32⟩ : BufTy).Contents (Elt F)) ]
/-- The references they write, in order. -/
abbrev rseg10_a_W : List (Ref sig .tc) :=
  [main_cst_123, main_v586, main_v587, main_call29.c.ref, main_call29.v0.ref, main_call29.v1.ref, main_call29.c_0.ref, main_call29.v2.ref, main_call29.v3.ref, main_call29.v4.ref, main_call29.v5.ref, main_call29.c_1.ref, main_call29.c_2.ref, main_call29.v6.ref, main_call29.v7.ref, main_call29.v8.ref, main_call29.v9.ref, main_call29.v10.ref, main_call29.v11.ref, main_call29.c_3.ref, main_call29.v12.ref, main_call29.v13.ref, main_call29.cst.ref, main_call29.v14.ref, main_call29.v15.ref, main_v589, main_v590, main_cst_124, main_v591, main_v592]
set_option maxRecDepth 8192 in
/-- Each touches TensorCore references only. -/
theorem rseg10_a_sub : (rseg10_a : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., unary_bufs_sub .., nullary_bufs_sub .., unary_bufs_sub .., binary_bufs_sub ..⟩
set_option maxRecDepth 8192 in
/-- None allocates a buffer. -/
theorem rseg10_a_fresh : (rseg10_a : List (HloOp τ sig (Elt F))).Forall fun op => op.fresh = ∅ := by
  simp only [List.Forall]; repeat' constructor
set_option maxRecDepth 8192 in
/-- Each writes inside the list. -/
theorem rseg10_a_writes : (rseg10_a : List (HloOp τ sig (Elt F))).Forall fun op => op.writes ⊆ (rseg10_a_W.map (Proc.devRef (τ := τ) .tc)).toFinset :=
  ⟨writes_sub_of_mem (y := main_cst_123) (by decide), writes_sub_of_mem (y := main_v586) (by decide), writes_sub_of_mem (y := main_v587) (by decide), writes_sub_of_mem (y := main_call29.c.ref) (by decide), writes_sub_of_mem (y := main_call29.v0.ref) (by decide), writes_sub_of_mem (y := main_call29.v1.ref) (by decide), writes_sub_of_mem (y := main_call29.c_0.ref) (by decide), writes_sub_of_mem (y := main_call29.v2.ref) (by decide), writes_sub_of_mem (y := main_call29.v3.ref) (by decide), writes_sub_of_mem (y := main_call29.v4.ref) (by decide), writes_sub_of_mem (y := main_call29.v5.ref) (by decide), writes_sub_of_mem (y := main_call29.c_1.ref) (by decide), writes_sub_of_mem (y := main_call29.c_2.ref) (by decide), writes_sub_of_mem (y := main_call29.v6.ref) (by decide), writes_sub_of_mem (y := main_call29.v7.ref) (by decide), writes_sub_of_mem (y := main_call29.v8.ref) (by decide), writes_sub_of_mem (y := main_call29.v9.ref) (by decide), writes_sub_of_mem (y := main_call29.v10.ref) (by decide), writes_sub_of_mem (y := main_call29.v11.ref) (by decide), writes_sub_of_mem (y := main_call29.c_3.ref) (by decide), writes_sub_of_mem (y := main_call29.v12.ref) (by decide), writes_sub_of_mem (y := main_call29.v13.ref) (by decide), writes_sub_of_mem (y := main_call29.cst.ref) (by decide), writes_sub_of_mem (y := main_call29.v14.ref) (by decide), writes_sub_of_mem (y := main_call29.v15.ref) (by decide), writes_sub_of_mem (y := main_v589) (by decide), writes_sub_of_mem (y := main_v590) (by decide), writes_sub_of_mem (y := main_cst_124) (by decide), writes_sub_of_mem (y := main_v591) (by decide), writes_sub_of_mem (y := main_v592) (by decide)⟩
set_option maxRecDepth 8192 in
/-- The list holds no argument: the operations leave the arguments alone. -/
theorem rseg10_a_keeps : KeepsArgs (F := F) rseg10_a := keepsArgs_of_writes rseg10_a_writes (by decide)

set_option maxHeartbeats 40000000 in
/-- Operations 1091 … 1108 of 1108 (segment 10, window 12 of @main). -/
abbrev rseg10_b : List (HloOp τ sig (Elt F)) :=
  [ StableHlo.unary main_v592 main_v593 (Host.negf : (⟨S4096x61, .f32⟩ : BufTy).Contents (Elt F) → (⟨S4096x61, .f32⟩ : BufTy).Contents (Elt F)),
    StableHlo.unary main_v593 main_v594 (Host.exp : (⟨S4096x61, .f32⟩ : BufTy).Contents (Elt F) → (⟨S4096x61, .f32⟩ : BufTy).Contents (Elt F)),
    StableHlo.nullary main_cst_125 (constant S_ .f32 0x3F800000#32),
    StableHlo.unary main_cst_125 main_v595 (broadcastInDim S4096x61 ![] bcast_S_S4096x61 : (⟨S_, .f32⟩ : BufTy).Contents (Elt F) → (⟨S4096x61, .f32⟩ : BufTy).Contents (Elt F)),
    StableHlo.binary main_v595 main_v594 main_v596 (addf : (⟨S4096x61, .f32⟩ : BufTy).Contents (Elt F) → (⟨S4096x61, .f32⟩ : BufTy).Contents (Elt F) → (⟨S4096x61, .f32⟩ : BufTy).Contents (Elt F)),
    StableHlo.nullary main_cst_126 (constant S_ .f32 0x3F800000#32),
    StableHlo.unary main_cst_126 main_v597 (broadcastInDim S4096x61 ![] bcast_S_S4096x61 : (⟨S_, .f32⟩ : BufTy).Contents (Elt F) → (⟨S4096x61, .f32⟩ : BufTy).Contents (Elt F)),
    StableHlo.binary main_v597 main_v596 main_v598 (Host.divf : (⟨S4096x61, .f32⟩ : BufTy).Contents (Elt F) → (⟨S4096x61, .f32⟩ : BufTy).Contents (Elt F) → (⟨S4096x61, .f32⟩ : BufTy).Contents (Elt F)),
    StableHlo.binary main_v598 main_v480 main_v599 (mulf : (⟨S4096x61, .f32⟩ : BufTy).Contents (Elt F) → (⟨S4096x61, .f32⟩ : BufTy).Contents (Elt F) → (⟨S4096x61, .f32⟩ : BufTy).Contents (Elt F)),
    StableHlo.binary main_v599 main_v590 main_v600 (addf : (⟨S4096x61, .f32⟩ : BufTy).Contents (Elt F) → (⟨S4096x61, .f32⟩ : BufTy).Contents (Elt F) → (⟨S4096x61, .f32⟩ : BufTy).Contents (Elt F)),
    StableHlo.unary main_v598 main_v601 (Host.log : (⟨S4096x61, .f32⟩ : BufTy).Contents (Elt F) → (⟨S4096x61, .f32⟩ : BufTy).Contents (Elt F)),
    StableHlo.nullary main_cst_127 (constant S_ .f32 0x00000000#32),
    StableHlo.binary main_v601 main_cst_127 main_v602 ((fun x v => Host.reduceAdd x v reducesTo_S4096x61_S4096_d1 h_S_) : (⟨S4096x61, .f32⟩ : BufTy).Contents (Elt F) → (⟨S_, .f32⟩ : BufTy).Contents (Elt F) → (⟨S4096, .f32⟩ : BufTy).Contents (Elt F)),
    StableHlo.binary main_v543 main_v602 main_v603 (subf : (⟨S4096, .f32⟩ : BufTy).Contents (Elt F) → (⟨S4096, .f32⟩ : BufTy).Contents (Elt F) → (⟨S4096, .f32⟩ : BufTy).Contents (Elt F)),
    StableHlo.binary main_v540 main_v600 main_v604 ((fun a b => concatenate S4096x125 1 [⟨S4096x64, a⟩, ⟨S4096x61, b⟩] concatenates_S4096x64_S4096x61_S4096x125_d1) : (⟨S4096x64, .f32⟩ : BufTy).Contents (Elt F) → (⟨S4096x61, .f32⟩ : BufTy).Contents (Elt F) → (⟨S4096x125, .f32⟩ : BufTy).Contents (Elt F)),
    StableHlo.nullary main_cst_128 (constant S_ .f32 0x40000000#32),
    StableHlo.unary main_cst_128 main_v605 (broadcastInDim S4096x125 ![] bcast_S_S4096x125 : (⟨S_, .f32⟩ : BufTy).Contents (Elt F) → (⟨S4096x125, .f32⟩ : BufTy).Contents (Elt F)),
    StableHlo.binary main_v604 main_v605 main_v606 (subf : (⟨S4096x125, .f32⟩ : BufTy).Contents (Elt F) → (⟨S4096x125, .f32⟩ : BufTy).Contents (Elt F) → (⟨S4096x125, .f32⟩ : BufTy).Contents (Elt F)) ]
/-- The references they write, in order. -/
abbrev rseg10_b_W : List (Ref sig .tc) :=
  [main_v593, main_v594, main_cst_125, main_v595, main_v596, main_cst_126, main_v597, main_v598, main_v599, main_v600, main_v601, main_cst_127, main_v602, main_v603, main_v604, main_cst_128, main_v605, main_v606]
set_option maxRecDepth 8192 in
/-- Each touches TensorCore references only. -/
theorem rseg10_b_sub : (rseg10_b : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., binary_bufs_sub .., binary_bufs_sub .., binary_bufs_sub .., nullary_bufs_sub .., unary_bufs_sub .., binary_bufs_sub ..⟩
set_option maxRecDepth 8192 in
/-- None allocates a buffer. -/
theorem rseg10_b_fresh : (rseg10_b : List (HloOp τ sig (Elt F))).Forall fun op => op.fresh = ∅ := by
  simp only [List.Forall]; repeat' constructor
set_option maxRecDepth 8192 in
/-- Each writes inside the list. -/
theorem rseg10_b_writes : (rseg10_b : List (HloOp τ sig (Elt F))).Forall fun op => op.writes ⊆ (rseg10_b_W.map (Proc.devRef (τ := τ) .tc)).toFinset :=
  ⟨writes_sub_of_mem (y := main_v593) (by decide), writes_sub_of_mem (y := main_v594) (by decide), writes_sub_of_mem (y := main_cst_125) (by decide), writes_sub_of_mem (y := main_v595) (by decide), writes_sub_of_mem (y := main_v596) (by decide), writes_sub_of_mem (y := main_cst_126) (by decide), writes_sub_of_mem (y := main_v597) (by decide), writes_sub_of_mem (y := main_v598) (by decide), writes_sub_of_mem (y := main_v599) (by decide), writes_sub_of_mem (y := main_v600) (by decide), writes_sub_of_mem (y := main_v601) (by decide), writes_sub_of_mem (y := main_cst_127) (by decide), writes_sub_of_mem (y := main_v602) (by decide), writes_sub_of_mem (y := main_v603) (by decide), writes_sub_of_mem (y := main_v604) (by decide), writes_sub_of_mem (y := main_cst_128) (by decide), writes_sub_of_mem (y := main_v605) (by decide), writes_sub_of_mem (y := main_v606) (by decide)⟩
set_option maxRecDepth 8192 in
/-- The list holds no argument: the operations leave the arguments alone. -/
theorem rseg10_b_keeps : KeepsArgs (F := F) rseg10_b := keepsArgs_of_writes rseg10_b_writes (by decide)

/-! ## The segments and the whole line -/

/-- Segment 0: through the operation writing `main_v45`. -/
abbrev rseg0 : List (HloOp τ sig (Elt F)) := rseg0_a ++ rseg0_b
/-- Segment 1: through the operation writing `main_v105`. -/
abbrev rseg1 : List (HloOp τ sig (Elt F)) := rseg1_a ++ rseg1_b ++ rseg1_c ++ rseg1_d
/-- Segment 2: through the operation writing `main_v165`. -/
abbrev rseg2 : List (HloOp τ sig (Elt F)) := rseg2_a ++ rseg2_b ++ rseg2_c
/-- Segment 3: through the operation writing `main_v225`. -/
abbrev rseg3 : List (HloOp τ sig (Elt F)) := rseg3_a ++ rseg3_b ++ rseg3_c ++ rseg3_d
/-- Segment 4: through the operation writing `main_v285`. -/
abbrev rseg4 : List (HloOp τ sig (Elt F)) := rseg4_a ++ rseg4_b ++ rseg4_c ++ rseg4_d
/-- Segment 5: through the operation writing `main_v345`. -/
abbrev rseg5 : List (HloOp τ sig (Elt F)) := rseg5_a ++ rseg5_b ++ rseg5_c
/-- Segment 6: through the operation writing `main_v405`. -/
abbrev rseg6 : List (HloOp τ sig (Elt F)) := rseg6_a ++ rseg6_b ++ rseg6_c ++ rseg6_d ++ rseg6_e
/-- Segment 7: through the operation writing `main_v465`. -/
abbrev rseg7 : List (HloOp τ sig (Elt F)) := rseg7_a ++ rseg7_b ++ rseg7_c
/-- Segment 8: through the operation writing `main_v525`. -/
abbrev rseg8 : List (HloOp τ sig (Elt F)) := rseg8_a ++ rseg8_b ++ rseg8_c ++ rseg8_d
/-- Segment 9: through the operation writing `main_v585`. -/
abbrev rseg9 : List (HloOp τ sig (Elt F)) := rseg9_a ++ rseg9_b ++ rseg9_c ++ rseg9_d
/-- Segment 10: to the end. -/
abbrev rseg10 : List (HloOp τ sig (Elt F)) := rseg10_a ++ rseg10_b

/-- The reference's @main as one line of 1108 host operations. -/
abbrev refOps : List (HloOp τ sig (Elt F)) := rseg0 ++ rseg1 ++ rseg2 ++ rseg3 ++ rseg4 ++ rseg5 ++ rseg6 ++ rseg7 ++ rseg8 ++ rseg9 ++ rseg10

theorem rseg0_sub : (rseg0 : List (HloOp τ sig (Elt F))).Forall fun op => op.bufs ⊆ tcRefs τ sig :=
  (List.forall_append.mpr ⟨rseg0_a_sub, rseg0_b_sub⟩)
theorem rseg0_fresh : (rseg0 : List (HloOp τ sig (Elt F))).Forall fun op => op.fresh = ∅ :=
  (List.forall_append.mpr ⟨rseg0_a_fresh, rseg0_b_fresh⟩)
theorem rseg0_keeps : KeepsArgs (F := F) rseg0 :=
  (rseg0_a_keeps.append rseg0_b_keeps)
theorem rseg1_sub : (rseg1 : List (HloOp τ sig (Elt F))).Forall fun op => op.bufs ⊆ tcRefs τ sig :=
  (List.forall_append.mpr ⟨(List.forall_append.mpr ⟨(List.forall_append.mpr ⟨rseg1_a_sub, rseg1_b_sub⟩), rseg1_c_sub⟩), rseg1_d_sub⟩)
theorem rseg1_fresh : (rseg1 : List (HloOp τ sig (Elt F))).Forall fun op => op.fresh = ∅ :=
  (List.forall_append.mpr ⟨(List.forall_append.mpr ⟨(List.forall_append.mpr ⟨rseg1_a_fresh, rseg1_b_fresh⟩), rseg1_c_fresh⟩), rseg1_d_fresh⟩)
theorem rseg1_keeps : KeepsArgs (F := F) rseg1 :=
  (((rseg1_a_keeps.append rseg1_b_keeps).append rseg1_c_keeps).append rseg1_d_keeps)
theorem rseg2_sub : (rseg2 : List (HloOp τ sig (Elt F))).Forall fun op => op.bufs ⊆ tcRefs τ sig :=
  (List.forall_append.mpr ⟨(List.forall_append.mpr ⟨rseg2_a_sub, rseg2_b_sub⟩), rseg2_c_sub⟩)
theorem rseg2_fresh : (rseg2 : List (HloOp τ sig (Elt F))).Forall fun op => op.fresh = ∅ :=
  (List.forall_append.mpr ⟨(List.forall_append.mpr ⟨rseg2_a_fresh, rseg2_b_fresh⟩), rseg2_c_fresh⟩)
theorem rseg2_keeps : KeepsArgs (F := F) rseg2 :=
  ((rseg2_a_keeps.append rseg2_b_keeps).append rseg2_c_keeps)
theorem rseg3_sub : (rseg3 : List (HloOp τ sig (Elt F))).Forall fun op => op.bufs ⊆ tcRefs τ sig :=
  (List.forall_append.mpr ⟨(List.forall_append.mpr ⟨(List.forall_append.mpr ⟨rseg3_a_sub, rseg3_b_sub⟩), rseg3_c_sub⟩), rseg3_d_sub⟩)
theorem rseg3_fresh : (rseg3 : List (HloOp τ sig (Elt F))).Forall fun op => op.fresh = ∅ :=
  (List.forall_append.mpr ⟨(List.forall_append.mpr ⟨(List.forall_append.mpr ⟨rseg3_a_fresh, rseg3_b_fresh⟩), rseg3_c_fresh⟩), rseg3_d_fresh⟩)
theorem rseg3_keeps : KeepsArgs (F := F) rseg3 :=
  (((rseg3_a_keeps.append rseg3_b_keeps).append rseg3_c_keeps).append rseg3_d_keeps)
theorem rseg4_sub : (rseg4 : List (HloOp τ sig (Elt F))).Forall fun op => op.bufs ⊆ tcRefs τ sig :=
  (List.forall_append.mpr ⟨(List.forall_append.mpr ⟨(List.forall_append.mpr ⟨rseg4_a_sub, rseg4_b_sub⟩), rseg4_c_sub⟩), rseg4_d_sub⟩)
theorem rseg4_fresh : (rseg4 : List (HloOp τ sig (Elt F))).Forall fun op => op.fresh = ∅ :=
  (List.forall_append.mpr ⟨(List.forall_append.mpr ⟨(List.forall_append.mpr ⟨rseg4_a_fresh, rseg4_b_fresh⟩), rseg4_c_fresh⟩), rseg4_d_fresh⟩)
theorem rseg4_keeps : KeepsArgs (F := F) rseg4 :=
  (((rseg4_a_keeps.append rseg4_b_keeps).append rseg4_c_keeps).append rseg4_d_keeps)
theorem rseg5_sub : (rseg5 : List (HloOp τ sig (Elt F))).Forall fun op => op.bufs ⊆ tcRefs τ sig :=
  (List.forall_append.mpr ⟨(List.forall_append.mpr ⟨rseg5_a_sub, rseg5_b_sub⟩), rseg5_c_sub⟩)
theorem rseg5_fresh : (rseg5 : List (HloOp τ sig (Elt F))).Forall fun op => op.fresh = ∅ :=
  (List.forall_append.mpr ⟨(List.forall_append.mpr ⟨rseg5_a_fresh, rseg5_b_fresh⟩), rseg5_c_fresh⟩)
theorem rseg5_keeps : KeepsArgs (F := F) rseg5 :=
  ((rseg5_a_keeps.append rseg5_b_keeps).append rseg5_c_keeps)
theorem rseg6_sub : (rseg6 : List (HloOp τ sig (Elt F))).Forall fun op => op.bufs ⊆ tcRefs τ sig :=
  (List.forall_append.mpr ⟨(List.forall_append.mpr ⟨(List.forall_append.mpr ⟨(List.forall_append.mpr ⟨rseg6_a_sub, rseg6_b_sub⟩), rseg6_c_sub⟩), rseg6_d_sub⟩), rseg6_e_sub⟩)
theorem rseg6_fresh : (rseg6 : List (HloOp τ sig (Elt F))).Forall fun op => op.fresh = ∅ :=
  (List.forall_append.mpr ⟨(List.forall_append.mpr ⟨(List.forall_append.mpr ⟨(List.forall_append.mpr ⟨rseg6_a_fresh, rseg6_b_fresh⟩), rseg6_c_fresh⟩), rseg6_d_fresh⟩), rseg6_e_fresh⟩)
theorem rseg6_keeps : KeepsArgs (F := F) rseg6 :=
  ((((rseg6_a_keeps.append rseg6_b_keeps).append rseg6_c_keeps).append rseg6_d_keeps).append rseg6_e_keeps)
theorem rseg7_sub : (rseg7 : List (HloOp τ sig (Elt F))).Forall fun op => op.bufs ⊆ tcRefs τ sig :=
  (List.forall_append.mpr ⟨(List.forall_append.mpr ⟨rseg7_a_sub, rseg7_b_sub⟩), rseg7_c_sub⟩)
theorem rseg7_fresh : (rseg7 : List (HloOp τ sig (Elt F))).Forall fun op => op.fresh = ∅ :=
  (List.forall_append.mpr ⟨(List.forall_append.mpr ⟨rseg7_a_fresh, rseg7_b_fresh⟩), rseg7_c_fresh⟩)
theorem rseg7_keeps : KeepsArgs (F := F) rseg7 :=
  ((rseg7_a_keeps.append rseg7_b_keeps).append rseg7_c_keeps)
theorem rseg8_sub : (rseg8 : List (HloOp τ sig (Elt F))).Forall fun op => op.bufs ⊆ tcRefs τ sig :=
  (List.forall_append.mpr ⟨(List.forall_append.mpr ⟨(List.forall_append.mpr ⟨rseg8_a_sub, rseg8_b_sub⟩), rseg8_c_sub⟩), rseg8_d_sub⟩)
theorem rseg8_fresh : (rseg8 : List (HloOp τ sig (Elt F))).Forall fun op => op.fresh = ∅ :=
  (List.forall_append.mpr ⟨(List.forall_append.mpr ⟨(List.forall_append.mpr ⟨rseg8_a_fresh, rseg8_b_fresh⟩), rseg8_c_fresh⟩), rseg8_d_fresh⟩)
theorem rseg8_keeps : KeepsArgs (F := F) rseg8 :=
  (((rseg8_a_keeps.append rseg8_b_keeps).append rseg8_c_keeps).append rseg8_d_keeps)
theorem rseg9_sub : (rseg9 : List (HloOp τ sig (Elt F))).Forall fun op => op.bufs ⊆ tcRefs τ sig :=
  (List.forall_append.mpr ⟨(List.forall_append.mpr ⟨(List.forall_append.mpr ⟨rseg9_a_sub, rseg9_b_sub⟩), rseg9_c_sub⟩), rseg9_d_sub⟩)
theorem rseg9_fresh : (rseg9 : List (HloOp τ sig (Elt F))).Forall fun op => op.fresh = ∅ :=
  (List.forall_append.mpr ⟨(List.forall_append.mpr ⟨(List.forall_append.mpr ⟨rseg9_a_fresh, rseg9_b_fresh⟩), rseg9_c_fresh⟩), rseg9_d_fresh⟩)
theorem rseg9_keeps : KeepsArgs (F := F) rseg9 :=
  (((rseg9_a_keeps.append rseg9_b_keeps).append rseg9_c_keeps).append rseg9_d_keeps)
theorem rseg10_sub : (rseg10 : List (HloOp τ sig (Elt F))).Forall fun op => op.bufs ⊆ tcRefs τ sig :=
  (List.forall_append.mpr ⟨rseg10_a_sub, rseg10_b_sub⟩)
theorem rseg10_fresh : (rseg10 : List (HloOp τ sig (Elt F))).Forall fun op => op.fresh = ∅ :=
  (List.forall_append.mpr ⟨rseg10_a_fresh, rseg10_b_fresh⟩)
theorem rseg10_keeps : KeepsArgs (F := F) rseg10 :=
  (rseg10_a_keeps.append rseg10_b_keeps)

theorem refOps_sub : (refOps : List (HloOp τ sig (Elt F))).Forall fun op => op.bufs ⊆ tcRefs τ sig :=
  (List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨rseg0_sub, rseg1_sub⟩), rseg2_sub⟩), rseg3_sub⟩), rseg4_sub⟩), rseg5_sub⟩), rseg6_sub⟩), rseg7_sub⟩), rseg8_sub⟩), rseg9_sub⟩), rseg10_sub⟩)
theorem refOps_fresh : (refOps : List (HloOp τ sig (Elt F))).Forall fun op => op.fresh = ∅ :=
  (List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨rseg0_fresh, rseg1_fresh⟩), rseg2_fresh⟩), rseg3_fresh⟩), rseg4_fresh⟩), rseg5_fresh⟩), rseg6_fresh⟩), rseg7_fresh⟩), rseg8_fresh⟩), rseg9_fresh⟩), rseg10_fresh⟩)
theorem refOps_keeps : KeepsArgs (F := F) refOps :=
  ((((((((((rseg0_keeps.append rseg1_keeps).append rseg2_keeps).append rseg3_keeps).append rseg4_keeps).append rseg5_keeps).append rseg6_keeps).append rseg7_keeps).append rseg8_keeps).append rseg9_keeps).append rseg10_keeps)

/-! ## @main is the line -/

set_option maxRecDepth 16384 in
set_option maxHeartbeats 40000000 in
/-- Window 0 of @main is its stretch of the line: the outlined functions unfolded at their calls and the
    records at their fields, both sides are one chain of `hlo` steps once sequencing is reassociated. -/
theorem main_part0_eq (c : Dev nD) : main_part0 (F := F) c = seq (rseg0_a ++ rseg0_b ++ rseg1_a) := by
  simp only [main_part0, fn_where.body, fn_where_0.body, fn_where_1.body, fn_elu.body, fn_take_along_axis.body, fn_where_2.body, fn_take_along_axis_3.body, seq_append, seq, bind_assoc, pure_bind]
  rfl
set_option maxRecDepth 16384 in
set_option maxHeartbeats 40000000 in
/-- Window 1 of @main is its stretch of the line: the outlined functions unfolded at their calls and the
    records at their fields, both sides are one chain of `hlo` steps once sequencing is reassociated. -/
theorem main_part1_eq (c : Dev nD) : main_part1 (F := F) c = seq (rseg1_b ++ rseg1_c) := by
  simp only [main_part1, fn_where.body, fn_where_0.body, fn_where_1.body, fn_elu.body, fn_take_along_axis.body, fn_where_2.body, fn_take_along_axis_3.body, seq_append, seq, bind_assoc, pure_bind]
  rfl
set_option maxRecDepth 16384 in
set_option maxHeartbeats 40000000 in
/-- Window 2 of @main is its stretch of the line: the outlined functions unfolded at their calls and the
    records at their fields, both sides are one chain of `hlo` steps once sequencing is reassociated. -/
theorem main_part2_eq (c : Dev nD) : main_part2 (F := F) c = seq (rseg1_d ++ rseg2_a ++ rseg2_b) := by
  simp only [main_part2, fn_where.body, fn_where_0.body, fn_where_1.body, fn_elu.body, fn_take_along_axis.body, fn_where_2.body, fn_take_along_axis_3.body, seq_append, seq, bind_assoc, pure_bind]
  rfl
set_option maxRecDepth 16384 in
set_option maxHeartbeats 40000000 in
/-- Window 3 of @main is its stretch of the line: the outlined functions unfolded at their calls and the
    records at their fields, both sides are one chain of `hlo` steps once sequencing is reassociated. -/
theorem main_part3_eq (c : Dev nD) : main_part3 (F := F) c = seq (rseg2_c ++ rseg3_a ++ rseg3_b) := by
  simp only [main_part3, fn_where.body, fn_where_0.body, fn_where_1.body, fn_elu.body, fn_take_along_axis.body, fn_where_2.body, fn_take_along_axis_3.body, seq_append, seq, bind_assoc, pure_bind]
  rfl
set_option maxRecDepth 16384 in
set_option maxHeartbeats 40000000 in
/-- Window 4 of @main is its stretch of the line: the outlined functions unfolded at their calls and the
    records at their fields, both sides are one chain of `hlo` steps once sequencing is reassociated. -/
theorem main_part4_eq (c : Dev nD) : main_part4 (F := F) c = seq (rseg3_c ++ rseg3_d ++ rseg4_a ++ rseg4_b) := by
  simp only [main_part4, fn_where.body, fn_where_0.body, fn_where_1.body, fn_elu.body, fn_take_along_axis.body, fn_where_2.body, fn_take_along_axis_3.body, seq_append, seq, bind_assoc, pure_bind]
  rfl
set_option maxRecDepth 16384 in
set_option maxHeartbeats 40000000 in
/-- Window 5 of @main is its stretch of the line: the outlined functions unfolded at their calls and the
    records at their fields, both sides are one chain of `hlo` steps once sequencing is reassociated. -/
theorem main_part5_eq (c : Dev nD) : main_part5 (F := F) c = seq (rseg4_c ++ rseg4_d ++ rseg5_a) := by
  simp only [main_part5, fn_where.body, fn_where_0.body, fn_where_1.body, fn_elu.body, fn_take_along_axis.body, fn_where_2.body, fn_take_along_axis_3.body, seq_append, seq, bind_assoc, pure_bind]
  rfl
set_option maxRecDepth 16384 in
set_option maxHeartbeats 40000000 in
/-- Window 6 of @main is its stretch of the line: the outlined functions unfolded at their calls and the
    records at their fields, both sides are one chain of `hlo` steps once sequencing is reassociated. -/
theorem main_part6_eq (c : Dev nD) : main_part6 (F := F) c = seq (rseg5_b ++ rseg5_c ++ rseg6_a) := by
  simp only [main_part6, fn_where.body, fn_where_0.body, fn_where_1.body, fn_elu.body, fn_take_along_axis.body, fn_where_2.body, fn_take_along_axis_3.body, seq_append, seq, bind_assoc, pure_bind]
  rfl
set_option maxRecDepth 16384 in
set_option maxHeartbeats 40000000 in
/-- Window 7 of @main is its stretch of the line: the outlined functions unfolded at their calls and the
    records at their fields, both sides are one chain of `hlo` steps once sequencing is reassociated. -/
theorem main_part7_eq (c : Dev nD) : main_part7 (F := F) c = seq (rseg6_b ++ rseg6_c ++ rseg6_d) := by
  simp only [main_part7, fn_where.body, fn_where_0.body, fn_where_1.body, fn_elu.body, fn_take_along_axis.body, fn_where_2.body, fn_take_along_axis_3.body, seq_append, seq, bind_assoc, pure_bind]
  rfl
set_option maxRecDepth 16384 in
set_option maxHeartbeats 40000000 in
/-- Window 8 of @main is its stretch of the line: the outlined functions unfolded at their calls and the
    records at their fields, both sides are one chain of `hlo` steps once sequencing is reassociated. -/
theorem main_part8_eq (c : Dev nD) : main_part8 (F := F) c = seq (rseg6_e ++ rseg7_a ++ rseg7_b) := by
  simp only [main_part8, fn_where.body, fn_where_0.body, fn_where_1.body, fn_elu.body, fn_take_along_axis.body, fn_where_2.body, fn_take_along_axis_3.body, seq_append, seq, bind_assoc, pure_bind]
  rfl
set_option maxRecDepth 16384 in
set_option maxHeartbeats 40000000 in
/-- Window 9 of @main is its stretch of the line: the outlined functions unfolded at their calls and the
    records at their fields, both sides are one chain of `hlo` steps once sequencing is reassociated. -/
theorem main_part9_eq (c : Dev nD) : main_part9 (F := F) c = seq (rseg7_c ++ rseg8_a ++ rseg8_b) := by
  simp only [main_part9, fn_where.body, fn_where_0.body, fn_where_1.body, fn_elu.body, fn_take_along_axis.body, fn_where_2.body, fn_take_along_axis_3.body, seq_append, seq, bind_assoc, pure_bind]
  rfl
set_option maxRecDepth 16384 in
set_option maxHeartbeats 40000000 in
/-- Window 10 of @main is its stretch of the line: the outlined functions unfolded at their calls and the
    records at their fields, both sides are one chain of `hlo` steps once sequencing is reassociated. -/
theorem main_part10_eq (c : Dev nD) : main_part10 (F := F) c = seq (rseg8_c ++ rseg8_d ++ rseg9_a ++ rseg9_b) := by
  simp only [main_part10, fn_where.body, fn_where_0.body, fn_where_1.body, fn_elu.body, fn_take_along_axis.body, fn_where_2.body, fn_take_along_axis_3.body, seq_append, seq, bind_assoc, pure_bind]
  rfl
set_option maxRecDepth 16384 in
set_option maxHeartbeats 40000000 in
/-- Window 11 of @main is its stretch of the line: the outlined functions unfolded at their calls and the
    records at their fields, both sides are one chain of `hlo` steps once sequencing is reassociated. -/
theorem main_part11_eq (c : Dev nD) : main_part11 (F := F) c = seq (rseg9_c ++ rseg9_d ++ rseg10_a) := by
  simp only [main_part11, fn_where.body, fn_where_0.body, fn_where_1.body, fn_elu.body, fn_take_along_axis.body, fn_where_2.body, fn_take_along_axis_3.body, seq_append, seq, bind_assoc, pure_bind]
  rfl
set_option maxRecDepth 16384 in
set_option maxHeartbeats 40000000 in
/-- Window 12 of @main is its stretch of the line: the outlined functions unfolded at their calls and the
    records at their fields, both sides are one chain of `hlo` steps once sequencing is reassociated. -/
theorem main_part12_eq (c : Dev nD) : main_part12 (F := F) c = seq (rseg10_b) := by
  simp only [main_part12, fn_where.body, fn_where_0.body, fn_where_1.body, fn_elu.body, fn_take_along_axis.body, fn_where_2.body, fn_take_along_axis_3.body, seq_append, seq, bind_assoc, pure_bind]

set_option maxRecDepth 16384 in
/-- @main runs its windows in order, each its stretch of the line; the stretches and the segments are the same
    short lists in the same order, differently bracketed (`seq_append`, `bind_assoc`). -/
theorem main_eq (c : Dev nD) : main (F := F) c = seq refOps := by
  simp only [main, main_part0_eq, main_part1_eq, main_part2_eq, main_part3_eq, main_part4_eq, main_part5_eq, main_part6_eq, main_part7_eq, main_part8_eq, main_part9_eq, main_part10_eq, main_part11_eq, main_part12_eq,
    refOps, rseg0, rseg1, rseg2, rseg3, rseg4, rseg5, rseg6, rseg7, rseg8, rseg9, rseg10, seq_append, bind_assoc]

set_option maxRecDepth 16384 in
theorem scopedRefs_eq : (Finset.univ.filter fun b : Ref sig .tc => b.isScoped) = ∅ := by decide
set_option maxRecDepth 16384 in
theorem scopedSems_eq : (Finset.univ.filter fun sm : SemLoc sig => sm.isScoped .tc) = ∅ := by decide

/-- At the compiled mesh, for any float values, from any memory with zero counters: every weakly fair execution of
    @main on the TensorCores terminates, and every final state has each TensorCore buffer at the fold of the
    line's operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after refOps (launchContents m c) (Proc.devRef .tc b) :=
  run_seq scopedRefs_eq scopedSems_eq defs main (fun _ => refOps) main_eq (fun _ => refOps_sub) m ρ
    (fun _ op h => List.forall_iff_forall_mem.mp refOps_fresh op h)

/-! ## No operation writes an argument -/

theorem refOps_keep_arg0 (V : Valuation τ sig (Elt F)) : after refOps V (Proc.devRef .tc main_arg0) = V (Proc.devRef .tc main_arg0) :=
  refOps_keeps main_arg0 (by decide) V
theorem refOps_keep_arg1 (V : Valuation τ sig (Elt F)) : after refOps V (Proc.devRef .tc main_arg1) = V (Proc.devRef .tc main_arg1) :=
  refOps_keeps main_arg1 (by decide) V
theorem refOps_keep_arg2 (V : Valuation τ sig (Elt F)) : after refOps V (Proc.devRef .tc main_arg2) = V (Proc.devRef .tc main_arg2) :=
  refOps_keeps main_arg2 (by decide) V
theorem refOps_keep_arg3 (V : Valuation τ sig (Elt F)) : after refOps V (Proc.devRef .tc main_arg3) = V (Proc.devRef .tc main_arg3) :=
  refOps_keeps main_arg3 (by decide) V
theorem refOps_keep_arg4 (V : Valuation τ sig (Elt F)) : after refOps V (Proc.devRef .tc main_arg4) = V (Proc.devRef .tc main_arg4) :=
  refOps_keeps main_arg4 (by decide) V
theorem refOps_keep_arg5 (V : Valuation τ sig (Elt F)) : after refOps V (Proc.devRef .tc main_arg5) = V (Proc.devRef .tc main_arg5) :=
  refOps_keeps main_arg5 (by decide) V
theorem refOps_keep_arg6 (V : Valuation τ sig (Elt F)) : after refOps V (Proc.devRef .tc main_arg6) = V (Proc.devRef .tc main_arg6) :=
  refOps_keeps main_arg6 (by decide) V

end Cert.ReferenceIdeal.RefRun

end
-- ==== Proof.RefFrame.lean ====
/- The reference's frame claim. From any memory with zero counters every weakly fair execution of the reference's
   @main terminates with every buffer at the fold of its line of operations over the launch contents (`run_main`);
   no operation of the line writes one of @main's seven arguments (`refOps_keep_arg0` … `refOps_keep_arg6`), so at
   each argument the fold is the launch contents, which at device `c` and buffer `b` are `m (c, b)` by definition. -/
import proofs.«140670_j11424613007642_1_alg».proof.Proof.RefRun
import proofs.«140670_j11424613007642_1_alg».proof.Defs
import proofs.«140670_j11424613007642_1_alg».proof.Proof.Gen.Pre_finite_inputs

noncomputable section

namespace Cert.ReferenceIdeal.RefFrame

open Cert.ReferenceIdeal Cert.ReferenceIdeal.Gen Cert.ReferenceIdeal.RefRun Idealize.ShloMosaic Idealize.ShloMosaic.TcCoe
  Idealize.SL.Sem Idealize.ShloMosaic.StableHlo

/-- Every weakly fair execution of the reference's @main terminates with its seven arguments as launched: the run
    of the line read at the arguments, the precondition unused. -/
theorem frame : Cert.frame_ReferenceIdeal (hReferenceIdeal := Cert.ReferenceIdeal.Gen.facts)
    (hPre_finite_inputs := Cert.Pre_finite_inputs.Gen.facts) :=
  fun m ρ _ => (θ_run (Cert.ReferenceIdeal.defs (F := Ideal)) _ _).mono
    (fun _ h c =>
     ⟨(h c main_arg0).trans (refOps_keep_arg0 _),
      (h c main_arg1).trans (refOps_keep_arg1 _),
      (h c main_arg2).trans (refOps_keep_arg2 _),
      (h c main_arg3).trans (refOps_keep_arg3 _),
      (h c main_arg4).trans (refOps_keep_arg4 _),
      (h c main_arg5).trans (refOps_keep_arg5 _),
      (h c main_arg6).trans (refOps_keep_arg6 _)⟩)
    (run_main m ρ)

end Cert.ReferenceIdeal.RefFrame

end
-- ==== Proof.BridgeDefs.lean ====
/- The relation carried from layer to layer between the two programs' buffer contents. After layer k's perceptron
  output both programs hold, in differently numbered buffers, the same eleven values: the perceptron output, this
  layer's gather indices, the half about to be rescaled, the half just scattered, the running log-density, the two
  index halves and the four weight arguments. InvK says there are eleven values that both sets of buffers hold.
-/
import proofs.«140670_j11424613007642_1_alg».proof.Proof.Gen.KernelIdeal.Launch
import proofs.«140670_j11424613007642_1_alg».proof.Proof.Gen.ReferenceIdeal
import Idealize.ShloMosaic.Lib.StableHlo.Run
import Idealize.ShloMosaic.PureOps.Ideal

noncomputable section

namespace Cert.Bridge

open Idealize.ShloMosaic Idealize.ShloMosaic.StableHlo Idealize.ShloMosaic.TcCoe

/-- Buffer contents of the kernel program's TensorCore, and of the reference's. -/
abbrev KV := Valuation Cert.KernelIdeal.τ Cert.KernelIdeal.sig (Elt Ideal)
abbrev RV := Valuation Cert.ReferenceIdeal.τ Cert.ReferenceIdeal.sig (Elt Ideal)

/-- After layer 0's perceptron output: eleven values that the kernel program's buffers and the reference's both hold. -/
def Inv0 (V : KV) (V' : RV) : Prop :=
  ∃ (out : (⟨Cert.KernelIdeal.S4096x4000, .f32⟩ : BufTy).Contents (Elt Ideal))
    (oidx : (⟨Cert.KernelIdeal.S4096x128, .i32⟩ : BufTy).Contents (Elt Ideal))
    (a : (⟨Cert.KernelIdeal.S4096x64, .f32⟩ : BufTy).Contents (Elt Ideal))
    (b : (⟨Cert.KernelIdeal.S4096x61, .f32⟩ : BufTy).Contents (Elt Ideal))
    (q : (⟨Cert.KernelIdeal.S4096, .f32⟩ : BufTy).Contents (Elt Ideal))
    (ia : (⟨Cert.KernelIdeal.S4096x64, .i32⟩ : BufTy).Contents (Elt Ideal))
    (ib : (⟨Cert.KernelIdeal.S4096x61, .i32⟩ : BufTy).Contents (Elt Ideal))
    (w1s : (⟨Cert.KernelIdeal.S10x2000x64, .f32⟩ : BufTy).Contents (Elt Ideal))
    (b1s : (⟨Cert.KernelIdeal.S10x64, .f32⟩ : BufTy).Contents (Elt Ideal))
    (w2s : (⟨Cert.KernelIdeal.S10x64x4000, .f32⟩ : BufTy).Contents (Elt Ideal))
    (b2s : (⟨Cert.KernelIdeal.S10x4000, .f32⟩ : BufTy).Contents (Elt Ideal)),
    (V (Proc.devRef .tc Cert.KernelIdeal.main_v39) = out ∧ V' (Proc.devRef .tc Cert.ReferenceIdeal.main_v45) = out)
    ∧ (V (Proc.devRef .tc Cert.KernelIdeal.main_v9) = oidx ∧ V' (Proc.devRef .tc Cert.ReferenceIdeal.main_v9) = oidx)
    ∧ (V (Proc.devRef .tc Cert.KernelIdeal.main_v0) = a ∧ V' (Proc.devRef .tc Cert.ReferenceIdeal.main_v0) = a)
    ∧ (V (Proc.devRef .tc Cert.KernelIdeal.main_v1) = b ∧ V' (Proc.devRef .tc Cert.ReferenceIdeal.main_v1) = b)
    ∧ (V (Proc.devRef .tc Cert.KernelIdeal.main_arg1) = q ∧ V' (Proc.devRef .tc Cert.ReferenceIdeal.main_arg1) = q)
    ∧ (V (Proc.devRef .tc Cert.KernelIdeal.main_v2) = ia ∧ V' (Proc.devRef .tc Cert.ReferenceIdeal.main_v2) = ia)
    ∧ (V (Proc.devRef .tc Cert.KernelIdeal.main_v3) = ib ∧ V' (Proc.devRef .tc Cert.ReferenceIdeal.main_v3) = ib)
    ∧ (V (Proc.devRef .tc Cert.KernelIdeal.main_arg2) = w1s ∧ V' (Proc.devRef .tc Cert.ReferenceIdeal.main_arg2) = w1s)
    ∧ (V (Proc.devRef .tc Cert.KernelIdeal.main_arg3) = b1s ∧ V' (Proc.devRef .tc Cert.ReferenceIdeal.main_arg3) = b1s)
    ∧ (V (Proc.devRef .tc Cert.KernelIdeal.main_arg4) = w2s ∧ V' (Proc.devRef .tc Cert.ReferenceIdeal.main_arg4) = w2s)
    ∧ (V (Proc.devRef .tc Cert.KernelIdeal.main_arg5) = b2s ∧ V' (Proc.devRef .tc Cert.ReferenceIdeal.main_arg5) = b2s)

/-- After layer 1's perceptron output: eleven values that the kernel program's buffers and the reference's both hold. -/
def Inv1 (V : KV) (V' : RV) : Prop :=
  ∃ (out : (⟨Cert.KernelIdeal.S4096x4000, .f32⟩ : BufTy).Contents (Elt Ideal))
    (oidx : (⟨Cert.KernelIdeal.S4096x122, .i32⟩ : BufTy).Contents (Elt Ideal))
    (a : (⟨Cert.KernelIdeal.S4096x61, .f32⟩ : BufTy).Contents (Elt Ideal))
    (b : (⟨Cert.KernelIdeal.S4096x64, .f32⟩ : BufTy).Contents (Elt Ideal))
    (q : (⟨Cert.KernelIdeal.S4096, .f32⟩ : BufTy).Contents (Elt Ideal))
    (ia : (⟨Cert.KernelIdeal.S4096x64, .i32⟩ : BufTy).Contents (Elt Ideal))
    (ib : (⟨Cert.KernelIdeal.S4096x61, .i32⟩ : BufTy).Contents (Elt Ideal))
    (w1s : (⟨Cert.KernelIdeal.S10x2000x64, .f32⟩ : BufTy).Contents (Elt Ideal))
    (b1s : (⟨Cert.KernelIdeal.S10x64, .f32⟩ : BufTy).Contents (Elt Ideal))
    (w2s : (⟨Cert.KernelIdeal.S10x64x4000, .f32⟩ : BufTy).Contents (Elt Ideal))
    (b2s : (⟨Cert.KernelIdeal.S10x4000, .f32⟩ : BufTy).Contents (Elt Ideal)),
    (V (Proc.devRef .tc Cert.KernelIdeal.main_v93) = out ∧ V' (Proc.devRef .tc Cert.ReferenceIdeal.main_v105) = out)
    ∧ (V (Proc.devRef .tc Cert.KernelIdeal.main_v63) = oidx ∧ V' (Proc.devRef .tc Cert.ReferenceIdeal.main_v69) = oidx)
    ∧ (V (Proc.devRef .tc Cert.KernelIdeal.main_v1) = a ∧ V' (Proc.devRef .tc Cert.ReferenceIdeal.main_v1) = a)
    ∧ (V (Proc.devRef .tc Cert.KernelIdeal.main_v54) = b ∧ V' (Proc.devRef .tc Cert.ReferenceIdeal.main_v60) = b)
    ∧ (V (Proc.devRef .tc Cert.KernelIdeal.main_v57) = q ∧ V' (Proc.devRef .tc Cert.ReferenceIdeal.main_v63) = q)
    ∧ (V (Proc.devRef .tc Cert.KernelIdeal.main_v2) = ia ∧ V' (Proc.devRef .tc Cert.ReferenceIdeal.main_v2) = ia)
    ∧ (V (Proc.devRef .tc Cert.KernelIdeal.main_v3) = ib ∧ V' (Proc.devRef .tc Cert.ReferenceIdeal.main_v3) = ib)
    ∧ (V (Proc.devRef .tc Cert.KernelIdeal.main_arg2) = w1s ∧ V' (Proc.devRef .tc Cert.ReferenceIdeal.main_arg2) = w1s)
    ∧ (V (Proc.devRef .tc Cert.KernelIdeal.main_arg3) = b1s ∧ V' (Proc.devRef .tc Cert.ReferenceIdeal.main_arg3) = b1s)
    ∧ (V (Proc.devRef .tc Cert.KernelIdeal.main_arg4) = w2s ∧ V' (Proc.devRef .tc Cert.ReferenceIdeal.main_arg4) = w2s)
    ∧ (V (Proc.devRef .tc Cert.KernelIdeal.main_arg5) = b2s ∧ V' (Proc.devRef .tc Cert.ReferenceIdeal.main_arg5) = b2s)

/-- After layer 2's perceptron output: eleven values that the kernel program's buffers and the reference's both hold. -/
def Inv2 (V : KV) (V' : RV) : Prop :=
  ∃ (out : (⟨Cert.KernelIdeal.S4096x4000, .f32⟩ : BufTy).Contents (Elt Ideal))
    (oidx : (⟨Cert.KernelIdeal.S4096x128, .i32⟩ : BufTy).Contents (Elt Ideal))
    (a : (⟨Cert.KernelIdeal.S4096x64, .f32⟩ : BufTy).Contents (Elt Ideal))
    (b : (⟨Cert.KernelIdeal.S4096x61, .f32⟩ : BufTy).Contents (Elt Ideal))
    (q : (⟨Cert.KernelIdeal.S4096, .f32⟩ : BufTy).Contents (Elt Ideal))
    (ia : (⟨Cert.KernelIdeal.S4096x64, .i32⟩ : BufTy).Contents (Elt Ideal))
    (ib : (⟨Cert.KernelIdeal.S4096x61, .i32⟩ : BufTy).Contents (Elt Ideal))
    (w1s : (⟨Cert.KernelIdeal.S10x2000x64, .f32⟩ : BufTy).Contents (Elt Ideal))
    (b1s : (⟨Cert.KernelIdeal.S10x64, .f32⟩ : BufTy).Contents (Elt Ideal))
    (w2s : (⟨Cert.KernelIdeal.S10x64x4000, .f32⟩ : BufTy).Contents (Elt Ideal))
    (b2s : (⟨Cert.KernelIdeal.S10x4000, .f32⟩ : BufTy).Contents (Elt Ideal)),
    (V (Proc.devRef .tc Cert.KernelIdeal.main_v147) = out ∧ V' (Proc.devRef .tc Cert.ReferenceIdeal.main_v165) = out)
    ∧ (V (Proc.devRef .tc Cert.KernelIdeal.main_v117) = oidx ∧ V' (Proc.devRef .tc Cert.ReferenceIdeal.main_v129) = oidx)
    ∧ (V (Proc.devRef .tc Cert.KernelIdeal.main_v54) = a ∧ V' (Proc.devRef .tc Cert.ReferenceIdeal.main_v60) = a)
    ∧ (V (Proc.devRef .tc Cert.KernelIdeal.main_v108) = b ∧ V' (Proc.devRef .tc Cert.ReferenceIdeal.main_v120) = b)
    ∧ (V (Proc.devRef .tc Cert.KernelIdeal.main_v111) = q ∧ V' (Proc.devRef .tc Cert.ReferenceIdeal.main_v123) = q)
    ∧ (V (Proc.devRef .tc Cert.KernelIdeal.main_v2) = ia ∧ V' (Proc.devRef .tc Cert.ReferenceIdeal.main_v2) = ia)
    ∧ (V (Proc.devRef .tc Cert.KernelIdeal.main_v3) = ib ∧ V' (Proc.devRef .tc Cert.ReferenceIdeal.main_v3) = ib)
    ∧ (V (Proc.devRef .tc Cert.KernelIdeal.main_arg2) = w1s ∧ V' (Proc.devRef .tc Cert.ReferenceIdeal.main_arg2) = w1s)
    ∧ (V (Proc.devRef .tc Cert.KernelIdeal.main_arg3) = b1s ∧ V' (Proc.devRef .tc Cert.ReferenceIdeal.main_arg3) = b1s)
    ∧ (V (Proc.devRef .tc Cert.KernelIdeal.main_arg4) = w2s ∧ V' (Proc.devRef .tc Cert.ReferenceIdeal.main_arg4) = w2s)
    ∧ (V (Proc.devRef .tc Cert.KernelIdeal.main_arg5) = b2s ∧ V' (Proc.devRef .tc Cert.ReferenceIdeal.main_arg5) = b2s)

/-- After layer 3's perceptron output: eleven values that the kernel program's buffers and the reference's both hold. -/
def Inv3 (V : KV) (V' : RV) : Prop :=
  ∃ (out : (⟨Cert.KernelIdeal.S4096x4000, .f32⟩ : BufTy).Contents (Elt Ideal))
    (oidx : (⟨Cert.KernelIdeal.S4096x122, .i32⟩ : BufTy).Contents (Elt Ideal))
    (a : (⟨Cert.KernelIdeal.S4096x61, .f32⟩ : BufTy).Contents (Elt Ideal))
    (b : (⟨Cert.KernelIdeal.S4096x64, .f32⟩ : BufTy).Contents (Elt Ideal))
    (q : (⟨Cert.KernelIdeal.S4096, .f32⟩ : BufTy).Contents (Elt Ideal))
    (ia : (⟨Cert.KernelIdeal.S4096x64, .i32⟩ : BufTy).Contents (Elt Ideal))
    (ib : (⟨Cert.KernelIdeal.S4096x61, .i32⟩ : BufTy).Contents (Elt Ideal))
    (w1s : (⟨Cert.KernelIdeal.S10x2000x64, .f32⟩ : BufTy).Contents (Elt Ideal))
    (b1s : (⟨Cert.KernelIdeal.S10x64, .f32⟩ : BufTy).Contents (Elt Ideal))
    (w2s : (⟨Cert.KernelIdeal.S10x64x4000, .f32⟩ : BufTy).Contents (Elt Ideal))
    (b2s : (⟨Cert.KernelIdeal.S10x4000, .f32⟩ : BufTy).Contents (Elt Ideal)),
    (V (Proc.devRef .tc Cert.KernelIdeal.main_v201) = out ∧ V' (Proc.devRef .tc Cert.ReferenceIdeal.main_v225) = out)
    ∧ (V (Proc.devRef .tc Cert.KernelIdeal.main_v171) = oidx ∧ V' (Proc.devRef .tc Cert.ReferenceIdeal.main_v189) = oidx)
    ∧ (V (Proc.devRef .tc Cert.KernelIdeal.main_v108) = a ∧ V' (Proc.devRef .tc Cert.ReferenceIdeal.main_v120) = a)
    ∧ (V (Proc.devRef .tc Cert.KernelIdeal.main_v162) = b ∧ V' (Proc.devRef .tc Cert.ReferenceIdeal.main_v180) = b)
    ∧ (V (Proc.devRef .tc Cert.KernelIdeal.main_v165) = q ∧ V' (Proc.devRef .tc Cert.ReferenceIdeal.main_v183) = q)
    ∧ (V (Proc.devRef .tc Cert.KernelIdeal.main_v2) = ia ∧ V' (Proc.devRef .tc Cert.ReferenceIdeal.main_v2) = ia)
    ∧ (V (Proc.devRef .tc Cert.KernelIdeal.main_v3) = ib ∧ V' (Proc.devRef .tc Cert.ReferenceIdeal.main_v3) = ib)
    ∧ (V (Proc.devRef .tc Cert.KernelIdeal.main_arg2) = w1s ∧ V' (Proc.devRef .tc Cert.ReferenceIdeal.main_arg2) = w1s)
    ∧ (V (Proc.devRef .tc Cert.KernelIdeal.main_arg3) = b1s ∧ V' (Proc.devRef .tc Cert.ReferenceIdeal.main_arg3) = b1s)
    ∧ (V (Proc.devRef .tc Cert.KernelIdeal.main_arg4) = w2s ∧ V' (Proc.devRef .tc Cert.ReferenceIdeal.main_arg4) = w2s)
    ∧ (V (Proc.devRef .tc Cert.KernelIdeal.main_arg5) = b2s ∧ V' (Proc.devRef .tc Cert.ReferenceIdeal.main_arg5) = b2s)

/-- After layer 4's perceptron output: eleven values that the kernel program's buffers and the reference's both hold. -/
def Inv4 (V : KV) (V' : RV) : Prop :=
  ∃ (out : (⟨Cert.KernelIdeal.S4096x4000, .f32⟩ : BufTy).Contents (Elt Ideal))
    (oidx : (⟨Cert.KernelIdeal.S4096x128, .i32⟩ : BufTy).Contents (Elt Ideal))
    (a : (⟨Cert.KernelIdeal.S4096x64, .f32⟩ : BufTy).Contents (Elt Ideal))
    (b : (⟨Cert.KernelIdeal.S4096x61, .f32⟩ : BufTy).Contents (Elt Ideal))
    (q : (⟨Cert.KernelIdeal.S4096, .f32⟩ : BufTy).Contents (Elt Ideal))
    (ia : (⟨Cert.KernelIdeal.S4096x64, .i32⟩ : BufTy).Contents (Elt Ideal))
    (ib : (⟨Cert.KernelIdeal.S4096x61, .i32⟩ : BufTy).Contents (Elt Ideal))
    (w1s : (⟨Cert.KernelIdeal.S10x2000x64, .f32⟩ : BufTy).Contents (Elt Ideal))
    (b1s : (⟨Cert.KernelIdeal.S10x64, .f32⟩ : BufTy).Contents (Elt Ideal))
    (w2s : (⟨Cert.KernelIdeal.S10x64x4000, .f32⟩ : BufTy).Contents (Elt Ideal))
    (b2s : (⟨Cert.KernelIdeal.S10x4000, .f32⟩ : BufTy).Contents (Elt Ideal)),
    (V (Proc.devRef .tc Cert.KernelIdeal.main_v255) = out ∧ V' (Proc.devRef .tc Cert.ReferenceIdeal.main_v285) = out)
    ∧ (V (Proc.devRef .tc Cert.KernelIdeal.main_v225) = oidx ∧ V' (Proc.devRef .tc Cert.ReferenceIdeal.main_v249) = oidx)
    ∧ (V (Proc.devRef .tc Cert.KernelIdeal.main_v162) = a ∧ V' (Proc.devRef .tc Cert.ReferenceIdeal.main_v180) = a)
    ∧ (V (Proc.devRef .tc Cert.KernelIdeal.main_v216) = b ∧ V' (Proc.devRef .tc Cert.ReferenceIdeal.main_v240) = b)
    ∧ (V (Proc.devRef .tc Cert.KernelIdeal.main_v219) = q ∧ V' (Proc.devRef .tc Cert.ReferenceIdeal.main_v243) = q)
    ∧ (V (Proc.devRef .tc Cert.KernelIdeal.main_v2) = ia ∧ V' (Proc.devRef .tc Cert.ReferenceIdeal.main_v2) = ia)
    ∧ (V (Proc.devRef .tc Cert.KernelIdeal.main_v3) = ib ∧ V' (Proc.devRef .tc Cert.ReferenceIdeal.main_v3) = ib)
    ∧ (V (Proc.devRef .tc Cert.KernelIdeal.main_arg2) = w1s ∧ V' (Proc.devRef .tc Cert.ReferenceIdeal.main_arg2) = w1s)
    ∧ (V (Proc.devRef .tc Cert.KernelIdeal.main_arg3) = b1s ∧ V' (Proc.devRef .tc Cert.ReferenceIdeal.main_arg3) = b1s)
    ∧ (V (Proc.devRef .tc Cert.KernelIdeal.main_arg4) = w2s ∧ V' (Proc.devRef .tc Cert.ReferenceIdeal.main_arg4) = w2s)
    ∧ (V (Proc.devRef .tc Cert.KernelIdeal.main_arg5) = b2s ∧ V' (Proc.devRef .tc Cert.ReferenceIdeal.main_arg5) = b2s)

/-- After layer 5's perceptron output: eleven values that the kernel program's buffers and the reference's both hold. -/
def Inv5 (V : KV) (V' : RV) : Prop :=
  ∃ (out : (⟨Cert.KernelIdeal.S4096x4000, .f32⟩ : BufTy).Contents (Elt Ideal))
    (oidx : (⟨Cert.KernelIdeal.S4096x122, .i32⟩ : BufTy).Contents (Elt Ideal))
    (a : (⟨Cert.KernelIdeal.S4096x61, .f32⟩ : BufTy).Contents (Elt Ideal))
    (b : (⟨Cert.KernelIdeal.S4096x64, .f32⟩ : BufTy).Contents (Elt Ideal))
    (q : (⟨Cert.KernelIdeal.S4096, .f32⟩ : BufTy).Contents (Elt Ideal))
    (ia : (⟨Cert.KernelIdeal.S4096x64, .i32⟩ : BufTy).Contents (Elt Ideal))
    (ib : (⟨Cert.KernelIdeal.S4096x61, .i32⟩ : BufTy).Contents (Elt Ideal))
    (w1s : (⟨Cert.KernelIdeal.S10x2000x64, .f32⟩ : BufTy).Contents (Elt Ideal))
    (b1s : (⟨Cert.KernelIdeal.S10x64, .f32⟩ : BufTy).Contents (Elt Ideal))
    (w2s : (⟨Cert.KernelIdeal.S10x64x4000, .f32⟩ : BufTy).Contents (Elt Ideal))
    (b2s : (⟨Cert.KernelIdeal.S10x4000, .f32⟩ : BufTy).Contents (Elt Ideal)),
    (V (Proc.devRef .tc Cert.KernelIdeal.main_v309) = out ∧ V' (Proc.devRef .tc Cert.ReferenceIdeal.main_v345) = out)
    ∧ (V (Proc.devRef .tc Cert.KernelIdeal.main_v279) = oidx ∧ V' (Proc.devRef .tc Cert.ReferenceIdeal.main_v309) = oidx)
    ∧ (V (Proc.devRef .tc Cert.KernelIdeal.main_v216) = a ∧ V' (Proc.devRef .tc Cert.ReferenceIdeal.main_v240) = a)
    ∧ (V (Proc.devRef .tc Cert.KernelIdeal.main_v270) = b ∧ V' (Proc.devRef .tc Cert.ReferenceIdeal.main_v300) = b)
    ∧ (V (Proc.devRef .tc Cert.KernelIdeal.main_v273) = q ∧ V' (Proc.devRef .tc Cert.ReferenceIdeal.main_v303) = q)
    ∧ (V (Proc.devRef .tc Cert.KernelIdeal.main_v2) = ia ∧ V' (Proc.devRef .tc Cert.ReferenceIdeal.main_v2) = ia)
    ∧ (V (Proc.devRef .tc Cert.KernelIdeal.main_v3) = ib ∧ V' (Proc.devRef .tc Cert.ReferenceIdeal.main_v3) = ib)
    ∧ (V (Proc.devRef .tc Cert.KernelIdeal.main_arg2) = w1s ∧ V' (Proc.devRef .tc Cert.ReferenceIdeal.main_arg2) = w1s)
    ∧ (V (Proc.devRef .tc Cert.KernelIdeal.main_arg3) = b1s ∧ V' (Proc.devRef .tc Cert.ReferenceIdeal.main_arg3) = b1s)
    ∧ (V (Proc.devRef .tc Cert.KernelIdeal.main_arg4) = w2s ∧ V' (Proc.devRef .tc Cert.ReferenceIdeal.main_arg4) = w2s)
    ∧ (V (Proc.devRef .tc Cert.KernelIdeal.main_arg5) = b2s ∧ V' (Proc.devRef .tc Cert.ReferenceIdeal.main_arg5) = b2s)

/-- After layer 6's perceptron output: eleven values that the kernel program's buffers and the reference's both hold. -/
def Inv6 (V : KV) (V' : RV) : Prop :=
  ∃ (out : (⟨Cert.KernelIdeal.S4096x4000, .f32⟩ : BufTy).Contents (Elt Ideal))
    (oidx : (⟨Cert.KernelIdeal.S4096x128, .i32⟩ : BufTy).Contents (Elt Ideal))
    (a : (⟨Cert.KernelIdeal.S4096x64, .f32⟩ : BufTy).Contents (Elt Ideal))
    (b : (⟨Cert.KernelIdeal.S4096x61, .f32⟩ : BufTy).Contents (Elt Ideal))
    (q : (⟨Cert.KernelIdeal.S4096, .f32⟩ : BufTy).Contents (Elt Ideal))
    (ia : (⟨Cert.KernelIdeal.S4096x64, .i32⟩ : BufTy).Contents (Elt Ideal))
    (ib : (⟨Cert.KernelIdeal.S4096x61, .i32⟩ : BufTy).Contents (Elt Ideal))
    (w1s : (⟨Cert.KernelIdeal.S10x2000x64, .f32⟩ : BufTy).Contents (Elt Ideal))
    (b1s : (⟨Cert.KernelIdeal.S10x64, .f32⟩ : BufTy).Contents (Elt Ideal))
    (w2s : (⟨Cert.KernelIdeal.S10x64x4000, .f32⟩ : BufTy).Contents (Elt Ideal))
    (b2s : (⟨Cert.KernelIdeal.S10x4000, .f32⟩ : BufTy).Contents (Elt Ideal)),
    (V (Proc.devRef .tc Cert.KernelIdeal.main_v363) = out ∧ V' (Proc.devRef .tc Cert.ReferenceIdeal.main_v405) = out)
    ∧ (V (Proc.devRef .tc Cert.KernelIdeal.main_v333) = oidx ∧ V' (Proc.devRef .tc Cert.ReferenceIdeal.main_v369) = oidx)
    ∧ (V (Proc.devRef .tc Cert.KernelIdeal.main_v270) = a ∧ V' (Proc.devRef .tc Cert.ReferenceIdeal.main_v300) = a)
    ∧ (V (Proc.devRef .tc Cert.KernelIdeal.main_v324) = b ∧ V' (Proc.devRef .tc Cert.ReferenceIdeal.main_v360) = b)
    ∧ (V (Proc.devRef .tc Cert.KernelIdeal.main_v327) = q ∧ V' (Proc.devRef .tc Cert.ReferenceIdeal.main_v363) = q)
    ∧ (V (Proc.devRef .tc Cert.KernelIdeal.main_v2) = ia ∧ V' (Proc.devRef .tc Cert.ReferenceIdeal.main_v2) = ia)
    ∧ (V (Proc.devRef .tc Cert.KernelIdeal.main_v3) = ib ∧ V' (Proc.devRef .tc Cert.ReferenceIdeal.main_v3) = ib)
    ∧ (V (Proc.devRef .tc Cert.KernelIdeal.main_arg2) = w1s ∧ V' (Proc.devRef .tc Cert.ReferenceIdeal.main_arg2) = w1s)
    ∧ (V (Proc.devRef .tc Cert.KernelIdeal.main_arg3) = b1s ∧ V' (Proc.devRef .tc Cert.ReferenceIdeal.main_arg3) = b1s)
    ∧ (V (Proc.devRef .tc Cert.KernelIdeal.main_arg4) = w2s ∧ V' (Proc.devRef .tc Cert.ReferenceIdeal.main_arg4) = w2s)
    ∧ (V (Proc.devRef .tc Cert.KernelIdeal.main_arg5) = b2s ∧ V' (Proc.devRef .tc Cert.ReferenceIdeal.main_arg5) = b2s)

/-- After layer 7's perceptron output: eleven values that the kernel program's buffers and the reference's both hold. -/
def Inv7 (V : KV) (V' : RV) : Prop :=
  ∃ (out : (⟨Cert.KernelIdeal.S4096x4000, .f32⟩ : BufTy).Contents (Elt Ideal))
    (oidx : (⟨Cert.KernelIdeal.S4096x122, .i32⟩ : BufTy).Contents (Elt Ideal))
    (a : (⟨Cert.KernelIdeal.S4096x61, .f32⟩ : BufTy).Contents (Elt Ideal))
    (b : (⟨Cert.KernelIdeal.S4096x64, .f32⟩ : BufTy).Contents (Elt Ideal))
    (q : (⟨Cert.KernelIdeal.S4096, .f32⟩ : BufTy).Contents (Elt Ideal))
    (ia : (⟨Cert.KernelIdeal.S4096x64, .i32⟩ : BufTy).Contents (Elt Ideal))
    (ib : (⟨Cert.KernelIdeal.S4096x61, .i32⟩ : BufTy).Contents (Elt Ideal))
    (w1s : (⟨Cert.KernelIdeal.S10x2000x64, .f32⟩ : BufTy).Contents (Elt Ideal))
    (b1s : (⟨Cert.KernelIdeal.S10x64, .f32⟩ : BufTy).Contents (Elt Ideal))
    (w2s : (⟨Cert.KernelIdeal.S10x64x4000, .f32⟩ : BufTy).Contents (Elt Ideal))
    (b2s : (⟨Cert.KernelIdeal.S10x4000, .f32⟩ : BufTy).Contents (Elt Ideal)),
    (V (Proc.devRef .tc Cert.KernelIdeal.main_v417) = out ∧ V' (Proc.devRef .tc Cert.ReferenceIdeal.main_v465) = out)
    ∧ (V (Proc.devRef .tc Cert.KernelIdeal.main_v387) = oidx ∧ V' (Proc.devRef .tc Cert.ReferenceIdeal.main_v429) = oidx)
    ∧ (V (Proc.devRef .tc Cert.KernelIdeal.main_v324) = a ∧ V' (Proc.devRef .tc Cert.ReferenceIdeal.main_v360) = a)
    ∧ (V (Proc.devRef .tc Cert.KernelIdeal.main_v378) = b ∧ V' (Proc.devRef .tc Cert.ReferenceIdeal.main_v420) = b)
    ∧ (V (Proc.devRef .tc Cert.KernelIdeal.main_v381) = q ∧ V' (Proc.devRef .tc Cert.ReferenceIdeal.main_v423) = q)
    ∧ (V (Proc.devRef .tc Cert.KernelIdeal.main_v2) = ia ∧ V' (Proc.devRef .tc Cert.ReferenceIdeal.main_v2) = ia)
    ∧ (V (Proc.devRef .tc Cert.KernelIdeal.main_v3) = ib ∧ V' (Proc.devRef .tc Cert.ReferenceIdeal.main_v3) = ib)
    ∧ (V (Proc.devRef .tc Cert.KernelIdeal.main_arg2) = w1s ∧ V' (Proc.devRef .tc Cert.ReferenceIdeal.main_arg2) = w1s)
    ∧ (V (Proc.devRef .tc Cert.KernelIdeal.main_arg3) = b1s ∧ V' (Proc.devRef .tc Cert.ReferenceIdeal.main_arg3) = b1s)
    ∧ (V (Proc.devRef .tc Cert.KernelIdeal.main_arg4) = w2s ∧ V' (Proc.devRef .tc Cert.ReferenceIdeal.main_arg4) = w2s)
    ∧ (V (Proc.devRef .tc Cert.KernelIdeal.main_arg5) = b2s ∧ V' (Proc.devRef .tc Cert.ReferenceIdeal.main_arg5) = b2s)

/-- After layer 8's perceptron output: eleven values that the kernel program's buffers and the reference's both hold. -/
def Inv8 (V : KV) (V' : RV) : Prop :=
  ∃ (out : (⟨Cert.KernelIdeal.S4096x4000, .f32⟩ : BufTy).Contents (Elt Ideal))
    (oidx : (⟨Cert.KernelIdeal.S4096x128, .i32⟩ : BufTy).Contents (Elt Ideal))
    (a : (⟨Cert.KernelIdeal.S4096x64, .f32⟩ : BufTy).Contents (Elt Ideal))
    (b : (⟨Cert.KernelIdeal.S4096x61, .f32⟩ : BufTy).Contents (Elt Ideal))
    (q : (⟨Cert.KernelIdeal.S4096, .f32⟩ : BufTy).Contents (Elt Ideal))
    (ia : (⟨Cert.KernelIdeal.S4096x64, .i32⟩ : BufTy).Contents (Elt Ideal))
    (ib : (⟨Cert.KernelIdeal.S4096x61, .i32⟩ : BufTy).Contents (Elt Ideal))
    (w1s : (⟨Cert.KernelIdeal.S10x2000x64, .f32⟩ : BufTy).Contents (Elt Ideal))
    (b1s : (⟨Cert.KernelIdeal.S10x64, .f32⟩ : BufTy).Contents (Elt Ideal))
    (w2s : (⟨Cert.KernelIdeal.S10x64x4000, .f32⟩ : BufTy).Contents (Elt Ideal))
    (b2s : (⟨Cert.KernelIdeal.S10x4000, .f32⟩ : BufTy).Contents (Elt Ideal)),
    (V (Proc.devRef .tc Cert.KernelIdeal.main_v471) = out ∧ V' (Proc.devRef .tc Cert.ReferenceIdeal.main_v525) = out)
    ∧ (V (Proc.devRef .tc Cert.KernelIdeal.main_v441) = oidx ∧ V' (Proc.devRef .tc Cert.ReferenceIdeal.main_v489) = oidx)
    ∧ (V (Proc.devRef .tc Cert.KernelIdeal.main_v378) = a ∧ V' (Proc.devRef .tc Cert.ReferenceIdeal.main_v420) = a)
    ∧ (V (Proc.devRef .tc Cert.KernelIdeal.main_v432) = b ∧ V' (Proc.devRef .tc Cert.ReferenceIdeal.main_v480) = b)
    ∧ (V (Proc.devRef .tc Cert.KernelIdeal.main_v435) = q ∧ V' (Proc.devRef .tc Cert.ReferenceIdeal.main_v483) = q)
    ∧ (V (Proc.devRef .tc Cert.KernelIdeal.main_v2) = ia ∧ V' (Proc.devRef .tc Cert.ReferenceIdeal.main_v2) = ia)
    ∧ (V (Proc.devRef .tc Cert.KernelIdeal.main_v3) = ib ∧ V' (Proc.devRef .tc Cert.ReferenceIdeal.main_v3) = ib)
    ∧ (V (Proc.devRef .tc Cert.KernelIdeal.main_arg2) = w1s ∧ V' (Proc.devRef .tc Cert.ReferenceIdeal.main_arg2) = w1s)
    ∧ (V (Proc.devRef .tc Cert.KernelIdeal.main_arg3) = b1s ∧ V' (Proc.devRef .tc Cert.ReferenceIdeal.main_arg3) = b1s)
    ∧ (V (Proc.devRef .tc Cert.KernelIdeal.main_arg4) = w2s ∧ V' (Proc.devRef .tc Cert.ReferenceIdeal.main_arg4) = w2s)
    ∧ (V (Proc.devRef .tc Cert.KernelIdeal.main_arg5) = b2s ∧ V' (Proc.devRef .tc Cert.ReferenceIdeal.main_arg5) = b2s)

/-- After layer 9's perceptron output: eleven values that the kernel program's buffers and the reference's both hold. -/
def Inv9 (V : KV) (V' : RV) : Prop :=
  ∃ (out : (⟨Cert.KernelIdeal.S4096x4000, .f32⟩ : BufTy).Contents (Elt Ideal))
    (oidx : (⟨Cert.KernelIdeal.S4096x122, .i32⟩ : BufTy).Contents (Elt Ideal))
    (a : (⟨Cert.KernelIdeal.S4096x61, .f32⟩ : BufTy).Contents (Elt Ideal))
    (b : (⟨Cert.KernelIdeal.S4096x64, .f32⟩ : BufTy).Contents (Elt Ideal))
    (q : (⟨Cert.KernelIdeal.S4096, .f32⟩ : BufTy).Contents (Elt Ideal))
    (ia : (⟨Cert.KernelIdeal.S4096x64, .i32⟩ : BufTy).Contents (Elt Ideal))
    (ib : (⟨Cert.KernelIdeal.S4096x61, .i32⟩ : BufTy).Contents (Elt Ideal))
    (w1s : (⟨Cert.KernelIdeal.S10x2000x64, .f32⟩ : BufTy).Contents (Elt Ideal))
    (b1s : (⟨Cert.KernelIdeal.S10x64, .f32⟩ : BufTy).Contents (Elt Ideal))
    (w2s : (⟨Cert.KernelIdeal.S10x64x4000, .f32⟩ : BufTy).Contents (Elt Ideal))
    (b2s : (⟨Cert.KernelIdeal.S10x4000, .f32⟩ : BufTy).Contents (Elt Ideal)),
    (V (Proc.devRef .tc Cert.KernelIdeal.main_v525) = out ∧ V' (Proc.devRef .tc Cert.ReferenceIdeal.main_v585) = out)
    ∧ (V (Proc.devRef .tc Cert.KernelIdeal.main_v495) = oidx ∧ V' (Proc.devRef .tc Cert.ReferenceIdeal.main_v549) = oidx)
    ∧ (V (Proc.devRef .tc Cert.KernelIdeal.main_v432) = a ∧ V' (Proc.devRef .tc Cert.ReferenceIdeal.main_v480) = a)
    ∧ (V (Proc.devRef .tc Cert.KernelIdeal.main_v486) = b ∧ V' (Proc.devRef .tc Cert.ReferenceIdeal.main_v540) = b)
    ∧ (V (Proc.devRef .tc Cert.KernelIdeal.main_v489) = q ∧ V' (Proc.devRef .tc Cert.ReferenceIdeal.main_v543) = q)
    ∧ (V (Proc.devRef .tc Cert.KernelIdeal.main_v2) = ia ∧ V' (Proc.devRef .tc Cert.ReferenceIdeal.main_v2) = ia)
    ∧ (V (Proc.devRef .tc Cert.KernelIdeal.main_v3) = ib ∧ V' (Proc.devRef .tc Cert.ReferenceIdeal.main_v3) = ib)
    ∧ (V (Proc.devRef .tc Cert.KernelIdeal.main_arg2) = w1s ∧ V' (Proc.devRef .tc Cert.ReferenceIdeal.main_arg2) = w1s)
    ∧ (V (Proc.devRef .tc Cert.KernelIdeal.main_arg3) = b1s ∧ V' (Proc.devRef .tc Cert.ReferenceIdeal.main_arg3) = b1s)
    ∧ (V (Proc.devRef .tc Cert.KernelIdeal.main_arg4) = w2s ∧ V' (Proc.devRef .tc Cert.ReferenceIdeal.main_arg4) = w2s)
    ∧ (V (Proc.devRef .tc Cert.KernelIdeal.main_arg5) = b2s ∧ V' (Proc.devRef .tc Cert.ReferenceIdeal.main_arg5) = b2s)

end Cert.Bridge

end
-- ==== Proof.MlpSpec.lean ====
/-
  One layer of the MLP, row by row, on the extended reals: the function both the kernel's block
  payload and the reference's host operations are read against.

    out[r, j] = (Σ_k elu((Σ_l d[r, l] · w1[l, k]) + b1[k]) · w2[k, j]) + b2[j],   l < 2000, k < 64, j < 4000.

  Below it, the two spellings of the exponential linear unit the programs use, each read at one
  element and identified with `elu`: the kernel selects between `h` and `exp h - 1` on `h > 0`;
  the reference selects between `h` and `1 · expm1 (select (h > 0) 0 h)` on `h > 0`. On the extended
  reals `expm1 y = exp y - 1` and `1 · y = y`, so the two agree with `elu` by the case `0 < h`.
  Last, the contraction both programs' products share, read at an index.
-/
import Idealize.ShloMosaic.PureOps.Ideal
import Idealize.ShloMosaic.PureOps.Ideal.Laws
import Idealize.ShloMosaic.Lib.ValueIdx

noncomputable section

open scoped BigOperators

namespace Cert.MlpSpec

open Idealize.ShloMosaic Idealize.ShloMosaic.ValueIdx

/-- The exponential linear unit on the extended reals: the identity above zero, `exp x - 1` elsewhere. -/
def elu (x : EReal) : EReal := if (0 : EReal) < x then x else Ideal.exp x - 1

/-- One row of one layer: the second product's sum over the hidden index of `elu` of the first
    product's sum plus its bias, times the second weight, plus the second bias. -/
def mlpRow (d : Fin 2000 → EReal) (w1 : Fin 2000 → Fin 64 → EReal) (b1 : Fin 64 → EReal)
    (w2 : Fin 64 → Fin 4000 → EReal) (b2 : Fin 4000 → EReal) (j : Fin 4000) : EReal :=
  (∑ k : Fin 64, elu ((∑ l : Fin 2000, d l * w1 l k) + b1 k) * w2 k j) + b2 j

/-- The f32 word of `1.0` is the extended real `1`. -/
theorem ofBits_one_f32 : Ideal.ofBits .f32 0x3F800000#32 = 1 := by
  simp [Ideal.ofBits, Ideal.ieee, -EReal.coe_mul]; norm_num

theorem elu_of_pos {x : EReal} (h : (0 : EReal) < x) : elu x = x := if_pos h
theorem elu_of_not_pos {x : EReal} (h : ¬ (0 : EReal) < x) : elu x = Ideal.exp x - 1 := if_neg h

/-- The comparison `x > 0` as a one-bit word, decided. -/
theorem cmp_ogt_zero_of_pos {x : EReal} (h : (0 : EReal) < x) : Ideal.cmp .ogt x 0 = 1#1 := by
  simp [Ideal.cmp, h]
theorem cmp_ogt_zero_of_not_pos {x : EReal} (h : ¬ (0 : EReal) < x) : Ideal.cmp .ogt x 0 = 0#1 := by
  simp [Ideal.cmp, h]

/-- The kernel's spelling at one element: `select (x > 0) x (exp x - 1)` over the printed words of `0` and `1`. -/
theorem elu_kernel (x : EReal) :
    Scalar.select (Ideal.cmp .ogt x (Ideal.ofBits .f32 0x00000000#32)) x (Ideal.exp x - Ideal.ofBits .f32 0x3F800000#32)
      = elu x := by
  rw [Ideal.ofBits_zero_f32, ofBits_one_f32]
  by_cases h : (0 : EReal) < x
  · rw [cmp_ogt_zero_of_pos h, ValueIdx.select_one, elu_of_pos h]
  · rw [cmp_ogt_zero_of_not_pos h, ValueIdx.select_zero, elu_of_not_pos h]

/-- The reference's spelling at one element: `select (x > 0) x (1 · expm1 (select (x > 0) 0 x))`, with
    `expm1 y` already read as `exp y - 1`, over the printed words of `0` and `1`. -/
theorem elu_host (x : EReal) :
    Scalar.select (Ideal.cmp .ogt x (Ideal.ofBits .f32 0x00000000#32)) x
        (Ideal.ofBits .f32 0x3F800000#32
          * (Ideal.exp (Scalar.select (Ideal.cmp .ogt x (Ideal.ofBits .f32 0x00000000#32)) (Ideal.ofBits .f32 0x00000000#32) x) - 1))
      = elu x := by
  rw [Ideal.ofBits_zero_f32, ofBits_one_f32]
  by_cases h : (0 : EReal) < x
  · rw [cmp_ogt_zero_of_pos h, ValueIdx.select_one, elu_of_pos h]
  · rw [cmp_ogt_zero_of_not_pos h, ValueIdx.select_zero, ValueIdx.select_zero, one_mul, elu_of_not_pos h]

/-! ## A plain rank-2 contraction read at an index

Both programs multiply `[m, n]` by `[n, p]` with dimension numbers "contract the left operand's axis 1 with the
right operand's axis 0, no batch axis". For any such record the operand indices at result index `(r, c)` and
contraction position `l` are `(r, l)` and `(l, c)`, so the contraction's sum is the textbook one over `Fin n`. -/

section PlainDot

variable {m n p : ℕ} (D : DotDims ⟨2, ![m, n]⟩ ⟨2, ![n, p]⟩ ⟨2, ![m, p]⟩)

/-- With no batch axis and the left operand's rows as its one free axis, the left index's row is the result's row. -/
theorem lhsIdx_row (hlb : D.lhsBatch = []) (hln : D.lhsNonContracting = [0])
    (j : (⟨2, ![m, p]⟩ : Shape).Idx) (k : D.contr.Idx) : (D.lhsIdx j k 0).val = (j 0).val := by
  have hn : (0 : Fin 2) ∈ D.lhsNonContracting := by rw [hln]; exact List.mem_singleton.mpr rfl
  have hb : (0 : Fin 2) ∉ D.lhsBatch := by rw [hlb]; exact List.not_mem_nil
  unfold DotDims.lhsIdx
  rw [dif_neg hb, dif_pos hn]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- Likewise the right index's column is the result's column. -/
theorem rhsIdx_col (hlb : D.lhsBatch = []) (hrb : D.rhsBatch = []) (hln : D.lhsNonContracting = [0]) (hrn : D.rhsNonContracting = [1])
    (j : (⟨2, ![m, p]⟩ : Shape).Idx) (k : D.contr.Idx) : (D.rhsIdx j k 1).val = (j 1).val := by
  have hn : (1 : Fin 2) ∈ D.rhsNonContracting := by rw [hrn]; exact List.mem_singleton.mpr rfl
  have hb : (1 : Fin 2) ∉ D.rhsBatch := by rw [hrb]; exact List.not_mem_nil
  unfold DotDims.rhsIdx
  rw [dif_neg hb, dif_pos hn]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- One contracted axis: the contraction shape has rank one … -/
theorem contr_rank_one (hlc : D.lhsContracting = [1]) : D.contr.rank = 1 := by
  rw [D.rank_contr, hlc]; rfl

/-- … and its one extent is the shared extent `n`. -/
theorem contr_size_zero (hlc : D.lhsContracting = [1]) :
    D.contr.size ⟨0, by rw [contr_rank_one D hlc]; exact Nat.one_pos⟩ = n := by
  rw [D.size_contr 0 (by rw [hlc]; exact Nat.one_pos)]
  simp [hlc]

/-- The sum over the contraction index of a plain `[m, n] × [n, p]` product, at `(r, c)`, is the
    textbook sum over `l : Fin n` of row `r` of the left operand times column `c` of the right one. -/
theorem plain_sum (hlb : D.lhsBatch = []) (hrb : D.rhsBatch = []) (hln : D.lhsNonContracting = [0])
    (hrn : D.rhsNonContracting = [1]) (hlc : D.lhsContracting = [1]) (hrc : D.rhsContracting = [0])
    (a : (⟨2, ![m, n]⟩ : Shape).Idx → EReal) (b : (⟨2, ![n, p]⟩ : Shape).Idx → EReal) (r : Fin m) (c : Fin p) :
    ∑ k : D.contr.Idx, a (D.lhsIdx (ix2 r c) k) * b (D.rhsIdx (ix2 r c) k) = ∑ l : Fin n, a (ix2 r l) * b (ix2 l c) := by
  have hr := contr_rank_one D hlc
  have hs := contr_size_zero D hlc
  rw [← Equiv.sum_comp (contrEquiv1 D n hr hs).symm]
  refine Finset.sum_congr rfl fun l _ => ?_
  have e1 : D.lhsIdx (ix2 r c) ((contrEquiv1 D n hr hs).symm l) = ix2 r l := by
    funext ax; refine Fin.ext ?_
    match ax with
    | ⟨0, _⟩ => exact lhsIdx_row D hlb hln _ _
    | ⟨1, _⟩ => exact (D.lhsIdx_val_of_single hlc _ _).trans (contrEquiv1_symm_val D n hr hs l)
  have e2 : D.rhsIdx (ix2 r c) ((contrEquiv1 D n hr hs).symm l) = ix2 l c := by
    funext ax; refine Fin.ext ?_
    match ax with
    | ⟨0, _⟩ => exact (D.rhsIdx_val_of_single hrc _ _).trans (contrEquiv1_symm_val D n hr hs l)
    | ⟨1, _⟩ => exact rhsIdx_col D hlb hrb hln hrn _ _
  rw [e1, e2]

/-- A `tpu.matmul` of that form into the zero splat, read at `(r, c)` at the ideal values. -/
theorem matmul_zero_plain (hlb : D.lhsBatch = []) (hrb : D.rhsBatch = []) (hln : D.lhsNonContracting = [0])
    (hrn : D.rhsNonContracting = [1]) (hlc : D.lhsContracting = [1]) (hrc : D.rhsContracting = [0])
    {φ₁ φ₂ : FTy} (prec : Option ContractPrecision)
    (a : FVec Ideal ⟨2, ![m, n]⟩ φ₁) (b : FVec Ideal ⟨2, ![n, p]⟩ φ₂) (r : Fin m) (c : Fin p) :
    matmul D prec a b (constant (F := Ideal) ⟨2, ![m, p]⟩ .f32 0x00000000#32) (ix2 r c)
      = ∑ l : Fin n, a (ix2 r l) * b (ix2 l c) := by
  show FloatOps.matmul D prec a b (constant (F := Ideal) ⟨2, ![m, p]⟩ .f32 0x00000000#32) (ix2 r c) = _
  rw [Ideal.matmul_constant_zero_apply]
  exact plain_sum D hlb hrb hln hrn hlc hrc a b r c

/-- The host's `dot_general` of that form, read at `(r, c)` at the ideal values. -/
theorem dotGeneral_plain (hlb : D.lhsBatch = []) (hrb : D.rhsBatch = []) (hln : D.lhsNonContracting = [0])
    (hrn : D.rhsNonContracting = [1]) (hlc : D.lhsContracting = [1]) (hrc : D.rhsContracting = [0])
    {φ₁ φ₂ : FTy} (prec : Option ContractPrecision)
    (a : FVec Ideal ⟨2, ![m, n]⟩ φ₁) (b : FVec Ideal ⟨2, ![n, p]⟩ φ₂) (r : Fin m) (c : Fin p) :
    Host.dotGeneral D prec a b (ix2 r c) = ∑ l : Fin n, a (ix2 r l) * b (ix2 l c) := by
  show FloatOps.dotGeneral D prec .single a b (ix2 r c) = _
  rw [Ideal.dotGeneral_apply]
  exact plain_sum D hlb hrb hln hrn hlc hrc a b r c

end PlainDot

end Cert.MlpSpec

end
-- ==== Proof.MlpArray.lean ====
/-
  One layer's output array as ONE function of the five arrays the layer's kernel region is given: row r of the
  output is the two-layer perceptron of row r of the scattered input — the hidden vector is the row times the
  first weight matrix plus the first bias, passed through the exponential linear unit, and the output row is the
  hidden vector times the second weight matrix plus the second bias. Both biases arrive as one-row matrices.
-/
import proofs.«140670_j11424613007642_1_alg».proof.KernelIdeal
import proofs.«140670_j11424613007642_1_alg».proof.Proof.MlpSpec
import Idealize.ShloMosaic.Lib.ValueIdx

noncomputable section

namespace Cert.KernelIdeal.MlpArray

open Cert.KernelIdeal Idealize.ShloMosaic Idealize.ShloMosaic.ValueIdx

/-- Entry (r, j) of the layer's output from the whole operand arrays. -/
def G (A0 : S4096x2000.Idx → EReal) (A1 : S2000x64.Idx → EReal) (A2 : S1x64.Idx → EReal) (A3 : S64x4000.Idx → EReal)
    (A4 : S1x4000.Idx → EReal) : S4096x4000.Idx → EReal :=
  fun i => Cert.MlpSpec.mlpRow (fun l => A0 (ix2 (i 0) l)) (fun l k => A1 (ix2 l k)) (fun k => A2 (ix2 0 k))
    (fun k j => A3 (ix2 k j)) (fun j => A4 (ix2 0 j)) (i 1)

theorem G_apply (A0 : S4096x2000.Idx → EReal) (A1 : S2000x64.Idx → EReal) (A2 : S1x64.Idx → EReal) (A3 : S64x4000.Idx → EReal)
    (A4 : S1x4000.Idx → EReal) (r : Fin 4096) (j : Fin 4000) :
    G A0 A1 A2 A3 A4 (ix2 r j) = Cert.MlpSpec.mlpRow (fun l => A0 (ix2 r l)) (fun l k => A1 (ix2 l k)) (fun k => A2 (ix2 0 k))
      (fun k j' => A3 (ix2 k j')) (fun j' => A4 (ix2 0 j')) j := rfl

end Cert.KernelIdeal.MlpArray

end
-- ==== Proof.MlpHost.lean ====
/-
  The reference's host operations of one MLP layer — from the first product to the second bias — composed into
  one function of the arrays they read, and that function read at an index against the row-wise specification.
-/
import proofs.«140670_j11424613007642_1_alg».proof.Proof.MlpSpec
import Idealize.ShloMosaic.Lib.Pipeline.Value
import proofs.«140670_j11424613007642_1_alg».proof.ReferenceIdeal
import proofs.«140670_j11424613007642_1_alg».proof.Proof.Gen.ReferenceIdeal

noncomputable section

open scoped BigOperators

namespace Cert.ReferenceIdeal.MlpHost

open Cert.ReferenceIdeal Cert.ReferenceIdeal.Facts₀ Idealize.ShloMosaic Idealize.ShloMosaic.ValueIdx

/-- The reference's operations from the first product to the second bias, as one function of the five arrays
    they read: `dot_general`, the bias broadcast through `[1, 64]`, the sum, the reference's `elu` with its two
    `where` calls inlined, `dot_general`, the bias broadcast through `[1, 4000]`, the sum. -/
def hostMlp (D : FVec Ideal S4096x2000 .f32) (W1 : FVec Ideal S2000x64 .f32) (B1 : FVec Ideal S64 .f32)
    (W2 : FVec Ideal S64x4000 .f32) (B2 : FVec Ideal S4000 .f32) : FVec Ideal S4096x4000 .f32 :=
  addf (Host.dotGeneral dot_S4096x64_S64x4000_S4096x4000_1_0_0_1_n_n none (select (cmpf .ogt (addf (Host.dotGeneral dot_S4096x2000_S2000x64_S4096x64_1_0_0_1_n_n none D W1)
          (broadcastInDim S4096x64 ![0, 1] bcast_S1x64_S4096x64_0_1 (broadcastInDim S1x64 ![1] bcast_S64_S1x64_1 B1))) (broadcastInDim S4096x64 ![] bcast_S_S4096x64 (constant (F := Ideal) S_ .f32 0x00000000#32))) (addf (Host.dotGeneral dot_S4096x2000_S2000x64_S4096x64_1_0_0_1_n_n none D W1)
          (broadcastInDim S4096x64 ![0, 1] bcast_S1x64_S4096x64_0_1 (broadcastInDim S1x64 ![1] bcast_S64_S1x64_1 B1))) (mulf (broadcastInDim S4096x64 ![] bcast_S_S4096x64 (constant (F := Ideal) S_ .f32 0x3F800000#32)) (Host.expm1 (select (cmpf .ogt (addf (Host.dotGeneral dot_S4096x2000_S2000x64_S4096x64_1_0_0_1_n_n none D W1)
          (broadcastInDim S4096x64 ![0, 1] bcast_S1x64_S4096x64_0_1 (broadcastInDim S1x64 ![1] bcast_S64_S1x64_1 B1))) (broadcastInDim S4096x64 ![] bcast_S_S4096x64 (constant (F := Ideal) S_ .f32 0x00000000#32))) (broadcastInDim S4096x64 ![] bcast_S_S4096x64 (id (constant (F := Ideal) S_ .f32 0x00000000#32))) (addf (Host.dotGeneral dot_S4096x2000_S2000x64_S4096x64_1_0_0_1_n_n none D W1)
          (broadcastInDim S4096x64 ![0, 1] bcast_S1x64_S4096x64_0_1 (broadcastInDim S1x64 ![1] bcast_S64_S1x64_1 B1))))))) W2)
    (broadcastInDim S4096x4000 ![0, 1] bcast_S1x4000_S4096x4000_0_1 (broadcastInDim S1x4000 ![1] bcast_S4000_S1x4000_1 B2))

/-- The host's `expm1` read at an index: `exp - 1` on the extended reals. -/
theorem expm1_apply {s : Shape} {φ : FTy} (x : FVec Ideal s φ) (i : s.Idx) : Host.expm1 x i = Ideal.exp (x i) - 1 := rfl

/-- A rank-0 constant broadcast to any shape reads its word's value everywhere. -/
theorem bcast_scalar_const (t : Shape) (h : S_.BroadcastsInDim t ![]) (b : BitVec 32) (j : t.Idx) :
    broadcastInDim t ![] h (constant (F := Ideal) S_ .f32 b) j = Ideal.ofBits .f32 b := rfl

/-- A `[b]` array broadcast to `[1, b]` on axis 1 and then to `[a, b]` reads, at `(r, c)`, the array at `c`. -/
theorem bcast_row {α : Type} {a b : ℕ} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (r : Fin a) (c : Fin b) :
    broadcastInDim ⟨2, ![a, b]⟩ ![0, 1] h2 (broadcastInDim ⟨2, ![1, b]⟩ ![1] h1 x) (ix2 r c) = x (ix1 c) := by
  refine (broadcastInDim_apply ![0, 1] h2 _ (ix2 r c) (ix2 (0 : Fin 1) c) fun ax => ?_).trans
    (broadcastInDim_apply ![1] h1 x (ix2 (0 : Fin 1) c) (ix1 c) fun ax => ?_)
  · match ax with
    | ⟨0, _⟩ => rfl
    | ⟨1, _⟩ =>
      show c.val = if b = 1 then 0 else c.val
      split
      · have := c.isLt; omega
      · rfl
  · match ax with
    | ⟨0, _⟩ =>
      show c.val = if b = 1 then 0 else c.val
      split
      · have := c.isLt; omega
      · rfl

/-- The reference's operations at `(r, j)`: row `r` of the array through one MLP layer, column `j`. Each
    `dot_general` is the textbook sum; the biases are read at their coordinate; the reference's `elu`, which selects on
    `h > 0` between `h` and `1 · expm1 (select (h > 0) 0 h)`, is `elu h`. -/
theorem hostMlp_apply (D : FVec Ideal S4096x2000 .f32) (W1 : FVec Ideal S2000x64 .f32) (B1 : FVec Ideal S64 .f32)
    (W2 : FVec Ideal S64x4000 .f32) (B2 : FVec Ideal S4000 .f32) (r : Fin 4096) (j : Fin 4000) :
    hostMlp D W1 B1 W2 B2 (ix2 r j)
      = Cert.MlpSpec.mlpRow (fun l => D (ix2 r l)) (fun l k => W1 (ix2 l k)) (fun k => B1 (ix1 k))
          (fun k j' => W2 (ix2 k j')) (fun j' => B2 (ix1 j')) j := by
  have hb1 : ∀ k : Fin 64, broadcastInDim S4096x64 ![0, 1] bcast_S1x64_S4096x64_0_1
      (broadcastInDim S1x64 ![1] bcast_S64_S1x64_1 B1) (ix2 r k) = B1 (ix1 k) := fun k => bcast_row _ _ B1 r k
  have hb2 : broadcastInDim S4096x4000 ![0, 1] bcast_S1x4000_S4096x4000_0_1
      (broadcastInDim S1x4000 ![1] bcast_S4000_S1x4000_1 B2) (ix2 r j) = B2 (ix1 j) := bcast_row _ _ B2 r j
  have hz : ∀ i, broadcastInDim S4096x64 ![] bcast_S_S4096x64 (constant (F := Ideal) S_ .f32 0x00000000#32) i
      = Ideal.ofBits .f32 0x00000000#32 := fun _ => rfl
  have ho : ∀ i, broadcastInDim S4096x64 ![] bcast_S_S4096x64 (constant (F := Ideal) S_ .f32 0x3F800000#32) i
      = Ideal.ofBits .f32 0x3F800000#32 := fun _ => rfl
  unfold hostMlp
  simp only [addf_apply,
    Cert.MlpSpec.dotGeneral_plain dot_S4096x64_S64x4000_S4096x4000_1_0_0_1_n_n rfl rfl rfl rfl rfl rfl,
    Cert.MlpSpec.dotGeneral_plain dot_S4096x2000_S2000x64_S4096x64_1_0_0_1_n_n rfl rfl rfl rfl rfl rfl,
    select_apply, cmpf_apply, mulf_apply, expm1_apply, id_eq, hb1, hb2, hz, ho]
  unfold Cert.MlpSpec.mlpRow
  refine congrArg (· + _) (Finset.sum_congr rfl fun k _ => congrArg (· * _) ?_)
  exact Cert.MlpSpec.elu_host _

end Cert.ReferenceIdeal.MlpHost

end
-- ==== Proof.Congr.lean ====
/-
  Two congruences used at every layer: the whole-array layer function and the reference's host perceptron take equal
  values at equal operand arrays.
-/
import proofs.«140670_j11424613007642_1_alg».proof.Proof.MlpArray
import proofs.«140670_j11424613007642_1_alg».proof.Proof.MlpHost

noncomputable section

namespace Cert.Bridge

open Idealize.ShloMosaic

theorem G_congr {A0 A0' : Cert.KernelIdeal.S4096x2000.Idx → EReal} {A1 A1' : Cert.KernelIdeal.S2000x64.Idx → EReal}
    {A2 A2' : Cert.KernelIdeal.S1x64.Idx → EReal} {A3 A3' : Cert.KernelIdeal.S64x4000.Idx → EReal} {A4 A4' : Cert.KernelIdeal.S1x4000.Idx → EReal}
    (h0 : A0 = A0') (h1 : A1 = A1') (h2 : A2 = A2') (h3 : A3 = A3') (h4 : A4 = A4') :
    Cert.KernelIdeal.MlpArray.G A0 A1 A2 A3 A4 = Cert.KernelIdeal.MlpArray.G A0' A1' A2' A3' A4' := by
  subst h0 h1 h2 h3 h4; rfl

theorem hostMlp_congr {D D' : FVec Ideal Cert.ReferenceIdeal.S4096x2000 .f32} {W1 W1' : FVec Ideal Cert.ReferenceIdeal.S2000x64 .f32}
    {B1 B1' : FVec Ideal Cert.ReferenceIdeal.S64 .f32} {W2 W2' : FVec Ideal Cert.ReferenceIdeal.S64x4000 .f32}
    {B2 B2' : FVec Ideal Cert.ReferenceIdeal.S4000 .f32}
    (h0 : D = D') (h1 : W1 = W1') (h2 : B1 = B1') (h3 : W2 = W2') (h4 : B2 = B2') :
    Cert.ReferenceIdeal.MlpHost.hostMlp D W1 B1 W2 B2 = Cert.ReferenceIdeal.MlpHost.hostMlp D' W1' B1' W2' B2' := by
  subst h0 h1 h2 h3 h4; rfl

end Cert.Bridge

end
-- ==== Proof.MlpBridge.lean ====
/-
  The reference's host operations of one layer and the whole-array layer function the kernel regions are read
  against are the same function of the layer's arrays: the reference adds its bias vectors by broadcasting, the
  kernel program first reshapes each to a one-row matrix, and a vector reshaped to one row reads the same entries.
-/
import proofs.«140670_j11424613007642_1_alg».proof.Proof.MlpHost
import proofs.«140670_j11424613007642_1_alg».proof.Proof.MlpArray
import proofs.«140670_j11424613007642_1_alg».proof.Proof.Gen.KernelIdeal
import Idealize.ShloMosaic.Lib.ValueLayout

noncomputable section

namespace Cert.MlpBridge

open Idealize.ShloMosaic Idealize.ShloMosaic.ValueIdx

/-- The reference's host perceptron is the whole-array layer function of the same five arrays, its two bias
    vectors read through the reshape to one-row matrices: at `(r, j)` both are the row function of row `r` of the
    input, the two weight matrices and the two biases, and a `[b]` vector reshaped to `[1, b]` reads at `(0, k)`
    the vector at `k`. -/
theorem host_eq_G (D : FVec Ideal Cert.ReferenceIdeal.S4096x2000 .f32) (W1 : FVec Ideal Cert.ReferenceIdeal.S2000x64 .f32)
    (B1 : FVec Ideal Cert.ReferenceIdeal.S64 .f32) (W2 : FVec Ideal Cert.ReferenceIdeal.S64x4000 .f32)
    (B2 : FVec Ideal Cert.ReferenceIdeal.S4000 .f32) :
    Cert.ReferenceIdeal.MlpHost.hostMlp D W1 B1 W2 B2
      = Cert.KernelIdeal.MlpArray.G D W1
          (shapeCast Cert.KernelIdeal.S1x64 B1 Cert.KernelIdeal.Facts₀.shapeCasts_S64_S1x64) W2
          (shapeCast Cert.KernelIdeal.S1x4000 B2 Cert.KernelIdeal.Facts₀.shapeCasts_S4000_S1x4000) := by
  funext i
  obtain ⟨r, j, rfl⟩ : ∃ (r : Fin 4096) (j : Fin 4000), i = ix2 r j := ⟨i 0, i 1, eq_ix2 i⟩
  rw [Cert.ReferenceIdeal.MlpHost.hostMlp_apply, Cert.KernelIdeal.MlpArray.G_apply]
  have hb1 : ∀ k : Fin 64, shapeCast Cert.KernelIdeal.S1x64 B1 Cert.KernelIdeal.Facts₀.shapeCasts_S64_S1x64 (ix2 (0 : Fin 1) k)
      = B1 (ix1 k) := fun k => shapeCast_a_1a_apply B1 _ 0 k
  have hb2 : ∀ j' : Fin 4000, shapeCast Cert.KernelIdeal.S1x4000 B2 Cert.KernelIdeal.Facts₀.shapeCasts_S4000_S1x4000 (ix2 (0 : Fin 1) j')
      = B2 (ix1 j') := fun j' => shapeCast_a_1a_apply B2 _ 0 j'
  unfold Cert.MlpSpec.mlpRow
  simp only [hb1, hb2]

end Cert.MlpBridge

end
-- ==== Proof.MlpKernel.lean ====
/-
  The kernels' block payload read at an index: row `p` of a 512-row block through one MLP layer, against the
  row-wise specification. The ten kernels' payloads are one function of the values they read.
-/
import proofs.«140670_j11424613007642_1_alg».proof.Proof.MlpSpec
import Idealize.ShloMosaic.Lib.ValueLayout
import proofs.«140670_j11424613007642_1_alg».proof.Proof.Gen.KernelIdeal.Skeleton

noncomputable section

open scoped BigOperators

namespace Cert.KernelIdeal.MlpKernel

open Cert.KernelIdeal Cert.KernelIdeal.Gen Idealize.ShloMosaic Idealize.ShloMosaic.ValueIdx

/-- The elementwise exponential read at an index. -/
theorem exp_apply {s : Shape} {φ : FTy} (x : FVec Ideal s φ) (i : s.Idx) : exp x i = Ideal.exp (x i) := rfl

/-- The block payload of the first kernel at `(p, j)`: row `p` of the block through one MLP layer, column `j`.
    The bf16 casts and same-shape casts are the identity at the ideal values; each `tpu.matmul` into the zero
    splat is the textbook sum; the `[1, b]` biases are read at their one row; the select on `h > 0` between
    `h` and `exp h - 1` is `elu h`. -/
theorem pay_apply (x0 : Vec Ideal S512x2000 .f32) (x1 : Vec Ideal S2000x64 .f32) (x2 : Vec Ideal S1x64 .f32)
    (x3 : Vec Ideal S64x4000 .f32) (x4 : Vec Ideal S1x4000 .f32) (p : Fin 512) (j : Fin 4000) :
    k0_pay1 (F := Ideal) x0 x1 x2 x3 x4 (ix2 p j)
      = Cert.MlpSpec.mlpRow (fun l => x0 (ix2 p l)) (fun l k => x1 (ix2 l k)) (fun k => x2 (ix2 0 k))
          (fun k j' => x3 (ix2 k j')) (fun j' => x4 (ix2 0 j')) j := by
  unfold k0_pay1
  simp only [shapeCast_self, addf_apply, broadcastTo_1b_ab_apply,
    Cert.MlpSpec.matmul_zero_plain dot_S512x64_S64x4000_S512x4000_1_0_0_1_n_n rfl rfl rfl rfl rfl rfl,
    Cert.MlpSpec.matmul_zero_plain dot_S512x2000_S2000x64_S512x64_1_0_0_1_n_n rfl rfl rfl rfl rfl rfl, truncf_apply, select_apply, cmpf_apply, subf_apply,
    exp_apply, broadcast_apply]
  unfold Cert.MlpSpec.mlpRow
  refine congrArg (· + _) (Finset.sum_congr rfl fun k _ => congrArg (· * _) ?_)
  exact Cert.MlpSpec.elu_kernel _

/-! The other nine kernels' payloads are the same function of the values read. -/

theorem pay1_eq : @k1_pay1 = @k0_pay1 := rfl
theorem pay2_eq : @k2_pay1 = @k0_pay1 := rfl
theorem pay3_eq : @k3_pay1 = @k0_pay1 := rfl
theorem pay4_eq : @k4_pay1 = @k0_pay1 := rfl
theorem pay5_eq : @k5_pay1 = @k0_pay1 := rfl
theorem pay6_eq : @k6_pay1 = @k0_pay1 := rfl
theorem pay7_eq : @k7_pay1 = @k0_pay1 := rfl
theorem pay8_eq : @k8_pay1 = @k0_pay1 := rfl
theorem pay9_eq : @k9_pay1 = @k0_pay1 := rfl

end Cert.KernelIdeal.MlpKernel

end
-- ==== Proof.Region0.lean ====
/-
  Kernel region 0 (one layer's perceptron): whatever the TensorCore's buffers hold when the region is entered,
  the region leaves its output array holding the layer function of its five operand arrays. The grid has eight
  points; point t is given rows 512·t … 512·t+511 of the input and all of both weight matrices and biases, and
  writes rows 512·t … 512·t+511 of the output. Entry (r, j) of the output depends on row r of the input alone, so
  each written block is the restriction of ONE whole-array function, and the eight blocks tile the output.
-/
import proofs.«140670_j11424613007642_1_alg».proof.Proof.KernelIdealFrameP
import proofs.«140670_j11424613007642_1_alg».proof.Proof.MlpKernel
import proofs.«140670_j11424613007642_1_alg».proof.Proof.MlpArray
import Idealize.ShloMosaic.Lib.Pipeline.Value
import Idealize.ShloMosaic.Lib.ValueIdx

set_option maxRecDepth 16384

noncomputable section

namespace Cert.KernelIdeal.Region0

open Cert.KernelIdeal Cert.KernelIdeal.Gen Cert.KernelIdeal.GenP Cert.KernelIdeal.MlpArray
open Idealize.ShloMosaic Idealize.ShloMosaic.TcCoe Idealize.ShloMosaic.ValueIdx Idealize.SL.Sem
open Idealize.ShloMosaic.Pipeline (Dat Cfg Window)

/-- The body reads and writes its staging buffers whole: at offsets zero. -/
theorem zero_offsets : (![0, 0] : Fin 2 → Nat) = fun _ => 0 := funext fun a => by fin_cases a <;> rfl

/-- The printed index maps over the grid: the input's and the output's row block is the grid point, every other
    block index is zero. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The row function depends on its five arguments through their values alone. -/
theorem mlpRow_congr {d d' : Fin 2000 → EReal} {w1 w1' : Fin 2000 → Fin 64 → EReal} {b1 b1' : Fin 64 → EReal}
    {w2 w2' : Fin 64 → Fin 4000 → EReal} {b2 b2' : Fin 4000 → EReal}
    (hd : ∀ l, d l = d' l) (hw1 : ∀ l k, w1 l k = w1' l k) (hb1 : ∀ k, b1 k = b1' k)
    (hw2 : ∀ k j, w2 k j = w2' k j) (hb2 : ∀ j, b2 j = b2' j) (j : Fin 4000) :
    Cert.MlpSpec.mlpRow d w1 b1 w2 b2 j = Cert.MlpSpec.mlpRow d' w1' b1' w2' b2' j := by
  have e1 : d = d' := funext hd
  have e2 : w1 = w1' := funext fun l => funext (hw1 l)
  have e3 : b1 = b1' := funext hb1
  have e4 : w2 = w2' := funext fun k => funext (hw2 k)
  have e5 : b2 = b2' := funext hb2
  rw [e1, e2, e3, e4, e5]

/-- The payload of the operand arrays' blocks at point `t` is block `t` of the layer function of the arrays:
    entry `(p, q)` of the block is entry `(512·t + p, q)` of the array; the input's block holds rows
    `512·t + p`, and the weights' and biases' blocks are the whole arrays. -/
theorem payload_block (A0 : S4096x2000.Idx → EReal) (A1 : S2000x64.Idx → EReal) (A2 : S1x64.Idx → EReal)
    (A3 : S64x4000.Idx → EReal) (A4 : S1x4000.Idx → EReal) (t : Fin cfg0.N) :
    k0_pay1 (F := Ideal) (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 4).blk t).view.read (Elt Ideal) A4)
      = ((cfg0.win 5).blk t).view.read (Elt Ideal) (G A0 A1 A2 A3 A4) := by
  obtain ⟨e00, e01, e10, e11, e20, e21, e30, e31, e40, e41, e50, e51⟩ := block_indices t
  have hN : cfg0.N = 8 := rfl
  have ht : t.val < 8 := hN ▸ t.isLt
  funext j
  obtain ⟨p, q, rfl⟩ : ∃ (p : Fin 512) (q : Fin 4000), j = ix2 p q := ⟨j 0, j 1, eq_ix2 j⟩
  refine (Cert.KernelIdeal.MlpKernel.pay_apply (((cfg0.win 0).blk t).view.read (Elt Ideal) A0)
    (((cfg0.win 1).blk t).view.read (Elt Ideal) A1) (((cfg0.win 2).blk t).view.read (Elt Ideal) A2)
    (((cfg0.win 3).blk t).view.read (Elt Ideal) A3) (((cfg0.win 4).blk t).view.read (Elt Ideal) A4) p q).trans ?_
  have h5 : ((cfg0.win 5).blk t).view.emb (ix2 p q)
      = ix2 (⟨t.val * 512 + p.val, by have := p.isLt; omega⟩ : Fin 4096) q := by
    funext a; apply Fin.ext
    match a with
    | ⟨0, _⟩ => show win0_5.index t (0 : Fin 2) * 512 + 1 * p.val = t.val * 512 + p.val; omega
    | ⟨1, _⟩ => show win0_5.index t (1 : Fin 2) * 4000 + 1 * q.val = q.val; omega
  show _ = G A0 A1 A2 A3 A4 (((cfg0.win 5).blk t).view.emb (ix2 p q))
  rw [h5, G_apply]
  refine mlpRow_congr (fun l => ?_) (fun l k => ?_) (fun k => ?_) (fun k j' => ?_) (fun j' => ?_) q
  · show A0 (((cfg0.win 0).blk t).view.emb (ix2 p l)) = A0 (ix2 (⟨t.val * 512 + p.val, by have := p.isLt; omega⟩ : Fin 4096) l)
    refine congrArg A0 ?_
    funext a; apply Fin.ext
    match a with
    | ⟨0, _⟩ => show win0_0.index t (0 : Fin 2) * 512 + 1 * p.val = t.val * 512 + p.val; omega
    | ⟨1, _⟩ => show win0_0.index t (1 : Fin 2) * 2000 + 1 * l.val = l.val; omega
  · show A1 (((cfg0.win 1).blk t).view.emb (ix2 l k)) = A1 (ix2 l k)
    refine congrArg A1 ?_
    funext a; apply Fin.ext
    match a with
    | ⟨0, _⟩ => show win0_1.index t (0 : Fin 2) * 2000 + 1 * l.val = l.val; omega
    | ⟨1, _⟩ => show win0_1.index t (1 : Fin 2) * 64 + 1 * k.val = k.val; omega
  · show A2 (((cfg0.win 2).blk t).view.emb (ix2 (0 : Fin 1) k)) = A2 (ix2 (0 : Fin 1) k)
    refine congrArg A2 ?_
    funext a; apply Fin.ext
    match a with
    | ⟨0, _⟩ => show win0_2.index t (0 : Fin 2) * 1 + 1 * 0 = 0; omega
    | ⟨1, _⟩ => show win0_2.index t (1 : Fin 2) * 64 + 1 * k.val = k.val; omega
  · show A3 (((cfg0.win 3).blk t).view.emb (ix2 k j')) = A3 (ix2 k j')
    refine congrArg A3 ?_
    funext a; apply Fin.ext
    match a with
    | ⟨0, _⟩ => show win0_3.index t (0 : Fin 2) * 64 + 1 * k.val = k.val; omega
    | ⟨1, _⟩ => show win0_3.index t (1 : Fin 2) * 4000 + 1 * j'.val = j'.val; omega
  · show A4 (((cfg0.win 4).blk t).view.emb (ix2 (0 : Fin 1) j')) = A4 (ix2 (0 : Fin 1) j')
    refine congrArg A4 ?_
    funext a; apply Fin.ext
    match a with
    | ⟨0, _⟩ => show win0_4.index t (0 : Fin 2) * 1 + 1 * 0 = 0; omega
    | ⟨1, _⟩ => show win0_4.index t (1 : Fin 2) * 4000 + 1 * j'.val = j'.val; omega

variable (V : (c : Dev nD) → (b : Ref sig .tc) → Buf (Elt Ideal) ((c : Thread nD τ).loc b))

/-- What point `t` writes back is block `t` of the layer function of the operand arrays as the region finds them. -/
theorem written_block (c : Dev nD) (t : Fin cfg0.N) :
    (dat0 V c).flushed 5 t = ((cfg0.win 5).blk t).view.read (Elt Ideal)
      (G (V c (Pipeline.arrRef spec0 0)) (V c (Pipeline.arrRef spec0 1)) (V c (Pipeline.arrRef spec0 2))
        (V c (Pipeline.arrRef spec0 3)) (V c (Pipeline.arrRef spec0 4))) := by
  show (cfg0.win 5).cut (grid0.coords t) ((dat0 V c).after 5 t) = _
  rw [after0_5]
  unfold out0_5
  rw [View.canon_unit_zero zero_offsets]
  simp only [View.ld_unit_zero (S := S512x2000) zero_offsets, View.ld_unit_zero (S := S2000x64) zero_offsets,
    View.ld_unit_zero (S := S1x64) zero_offsets, View.ld_unit_zero (S := S64x4000) zero_offsets,
    View.ld_unit_zero (S := S1x4000) zero_offsets]
  exact payload_block (V c (Pipeline.arrRef spec0 0)) (V c (Pipeline.arrRef spec0 1)) (V c (Pipeline.arrRef spec0 2))
    (V c (Pipeline.arrRef spec0 3)) (V c (Pipeline.arrRef spec0 4)) t

/-- An index of the output array is in point `t`'s block iff each coordinate is in the block's range on its axis. -/
theorem mem_block (t : Fin cfg0.N) (i : S4096x4000.Idx) :
    i ∈ ((cfg0.win 5).blk t).view.set ↔ ∀ a : Fin 2, win0_5.index t a * S512x4000.size a ≤ (i a).val
      ∧ (i a).val < win0_5.index t a * S512x4000.size a + S512x4000.size a := by
  show i ∈ ((View.whole main_v39).slice (win0_5.rect t)).set ↔ _
  rw [View.set_slice_whole, Rect.mem_set_unit]
  exact Iff.rfl

/-- Every entry of the output array is in some point's block: row `r` is written by point `r / 512`. -/
theorem cover (i : S4096x4000.Idx) :
    ∃ t : Fin cfg0.N, (cfg0.win 5).flush t = true ∧ i ∈ ((cfg0.win 5).blk t).view.set := by
  have hi0 : (i 0).val < 4096 := (i 0).isLt
  have hi1 : (i 1).val < 4000 := (i 1).isLt
  obtain ⟨t, htv⟩ : ∃ t : Fin cfg0.N, t.val = (i 0).val / 512 :=
    ⟨⟨(i 0).val / 512, by show (i 0).val / 512 < 8; omega⟩, rfl⟩
  obtain ⟨-, -, -, -, -, -, -, -, -, -, e50, e51⟩ := block_indices t
  refine ⟨t, flush0_5 t, ?_⟩
  rw [mem_block]
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 4000 ≤ (i 1).val ∧ (i 1).val < win0_5.index t (1 : Fin 2) * 4000 + 4000
    omega

/-- The region's output array after its eight write-backs: the layer function of the five operand arrays as the
    region finds them. -/
theorem regionOut (c : Dev nD) :
    (dat0 V c).arrAt 5 cfg0.N = Cert.KernelIdeal.MlpArray.G (V c (Pipeline.arrRef spec0 0))
      (V c (Pipeline.arrRef spec0 1)) (V c (Pipeline.arrRef spec0 2)) (V c (Pipeline.arrRef spec0 3))
      (V c (Pipeline.arrRef spec0 4)) :=
  (dat0 V c).arrAt_eq_of_cover 5
    (G (V c (Pipeline.arrRef spec0 0)) (V c (Pipeline.arrRef spec0 1)) (V c (Pipeline.arrRef spec0 2))
      (V c (Pipeline.arrRef spec0 3)) (V c (Pipeline.arrRef spec0 4)))
    (fun t _ => written_block V c t) cover

end Cert.KernelIdeal.Region0

end
-- ==== Proof.LayerK0.lean ====
/- The host operations the kernel program runs between the launch and kernel region 0, read as functions. Each buffer the
  next stage needs is written out as the composition of the operations that produce it from the buffers the stretch
  reads; a buffer the stretch does not write keeps its contents; and the fold of the stretch's operations at each of
  these buffers is that function of the contents the stretch starts from.
-/
import proofs.«140670_j11424613007642_1_alg».proof.Proof.Gen.KernelIdeal.Launch
import Idealize.ShloMosaic.Lib.StableHlo.Run

set_option maxRecDepth 16384

noncomputable section

namespace Cert.KernelIdeal.Layer0

open Cert.KernelIdeal Cert.KernelIdeal.Gen Idealize.ShloMosaic Idealize.ShloMosaic.StableHlo Idealize.ShloMosaic.TcCoe

variable {F : FTy → Type} [FloatOps F]

/-- Buffer main_v36 as a function of the buffers the stretch reads: its 26 operations, in program order. -/
def f_dense (x_main_arg6 : (⟨S4096x125, .i32⟩ : BufTy).Contents (Elt F)) (x_main_arg0 : (⟨S4096x125, .f32⟩ : BufTy).Contents (Elt F)) :
    (⟨S4096x2000, .f32⟩ : BufTy).Contents (Elt F) :=
  have x_main_v1 : (⟨S4096x61, .f32⟩ : BufTy).Contents (Elt F) := (((extractStridedSlice S4096x61 ![0, 64] · slices_S4096x125_S4096x61_0_64) : (⟨S4096x125, .f32⟩ : BufTy).Contents (Elt F) → (⟨S4096x61, .f32⟩ : BufTy).Contents (Elt F))) x_main_arg0
  have x_main_v3 : (⟨S4096x61, .i32⟩ : BufTy).Contents (Elt F) := (((extractStridedSlice S4096x61 ![0, 64] · slices_S4096x125_S4096x61_0_64) : (⟨S4096x125, .i32⟩ : BufTy).Contents (Elt F) → (⟨S4096x61, .i32⟩ : BufTy).Contents (Elt F))) x_main_arg6
  have x_main_v18 : (⟨S4096, .i32⟩ : BufTy).Contents (Elt F) := (iotaInDim S4096 32 0)
  have x_main_v19 : (⟨S4096x1, .i32⟩ : BufTy).Contents (Elt F) := ((broadcastInDim S4096x1 ![0] bcast_S4096_S4096x1_0 : (⟨S4096, .i32⟩ : BufTy).Contents (Elt F) → (⟨S4096x1, .i32⟩ : BufTy).Contents (Elt F))) x_main_v18
  have x_main_cst : (⟨S_, .f32⟩ : BufTy).Contents (Elt F) := (constant S_ .f32 0x00000000#32)
  have x_main_v20 : (⟨S4096x2001, .f32⟩ : BufTy).Contents (Elt F) := ((broadcastInDim S4096x2001 ![] bcast_S_S4096x2001 : (⟨S_, .f32⟩ : BufTy).Contents (Elt F) → (⟨S4096x2001, .f32⟩ : BufTy).Contents (Elt F))) x_main_cst
  have x_main_c_2 : (⟨S_, .i32⟩ : BufTy).Contents (Elt F) := (constantI S_ 32 0#32)
  have x_main_v21 : (⟨S4096x1, .i32⟩ : BufTy).Contents (Elt F) := ((broadcastInDim S4096x1 ![] bcast_S_S4096x1 : (⟨S_, .i32⟩ : BufTy).Contents (Elt F) → (⟨S4096x1, .i32⟩ : BufTy).Contents (Elt F))) x_main_c_2
  have x_main_v22 : (⟨S4096x1, .i1⟩ : BufTy).Contents (Elt F) := ((cmpi .slt : (⟨S4096x1, .i32⟩ : BufTy).Contents (Elt F) → (⟨S4096x1, .i32⟩ : BufTy).Contents (Elt F) → (⟨S4096x1, .i1⟩ : BufTy).Contents (Elt F))) x_main_v19 x_main_v21
  have x_main_c_3 : (⟨S_, .i32⟩ : BufTy).Contents (Elt F) := (constantI S_ 32 4096#32)
  have x_main_v23 : (⟨S4096x1, .i32⟩ : BufTy).Contents (Elt F) := ((broadcastInDim S4096x1 ![] bcast_S_S4096x1 : (⟨S_, .i32⟩ : BufTy).Contents (Elt F) → (⟨S4096x1, .i32⟩ : BufTy).Contents (Elt F))) x_main_c_3
  have x_main_v24 : (⟨S4096x1, .i32⟩ : BufTy).Contents (Elt F) := ((addi : (⟨S4096x1, .i32⟩ : BufTy).Contents (Elt F) → (⟨S4096x1, .i32⟩ : BufTy).Contents (Elt F) → (⟨S4096x1, .i32⟩ : BufTy).Contents (Elt F))) x_main_v19 x_main_v23
  have x_main_v25 : (⟨S4096x1, .i32⟩ : BufTy).Contents (Elt F) := ((select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F))) x_main_v22 x_main_v24 x_main_v19
  have x_main_c_4 : (⟨S_, .i32⟩ : BufTy).Contents (Elt F) := (constantI S_ 32 0#32)
  have x_main_v26 : (⟨S4096x61, .i32⟩ : BufTy).Contents (Elt F) := ((broadcastInDim S4096x61 ![] bcast_S_S4096x61 : (⟨S_, .i32⟩ : BufTy).Contents (Elt F) → (⟨S4096x61, .i32⟩ : BufTy).Contents (Elt F))) x_main_c_4
  have x_main_v27 : (⟨S4096x61, .i1⟩ : BufTy).Contents (Elt F) := ((cmpi .slt : (⟨S4096x61, .i32⟩ : BufTy).Contents (Elt F) → (⟨S4096x61, .i32⟩ : BufTy).Contents (Elt F) → (⟨S4096x61, .i1⟩ : BufTy).Contents (Elt F))) x_main_v3 x_main_v26
  have x_main_c_5 : (⟨S_, .i32⟩ : BufTy).Contents (Elt F) := (constantI S_ 32 2001#32)
  have x_main_v28 : (⟨S4096x61, .i32⟩ : BufTy).Contents (Elt F) := ((broadcastInDim S4096x61 ![] bcast_S_S4096x61 : (⟨S_, .i32⟩ : BufTy).Contents (Elt F) → (⟨S4096x61, .i32⟩ : BufTy).Contents (Elt F))) x_main_c_5
  have x_main_v29 : (⟨S4096x61, .i32⟩ : BufTy).Contents (Elt F) := ((addi : (⟨S4096x61, .i32⟩ : BufTy).Contents (Elt F) → (⟨S4096x61, .i32⟩ : BufTy).Contents (Elt F) → (⟨S4096x61, .i32⟩ : BufTy).Contents (Elt F))) x_main_v3 x_main_v28
  have x_main_v30 : (⟨S4096x61, .i32⟩ : BufTy).Contents (Elt F) := ((select : (⟨S4096x61, .i1⟩ : BufTy).Contents (Elt F) → (⟨S4096x61, .i32⟩ : BufTy).Contents (Elt F) → (⟨S4096x61, .i32⟩ : BufTy).Contents (Elt F) → (⟨S4096x61, .i32⟩ : BufTy).Contents (Elt F))) x_main_v27 x_main_v29 x_main_v3
  have x_main_v31 : (⟨S4096x61, .i32⟩ : BufTy).Contents (Elt F) := ((broadcastInDim S4096x61 ![0, 1] bcast_S4096x1_S4096x61_0_1 : (⟨S4096x1, .i32⟩ : BufTy).Contents (Elt F) → (⟨S4096x61, .i32⟩ : BufTy).Contents (Elt F))) x_main_v25
  have x_main_v32 : (⟨S4096x61x1, .i32⟩ : BufTy).Contents (Elt F) := ((broadcastInDim S4096x61x1 ![0, 1] bcast_S4096x61_S4096x61x1_0_1 : (⟨S4096x61, .i32⟩ : BufTy).Contents (Elt F) → (⟨S4096x61x1, .i32⟩ : BufTy).Contents (Elt F))) x_main_v31
  have x_main_v33 : (⟨S4096x61x1, .i32⟩ : BufTy).Contents (Elt F) := ((broadcastInDim S4096x61x1 ![0, 1] bcast_S4096x61_S4096x61x1_0_1 : (⟨S4096x61, .i32⟩ : BufTy).Contents (Elt F) → (⟨S4096x61x1, .i32⟩ : BufTy).Contents (Elt F))) x_main_v30
  have x_main_v34 : (⟨S4096x61x2, .i32⟩ : BufTy).Contents (Elt F) := (((fun a b => concatenate S4096x61x2 2 [⟨S4096x61x1, a⟩, ⟨S4096x61x1, b⟩] concatenates_S4096x61x1_S4096x61x1_S4096x61x2_d2) : (⟨S4096x61x1, .i32⟩ : BufTy).Contents (Elt F) → (⟨S4096x61x1, .i32⟩ : BufTy).Contents (Elt F) → (⟨S4096x61x2, .i32⟩ : BufTy).Contents (Elt F))) x_main_v32 x_main_v33
  have x_main_v35 : (⟨S4096x2001, .f32⟩ : BufTy).Contents (Elt F) := (((fun x i u => Host.scatterAdd scatter_S4096x2001_S4096x61x2_S4096x61_n_01_01_2 x i u) : (⟨S4096x2001, .f32⟩ : BufTy).Contents (Elt F) → (⟨S4096x61x2, .i32⟩ : BufTy).Contents (Elt F) → (⟨S4096x61, .f32⟩ : BufTy).Contents (Elt F) → (⟨S4096x2001, .f32⟩ : BufTy).Contents (Elt F))) x_main_v20 x_main_v34 x_main_v1
  have x_main_v36 : (⟨S4096x2000, .f32⟩ : BufTy).Contents (Elt F) := (((extractStridedSlice S4096x2000 ![0, 0] · slices_S4096x2001_S4096x2000_0_0) : (⟨S4096x2001, .f32⟩ : BufTy).Contents (Elt F) → (⟨S4096x2000, .f32⟩ : BufTy).Contents (Elt F))) x_main_v35
  x_main_v36

/-- Buffer main_v11 as a function of the buffers the stretch reads: its 2 operations, in program order. -/
def f_w1 (x_main_arg2 : (⟨S10x2000x64, .f32⟩ : BufTy).Contents (Elt F)) :
    (⟨S2000x64, .f32⟩ : BufTy).Contents (Elt F) :=
  have x_main_v10 : (⟨S1x2000x64, .f32⟩ : BufTy).Contents (Elt F) := (((extractStridedSlice S1x2000x64 ![0, 0, 0] · slices_S10x2000x64_S1x2000x64_0_0_0) : (⟨S10x2000x64, .f32⟩ : BufTy).Contents (Elt F) → (⟨S1x2000x64, .f32⟩ : BufTy).Contents (Elt F))) x_main_arg2
  have x_main_v11 : (⟨S2000x64, .f32⟩ : BufTy).Contents (Elt F) := shapeCast S2000x64 x_main_v10 shapeCasts_S1x2000x64_S2000x64
  x_main_v11

/-- Buffer main_v13 as a function of the buffers the stretch reads: its 2 operations, in program order. -/
def f_b1 (x_main_arg3 : (⟨S10x64, .f32⟩ : BufTy).Contents (Elt F)) :
    (⟨S64, .f32⟩ : BufTy).Contents (Elt F) :=
  have x_main_v12 : (⟨S1x64, .f32⟩ : BufTy).Contents (Elt F) := (((extractStridedSlice S1x64 ![0, 0] · slices_S10x64_S1x64_0_0) : (⟨S10x64, .f32⟩ : BufTy).Contents (Elt F) → (⟨S1x64, .f32⟩ : BufTy).Contents (Elt F))) x_main_arg3
  have x_main_v13 : (⟨S64, .f32⟩ : BufTy).Contents (Elt F) := shapeCast S64 x_main_v12 shapeCasts_S1x64_S64
  x_main_v13

/-- Buffer main_v37 as a function of the buffers the stretch reads: its 3 operations, in program order. -/
def f_b1r (x_main_arg3 : (⟨S10x64, .f32⟩ : BufTy).Contents (Elt F)) :
    (⟨S1x64, .f32⟩ : BufTy).Contents (Elt F) :=
  have x_main_v12 : (⟨S1x64, .f32⟩ : BufTy).Contents (Elt F) := (((extractStridedSlice S1x64 ![0, 0] · slices_S10x64_S1x64_0_0) : (⟨S10x64, .f32⟩ : BufTy).Contents (Elt F) → (⟨S1x64, .f32⟩ : BufTy).Contents (Elt F))) x_main_arg3
  have x_main_v13 : (⟨S64, .f32⟩ : BufTy).Contents (Elt F) := shapeCast S64 x_main_v12 shapeCasts_S1x64_S64
  have x_main_v37 : (⟨S1x64, .f32⟩ : BufTy).Contents (Elt F) := shapeCast S1x64 x_main_v13 shapeCasts_S64_S1x64
  x_main_v37

/-- Buffer main_v15 as a function of the buffers the stretch reads: its 2 operations, in program order. -/
def f_w2 (x_main_arg4 : (⟨S10x64x4000, .f32⟩ : BufTy).Contents (Elt F)) :
    (⟨S64x4000, .f32⟩ : BufTy).Contents (Elt F) :=
  have x_main_v14 : (⟨S1x64x4000, .f32⟩ : BufTy).Contents (Elt F) := (((extractStridedSlice S1x64x4000 ![0, 0, 0] · slices_S10x64x4000_S1x64x4000_0_0_0) : (⟨S10x64x4000, .f32⟩ : BufTy).Contents (Elt F) → (⟨S1x64x4000, .f32⟩ : BufTy).Contents (Elt F))) x_main_arg4
  have x_main_v15 : (⟨S64x4000, .f32⟩ : BufTy).Contents (Elt F) := shapeCast S64x4000 x_main_v14 shapeCasts_S1x64x4000_S64x4000
  x_main_v15

/-- Buffer main_v17 as a function of the buffers the stretch reads: its 2 operations, in program order. -/
def f_b2 (x_main_arg5 : (⟨S10x4000, .f32⟩ : BufTy).Contents (Elt F)) :
    (⟨S4000, .f32⟩ : BufTy).Contents (Elt F) :=
  have x_main_v16 : (⟨S1x4000, .f32⟩ : BufTy).Contents (Elt F) := (((extractStridedSlice S1x4000 ![0, 0] · slices_S10x4000_S1x4000_0_0) : (⟨S10x4000, .f32⟩ : BufTy).Contents (Elt F) → (⟨S1x4000, .f32⟩ : BufTy).Contents (Elt F))) x_main_arg5
  have x_main_v17 : (⟨S4000, .f32⟩ : BufTy).Contents (Elt F) := shapeCast S4000 x_main_v16 shapeCasts_S1x4000_S4000
  x_main_v17

/-- Buffer main_v38 as a function of the buffers the stretch reads: its 3 operations, in program order. -/
def f_b2r (x_main_arg5 : (⟨S10x4000, .f32⟩ : BufTy).Contents (Elt F)) :
    (⟨S1x4000, .f32⟩ : BufTy).Contents (Elt F) :=
  have x_main_v16 : (⟨S1x4000, .f32⟩ : BufTy).Contents (Elt F) := (((extractStridedSlice S1x4000 ![0, 0] · slices_S10x4000_S1x4000_0_0) : (⟨S10x4000, .f32⟩ : BufTy).Contents (Elt F) → (⟨S1x4000, .f32⟩ : BufTy).Contents (Elt F))) x_main_arg5
  have x_main_v17 : (⟨S4000, .f32⟩ : BufTy).Contents (Elt F) := shapeCast S4000 x_main_v16 shapeCasts_S1x4000_S4000
  have x_main_v38 : (⟨S1x4000, .f32⟩ : BufTy).Contents (Elt F) := shapeCast S1x4000 x_main_v17 shapeCasts_S4000_S1x4000
  x_main_v38

/-- Buffer main_v9 as a function of the buffers the stretch reads: its 12 operations, in program order. -/
def f_oidx (x_main_arg6 : (⟨S4096x125, .i32⟩ : BufTy).Contents (Elt F)) :
    (⟨S4096x128, .i32⟩ : BufTy).Contents (Elt F) :=
  have x_main_v2 : (⟨S4096x64, .i32⟩ : BufTy).Contents (Elt F) := (((extractStridedSlice S4096x64 ![0, 0] · slices_S4096x125_S4096x64_0_0) : (⟨S4096x125, .i32⟩ : BufTy).Contents (Elt F) → (⟨S4096x64, .i32⟩ : BufTy).Contents (Elt F))) x_main_arg6
  have x_main_c : (⟨S_, .i32⟩ : BufTy).Contents (Elt F) := (constantI S_ 32 2000#32)
  have x_main_v4 : (⟨S4096x64, .i32⟩ : BufTy).Contents (Elt F) := ((broadcastInDim S4096x64 ![] bcast_S_S4096x64 : (⟨S_, .i32⟩ : BufTy).Contents (Elt F) → (⟨S4096x64, .i32⟩ : BufTy).Contents (Elt F))) x_main_c
  have x_main_v5 : (⟨S4096x64, .i1⟩ : BufTy).Contents (Elt F) := ((cmpi .eq : (⟨S4096x64, .i32⟩ : BufTy).Contents (Elt F) → (⟨S4096x64, .i32⟩ : BufTy).Contents (Elt F) → (⟨S4096x64, .i1⟩ : BufTy).Contents (Elt F))) x_main_v2 x_main_v4
  have x_main_c_0 : (⟨S_, .i32⟩ : BufTy).Contents (Elt F) := (constantI S_ 32 2000#32)
  have x_main_v6 : (⟨S4096x64, .i32⟩ : BufTy).Contents (Elt F) := ((broadcastInDim S4096x64 ![] bcast_S_S4096x64 : (⟨S_, .i32⟩ : BufTy).Contents (Elt F) → (⟨S4096x64, .i32⟩ : BufTy).Contents (Elt F))) x_main_c_0
  have x_main_v7 : (⟨S4096x64, .i32⟩ : BufTy).Contents (Elt F) := ((addi : (⟨S4096x64, .i32⟩ : BufTy).Contents (Elt F) → (⟨S4096x64, .i32⟩ : BufTy).Contents (Elt F) → (⟨S4096x64, .i32⟩ : BufTy).Contents (Elt F))) x_main_v2 x_main_v6
  have x_main_c_1 : (⟨S_, .i32⟩ : BufTy).Contents (Elt F) := (constantI S_ 32 4000#32)
  have x_main_call0_v0 : (⟨S_, .i32⟩ : BufTy).Contents (Elt F) := (id) x_main_c_1
  have x_main_call0_v1 : (⟨S4096x64, .i32⟩ : BufTy).Contents (Elt F) := ((broadcastInDim S4096x64 ![] bcast_S_S4096x64)) x_main_call0_v0
  have x_main_v8 : (⟨S4096x64, .i32⟩ : BufTy).Contents (Elt F) := (select) x_main_v5 x_main_call0_v1 x_main_v7
  have x_main_v9 : (⟨S4096x128, .i32⟩ : BufTy).Contents (Elt F) := (((fun a b => concatenate S4096x128 1 [⟨S4096x64, a⟩, ⟨S4096x64, b⟩] concatenates_S4096x64_S4096x64_S4096x128_d1) : (⟨S4096x64, .i32⟩ : BufTy).Contents (Elt F) → (⟨S4096x64, .i32⟩ : BufTy).Contents (Elt F) → (⟨S4096x128, .i32⟩ : BufTy).Contents (Elt F))) x_main_v2 x_main_v8
  x_main_v9

/-- Buffer main_v0 as a function of the buffers the stretch reads: its 1 operations, in program order. -/
def f_a (x_main_arg0 : (⟨S4096x125, .f32⟩ : BufTy).Contents (Elt F)) :
    (⟨S4096x64, .f32⟩ : BufTy).Contents (Elt F) :=
  have x_main_v0 : (⟨S4096x64, .f32⟩ : BufTy).Contents (Elt F) := (((extractStridedSlice S4096x64 ![0, 0] · slices_S4096x125_S4096x64_0_0) : (⟨S4096x125, .f32⟩ : BufTy).Contents (Elt F) → (⟨S4096x64, .f32⟩ : BufTy).Contents (Elt F))) x_main_arg0
  x_main_v0

/-- Buffer main_v1 as a function of the buffers the stretch reads: its 1 operations, in program order. -/
def f_b (x_main_arg0 : (⟨S4096x125, .f32⟩ : BufTy).Contents (Elt F)) :
    (⟨S4096x61, .f32⟩ : BufTy).Contents (Elt F) :=
  have x_main_v1 : (⟨S4096x61, .f32⟩ : BufTy).Contents (Elt F) := (((extractStridedSlice S4096x61 ![0, 64] · slices_S4096x125_S4096x61_0_64) : (⟨S4096x125, .f32⟩ : BufTy).Contents (Elt F) → (⟨S4096x61, .f32⟩ : BufTy).Contents (Elt F))) x_main_arg0
  x_main_v1

/-- Buffer main_v2 as a function of the buffers the stretch reads: its 1 operations, in program order. -/
def f_ia (x_main_arg6 : (⟨S4096x125, .i32⟩ : BufTy).Contents (Elt F)) :
    (⟨S4096x64, .i32⟩ : BufTy).Contents (Elt F) :=
  have x_main_v2 : (⟨S4096x64, .i32⟩ : BufTy).Contents (Elt F) := (((extractStridedSlice S4096x64 ![0, 0] · slices_S4096x125_S4096x64_0_0) : (⟨S4096x125, .i32⟩ : BufTy).Contents (Elt F) → (⟨S4096x64, .i32⟩ : BufTy).Contents (Elt F))) x_main_arg6
  x_main_v2

/-- Buffer main_v3 as a function of the buffers the stretch reads: its 1 operations, in program order. -/
def f_ib (x_main_arg6 : (⟨S4096x125, .i32⟩ : BufTy).Contents (Elt F)) :
    (⟨S4096x61, .i32⟩ : BufTy).Contents (Elt F) :=
  have x_main_v3 : (⟨S4096x61, .i32⟩ : BufTy).Contents (Elt F) := (((extractStridedSlice S4096x61 ![0, 64] · slices_S4096x125_S4096x61_0_64) : (⟨S4096x125, .i32⟩ : BufTy).Contents (Elt F) → (⟨S4096x61, .i32⟩ : BufTy).Contents (Elt F))) x_main_arg6
  x_main_v3

-- the gather, the scatter and the reductions are never opened: both sides apply them to equal arguments
attribute [local irreducible] Host.scatterAdd Host.reduce Host.gather Host.reduceAdd concatenate extractStridedSlice broadcastInDim iotaInDim in
set_option maxHeartbeats 8000000 in
set_option maxRecDepth 100000 in
/-- The stretch's fold at each of those buffers. -/
theorem reads (V : Valuation τ sig (Elt F)) :
    after hostOps0_2 (after hostOps0_1 (after hostOps0 V)) (Proc.devRef .tc main_v36) = f_dense (V (Proc.devRef .tc main_arg6)) (V (Proc.devRef .tc main_arg0))
    ∧ after hostOps0_2 (after hostOps0_1 (after hostOps0 V)) (Proc.devRef .tc main_v11) = f_w1 (V (Proc.devRef .tc main_arg2))
    ∧ after hostOps0_2 (after hostOps0_1 (after hostOps0 V)) (Proc.devRef .tc main_v13) = f_b1 (V (Proc.devRef .tc main_arg3))
    ∧ after hostOps0_2 (after hostOps0_1 (after hostOps0 V)) (Proc.devRef .tc main_v37) = f_b1r (V (Proc.devRef .tc main_arg3))
    ∧ after hostOps0_2 (after hostOps0_1 (after hostOps0 V)) (Proc.devRef .tc main_v15) = f_w2 (V (Proc.devRef .tc main_arg4))
    ∧ after hostOps0_2 (after hostOps0_1 (after hostOps0 V)) (Proc.devRef .tc main_v17) = f_b2 (V (Proc.devRef .tc main_arg5))
    ∧ after hostOps0_2 (after hostOps0_1 (after hostOps0 V)) (Proc.devRef .tc main_v38) = f_b2r (V (Proc.devRef .tc main_arg5))
    ∧ after hostOps0_2 (after hostOps0_1 (after hostOps0 V)) (Proc.devRef .tc main_v9) = f_oidx (V (Proc.devRef .tc main_arg6))
    ∧ after hostOps0_2 (after hostOps0_1 (after hostOps0 V)) (Proc.devRef .tc main_v0) = f_a (V (Proc.devRef .tc main_arg0))
    ∧ after hostOps0_2 (after hostOps0_1 (after hostOps0 V)) (Proc.devRef .tc main_v1) = f_b (V (Proc.devRef .tc main_arg0))
    ∧ after hostOps0_2 (after hostOps0_1 (after hostOps0 V)) (Proc.devRef .tc main_arg1) = V (Proc.devRef .tc main_arg1)
    ∧ after hostOps0_2 (after hostOps0_1 (after hostOps0 V)) (Proc.devRef .tc main_v2) = f_ia (V (Proc.devRef .tc main_arg6))
    ∧ after hostOps0_2 (after hostOps0_1 (after hostOps0 V)) (Proc.devRef .tc main_v3) = f_ib (V (Proc.devRef .tc main_arg6))
    ∧ after hostOps0_2 (after hostOps0_1 (after hostOps0 V)) (Proc.devRef .tc main_arg2) = V (Proc.devRef .tc main_arg2)
    ∧ after hostOps0_2 (after hostOps0_1 (after hostOps0 V)) (Proc.devRef .tc main_arg3) = V (Proc.devRef .tc main_arg3)
    ∧ after hostOps0_2 (after hostOps0_1 (after hostOps0 V)) (Proc.devRef .tc main_arg4) = V (Proc.devRef .tc main_arg4)
    ∧ after hostOps0_2 (after hostOps0_1 (after hostOps0 V)) (Proc.devRef .tc main_arg5) = V (Proc.devRef .tc main_arg5) := by
  simp only [hostOps0, hostOps0_1, hostOps0_2]
  after_results_simp
  refine ⟨?_, ?_, ?_, ?_, ?_, ?_, ?_, ?_, ?_, ?_, ?_, ?_, ?_, ?_, ?_, ?_, ?_⟩ <;> first | rfl | trivial

end Cert.KernelIdeal.Layer0

end
-- ==== Proof.LibTRef.lean ====
/-
  Reading a typed reference's buffer back: contents stored at a value's type and read again at that type are unchanged
  (the two transports along the reference's type equation cancel).
-/
import Idealize.ShloMosaic.Lib.StableHlo

noncomputable section

namespace Cert.LibTRef

open Idealize.ShloMosaic Idealize.ShloMosaic.StableHlo

/-- Stored at the value's type, then read at the value's type: the same contents. -/
theorem ofBuf_toBuf {sig : RefSig} {T : BufTy} {Val : EltTy → Type} (x : TRef sig T) (v : T.Contents Val) :
    x.ofBuf (x.toBuf v) = v := by
  obtain ⟨r, h, h1, h2⟩ := x
  subst h
  rfl

end Cert.LibTRef

end
-- ==== Proof.LayerR0a.lean ====
/- The reference's operations of the same stage (the launch and kernel region 0 on the kernel side), read as the SAME functions
  as the kernel program's: the five buffers the layer's perceptron is computed from.
-/
import proofs.«140670_j11424613007642_1_alg».proof.Proof.RefRun
import proofs.«140670_j11424613007642_1_alg».proof.Proof.LayerK0
import proofs.«140670_j11424613007642_1_alg».proof.Proof.LibTRef
import Idealize.ShloMosaic.PureOps.Ideal

set_option maxRecDepth 16384

noncomputable section

namespace Cert.ReferenceIdeal.LayerR0

open Cert.ReferenceIdeal Cert.ReferenceIdeal.Gen Cert.ReferenceIdeal.RefRun Idealize.ShloMosaic Idealize.ShloMosaic.StableHlo Idealize.ShloMosaic.TcCoe

-- the gather, the scatter and the reductions are never opened: both sides apply them to equal arguments
attribute [local irreducible] Host.scatterAdd Host.reduce Host.gather Host.reduceAdd concatenate extractStridedSlice broadcastInDim iotaInDim in
set_option maxHeartbeats 16000000 in
set_option maxRecDepth 100000 in
/-- The five buffers the layer's perceptron is computed from. -/
theorem readsIn (V' : Valuation τ sig (Elt Ideal)) :
    after rseg0 V' (Proc.devRef .tc main_v36) = Cert.KernelIdeal.Layer0.f_dense (V' (Proc.devRef .tc main_arg6)) (V' (Proc.devRef .tc main_arg0))
    ∧ after rseg0 V' (Proc.devRef .tc main_v11) = Cert.KernelIdeal.Layer0.f_w1 (V' (Proc.devRef .tc main_arg2))
    ∧ after rseg0 V' (Proc.devRef .tc main_v13) = Cert.KernelIdeal.Layer0.f_b1 (V' (Proc.devRef .tc main_arg3))
    ∧ after rseg0 V' (Proc.devRef .tc main_v15) = Cert.KernelIdeal.Layer0.f_w2 (V' (Proc.devRef .tc main_arg4))
    ∧ after rseg0 V' (Proc.devRef .tc main_v17) = Cert.KernelIdeal.Layer0.f_b2 (V' (Proc.devRef .tc main_arg5)) := by
  simp only [after_append_line, rseg0, rseg0_a, rseg0_b]
  after_results_simp
  -- contents stored through a typed reference and read back through it are unchanged
  try simp only [Cert.LibTRef.ofBuf_toBuf]
  refine ⟨?_, ?_, ?_, ?_, ?_⟩ <;> first | rfl | trivial

end Cert.ReferenceIdeal.LayerR0

end
-- ==== Proof.LayerR0b.lean ====
/- The reference's operations of the same stage (the launch and kernel region 0 on the kernel side), read as the SAME functions
  as the kernel program's: the other buffers the next stage needs; a buffer the segment does not write keeps its contents.
-/
import proofs.«140670_j11424613007642_1_alg».proof.Proof.RefRun
import proofs.«140670_j11424613007642_1_alg».proof.Proof.LayerK0
import proofs.«140670_j11424613007642_1_alg».proof.Proof.LibTRef
import Idealize.ShloMosaic.PureOps.Ideal

set_option maxRecDepth 16384

noncomputable section

namespace Cert.ReferenceIdeal.LayerR0

open Cert.ReferenceIdeal Cert.ReferenceIdeal.Gen Cert.ReferenceIdeal.RefRun Idealize.ShloMosaic Idealize.ShloMosaic.StableHlo Idealize.ShloMosaic.TcCoe

-- the gather, the scatter and the reductions are never opened: both sides apply them to equal arguments
attribute [local irreducible] Host.scatterAdd Host.reduce Host.gather Host.reduceAdd concatenate extractStridedSlice broadcastInDim iotaInDim in
set_option maxHeartbeats 16000000 in
set_option maxRecDepth 100000 in
/-- The other buffers the next stage needs. -/
theorem reads (V' : Valuation τ sig (Elt Ideal)) :
    after rseg0 V' (Proc.devRef .tc main_v9) = Cert.KernelIdeal.Layer0.f_oidx (V' (Proc.devRef .tc main_arg6))
    ∧ after rseg0 V' (Proc.devRef .tc main_v0) = Cert.KernelIdeal.Layer0.f_a (V' (Proc.devRef .tc main_arg0))
    ∧ after rseg0 V' (Proc.devRef .tc main_v1) = Cert.KernelIdeal.Layer0.f_b (V' (Proc.devRef .tc main_arg0))
    ∧ after rseg0 V' (Proc.devRef .tc main_arg1) = V' (Proc.devRef .tc main_arg1)
    ∧ after rseg0 V' (Proc.devRef .tc main_v2) = Cert.KernelIdeal.Layer0.f_ia (V' (Proc.devRef .tc main_arg6))
    ∧ after rseg0 V' (Proc.devRef .tc main_v3) = Cert.KernelIdeal.Layer0.f_ib (V' (Proc.devRef .tc main_arg6))
    ∧ after rseg0 V' (Proc.devRef .tc main_arg2) = V' (Proc.devRef .tc main_arg2)
    ∧ after rseg0 V' (Proc.devRef .tc main_arg3) = V' (Proc.devRef .tc main_arg3)
    ∧ after rseg0 V' (Proc.devRef .tc main_arg4) = V' (Proc.devRef .tc main_arg4)
    ∧ after rseg0 V' (Proc.devRef .tc main_arg5) = V' (Proc.devRef .tc main_arg5) := by
  simp only [after_append_line, rseg0, rseg0_a, rseg0_b]
  after_results_simp
  -- contents stored through a typed reference and read back through it are unchanged
  try simp only [Cert.LibTRef.ofBuf_toBuf]
  refine ⟨?_, ?_, ?_, ?_, ?_, ?_, ?_, ?_, ?_, ?_⟩ <;> first | rfl | trivial

end Cert.ReferenceIdeal.LayerR0

end
-- ==== Proof.LayerR0c.lean ====
/- The reference's operations of the same stage (the launch and kernel region 0 on the kernel side), read as the SAME functions
  as the kernel program's: the layer's perceptron output is the host perceptron of the five buffers it is computed from.
-/
import proofs.«140670_j11424613007642_1_alg».proof.Proof.RefRun
import proofs.«140670_j11424613007642_1_alg».proof.Proof.MlpHost
import Idealize.ShloMosaic.PureOps.Ideal

set_option maxRecDepth 16384

noncomputable section

namespace Cert.ReferenceIdeal.LayerR0

open Cert.ReferenceIdeal Cert.ReferenceIdeal.Gen Cert.ReferenceIdeal.RefRun Idealize.ShloMosaic Idealize.ShloMosaic.StableHlo Idealize.ShloMosaic.TcCoe

-- the gather, the scatter and the reductions are never opened: both sides apply them to equal arguments
attribute [local irreducible] Host.scatterAdd Host.reduce Host.gather Host.reduceAdd concatenate extractStridedSlice broadcastInDim iotaInDim in
set_option maxHeartbeats 16000000 in
set_option maxRecDepth 100000 in
/-- The layer's perceptron output is the host perceptron of those five buffers. -/
theorem readsOut (V' : Valuation τ sig (Elt Ideal)) :
    after rseg0 V' (Proc.devRef .tc main_v45) = Cert.ReferenceIdeal.MlpHost.hostMlp (after rseg0 V' (Proc.devRef .tc main_v36)) (after rseg0 V' (Proc.devRef .tc main_v11)) (after rseg0 V' (Proc.devRef .tc main_v13)) (after rseg0 V' (Proc.devRef .tc main_v15)) (after rseg0 V' (Proc.devRef .tc main_v17)) := by
  simp only [after_append_line, rseg0, rseg0_a, rseg0_b]
  after_results_simp
  first | rfl | trivial

end Cert.ReferenceIdeal.LayerR0

end
-- ==== Proof.LayerR0.lean ====
/- The reference's side of this stage, collected: the three statements live in one module each.
-/
import proofs.«140670_j11424613007642_1_alg».proof.Proof.LayerR0a
import proofs.«140670_j11424613007642_1_alg».proof.Proof.LayerR0b
import proofs.«140670_j11424613007642_1_alg».proof.Proof.LayerR0c
-- ==== Proof.Step0.lean ====
/-
  The first layer. From launch memories that agree on the seven arguments, after layer 0's perceptron output the two
  programs hold the same eleven values: the host operations before the first kernel region read, on both sides, as the
  same functions of the arguments; the region leaves the layer function of its operand arrays; the reference's host
  perceptron is that function.
-/
import proofs.«140670_j11424613007642_1_alg».proof.Proof.KernelIdealFrameP
import proofs.«140670_j11424613007642_1_alg».proof.Proof.BridgeDefs
import proofs.«140670_j11424613007642_1_alg».proof.Proof.Congr
import proofs.«140670_j11424613007642_1_alg».proof.Proof.MlpBridge
import proofs.«140670_j11424613007642_1_alg».proof.Proof.Region0
import proofs.«140670_j11424613007642_1_alg».proof.Proof.LayerK0
import proofs.«140670_j11424613007642_1_alg».proof.Proof.LayerR0

set_option maxRecDepth 16384

noncomputable section

namespace Cert.Bridge

open Cert.KernelIdeal Cert.KernelIdeal.Gen Cert.KernelIdeal.GenP Cert.KernelIdeal.MlpArray
open Idealize.ShloMosaic Idealize.ShloMosaic.StableHlo Idealize.ShloMosaic.TcCoe Idealize.SL.Sem

set_option maxHeartbeats 4000000 in
theorem step0 (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ) (c : Dev nD)
    (hag : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)) :
    Inv0 (W4 m ρ c) (after Cert.ReferenceIdeal.RefRun.rseg0 (launchContents m' c)) := by
  obtain ⟨h0, h1, h2, h3, h4, h5, h6⟩ := hag
  have e0 : launchContents m' c (Proc.devRef .tc Cert.ReferenceIdeal.main_arg0) = m ((c.tc : Thread nD τ).loc main_arg0) := h0
  have e1 : launchContents m' c (Proc.devRef .tc Cert.ReferenceIdeal.main_arg1) = m ((c.tc : Thread nD τ).loc main_arg1) := h1
  have e2 : launchContents m' c (Proc.devRef .tc Cert.ReferenceIdeal.main_arg2) = m ((c.tc : Thread nD τ).loc main_arg2) := h2
  have e3 : launchContents m' c (Proc.devRef .tc Cert.ReferenceIdeal.main_arg3) = m ((c.tc : Thread nD τ).loc main_arg3) := h3
  have e4 : launchContents m' c (Proc.devRef .tc Cert.ReferenceIdeal.main_arg4) = m ((c.tc : Thread nD τ).loc main_arg4) := h4
  have e5 : launchContents m' c (Proc.devRef .tc Cert.ReferenceIdeal.main_arg5) = m ((c.tc : Thread nD τ).loc main_arg5) := h5
  have e6 : launchContents m' c (Proc.devRef .tc Cert.ReferenceIdeal.main_arg6) = m ((c.tc : Thread nD τ).loc main_arg6) := h6
  obtain ⟨Kdense, Kw1, Kb1, Kb1r, Kw2, Kb2, Kb2r, Koidx, Ka, Kb, Kq, Kia, Kib, Kw1s, Kb1s, Kw2s, Kb2s⟩ :=
    Cert.KernelIdeal.Layer0.reads (F := Ideal) (W0 m ρ c)
  obtain ⟨Rdense, Rw1, Rb1, Rw2, Rb2⟩ := Cert.ReferenceIdeal.LayerR0.readsIn (launchContents m' c)
  obtain ⟨Roidx, Ra, Rb, Rq, Ria, Rib, Rw1s, Rb1s, Rw2s, Rb2s⟩ := Cert.ReferenceIdeal.LayerR0.reads (launchContents m' c)
  have Rout := Cert.ReferenceIdeal.LayerR0.readsOut (launchContents m' c)
  have Rdense' := Rdense.trans (show _ = Cert.KernelIdeal.Layer0.f_dense (m ((c.tc : Thread nD τ).loc main_arg6)) (m ((c.tc : Thread nD τ).loc main_arg0)) by simp only [e6, e0])
  have Rw1' := Rw1.trans (show _ = Cert.KernelIdeal.Layer0.f_w1 (m ((c.tc : Thread nD τ).loc main_arg2)) by simp only [e2])
  have Rb1' := Rb1.trans (show _ = Cert.KernelIdeal.Layer0.f_b1 (m ((c.tc : Thread nD τ).loc main_arg3)) by simp only [e3])
  have Rw2' := Rw2.trans (show _ = Cert.KernelIdeal.Layer0.f_w2 (m ((c.tc : Thread nD τ).loc main_arg4)) by simp only [e4])
  have Rb2' := Rb2.trans (show _ = Cert.KernelIdeal.Layer0.f_b2 (m ((c.tc : Thread nD τ).loc main_arg5)) by simp only [e5])
  have Roidx' := Roidx.trans (show _ = Cert.KernelIdeal.Layer0.f_oidx (m ((c.tc : Thread nD τ).loc main_arg6)) by simp only [e6])
  have Ra' := Ra.trans (show _ = Cert.KernelIdeal.Layer0.f_a (m ((c.tc : Thread nD τ).loc main_arg0)) by simp only [e0])
  have Rb' := Rb.trans (show _ = Cert.KernelIdeal.Layer0.f_b (m ((c.tc : Thread nD τ).loc main_arg0)) by simp only [e0])
  have Ria' := Ria.trans (show _ = Cert.KernelIdeal.Layer0.f_ia (m ((c.tc : Thread nD τ).loc main_arg6)) by simp only [e6])
  have Rib' := Rib.trans (show _ = Cert.KernelIdeal.Layer0.f_ib (m ((c.tc : Thread nD τ).loc main_arg6)) by simp only [e6])
  refine ⟨G (Cert.KernelIdeal.Layer0.f_dense (m ((c.tc : Thread nD τ).loc main_arg6)) (m ((c.tc : Thread nD τ).loc main_arg0))) (Cert.KernelIdeal.Layer0.f_w1 (m ((c.tc : Thread nD τ).loc main_arg2))) (Cert.KernelIdeal.Layer0.f_b1r (m ((c.tc : Thread nD τ).loc main_arg3))) (Cert.KernelIdeal.Layer0.f_w2 (m ((c.tc : Thread nD τ).loc main_arg4))) (Cert.KernelIdeal.Layer0.f_b2r (m ((c.tc : Thread nD τ).loc main_arg5))),
    Cert.KernelIdeal.Layer0.f_oidx (m ((c.tc : Thread nD τ).loc main_arg6)), Cert.KernelIdeal.Layer0.f_a (m ((c.tc : Thread nD τ).loc main_arg0)), Cert.KernelIdeal.Layer0.f_b (m ((c.tc : Thread nD τ).loc main_arg0)), (m ((c.tc : Thread nD τ).loc main_arg1)), Cert.KernelIdeal.Layer0.f_ia (m ((c.tc : Thread nD τ).loc main_arg6)), Cert.KernelIdeal.Layer0.f_ib (m ((c.tc : Thread nD τ).loc main_arg6)),
    (m ((c.tc : Thread nD τ).loc main_arg2)), (m ((c.tc : Thread nD τ).loc main_arg3)), (m ((c.tc : Thread nD τ).loc main_arg4)), (m ((c.tc : Thread nD τ).loc main_arg5)), ⟨?_, ?_⟩,
    ⟨(W4_of_ne m ρ c main_v9 (by decide)).trans Koidx, Roidx'⟩,
    ⟨(W4_of_ne m ρ c main_v0 (by decide)).trans Ka, Ra'⟩,
    ⟨(W4_of_ne m ρ c main_v1 (by decide)).trans Kb, Rb'⟩,
    ⟨(W4_of_ne m ρ c main_arg1 (by decide)).trans Kq, Rq.trans e1⟩,
    ⟨(W4_of_ne m ρ c main_v2 (by decide)).trans Kia, Ria'⟩,
    ⟨(W4_of_ne m ρ c main_v3 (by decide)).trans Kib, Rib'⟩,
    ⟨(W4_of_ne m ρ c main_arg2 (by decide)).trans Kw1s, Rw1s.trans e2⟩,
    ⟨(W4_of_ne m ρ c main_arg3 (by decide)).trans Kb1s, Rb1s.trans e3⟩,
    ⟨(W4_of_ne m ρ c main_arg4 (by decide)).trans Kw2s, Rw2s.trans e4⟩,
    ⟨(W4_of_ne m ρ c main_arg5 (by decide)).trans Kb2s, Rb2s.trans e5⟩⟩
  · exact (W4_arr m ρ c 5).trans ((Cert.KernelIdeal.Region0.regionOut (V3 m ρ) c).trans (G_congr Kdense Kw1 Kb1r Kw2 Kb2r))
  · exact Rout.trans ((hostMlp_congr Rdense' Rw1' Rb1' Rw2' Rb2').trans (Cert.MlpBridge.host_eq_G _ _ _ _ _))

end Cert.Bridge

end
-- ==== Proof.Region1.lean ====
/-
  python3 scratch/gen_regions.py 1

  Kernel region 1 (one layer's perceptron): whatever the TensorCore's buffers hold when the region is entered,
  the region leaves its output array holding the layer function of its five operand arrays. The grid has eight
  points; point t is given rows 512·t … 512·t+511 of the input and all of both weight matrices and biases, and
  writes rows 512·t … 512·t+511 of the output. Entry (r, j) of the output depends on row r of the input alone, so
  each written block is the restriction of ONE whole-array function, and the eight blocks tile the output.
-/
import proofs.«140670_j11424613007642_1_alg».proof.Proof.KernelIdealFrameP
import proofs.«140670_j11424613007642_1_alg».proof.Proof.MlpKernel
import proofs.«140670_j11424613007642_1_alg».proof.Proof.MlpArray
import Idealize.ShloMosaic.Lib.Pipeline.Value
import Idealize.ShloMosaic.Lib.ValueIdx

set_option maxRecDepth 16384

noncomputable section

namespace Cert.KernelIdeal.Region1

open Cert.KernelIdeal Cert.KernelIdeal.Gen Cert.KernelIdeal.GenP Cert.KernelIdeal.MlpArray
open Idealize.ShloMosaic Idealize.ShloMosaic.TcCoe Idealize.ShloMosaic.ValueIdx Idealize.SL.Sem
open Idealize.ShloMosaic.Pipeline (Dat Cfg Window)

/-- The body reads and writes its staging buffers whole: at offsets zero. -/
theorem zero_offsets : (![0, 0] : Fin 2 → Nat) = fun _ => 0 := funext fun a => by fin_cases a <;> rfl

/-- The printed index maps over the grid: the input's and the output's row block is the grid point, every other
    block index is zero. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The row function depends on its five arguments through their values alone. -/
theorem mlpRow_congr {d d' : Fin 2000 → EReal} {w1 w1' : Fin 2000 → Fin 64 → EReal} {b1 b1' : Fin 64 → EReal}
    {w2 w2' : Fin 64 → Fin 4000 → EReal} {b2 b2' : Fin 4000 → EReal}
    (hd : ∀ l, d l = d' l) (hw1 : ∀ l k, w1 l k = w1' l k) (hb1 : ∀ k, b1 k = b1' k)
    (hw2 : ∀ k j, w2 k j = w2' k j) (hb2 : ∀ j, b2 j = b2' j) (j : Fin 4000) :
    Cert.MlpSpec.mlpRow d w1 b1 w2 b2 j = Cert.MlpSpec.mlpRow d' w1' b1' w2' b2' j := by
  have e1 : d = d' := funext hd
  have e2 : w1 = w1' := funext fun l => funext (hw1 l)
  have e3 : b1 = b1' := funext hb1
  have e4 : w2 = w2' := funext fun k => funext (hw2 k)
  have e5 : b2 = b2' := funext hb2
  rw [e1, e2, e3, e4, e5]

/-- The payload of the operand arrays' blocks at point `t` is block `t` of the layer function of the arrays:
    entry `(p, q)` of the block is entry `(512·t + p, q)` of the array; the input's block holds rows
    `512·t + p`, and the weights' and biases' blocks are the whole arrays. -/
theorem payload_block (A0 : S4096x2000.Idx → EReal) (A1 : S2000x64.Idx → EReal) (A2 : S1x64.Idx → EReal)
    (A3 : S64x4000.Idx → EReal) (A4 : S1x4000.Idx → EReal) (t : Fin cfg1.N) :
    k1_pay1 (F := Ideal) (((cfg1.win 0).blk t).view.read (Elt Ideal) A0) (((cfg1.win 1).blk t).view.read (Elt Ideal) A1)
        (((cfg1.win 2).blk t).view.read (Elt Ideal) A2) (((cfg1.win 3).blk t).view.read (Elt Ideal) A3)
        (((cfg1.win 4).blk t).view.read (Elt Ideal) A4)
      = ((cfg1.win 5).blk t).view.read (Elt Ideal) (G A0 A1 A2 A3 A4) := by
  obtain ⟨e00, e01, e10, e11, e20, e21, e30, e31, e40, e41, e50, e51⟩ := block_indices t
  have hN : cfg1.N = 8 := rfl
  have ht : t.val < 8 := hN ▸ t.isLt
  rw [Cert.KernelIdeal.MlpKernel.pay1_eq]
  funext j
  obtain ⟨p, q, rfl⟩ : ∃ (p : Fin 512) (q : Fin 4000), j = ix2 p q := ⟨j 0, j 1, eq_ix2 j⟩
  refine (Cert.KernelIdeal.MlpKernel.pay_apply (((cfg1.win 0).blk t).view.read (Elt Ideal) A0)
    (((cfg1.win 1).blk t).view.read (Elt Ideal) A1) (((cfg1.win 2).blk t).view.read (Elt Ideal) A2)
    (((cfg1.win 3).blk t).view.read (Elt Ideal) A3) (((cfg1.win 4).blk t).view.read (Elt Ideal) A4) p q).trans ?_
  have h5 : ((cfg1.win 5).blk t).view.emb (ix2 p q)
      = ix2 (⟨t.val * 512 + p.val, by have := p.isLt; omega⟩ : Fin 4096) q := by
    funext a; apply Fin.ext
    match a with
    | ⟨0, _⟩ => show win1_5.index t (0 : Fin 2) * 512 + 1 * p.val = t.val * 512 + p.val; omega
    | ⟨1, _⟩ => show win1_5.index t (1 : Fin 2) * 4000 + 1 * q.val = q.val; omega
  show _ = G A0 A1 A2 A3 A4 (((cfg1.win 5).blk t).view.emb (ix2 p q))
  rw [h5, G_apply]
  refine mlpRow_congr (fun l => ?_) (fun l k => ?_) (fun k => ?_) (fun k j' => ?_) (fun j' => ?_) q
  · show A0 (((cfg1.win 0).blk t).view.emb (ix2 p l)) = A0 (ix2 (⟨t.val * 512 + p.val, by have := p.isLt; omega⟩ : Fin 4096) l)
    refine congrArg A0 ?_
    funext a; apply Fin.ext
    match a with
    | ⟨0, _⟩ => show win1_0.index t (0 : Fin 2) * 512 + 1 * p.val = t.val * 512 + p.val; omega
    | ⟨1, _⟩ => show win1_0.index t (1 : Fin 2) * 2000 + 1 * l.val = l.val; omega
  · show A1 (((cfg1.win 1).blk t).view.emb (ix2 l k)) = A1 (ix2 l k)
    refine congrArg A1 ?_
    funext a; apply Fin.ext
    match a with
    | ⟨0, _⟩ => show win1_1.index t (0 : Fin 2) * 2000 + 1 * l.val = l.val; omega
    | ⟨1, _⟩ => show win1_1.index t (1 : Fin 2) * 64 + 1 * k.val = k.val; omega
  · show A2 (((cfg1.win 2).blk t).view.emb (ix2 (0 : Fin 1) k)) = A2 (ix2 (0 : Fin 1) k)
    refine congrArg A2 ?_
    funext a; apply Fin.ext
    match a with
    | ⟨0, _⟩ => show win1_2.index t (0 : Fin 2) * 1 + 1 * 0 = 0; omega
    | ⟨1, _⟩ => show win1_2.index t (1 : Fin 2) * 64 + 1 * k.val = k.val; omega
  · show A3 (((cfg1.win 3).blk t).view.emb (ix2 k j')) = A3 (ix2 k j')
    refine congrArg A3 ?_
    funext a; apply Fin.ext
    match a with
    | ⟨0, _⟩ => show win1_3.index t (0 : Fin 2) * 64 + 1 * k.val = k.val; omega
    | ⟨1, _⟩ => show win1_3.index t (1 : Fin 2) * 4000 + 1 * j'.val = j'.val; omega
  · show A4 (((cfg1.win 4).blk t).view.emb (ix2 (0 : Fin 1) j')) = A4 (ix2 (0 : Fin 1) j')
    refine congrArg A4 ?_
    funext a; apply Fin.ext
    match a with
    | ⟨0, _⟩ => show win1_4.index t (0 : Fin 2) * 1 + 1 * 0 = 0; omega
    | ⟨1, _⟩ => show win1_4.index t (1 : Fin 2) * 4000 + 1 * j'.val = j'.val; omega

variable (V : (c : Dev nD) → (b : Ref sig .tc) → Buf (Elt Ideal) ((c : Thread nD τ).loc b))

/-- What point `t` writes back is block `t` of the layer function of the operand arrays as the region finds them. -/
theorem written_block (c : Dev nD) (t : Fin cfg1.N) :
    (dat1 V c).flushed 5 t = ((cfg1.win 5).blk t).view.read (Elt Ideal)
      (G (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  unfold out1_5
  rw [View.canon_unit_zero zero_offsets]
  simp only [View.ld_unit_zero (S := S512x2000) zero_offsets, View.ld_unit_zero (S := S2000x64) zero_offsets,
    View.ld_unit_zero (S := S1x64) zero_offsets, View.ld_unit_zero (S := S64x4000) zero_offsets,
    View.ld_unit_zero (S := S1x4000) zero_offsets]
  exact payload_block (V c (Pipeline.arrRef spec1 0)) (V c (Pipeline.arrRef spec1 1)) (V c (Pipeline.arrRef spec1 2))
    (V c (Pipeline.arrRef spec1 3)) (V c (Pipeline.arrRef spec1 4)) t

/-- An index of the output array is in point `t`'s block iff each coordinate is in the block's range on its axis. -/
theorem mem_block (t : Fin cfg1.N) (i : S4096x4000.Idx) :
    i ∈ ((cfg1.win 5).blk t).view.set ↔ ∀ a : Fin 2, win1_5.index t a * S512x4000.size a ≤ (i a).val
      ∧ (i a).val < win1_5.index t a * S512x4000.size a + S512x4000.size a := by
  show i ∈ ((View.whole main_v93).slice (win1_5.rect t)).set ↔ _
  rw [View.set_slice_whole, Rect.mem_set_unit]
  exact Iff.rfl

/-- Every entry of the output array is in some point's block: row `r` is written by point `r / 512`. -/
theorem cover (i : S4096x4000.Idx) :
    ∃ t : Fin cfg1.N, (cfg1.win 5).flush t = true ∧ i ∈ ((cfg1.win 5).blk t).view.set := by
  have hi0 : (i 0).val < 4096 := (i 0).isLt
  have hi1 : (i 1).val < 4000 := (i 1).isLt
  obtain ⟨t, htv⟩ : ∃ t : Fin cfg1.N, t.val = (i 0).val / 512 :=
    ⟨⟨(i 0).val / 512, by show (i 0).val / 512 < 8; omega⟩, rfl⟩
  obtain ⟨-, -, -, -, -, -, -, -, -, -, e50, e51⟩ := block_indices t
  refine ⟨t, flush1_5 t, ?_⟩
  rw [mem_block]
  intro a
  match a with
  | ⟨0, _⟩ =>
    show win1_5.index t (0 : Fin 2) * 512 ≤ (i 0).val ∧ (i 0).val < win1_5.index t (0 : Fin 2) * 512 + 512
    omega
  | ⟨1, _⟩ =>
    show win1_5.index t (1 : Fin 2) * 4000 ≤ (i 1).val ∧ (i 1).val < win1_5.index t (1 : Fin 2) * 4000 + 4000
    omega

/-- The region's output array after its eight write-backs: the layer function of the five operand arrays as the
    region finds them. -/
theorem regionOut (c : Dev nD) :
    (dat1 V c).arrAt 5 cfg1.N = Cert.KernelIdeal.MlpArray.G (V c (Pipeline.arrRef spec1 0))
      (V c (Pipeline.arrRef spec1 1)) (V c (Pipeline.arrRef spec1 2)) (V c (Pipeline.arrRef spec1 3))
      (V c (Pipeline.arrRef spec1 4)) :=
  (dat1 V c).arrAt_eq_of_cover 5
    (G (V c (Pipeline.arrRef spec1 0)) (V c (Pipeline.arrRef spec1 1)) (V c (Pipeline.arrRef spec1 2))
      (V c (Pipeline.arrRef spec1 3)) (V c (Pipeline.arrRef spec1 4)))
    (fun t _ => written_block V c t) cover

end Cert.KernelIdeal.Region1

end
-- ==== Proof.LayerK1.lean ====
/- The host operations the kernel program runs between kernel region 0 and kernel region 1, read as functions. Each buffer the
  next stage needs is written out as the composition of the operations that produce it from the buffers the stretch
  reads; a buffer the stretch does not write keeps its contents; and the fold of the stretch's operations at each of
  these buffers is that function of the contents the stretch starts from.
-/
import proofs.«140670_j11424613007642_1_alg».proof.Proof.Gen.KernelIdeal.Launch
import Idealize.ShloMosaic.Lib.StableHlo.Run

set_option maxRecDepth 16384

noncomputable section

namespace Cert.KernelIdeal.Layer1

open Cert.KernelIdeal Cert.KernelIdeal.Gen Idealize.ShloMosaic Idealize.ShloMosaic.StableHlo Idealize.ShloMosaic.TcCoe

variable {F : FTy → Type} [FloatOps F]

/-- Buffer main_v90 as a function of the buffers the stretch reads: its 64 operations, in program order. -/
def f_dense (x_main_v2 : (⟨S4096x64, .i32⟩ : BufTy).Contents (Elt F)) (x_main_v0 : (⟨S4096x64, .f32⟩ : BufTy).Contents (Elt F)) (x_main_v9 : (⟨S4096x128, .i32⟩ : BufTy).Contents (Elt F)) (x_main_v39 : (⟨S4096x4000, .f32⟩ : BufTy).Contents (Elt F)) :
    (⟨S4096x2000, .f32⟩ : BufTy).Contents (Elt F) :=
  have x_main_cst_6 : (⟨S_, .f32⟩ : BufTy).Contents (Elt F) := (constant S_ .f32 0x00000000#32)
  have x_main_v40 : (⟨S4096x1, .f32⟩ : BufTy).Contents (Elt F) := ((broadcastInDim S4096x1 ![] bcast_S_S4096x1 : (⟨S_, .f32⟩ : BufTy).Contents (Elt F) → (⟨S4096x1, .f32⟩ : BufTy).Contents (Elt F))) x_main_cst_6
  have x_main_v41 : (⟨S4096x4001, .f32⟩ : BufTy).Contents (Elt F) := (((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F))) x_main_v39 x_main_v40
  have x_main_call1_c : (⟨S_, .i32⟩ : BufTy).Contents (Elt F) := (constantI S_ 32 0#32)
  have x_main_call1_v0 : (⟨S4096x128, .i32⟩ : BufTy).Contents (Elt F) := ((broadcastInDim S4096x128 ![] bcast_S_S4096x128)) x_main_call1_c
  have x_main_call1_v1 : (⟨S4096x128, .i1⟩ : BufTy).Contents (Elt F) := ((cmpi .slt)) x_main_v9 x_main_call1_v0
  have x_main_call1_c_0 : (⟨S_, .i32⟩ : BufTy).Contents (Elt F) := (constantI S_ 32 4001#32)
  have x_main_call1_v2 : (⟨S4096x128, .i32⟩ : BufTy).Contents (Elt F) := ((broadcastInDim S4096x128 ![] bcast_S_S4096x128)) x_main_call1_c_0
  have x_main_call1_v3 : (⟨S4096x128, .i32⟩ : BufTy).Contents (Elt F) := (addi) x_main_v9 x_main_call1_v2
  have x_main_call1_v4 : (⟨S4096x128, .i32⟩ : BufTy).Contents (Elt F) := (select) x_main_call1_v1 x_main_call1_v3 x_main_v9
  have x_main_call1_v5 : (⟨S4096x128x1, .i32⟩ : BufTy).Contents (Elt F) := shapeCast S4096x128x1 x_main_call1_v4 shapeCasts_S4096x128_S4096x128x1
  have x_main_call1_c_1 : (⟨S1, .i32⟩ : BufTy).Contents (Elt F) := (constantI S1 32 4000#32)
  have x_main_call1_c_2 : (⟨S_, .i32⟩ : BufTy).Contents (Elt F) := (constantI S_ 32 0#32)
  have x_main_call1_v6 : (⟨S4096x128x1, .i32⟩ : BufTy).Contents (Elt F) := ((broadcastInDim S4096x128x1 ![] bcast_S_S4096x128x1)) x_main_call1_c_2
  have x_main_call1_v7 : (⟨S4096x128x1, .i1⟩ : BufTy).Contents (Elt F) := ((cmpi .sge)) x_main_call1_v5 x_main_call1_v6
  have x_main_call1_v8 : (⟨S1x1x1, .i32⟩ : BufTy).Contents (Elt F) := ((broadcastInDim S1x1x1 ![2] bcast_S1_S1x1x1_2)) x_main_call1_c_1
  have x_main_call1_v9 : (⟨S4096x128x1, .i32⟩ : BufTy).Contents (Elt F) := ((broadcastInDim S4096x128x1 ![0, 1, 2] bcast_S1x1x1_S4096x128x1_0_1_2)) x_main_call1_v8
  have x_main_call1_v10 : (⟨S4096x128x1, .i1⟩ : BufTy).Contents (Elt F) := ((cmpi .sle)) x_main_call1_v5 x_main_call1_v9
  have x_main_call1_v11 : (⟨S4096x128x1, .i1⟩ : BufTy).Contents (Elt F) := (andi) x_main_call1_v7 x_main_call1_v10
  have x_main_call1_c_3 : (⟨S_, .i1⟩ : BufTy).Contents (Elt F) := (constantI S_ 1 1#1)
  have x_main_call1_v12 : (⟨S4096x128, .i1⟩ : BufTy).Contents (Elt F) := ((fun x v => Host.reduce IntOp.andi x v reducesTo_S4096x128x1_S4096x128_d2 h_S_)) x_main_call1_v11 x_main_call1_c_3
  have x_main_call1_v13 : (⟨S4096x128, .f32⟩ : BufTy).Contents (Elt F) := ((fun x i => Host.gather gather_S4096x4001_S4096x128x1_S4096x128_n_1_0_0_1_2_11 x i)) x_main_v41 x_main_call1_v5
  have x_main_call1_cst : (⟨S_, .f32⟩ : BufTy).Contents (Elt F) := (constant S_ .f32 0x7FC00000#32)
  have x_main_call1_v14 : (⟨S4096x128, .f32⟩ : BufTy).Contents (Elt F) := ((broadcastInDim S4096x128 ![] bcast_S_S4096x128)) x_main_call1_cst
  have x_main_v42 : (⟨S4096x128, .f32⟩ : BufTy).Contents (Elt F) := (select) x_main_call1_v12 x_main_call1_v13 x_main_call1_v14
  have x_main_v43 : (⟨S4096x64, .f32⟩ : BufTy).Contents (Elt F) := (((extractStridedSlice S4096x64 ![0, 0] · slices_S4096x128_S4096x64_0_0) : (⟨S4096x128, .f32⟩ : BufTy).Contents (Elt F) → (⟨S4096x64, .f32⟩ : BufTy).Contents (Elt F))) x_main_v42
  have x_main_v44 : (⟨S4096x64, .f32⟩ : BufTy).Contents (Elt F) := (((extractStridedSlice S4096x64 ![0, 64] · slices_S4096x128_S4096x64_0_64) : (⟨S4096x128, .f32⟩ : BufTy).Contents (Elt F) → (⟨S4096x64, .f32⟩ : BufTy).Contents (Elt F))) x_main_v42
  have x_main_cst_7 : (⟨S_, .f32⟩ : BufTy).Contents (Elt F) := (constant S_ .f32 0x40000000#32)
  have x_main_v45 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_7
  have x_main_v46 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v43 x_main_v45
  have x_main_v47 : (⟨S4096x64, .f32⟩ : BufTy).Contents (Elt F) := ((Host.negf : (⟨S4096x64, .f32⟩ : BufTy).Contents (Elt F) → (⟨S4096x64, .f32⟩ : BufTy).Contents (Elt F))) x_main_v46
  have x_main_v48 : (⟨S4096x64, .f32⟩ : BufTy).Contents (Elt F) := ((Host.exp : (⟨S4096x64, .f32⟩ : BufTy).Contents (Elt F) → (⟨S4096x64, .f32⟩ : BufTy).Contents (Elt F))) x_main_v47
  have x_main_cst_8 : (⟨S_, .f32⟩ : BufTy).Contents (Elt F) := (constant S_ .f32 0x3F800000#32)
  have x_main_v49 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_8
  have x_main_v50 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v49 x_main_v48
  have x_main_cst_9 : (⟨S_, .f32⟩ : BufTy).Contents (Elt F) := (constant S_ .f32 0x3F800000#32)
  have x_main_v51 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_9
  have x_main_v52 : (⟨S4096x64, .f32⟩ : BufTy).Contents (Elt F) := ((Host.divf : (⟨S4096x64, .f32⟩ : BufTy).Contents (Elt F) → (⟨S4096x64, .f32⟩ : BufTy).Contents (Elt F) → (⟨S4096x64, .f32⟩ : BufTy).Contents (Elt F))) x_main_v51 x_main_v50
  have x_main_v53 : (⟨S4096x64, .f32⟩ : BufTy).Contents (Elt F) := ((mulf : (⟨S4096x64, .f32⟩ : BufTy).Contents (Elt F) → (⟨S4096x64, .f32⟩ : BufTy).Contents (Elt F) → (⟨S4096x64, .f32⟩ : BufTy).Contents (Elt F))) x_main_v52 x_main_v0
  have x_main_v54 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v53 x_main_v44
  have x_main_v72 : (⟨S4096, .i32⟩ : BufTy).Contents (Elt F) := (iotaInDim S4096 32 0)
  have x_main_v73 : (⟨S4096x1, .i32⟩ : BufTy).Contents (Elt F) := ((broadcastInDim S4096x1 ![0] bcast_S4096_S4096x1_0 : (⟨S4096, .i32⟩ : BufTy).Contents (Elt F) → (⟨S4096x1, .i32⟩ : BufTy).Contents (Elt F))) x_main_v72
  have x_main_cst_14 : (⟨S_, .f32⟩ : BufTy).Contents (Elt F) := (constant S_ .f32 0x00000000#32)
  have x_main_v74 : (⟨S4096x2001, .f32⟩ : BufTy).Contents (Elt F) := ((broadcastInDim S4096x2001 ![] bcast_S_S4096x2001 : (⟨S_, .f32⟩ : BufTy).Contents (Elt F) → (⟨S4096x2001, .f32⟩ : BufTy).Contents (Elt F))) x_main_cst_14
  have x_main_c_15 : (⟨S_, .i32⟩ : BufTy).Contents (Elt F) := (constantI S_ 32 0#32)
  have x_main_v75 : (⟨S4096x1, .i32⟩ : BufTy).Contents (Elt F) := ((broadcastInDim S4096x1 ![] bcast_S_S4096x1 : (⟨S_, .i32⟩ : BufTy).Contents (Elt F) → (⟨S4096x1, .i32⟩ : BufTy).Contents (Elt F))) x_main_c_15
  have x_main_v76 : (⟨S4096x1, .i1⟩ : BufTy).Contents (Elt F) := ((cmpi .slt : (⟨S4096x1, .i32⟩ : BufTy).Contents (Elt F) → (⟨S4096x1, .i32⟩ : BufTy).Contents (Elt F) → (⟨S4096x1, .i1⟩ : BufTy).Contents (Elt F))) x_main_v73 x_main_v75
  have x_main_c_16 : (⟨S_, .i32⟩ : BufTy).Contents (Elt F) := (constantI S_ 32 4096#32)
  have x_main_v77 : (⟨S4096x1, .i32⟩ : BufTy).Contents (Elt F) := ((broadcastInDim S4096x1 ![] bcast_S_S4096x1 : (⟨S_, .i32⟩ : BufTy).Contents (Elt F) → (⟨S4096x1, .i32⟩ : BufTy).Contents (Elt F))) x_main_c_16
  have x_main_v78 : (⟨S4096x1, .i32⟩ : BufTy).Contents (Elt F) := ((addi : (⟨S4096x1, .i32⟩ : BufTy).Contents (Elt F) → (⟨S4096x1, .i32⟩ : BufTy).Contents (Elt F) → (⟨S4096x1, .i32⟩ : BufTy).Contents (Elt F))) x_main_v73 x_main_v77
  have x_main_v79 : (⟨S4096x1, .i32⟩ : BufTy).Contents (Elt F) := ((select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F))) x_main_v76 x_main_v78 x_main_v73
  have x_main_c_17 : (⟨S_, .i32⟩ : BufTy).Contents (Elt F) := (constantI S_ 32 0#32)
  have x_main_v80 : (⟨S4096x64, .i32⟩ : BufTy).Contents (Elt F) := ((broadcastInDim S4096x64 ![] bcast_S_S4096x64 : (⟨S_, .i32⟩ : BufTy).Contents (Elt F) → (⟨S4096x64, .i32⟩ : BufTy).Contents (Elt F))) x_main_c_17
  have x_main_v81 : (⟨S4096x64, .i1⟩ : BufTy).Contents (Elt F) := ((cmpi .slt : (⟨S4096x64, .i32⟩ : BufTy).Contents (Elt F) → (⟨S4096x64, .i32⟩ : BufTy).Contents (Elt F) → (⟨S4096x64, .i1⟩ : BufTy).Contents (Elt F))) x_main_v2 x_main_v80
  have x_main_c_18 : (⟨S_, .i32⟩ : BufTy).Contents (Elt F) := (constantI S_ 32 2001#32)
  have x_main_v82 : (⟨S4096x64, .i32⟩ : BufTy).Contents (Elt F) := ((broadcastInDim S4096x64 ![] bcast_S_S4096x64 : (⟨S_, .i32⟩ : BufTy).Contents (Elt F) → (⟨S4096x64, .i32⟩ : BufTy).Contents (Elt F))) x_main_c_18
  have x_main_v83 : (⟨S4096x64, .i32⟩ : BufTy).Contents (Elt F) := ((addi : (⟨S4096x64, .i32⟩ : BufTy).Contents (Elt F) → (⟨S4096x64, .i32⟩ : BufTy).Contents (Elt F) → (⟨S4096x64, .i32⟩ : BufTy).Contents (Elt F))) x_main_v2 x_main_v82
  have x_main_v84 : (⟨S4096x64, .i32⟩ : BufTy).Contents (Elt F) := ((select : (⟨S4096x64, .i1⟩ : BufTy).Contents (Elt F) → (⟨S4096x64, .i32⟩ : BufTy).Contents (Elt F) → (⟨S4096x64, .i32⟩ : BufTy).Contents (Elt F) → (⟨S4096x64, .i32⟩ : BufTy).Contents (Elt F))) x_main_v81 x_main_v83 x_main_v2
  have x_main_v85 : (⟨S4096x64, .i32⟩ : BufTy).Contents (Elt F) := ((broadcastInDim S4096x64 ![0, 1] bcast_S4096x1_S4096x64_0_1 : (⟨S4096x1, .i32⟩ : BufTy).Contents (Elt F) → (⟨S4096x64, .i32⟩ : BufTy).Contents (Elt F))) x_main_v79
  have x_main_v86 : (⟨S4096x64x1, .i32⟩ : BufTy).Contents (Elt F) := ((broadcastInDim S4096x64x1 ![0, 1] bcast_S4096x64_S4096x64x1_0_1 : (⟨S4096x64, .i32⟩ : BufTy).Contents (Elt F) → (⟨S4096x64x1, .i32⟩ : BufTy).Contents (Elt F))) x_main_v85
  have x_main_v87 : (⟨S4096x64x1, .i32⟩ : BufTy).Contents (Elt F) := ((broadcastInDim S4096x64x1 ![0, 1] bcast_S4096x64_S4096x64x1_0_1 : (⟨S4096x64, .i32⟩ : BufTy).Contents (Elt F) → (⟨S4096x64x1, .i32⟩ : BufTy).Contents (Elt F))) x_main_v84
  have x_main_v88 : (⟨S4096x64x2, .i32⟩ : BufTy).Contents (Elt F) := (((fun a b => concatenate S4096x64x2 2 [⟨S4096x64x1, a⟩, ⟨S4096x64x1, b⟩] concatenates_S4096x64x1_S4096x64x1_S4096x64x2_d2) : (⟨S4096x64x1, .i32⟩ : BufTy).Contents (Elt F) → (⟨S4096x64x1, .i32⟩ : BufTy).Contents (Elt F) → (⟨S4096x64x2, .i32⟩ : BufTy).Contents (Elt F))) x_main_v86 x_main_v87
  have x_main_v89 : (⟨S4096x2001, .f32⟩ : BufTy).Contents (Elt F) := (((fun x i u => Host.scatterAdd scatter_S4096x2001_S4096x64x2_S4096x64_n_01_01_2 x i u) : (⟨S4096x2001, .f32⟩ : BufTy).Contents (Elt F) → (⟨S4096x64x2, .i32⟩ : BufTy).Contents (Elt F) → (⟨S4096x64, .f32⟩ : BufTy).Contents (Elt F) → (⟨S4096x2001, .f32⟩ : BufTy).Contents (Elt F))) x_main_v74 x_main_v88 x_main_v54
  have x_main_v90 : (⟨S4096x2000, .f32⟩ : BufTy).Contents (Elt F) := (((extractStridedSlice S4096x2000 ![0, 0] · slices_S4096x2001_S4096x2000_0_0) : (⟨S4096x2001, .f32⟩ : BufTy).Contents (Elt F) → (⟨S4096x2000, .f32⟩ : BufTy).Contents (Elt F))) x_main_v89
  x_main_v90

/-- Buffer main_v65 as a function of the buffers the stretch reads: its 2 operations, in program order. -/
def f_w1 (x_main_arg2 : (⟨S10x2000x64, .f32⟩ : BufTy).Contents (Elt F)) :
    (⟨S2000x64, .f32⟩ : BufTy).Contents (Elt F) :=
  have x_main_v64 : (⟨S1x2000x64, .f32⟩ : BufTy).Contents (Elt F) := (((extractStridedSlice S1x2000x64 ![1, 0, 0] · slices_S10x2000x64_S1x2000x64_1_0_0) : (⟨S10x2000x64, .f32⟩ : BufTy).Contents (Elt F) → (⟨S1x2000x64, .f32⟩ : BufTy).Contents (Elt F))) x_main_arg2
  have x_main_v65 : (⟨S2000x64, .f32⟩ : BufTy).Contents (Elt F) := shapeCast S2000x64 x_main_v64 shapeCasts_S1x2000x64_S2000x64
  x_main_v65

/-- Buffer main_v67 as a function of the buffers the stretch reads: its 2 operations, in program order. -/
def f_b1 (x_main_arg3 : (⟨S10x64, .f32⟩ : BufTy).Contents (Elt F)) :
    (⟨S64, .f32⟩ : BufTy).Contents (Elt F) :=
  have x_main_v66 : (⟨S1x64, .f32⟩ : BufTy).Contents (Elt F) := (((extractStridedSlice S1x64 ![1, 0] · slices_S10x64_S1x64_1_0) : (⟨S10x64, .f32⟩ : BufTy).Contents (Elt F) → (⟨S1x64, .f32⟩ : BufTy).Contents (Elt F))) x_main_arg3
  have x_main_v67 : (⟨S64, .f32⟩ : BufTy).Contents (Elt F) := shapeCast S64 x_main_v66 shapeCasts_S1x64_S64
  x_main_v67

/-- Buffer main_v91 as a function of the buffers the stretch reads: its 3 operations, in program order. -/
def f_b1r (x_main_arg3 : (⟨S10x64, .f32⟩ : BufTy).Contents (Elt F)) :
    (⟨S1x64, .f32⟩ : BufTy).Contents (Elt F) :=
  have x_main_v66 : (⟨S1x64, .f32⟩ : BufTy).Contents (Elt F) := (((extractStridedSlice S1x64 ![1, 0] · slices_S10x64_S1x64_1_0) : (⟨S10x64, .f32⟩ : BufTy).Contents (Elt F) → (⟨S1x64, .f32⟩ : BufTy).Contents (Elt F))) x_main_arg3
  have x_main_v67 : (⟨S64, .f32⟩ : BufTy).Contents (Elt F) := shapeCast S64 x_main_v66 shapeCasts_S1x64_S64
  have x_main_v91 : (⟨S1x64, .f32⟩ : BufTy).Contents (Elt F) := shapeCast S1x64 x_main_v67 shapeCasts_S64_S1x64
  x_main_v91

/-- Buffer main_v69 as a function of the buffers the stretch reads: its 2 operations, in program order. -/
def f_w2 (x_main_arg4 : (⟨S10x64x4000, .f32⟩ : BufTy).Contents (Elt F)) :
    (⟨S64x4000, .f32⟩ : BufTy).Contents (Elt F) :=
  have x_main_v68 : (⟨S1x64x4000, .f32⟩ : BufTy).Contents (Elt F) := (((extractStridedSlice S1x64x4000 ![1, 0, 0] · slices_S10x64x4000_S1x64x4000_1_0_0) : (⟨S10x64x4000, .f32⟩ : BufTy).Contents (Elt F) → (⟨S1x64x4000, .f32⟩ : BufTy).Contents (Elt F))) x_main_arg4
  have x_main_v69 : (⟨S64x4000, .f32⟩ : BufTy).Contents (Elt F) := shapeCast S64x4000 x_main_v68 shapeCasts_S1x64x4000_S64x4000
  x_main_v69

/-- Buffer main_v71 as a function of the buffers the stretch reads: its 2 operations, in program order. -/
def f_b2 (x_main_arg5 : (⟨S10x4000, .f32⟩ : BufTy).Contents (Elt F)) :
    (⟨S4000, .f32⟩ : BufTy).Contents (Elt F) :=
  have x_main_v70 : (⟨S1x4000, .f32⟩ : BufTy).Contents (Elt F) := (((extractStridedSlice S1x4000 ![1, 0] · slices_S10x4000_S1x4000_1_0) : (⟨S10x4000, .f32⟩ : BufTy).Contents (Elt F) → (⟨S1x4000, .f32⟩ : BufTy).Contents (Elt F))) x_main_arg5
  have x_main_v71 : (⟨S4000, .f32⟩ : BufTy).Contents (Elt F) := shapeCast S4000 x_main_v70 shapeCasts_S1x4000_S4000
  x_main_v71

/-- Buffer main_v92 as a function of the buffers the stretch reads: its 3 operations, in program order. -/
def f_b2r (x_main_arg5 : (⟨S10x4000, .f32⟩ : BufTy).Contents (Elt F)) :
    (⟨S1x4000, .f32⟩ : BufTy).Contents (Elt F) :=
  have x_main_v70 : (⟨S1x4000, .f32⟩ : BufTy).Contents (Elt F) := (((extractStridedSlice S1x4000 ![1, 0] · slices_S10x4000_S1x4000_1_0) : (⟨S10x4000, .f32⟩ : BufTy).Contents (Elt F) → (⟨S1x4000, .f32⟩ : BufTy).Contents (Elt F))) x_main_arg5
  have x_main_v71 : (⟨S4000, .f32⟩ : BufTy).Contents (Elt F) := shapeCast S4000 x_main_v70 shapeCasts_S1x4000_S4000
  have x_main_v92 : (⟨S1x4000, .f32⟩ : BufTy).Contents (Elt F) := shapeCast S1x4000 x_main_v71 shapeCasts_S4000_S1x4000
  x_main_v92

/-- Buffer main_v63 as a function of the buffers the stretch reads: its 11 operations, in program order. -/
def f_oidx (x_main_v3 : (⟨S4096x61, .i32⟩ : BufTy).Contents (Elt F)) :
    (⟨S4096x122, .i32⟩ : BufTy).Contents (Elt F) :=
  have x_main_c_11 : (⟨S_, .i32⟩ : BufTy).Contents (Elt F) := (constantI S_ 32 2000#32)
  have x_main_v58 : (⟨S4096x61, .i32⟩ : BufTy).Contents (Elt F) := ((broadcastInDim S4096x61 ![] bcast_S_S4096x61 : (⟨S_, .i32⟩ : BufTy).Contents (Elt F) → (⟨S4096x61, .i32⟩ : BufTy).Contents (Elt F))) x_main_c_11
  have x_main_v59 : (⟨S4096x61, .i1⟩ : BufTy).Contents (Elt F) := ((cmpi .eq : (⟨S4096x61, .i32⟩ : BufTy).Contents (Elt F) → (⟨S4096x61, .i32⟩ : BufTy).Contents (Elt F) → (⟨S4096x61, .i1⟩ : BufTy).Contents (Elt F))) x_main_v3 x_main_v58
  have x_main_c_12 : (⟨S_, .i32⟩ : BufTy).Contents (Elt F) := (constantI S_ 32 2000#32)
  have x_main_v60 : (⟨S4096x61, .i32⟩ : BufTy).Contents (Elt F) := ((broadcastInDim S4096x61 ![] bcast_S_S4096x61 : (⟨S_, .i32⟩ : BufTy).Contents (Elt F) → (⟨S4096x61, .i32⟩ : BufTy).Contents (Elt F))) x_main_c_12
  have x_main_v61 : (⟨S4096x61, .i32⟩ : BufTy).Contents (Elt F) := ((addi : (⟨S4096x61, .i32⟩ : BufTy).Contents (Elt F) → (⟨S4096x61, .i32⟩ : BufTy).Contents (Elt F) → (⟨S4096x61, .i32⟩ : BufTy).Contents (Elt F))) x_main_v3 x_main_v60
  have x_main_c_13 : (⟨S_, .i32⟩ : BufTy).Contents (Elt F) := (constantI S_ 32 4000#32)
  have x_main_call2_v0 : (⟨S_, .i32⟩ : BufTy).Contents (Elt F) := (id) x_main_c_13
  have x_main_call2_v1 : (⟨S4096x61, .i32⟩ : BufTy).Contents (Elt F) := ((broadcastInDim S4096x61 ![] bcast_S_S4096x61)) x_main_call2_v0
  have x_main_v62 : (⟨S4096x61, .i32⟩ : BufTy).Contents (Elt F) := (select) x_main_v59 x_main_call2_v1 x_main_v61
  have x_main_v63 : (⟨S4096x122, .i32⟩ : BufTy).Contents (Elt F) := (((fun a b => concatenate S4096x122 1 [⟨S4096x61, a⟩, ⟨S4096x61, b⟩] concatenates_S4096x61_S4096x61_S4096x122_d1) : (⟨S4096x61, .i32⟩ : BufTy).Contents (Elt F) → (⟨S4096x61, .i32⟩ : BufTy).Contents (Elt F) → (⟨S4096x122, .i32⟩ : BufTy).Contents (Elt F))) x_main_v3 x_main_v62
  x_main_v63

/-- Buffer main_v54 as a function of the buffers the stretch reads: its 40 operations, in program order. -/
def f_xnew (x_main_v0 : (⟨S4096x64, .f32⟩ : BufTy).Contents (Elt F)) (x_main_v9 : (⟨S4096x128, .i32⟩ : BufTy).Contents (Elt F)) (x_main_v39 : (⟨S4096x4000, .f32⟩ : BufTy).Contents (Elt F)) :
    (⟨S4096x64, .f32⟩ : BufTy).Contents (Elt F) :=
  have x_main_cst_6 : (⟨S_, .f32⟩ : BufTy).Contents (Elt F) := (constant S_ .f32 0x00000000#32)
  have x_main_v40 : (⟨S4096x1, .f32⟩ : BufTy).Contents (Elt F) := ((broadcastInDim S4096x1 ![] bcast_S_S4096x1 : (⟨S_, .f32⟩ : BufTy).Contents (Elt F) → (⟨S4096x1, .f32⟩ : BufTy).Contents (Elt F))) x_main_cst_6
  have x_main_v41 : (⟨S4096x4001, .f32⟩ : BufTy).Contents (Elt F) := (((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F))) x_main_v39 x_main_v40
  have x_main_call1_c : (⟨S_, .i32⟩ : BufTy).Contents (Elt F) := (constantI S_ 32 0#32)
  have x_main_call1_v0 : (⟨S4096x128, .i32⟩ : BufTy).Contents (Elt F) := ((broadcastInDim S4096x128 ![] bcast_S_S4096x128)) x_main_call1_c
  have x_main_call1_v1 : (⟨S4096x128, .i1⟩ : BufTy).Contents (Elt F) := ((cmpi .slt)) x_main_v9 x_main_call1_v0
  have x_main_call1_c_0 : (⟨S_, .i32⟩ : BufTy).Contents (Elt F) := (constantI S_ 32 4001#32)
  have x_main_call1_v2 : (⟨S4096x128, .i32⟩ : BufTy).Contents (Elt F) := ((broadcastInDim S4096x128 ![] bcast_S_S4096x128)) x_main_call1_c_0
  have x_main_call1_v3 : (⟨S4096x128, .i32⟩ : BufTy).Contents (Elt F) := (addi) x_main_v9 x_main_call1_v2
  have x_main_call1_v4 : (⟨S4096x128, .i32⟩ : BufTy).Contents (Elt F) := (select) x_main_call1_v1 x_main_call1_v3 x_main_v9
  have x_main_call1_v5 : (⟨S4096x128x1, .i32⟩ : BufTy).Contents (Elt F) := shapeCast S4096x128x1 x_main_call1_v4 shapeCasts_S4096x128_S4096x128x1
  have x_main_call1_c_1 : (⟨S1, .i32⟩ : BufTy).Contents (Elt F) := (constantI S1 32 4000#32)
  have x_main_call1_c_2 : (⟨S_, .i32⟩ : BufTy).Contents (Elt F) := (constantI S_ 32 0#32)
  have x_main_call1_v6 : (⟨S4096x128x1, .i32⟩ : BufTy).Contents (Elt F) := ((broadcastInDim S4096x128x1 ![] bcast_S_S4096x128x1)) x_main_call1_c_2
  have x_main_call1_v7 : (⟨S4096x128x1, .i1⟩ : BufTy).Contents (Elt F) := ((cmpi .sge)) x_main_call1_v5 x_main_call1_v6
  have x_main_call1_v8 : (⟨S1x1x1, .i32⟩ : BufTy).Contents (Elt F) := ((broadcastInDim S1x1x1 ![2] bcast_S1_S1x1x1_2)) x_main_call1_c_1
  have x_main_call1_v9 : (⟨S4096x128x1, .i32⟩ : BufTy).Contents (Elt F) := ((broadcastInDim S4096x128x1 ![0, 1, 2] bcast_S1x1x1_S4096x128x1_0_1_2)) x_main_call1_v8
  have x_main_call1_v10 : (⟨S4096x128x1, .i1⟩ : BufTy).Contents (Elt F) := ((cmpi .sle)) x_main_call1_v5 x_main_call1_v9
  have x_main_call1_v11 : (⟨S4096x128x1, .i1⟩ : BufTy).Contents (Elt F) := (andi) x_main_call1_v7 x_main_call1_v10
  have x_main_call1_c_3 : (⟨S_, .i1⟩ : BufTy).Contents (Elt F) := (constantI S_ 1 1#1)
  have x_main_call1_v12 : (⟨S4096x128, .i1⟩ : BufTy).Contents (Elt F) := ((fun x v => Host.reduce IntOp.andi x v reducesTo_S4096x128x1_S4096x128_d2 h_S_)) x_main_call1_v11 x_main_call1_c_3
  have x_main_call1_v13 : (⟨S4096x128, .f32⟩ : BufTy).Contents (Elt F) := ((fun x i => Host.gather gather_S4096x4001_S4096x128x1_S4096x128_n_1_0_0_1_2_11 x i)) x_main_v41 x_main_call1_v5
  have x_main_call1_cst : (⟨S_, .f32⟩ : BufTy).Contents (Elt F) := (constant S_ .f32 0x7FC00000#32)
  have x_main_call1_v14 : (⟨S4096x128, .f32⟩ : BufTy).Contents (Elt F) := ((broadcastInDim S4096x128 ![] bcast_S_S4096x128)) x_main_call1_cst
  have x_main_v42 : (⟨S4096x128, .f32⟩ : BufTy).Contents (Elt F) := (select) x_main_call1_v12 x_main_call1_v13 x_main_call1_v14
  have x_main_v43 : (⟨S4096x64, .f32⟩ : BufTy).Contents (Elt F) := (((extractStridedSlice S4096x64 ![0, 0] · slices_S4096x128_S4096x64_0_0) : (⟨S4096x128, .f32⟩ : BufTy).Contents (Elt F) → (⟨S4096x64, .f32⟩ : BufTy).Contents (Elt F))) x_main_v42
  have x_main_v44 : (⟨S4096x64, .f32⟩ : BufTy).Contents (Elt F) := (((extractStridedSlice S4096x64 ![0, 64] · slices_S4096x128_S4096x64_0_64) : (⟨S4096x128, .f32⟩ : BufTy).Contents (Elt F) → (⟨S4096x64, .f32⟩ : BufTy).Contents (Elt F))) x_main_v42
  have x_main_cst_7 : (⟨S_, .f32⟩ : BufTy).Contents (Elt F) := (constant S_ .f32 0x40000000#32)
  have x_main_v45 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_7
  have x_main_v46 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v43 x_main_v45
  have x_main_v47 : (⟨S4096x64, .f32⟩ : BufTy).Contents (Elt F) := ((Host.negf : (⟨S4096x64, .f32⟩ : BufTy).Contents (Elt F) → (⟨S4096x64, .f32⟩ : BufTy).Contents (Elt F))) x_main_v46
  have x_main_v48 : (⟨S4096x64, .f32⟩ : BufTy).Contents (Elt F) := ((Host.exp : (⟨S4096x64, .f32⟩ : BufTy).Contents (Elt F) → (⟨S4096x64, .f32⟩ : BufTy).Contents (Elt F))) x_main_v47
  have x_main_cst_8 : (⟨S_, .f32⟩ : BufTy).Contents (Elt F) := (constant S_ .f32 0x3F800000#32)
  have x_main_v49 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_8
  have x_main_v50 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v49 x_main_v48
  have x_main_cst_9 : (⟨S_, .f32⟩ : BufTy).Contents (Elt F) := (constant S_ .f32 0x3F800000#32)
  have x_main_v51 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_9
  have x_main_v52 : (⟨S4096x64, .f32⟩ : BufTy).Contents (Elt F) := ((Host.divf : (⟨S4096x64, .f32⟩ : BufTy).Contents (Elt F) → (⟨S4096x64, .f32⟩ : BufTy).Contents (Elt F) → (⟨S4096x64, .f32⟩ : BufTy).Contents (Elt F))) x_main_v51 x_main_v50
  have x_main_v53 : (⟨S4096x64, .f32⟩ : BufTy).Contents (Elt F) := ((mulf : (⟨S4096x64, .f32⟩ : BufTy).Contents (Elt F) → (⟨S4096x64, .f32⟩ : BufTy).Contents (Elt F) → (⟨S4096x64, .f32⟩ : BufTy).Contents (Elt F))) x_main_v52 x_main_v0
  have x_main_v54 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v53 x_main_v44
  x_main_v54

/-- Buffer main_v57 as a function of the buffers the stretch reads: its 41 operations, in program order. -/
def f_qnew (x_main_arg1 : (⟨S4096, .f32⟩ : BufTy).Contents (Elt F)) (x_main_v9 : (⟨S4096x128, .i32⟩ : BufTy).Contents (Elt F)) (x_main_v39 : (⟨S4096x4000, .f32⟩ : BufTy).Contents (Elt F)) :
    (⟨S4096, .f32⟩ : BufTy).Contents (Elt F) :=
  have x_main_cst_6 : (⟨S_, .f32⟩ : BufTy).Contents (Elt F) := (constant S_ .f32 0x00000000#32)
  have x_main_v40 : (⟨S4096x1, .f32⟩ : BufTy).Contents (Elt F) := ((broadcastInDim S4096x1 ![] bcast_S_S4096x1 : (⟨S_, .f32⟩ : BufTy).Contents (Elt F) → (⟨S4096x1, .f32⟩ : BufTy).Contents (Elt F))) x_main_cst_6
  have x_main_v41 : (⟨S4096x4001, .f32⟩ : BufTy).Contents (Elt F) := (((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F))) x_main_v39 x_main_v40
  have x_main_call1_c : (⟨S_, .i32⟩ : BufTy).Contents (Elt F) := (constantI S_ 32 0#32)
  have x_main_call1_v0 : (⟨S4096x128, .i32⟩ : BufTy).Contents (Elt F) := ((broadcastInDim S4096x128 ![] bcast_S_S4096x128)) x_main_call1_c
  have x_main_call1_v1 : (⟨S4096x128, .i1⟩ : BufTy).Contents (Elt F) := ((cmpi .slt)) x_main_v9 x_main_call1_v0
  have x_main_call1_c_0 : (⟨S_, .i32⟩ : BufTy).Contents (Elt F) := (constantI S_ 32 4001#32)
  have x_main_call1_v2 : (⟨S4096x128, .i32⟩ : BufTy).Contents (Elt F) := ((broadcastInDim S4096x128 ![] bcast_S_S4096x128)) x_main_call1_c_0
  have x_main_call1_v3 : (⟨S4096x128, .i32⟩ : BufTy).Contents (Elt F) := (addi) x_main_v9 x_main_call1_v2
  have x_main_call1_v4 : (⟨S4096x128, .i32⟩ : BufTy).Contents (Elt F) := (select) x_main_call1_v1 x_main_call1_v3 x_main_v9
  have x_main_call1_v5 : (⟨S4096x128x1, .i32⟩ : BufTy).Contents (Elt F) := shapeCast S4096x128x1 x_main_call1_v4 shapeCasts_S4096x128_S4096x128x1
  have x_main_call1_c_1 : (⟨S1, .i32⟩ : BufTy).Contents (Elt F) := (constantI S1 32 4000#32)
  have x_main_call1_c_2 : (⟨S_, .i32⟩ : BufTy).Contents (Elt F) := (constantI S_ 32 0#32)
  have x_main_call1_v6 : (⟨S4096x128x1, .i32⟩ : BufTy).Contents (Elt F) := ((broadcastInDim S4096x128x1 ![] bcast_S_S4096x128x1)) x_main_call1_c_2
  have x_main_call1_v7 : (⟨S4096x128x1, .i1⟩ : BufTy).Contents (Elt F) := ((cmpi .sge)) x_main_call1_v5 x_main_call1_v6
  have x_main_call1_v8 : (⟨S1x1x1, .i32⟩ : BufTy).Contents (Elt F) := ((broadcastInDim S1x1x1 ![2] bcast_S1_S1x1x1_2)) x_main_call1_c_1
  have x_main_call1_v9 : (⟨S4096x128x1, .i32⟩ : BufTy).Contents (Elt F) := ((broadcastInDim S4096x128x1 ![0, 1, 2] bcast_S1x1x1_S4096x128x1_0_1_2)) x_main_call1_v8
  have x_main_call1_v10 : (⟨S4096x128x1, .i1⟩ : BufTy).Contents (Elt F) := ((cmpi .sle)) x_main_call1_v5 x_main_call1_v9
  have x_main_call1_v11 : (⟨S4096x128x1, .i1⟩ : BufTy).Contents (Elt F) := (andi) x_main_call1_v7 x_main_call1_v10
  have x_main_call1_c_3 : (⟨S_, .i1⟩ : BufTy).Contents (Elt F) := (constantI S_ 1 1#1)
  have x_main_call1_v12 : (⟨S4096x128, .i1⟩ : BufTy).Contents (Elt F) := ((fun x v => Host.reduce IntOp.andi x v reducesTo_S4096x128x1_S4096x128_d2 h_S_)) x_main_call1_v11 x_main_call1_c_3
  have x_main_call1_v13 : (⟨S4096x128, .f32⟩ : BufTy).Contents (Elt F) := ((fun x i => Host.gather gather_S4096x4001_S4096x128x1_S4096x128_n_1_0_0_1_2_11 x i)) x_main_v41 x_main_call1_v5
  have x_main_call1_cst : (⟨S_, .f32⟩ : BufTy).Contents (Elt F) := (constant S_ .f32 0x7FC00000#32)
  have x_main_call1_v14 : (⟨S4096x128, .f32⟩ : BufTy).Contents (Elt F) := ((broadcastInDim S4096x128 ![] bcast_S_S4096x128)) x_main_call1_cst
  have x_main_v42 : (⟨S4096x128, .f32⟩ : BufTy).Contents (Elt F) := (select) x_main_call1_v12 x_main_call1_v13 x_main_call1_v14
  have x_main_v43 : (⟨S4096x64, .f32⟩ : BufTy).Contents (Elt F) := (((extractStridedSlice S4096x64 ![0, 0] · slices_S4096x128_S4096x64_0_0) : (⟨S4096x128, .f32⟩ : BufTy).Contents (Elt F) → (⟨S4096x64, .f32⟩ : BufTy).Contents (Elt F))) x_main_v42
  have x_main_cst_7 : (⟨S_, .f32⟩ : BufTy).Contents (Elt F) := (constant S_ .f32 0x40000000#32)
  have x_main_v45 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_7
  have x_main_v46 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v43 x_main_v45
  have x_main_v47 : (⟨S4096x64, .f32⟩ : BufTy).Contents (Elt F) := ((Host.negf : (⟨S4096x64, .f32⟩ : BufTy).Contents (Elt F) → (⟨S4096x64, .f32⟩ : BufTy).Contents (Elt F))) x_main_v46
  have x_main_v48 : (⟨S4096x64, .f32⟩ : BufTy).Contents (Elt F) := ((Host.exp : (⟨S4096x64, .f32⟩ : BufTy).Contents (Elt F) → (⟨S4096x64, .f32⟩ : BufTy).Contents (Elt F))) x_main_v47
  have x_main_cst_8 : (⟨S_, .f32⟩ : BufTy).Contents (Elt F) := (constant S_ .f32 0x3F800000#32)
  have x_main_v49 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_8
  have x_main_v50 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v49 x_main_v48
  have x_main_cst_9 : (⟨S_, .f32⟩ : BufTy).Contents (Elt F) := (constant S_ .f32 0x3F800000#32)
  have x_main_v51 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_9
  have x_main_v52 : (⟨S4096x64, .f32⟩ : BufTy).Contents (Elt F) := ((Host.divf : (⟨S4096x64, .f32⟩ : BufTy).Contents (Elt F) → (⟨S4096x64, .f32⟩ : BufTy).Contents (Elt F) → (⟨S4096x64, .f32⟩ : BufTy).Contents (Elt F))) x_main_v51 x_main_v50
  have x_main_v55 : (⟨S4096x64, .f32⟩ : BufTy).Contents (Elt F) := ((Host.log : (⟨S4096x64, .f32⟩ : BufTy).Contents (Elt F) → (⟨S4096x64, .f32⟩ : BufTy).Contents (Elt F))) x_main_v52
  have x_main_cst_10 : (⟨S_, .f32⟩ : BufTy).Contents (Elt F) := (constant S_ .f32 0x00000000#32)
  have x_main_v56 : (⟨S4096, .f32⟩ : BufTy).Contents (Elt F) := (((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F))) x_main_v55 x_main_cst_10
  have x_main_v57 : (⟨S4096, .f32⟩ : BufTy).Contents (Elt F) := ((subf : (⟨S4096, .f32⟩ : BufTy).Contents (Elt F) → (⟨S4096, .f32⟩ : BufTy).Contents (Elt F) → (⟨S4096, .f32⟩ : BufTy).Contents (Elt F))) x_main_arg1 x_main_v56
  x_main_v57

-- the gather, the scatter and the reductions are never opened: both sides apply them to equal arguments
attribute [local irreducible] Host.scatterAdd Host.reduce Host.gather Host.reduceAdd concatenate extractStridedSlice broadcastInDim iotaInDim in
set_option maxHeartbeats 8000000 in
set_option maxRecDepth 100000 in
/-- The stretch's fold at each of those buffers. -/
theorem reads (V : Valuation τ sig (Elt F)) :
    after hostOps1_4 (after hostOps1_3 (after hostOps1_2 (after hostOps1_1 (after hostOps1 V)))) (Proc.devRef .tc main_v90) = f_dense (V (Proc.devRef .tc main_v2)) (V (Proc.devRef .tc main_v0)) (V (Proc.devRef .tc main_v9)) (V (Proc.devRef .tc main_v39))
    ∧ after hostOps1_4 (after hostOps1_3 (after hostOps1_2 (after hostOps1_1 (after hostOps1 V)))) (Proc.devRef .tc main_v65) = f_w1 (V (Proc.devRef .tc main_arg2))
    ∧ after hostOps1_4 (after hostOps1_3 (after hostOps1_2 (after hostOps1_1 (after hostOps1 V)))) (Proc.devRef .tc main_v67) = f_b1 (V (Proc.devRef .tc main_arg3))
    ∧ after hostOps1_4 (after hostOps1_3 (after hostOps1_2 (after hostOps1_1 (after hostOps1 V)))) (Proc.devRef .tc main_v91) = f_b1r (V (Proc.devRef .tc main_arg3))
    ∧ after hostOps1_4 (after hostOps1_3 (after hostOps1_2 (after hostOps1_1 (after hostOps1 V)))) (Proc.devRef .tc main_v69) = f_w2 (V (Proc.devRef .tc main_arg4))
    ∧ after hostOps1_4 (after hostOps1_3 (after hostOps1_2 (after hostOps1_1 (after hostOps1 V)))) (Proc.devRef .tc main_v71) = f_b2 (V (Proc.devRef .tc main_arg5))
    ∧ after hostOps1_4 (after hostOps1_3 (after hostOps1_2 (after hostOps1_1 (after hostOps1 V)))) (Proc.devRef .tc main_v92) = f_b2r (V (Proc.devRef .tc main_arg5))
    ∧ after hostOps1_4 (after hostOps1_3 (after hostOps1_2 (after hostOps1_1 (after hostOps1 V)))) (Proc.devRef .tc main_v63) = f_oidx (V (Proc.devRef .tc main_v3))
    ∧ after hostOps1_4 (after hostOps1_3 (after hostOps1_2 (after hostOps1_1 (after hostOps1 V)))) (Proc.devRef .tc main_v54) = f_xnew (V (Proc.devRef .tc main_v0)) (V (Proc.devRef .tc main_v9)) (V (Proc.devRef .tc main_v39))
    ∧ after hostOps1_4 (after hostOps1_3 (after hostOps1_2 (after hostOps1_1 (after hostOps1 V)))) (Proc.devRef .tc main_v57) = f_qnew (V (Proc.devRef .tc main_arg1)) (V (Proc.devRef .tc main_v9)) (V (Proc.devRef .tc main_v39))
    ∧ after hostOps1_4 (after hostOps1_3 (after hostOps1_2 (after hostOps1_1 (after hostOps1 V)))) (Proc.devRef .tc main_v1) = V (Proc.devRef .tc main_v1)
    ∧ after hostOps1_4 (after hostOps1_3 (after hostOps1_2 (after hostOps1_1 (after hostOps1 V)))) (Proc.devRef .tc main_v2) = V (Proc.devRef .tc main_v2)
    ∧ after hostOps1_4 (after hostOps1_3 (after hostOps1_2 (after hostOps1_1 (after hostOps1 V)))) (Proc.devRef .tc main_v3) = V (Proc.devRef .tc main_v3)
    ∧ after hostOps1_4 (after hostOps1_3 (after hostOps1_2 (after hostOps1_1 (after hostOps1 V)))) (Proc.devRef .tc main_arg2) = V (Proc.devRef .tc main_arg2)
    ∧ after hostOps1_4 (after hostOps1_3 (after hostOps1_2 (after hostOps1_1 (after hostOps1 V)))) (Proc.devRef .tc main_arg3) = V (Proc.devRef .tc main_arg3)
    ∧ after hostOps1_4 (after hostOps1_3 (after hostOps1_2 (after hostOps1_1 (after hostOps1 V)))) (Proc.devRef .tc main_arg4) = V (Proc.devRef .tc main_arg4)
    ∧ after hostOps1_4 (after hostOps1_3 (after hostOps1_2 (after hostOps1_1 (after hostOps1 V)))) (Proc.devRef .tc main_arg5) = V (Proc.devRef .tc main_arg5) := by
  simp only [hostOps1, hostOps1_1, hostOps1_2, hostOps1_3, hostOps1_4]
  after_results_simp
  refine ⟨?_, ?_, ?_, ?_, ?_, ?_, ?_, ?_, ?_, ?_, ?_, ?_, ?_, ?_, ?_, ?_, ?_⟩ <;> first | rfl | trivial

end Cert.KernelIdeal.Layer1

end
-- ==== Proof.LayerR1a.lean ====
/- The reference's operations of the same stage (kernel region 0 and kernel region 1 on the kernel side), read as the SAME functions
  as the kernel program's: the five buffers the layer's perceptron is computed from.
-/
import proofs.«140670_j11424613007642_1_alg».proof.Proof.RefRun
import proofs.«140670_j11424613007642_1_alg».proof.Proof.LayerK1
import proofs.«140670_j11424613007642_1_alg».proof.Proof.LibTRef
import Idealize.ShloMosaic.PureOps.Ideal

set_option maxRecDepth 16384

noncomputable section

namespace Cert.ReferenceIdeal.LayerR1

open Cert.ReferenceIdeal Cert.ReferenceIdeal.Gen Cert.ReferenceIdeal.RefRun Idealize.ShloMosaic Idealize.ShloMosaic.StableHlo Idealize.ShloMosaic.TcCoe

-- the gather, the scatter and the reductions are never opened: both sides apply them to equal arguments
attribute [local irreducible] Host.scatterAdd Host.reduce Host.gather Host.reduceAdd concatenate extractStridedSlice broadcastInDim iotaInDim in
set_option maxHeartbeats 16000000 in
set_option maxRecDepth 100000 in
/-- The five buffers the layer's perceptron is computed from. -/
theorem readsIn (V' : Valuation τ sig (Elt Ideal)) :
    after rseg1 V' (Proc.devRef .tc main_v96) = Cert.KernelIdeal.Layer1.f_dense (V' (Proc.devRef .tc main_v2)) (V' (Proc.devRef .tc main_v0)) (V' (Proc.devRef .tc main_v9)) (V' (Proc.devRef .tc main_v45))
    ∧ after rseg1 V' (Proc.devRef .tc main_v71) = Cert.KernelIdeal.Layer1.f_w1 (V' (Proc.devRef .tc main_arg2))
    ∧ after rseg1 V' (Proc.devRef .tc main_v73) = Cert.KernelIdeal.Layer1.f_b1 (V' (Proc.devRef .tc main_arg3))
    ∧ after rseg1 V' (Proc.devRef .tc main_v75) = Cert.KernelIdeal.Layer1.f_w2 (V' (Proc.devRef .tc main_arg4))
    ∧ after rseg1 V' (Proc.devRef .tc main_v77) = Cert.KernelIdeal.Layer1.f_b2 (V' (Proc.devRef .tc main_arg5)) := by
  simp only [after_append_line, rseg1, rseg1_a, rseg1_b, rseg1_c, rseg1_d]
  after_results_simp
  -- contents stored through a typed reference and read back through it are unchanged
  try simp only [Cert.LibTRef.ofBuf_toBuf]
  refine ⟨?_, ?_, ?_, ?_, ?_⟩ <;> first | rfl | trivial

end Cert.ReferenceIdeal.LayerR1

end
-- ==== Proof.LayerR1b.lean ====
/- The reference's operations of the same stage (kernel region 0 and kernel region 1 on the kernel side), read as the SAME functions
  as the kernel program's: the other buffers the next stage needs; a buffer the segment does not write keeps its contents.
-/
import proofs.«140670_j11424613007642_1_alg».proof.Proof.RefRun
import proofs.«140670_j11424613007642_1_alg».proof.Proof.LayerK1
import proofs.«140670_j11424613007642_1_alg».proof.Proof.LibTRef
import Idealize.ShloMosaic.PureOps.Ideal

set_option maxRecDepth 16384

noncomputable section

namespace Cert.ReferenceIdeal.LayerR1

open Cert.ReferenceIdeal Cert.ReferenceIdeal.Gen Cert.ReferenceIdeal.RefRun Idealize.ShloMosaic Idealize.ShloMosaic.StableHlo Idealize.ShloMosaic.TcCoe

-- the gather, the scatter and the reductions are never opened: both sides apply them to equal arguments
attribute [local irreducible] Host.scatterAdd Host.reduce Host.gather Host.reduceAdd concatenate extractStridedSlice broadcastInDim iotaInDim in
set_option maxHeartbeats 16000000 in
set_option maxRecDepth 100000 in
/-- The other buffers the next stage needs. -/
theorem reads (V' : Valuation τ sig (Elt Ideal)) :
    after rseg1 V' (Proc.devRef .tc main_v69) = Cert.KernelIdeal.Layer1.f_oidx (V' (Proc.devRef .tc main_v3))
    ∧ after rseg1 V' (Proc.devRef .tc main_v60) = Cert.KernelIdeal.Layer1.f_xnew (V' (Proc.devRef .tc main_v0)) (V' (Proc.devRef .tc main_v9)) (V' (Proc.devRef .tc main_v45))
    ∧ after rseg1 V' (Proc.devRef .tc main_v63) = Cert.KernelIdeal.Layer1.f_qnew (V' (Proc.devRef .tc main_arg1)) (V' (Proc.devRef .tc main_v9)) (V' (Proc.devRef .tc main_v45))
    ∧ after rseg1 V' (Proc.devRef .tc main_v1) = V' (Proc.devRef .tc main_v1)
    ∧ after rseg1 V' (Proc.devRef .tc main_v2) = V' (Proc.devRef .tc main_v2)
    ∧ after rseg1 V' (Proc.devRef .tc main_v3) = V' (Proc.devRef .tc main_v3)
    ∧ after rseg1 V' (Proc.devRef .tc main_arg2) = V' (Proc.devRef .tc main_arg2)
    ∧ after rseg1 V' (Proc.devRef .tc main_arg3) = V' (Proc.devRef .tc main_arg3)
    ∧ after rseg1 V' (Proc.devRef .tc main_arg4) = V' (Proc.devRef .tc main_arg4)
    ∧ after rseg1 V' (Proc.devRef .tc main_arg5) = V' (Proc.devRef .tc main_arg5) := by
  simp only [after_append_line, rseg1, rseg1_a, rseg1_b, rseg1_c, rseg1_d]
  after_results_simp
  -- contents stored through a typed reference and read back through it are unchanged
  try simp only [Cert.LibTRef.ofBuf_toBuf]
  refine ⟨?_, ?_, ?_, ?_, ?_, ?_, ?_, ?_, ?_, ?_⟩ <;> first | rfl | trivial

end Cert.ReferenceIdeal.LayerR1

end
-- ==== Proof.LayerR1c.lean ====
/- The reference's operations of the same stage (kernel region 0 and kernel region 1 on the kernel side), read as the SAME functions
  as the kernel program's: the layer's perceptron output is the host perceptron of the five buffers it is computed from.
-/
import proofs.«140670_j11424613007642_1_alg».proof.Proof.RefRun
import proofs.«140670_j11424613007642_1_alg».proof.Proof.MlpHost
import Idealize.ShloMosaic.PureOps.Ideal

set_option maxRecDepth 16384

noncomputable section

namespace Cert.ReferenceIdeal.LayerR1

open Cert.ReferenceIdeal Cert.ReferenceIdeal.Gen Cert.ReferenceIdeal.RefRun Idealize.ShloMosaic Idealize.ShloMosaic.StableHlo Idealize.ShloMosaic.TcCoe

-- the gather, the scatter and the reductions are never opened: both sides apply them to equal arguments
attribute [local irreducible] Host.scatterAdd Host.reduce Host.gather Host.reduceAdd concatenate extractStridedSlice broadcastInDim iotaInDim in
set_option maxHeartbeats 16000000 in
set_option maxRecDepth 100000 in
/-- The layer's perceptron output is the host perceptron of those five buffers. -/
theorem readsOut (V' : Valuation τ sig (Elt Ideal)) :
    after rseg1 V' (Proc.devRef .tc main_v105) = Cert.ReferenceIdeal.MlpHost.hostMlp (after rseg1 V' (Proc.devRef .tc main_v96)) (after rseg1 V' (Proc.devRef .tc main_v71)) (after rseg1 V' (Proc.devRef .tc main_v73)) (after rseg1 V' (Proc.devRef .tc main_v75)) (after rseg1 V' (Proc.devRef .tc main_v77)) := by
  simp only [after_append_line, rseg1, rseg1_a, rseg1_b, rseg1_c, rseg1_d]
  after_results_simp
  first | rfl | trivial

end Cert.ReferenceIdeal.LayerR1

end
-- ==== Proof.LayerR1.lean ====
/- The reference's side of this stage, collected: the three statements live in one module each.
-/
import proofs.«140670_j11424613007642_1_alg».proof.Proof.LayerR1a
import proofs.«140670_j11424613007642_1_alg».proof.Proof.LayerR1b
import proofs.«140670_j11424613007642_1_alg».proof.Proof.LayerR1c
-- ==== Proof.Step1.lean ====
/-
  Layer 1. If after layer 0's perceptron output the two programs hold the same eleven values, they do so again after
  layer 1's. On the kernel side the host operations up to region 1 read as functions of those values, the region leaves
  the layer function of its five operand arrays, and nothing else the next layer needs is touched; on the reference side
  the same operations read as the same functions, and its host perceptron is the layer function.
-/
import proofs.«140670_j11424613007642_1_alg».proof.Proof.KernelIdealFrameP
import proofs.«140670_j11424613007642_1_alg».proof.Proof.BridgeDefs
import proofs.«140670_j11424613007642_1_alg».proof.Proof.Congr
import proofs.«140670_j11424613007642_1_alg».proof.Proof.MlpBridge
import proofs.«140670_j11424613007642_1_alg».proof.Proof.Region1
import proofs.«140670_j11424613007642_1_alg».proof.Proof.LayerK1
import proofs.«140670_j11424613007642_1_alg».proof.Proof.LayerR1

set_option maxRecDepth 16384

noncomputable section

namespace Cert.Bridge

open Cert.KernelIdeal Cert.KernelIdeal.Gen Cert.KernelIdeal.GenP Cert.KernelIdeal.MlpArray
open Idealize.ShloMosaic Idealize.ShloMosaic.StableHlo Idealize.ShloMosaic.TcCoe Idealize.SL.Sem

set_option maxHeartbeats 4000000 in
theorem step1 (m : (ℓ : Loc nD τ sig) → Buf (Elt Ideal) ℓ) (ρ : Dev nD → PrngReg) (c : Dev nD) (V' : RV)
    (h : Inv0 (W4 m ρ c) V') :
    Inv1 (W10 m ρ c) (after Cert.ReferenceIdeal.RefRun.rseg1 V') := by
  obtain ⟨out, oidx, a, b, q, ia, ib, w1s, b1s, w2s, b2s, ⟨kout, rout⟩, ⟨koidx, roidx⟩, ⟨ka, ra⟩, ⟨kb, rb⟩, ⟨kq, rq⟩, ⟨kia, ria⟩, ⟨kib, rib⟩,
    ⟨kw1s, rw1s⟩, ⟨kb1s, rb1s⟩, ⟨kw2s, rw2s⟩, ⟨kb2s, rb2s⟩⟩ := h
  obtain ⟨Kdense, Kw1, Kb1, Kb1r, Kw2, Kb2, Kb2r, Koidx, Kxnew, Kqnew, Kkeepb, Kia, Kib, Kw1s, Kb1s, Kw2s, Kb2s⟩ :=
    Cert.KernelIdeal.Layer1.reads (F := Ideal) (W4 m ρ c)
  obtain ⟨Rdense, Rw1, Rb1, Rw2, Rb2⟩ := Cert.ReferenceIdeal.LayerR1.readsIn V'
  obtain ⟨Roidx, Rxnew, Rqnew, Rkeepb, Ria, Rib, Rw1s, Rb1s, Rw2s, Rb2s⟩ := Cert.ReferenceIdeal.LayerR1.reads V'
  have Rout := Cert.ReferenceIdeal.LayerR1.readsOut V'
  -- the kernel program's reads, at the eleven values
  have Kdense' := Kdense.trans (show _ = Cert.KernelIdeal.Layer1.f_dense ia a oidx out by simp only [kia, ka, koidx, kout])
  have Kw1' := Kw1.trans (show _ = Cert.KernelIdeal.Layer1.f_w1 w1s by simp only [kw1s])
  have Kb1r' := Kb1r.trans (show _ = Cert.KernelIdeal.Layer1.f_b1r b1s by simp only [kb1s])
  have Kw2' := Kw2.trans (show _ = Cert.KernelIdeal.Layer1.f_w2 w2s by simp only [kw2s])
  have Kb2r' := Kb2r.trans (show _ = Cert.KernelIdeal.Layer1.f_b2r b2s by simp only [kb2s])
  have Koidx' := Koidx.trans (show _ = Cert.KernelIdeal.Layer1.f_oidx ib by simp only [kib])
  have Kxnew' := Kxnew.trans (show _ = Cert.KernelIdeal.Layer1.f_xnew a oidx out by simp only [ka, koidx, kout])
  have Kqnew' := Kqnew.trans (show _ = Cert.KernelIdeal.Layer1.f_qnew q oidx out by simp only [kq, koidx, kout])
  -- the reference's reads, at the same values
  have Rdense' := Rdense.trans (show _ = Cert.KernelIdeal.Layer1.f_dense ia a oidx out by simp only [ria, ra, roidx, rout])
  have Rw1' := Rw1.trans (show _ = Cert.KernelIdeal.Layer1.f_w1 w1s by simp only [rw1s])
  have Rb1' := Rb1.trans (show _ = Cert.KernelIdeal.Layer1.f_b1 b1s by simp only [rb1s])
  have Rw2' := Rw2.trans (show _ = Cert.KernelIdeal.Layer1.f_w2 w2s by simp only [rw2s])
  have Rb2' := Rb2.trans (show _ = Cert.KernelIdeal.Layer1.f_b2 b2s by simp only [rb2s])
  have Roidx' := Roidx.trans (show _ = Cert.KernelIdeal.Layer1.f_oidx ib by simp only [rib])
  have Rxnew' := Rxnew.trans (show _ = Cert.KernelIdeal.Layer1.f_xnew a oidx out by simp only [ra, roidx, rout])
  have Rqnew' := Rqnew.trans (show _ = Cert.KernelIdeal.Layer1.f_qnew q oidx out by simp only [rq, roidx, rout])
  refine ⟨G (Cert.KernelIdeal.Layer1.f_dense ia a oidx out) (Cert.KernelIdeal.Layer1.f_w1 w1s) (Cert.KernelIdeal.Layer1.f_b1r b1s)
      (Cert.KernelIdeal.Layer1.f_w2 w2s) (Cert.KernelIdeal.Layer1.f_b2r b2s),
    Cert.KernelIdeal.Layer1.f_oidx ib, b, Cert.KernelIdeal.Layer1.f_xnew a oidx out, Cert.KernelIdeal.Layer1.f_qnew q oidx out,
    ia, ib, w1s, b1s, w2s, b2s, ⟨?_, ?_⟩,
    ⟨(W10_of_ne m ρ c Cert.KernelIdeal.main_v63 (by decide)).trans Koidx', Roidx'⟩,
    ⟨(W10_of_ne m ρ c Cert.KernelIdeal.main_v1 (by decide)).trans (Kkeepb.trans kb), Rkeepb.trans rb⟩,
    ⟨(W10_of_ne m ρ c Cert.KernelIdeal.main_v54 (by decide)).trans Kxnew', Rxnew'⟩,
    ⟨(W10_of_ne m ρ c Cert.KernelIdeal.main_v57 (by decide)).trans Kqnew', Rqnew'⟩,
    ⟨(W10_of_ne m ρ c Cert.KernelIdeal.main_v2 (by decide)).trans (Kia.trans kia), Ria.trans ria⟩, ⟨(W10_of_ne m ρ c Cert.KernelIdeal.main_v3 (by decide)).trans (Kib.trans kib), Rib.trans rib⟩,
    ⟨(W10_of_ne m ρ c Cert.KernelIdeal.main_arg2 (by decide)).trans (Kw1s.trans kw1s), Rw1s.trans rw1s⟩, ⟨(W10_of_ne m ρ c Cert.KernelIdeal.main_arg3 (by decide)).trans (Kb1s.trans kb1s), Rb1s.trans rb1s⟩, ⟨(W10_of_ne m ρ c Cert.KernelIdeal.main_arg4 (by decide)).trans (Kw2s.trans kw2s), Rw2s.trans rw2s⟩, ⟨(W10_of_ne m ρ c Cert.KernelIdeal.main_arg5 (by decide)).trans (Kb2s.trans kb2s), Rb2s.trans rb2s⟩⟩
  · -- the region's output array is the layer function of its operand arrays as it finds them
    exact (W10_arr m ρ c 5).trans ((Cert.KernelIdeal.Region1.regionOut (V9 m ρ) c).trans (G_congr Kdense' Kw1' Kb1r' Kw2' Kb2r'))
  · -- the reference's host perceptron of the same five arrays is the same function
    exact Rout.trans ((hostMlp_congr Rdense' Rw1' Rb1' Rw2' Rb2').trans (Cert.MlpBridge.host_eq_G _ _ _ _ _))

end Cert.Bridge

end
-- ==== Proof.Region2.lean ====
/-
  python3 scratch/gen_regions.py 2

  Kernel region 2 (one layer's perceptron): whatever the TensorCore's buffers hold when the region is entered,
  the region leaves its output array holding the layer function of its five operand arrays. The grid has eight
  points; point t is given rows 512·t … 512·t+511 of the input and all of both weight matrices and biases, and
  writes rows 512·t … 512·t+511 of the output. Entry (r, j) of the output depends on row r of the input alone, so
  each written block is the restriction of ONE whole-array function, and the eight blocks tile the output.
-/
import proofs.«140670_j11424613007642_1_alg».proof.Proof.KernelIdealFrameP
import proofs.«140670_j11424613007642_1_alg».proof.Proof.MlpKernel
import proofs.«140670_j11424613007642_1_alg».proof.Proof.MlpArray
import Idealize.ShloMosaic.Lib.Pipeline.Value
import Idealize.ShloMosaic.Lib.ValueIdx

set_option maxRecDepth 16384

noncomputable section

namespace Cert.KernelIdeal.Region2

open Cert.KernelIdeal Cert.KernelIdeal.Gen Cert.KernelIdeal.GenP Cert.KernelIdeal.MlpArray
open Idealize.ShloMosaic Idealize.ShloMosaic.TcCoe Idealize.ShloMosaic.ValueIdx Idealize.SL.Sem
open Idealize.ShloMosaic.Pipeline (Dat Cfg Window)

/-- The body reads and writes its staging buffers whole: at offsets zero. -/
theorem zero_offsets : (![0, 0] : Fin 2 → Nat) = fun _ => 0 := funext fun a => by fin_cases a <;> rfl

/-- The printed index maps over the grid: the input's and the output's row block is the grid point, every other
    block index is zero. -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The row function depends on its five arguments through their values alone. -/
theorem mlpRow_congr {d d' : Fin 2000 → EReal} {w1 w1' : Fin 2000 → Fin 64 → EReal} {b1 b1' : Fin 64 → EReal}
    {w2 w2' : Fin 64 → Fin 4000 → EReal} {b2 b2' : Fin 4000 → EReal}
    (hd : ∀ l, d l = d' l) (hw1 : ∀ l k, w1 l k = w1' l k) (hb1 : ∀ k, b1 k = b1' k)
    (hw2 : ∀ k j, w2 k j = w2' k j) (hb2 : ∀ j, b2 j = b2' j) (j : Fin 4000) :
    Cert.MlpSpec.mlpRow d w1 b1 w2 b2 j = Cert.MlpSpec.mlpRow d' w1' b1' w2' b2' j := by
  have e1 : d = d' := funext hd
  have e2 : w1 = w1' := funext fun l => funext (hw1 l)
  have e3 : b1 = b1' := funext hb1
  have e4 : w2 = w2' := funext fun k => funext (hw2 k)
  have e5 : b2 = b2' := funext hb2
  rw [e1, e2, e3, e4, e5]

/-- The payload of the operand arrays' blocks at point `t` is block `t` of the layer function of the arrays:
    entry `(p, q)` of the block is entry `(512·t + p, q)` of the array; the input's block holds rows
    `512·t + p`, and the weights' and biases' blocks are the whole arrays. -/
theorem payload_block (A0 : S4096x2000.Idx → EReal) (A1 : S2000x64.Idx → EReal) (A2 : S1x64.Idx → EReal)
    (A3 : S64x4000.Idx → EReal) (A4 : S1x4000.Idx → EReal) (t : Fin cfg2.N) :
    k2_pay1 (F := Ideal) (((cfg2.win 0).blk t).view.read (Elt Ideal) A0) (((cfg2.win 1).blk t).view.read (Elt Ideal) A1)
        (((cfg2.win 2).blk t).view.read (Elt Ideal) A2) (((cfg2.win 3).blk t).view.read (Elt Ideal) A3)
        (((cfg2.win 4).blk t).view.read (Elt Ideal) A4)
      = ((cfg2.win 5).blk t).view.read (Elt Ideal) (G A0 A1 A2 A3 A4) := by
  obtain ⟨e00, e01, e10, e11, e20, e21, e30, e31, e40, e41, e50, e51⟩ := block_indices t
  have hN : cfg2.N = 8 := rfl
  have ht : t.val < 8 := hN ▸ t.isLt
  rw [Cert.KernelIdeal.MlpKernel.pay2_eq]
  funext j
  obtain ⟨p, q, rfl⟩ : ∃ (p : Fin 512) (q : Fin 4000), j = ix2 p q := ⟨j 0, j 1, eq_ix2 j⟩
  refine (Cert.KernelIdeal.MlpKernel.pay_apply (((cfg2.win 0).blk t).view.read (Elt Ideal) A0)
    (((cfg2.win 1).blk t).view.read (Elt Ideal) A1) (((cfg2.win 2).blk t).view.read (Elt Ideal) A2)
    (((cfg2.win 3).blk t).view.read (Elt Ideal) A3) (((cfg2.win 4).blk t).view.read (Elt Ideal) A4) p q).trans ?_
  have h5 : ((cfg2.win 5).blk t).view.emb (ix2 p q)
      = ix2 (⟨t.val * 512 + p.val, by have := p.isLt; omega⟩ : Fin 4096) q := by
    funext a; apply Fin.ext
    match a with
    | ⟨0, _⟩ => show win2_5.index t (0 : Fin 2) * 512 + 1 * p.val = t.val * 512 + p.val; omega
    | ⟨1, _⟩ => show win2_5.index t (1 : Fin 2) * 4000 + 1 * q.val = q.val; omega
  show _ = G A0 A1 A2 A3 A4 (((cfg2.win 5).blk t).view.emb (ix2 p q))
  rw [h5, G_apply]
  refine mlpRow_congr (fun l => ?_) (fun l k => ?_) (fun k => ?_) (fun k j' => ?_) (fun j' => ?_) q
  · show A0 (((cfg2.win 0).blk t).view.emb (ix2 p l)) = A0 (ix2 (⟨t.val * 512 + p.val, by have := p.isLt; omega⟩ : Fin 4096) l)
    refine congrArg A0 ?_
    funext a; apply Fin.ext
    match a with
    | ⟨0, _⟩ => show win2_0.index t (0 : Fin 2) * 512 + 1 * p.val = t.val * 512 + p.val; omega
    | ⟨1, _⟩ => show win2_0.index t (1 : Fin 2) * 2000 + 1 * l.val = l.val; omega
  · show A1 (((cfg2.win 1).blk t).view.emb (ix2 l k)) = A1 (ix2 l k)
    refine congrArg A1 ?_
    funext a; apply Fin.ext
    match a with
    | ⟨0, _⟩ => show win2_1.index t (0 : Fin 2) * 2000 + 1 * l.val = l.val; omega
    | ⟨1, _⟩ => show win2_1.index t (1 : Fin 2) * 64 + 1 * k.val = k.val; omega
  · show A2 (((cfg2.win 2).blk t).view.emb (ix2 (0 : Fin 1) k)) = A2 (ix2 (0 : Fin 1) k)
    refine congrArg A2 ?_
    funext a; apply Fin.ext
    match a with
    | ⟨0, _⟩ => show win2_2.index t (0 : Fin 2) * 1 + 1 * 0 = 0; omega
    | ⟨1, _⟩ => show win2_2.index t (1 : Fin 2) * 64 + 1 * k.val = k.val; omega
  · show A3 (((cfg2.win 3).blk t).view.emb (ix2 k j')) = A3 (ix2 k j')
    refine congrArg A3 ?_
    funext a; apply Fin.ext
    match a with
    | ⟨0, _⟩ => show win2_3.index t (0 : Fin 2) * 64 + 1 * k.val = k.val; omega
    | ⟨1, _⟩ => show win2_3.index t (1 : Fin 2) * 4000 + 1 * j'.val = j'.val; omega
  · show A4 (((cfg2.win 4).blk t).view.emb (ix2 (0 : Fin 1) j')) = A4 (ix2 (0 : Fin 1) j')
    refine congrArg A4 ?_
    funext a; apply Fin.ext
    match a with
    | ⟨0, _⟩ => show win2_4.index t (0 : Fin 2) * 1 + 1 * 0 = 0; omega
    | ⟨1, _⟩ => show win2_4.index t (1 : Fin 2) * 4000 + 1 * j'.val = j'.val; omega

variable (V : (c : Dev nD) → (b : Ref sig .tc) → Buf (Elt Ideal) ((c : Thread nD τ).loc b))

/-- What point `t` writes back is block `t` of the layer function of the operand arrays as the region finds them. -/
theorem written_block (c : Dev nD) (t : Fin cfg2.N) :
    (dat2 V c).flushed 5 t = ((cfg2.win 5).blk t).view.read (Elt Ideal)
      (G (V c (Pipeline.arrRef spec2 0)) (V c (Pipeline.arrRef spec2 1)) (V c (Pipeline.arrRef spec2 2))
        (V c (Pipeline.arrRef spec2 3)) (V c (Pipeline.arrRef spec2 4))) := by
  show (cfg2.win 5).cut (grid2.coords t) ((dat2 V c).after 5 t) = _
  rw [after2_5]
  unfold out2_5
  rw [View.canon_unit_zero zero_offsets]
  simp only [View.ld_unit_zero (S := S512x2000) zero_offsets, View.ld_unit_zero (S := S2000x64) zero_offsets,
    View.ld_unit_zero (S := S1x64) zero_offsets, View.ld_unit_zero (S := S64x4000) zero_offsets,
    View.ld_unit_zero (S := S1x4000) zero_offsets]
  exact payload_block (V c (Pipeline.arrRef spec2 0)) (V c (Pipeline.arrRef spec2 1)) (V c (Pipeline.arrRef spec2 2))
    (V c (Pipeline.arrRef spec2 3)) (V c (Pipeline.arrRef spec2 4)) t

/-- An index of the output array is in point `t`'s block iff each coordinate is in the block's range on its axis. -/
theorem mem_block (t : Fin cfg2.N) (i : S4096x4000.Idx) :
    i ∈ ((cfg2.win 5).blk t).view.set ↔ ∀ a : Fin 2, win2_5.index t a * S512x4000.size a ≤ (i a).val
      ∧ (i a).val < win2_5.index t a * S512x4000.size a + S512x4000.size a := by
  show i ∈ ((View.whole main_v147).slice (win2_5.rect t)).set ↔ _
  rw [View.set_slice_whole, Rect.mem_set_unit]
  exact Iff.rfl

/-- Every entry of the output array is in some point's block: row `r` is written by point `r / 512`. -/
theorem cover (i : S4096x4000.Idx) :
    ∃ t : Fin cfg2.N, (cfg2.win 5).flush t = true ∧ i ∈ ((cfg2.win 5).blk t).view.set := by
  have hi0 : (i 0).val < 4096 := (i 0).isLt
  have hi1 : (i 1).val < 4000 := (i 1).isLt
  obtain ⟨t, htv⟩ : ∃ t : Fin cfg2.N, t.val = (i 0).val / 512 :=
    ⟨⟨(i 0).val / 512, by show (i 0).val / 512 < 8; omega⟩, rfl⟩
  obtain ⟨-, -, -, -, -, -, -, -, -, -, e50, e51⟩ := block_indices t
  refine ⟨t, flush2_5 t, ?_⟩
  rw [mem_block]
  intro a
  match a with
  | ⟨0, _⟩ =>
    show win2_5.index t (0 : Fin 2) * 512 ≤ (i 0).val ∧ (i 0).val < win2_5.index t (0 : Fin 2) * 512 + 512
    omega
  | ⟨1, _⟩ =>
    show win2_5.index t (1 : Fin 2) * 4000 ≤ (i 1).val ∧ (i 1).val < win2_5.index t (1 : Fin 2) * 4000 + 4000
    omega

/-- The region's output array after its eight write-backs: the layer function of the five operand arrays as the
    region finds them. -/
theorem regionOut (c : Dev nD) :
    (dat2 V c).arrAt 5 cfg2.N = Cert.KernelIdeal.MlpArray.G (V c (Pipeline.arrRef spec2 0))
      (V c (Pipeline.arrRef spec2 1)) (V c (Pipeline.arrRef spec2 2)) (V c (Pipeline.arrRef spec2 3))
      (V c (Pipeline.arrRef spec2 4)) :=
  (dat2 V c).arrAt_eq_of_cover 5
    (G (V c (Pipeline.arrRef spec2 0)) (V c (Pipeline.arrRef spec2 1)) (V c (Pipeline.arrRef spec2 2))
      (V c (Pipeline.arrRef spec2 3)) (V c (Pipeline.arrRef spec2 4)))
    (fun t _ => written_block V c t) cover

end Cert.KernelIdeal.Region2

end
-- ==== Proof.LayerK2.lean ====
/- The host operations the kernel program runs between kernel region 1 and kernel region 2, read as functions. Each buffer the
  next stage needs is written out as the composition of the operations that produce it from the buffers the stretch
  reads; a buffer the stretch does not write keeps its contents; and the fold of the stretch's operations at each of
  these buffers is that function of the contents the stretch starts from.
-/
import proofs.«140670_j11424613007642_1_alg».proof.Proof.Gen.KernelIdeal.Launch
import Idealize.ShloMosaic.Lib.StableHlo.Run

set_option maxRecDepth 16384

noncomputable section

namespace Cert.KernelIdeal.Layer2

open Cert.KernelIdeal Cert.KernelIdeal.Gen Idealize.ShloMosaic Idealize.ShloMosaic.StableHlo Idealize.ShloMosaic.TcCoe

variable {F : FTy → Type} [FloatOps F]

/-- Buffer main_v144 as a function of the buffers the stretch reads: its 64 operations, in program order. -/
def f_dense (x_main_v3 : (⟨S4096x61, .i32⟩ : BufTy).Contents (Elt F)) (x_main_v1 : (⟨S4096x61, .f32⟩ : BufTy).Contents (Elt F)) (x_main_v63 : (⟨S4096x122, .i32⟩ : BufTy).Contents (Elt F)) (x_main_v93 : (⟨S4096x4000, .f32⟩ : BufTy).Contents (Elt F)) :
    (⟨S4096x2000, .f32⟩ : BufTy).Contents (Elt F) :=
  have x_main_cst_19 : (⟨S_, .f32⟩ : BufTy).Contents (Elt F) := (constant S_ .f32 0x00000000#32)
  have x_main_v94 : (⟨S4096x1, .f32⟩ : BufTy).Contents (Elt F) := ((broadcastInDim S4096x1 ![] bcast_S_S4096x1 : (⟨S_, .f32⟩ : BufTy).Contents (Elt F) → (⟨S4096x1, .f32⟩ : BufTy).Contents (Elt F))) x_main_cst_19
  have x_main_v95 : (⟨S4096x4001, .f32⟩ : BufTy).Contents (Elt F) := (((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F))) x_main_v93 x_main_v94
  have x_main_call3_c : (⟨S_, .i32⟩ : BufTy).Contents (Elt F) := (constantI S_ 32 0#32)
  have x_main_call3_v0 : (⟨S4096x122, .i32⟩ : BufTy).Contents (Elt F) := ((broadcastInDim S4096x122 ![] bcast_S_S4096x122)) x_main_call3_c
  have x_main_call3_v1 : (⟨S4096x122, .i1⟩ : BufTy).Contents (Elt F) := ((cmpi .slt)) x_main_v63 x_main_call3_v0
  have x_main_call3_c_0 : (⟨S_, .i32⟩ : BufTy).Contents (Elt F) := (constantI S_ 32 4001#32)
  have x_main_call3_v2 : (⟨S4096x122, .i32⟩ : BufTy).Contents (Elt F) := ((broadcastInDim S4096x122 ![] bcast_S_S4096x122)) x_main_call3_c_0
  have x_main_call3_v3 : (⟨S4096x122, .i32⟩ : BufTy).Contents (Elt F) := (addi) x_main_v63 x_main_call3_v2
  have x_main_call3_v4 : (⟨S4096x122, .i32⟩ : BufTy).Contents (Elt F) := (select) x_main_call3_v1 x_main_call3_v3 x_main_v63
  have x_main_call3_v5 : (⟨S4096x122x1, .i32⟩ : BufTy).Contents (Elt F) := shapeCast S4096x122x1 x_main_call3_v4 shapeCasts_S4096x122_S4096x122x1
  have x_main_call3_c_1 : (⟨S1, .i32⟩ : BufTy).Contents (Elt F) := (constantI S1 32 4000#32)
  have x_main_call3_c_2 : (⟨S_, .i32⟩ : BufTy).Contents (Elt F) := (constantI S_ 32 0#32)
  have x_main_call3_v6 : (⟨S4096x122x1, .i32⟩ : BufTy).Contents (Elt F) := ((broadcastInDim S4096x122x1 ![] bcast_S_S4096x122x1)) x_main_call3_c_2
  have x_main_call3_v7 : (⟨S4096x122x1, .i1⟩ : BufTy).Contents (Elt F) := ((cmpi .sge)) x_main_call3_v5 x_main_call3_v6
  have x_main_call3_v8 : (⟨S1x1x1, .i32⟩ : BufTy).Contents (Elt F) := ((broadcastInDim S1x1x1 ![2] bcast_S1_S1x1x1_2)) x_main_call3_c_1
  have x_main_call3_v9 : (⟨S4096x122x1, .i32⟩ : BufTy).Contents (Elt F) := ((broadcastInDim S4096x122x1 ![0, 1, 2] bcast_S1x1x1_S4096x122x1_0_1_2)) x_main_call3_v8
  have x_main_call3_v10 : (⟨S4096x122x1, .i1⟩ : BufTy).Contents (Elt F) := ((cmpi .sle)) x_main_call3_v5 x_main_call3_v9
  have x_main_call3_v11 : (⟨S4096x122x1, .i1⟩ : BufTy).Contents (Elt F) := (andi) x_main_call3_v7 x_main_call3_v10
  have x_main_call3_c_3 : (⟨S_, .i1⟩ : BufTy).Contents (Elt F) := (constantI S_ 1 1#1)
  have x_main_call3_v12 : (⟨S4096x122, .i1⟩ : BufTy).Contents (Elt F) := ((fun x v => Host.reduce IntOp.andi x v reducesTo_S4096x122x1_S4096x122_d2 h_S_)) x_main_call3_v11 x_main_call3_c_3
  have x_main_call3_v13 : (⟨S4096x122, .f32⟩ : BufTy).Contents (Elt F) := ((fun x i => Host.gather gather_S4096x4001_S4096x122x1_S4096x122_n_1_0_0_1_2_11 x i)) x_main_v95 x_main_call3_v5
  have x_main_call3_cst : (⟨S_, .f32⟩ : BufTy).Contents (Elt F) := (constant S_ .f32 0x7FC00000#32)
  have x_main_call3_v14 : (⟨S4096x122, .f32⟩ : BufTy).Contents (Elt F) := ((broadcastInDim S4096x122 ![] bcast_S_S4096x122)) x_main_call3_cst
  have x_main_v96 : (⟨S4096x122, .f32⟩ : BufTy).Contents (Elt F) := (select) x_main_call3_v12 x_main_call3_v13 x_main_call3_v14
  have x_main_v97 : (⟨S4096x61, .f32⟩ : BufTy).Contents (Elt F) := (((extractStridedSlice S4096x61 ![0, 0] · slices_S4096x122_S4096x61_0_0) : (⟨S4096x122, .f32⟩ : BufTy).Contents (Elt F) → (⟨S4096x61, .f32⟩ : BufTy).Contents (Elt F))) x_main_v96
  have x_main_v98 : (⟨S4096x61, .f32⟩ : BufTy).Contents (Elt F) := (((extractStridedSlice S4096x61 ![0, 61] · slices_S4096x122_S4096x61_0_61) : (⟨S4096x122, .f32⟩ : BufTy).Contents (Elt F) → (⟨S4096x61, .f32⟩ : BufTy).Contents (Elt F))) x_main_v96
  have x_main_cst_20 : (⟨S_, .f32⟩ : BufTy).Contents (Elt F) := (constant S_ .f32 0x40000000#32)
  have x_main_v99 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_20
  have x_main_v100 : (⟨S4096x61, .f32⟩ : BufTy).Contents (Elt F) := ((addf : (⟨S4096x61, .f32⟩ : BufTy).Contents (Elt F) → (⟨S4096x61, .f32⟩ : BufTy).Contents (Elt F) → (⟨S4096x61, .f32⟩ : BufTy).Contents (Elt F))) x_main_v97 x_main_v99
  have x_main_v101 : (⟨S4096x61, .f32⟩ : BufTy).Contents (Elt F) := ((Host.negf : (⟨S4096x61, .f32⟩ : BufTy).Contents (Elt F) → (⟨S4096x61, .f32⟩ : BufTy).Contents (Elt F))) x_main_v100
  have x_main_v102 : (⟨S4096x61, .f32⟩ : BufTy).Contents (Elt F) := ((Host.exp : (⟨S4096x61, .f32⟩ : BufTy).Contents (Elt F) → (⟨S4096x61, .f32⟩ : BufTy).Contents (Elt F))) x_main_v101
  have x_main_cst_21 : (⟨S_, .f32⟩ : BufTy).Contents (Elt F) := (constant S_ .f32 0x3F800000#32)
  have x_main_v103 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_21
  have x_main_v104 : (⟨S4096x61, .f32⟩ : BufTy).Contents (Elt F) := ((addf : (⟨S4096x61, .f32⟩ : BufTy).Contents (Elt F) → (⟨S4096x61, .f32⟩ : BufTy).Contents (Elt F) → (⟨S4096x61, .f32⟩ : BufTy).Contents (Elt F))) x_main_v103 x_main_v102
  have x_main_cst_22 : (⟨S_, .f32⟩ : BufTy).Contents (Elt F) := (constant S_ .f32 0x3F800000#32)
  have x_main_v105 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_22
  have x_main_v106 : (⟨S4096x61, .f32⟩ : BufTy).Contents (Elt F) := ((Host.divf : (⟨S4096x61, .f32⟩ : BufTy).Contents (Elt F) → (⟨S4096x61, .f32⟩ : BufTy).Contents (Elt F) → (⟨S4096x61, .f32⟩ : BufTy).Contents (Elt F))) x_main_v105 x_main_v104
  have x_main_v107 : (⟨S4096x61, .f32⟩ : BufTy).Contents (Elt F) := ((mulf : (⟨S4096x61, .f32⟩ : BufTy).Contents (Elt F) → (⟨S4096x61, .f32⟩ : BufTy).Contents (Elt F) → (⟨S4096x61, .f32⟩ : BufTy).Contents (Elt F))) x_main_v106 x_main_v1
  have x_main_v108 : (⟨S4096x61, .f32⟩ : BufTy).Contents (Elt F) := ((addf : (⟨S4096x61, .f32⟩ : BufTy).Contents (Elt F) → (⟨S4096x61, .f32⟩ : BufTy).Contents (Elt F) → (⟨S4096x61, .f32⟩ : BufTy).Contents (Elt F))) x_main_v107 x_main_v98
  have x_main_v126 : (⟨S4096, .i32⟩ : BufTy).Contents (Elt F) := (iotaInDim S4096 32 0)
  have x_main_v127 : (⟨S4096x1, .i32⟩ : BufTy).Contents (Elt F) := ((broadcastInDim S4096x1 ![0] bcast_S4096_S4096x1_0 : (⟨S4096, .i32⟩ : BufTy).Contents (Elt F) → (⟨S4096x1, .i32⟩ : BufTy).Contents (Elt F))) x_main_v126
  have x_main_cst_27 : (⟨S_, .f32⟩ : BufTy).Contents (Elt F) := (constant S_ .f32 0x00000000#32)
  have x_main_v128 : (⟨S4096x2001, .f32⟩ : BufTy).Contents (Elt F) := ((broadcastInDim S4096x2001 ![] bcast_S_S4096x2001 : (⟨S_, .f32⟩ : BufTy).Contents (Elt F) → (⟨S4096x2001, .f32⟩ : BufTy).Contents (Elt F))) x_main_cst_27
  have x_main_c_28 : (⟨S_, .i32⟩ : BufTy).Contents (Elt F) := (constantI S_ 32 0#32)
  have x_main_v129 : (⟨S4096x1, .i32⟩ : BufTy).Contents (Elt F) := ((broadcastInDim S4096x1 ![] bcast_S_S4096x1 : (⟨S_, .i32⟩ : BufTy).Contents (Elt F) → (⟨S4096x1, .i32⟩ : BufTy).Contents (Elt F))) x_main_c_28
  have x_main_v130 : (⟨S4096x1, .i1⟩ : BufTy).Contents (Elt F) := ((cmpi .slt : (⟨S4096x1, .i32⟩ : BufTy).Contents (Elt F) → (⟨S4096x1, .i32⟩ : BufTy).Contents (Elt F) → (⟨S4096x1, .i1⟩ : BufTy).Contents (Elt F))) x_main_v127 x_main_v129
  have x_main_c_29 : (⟨S_, .i32⟩ : BufTy).Contents (Elt F) := (constantI S_ 32 4096#32)
  have x_main_v131 : (⟨S4096x1, .i32⟩ : BufTy).Contents (Elt F) := ((broadcastInDim S4096x1 ![] bcast_S_S4096x1 : (⟨S_, .i32⟩ : BufTy).Contents (Elt F) → (⟨S4096x1, .i32⟩ : BufTy).Contents (Elt F))) x_main_c_29
  have x_main_v132 : (⟨S4096x1, .i32⟩ : BufTy).Contents (Elt F) := ((addi : (⟨S4096x1, .i32⟩ : BufTy).Contents (Elt F) → (⟨S4096x1, .i32⟩ : BufTy).Contents (Elt F) → (⟨S4096x1, .i32⟩ : BufTy).Contents (Elt F))) x_main_v127 x_main_v131
  have x_main_v133 : (⟨S4096x1, .i32⟩ : BufTy).Contents (Elt F) := ((select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F))) x_main_v130 x_main_v132 x_main_v127
  have x_main_c_30 : (⟨S_, .i32⟩ : BufTy).Contents (Elt F) := (constantI S_ 32 0#32)
  have x_main_v134 : (⟨S4096x61, .i32⟩ : BufTy).Contents (Elt F) := ((broadcastInDim S4096x61 ![] bcast_S_S4096x61 : (⟨S_, .i32⟩ : BufTy).Contents (Elt F) → (⟨S4096x61, .i32⟩ : BufTy).Contents (Elt F))) x_main_c_30
  have x_main_v135 : (⟨S4096x61, .i1⟩ : BufTy).Contents (Elt F) := ((cmpi .slt : (⟨S4096x61, .i32⟩ : BufTy).Contents (Elt F) → (⟨S4096x61, .i32⟩ : BufTy).Contents (Elt F) → (⟨S4096x61, .i1⟩ : BufTy).Contents (Elt F))) x_main_v3 x_main_v134
  have x_main_c_31 : (⟨S_, .i32⟩ : BufTy).Contents (Elt F) := (constantI S_ 32 2001#32)
  have x_main_v136 : (⟨S4096x61, .i32⟩ : BufTy).Contents (Elt F) := ((broadcastInDim S4096x61 ![] bcast_S_S4096x61 : (⟨S_, .i32⟩ : BufTy).Contents (Elt F) → (⟨S4096x61, .i32⟩ : BufTy).Contents (Elt F))) x_main_c_31
  have x_main_v137 : (⟨S4096x61, .i32⟩ : BufTy).Contents (Elt F) := ((addi : (⟨S4096x61, .i32⟩ : BufTy).Contents (Elt F) → (⟨S4096x61, .i32⟩ : BufTy).Contents (Elt F) → (⟨S4096x61, .i32⟩ : BufTy).Contents (Elt F))) x_main_v3 x_main_v136
  have x_main_v138 : (⟨S4096x61, .i32⟩ : BufTy).Contents (Elt F) := ((select : (⟨S4096x61, .i1⟩ : BufTy).Contents (Elt F) → (⟨S4096x61, .i32⟩ : BufTy).Contents (Elt F) → (⟨S4096x61, .i32⟩ : BufTy).Contents (Elt F) → (⟨S4096x61, .i32⟩ : BufTy).Contents (Elt F))) x_main_v135 x_main_v137 x_main_v3
  have x_main_v139 : (⟨S4096x61, .i32⟩ : BufTy).Contents (Elt F) := ((broadcastInDim S4096x61 ![0, 1] bcast_S4096x1_S4096x61_0_1 : (⟨S4096x1, .i32⟩ : BufTy).Contents (Elt F) → (⟨S4096x61, .i32⟩ : BufTy).Contents (Elt F))) x_main_v133
  have x_main_v140 : (⟨S4096x61x1, .i32⟩ : BufTy).Contents (Elt F) := ((broadcastInDim S4096x61x1 ![0, 1] bcast_S4096x61_S4096x61x1_0_1 : (⟨S4096x61, .i32⟩ : BufTy).Contents (Elt F) → (⟨S4096x61x1, .i32⟩ : BufTy).Contents (Elt F))) x_main_v139
  have x_main_v141 : (⟨S4096x61x1, .i32⟩ : BufTy).Contents (Elt F) := ((broadcastInDim S4096x61x1 ![0, 1] bcast_S4096x61_S4096x61x1_0_1 : (⟨S4096x61, .i32⟩ : BufTy).Contents (Elt F) → (⟨S4096x61x1, .i32⟩ : BufTy).Contents (Elt F))) x_main_v138
  have x_main_v142 : (⟨S4096x61x2, .i32⟩ : BufTy).Contents (Elt F) := (((fun a b => concatenate S4096x61x2 2 [⟨S4096x61x1, a⟩, ⟨S4096x61x1, b⟩] concatenates_S4096x61x1_S4096x61x1_S4096x61x2_d2) : (⟨S4096x61x1, .i32⟩ : BufTy).Contents (Elt F) → (⟨S4096x61x1, .i32⟩ : BufTy).Contents (Elt F) → (⟨S4096x61x2, .i32⟩ : BufTy).Contents (Elt F))) x_main_v140 x_main_v141
  have x_main_v143 : (⟨S4096x2001, .f32⟩ : BufTy).Contents (Elt F) := (((fun x i u => Host.scatterAdd scatter_S4096x2001_S4096x61x2_S4096x61_n_01_01_2 x i u) : (⟨S4096x2001, .f32⟩ : BufTy).Contents (Elt F) → (⟨S4096x61x2, .i32⟩ : BufTy).Contents (Elt F) → (⟨S4096x61, .f32⟩ : BufTy).Contents (Elt F) → (⟨S4096x2001, .f32⟩ : BufTy).Contents (Elt F))) x_main_v128 x_main_v142 x_main_v108
  have x_main_v144 : (⟨S4096x2000, .f32⟩ : BufTy).Contents (Elt F) := (((extractStridedSlice S4096x2000 ![0, 0] · slices_S4096x2001_S4096x2000_0_0) : (⟨S4096x2001, .f32⟩ : BufTy).Contents (Elt F) → (⟨S4096x2000, .f32⟩ : BufTy).Contents (Elt F))) x_main_v143
  x_main_v144

/-- Buffer main_v119 as a function of the buffers the stretch reads: its 2 operations, in program order. -/
def f_w1 (x_main_arg2 : (⟨S10x2000x64, .f32⟩ : BufTy).Contents (Elt F)) :
    (⟨S2000x64, .f32⟩ : BufTy).Contents (Elt F) :=
  have x_main_v118 : (⟨S1x2000x64, .f32⟩ : BufTy).Contents (Elt F) := (((extractStridedSlice S1x2000x64 ![2, 0, 0] · slices_S10x2000x64_S1x2000x64_2_0_0) : (⟨S10x2000x64, .f32⟩ : BufTy).Contents (Elt F) → (⟨S1x2000x64, .f32⟩ : BufTy).Contents (Elt F))) x_main_arg2
  have x_main_v119 : (⟨S2000x64, .f32⟩ : BufTy).Contents (Elt F) := shapeCast S2000x64 x_main_v118 shapeCasts_S1x2000x64_S2000x64
  x_main_v119

/-- Buffer main_v121 as a function of the buffers the stretch reads: its 2 operations, in program order. -/
def f_b1 (x_main_arg3 : (⟨S10x64, .f32⟩ : BufTy).Contents (Elt F)) :
    (⟨S64, .f32⟩ : BufTy).Contents (Elt F) :=
  have x_main_v120 : (⟨S1x64, .f32⟩ : BufTy).Contents (Elt F) := (((extractStridedSlice S1x64 ![2, 0] · slices_S10x64_S1x64_2_0) : (⟨S10x64, .f32⟩ : BufTy).Contents (Elt F) → (⟨S1x64, .f32⟩ : BufTy).Contents (Elt F))) x_main_arg3
  have x_main_v121 : (⟨S64, .f32⟩ : BufTy).Contents (Elt F) := shapeCast S64 x_main_v120 shapeCasts_S1x64_S64
  x_main_v121

/-- Buffer main_v145 as a function of the buffers the stretch reads: its 3 operations, in program order. -/
def f_b1r (x_main_arg3 : (⟨S10x64, .f32⟩ : BufTy).Contents (Elt F)) :
    (⟨S1x64, .f32⟩ : BufTy).Contents (Elt F) :=
  have x_main_v120 : (⟨S1x64, .f32⟩ : BufTy).Contents (Elt F) := (((extractStridedSlice S1x64 ![2, 0] · slices_S10x64_S1x64_2_0) : (⟨S10x64, .f32⟩ : BufTy).Contents (Elt F) → (⟨S1x64, .f32⟩ : BufTy).Contents (Elt F))) x_main_arg3
  have x_main_v121 : (⟨S64, .f32⟩ : BufTy).Contents (Elt F) := shapeCast S64 x_main_v120 shapeCasts_S1x64_S64
  have x_main_v145 : (⟨S1x64, .f32⟩ : BufTy).Contents (Elt F) := shapeCast S1x64 x_main_v121 shapeCasts_S64_S1x64
  x_main_v145

/-- Buffer main_v123 as a function of the buffers the stretch reads: its 2 operations, in program order. -/
def f_w2 (x_main_arg4 : (⟨S10x64x4000, .f32⟩ : BufTy).Contents (Elt F)) :
    (⟨S64x4000, .f32⟩ : BufTy).Contents (Elt F) :=
  have x_main_v122 : (⟨S1x64x4000, .f32⟩ : BufTy).Contents (Elt F) := (((extractStridedSlice S1x64x4000 ![2, 0, 0] · slices_S10x64x4000_S1x64x4000_2_0_0) : (⟨S10x64x4000, .f32⟩ : BufTy).Contents (Elt F) → (⟨S1x64x4000, .f32⟩ : BufTy).Contents (Elt F))) x_main_arg4
  have x_main_v123 : (⟨S64x4000, .f32⟩ : BufTy).Contents (Elt F) := shapeCast S64x4000 x_main_v122 shapeCasts_S1x64x4000_S64x4000
  x_main_v123

/-- Buffer main_v125 as a function of the buffers the stretch reads: its 2 operations, in program order. -/
def f_b2 (x_main_arg5 : (⟨S10x4000, .f32⟩ : BufTy).Contents (Elt F)) :
    (⟨S4000, .f32⟩ : BufTy).Contents (Elt F) :=
  have x_main_v124 : (⟨S1x4000, .f32⟩ : BufTy).Contents (Elt F) := (((extractStridedSlice S1x4000 ![2, 0] · slices_S10x4000_S1x4000_2_0) : (⟨S10x4000, .f32⟩ : BufTy).Contents (Elt F) → (⟨S1x4000, .f32⟩ : BufTy).Contents (Elt F))) x_main_arg5
  have x_main_v125 : (⟨S4000, .f32⟩ : BufTy).Contents (Elt F) := shapeCast S4000 x_main_v124 shapeCasts_S1x4000_S4000
  x_main_v125

/-- Buffer main_v146 as a function of the buffers the stretch reads: its 3 operations, in program order. -/
def f_b2r (x_main_arg5 : (⟨S10x4000, .f32⟩ : BufTy).Contents (Elt F)) :
    (⟨S1x4000, .f32⟩ : BufTy).Contents (Elt F) :=
  have x_main_v124 : (⟨S1x4000, .f32⟩ : BufTy).Contents (Elt F) := (((extractStridedSlice S1x4000 ![2, 0] · slices_S10x4000_S1x4000_2_0) : (⟨S10x4000, .f32⟩ : BufTy).Contents (Elt F) → (⟨S1x4000, .f32⟩ : BufTy).Contents (Elt F))) x_main_arg5
  have x_main_v125 : (⟨S4000, .f32⟩ : BufTy).Contents (Elt F) := shapeCast S4000 x_main_v124 shapeCasts_S1x4000_S4000
  have x_main_v146 : (⟨S1x4000, .f32⟩ : BufTy).Contents (Elt F) := shapeCast S1x4000 x_main_v125 shapeCasts_S4000_S1x4000
  x_main_v146

/-- Buffer main_v117 as a function of the buffers the stretch reads: its 11 operations, in program order. -/
def f_oidx (x_main_v2 : (⟨S4096x64, .i32⟩ : BufTy).Contents (Elt F)) :
    (⟨S4096x128, .i32⟩ : BufTy).Contents (Elt F) :=
  have x_main_c_24 : (⟨S_, .i32⟩ : BufTy).Contents (Elt F) := (constantI S_ 32 2000#32)
  have x_main_v112 : (⟨S4096x64, .i32⟩ : BufTy).Contents (Elt F) := ((broadcastInDim S4096x64 ![] bcast_S_S4096x64 : (⟨S_, .i32⟩ : BufTy).Contents (Elt F) → (⟨S4096x64, .i32⟩ : BufTy).Contents (Elt F))) x_main_c_24
  have x_main_v113 : (⟨S4096x64, .i1⟩ : BufTy).Contents (Elt F) := ((cmpi .eq : (⟨S4096x64, .i32⟩ : BufTy).Contents (Elt F) → (⟨S4096x64, .i32⟩ : BufTy).Contents (Elt F) → (⟨S4096x64, .i1⟩ : BufTy).Contents (Elt F))) x_main_v2 x_main_v112
  have x_main_c_25 : (⟨S_, .i32⟩ : BufTy).Contents (Elt F) := (constantI S_ 32 2000#32)
  have x_main_v114 : (⟨S4096x64, .i32⟩ : BufTy).Contents (Elt F) := ((broadcastInDim S4096x64 ![] bcast_S_S4096x64 : (⟨S_, .i32⟩ : BufTy).Contents (Elt F) → (⟨S4096x64, .i32⟩ : BufTy).Contents (Elt F))) x_main_c_25
  have x_main_v115 : (⟨S4096x64, .i32⟩ : BufTy).Contents (Elt F) := ((addi : (⟨S4096x64, .i32⟩ : BufTy).Contents (Elt F) → (⟨S4096x64, .i32⟩ : BufTy).Contents (Elt F) → (⟨S4096x64, .i32⟩ : BufTy).Contents (Elt F))) x_main_v2 x_main_v114
  have x_main_c_26 : (⟨S_, .i32⟩ : BufTy).Contents (Elt F) := (constantI S_ 32 4000#32)
  have x_main_call4_v0 : (⟨S_, .i32⟩ : BufTy).Contents (Elt F) := (id) x_main_c_26
  have x_main_call4_v1 : (⟨S4096x64, .i32⟩ : BufTy).Contents (Elt F) := ((broadcastInDim S4096x64 ![] bcast_S_S4096x64)) x_main_call4_v0
  have x_main_v116 : (⟨S4096x64, .i32⟩ : BufTy).Contents (Elt F) := (select) x_main_v113 x_main_call4_v1 x_main_v115
  have x_main_v117 : (⟨S4096x128, .i32⟩ : BufTy).Contents (Elt F) := (((fun a b => concatenate S4096x128 1 [⟨S4096x64, a⟩, ⟨S4096x64, b⟩] concatenates_S4096x64_S4096x64_S4096x128_d1) : (⟨S4096x64, .i32⟩ : BufTy).Contents (Elt F) → (⟨S4096x64, .i32⟩ : BufTy).Contents (Elt F) → (⟨S4096x128, .i32⟩ : BufTy).Contents (Elt F))) x_main_v2 x_main_v116
  x_main_v117

/-- Buffer main_v108 as a function of the buffers the stretch reads: its 40 operations, in program order. -/
def f_xnew (x_main_v1 : (⟨S4096x61, .f32⟩ : BufTy).Contents (Elt F)) (x_main_v63 : (⟨S4096x122, .i32⟩ : BufTy).Contents (Elt F)) (x_main_v93 : (⟨S4096x4000, .f32⟩ : BufTy).Contents (Elt F)) :
    (⟨S4096x61, .f32⟩ : BufTy).Contents (Elt F) :=
  have x_main_cst_19 : (⟨S_, .f32⟩ : BufTy).Contents (Elt F) := (constant S_ .f32 0x00000000#32)
  have x_main_v94 : (⟨S4096x1, .f32⟩ : BufTy).Contents (Elt F) := ((broadcastInDim S4096x1 ![] bcast_S_S4096x1 : (⟨S_, .f32⟩ : BufTy).Contents (Elt F) → (⟨S4096x1, .f32⟩ : BufTy).Contents (Elt F))) x_main_cst_19
  have x_main_v95 : (⟨S4096x4001, .f32⟩ : BufTy).Contents (Elt F) := (((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F))) x_main_v93 x_main_v94
  have x_main_call3_c : (⟨S_, .i32⟩ : BufTy).Contents (Elt F) := (constantI S_ 32 0#32)
  have x_main_call3_v0 : (⟨S4096x122, .i32⟩ : BufTy).Contents (Elt F) := ((broadcastInDim S4096x122 ![] bcast_S_S4096x122)) x_main_call3_c
  have x_main_call3_v1 : (⟨S4096x122, .i1⟩ : BufTy).Contents (Elt F) := ((cmpi .slt)) x_main_v63 x_main_call3_v0
  have x_main_call3_c_0 : (⟨S_, .i32⟩ : BufTy).Contents (Elt F) := (constantI S_ 32 4001#32)
  have x_main_call3_v2 : (⟨S4096x122, .i32⟩ : BufTy).Contents (Elt F) := ((broadcastInDim S4096x122 ![] bcast_S_S4096x122)) x_main_call3_c_0
  have x_main_call3_v3 : (⟨S4096x122, .i32⟩ : BufTy).Contents (Elt F) := (addi) x_main_v63 x_main_call3_v2
  have x_main_call3_v4 : (⟨S4096x122, .i32⟩ : BufTy).Contents (Elt F) := (select) x_main_call3_v1 x_main_call3_v3 x_main_v63
  have x_main_call3_v5 : (⟨S4096x122x1, .i32⟩ : BufTy).Contents (Elt F) := shapeCast S4096x122x1 x_main_call3_v4 shapeCasts_S4096x122_S4096x122x1
  have x_main_call3_c_1 : (⟨S1, .i32⟩ : BufTy).Contents (Elt F) := (constantI S1 32 4000#32)
  have x_main_call3_c_2 : (⟨S_, .i32⟩ : BufTy).Contents (Elt F) := (constantI S_ 32 0#32)
  have x_main_call3_v6 : (⟨S4096x122x1, .i32⟩ : BufTy).Contents (Elt F) := ((broadcastInDim S4096x122x1 ![] bcast_S_S4096x122x1)) x_main_call3_c_2
  have x_main_call3_v7 : (⟨S4096x122x1, .i1⟩ : BufTy).Contents (Elt F) := ((cmpi .sge)) x_main_call3_v5 x_main_call3_v6
  have x_main_call3_v8 : (⟨S1x1x1, .i32⟩ : BufTy).Contents (Elt F) := ((broadcastInDim S1x1x1 ![2] bcast_S1_S1x1x1_2)) x_main_call3_c_1
  have x_main_call3_v9 : (⟨S4096x122x1, .i32⟩ : BufTy).Contents (Elt F) := ((broadcastInDim S4096x122x1 ![0, 1, 2] bcast_S1x1x1_S4096x122x1_0_1_2)) x_main_call3_v8
  have x_main_call3_v10 : (⟨S4096x122x1, .i1⟩ : BufTy).Contents (Elt F) := ((cmpi .sle)) x_main_call3_v5 x_main_call3_v9
  have x_main_call3_v11 : (⟨S4096x122x1, .i1⟩ : BufTy).Contents (Elt F) := (andi) x_main_call3_v7 x_main_call3_v10
  have x_main_call3_c_3 : (⟨S_, .i1⟩ : BufTy).Contents (Elt F) := (constantI S_ 1 1#1)
  have x_main_call3_v12 : (⟨S4096x122, .i1⟩ : BufTy).Contents (Elt F) := ((fun x v => Host.reduce IntOp.andi x v reducesTo_S4096x122x1_S4096x122_d2 h_S_)) x_main_call3_v11 x_main_call3_c_3
  have x_main_call3_v13 : (⟨S4096x122, .f32⟩ : BufTy).Contents (Elt F) := ((fun x i => Host.gather gather_S4096x4001_S4096x122x1_S4096x122_n_1_0_0_1_2_11 x i)) x_main_v95 x_main_call3_v5
  have x_main_call3_cst : (⟨S_, .f32⟩ : BufTy).Contents (Elt F) := (constant S_ .f32 0x7FC00000#32)
  have x_main_call3_v14 : (⟨S4096x122, .f32⟩ : BufTy).Contents (Elt F) := ((broadcastInDim S4096x122 ![] bcast_S_S4096x122)) x_main_call3_cst
  have x_main_v96 : (⟨S4096x122, .f32⟩ : BufTy).Contents (Elt F) := (select) x_main_call3_v12 x_main_call3_v13 x_main_call3_v14
  have x_main_v97 : (⟨S4096x61, .f32⟩ : BufTy).Contents (Elt F) := (((extractStridedSlice S4096x61 ![0, 0] · slices_S4096x122_S4096x61_0_0) : (⟨S4096x122, .f32⟩ : BufTy).Contents (Elt F) → (⟨S4096x61, .f32⟩ : BufTy).Contents (Elt F))) x_main_v96
  have x_main_v98 : (⟨S4096x61, .f32⟩ : BufTy).Contents (Elt F) := (((extractStridedSlice S4096x61 ![0, 61] · slices_S4096x122_S4096x61_0_61) : (⟨S4096x122, .f32⟩ : BufTy).Contents (Elt F) → (⟨S4096x61, .f32⟩ : BufTy).Contents (Elt F))) x_main_v96
  have x_main_cst_20 : (⟨S_, .f32⟩ : BufTy).Contents (Elt F) := (constant S_ .f32 0x40000000#32)
  have x_main_v99 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_20
  have x_main_v100 : (⟨S4096x61, .f32⟩ : BufTy).Contents (Elt F) := ((addf : (⟨S4096x61, .f32⟩ : BufTy).Contents (Elt F) → (⟨S4096x61, .f32⟩ : BufTy).Contents (Elt F) → (⟨S4096x61, .f32⟩ : BufTy).Contents (Elt F))) x_main_v97 x_main_v99
  have x_main_v101 : (⟨S4096x61, .f32⟩ : BufTy).Contents (Elt F) := ((Host.negf : (⟨S4096x61, .f32⟩ : BufTy).Contents (Elt F) → (⟨S4096x61, .f32⟩ : BufTy).Contents (Elt F))) x_main_v100
  have x_main_v102 : (⟨S4096x61, .f32⟩ : BufTy).Contents (Elt F) := ((Host.exp : (⟨S4096x61, .f32⟩ : BufTy).Contents (Elt F) → (⟨S4096x61, .f32⟩ : BufTy).Contents (Elt F))) x_main_v101
  have x_main_cst_21 : (⟨S_, .f32⟩ : BufTy).Contents (Elt F) := (constant S_ .f32 0x3F800000#32)
  have x_main_v103 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_21
  have x_main_v104 : (⟨S4096x61, .f32⟩ : BufTy).Contents (Elt F) := ((addf : (⟨S4096x61, .f32⟩ : BufTy).Contents (Elt F) → (⟨S4096x61, .f32⟩ : BufTy).Contents (Elt F) → (⟨S4096x61, .f32⟩ : BufTy).Contents (Elt F))) x_main_v103 x_main_v102
  have x_main_cst_22 : (⟨S_, .f32⟩ : BufTy).Contents (Elt F) := (constant S_ .f32 0x3F800000#32)
  have x_main_v105 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_22
  have x_main_v106 : (⟨S4096x61, .f32⟩ : BufTy).Contents (Elt F) := ((Host.divf : (⟨S4096x61, .f32⟩ : BufTy).Contents (Elt F) → (⟨S4096x61, .f32⟩ : BufTy).Contents (Elt F) → (⟨S4096x61, .f32⟩ : BufTy).Contents (Elt F))) x_main_v105 x_main_v104
  have x_main_v107 : (⟨S4096x61, .f32⟩ : BufTy).Contents (Elt F) := ((mulf : (⟨S4096x61, .f32⟩ : BufTy).Contents (Elt F) → (⟨S4096x61, .f32⟩ : BufTy).Contents (Elt F) → (⟨S4096x61, .f32⟩ : BufTy).Contents (Elt F))) x_main_v106 x_main_v1
  have x_main_v108 : (⟨S4096x61, .f32⟩ : BufTy).Contents (Elt F) := ((addf : (⟨S4096x61, .f32⟩ : BufTy).Contents (Elt F) → (⟨S4096x61, .f32⟩ : BufTy).Contents (Elt F) → (⟨S4096x61, .f32⟩ : BufTy).Contents (Elt F))) x_main_v107 x_main_v98
  x_main_v108

/-- Buffer main_v111 as a function of the buffers the stretch reads: its 41 operations, in program order. -/
def f_qnew (x_main_v57 : (⟨S4096, .f32⟩ : BufTy).Contents (Elt F)) (x_main_v63 : (⟨S4096x122, .i32⟩ : BufTy).Contents (Elt F)) (x_main_v93 : (⟨S4096x4000, .f32⟩ : BufTy).Contents (Elt F)) :
    (⟨S4096, .f32⟩ : BufTy).Contents (Elt F) :=
  have x_main_cst_19 : (⟨S_, .f32⟩ : BufTy).Contents (Elt F) := (constant S_ .f32 0x00000000#32)
  have x_main_v94 : (⟨S4096x1, .f32⟩ : BufTy).Contents (Elt F) := ((broadcastInDim S4096x1 ![] bcast_S_S4096x1 : (⟨S_, .f32⟩ : BufTy).Contents (Elt F) → (⟨S4096x1, .f32⟩ : BufTy).Contents (Elt F))) x_main_cst_19
  have x_main_v95 : (⟨S4096x4001, .f32⟩ : BufTy).Contents (Elt F) := (((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F))) x_main_v93 x_main_v94
  have x_main_call3_c : (⟨S_, .i32⟩ : BufTy).Contents (Elt F) := (constantI S_ 32 0#32)
  have x_main_call3_v0 : (⟨S4096x122, .i32⟩ : BufTy).Contents (Elt F) := ((broadcastInDim S4096x122 ![] bcast_S_S4096x122)) x_main_call3_c
  have x_main_call3_v1 : (⟨S4096x122, .i1⟩ : BufTy).Contents (Elt F) := ((cmpi .slt)) x_main_v63 x_main_call3_v0
  have x_main_call3_c_0 : (⟨S_, .i32⟩ : BufTy).Contents (Elt F) := (constantI S_ 32 4001#32)
  have x_main_call3_v2 : (⟨S4096x122, .i32⟩ : BufTy).Contents (Elt F) := ((broadcastInDim S4096x122 ![] bcast_S_S4096x122)) x_main_call3_c_0
  have x_main_call3_v3 : (⟨S4096x122, .i32⟩ : BufTy).Contents (Elt F) := (addi) x_main_v63 x_main_call3_v2
  have x_main_call3_v4 : (⟨S4096x122, .i32⟩ : BufTy).Contents (Elt F) := (select) x_main_call3_v1 x_main_call3_v3 x_main_v63
  have x_main_call3_v5 : (⟨S4096x122x1, .i32⟩ : BufTy).Contents (Elt F) := shapeCast S4096x122x1 x_main_call3_v4 shapeCasts_S4096x122_S4096x122x1
  have x_main_call3_c_1 : (⟨S1, .i32⟩ : BufTy).Contents (Elt F) := (constantI S1 32 4000#32)
  have x_main_call3_c_2 : (⟨S_, .i32⟩ : BufTy).Contents (Elt F) := (constantI S_ 32 0#32)
  have x_main_call3_v6 : (⟨S4096x122x1, .i32⟩ : BufTy).Contents (Elt F) := ((broadcastInDim S4096x122x1 ![] bcast_S_S4096x122x1)) x_main_call3_c_2
  have x_main_call3_v7 : (⟨S4096x122x1, .i1⟩ : BufTy).Contents (Elt F) := ((cmpi .sge)) x_main_call3_v5 x_main_call3_v6
  have x_main_call3_v8 : (⟨S1x1x1, .i32⟩ : BufTy).Contents (Elt F) := ((broadcastInDim S1x1x1 ![2] bcast_S1_S1x1x1_2)) x_main_call3_c_1
  have x_main_call3_v9 : (⟨S4096x122x1, .i32⟩ : BufTy).Contents (Elt F) := ((broadcastInDim S4096x122x1 ![0, 1, 2] bcast_S1x1x1_S4096x122x1_0_1_2)) x_main_call3_v8
  have x_main_call3_v10 : (⟨S4096x122x1, .i1⟩ : BufTy).Contents (Elt F) := ((cmpi .sle)) x_main_call3_v5 x_main_call3_v9
  have x_main_call3_v11 : (⟨S4096x122x1, .i1⟩ : BufTy).Contents (Elt F) := (andi) x_main_call3_v7 x_main_call3_v10
  have x_main_call3_c_3 : (⟨S_, .i1⟩ : BufTy).Contents (Elt F) := (constantI S_ 1 1#1)
  have x_main_call3_v12 : (⟨S4096x122, .i1⟩ : BufTy).Contents (Elt F) := ((fun x v => Host.reduce IntOp.andi x v reducesTo_S4096x122x1_S4096x122_d2 h_S_)) x_main_call3_v11 x_main_call3_c_3
  have x_main_call3_v13 : (⟨S4096x122, .f32⟩ : BufTy).Contents (Elt F) := ((fun x i => Host.gather gather_S4096x4001_S4096x122x1_S4096x122_n_1_0_0_1_2_11 x i)) x_main_v95 x_main_call3_v5
  have x_main_call3_cst : (⟨S_, .f32⟩ : BufTy).Contents (Elt F) := (constant S_ .f32 0x7FC00000#32)
  have x_main_call3_v14 : (⟨S4096x122, .f32⟩ : BufTy).Contents (Elt F) := ((broadcastInDim S4096x122 ![] bcast_S_S4096x122)) x_main_call3_cst
  have x_main_v96 : (⟨S4096x122, .f32⟩ : BufTy).Contents (Elt F) := (select) x_main_call3_v12 x_main_call3_v13 x_main_call3_v14
  have x_main_v97 : (⟨S4096x61, .f32⟩ : BufTy).Contents (Elt F) := (((extractStridedSlice S4096x61 ![0, 0] · slices_S4096x122_S4096x61_0_0) : (⟨S4096x122, .f32⟩ : BufTy).Contents (Elt F) → (⟨S4096x61, .f32⟩ : BufTy).Contents (Elt F))) x_main_v96
  have x_main_cst_20 : (⟨S_, .f32⟩ : BufTy).Contents (Elt F) := (constant S_ .f32 0x40000000#32)
  have x_main_v99 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_20
  have x_main_v100 : (⟨S4096x61, .f32⟩ : BufTy).Contents (Elt F) := ((addf : (⟨S4096x61, .f32⟩ : BufTy).Contents (Elt F) → (⟨S4096x61, .f32⟩ : BufTy).Contents (Elt F) → (⟨S4096x61, .f32⟩ : BufTy).Contents (Elt F))) x_main_v97 x_main_v99
  have x_main_v101 : (⟨S4096x61, .f32⟩ : BufTy).Contents (Elt F) := ((Host.negf : (⟨S4096x61, .f32⟩ : BufTy).Contents (Elt F) → (⟨S4096x61, .f32⟩ : BufTy).Contents (Elt F))) x_main_v100
  have x_main_v102 : (⟨S4096x61, .f32⟩ : BufTy).Contents (Elt F) := ((Host.exp : (⟨S4096x61, .f32⟩ : BufTy).Contents (Elt F) → (⟨S4096x61, .f32⟩ : BufTy).Contents (Elt F))) x_main_v101
  have x_main_cst_21 : (⟨S_, .f32⟩ : BufTy).Contents (Elt F) := (constant S_ .f32 0x3F800000#32)
  have x_main_v103 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_21
  have x_main_v104 : (⟨S4096x61, .f32⟩ : BufTy).Contents (Elt F) := ((addf : (⟨S4096x61, .f32⟩ : BufTy).Contents (Elt F) → (⟨S4096x61, .f32⟩ : BufTy).Contents (Elt F) → (⟨S4096x61, .f32⟩ : BufTy).Contents (Elt F))) x_main_v103 x_main_v102
  have x_main_cst_22 : (⟨S_, .f32⟩ : BufTy).Contents (Elt F) := (constant S_ .f32 0x3F800000#32)
  have x_main_v105 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_22
  have x_main_v106 : (⟨S4096x61, .f32⟩ : BufTy).Contents (Elt F) := ((Host.divf : (⟨S4096x61, .f32⟩ : BufTy).Contents (Elt F) → (⟨S4096x61, .f32⟩ : BufTy).Contents (Elt F) → (⟨S4096x61, .f32⟩ : BufTy).Contents (Elt F))) x_main_v105 x_main_v104
  have x_main_v109 : (⟨S4096x61, .f32⟩ : BufTy).Contents (Elt F) := ((Host.log : (⟨S4096x61, .f32⟩ : BufTy).Contents (Elt F) → (⟨S4096x61, .f32⟩ : BufTy).Contents (Elt F))) x_main_v106
  have x_main_cst_23 : (⟨S_, .f32⟩ : BufTy).Contents (Elt F) := (constant S_ .f32 0x00000000#32)
  have x_main_v110 : (⟨S4096, .f32⟩ : BufTy).Contents (Elt F) := (((fun x v => Host.reduceAdd x v reducesTo_S4096x61_S4096_d1 h_S_) : (⟨S4096x61, .f32⟩ : BufTy).Contents (Elt F) → (⟨S_, .f32⟩ : BufTy).Contents (Elt F) → (⟨S4096, .f32⟩ : BufTy).Contents (Elt F))) x_main_v109 x_main_cst_23
  have x_main_v111 : (⟨S4096, .f32⟩ : BufTy).Contents (Elt F) := ((subf : (⟨S4096, .f32⟩ : BufTy).Contents (Elt F) → (⟨S4096, .f32⟩ : BufTy).Contents (Elt F) → (⟨S4096, .f32⟩ : BufTy).Contents (Elt F))) x_main_v57 x_main_v110
  x_main_v111

-- the gather, the scatter and the reductions are never opened: both sides apply them to equal arguments
attribute [local irreducible] Host.scatterAdd Host.reduce Host.gather Host.reduceAdd concatenate extractStridedSlice broadcastInDim iotaInDim in
set_option maxHeartbeats 8000000 in
set_option maxRecDepth 100000 in
/-- The stretch's fold at each of those buffers. -/
theorem reads (V : Valuation τ sig (Elt F)) :
    after hostOps2_4 (after hostOps2_3 (after hostOps2_2 (after hostOps2_1 (after hostOps2 V)))) (Proc.devRef .tc main_v144) = f_dense (V (Proc.devRef .tc main_v3)) (V (Proc.devRef .tc main_v1)) (V (Proc.devRef .tc main_v63)) (V (Proc.devRef .tc main_v93))
    ∧ after hostOps2_4 (after hostOps2_3 (after hostOps2_2 (after hostOps2_1 (after hostOps2 V)))) (Proc.devRef .tc main_v119) = f_w1 (V (Proc.devRef .tc main_arg2))
    ∧ after hostOps2_4 (after hostOps2_3 (after hostOps2_2 (after hostOps2_1 (after hostOps2 V)))) (Proc.devRef .tc main_v121) = f_b1 (V (Proc.devRef .tc main_arg3))
    ∧ after hostOps2_4 (after hostOps2_3 (after hostOps2_2 (after hostOps2_1 (after hostOps2 V)))) (Proc.devRef .tc main_v145) = f_b1r (V (Proc.devRef .tc main_arg3))
    ∧ after hostOps2_4 (after hostOps2_3 (after hostOps2_2 (after hostOps2_1 (after hostOps2 V)))) (Proc.devRef .tc main_v123) = f_w2 (V (Proc.devRef .tc main_arg4))
    ∧ after hostOps2_4 (after hostOps2_3 (after hostOps2_2 (after hostOps2_1 (after hostOps2 V)))) (Proc.devRef .tc main_v125) = f_b2 (V (Proc.devRef .tc main_arg5))
    ∧ after hostOps2_4 (after hostOps2_3 (after hostOps2_2 (after hostOps2_1 (after hostOps2 V)))) (Proc.devRef .tc main_v146) = f_b2r (V (Proc.devRef .tc main_arg5))
    ∧ after hostOps2_4 (after hostOps2_3 (after hostOps2_2 (after hostOps2_1 (after hostOps2 V)))) (Proc.devRef .tc main_v117) = f_oidx (V (Proc.devRef .tc main_v2))
    ∧ after hostOps2_4 (after hostOps2_3 (after hostOps2_2 (after hostOps2_1 (after hostOps2 V)))) (Proc.devRef .tc main_v108) = f_xnew (V (Proc.devRef .tc main_v1)) (V (Proc.devRef .tc main_v63)) (V (Proc.devRef .tc main_v93))
    ∧ after hostOps2_4 (after hostOps2_3 (after hostOps2_2 (after hostOps2_1 (after hostOps2 V)))) (Proc.devRef .tc main_v111) = f_qnew (V (Proc.devRef .tc main_v57)) (V (Proc.devRef .tc main_v63)) (V (Proc.devRef .tc main_v93))
    ∧ after hostOps2_4 (after hostOps2_3 (after hostOps2_2 (after hostOps2_1 (after hostOps2 V)))) (Proc.devRef .tc main_v54) = V (Proc.devRef .tc main_v54)
    ∧ after hostOps2_4 (after hostOps2_3 (after hostOps2_2 (after hostOps2_1 (after hostOps2 V)))) (Proc.devRef .tc main_v2) = V (Proc.devRef .tc main_v2)
    ∧ after hostOps2_4 (after hostOps2_3 (after hostOps2_2 (after hostOps2_1 (after hostOps2 V)))) (Proc.devRef .tc main_v3) = V (Proc.devRef .tc main_v3)
    ∧ after hostOps2_4 (after hostOps2_3 (after hostOps2_2 (after hostOps2_1 (after hostOps2 V)))) (Proc.devRef .tc main_arg2) = V (Proc.devRef .tc main_arg2)
    ∧ after hostOps2_4 (after hostOps2_3 (after hostOps2_2 (after hostOps2_1 (after hostOps2 V)))) (Proc.devRef .tc main_arg3) = V (Proc.devRef .tc main_arg3)
    ∧ after hostOps2_4 (after hostOps2_3 (after hostOps2_2 (after hostOps2_1 (after hostOps2 V)))) (Proc.devRef .tc main_arg4) = V (Proc.devRef .tc main_arg4)
    ∧ after hostOps2_4 (after hostOps2_3 (after hostOps2_2 (after hostOps2_1 (after hostOps2 V)))) (Proc.devRef .tc main_arg5) = V (Proc.devRef .tc main_arg5) := by
  simp only [hostOps2, hostOps2_1, hostOps2_2, hostOps2_3, hostOps2_4]
  after_results_simp
  refine ⟨?_, ?_, ?_, ?_, ?_, ?_, ?_, ?_, ?_, ?_, ?_, ?_, ?_, ?_, ?_, ?_, ?_⟩ <;> first | rfl | trivial

end Cert.KernelIdeal.Layer2

end
-- ==== Proof.LayerR2a.lean ====
/- The reference's operations of the same stage (kernel region 1 and kernel region 2 on the kernel side), read as the SAME functions
  as the kernel program's: the five buffers the layer's perceptron is computed from.
-/
import proofs.«140670_j11424613007642_1_alg».proof.Proof.RefRun
import proofs.«140670_j11424613007642_1_alg».proof.Proof.LayerK2
import proofs.«140670_j11424613007642_1_alg».proof.Proof.LibTRef
import Idealize.ShloMosaic.PureOps.Ideal

set_option maxRecDepth 16384

noncomputable section

namespace Cert.ReferenceIdeal.LayerR2

open Cert.ReferenceIdeal Cert.ReferenceIdeal.Gen Cert.ReferenceIdeal.RefRun Idealize.ShloMosaic Idealize.ShloMosaic.StableHlo Idealize.ShloMosaic.TcCoe

-- the gather, the scatter and the reductions are never opened: both sides apply them to equal arguments
attribute [local irreducible] Host.scatterAdd Host.reduce Host.gather Host.reduceAdd concatenate extractStridedSlice broadcastInDim iotaInDim in
set_option maxHeartbeats 16000000 in
set_option maxRecDepth 100000 in
/-- The five buffers the layer's perceptron is computed from. -/
theorem readsIn (V' : Valuation τ sig (Elt Ideal)) :
    after rseg2 V' (Proc.devRef .tc main_v156) = Cert.KernelIdeal.Layer2.f_dense (V' (Proc.devRef .tc main_v3)) (V' (Proc.devRef .tc main_v1)) (V' (Proc.devRef .tc main_v69)) (V' (Proc.devRef .tc main_v105))
    ∧ after rseg2 V' (Proc.devRef .tc main_v131) = Cert.KernelIdeal.Layer2.f_w1 (V' (Proc.devRef .tc main_arg2))
    ∧ after rseg2 V' (Proc.devRef .tc main_v133) = Cert.KernelIdeal.Layer2.f_b1 (V' (Proc.devRef .tc main_arg3))
    ∧ after rseg2 V' (Proc.devRef .tc main_v135) = Cert.KernelIdeal.Layer2.f_w2 (V' (Proc.devRef .tc main_arg4))
    ∧ after rseg2 V' (Proc.devRef .tc main_v137) = Cert.KernelIdeal.Layer2.f_b2 (V' (Proc.devRef .tc main_arg5)) := by
  simp only [after_append_line, rseg2, rseg2_a, rseg2_b, rseg2_c]
  after_results_simp
  -- contents stored through a typed reference and read back through it are unchanged
  try simp only [Cert.LibTRef.ofBuf_toBuf]
  refine ⟨?_, ?_, ?_, ?_, ?_⟩ <;> first | rfl | trivial

end Cert.ReferenceIdeal.LayerR2

end
-- ==== Proof.LayerR2b.lean ====
/- The reference's operations of the same stage (kernel region 1 and kernel region 2 on the kernel side), read as the SAME functions
  as the kernel program's: the other buffers the next stage needs; a buffer the segment does not write keeps its contents.
-/
import proofs.«140670_j11424613007642_1_alg».proof.Proof.RefRun
import proofs.«140670_j11424613007642_1_alg».proof.Proof.LayerK2
import proofs.«140670_j11424613007642_1_alg».proof.Proof.LibTRef
import Idealize.ShloMosaic.PureOps.Ideal

set_option maxRecDepth 16384

noncomputable section

namespace Cert.ReferenceIdeal.LayerR2

open Cert.ReferenceIdeal Cert.ReferenceIdeal.Gen Cert.ReferenceIdeal.RefRun Idealize.ShloMosaic Idealize.ShloMosaic.StableHlo Idealize.ShloMosaic.TcCoe

-- the gather, the scatter and the reductions are never opened: both sides apply them to equal arguments
attribute [local irreducible] Host.scatterAdd Host.reduce Host.gather Host.reduceAdd concatenate extractStridedSlice broadcastInDim iotaInDim in
set_option maxHeartbeats 16000000 in
set_option maxRecDepth 100000 in
/-- The other buffers the next stage needs. -/
theorem reads (V' : Valuation τ sig (Elt Ideal)) :
    after rseg2 V' (Proc.devRef .tc main_v129) = Cert.KernelIdeal.Layer2.f_oidx (V' (Proc.devRef .tc main_v2))
    ∧ after rseg2 V' (Proc.devRef .tc main_v120) = Cert.KernelIdeal.Layer2.f_xnew (V' (Proc.devRef .tc main_v1)) (V' (Proc.devRef .tc main_v69)) (V' (Proc.devRef .tc main_v105))
    ∧ after rseg2 V' (Proc.devRef .tc main_v123) = Cert.KernelIdeal.Layer2.f_qnew (V' (Proc.devRef .tc main_v63)) (V' (Proc.devRef .tc main_v69)) (V' (Proc.devRef .tc main_v105))
    ∧ after rseg2 V' (Proc.devRef .tc main_v60) = V' (Proc.devRef .tc main_v60)
    ∧ after rseg2 V' (Proc.devRef .tc main_v2) = V' (Proc.devRef .tc main_v2)
    ∧ after rseg2 V' (Proc.devRef .tc main_v3) = V' (Proc.devRef .tc main_v3)
    ∧ after rseg2 V' (Proc.devRef .tc main_arg2) = V' (Proc.devRef .tc main_arg2)
    ∧ after rseg2 V' (Proc.devRef .tc main_arg3) = V' (Proc.devRef .tc main_arg3)
    ∧ after rseg2 V' (Proc.devRef .tc main_arg4) = V' (Proc.devRef .tc main_arg4)
    ∧ after rseg2 V' (Proc.devRef .tc main_arg5) = V' (Proc.devRef .tc main_arg5) := by
  simp only [after_append_line, rseg2, rseg2_a, rseg2_b, rseg2_c]
  after_results_simp
  -- contents stored through a typed reference and read back through it are unchanged
  try simp only [Cert.LibTRef.ofBuf_toBuf]
  refine ⟨?_, ?_, ?_, ?_, ?_, ?_, ?_, ?_, ?_, ?_⟩ <;> first | rfl | trivial

end Cert.ReferenceIdeal.LayerR2

end
-- ==== Proof.LayerR2c.lean ====
/- The reference's operations of the same stage (kernel region 1 and kernel region 2 on the kernel side), read as the SAME functions
  as the kernel program's: the layer's perceptron output is the host perceptron of the five buffers it is computed from.
-/
import proofs.«140670_j11424613007642_1_alg».proof.Proof.RefRun
import proofs.«140670_j11424613007642_1_alg».proof.Proof.MlpHost
import Idealize.ShloMosaic.PureOps.Ideal

set_option maxRecDepth 16384

noncomputable section

namespace Cert.ReferenceIdeal.LayerR2

open Cert.ReferenceIdeal Cert.ReferenceIdeal.Gen Cert.ReferenceIdeal.RefRun Idealize.ShloMosaic Idealize.ShloMosaic.StableHlo Idealize.ShloMosaic.TcCoe

-- the gather, the scatter and the reductions are never opened: both sides apply them to equal arguments
attribute [local irreducible] Host.scatterAdd Host.reduce Host.gather Host.reduceAdd concatenate extractStridedSlice broadcastInDim iotaInDim in
set_option maxHeartbeats 16000000 in
set_option maxRecDepth 100000 in
/-- The layer's perceptron output is the host perceptron of those five buffers. -/
theorem readsOut (V' : Valuation τ sig (Elt Ideal)) :
    after rseg2 V' (Proc.devRef .tc main_v165) = Cert.ReferenceIdeal.MlpHost.hostMlp (after rseg2 V' (Proc.devRef .tc main_v156)) (after rseg2 V' (Proc.devRef .tc main_v131)) (after rseg2 V' (Proc.devRef .tc main_v133)) (after rseg2 V' (Proc.devRef .tc main_v135)) (after rseg2 V' (Proc.devRef .tc main_v137)) := by
  simp only [after_append_line, rseg2, rseg2_a, rseg2_b, rseg2_c]
  after_results_simp
  first | rfl | trivial

end Cert.ReferenceIdeal.LayerR2

end
-- ==== Proof.LayerR2.lean ====
/- The reference's side of this stage, collected: the three statements live in one module each.
-/
import proofs.«140670_j11424613007642_1_alg».proof.Proof.LayerR2a
import proofs.«140670_j11424613007642_1_alg».proof.Proof.LayerR2b
import proofs.«140670_j11424613007642_1_alg».proof.Proof.LayerR2c
-- ==== Proof.Step2.lean ====
/-
  Layer 2. If after layer 1's perceptron output the two programs hold the same eleven values, they do so again after
  layer 2's. On the kernel side the host operations up to region 2 read as functions of those values, the region leaves
  the layer function of its five operand arrays, and nothing else the next layer needs is touched; on the reference side
  the same operations read as the same functions, and its host perceptron is the layer function.
-/
import proofs.«140670_j11424613007642_1_alg».proof.Proof.KernelIdealFrameP
import proofs.«140670_j11424613007642_1_alg».proof.Proof.BridgeDefs
import proofs.«140670_j11424613007642_1_alg».proof.Proof.Congr
import proofs.«140670_j11424613007642_1_alg».proof.Proof.MlpBridge
import proofs.«140670_j11424613007642_1_alg».proof.Proof.Region2
import proofs.«140670_j11424613007642_1_alg».proof.Proof.LayerK2
import proofs.«140670_j11424613007642_1_alg».proof.Proof.LayerR2

set_option maxRecDepth 16384

noncomputable section

namespace Cert.Bridge

open Cert.KernelIdeal Cert.KernelIdeal.Gen Cert.KernelIdeal.GenP Cert.KernelIdeal.MlpArray
open Idealize.ShloMosaic Idealize.ShloMosaic.StableHlo Idealize.ShloMosaic.TcCoe Idealize.SL.Sem

set_option maxHeartbeats 4000000 in
theorem step2 (m : (ℓ : Loc nD τ sig) → Buf (Elt Ideal) ℓ) (ρ : Dev nD → PrngReg) (c : Dev nD) (V' : RV)
    (h : Inv1 (W10 m ρ c) V') :
    Inv2 (W16 m ρ c) (after Cert.ReferenceIdeal.RefRun.rseg2 V') := by
  obtain ⟨out, oidx, a, b, q, ia, ib, w1s, b1s, w2s, b2s, ⟨kout, rout⟩, ⟨koidx, roidx⟩, ⟨ka, ra⟩, ⟨kb, rb⟩, ⟨kq, rq⟩, ⟨kia, ria⟩, ⟨kib, rib⟩,
    ⟨kw1s, rw1s⟩, ⟨kb1s, rb1s⟩, ⟨kw2s, rw2s⟩, ⟨kb2s, rb2s⟩⟩ := h
  obtain ⟨Kdense, Kw1, Kb1, Kb1r, Kw2, Kb2, Kb2r, Koidx, Kxnew, Kqnew, Kkeepb, Kia, Kib, Kw1s, Kb1s, Kw2s, Kb2s⟩ :=
    Cert.KernelIdeal.Layer2.reads (F := Ideal) (W10 m ρ c)
  obtain ⟨Rdense, Rw1, Rb1, Rw2, Rb2⟩ := Cert.ReferenceIdeal.LayerR2.readsIn V'
  obtain ⟨Roidx, Rxnew, Rqnew, Rkeepb, Ria, Rib, Rw1s, Rb1s, Rw2s, Rb2s⟩ := Cert.ReferenceIdeal.LayerR2.reads V'
  have Rout := Cert.ReferenceIdeal.LayerR2.readsOut V'
  -- the kernel program's reads, at the eleven values
  have Kdense' := Kdense.trans (show _ = Cert.KernelIdeal.Layer2.f_dense ib a oidx out by simp only [kib, ka, koidx, kout])
  have Kw1' := Kw1.trans (show _ = Cert.KernelIdeal.Layer2.f_w1 w1s by simp only [kw1s])
  have Kb1r' := Kb1r.trans (show _ = Cert.KernelIdeal.Layer2.f_b1r b1s by simp only [kb1s])
  have Kw2' := Kw2.trans (show _ = Cert.KernelIdeal.Layer2.f_w2 w2s by simp only [kw2s])
  have Kb2r' := Kb2r.trans (show _ = Cert.KernelIdeal.Layer2.f_b2r b2s by simp only [kb2s])
  have Koidx' := Koidx.trans (show _ = Cert.KernelIdeal.Layer2.f_oidx ia by simp only [kia])
  have Kxnew' := Kxnew.trans (show _ = Cert.KernelIdeal.Layer2.f_xnew a oidx out by simp only [ka, koidx, kout])
  have Kqnew' := Kqnew.trans (show _ = Cert.KernelIdeal.Layer2.f_qnew q oidx out by simp only [kq, koidx, kout])
  -- the reference's reads, at the same values
  have Rdense' := Rdense.trans (show _ = Cert.KernelIdeal.Layer2.f_dense ib a oidx out by simp only [rib, ra, roidx, rout])
  have Rw1' := Rw1.trans (show _ = Cert.KernelIdeal.Layer2.f_w1 w1s by simp only [rw1s])
  have Rb1' := Rb1.trans (show _ = Cert.KernelIdeal.Layer2.f_b1 b1s by simp only [rb1s])
  have Rw2' := Rw2.trans (show _ = Cert.KernelIdeal.Layer2.f_w2 w2s by simp only [rw2s])
  have Rb2' := Rb2.trans (show _ = Cert.KernelIdeal.Layer2.f_b2 b2s by simp only [rb2s])
  have Roidx' := Roidx.trans (show _ = Cert.KernelIdeal.Layer2.f_oidx ia by simp only [ria])
  have Rxnew' := Rxnew.trans (show _ = Cert.KernelIdeal.Layer2.f_xnew a oidx out by simp only [ra, roidx, rout])
  have Rqnew' := Rqnew.trans (show _ = Cert.KernelIdeal.Layer2.f_qnew q oidx out by simp only [rq, roidx, rout])
  refine ⟨G (Cert.KernelIdeal.Layer2.f_dense ib a oidx out) (Cert.KernelIdeal.Layer2.f_w1 w1s) (Cert.KernelIdeal.Layer2.f_b1r b1s)
      (Cert.KernelIdeal.Layer2.f_w2 w2s) (Cert.KernelIdeal.Layer2.f_b2r b2s),
    Cert.KernelIdeal.Layer2.f_oidx ia, b, Cert.KernelIdeal.Layer2.f_xnew a oidx out, Cert.KernelIdeal.Layer2.f_qnew q oidx out,
    ia, ib, w1s, b1s, w2s, b2s, ⟨?_, ?_⟩,
    ⟨(W16_of_ne m ρ c Cert.KernelIdeal.main_v117 (by decide)).trans Koidx', Roidx'⟩,
    ⟨(W16_of_ne m ρ c Cert.KernelIdeal.main_v54 (by decide)).trans (Kkeepb.trans kb), Rkeepb.trans rb⟩,
    ⟨(W16_of_ne m ρ c Cert.KernelIdeal.main_v108 (by decide)).trans Kxnew', Rxnew'⟩,
    ⟨(W16_of_ne m ρ c Cert.KernelIdeal.main_v111 (by decide)).trans Kqnew', Rqnew'⟩,
    ⟨(W16_of_ne m ρ c Cert.KernelIdeal.main_v2 (by decide)).trans (Kia.trans kia), Ria.trans ria⟩, ⟨(W16_of_ne m ρ c Cert.KernelIdeal.main_v3 (by decide)).trans (Kib.trans kib), Rib.trans rib⟩,
    ⟨(W16_of_ne m ρ c Cert.KernelIdeal.main_arg2 (by decide)).trans (Kw1s.trans kw1s), Rw1s.trans rw1s⟩, ⟨(W16_of_ne m ρ c Cert.KernelIdeal.main_arg3 (by decide)).trans (Kb1s.trans kb1s), Rb1s.trans rb1s⟩, ⟨(W16_of_ne m ρ c Cert.KernelIdeal.main_arg4 (by decide)).trans (Kw2s.trans kw2s), Rw2s.trans rw2s⟩, ⟨(W16_of_ne m ρ c Cert.KernelIdeal.main_arg5 (by decide)).trans (Kb2s.trans kb2s), Rb2s.trans rb2s⟩⟩
  · -- the region's output array is the layer function of its operand arrays as it finds them
    exact (W16_arr m ρ c 5).trans ((Cert.KernelIdeal.Region2.regionOut (V15 m ρ) c).trans (G_congr Kdense' Kw1' Kb1r' Kw2' Kb2r'))
  · -- the reference's host perceptron of the same five arrays is the same function
    exact Rout.trans ((hostMlp_congr Rdense' Rw1' Rb1' Rw2' Rb2').trans (Cert.MlpBridge.host_eq_G _ _ _ _ _))

end Cert.Bridge

end
-- ==== Proof.Region3.lean ====
/-
  python3 scratch/gen_regions.py 3

  Kernel region 3 (one layer's perceptron): whatever the TensorCore's buffers hold when the region is entered,
  the region leaves its output array holding the layer function of its five operand arrays. The grid has eight
  points; point t is given rows 512·t … 512·t+511 of the input and all of both weight matrices and biases, and
  writes rows 512·t … 512·t+511 of the output. Entry (r, j) of the output depends on row r of the input alone, so
  each written block is the restriction of ONE whole-array function, and the eight blocks tile the output.
-/
import proofs.«140670_j11424613007642_1_alg».proof.Proof.KernelIdealFrameP
import proofs.«140670_j11424613007642_1_alg».proof.Proof.MlpKernel
import proofs.«140670_j11424613007642_1_alg».proof.Proof.MlpArray
import Idealize.ShloMosaic.Lib.Pipeline.Value
import Idealize.ShloMosaic.Lib.ValueIdx

set_option maxRecDepth 16384

noncomputable section

namespace Cert.KernelIdeal.Region3

open Cert.KernelIdeal Cert.KernelIdeal.Gen Cert.KernelIdeal.GenP Cert.KernelIdeal.MlpArray
open Idealize.ShloMosaic Idealize.ShloMosaic.TcCoe Idealize.ShloMosaic.ValueIdx Idealize.SL.Sem
open Idealize.ShloMosaic.Pipeline (Dat Cfg Window)

/-- The body reads and writes its staging buffers whole: at offsets zero. -/
theorem zero_offsets : (![0, 0] : Fin 2 → Nat) = fun _ => 0 := funext fun a => by fin_cases a <;> rfl

/-- The printed index maps over the grid: the input's and the output's row block is the grid point, every other
    block index is zero. -/
theorem block_indices : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The row function depends on its five arguments through their values alone. -/
theorem mlpRow_congr {d d' : Fin 2000 → EReal} {w1 w1' : Fin 2000 → Fin 64 → EReal} {b1 b1' : Fin 64 → EReal}
    {w2 w2' : Fin 64 → Fin 4000 → EReal} {b2 b2' : Fin 4000 → EReal}
    (hd : ∀ l, d l = d' l) (hw1 : ∀ l k, w1 l k = w1' l k) (hb1 : ∀ k, b1 k = b1' k)
    (hw2 : ∀ k j, w2 k j = w2' k j) (hb2 : ∀ j, b2 j = b2' j) (j : Fin 4000) :
    Cert.MlpSpec.mlpRow d w1 b1 w2 b2 j = Cert.MlpSpec.mlpRow d' w1' b1' w2' b2' j := by
  have e1 : d = d' := funext hd
  have e2 : w1 = w1' := funext fun l => funext (hw1 l)
  have e3 : b1 = b1' := funext hb1
  have e4 : w2 = w2' := funext fun k => funext (hw2 k)
  have e5 : b2 = b2' := funext hb2
  rw [e1, e2, e3, e4, e5]

/-- The payload of the operand arrays' blocks at point `t` is block `t` of the layer function of the arrays:
    entry `(p, q)` of the block is entry `(512·t + p, q)` of the array; the input's block holds rows
    `512·t + p`, and the weights' and biases' blocks are the whole arrays. -/
theorem payload_block (A0 : S4096x2000.Idx → EReal) (A1 : S2000x64.Idx → EReal) (A2 : S1x64.Idx → EReal)
    (A3 : S64x4000.Idx → EReal) (A4 : S1x4000.Idx → EReal) (t : Fin cfg3.N) :
    k3_pay1 (F := Ideal) (((cfg3.win 0).blk t).view.read (Elt Ideal) A0) (((cfg3.win 1).blk t).view.read (Elt Ideal) A1)
        (((cfg3.win 2).blk t).view.read (Elt Ideal) A2) (((cfg3.win 3).blk t).view.read (Elt Ideal) A3)
        (((cfg3.win 4).blk t).view.read (Elt Ideal) A4)
      = ((cfg3.win 5).blk t).view.read (Elt Ideal) (G A0 A1 A2 A3 A4) := by
  obtain ⟨e00, e01, e10, e11, e20, e21, e30, e31, e40, e41, e50, e51⟩ := block_indices t
  have hN : cfg3.N = 8 := rfl
  have ht : t.val < 8 := hN ▸ t.isLt
  rw [Cert.KernelIdeal.MlpKernel.pay3_eq]
  funext j
  obtain ⟨p, q, rfl⟩ : ∃ (p : Fin 512) (q : Fin 4000), j = ix2 p q := ⟨j 0, j 1, eq_ix2 j⟩
  refine (Cert.KernelIdeal.MlpKernel.pay_apply (((cfg3.win 0).blk t).view.read (Elt Ideal) A0)
    (((cfg3.win 1).blk t).view.read (Elt Ideal) A1) (((cfg3.win 2).blk t).view.read (Elt Ideal) A2)
    (((cfg3.win 3).blk t).view.read (Elt Ideal) A3) (((cfg3.win 4).blk t).view.read (Elt Ideal) A4) p q).trans ?_
  have h5 : ((cfg3.win 5).blk t).view.emb (ix2 p q)
      = ix2 (⟨t.val * 512 + p.val, by have := p.isLt; omega⟩ : Fin 4096) q := by
    funext a; apply Fin.ext
    match a with
    | ⟨0, _⟩ => show win3_5.index t (0 : Fin 2) * 512 + 1 * p.val = t.val * 512 + p.val; omega
    | ⟨1, _⟩ => show win3_5.index t (1 : Fin 2) * 4000 + 1 * q.val = q.val; omega
  show _ = G A0 A1 A2 A3 A4 (((cfg3.win 5).blk t).view.emb (ix2 p q))
  rw [h5, G_apply]
  refine mlpRow_congr (fun l => ?_) (fun l k => ?_) (fun k => ?_) (fun k j' => ?_) (fun j' => ?_) q
  · show A0 (((cfg3.win 0).blk t).view.emb (ix2 p l)) = A0 (ix2 (⟨t.val * 512 + p.val, by have := p.isLt; omega⟩ : Fin 4096) l)
    refine congrArg A0 ?_
    funext a; apply Fin.ext
    match a with
    | ⟨0, _⟩ => show win3_0.index t (0 : Fin 2) * 512 + 1 * p.val = t.val * 512 + p.val; omega
    | ⟨1, _⟩ => show win3_0.index t (1 : Fin 2) * 2000 + 1 * l.val = l.val; omega
  · show A1 (((cfg3.win 1).blk t).view.emb (ix2 l k)) = A1 (ix2 l k)
    refine congrArg A1 ?_
    funext a; apply Fin.ext
    match a with
    | ⟨0, _⟩ => show win3_1.index t (0 : Fin 2) * 2000 + 1 * l.val = l.val; omega
    | ⟨1, _⟩ => show win3_1.index t (1 : Fin 2) * 64 + 1 * k.val = k.val; omega
  · show A2 (((cfg3.win 2).blk t).view.emb (ix2 (0 : Fin 1) k)) = A2 (ix2 (0 : Fin 1) k)
    refine congrArg A2 ?_
    funext a; apply Fin.ext
    match a with
    | ⟨0, _⟩ => show win3_2.index t (0 : Fin 2) * 1 + 1 * 0 = 0; omega
    | ⟨1, _⟩ => show win3_2.index t (1 : Fin 2) * 64 + 1 * k.val = k.val; omega
  · show A3 (((cfg3.win 3).blk t).view.emb (ix2 k j')) = A3 (ix2 k j')
    refine congrArg A3 ?_
    funext a; apply Fin.ext
    match a with
    | ⟨0, _⟩ => show win3_3.index t (0 : Fin 2) * 64 + 1 * k.val = k.val; omega
    | ⟨1, _⟩ => show win3_3.index t (1 : Fin 2) * 4000 + 1 * j'.val = j'.val; omega
  · show A4 (((cfg3.win 4).blk t).view.emb (ix2 (0 : Fin 1) j')) = A4 (ix2 (0 : Fin 1) j')
    refine congrArg A4 ?_
    funext a; apply Fin.ext
    match a with
    | ⟨0, _⟩ => show win3_4.index t (0 : Fin 2) * 1 + 1 * 0 = 0; omega
    | ⟨1, _⟩ => show win3_4.index t (1 : Fin 2) * 4000 + 1 * j'.val = j'.val; omega

variable (V : (c : Dev nD) → (b : Ref sig .tc) → Buf (Elt Ideal) ((c : Thread nD τ).loc b))

/-- What point `t` writes back is block `t` of the layer function of the operand arrays as the region finds them. -/
theorem written_block (c : Dev nD) (t : Fin cfg3.N) :
    (dat3 V c).flushed 5 t = ((cfg3.win 5).blk t).view.read (Elt Ideal)
      (G (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_5]
  unfold out3_5
  rw [View.canon_unit_zero zero_offsets]
  simp only [View.ld_unit_zero (S := S512x2000) zero_offsets, View.ld_unit_zero (S := S2000x64) zero_offsets,
    View.ld_unit_zero (S := S1x64) zero_offsets, View.ld_unit_zero (S := S64x4000) zero_offsets,
    View.ld_unit_zero (S := S1x4000) zero_offsets]
  exact payload_block (V c (Pipeline.arrRef spec3 0)) (V c (Pipeline.arrRef spec3 1)) (V c (Pipeline.arrRef spec3 2))
    (V c (Pipeline.arrRef spec3 3)) (V c (Pipeline.arrRef spec3 4)) t

/-- An index of the output array is in point `t`'s block iff each coordinate is in the block's range on its axis. -/
theorem mem_block (t : Fin cfg3.N) (i : S4096x4000.Idx) :
    i ∈ ((cfg3.win 5).blk t).view.set ↔ ∀ a : Fin 2, win3_5.index t a * S512x4000.size a ≤ (i a).val
      ∧ (i a).val < win3_5.index t a * S512x4000.size a + S512x4000.size a := by
  show i ∈ ((View.whole main_v201).slice (win3_5.rect t)).set ↔ _
  rw [View.set_slice_whole, Rect.mem_set_unit]
  exact Iff.rfl

/-- Every entry of the output array is in some point's block: row `r` is written by point `r / 512`. -/
theorem cover (i : S4096x4000.Idx) :
    ∃ t : Fin cfg3.N, (cfg3.win 5).flush t = true ∧ i ∈ ((cfg3.win 5).blk t).view.set := by
  have hi0 : (i 0).val < 4096 := (i 0).isLt
  have hi1 : (i 1).val < 4000 := (i 1).isLt
  obtain ⟨t, htv⟩ : ∃ t : Fin cfg3.N, t.val = (i 0).val / 512 :=
    ⟨⟨(i 0).val / 512, by show (i 0).val / 512 < 8; omega⟩, rfl⟩
  obtain ⟨-, -, -, -, -, -, -, -, -, -, e50, e51⟩ := block_indices t
  refine ⟨t, flush3_5 t, ?_⟩
  rw [mem_block]
  intro a
  match a with
  | ⟨0, _⟩ =>
    show win3_5.index t (0 : Fin 2) * 512 ≤ (i 0).val ∧ (i 0).val < win3_5.index t (0 : Fin 2) * 512 + 512
    omega
  | ⟨1, _⟩ =>
    show win3_5.index t (1 : Fin 2) * 4000 ≤ (i 1).val ∧ (i 1).val < win3_5.index t (1 : Fin 2) * 4000 + 4000
    omega

/-- The region's output array after its eight write-backs: the layer function of the five operand arrays as the
    region finds them. -/
theorem regionOut (c : Dev nD) :
    (dat3 V c).arrAt 5 cfg3.N = Cert.KernelIdeal.MlpArray.G (V c (Pipeline.arrRef spec3 0))
      (V c (Pipeline.arrRef spec3 1)) (V c (Pipeline.arrRef spec3 2)) (V c (Pipeline.arrRef spec3 3))
      (V c (Pipeline.arrRef spec3 4)) :=
  (dat3 V c).arrAt_eq_of_cover 5
    (G (V c (Pipeline.arrRef spec3 0)) (V c (Pipeline.arrRef spec3 1)) (V c (Pipeline.arrRef spec3 2))
      (V c (Pipeline.arrRef spec3 3)) (V c (Pipeline.arrRef spec3 4)))
    (fun t _ => written_block V c t) cover

end Cert.KernelIdeal.Region3

end
-- ==== Proof.LayerK3.lean ====
/- The host operations the kernel program runs between kernel region 2 and kernel region 3, read as functions. Each buffer the
  next stage needs is written out as the composition of the operations that produce it from the buffers the stretch
  reads; a buffer the stretch does not write keeps its contents; and the fold of the stretch's operations at each of
  these buffers is that function of the contents the stretch starts from.
-/
import proofs.«140670_j11424613007642_1_alg».proof.Proof.Gen.KernelIdeal.Launch
import Idealize.ShloMosaic.Lib.StableHlo.Run

set_option maxRecDepth 16384

noncomputable section

namespace Cert.KernelIdeal.Layer3

open Cert.KernelIdeal Cert.KernelIdeal.Gen Idealize.ShloMosaic Idealize.ShloMosaic.StableHlo Idealize.ShloMosaic.TcCoe

variable {F : FTy → Type} [FloatOps F]

/-- Buffer main_v198 as a function of the buffers the stretch reads: its 64 operations, in program order. -/
def f_dense (x_main_v2 : (⟨S4096x64, .i32⟩ : BufTy).Contents (Elt F)) (x_main_v54 : (⟨S4096x64, .f32⟩ : BufTy).Contents (Elt F)) (x_main_v117 : (⟨S4096x128, .i32⟩ : BufTy).Contents (Elt F)) (x_main_v147 : (⟨S4096x4000, .f32⟩ : BufTy).Contents (Elt F)) :
    (⟨S4096x2000, .f32⟩ : BufTy).Contents (Elt F) :=
  have x_main_cst_32 : (⟨S_, .f32⟩ : BufTy).Contents (Elt F) := (constant S_ .f32 0x00000000#32)
  have x_main_v148 : (⟨S4096x1, .f32⟩ : BufTy).Contents (Elt F) := ((broadcastInDim S4096x1 ![] bcast_S_S4096x1 : (⟨S_, .f32⟩ : BufTy).Contents (Elt F) → (⟨S4096x1, .f32⟩ : BufTy).Contents (Elt F))) x_main_cst_32
  have x_main_v149 : (⟨S4096x4001, .f32⟩ : BufTy).Contents (Elt F) := (((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F))) x_main_v147 x_main_v148
  have x_main_call5_c : (⟨S_, .i32⟩ : BufTy).Contents (Elt F) := (constantI S_ 32 0#32)
  have x_main_call5_v0 : (⟨S4096x128, .i32⟩ : BufTy).Contents (Elt F) := ((broadcastInDim S4096x128 ![] bcast_S_S4096x128)) x_main_call5_c
  have x_main_call5_v1 : (⟨S4096x128, .i1⟩ : BufTy).Contents (Elt F) := ((cmpi .slt)) x_main_v117 x_main_call5_v0
  have x_main_call5_c_0 : (⟨S_, .i32⟩ : BufTy).Contents (Elt F) := (constantI S_ 32 4001#32)
  have x_main_call5_v2 : (⟨S4096x128, .i32⟩ : BufTy).Contents (Elt F) := ((broadcastInDim S4096x128 ![] bcast_S_S4096x128)) x_main_call5_c_0
  have x_main_call5_v3 : (⟨S4096x128, .i32⟩ : BufTy).Contents (Elt F) := (addi) x_main_v117 x_main_call5_v2
  have x_main_call5_v4 : (⟨S4096x128, .i32⟩ : BufTy).Contents (Elt F) := (select) x_main_call5_v1 x_main_call5_v3 x_main_v117
  have x_main_call5_v5 : (⟨S4096x128x1, .i32⟩ : BufTy).Contents (Elt F) := shapeCast S4096x128x1 x_main_call5_v4 shapeCasts_S4096x128_S4096x128x1
  have x_main_call5_c_1 : (⟨S1, .i32⟩ : BufTy).Contents (Elt F) := (constantI S1 32 4000#32)
  have x_main_call5_c_2 : (⟨S_, .i32⟩ : BufTy).Contents (Elt F) := (constantI S_ 32 0#32)
  have x_main_call5_v6 : (⟨S4096x128x1, .i32⟩ : BufTy).Contents (Elt F) := ((broadcastInDim S4096x128x1 ![] bcast_S_S4096x128x1)) x_main_call5_c_2
  have x_main_call5_v7 : (⟨S4096x128x1, .i1⟩ : BufTy).Contents (Elt F) := ((cmpi .sge)) x_main_call5_v5 x_main_call5_v6
  have x_main_call5_v8 : (⟨S1x1x1, .i32⟩ : BufTy).Contents (Elt F) := ((broadcastInDim S1x1x1 ![2] bcast_S1_S1x1x1_2)) x_main_call5_c_1
  have x_main_call5_v9 : (⟨S4096x128x1, .i32⟩ : BufTy).Contents (Elt F) := ((broadcastInDim S4096x128x1 ![0, 1, 2] bcast_S1x1x1_S4096x128x1_0_1_2)) x_main_call5_v8
  have x_main_call5_v10 : (⟨S4096x128x1, .i1⟩ : BufTy).Contents (Elt F) := ((cmpi .sle)) x_main_call5_v5 x_main_call5_v9
  have x_main_call5_v11 : (⟨S4096x128x1, .i1⟩ : BufTy).Contents (Elt F) := (andi) x_main_call5_v7 x_main_call5_v10
  have x_main_call5_c_3 : (⟨S_, .i1⟩ : BufTy).Contents (Elt F) := (constantI S_ 1 1#1)
  have x_main_call5_v12 : (⟨S4096x128, .i1⟩ : BufTy).Contents (Elt F) := ((fun x v => Host.reduce IntOp.andi x v reducesTo_S4096x128x1_S4096x128_d2 h_S_)) x_main_call5_v11 x_main_call5_c_3
  have x_main_call5_v13 : (⟨S4096x128, .f32⟩ : BufTy).Contents (Elt F) := ((fun x i => Host.gather gather_S4096x4001_S4096x128x1_S4096x128_n_1_0_0_1_2_11 x i)) x_main_v149 x_main_call5_v5
  have x_main_call5_cst : (⟨S_, .f32⟩ : BufTy).Contents (Elt F) := (constant S_ .f32 0x7FC00000#32)
  have x_main_call5_v14 : (⟨S4096x128, .f32⟩ : BufTy).Contents (Elt F) := ((broadcastInDim S4096x128 ![] bcast_S_S4096x128)) x_main_call5_cst
  have x_main_v150 : (⟨S4096x128, .f32⟩ : BufTy).Contents (Elt F) := (select) x_main_call5_v12 x_main_call5_v13 x_main_call5_v14
  have x_main_v151 : (⟨S4096x64, .f32⟩ : BufTy).Contents (Elt F) := (((extractStridedSlice S4096x64 ![0, 0] · slices_S4096x128_S4096x64_0_0) : (⟨S4096x128, .f32⟩ : BufTy).Contents (Elt F) → (⟨S4096x64, .f32⟩ : BufTy).Contents (Elt F))) x_main_v150
  have x_main_v152 : (⟨S4096x64, .f32⟩ : BufTy).Contents (Elt F) := (((extractStridedSlice S4096x64 ![0, 64] · slices_S4096x128_S4096x64_0_64) : (⟨S4096x128, .f32⟩ : BufTy).Contents (Elt F) → (⟨S4096x64, .f32⟩ : BufTy).Contents (Elt F))) x_main_v150
  have x_main_cst_33 : (⟨S_, .f32⟩ : BufTy).Contents (Elt F) := (constant S_ .f32 0x40000000#32)
  have x_main_v153 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_33
  have x_main_v154 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v151 x_main_v153
  have x_main_v155 : (⟨S4096x64, .f32⟩ : BufTy).Contents (Elt F) := ((Host.negf : (⟨S4096x64, .f32⟩ : BufTy).Contents (Elt F) → (⟨S4096x64, .f32⟩ : BufTy).Contents (Elt F))) x_main_v154
  have x_main_v156 : (⟨S4096x64, .f32⟩ : BufTy).Contents (Elt F) := ((Host.exp : (⟨S4096x64, .f32⟩ : BufTy).Contents (Elt F) → (⟨S4096x64, .f32⟩ : BufTy).Contents (Elt F))) x_main_v155
  have x_main_cst_34 : (⟨S_, .f32⟩ : BufTy).Contents (Elt F) := (constant S_ .f32 0x3F800000#32)
  have x_main_v157 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_34
  have x_main_v158 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v157 x_main_v156
  have x_main_cst_35 : (⟨S_, .f32⟩ : BufTy).Contents (Elt F) := (constant S_ .f32 0x3F800000#32)
  have x_main_v159 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_35
  have x_main_v160 : (⟨S4096x64, .f32⟩ : BufTy).Contents (Elt F) := ((Host.divf : (⟨S4096x64, .f32⟩ : BufTy).Contents (Elt F) → (⟨S4096x64, .f32⟩ : BufTy).Contents (Elt F) → (⟨S4096x64, .f32⟩ : BufTy).Contents (Elt F))) x_main_v159 x_main_v158
  have x_main_v161 : (⟨S4096x64, .f32⟩ : BufTy).Contents (Elt F) := ((mulf : (⟨S4096x64, .f32⟩ : BufTy).Contents (Elt F) → (⟨S4096x64, .f32⟩ : BufTy).Contents (Elt F) → (⟨S4096x64, .f32⟩ : BufTy).Contents (Elt F))) x_main_v160 x_main_v54
  have x_main_v162 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v161 x_main_v152
  have x_main_v180 : (⟨S4096, .i32⟩ : BufTy).Contents (Elt F) := (iotaInDim S4096 32 0)
  have x_main_v181 : (⟨S4096x1, .i32⟩ : BufTy).Contents (Elt F) := ((broadcastInDim S4096x1 ![0] bcast_S4096_S4096x1_0 : (⟨S4096, .i32⟩ : BufTy).Contents (Elt F) → (⟨S4096x1, .i32⟩ : BufTy).Contents (Elt F))) x_main_v180
  have x_main_cst_40 : (⟨S_, .f32⟩ : BufTy).Contents (Elt F) := (constant S_ .f32 0x00000000#32)
  have x_main_v182 : (⟨S4096x2001, .f32⟩ : BufTy).Contents (Elt F) := ((broadcastInDim S4096x2001 ![] bcast_S_S4096x2001 : (⟨S_, .f32⟩ : BufTy).Contents (Elt F) → (⟨S4096x2001, .f32⟩ : BufTy).Contents (Elt F))) x_main_cst_40
  have x_main_c_41 : (⟨S_, .i32⟩ : BufTy).Contents (Elt F) := (constantI S_ 32 0#32)
  have x_main_v183 : (⟨S4096x1, .i32⟩ : BufTy).Contents (Elt F) := ((broadcastInDim S4096x1 ![] bcast_S_S4096x1 : (⟨S_, .i32⟩ : BufTy).Contents (Elt F) → (⟨S4096x1, .i32⟩ : BufTy).Contents (Elt F))) x_main_c_41
  have x_main_v184 : (⟨S4096x1, .i1⟩ : BufTy).Contents (Elt F) := ((cmpi .slt : (⟨S4096x1, .i32⟩ : BufTy).Contents (Elt F) → (⟨S4096x1, .i32⟩ : BufTy).Contents (Elt F) → (⟨S4096x1, .i1⟩ : BufTy).Contents (Elt F))) x_main_v181 x_main_v183
  have x_main_c_42 : (⟨S_, .i32⟩ : BufTy).Contents (Elt F) := (constantI S_ 32 4096#32)
  have x_main_v185 : (⟨S4096x1, .i32⟩ : BufTy).Contents (Elt F) := ((broadcastInDim S4096x1 ![] bcast_S_S4096x1 : (⟨S_, .i32⟩ : BufTy).Contents (Elt F) → (⟨S4096x1, .i32⟩ : BufTy).Contents (Elt F))) x_main_c_42
  have x_main_v186 : (⟨S4096x1, .i32⟩ : BufTy).Contents (Elt F) := ((addi : (⟨S4096x1, .i32⟩ : BufTy).Contents (Elt F) → (⟨S4096x1, .i32⟩ : BufTy).Contents (Elt F) → (⟨S4096x1, .i32⟩ : BufTy).Contents (Elt F))) x_main_v181 x_main_v185
  have x_main_v187 : (⟨S4096x1, .i32⟩ : BufTy).Contents (Elt F) := ((select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F))) x_main_v184 x_main_v186 x_main_v181
  have x_main_c_43 : (⟨S_, .i32⟩ : BufTy).Contents (Elt F) := (constantI S_ 32 0#32)
  have x_main_v188 : (⟨S4096x64, .i32⟩ : BufTy).Contents (Elt F) := ((broadcastInDim S4096x64 ![] bcast_S_S4096x64 : (⟨S_, .i32⟩ : BufTy).Contents (Elt F) → (⟨S4096x64, .i32⟩ : BufTy).Contents (Elt F))) x_main_c_43
  have x_main_v189 : (⟨S4096x64, .i1⟩ : BufTy).Contents (Elt F) := ((cmpi .slt : (⟨S4096x64, .i32⟩ : BufTy).Contents (Elt F) → (⟨S4096x64, .i32⟩ : BufTy).Contents (Elt F) → (⟨S4096x64, .i1⟩ : BufTy).Contents (Elt F))) x_main_v2 x_main_v188
  have x_main_c_44 : (⟨S_, .i32⟩ : BufTy).Contents (Elt F) := (constantI S_ 32 2001#32)
  have x_main_v190 : (⟨S4096x64, .i32⟩ : BufTy).Contents (Elt F) := ((broadcastInDim S4096x64 ![] bcast_S_S4096x64 : (⟨S_, .i32⟩ : BufTy).Contents (Elt F) → (⟨S4096x64, .i32⟩ : BufTy).Contents (Elt F))) x_main_c_44
  have x_main_v191 : (⟨S4096x64, .i32⟩ : BufTy).Contents (Elt F) := ((addi : (⟨S4096x64, .i32⟩ : BufTy).Contents (Elt F) → (⟨S4096x64, .i32⟩ : BufTy).Contents (Elt F) → (⟨S4096x64, .i32⟩ : BufTy).Contents (Elt F))) x_main_v2 x_main_v190
  have x_main_v192 : (⟨S4096x64, .i32⟩ : BufTy).Contents (Elt F) := ((select : (⟨S4096x64, .i1⟩ : BufTy).Contents (Elt F) → (⟨S4096x64, .i32⟩ : BufTy).Contents (Elt F) → (⟨S4096x64, .i32⟩ : BufTy).Contents (Elt F) → (⟨S4096x64, .i32⟩ : BufTy).Contents (Elt F))) x_main_v189 x_main_v191 x_main_v2
  have x_main_v193 : (⟨S4096x64, .i32⟩ : BufTy).Contents (Elt F) := ((broadcastInDim S4096x64 ![0, 1] bcast_S4096x1_S4096x64_0_1 : (⟨S4096x1, .i32⟩ : BufTy).Contents (Elt F) → (⟨S4096x64, .i32⟩ : BufTy).Contents (Elt F))) x_main_v187
  have x_main_v194 : (⟨S4096x64x1, .i32⟩ : BufTy).Contents (Elt F) := ((broadcastInDim S4096x64x1 ![0, 1] bcast_S4096x64_S4096x64x1_0_1 : (⟨S4096x64, .i32⟩ : BufTy).Contents (Elt F) → (⟨S4096x64x1, .i32⟩ : BufTy).Contents (Elt F))) x_main_v193
  have x_main_v195 : (⟨S4096x64x1, .i32⟩ : BufTy).Contents (Elt F) := ((broadcastInDim S4096x64x1 ![0, 1] bcast_S4096x64_S4096x64x1_0_1 : (⟨S4096x64, .i32⟩ : BufTy).Contents (Elt F) → (⟨S4096x64x1, .i32⟩ : BufTy).Contents (Elt F))) x_main_v192
  have x_main_v196 : (⟨S4096x64x2, .i32⟩ : BufTy).Contents (Elt F) := (((fun a b => concatenate S4096x64x2 2 [⟨S4096x64x1, a⟩, ⟨S4096x64x1, b⟩] concatenates_S4096x64x1_S4096x64x1_S4096x64x2_d2) : (⟨S4096x64x1, .i32⟩ : BufTy).Contents (Elt F) → (⟨S4096x64x1, .i32⟩ : BufTy).Contents (Elt F) → (⟨S4096x64x2, .i32⟩ : BufTy).Contents (Elt F))) x_main_v194 x_main_v195
  have x_main_v197 : (⟨S4096x2001, .f32⟩ : BufTy).Contents (Elt F) := (((fun x i u => Host.scatterAdd scatter_S4096x2001_S4096x64x2_S4096x64_n_01_01_2 x i u) : (⟨S4096x2001, .f32⟩ : BufTy).Contents (Elt F) → (⟨S4096x64x2, .i32⟩ : BufTy).Contents (Elt F) → (⟨S4096x64, .f32⟩ : BufTy).Contents (Elt F) → (⟨S4096x2001, .f32⟩ : BufTy).Contents (Elt F))) x_main_v182 x_main_v196 x_main_v162
  have x_main_v198 : (⟨S4096x2000, .f32⟩ : BufTy).Contents (Elt F) := (((extractStridedSlice S4096x2000 ![0, 0] · slices_S4096x2001_S4096x2000_0_0) : (⟨S4096x2001, .f32⟩ : BufTy).Contents (Elt F) → (⟨S4096x2000, .f32⟩ : BufTy).Contents (Elt F))) x_main_v197
  x_main_v198

/-- Buffer main_v173 as a function of the buffers the stretch reads: its 2 operations, in program order. -/
def f_w1 (x_main_arg2 : (⟨S10x2000x64, .f32⟩ : BufTy).Contents (Elt F)) :
    (⟨S2000x64, .f32⟩ : BufTy).Contents (Elt F) :=
  have x_main_v172 : (⟨S1x2000x64, .f32⟩ : BufTy).Contents (Elt F) := (((extractStridedSlice S1x2000x64 ![3, 0, 0] · slices_S10x2000x64_S1x2000x64_3_0_0) : (⟨S10x2000x64, .f32⟩ : BufTy).Contents (Elt F) → (⟨S1x2000x64, .f32⟩ : BufTy).Contents (Elt F))) x_main_arg2
  have x_main_v173 : (⟨S2000x64, .f32⟩ : BufTy).Contents (Elt F) := shapeCast S2000x64 x_main_v172 shapeCasts_S1x2000x64_S2000x64
  x_main_v173

/-- Buffer main_v175 as a function of the buffers the stretch reads: its 2 operations, in program order. -/
def f_b1 (x_main_arg3 : (⟨S10x64, .f32⟩ : BufTy).Contents (Elt F)) :
    (⟨S64, .f32⟩ : BufTy).Contents (Elt F) :=
  have x_main_v174 : (⟨S1x64, .f32⟩ : BufTy).Contents (Elt F) := (((extractStridedSlice S1x64 ![3, 0] · slices_S10x64_S1x64_3_0) : (⟨S10x64, .f32⟩ : BufTy).Contents (Elt F) → (⟨S1x64, .f32⟩ : BufTy).Contents (Elt F))) x_main_arg3
  have x_main_v175 : (⟨S64, .f32⟩ : BufTy).Contents (Elt F) := shapeCast S64 x_main_v174 shapeCasts_S1x64_S64
  x_main_v175

/-- Buffer main_v199 as a function of the buffers the stretch reads: its 3 operations, in program order. -/
def f_b1r (x_main_arg3 : (⟨S10x64, .f32⟩ : BufTy).Contents (Elt F)) :
    (⟨S1x64, .f32⟩ : BufTy).Contents (Elt F) :=
  have x_main_v174 : (⟨S1x64, .f32⟩ : BufTy).Contents (Elt F) := (((extractStridedSlice S1x64 ![3, 0] · slices_S10x64_S1x64_3_0) : (⟨S10x64, .f32⟩ : BufTy).Contents (Elt F) → (⟨S1x64, .f32⟩ : BufTy).Contents (Elt F))) x_main_arg3
  have x_main_v175 : (⟨S64, .f32⟩ : BufTy).Contents (Elt F) := shapeCast S64 x_main_v174 shapeCasts_S1x64_S64
  have x_main_v199 : (⟨S1x64, .f32⟩ : BufTy).Contents (Elt F) := shapeCast S1x64 x_main_v175 shapeCasts_S64_S1x64
  x_main_v199

/-- Buffer main_v177 as a function of the buffers the stretch reads: its 2 operations, in program order. -/
def f_w2 (x_main_arg4 : (⟨S10x64x4000, .f32⟩ : BufTy).Contents (Elt F)) :
    (⟨S64x4000, .f32⟩ : BufTy).Contents (Elt F) :=
  have x_main_v176 : (⟨S1x64x4000, .f32⟩ : BufTy).Contents (Elt F) := (((extractStridedSlice S1x64x4000 ![3, 0, 0] · slices_S10x64x4000_S1x64x4000_3_0_0) : (⟨S10x64x4000, .f32⟩ : BufTy).Contents (Elt F) → (⟨S1x64x4000, .f32⟩ : BufTy).Contents (Elt F))) x_main_arg4
  have x_main_v177 : (⟨S64x4000, .f32⟩ : BufTy).Contents (Elt F) := shapeCast S64x4000 x_main_v176 shapeCasts_S1x64x4000_S64x4000
  x_main_v177

/-- Buffer main_v179 as a function of the buffers the stretch reads: its 2 operations, in program order. -/
def f_b2 (x_main_arg5 : (⟨S10x4000, .f32⟩ : BufTy).Contents (Elt F)) :
    (⟨S4000, .f32⟩ : BufTy).Contents (Elt F) :=
  have x_main_v178 : (⟨S1x4000, .f32⟩ : BufTy).Contents (Elt F) := (((extractStridedSlice S1x4000 ![3, 0] · slices_S10x4000_S1x4000_3_0) : (⟨S10x4000, .f32⟩ : BufTy).Contents (Elt F) → (⟨S1x4000, .f32⟩ : BufTy).Contents (Elt F))) x_main_arg5
  have x_main_v179 : (⟨S4000, .f32⟩ : BufTy).Contents (Elt F) := shapeCast S4000 x_main_v178 shapeCasts_S1x4000_S4000
  x_main_v179

/-- Buffer main_v200 as a function of the buffers the stretch reads: its 3 operations, in program order. -/
def f_b2r (x_main_arg5 : (⟨S10x4000, .f32⟩ : BufTy).Contents (Elt F)) :
    (⟨S1x4000, .f32⟩ : BufTy).Contents (Elt F) :=
  have x_main_v178 : (⟨S1x4000, .f32⟩ : BufTy).Contents (Elt F) := (((extractStridedSlice S1x4000 ![3, 0] · slices_S10x4000_S1x4000_3_0) : (⟨S10x4000, .f32⟩ : BufTy).Contents (Elt F) → (⟨S1x4000, .f32⟩ : BufTy).Contents (Elt F))) x_main_arg5
  have x_main_v179 : (⟨S4000, .f32⟩ : BufTy).Contents (Elt F) := shapeCast S4000 x_main_v178 shapeCasts_S1x4000_S4000
  have x_main_v200 : (⟨S1x4000, .f32⟩ : BufTy).Contents (Elt F) := shapeCast S1x4000 x_main_v179 shapeCasts_S4000_S1x4000
  x_main_v200

/-- Buffer main_v171 as a function of the buffers the stretch reads: its 11 operations, in program order. -/
def f_oidx (x_main_v3 : (⟨S4096x61, .i32⟩ : BufTy).Contents (Elt F)) :
    (⟨S4096x122, .i32⟩ : BufTy).Contents (Elt F) :=
  have x_main_c_37 : (⟨S_, .i32⟩ : BufTy).Contents (Elt F) := (constantI S_ 32 2000#32)
  have x_main_v166 : (⟨S4096x61, .i32⟩ : BufTy).Contents (Elt F) := ((broadcastInDim S4096x61 ![] bcast_S_S4096x61 : (⟨S_, .i32⟩ : BufTy).Contents (Elt F) → (⟨S4096x61, .i32⟩ : BufTy).Contents (Elt F))) x_main_c_37
  have x_main_v167 : (⟨S4096x61, .i1⟩ : BufTy).Contents (Elt F) := ((cmpi .eq : (⟨S4096x61, .i32⟩ : BufTy).Contents (Elt F) → (⟨S4096x61, .i32⟩ : BufTy).Contents (Elt F) → (⟨S4096x61, .i1⟩ : BufTy).Contents (Elt F))) x_main_v3 x_main_v166
  have x_main_c_38 : (⟨S_, .i32⟩ : BufTy).Contents (Elt F) := (constantI S_ 32 2000#32)
  have x_main_v168 : (⟨S4096x61, .i32⟩ : BufTy).Contents (Elt F) := ((broadcastInDim S4096x61 ![] bcast_S_S4096x61 : (⟨S_, .i32⟩ : BufTy).Contents (Elt F) → (⟨S4096x61, .i32⟩ : BufTy).Contents (Elt F))) x_main_c_38
  have x_main_v169 : (⟨S4096x61, .i32⟩ : BufTy).Contents (Elt F) := ((addi : (⟨S4096x61, .i32⟩ : BufTy).Contents (Elt F) → (⟨S4096x61, .i32⟩ : BufTy).Contents (Elt F) → (⟨S4096x61, .i32⟩ : BufTy).Contents (Elt F))) x_main_v3 x_main_v168
  have x_main_c_39 : (⟨S_, .i32⟩ : BufTy).Contents (Elt F) := (constantI S_ 32 4000#32)
  have x_main_call6_v0 : (⟨S_, .i32⟩ : BufTy).Contents (Elt F) := (id) x_main_c_39
  have x_main_call6_v1 : (⟨S4096x61, .i32⟩ : BufTy).Contents (Elt F) := ((broadcastInDim S4096x61 ![] bcast_S_S4096x61)) x_main_call6_v0
  have x_main_v170 : (⟨S4096x61, .i32⟩ : BufTy).Contents (Elt F) := (select) x_main_v167 x_main_call6_v1 x_main_v169
  have x_main_v171 : (⟨S4096x122, .i32⟩ : BufTy).Contents (Elt F) := (((fun a b => concatenate S4096x122 1 [⟨S4096x61, a⟩, ⟨S4096x61, b⟩] concatenates_S4096x61_S4096x61_S4096x122_d1) : (⟨S4096x61, .i32⟩ : BufTy).Contents (Elt F) → (⟨S4096x61, .i32⟩ : BufTy).Contents (Elt F) → (⟨S4096x122, .i32⟩ : BufTy).Contents (Elt F))) x_main_v3 x_main_v170
  x_main_v171

/-- Buffer main_v162 as a function of the buffers the stretch reads: its 40 operations, in program order. -/
def f_xnew (x_main_v54 : (⟨S4096x64, .f32⟩ : BufTy).Contents (Elt F)) (x_main_v117 : (⟨S4096x128, .i32⟩ : BufTy).Contents (Elt F)) (x_main_v147 : (⟨S4096x4000, .f32⟩ : BufTy).Contents (Elt F)) :
    (⟨S4096x64, .f32⟩ : BufTy).Contents (Elt F) :=
  have x_main_cst_32 : (⟨S_, .f32⟩ : BufTy).Contents (Elt F) := (constant S_ .f32 0x00000000#32)
  have x_main_v148 : (⟨S4096x1, .f32⟩ : BufTy).Contents (Elt F) := ((broadcastInDim S4096x1 ![] bcast_S_S4096x1 : (⟨S_, .f32⟩ : BufTy).Contents (Elt F) → (⟨S4096x1, .f32⟩ : BufTy).Contents (Elt F))) x_main_cst_32
  have x_main_v149 : (⟨S4096x4001, .f32⟩ : BufTy).Contents (Elt F) := (((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F))) x_main_v147 x_main_v148
  have x_main_call5_c : (⟨S_, .i32⟩ : BufTy).Contents (Elt F) := (constantI S_ 32 0#32)
  have x_main_call5_v0 : (⟨S4096x128, .i32⟩ : BufTy).Contents (Elt F) := ((broadcastInDim S4096x128 ![] bcast_S_S4096x128)) x_main_call5_c
  have x_main_call5_v1 : (⟨S4096x128, .i1⟩ : BufTy).Contents (Elt F) := ((cmpi .slt)) x_main_v117 x_main_call5_v0
  have x_main_call5_c_0 : (⟨S_, .i32⟩ : BufTy).Contents (Elt F) := (constantI S_ 32 4001#32)
  have x_main_call5_v2 : (⟨S4096x128, .i32⟩ : BufTy).Contents (Elt F) := ((broadcastInDim S4096x128 ![] bcast_S_S4096x128)) x_main_call5_c_0
  have x_main_call5_v3 : (⟨S4096x128, .i32⟩ : BufTy).Contents (Elt F) := (addi) x_main_v117 x_main_call5_v2
  have x_main_call5_v4 : (⟨S4096x128, .i32⟩ : BufTy).Contents (Elt F) := (select) x_main_call5_v1 x_main_call5_v3 x_main_v117
  have x_main_call5_v5 : (⟨S4096x128x1, .i32⟩ : BufTy).Contents (Elt F) := shapeCast S4096x128x1 x_main_call5_v4 shapeCasts_S4096x128_S4096x128x1
  have x_main_call5_c_1 : (⟨S1, .i32⟩ : BufTy).Contents (Elt F) := (constantI S1 32 4000#32)
  have x_main_call5_c_2 : (⟨S_, .i32⟩ : BufTy).Contents (Elt F) := (constantI S_ 32 0#32)
  have x_main_call5_v6 : (⟨S4096x128x1, .i32⟩ : BufTy).Contents (Elt F) := ((broadcastInDim S4096x128x1 ![] bcast_S_S4096x128x1)) x_main_call5_c_2
  have x_main_call5_v7 : (⟨S4096x128x1, .i1⟩ : BufTy).Contents (Elt F) := ((cmpi .sge)) x_main_call5_v5 x_main_call5_v6
  have x_main_call5_v8 : (⟨S1x1x1, .i32⟩ : BufTy).Contents (Elt F) := ((broadcastInDim S1x1x1 ![2] bcast_S1_S1x1x1_2)) x_main_call5_c_1
  have x_main_call5_v9 : (⟨S4096x128x1, .i32⟩ : BufTy).Contents (Elt F) := ((broadcastInDim S4096x128x1 ![0, 1, 2] bcast_S1x1x1_S4096x128x1_0_1_2)) x_main_call5_v8
  have x_main_call5_v10 : (⟨S4096x128x1, .i1⟩ : BufTy).Contents (Elt F) := ((cmpi .sle)) x_main_call5_v5 x_main_call5_v9
  have x_main_call5_v11 : (⟨S4096x128x1, .i1⟩ : BufTy).Contents (Elt F) := (andi) x_main_call5_v7 x_main_call5_v10
  have x_main_call5_c_3 : (⟨S_, .i1⟩ : BufTy).Contents (Elt F) := (constantI S_ 1 1#1)
  have x_main_call5_v12 : (⟨S4096x128, .i1⟩ : BufTy).Contents (Elt F) := ((fun x v => Host.reduce IntOp.andi x v reducesTo_S4096x128x1_S4096x128_d2 h_S_)) x_main_call5_v11 x_main_call5_c_3
  have x_main_call5_v13 : (⟨S4096x128, .f32⟩ : BufTy).Contents (Elt F) := ((fun x i => Host.gather gather_S4096x4001_S4096x128x1_S4096x128_n_1_0_0_1_2_11 x i)) x_main_v149 x_main_call5_v5
  have x_main_call5_cst : (⟨S_, .f32⟩ : BufTy).Contents (Elt F) := (constant S_ .f32 0x7FC00000#32)
  have x_main_call5_v14 : (⟨S4096x128, .f32⟩ : BufTy).Contents (Elt F) := ((broadcastInDim S4096x128 ![] bcast_S_S4096x128)) x_main_call5_cst
  have x_main_v150 : (⟨S4096x128, .f32⟩ : BufTy).Contents (Elt F) := (select) x_main_call5_v12 x_main_call5_v13 x_main_call5_v14
  have x_main_v151 : (⟨S4096x64, .f32⟩ : BufTy).Contents (Elt F) := (((extractStridedSlice S4096x64 ![0, 0] · slices_S4096x128_S4096x64_0_0) : (⟨S4096x128, .f32⟩ : BufTy).Contents (Elt F) → (⟨S4096x64, .f32⟩ : BufTy).Contents (Elt F))) x_main_v150
  have x_main_v152 : (⟨S4096x64, .f32⟩ : BufTy).Contents (Elt F) := (((extractStridedSlice S4096x64 ![0, 64] · slices_S4096x128_S4096x64_0_64) : (⟨S4096x128, .f32⟩ : BufTy).Contents (Elt F) → (⟨S4096x64, .f32⟩ : BufTy).Contents (Elt F))) x_main_v150
  have x_main_cst_33 : (⟨S_, .f32⟩ : BufTy).Contents (Elt F) := (constant S_ .f32 0x40000000#32)
  have x_main_v153 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_33
  have x_main_v154 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v151 x_main_v153
  have x_main_v155 : (⟨S4096x64, .f32⟩ : BufTy).Contents (Elt F) := ((Host.negf : (⟨S4096x64, .f32⟩ : BufTy).Contents (Elt F) → (⟨S4096x64, .f32⟩ : BufTy).Contents (Elt F))) x_main_v154
  have x_main_v156 : (⟨S4096x64, .f32⟩ : BufTy).Contents (Elt F) := ((Host.exp : (⟨S4096x64, .f32⟩ : BufTy).Contents (Elt F) → (⟨S4096x64, .f32⟩ : BufTy).Contents (Elt F))) x_main_v155
  have x_main_cst_34 : (⟨S_, .f32⟩ : BufTy).Contents (Elt F) := (constant S_ .f32 0x3F800000#32)
  have x_main_v157 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_34
  have x_main_v158 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v157 x_main_v156
  have x_main_cst_35 : (⟨S_, .f32⟩ : BufTy).Contents (Elt F) := (constant S_ .f32 0x3F800000#32)
  have x_main_v159 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_35
  have x_main_v160 : (⟨S4096x64, .f32⟩ : BufTy).Contents (Elt F) := ((Host.divf : (⟨S4096x64, .f32⟩ : BufTy).Contents (Elt F) → (⟨S4096x64, .f32⟩ : BufTy).Contents (Elt F) → (⟨S4096x64, .f32⟩ : BufTy).Contents (Elt F))) x_main_v159 x_main_v158
  have x_main_v161 : (⟨S4096x64, .f32⟩ : BufTy).Contents (Elt F) := ((mulf : (⟨S4096x64, .f32⟩ : BufTy).Contents (Elt F) → (⟨S4096x64, .f32⟩ : BufTy).Contents (Elt F) → (⟨S4096x64, .f32⟩ : BufTy).Contents (Elt F))) x_main_v160 x_main_v54
  have x_main_v162 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v161 x_main_v152
  x_main_v162

/-- Buffer main_v165 as a function of the buffers the stretch reads: its 41 operations, in program order. -/
def f_qnew (x_main_v111 : (⟨S4096, .f32⟩ : BufTy).Contents (Elt F)) (x_main_v117 : (⟨S4096x128, .i32⟩ : BufTy).Contents (Elt F)) (x_main_v147 : (⟨S4096x4000, .f32⟩ : BufTy).Contents (Elt F)) :
    (⟨S4096, .f32⟩ : BufTy).Contents (Elt F) :=
  have x_main_cst_32 : (⟨S_, .f32⟩ : BufTy).Contents (Elt F) := (constant S_ .f32 0x00000000#32)
  have x_main_v148 : (⟨S4096x1, .f32⟩ : BufTy).Contents (Elt F) := ((broadcastInDim S4096x1 ![] bcast_S_S4096x1 : (⟨S_, .f32⟩ : BufTy).Contents (Elt F) → (⟨S4096x1, .f32⟩ : BufTy).Contents (Elt F))) x_main_cst_32
  have x_main_v149 : (⟨S4096x4001, .f32⟩ : BufTy).Contents (Elt F) := (((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F))) x_main_v147 x_main_v148
  have x_main_call5_c : (⟨S_, .i32⟩ : BufTy).Contents (Elt F) := (constantI S_ 32 0#32)
  have x_main_call5_v0 : (⟨S4096x128, .i32⟩ : BufTy).Contents (Elt F) := ((broadcastInDim S4096x128 ![] bcast_S_S4096x128)) x_main_call5_c
  have x_main_call5_v1 : (⟨S4096x128, .i1⟩ : BufTy).Contents (Elt F) := ((cmpi .slt)) x_main_v117 x_main_call5_v0
  have x_main_call5_c_0 : (⟨S_, .i32⟩ : BufTy).Contents (Elt F) := (constantI S_ 32 4001#32)
  have x_main_call5_v2 : (⟨S4096x128, .i32⟩ : BufTy).Contents (Elt F) := ((broadcastInDim S4096x128 ![] bcast_S_S4096x128)) x_main_call5_c_0
  have x_main_call5_v3 : (⟨S4096x128, .i32⟩ : BufTy).Contents (Elt F) := (addi) x_main_v117 x_main_call5_v2
  have x_main_call5_v4 : (⟨S4096x128, .i32⟩ : BufTy).Contents (Elt F) := (select) x_main_call5_v1 x_main_call5_v3 x_main_v117
  have x_main_call5_v5 : (⟨S4096x128x1, .i32⟩ : BufTy).Contents (Elt F) := shapeCast S4096x128x1 x_main_call5_v4 shapeCasts_S4096x128_S4096x128x1
  have x_main_call5_c_1 : (⟨S1, .i32⟩ : BufTy).Contents (Elt F) := (constantI S1 32 4000#32)
  have x_main_call5_c_2 : (⟨S_, .i32⟩ : BufTy).Contents (Elt F) := (constantI S_ 32 0#32)
  have x_main_call5_v6 : (⟨S4096x128x1, .i32⟩ : BufTy).Contents (Elt F) := ((broadcastInDim S4096x128x1 ![] bcast_S_S4096x128x1)) x_main_call5_c_2
  have x_main_call5_v7 : (⟨S4096x128x1, .i1⟩ : BufTy).Contents (Elt F) := ((cmpi .sge)) x_main_call5_v5 x_main_call5_v6
  have x_main_call5_v8 : (⟨S1x1x1, .i32⟩ : BufTy).Contents (Elt F) := ((broadcastInDim S1x1x1 ![2] bcast_S1_S1x1x1_2)) x_main_call5_c_1
  have x_main_call5_v9 : (⟨S4096x128x1, .i32⟩ : BufTy).Contents (Elt F) := ((broadcastInDim S4096x128x1 ![0, 1, 2] bcast_S1x1x1_S4096x128x1_0_1_2)) x_main_call5_v8
  have x_main_call5_v10 : (⟨S4096x128x1, .i1⟩ : BufTy).Contents (Elt F) := ((cmpi .sle)) x_main_call5_v5 x_main_call5_v9
  have x_main_call5_v11 : (⟨S4096x128x1, .i1⟩ : BufTy).Contents (Elt F) := (andi) x_main_call5_v7 x_main_call5_v10
  have x_main_call5_c_3 : (⟨S_, .i1⟩ : BufTy).Contents (Elt F) := (constantI S_ 1 1#1)
  have x_main_call5_v12 : (⟨S4096x128, .i1⟩ : BufTy).Contents (Elt F) := ((fun x v => Host.reduce IntOp.andi x v reducesTo_S4096x128x1_S4096x128_d2 h_S_)) x_main_call5_v11 x_main_call5_c_3
  have x_main_call5_v13 : (⟨S4096x128, .f32⟩ : BufTy).Contents (Elt F) := ((fun x i => Host.gather gather_S4096x4001_S4096x128x1_S4096x128_n_1_0_0_1_2_11 x i)) x_main_v149 x_main_call5_v5
  have x_main_call5_cst : (⟨S_, .f32⟩ : BufTy).Contents (Elt F) := (constant S_ .f32 0x7FC00000#32)
  have x_main_call5_v14 : (⟨S4096x128, .f32⟩ : BufTy).Contents (Elt F) := ((broadcastInDim S4096x128 ![] bcast_S_S4096x128)) x_main_call5_cst
  have x_main_v150 : (⟨S4096x128, .f32⟩ : BufTy).Contents (Elt F) := (select) x_main_call5_v12 x_main_call5_v13 x_main_call5_v14
  have x_main_v151 : (⟨S4096x64, .f32⟩ : BufTy).Contents (Elt F) := (((extractStridedSlice S4096x64 ![0, 0] · slices_S4096x128_S4096x64_0_0) : (⟨S4096x128, .f32⟩ : BufTy).Contents (Elt F) → (⟨S4096x64, .f32⟩ : BufTy).Contents (Elt F))) x_main_v150
  have x_main_cst_33 : (⟨S_, .f32⟩ : BufTy).Contents (Elt F) := (constant S_ .f32 0x40000000#32)
  have x_main_v153 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_33
  have x_main_v154 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v151 x_main_v153
  have x_main_v155 : (⟨S4096x64, .f32⟩ : BufTy).Contents (Elt F) := ((Host.negf : (⟨S4096x64, .f32⟩ : BufTy).Contents (Elt F) → (⟨S4096x64, .f32⟩ : BufTy).Contents (Elt F))) x_main_v154
  have x_main_v156 : (⟨S4096x64, .f32⟩ : BufTy).Contents (Elt F) := ((Host.exp : (⟨S4096x64, .f32⟩ : BufTy).Contents (Elt F) → (⟨S4096x64, .f32⟩ : BufTy).Contents (Elt F))) x_main_v155
  have x_main_cst_34 : (⟨S_, .f32⟩ : BufTy).Contents (Elt F) := (constant S_ .f32 0x3F800000#32)
  have x_main_v157 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_34
  have x_main_v158 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v157 x_main_v156
  have x_main_cst_35 : (⟨S_, .f32⟩ : BufTy).Contents (Elt F) := (constant S_ .f32 0x3F800000#32)
  have x_main_v159 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_35
  have x_main_v160 : (⟨S4096x64, .f32⟩ : BufTy).Contents (Elt F) := ((Host.divf : (⟨S4096x64, .f32⟩ : BufTy).Contents (Elt F) → (⟨S4096x64, .f32⟩ : BufTy).Contents (Elt F) → (⟨S4096x64, .f32⟩ : BufTy).Contents (Elt F))) x_main_v159 x_main_v158
  have x_main_v163 : (⟨S4096x64, .f32⟩ : BufTy).Contents (Elt F) := ((Host.log : (⟨S4096x64, .f32⟩ : BufTy).Contents (Elt F) → (⟨S4096x64, .f32⟩ : BufTy).Contents (Elt F))) x_main_v160
  have x_main_cst_36 : (⟨S_, .f32⟩ : BufTy).Contents (Elt F) := (constant S_ .f32 0x00000000#32)
  have x_main_v164 : (⟨S4096, .f32⟩ : BufTy).Contents (Elt F) := (((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F))) x_main_v163 x_main_cst_36
  have x_main_v165 : (⟨S4096, .f32⟩ : BufTy).Contents (Elt F) := ((subf : (⟨S4096, .f32⟩ : BufTy).Contents (Elt F) → (⟨S4096, .f32⟩ : BufTy).Contents (Elt F) → (⟨S4096, .f32⟩ : BufTy).Contents (Elt F))) x_main_v111 x_main_v164
  x_main_v165

-- the gather, the scatter and the reductions are never opened: both sides apply them to equal arguments
attribute [local irreducible] Host.scatterAdd Host.reduce Host.gather Host.reduceAdd concatenate extractStridedSlice broadcastInDim iotaInDim in
set_option maxHeartbeats 8000000 in
set_option maxRecDepth 100000 in
/-- The stretch's fold at each of those buffers. -/
theorem reads (V : Valuation τ sig (Elt F)) :
    after hostOps3_4 (after hostOps3_3 (after hostOps3_2 (after hostOps3_1 (after hostOps3 V)))) (Proc.devRef .tc main_v198) = f_dense (V (Proc.devRef .tc main_v2)) (V (Proc.devRef .tc main_v54)) (V (Proc.devRef .tc main_v117)) (V (Proc.devRef .tc main_v147))
    ∧ after hostOps3_4 (after hostOps3_3 (after hostOps3_2 (after hostOps3_1 (after hostOps3 V)))) (Proc.devRef .tc main_v173) = f_w1 (V (Proc.devRef .tc main_arg2))
    ∧ after hostOps3_4 (after hostOps3_3 (after hostOps3_2 (after hostOps3_1 (after hostOps3 V)))) (Proc.devRef .tc main_v175) = f_b1 (V (Proc.devRef .tc main_arg3))
    ∧ after hostOps3_4 (after hostOps3_3 (after hostOps3_2 (after hostOps3_1 (after hostOps3 V)))) (Proc.devRef .tc main_v199) = f_b1r (V (Proc.devRef .tc main_arg3))
    ∧ after hostOps3_4 (after hostOps3_3 (after hostOps3_2 (after hostOps3_1 (after hostOps3 V)))) (Proc.devRef .tc main_v177) = f_w2 (V (Proc.devRef .tc main_arg4))
    ∧ after hostOps3_4 (after hostOps3_3 (after hostOps3_2 (after hostOps3_1 (after hostOps3 V)))) (Proc.devRef .tc main_v179) = f_b2 (V (Proc.devRef .tc main_arg5))
    ∧ after hostOps3_4 (after hostOps3_3 (after hostOps3_2 (after hostOps3_1 (after hostOps3 V)))) (Proc.devRef .tc main_v200) = f_b2r (V (Proc.devRef .tc main_arg5))
    ∧ after hostOps3_4 (after hostOps3_3 (after hostOps3_2 (after hostOps3_1 (after hostOps3 V)))) (Proc.devRef .tc main_v171) = f_oidx (V (Proc.devRef .tc main_v3))
    ∧ after hostOps3_4 (after hostOps3_3 (after hostOps3_2 (after hostOps3_1 (after hostOps3 V)))) (Proc.devRef .tc main_v162) = f_xnew (V (Proc.devRef .tc main_v54)) (V (Proc.devRef .tc main_v117)) (V (Proc.devRef .tc main_v147))
    ∧ after hostOps3_4 (after hostOps3_3 (after hostOps3_2 (after hostOps3_1 (after hostOps3 V)))) (Proc.devRef .tc main_v165) = f_qnew (V (Proc.devRef .tc main_v111)) (V (Proc.devRef .tc main_v117)) (V (Proc.devRef .tc main_v147))
    ∧ after hostOps3_4 (after hostOps3_3 (after hostOps3_2 (after hostOps3_1 (after hostOps3 V)))) (Proc.devRef .tc main_v108) = V (Proc.devRef .tc main_v108)
    ∧ after hostOps3_4 (after hostOps3_3 (after hostOps3_2 (after hostOps3_1 (after hostOps3 V)))) (Proc.devRef .tc main_v2) = V (Proc.devRef .tc main_v2)
    ∧ after hostOps3_4 (after hostOps3_3 (after hostOps3_2 (after hostOps3_1 (after hostOps3 V)))) (Proc.devRef .tc main_v3) = V (Proc.devRef .tc main_v3)
    ∧ after hostOps3_4 (after hostOps3_3 (after hostOps3_2 (after hostOps3_1 (after hostOps3 V)))) (Proc.devRef .tc main_arg2) = V (Proc.devRef .tc main_arg2)
    ∧ after hostOps3_4 (after hostOps3_3 (after hostOps3_2 (after hostOps3_1 (after hostOps3 V)))) (Proc.devRef .tc main_arg3) = V (Proc.devRef .tc main_arg3)
    ∧ after hostOps3_4 (after hostOps3_3 (after hostOps3_2 (after hostOps3_1 (after hostOps3 V)))) (Proc.devRef .tc main_arg4) = V (Proc.devRef .tc main_arg4)
    ∧ after hostOps3_4 (after hostOps3_3 (after hostOps3_2 (after hostOps3_1 (after hostOps3 V)))) (Proc.devRef .tc main_arg5) = V (Proc.devRef .tc main_arg5) := by
  simp only [hostOps3, hostOps3_1, hostOps3_2, hostOps3_3, hostOps3_4]
  after_results_simp
  refine ⟨?_, ?_, ?_, ?_, ?_, ?_, ?_, ?_, ?_, ?_, ?_, ?_, ?_, ?_, ?_, ?_, ?_⟩ <;> first | rfl | trivial

end Cert.KernelIdeal.Layer3

end
-- ==== Proof.LayerR3a.lean ====
/- The reference's operations of the same stage (kernel region 2 and kernel region 3 on the kernel side), read as the SAME functions
  as the kernel program's: the five buffers the layer's perceptron is computed from.
-/
import proofs.«140670_j11424613007642_1_alg».proof.Proof.RefRun
import proofs.«140670_j11424613007642_1_alg».proof.Proof.LayerK3
import proofs.«140670_j11424613007642_1_alg».proof.Proof.LibTRef
import Idealize.ShloMosaic.PureOps.Ideal

set_option maxRecDepth 16384

noncomputable section

namespace Cert.ReferenceIdeal.LayerR3

open Cert.ReferenceIdeal Cert.ReferenceIdeal.Gen Cert.ReferenceIdeal.RefRun Idealize.ShloMosaic Idealize.ShloMosaic.StableHlo Idealize.ShloMosaic.TcCoe

-- the gather, the scatter and the reductions are never opened: both sides apply them to equal arguments
attribute [local irreducible] Host.scatterAdd Host.reduce Host.gather Host.reduceAdd concatenate extractStridedSlice broadcastInDim iotaInDim in
set_option maxHeartbeats 16000000 in
set_option maxRecDepth 100000 in
/-- The five buffers the layer's perceptron is computed from. -/
theorem readsIn (V' : Valuation τ sig (Elt Ideal)) :
    after rseg3 V' (Proc.devRef .tc main_v216) = Cert.KernelIdeal.Layer3.f_dense (V' (Proc.devRef .tc main_v2)) (V' (Proc.devRef .tc main_v60)) (V' (Proc.devRef .tc main_v129)) (V' (Proc.devRef .tc main_v165))
    ∧ after rseg3 V' (Proc.devRef .tc main_v191) = Cert.KernelIdeal.Layer3.f_w1 (V' (Proc.devRef .tc main_arg2))
    ∧ after rseg3 V' (Proc.devRef .tc main_v193) = Cert.KernelIdeal.Layer3.f_b1 (V' (Proc.devRef .tc main_arg3))
    ∧ after rseg3 V' (Proc.devRef .tc main_v195) = Cert.KernelIdeal.Layer3.f_w2 (V' (Proc.devRef .tc main_arg4))
    ∧ after rseg3 V' (Proc.devRef .tc main_v197) = Cert.KernelIdeal.Layer3.f_b2 (V' (Proc.devRef .tc main_arg5)) := by
  simp only [after_append_line, rseg3, rseg3_a, rseg3_b, rseg3_c, rseg3_d]
  after_results_simp
  -- contents stored through a typed reference and read back through it are unchanged
  try simp only [Cert.LibTRef.ofBuf_toBuf]
  refine ⟨?_, ?_, ?_, ?_, ?_⟩ <;> first | rfl | trivial

end Cert.ReferenceIdeal.LayerR3

end
-- ==== Proof.LayerR3b.lean ====
/- The reference's operations of the same stage (kernel region 2 and kernel region 3 on the kernel side), read as the SAME functions
  as the kernel program's: the other buffers the next stage needs; a buffer the segment does not write keeps its contents.
-/
import proofs.«140670_j11424613007642_1_alg».proof.Proof.RefRun
import proofs.«140670_j11424613007642_1_alg».proof.Proof.LayerK3
import proofs.«140670_j11424613007642_1_alg».proof.Proof.LibTRef
import Idealize.ShloMosaic.PureOps.Ideal

set_option maxRecDepth 16384

noncomputable section

namespace Cert.ReferenceIdeal.LayerR3

open Cert.ReferenceIdeal Cert.ReferenceIdeal.Gen Cert.ReferenceIdeal.RefRun Idealize.ShloMosaic Idealize.ShloMosaic.StableHlo Idealize.ShloMosaic.TcCoe

-- the gather, the scatter and the reductions are never opened: both sides apply them to equal arguments
attribute [local irreducible] Host.scatterAdd Host.reduce Host.gather Host.reduceAdd concatenate extractStridedSlice broadcastInDim iotaInDim in
set_option maxHeartbeats 16000000 in
set_option maxRecDepth 100000 in
/-- The other buffers the next stage needs. -/
theorem reads (V' : Valuation τ sig (Elt Ideal)) :
    after rseg3 V' (Proc.devRef .tc main_v189) = Cert.KernelIdeal.Layer3.f_oidx (V' (Proc.devRef .tc main_v3))
    ∧ after rseg3 V' (Proc.devRef .tc main_v180) = Cert.KernelIdeal.Layer3.f_xnew (V' (Proc.devRef .tc main_v60)) (V' (Proc.devRef .tc main_v129)) (V' (Proc.devRef .tc main_v165))
    ∧ after rseg3 V' (Proc.devRef .tc main_v183) = Cert.KernelIdeal.Layer3.f_qnew (V' (Proc.devRef .tc main_v123)) (V' (Proc.devRef .tc main_v129)) (V' (Proc.devRef .tc main_v165))
    ∧ after rseg3 V' (Proc.devRef .tc main_v120) = V' (Proc.devRef .tc main_v120)
    ∧ after rseg3 V' (Proc.devRef .tc main_v2) = V' (Proc.devRef .tc main_v2)
    ∧ after rseg3 V' (Proc.devRef .tc main_v3) = V' (Proc.devRef .tc main_v3)
    ∧ after rseg3 V' (Proc.devRef .tc main_arg2) = V' (Proc.devRef .tc main_arg2)
    ∧ after rseg3 V' (Proc.devRef .tc main_arg3) = V' (Proc.devRef .tc main_arg3)
    ∧ after rseg3 V' (Proc.devRef .tc main_arg4) = V' (Proc.devRef .tc main_arg4)
    ∧ after rseg3 V' (Proc.devRef .tc main_arg5) = V' (Proc.devRef .tc main_arg5) := by
  simp only [after_append_line, rseg3, rseg3_a, rseg3_b, rseg3_c, rseg3_d]
  after_results_simp
  -- contents stored through a typed reference and read back through it are unchanged
  try simp only [Cert.LibTRef.ofBuf_toBuf]
  refine ⟨?_, ?_, ?_, ?_, ?_, ?_, ?_, ?_, ?_, ?_⟩ <;> first | rfl | trivial

end Cert.ReferenceIdeal.LayerR3

end
-- ==== Proof.LayerR3c.lean ====
/- The reference's operations of the same stage (kernel region 2 and kernel region 3 on the kernel side), read as the SAME functions
  as the kernel program's: the layer's perceptron output is the host perceptron of the five buffers it is computed from.
-/
import proofs.«140670_j11424613007642_1_alg».proof.Proof.RefRun
import proofs.«140670_j11424613007642_1_alg».proof.Proof.MlpHost
import Idealize.ShloMosaic.PureOps.Ideal

set_option maxRecDepth 16384

noncomputable section

namespace Cert.ReferenceIdeal.LayerR3

open Cert.ReferenceIdeal Cert.ReferenceIdeal.Gen Cert.ReferenceIdeal.RefRun Idealize.ShloMosaic Idealize.ShloMosaic.StableHlo Idealize.ShloMosaic.TcCoe

-- the gather, the scatter and the reductions are never opened: both sides apply them to equal arguments
attribute [local irreducible] Host.scatterAdd Host.reduce Host.gather Host.reduceAdd concatenate extractStridedSlice broadcastInDim iotaInDim in
set_option maxHeartbeats 16000000 in
set_option maxRecDepth 100000 in
/-- The layer's perceptron output is the host perceptron of those five buffers. -/
theorem readsOut (V' : Valuation τ sig (Elt Ideal)) :
    after rseg3 V' (Proc.devRef .tc main_v225) = Cert.ReferenceIdeal.MlpHost.hostMlp (after rseg3 V' (Proc.devRef .tc main_v216)) (after rseg3 V' (Proc.devRef .tc main_v191)) (after rseg3 V' (Proc.devRef .tc main_v193)) (after rseg3 V' (Proc.devRef .tc main_v195)) (after rseg3 V' (Proc.devRef .tc main_v197)) := by
  simp only [after_append_line, rseg3, rseg3_a, rseg3_b, rseg3_c, rseg3_d]
  after_results_simp
  first | rfl | trivial

end Cert.ReferenceIdeal.LayerR3

end
-- ==== Proof.LayerR3.lean ====
/- The reference's side of this stage, collected: the three statements live in one module each.
-/
import proofs.«140670_j11424613007642_1_alg».proof.Proof.LayerR3a
import proofs.«140670_j11424613007642_1_alg».proof.Proof.LayerR3b
import proofs.«140670_j11424613007642_1_alg».proof.Proof.LayerR3c
-- ==== Proof.Step3.lean ====
/-
  Layer 3. If after layer 2's perceptron output the two programs hold the same eleven values, they do so again after
  layer 3's. On the kernel side the host operations up to region 3 read as functions of those values, the region leaves
  the layer function of its five operand arrays, and nothing else the next layer needs is touched; on the reference side
  the same operations read as the same functions, and its host perceptron is the layer function.
-/
import proofs.«140670_j11424613007642_1_alg».proof.Proof.KernelIdealFrameP
import proofs.«140670_j11424613007642_1_alg».proof.Proof.BridgeDefs
import proofs.«140670_j11424613007642_1_alg».proof.Proof.Congr
import proofs.«140670_j11424613007642_1_alg».proof.Proof.MlpBridge
import proofs.«140670_j11424613007642_1_alg».proof.Proof.Region3
import proofs.«140670_j11424613007642_1_alg».proof.Proof.LayerK3
import proofs.«140670_j11424613007642_1_alg».proof.Proof.LayerR3

set_option maxRecDepth 16384

noncomputable section

namespace Cert.Bridge

open Cert.KernelIdeal Cert.KernelIdeal.Gen Cert.KernelIdeal.GenP Cert.KernelIdeal.MlpArray
open Idealize.ShloMosaic Idealize.ShloMosaic.StableHlo Idealize.ShloMosaic.TcCoe Idealize.SL.Sem

set_option maxHeartbeats 4000000 in
theorem step3 (m : (ℓ : Loc nD τ sig) → Buf (Elt Ideal) ℓ) (ρ : Dev nD → PrngReg) (c : Dev nD) (V' : RV)
    (h : Inv2 (W16 m ρ c) V') :
    Inv3 (W22 m ρ c) (after Cert.ReferenceIdeal.RefRun.rseg3 V') := by
  obtain ⟨out, oidx, a, b, q, ia, ib, w1s, b1s, w2s, b2s, ⟨kout, rout⟩, ⟨koidx, roidx⟩, ⟨ka, ra⟩, ⟨kb, rb⟩, ⟨kq, rq⟩, ⟨kia, ria⟩, ⟨kib, rib⟩,
    ⟨kw1s, rw1s⟩, ⟨kb1s, rb1s⟩, ⟨kw2s, rw2s⟩, ⟨kb2s, rb2s⟩⟩ := h
  obtain ⟨Kdense, Kw1, Kb1, Kb1r, Kw2, Kb2, Kb2r, Koidx, Kxnew, Kqnew, Kkeepb, Kia, Kib, Kw1s, Kb1s, Kw2s, Kb2s⟩ :=
    Cert.KernelIdeal.Layer3.reads (F := Ideal) (W16 m ρ c)
  obtain ⟨Rdense, Rw1, Rb1, Rw2, Rb2⟩ := Cert.ReferenceIdeal.LayerR3.readsIn V'
  obtain ⟨Roidx, Rxnew, Rqnew, Rkeepb, Ria, Rib, Rw1s, Rb1s, Rw2s, Rb2s⟩ := Cert.ReferenceIdeal.LayerR3.reads V'
  have Rout := Cert.ReferenceIdeal.LayerR3.readsOut V'
  -- the kernel program's reads, at the eleven values
  have Kdense' := Kdense.trans (show _ = Cert.KernelIdeal.Layer3.f_dense ia a oidx out by simp only [kia, ka, koidx, kout])
  have Kw1' := Kw1.trans (show _ = Cert.KernelIdeal.Layer3.f_w1 w1s by simp only [kw1s])
  have Kb1r' := Kb1r.trans (show _ = Cert.KernelIdeal.Layer3.f_b1r b1s by simp only [kb1s])
  have Kw2' := Kw2.trans (show _ = Cert.KernelIdeal.Layer3.f_w2 w2s by simp only [kw2s])
  have Kb2r' := Kb2r.trans (show _ = Cert.KernelIdeal.Layer3.f_b2r b2s by simp only [kb2s])
  have Koidx' := Koidx.trans (show _ = Cert.KernelIdeal.Layer3.f_oidx ib by simp only [kib])
  have Kxnew' := Kxnew.trans (show _ = Cert.KernelIdeal.Layer3.f_xnew a oidx out by simp only [ka, koidx, kout])
  have Kqnew' := Kqnew.trans (show _ = Cert.KernelIdeal.Layer3.f_qnew q oidx out by simp only [kq, koidx, kout])
  -- the reference's reads, at the same values
  have Rdense' := Rdense.trans (show _ = Cert.KernelIdeal.Layer3.f_dense ia a oidx out by simp only [ria, ra, roidx, rout])
  have Rw1' := Rw1.trans (show _ = Cert.KernelIdeal.Layer3.f_w1 w1s by simp only [rw1s])
  have Rb1' := Rb1.trans (show _ = Cert.KernelIdeal.Layer3.f_b1 b1s by simp only [rb1s])
  have Rw2' := Rw2.trans (show _ = Cert.KernelIdeal.Layer3.f_w2 w2s by simp only [rw2s])
  have Rb2' := Rb2.trans (show _ = Cert.KernelIdeal.Layer3.f_b2 b2s by simp only [rb2s])
  have Roidx' := Roidx.trans (show _ = Cert.KernelIdeal.Layer3.f_oidx ib by simp only [rib])
  have Rxnew' := Rxnew.trans (show _ = Cert.KernelIdeal.Layer3.f_xnew a oidx out by simp only [ra, roidx, rout])
  have Rqnew' := Rqnew.trans (show _ = Cert.KernelIdeal.Layer3.f_qnew q oidx out by simp only [rq, roidx, rout])
  refine ⟨G (Cert.KernelIdeal.Layer3.f_dense ia a oidx out) (Cert.KernelIdeal.Layer3.f_w1 w1s) (Cert.KernelIdeal.Layer3.f_b1r b1s)
      (Cert.KernelIdeal.Layer3.f_w2 w2s) (Cert.KernelIdeal.Layer3.f_b2r b2s),
    Cert.KernelIdeal.Layer3.f_oidx ib, b, Cert.KernelIdeal.Layer3.f_xnew a oidx out, Cert.KernelIdeal.Layer3.f_qnew q oidx out,
    ia, ib, w1s, b1s, w2s, b2s, ⟨?_, ?_⟩,
    ⟨(W22_of_ne m ρ c Cert.KernelIdeal.main_v171 (by decide)).trans Koidx', Roidx'⟩,
    ⟨(W22_of_ne m ρ c Cert.KernelIdeal.main_v108 (by decide)).trans (Kkeepb.trans kb), Rkeepb.trans rb⟩,
    ⟨(W22_of_ne m ρ c Cert.KernelIdeal.main_v162 (by decide)).trans Kxnew', Rxnew'⟩,
    ⟨(W22_of_ne m ρ c Cert.KernelIdeal.main_v165 (by decide)).trans Kqnew', Rqnew'⟩,
    ⟨(W22_of_ne m ρ c Cert.KernelIdeal.main_v2 (by decide)).trans (Kia.trans kia), Ria.trans ria⟩, ⟨(W22_of_ne m ρ c Cert.KernelIdeal.main_v3 (by decide)).trans (Kib.trans kib), Rib.trans rib⟩,
    ⟨(W22_of_ne m ρ c Cert.KernelIdeal.main_arg2 (by decide)).trans (Kw1s.trans kw1s), Rw1s.trans rw1s⟩, ⟨(W22_of_ne m ρ c Cert.KernelIdeal.main_arg3 (by decide)).trans (Kb1s.trans kb1s), Rb1s.trans rb1s⟩, ⟨(W22_of_ne m ρ c Cert.KernelIdeal.main_arg4 (by decide)).trans (Kw2s.trans kw2s), Rw2s.trans rw2s⟩, ⟨(W22_of_ne m ρ c Cert.KernelIdeal.main_arg5 (by decide)).trans (Kb2s.trans kb2s), Rb2s.trans rb2s⟩⟩
  · -- the region's output array is the layer function of its operand arrays as it finds them
    exact (W22_arr m ρ c 5).trans ((Cert.KernelIdeal.Region3.regionOut (V21 m ρ) c).trans (G_congr Kdense' Kw1' Kb1r' Kw2' Kb2r'))
  · -- the reference's host perceptron of the same five arrays is the same function
    exact Rout.trans ((hostMlp_congr Rdense' Rw1' Rb1' Rw2' Rb2').trans (Cert.MlpBridge.host_eq_G _ _ _ _ _))

end Cert.Bridge

end
-- ==== Proof.Region4.lean ====
/-
  python3 scratch/gen_regions.py 4

  Kernel region 4 (one layer's perceptron): whatever the TensorCore's buffers hold when the region is entered,
  the region leaves its output array holding the layer function of its five operand arrays. The grid has eight
  points; point t is given rows 512·t … 512·t+511 of the input and all of both weight matrices and biases, and
  writes rows 512·t … 512·t+511 of the output. Entry (r, j) of the output depends on row r of the input alone, so
  each written block is the restriction of ONE whole-array function, and the eight blocks tile the output.
-/
import proofs.«140670_j11424613007642_1_alg».proof.Proof.KernelIdealFrameP
import proofs.«140670_j11424613007642_1_alg».proof.Proof.MlpKernel
import proofs.«140670_j11424613007642_1_alg».proof.Proof.MlpArray
import Idealize.ShloMosaic.Lib.Pipeline.Value
import Idealize.ShloMosaic.Lib.ValueIdx

set_option maxRecDepth 16384

noncomputable section

namespace Cert.KernelIdeal.Region4

open Cert.KernelIdeal Cert.KernelIdeal.Gen Cert.KernelIdeal.GenP Cert.KernelIdeal.MlpArray
open Idealize.ShloMosaic Idealize.ShloMosaic.TcCoe Idealize.ShloMosaic.ValueIdx Idealize.SL.Sem
open Idealize.ShloMosaic.Pipeline (Dat Cfg Window)

/-- The body reads and writes its staging buffers whole: at offsets zero. -/
theorem zero_offsets : (![0, 0] : Fin 2 → Nat) = fun _ => 0 := funext fun a => by fin_cases a <;> rfl

/-- The printed index maps over the grid: the input's and the output's row block is the grid point, every other
    block index is zero. -/
theorem block_indices : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- The row function depends on its five arguments through their values alone. -/
theorem mlpRow_congr {d d' : Fin 2000 → EReal} {w1 w1' : Fin 2000 → Fin 64 → EReal} {b1 b1' : Fin 64 → EReal}
    {w2 w2' : Fin 64 → Fin 4000 → EReal} {b2 b2' : Fin 4000 → EReal}
    (hd : ∀ l, d l = d' l) (hw1 : ∀ l k, w1 l k = w1' l k) (hb1 : ∀ k, b1 k = b1' k)
    (hw2 : ∀ k j, w2 k j = w2' k j) (hb2 : ∀ j, b2 j = b2' j) (j : Fin 4000) :
    Cert.MlpSpec.mlpRow d w1 b1 w2 b2 j = Cert.MlpSpec.mlpRow d' w1' b1' w2' b2' j := by
  have e1 : d = d' := funext hd
  have e2 : w1 = w1' := funext fun l => funext (hw1 l)
  have e3 : b1 = b1' := funext hb1
  have e4 : w2 = w2' := funext fun k => funext (hw2 k)
  have e5 : b2 = b2' := funext hb2
  rw [e1, e2, e3, e4, e5]

/-- The payload of the operand arrays' blocks at point `t` is block `t` of the layer function of the arrays:
    entry `(p, q)` of the block is entry `(512·t + p, q)` of the array; the input's block holds rows
    `512·t + p`, and the weights' and biases' blocks are the whole arrays. -/
theorem payload_block (A0 : S4096x2000.Idx → EReal) (A1 : S2000x64.Idx → EReal) (A2 : S1x64.Idx → EReal)
    (A3 : S64x4000.Idx → EReal) (A4 : S1x4000.Idx → EReal) (t : Fin cfg4.N) :
    k4_pay1 (F := Ideal) (((cfg4.win 0).blk t).view.read (Elt Ideal) A0) (((cfg4.win 1).blk t).view.read (Elt Ideal) A1)
        (((cfg4.win 2).blk t).view.read (Elt Ideal) A2) (((cfg4.win 3).blk t).view.read (Elt Ideal) A3)
        (((cfg4.win 4).blk t).view.read (Elt Ideal) A4)
      = ((cfg4.win 5).blk t).view.read (Elt Ideal) (G A0 A1 A2 A3 A4) := by
  obtain ⟨e00, e01, e10, e11, e20, e21, e30, e31, e40, e41, e50, e51⟩ := block_indices t
  have hN : cfg4.N = 8 := rfl
  have ht : t.val < 8 := hN ▸ t.isLt
  rw [Cert.KernelIdeal.MlpKernel.pay4_eq]
  funext j
  obtain ⟨p, q, rfl⟩ : ∃ (p : Fin 512) (q : Fin 4000), j = ix2 p q := ⟨j 0, j 1, eq_ix2 j⟩
  refine (Cert.KernelIdeal.MlpKernel.pay_apply (((cfg4.win 0).blk t).view.read (Elt Ideal) A0)
    (((cfg4.win 1).blk t).view.read (Elt Ideal) A1) (((cfg4.win 2).blk t).view.read (Elt Ideal) A2)
    (((cfg4.win 3).blk t).view.read (Elt Ideal) A3) (((cfg4.win 4).blk t).view.read (Elt Ideal) A4) p q).trans ?_
  have h5 : ((cfg4.win 5).blk t).view.emb (ix2 p q)
      = ix2 (⟨t.val * 512 + p.val, by have := p.isLt; omega⟩ : Fin 4096) q := by
    funext a; apply Fin.ext
    match a with
    | ⟨0, _⟩ => show win4_5.index t (0 : Fin 2) * 512 + 1 * p.val = t.val * 512 + p.val; omega
    | ⟨1, _⟩ => show win4_5.index t (1 : Fin 2) * 4000 + 1 * q.val = q.val; omega
  show _ = G A0 A1 A2 A3 A4 (((cfg4.win 5).blk t).view.emb (ix2 p q))
  rw [h5, G_apply]
  refine mlpRow_congr (fun l => ?_) (fun l k => ?_) (fun k => ?_) (fun k j' => ?_) (fun j' => ?_) q
  · show A0 (((cfg4.win 0).blk t).view.emb (ix2 p l)) = A0 (ix2 (⟨t.val * 512 + p.val, by have := p.isLt; omega⟩ : Fin 4096) l)
    refine congrArg A0 ?_
    funext a; apply Fin.ext
    match a with
    | ⟨0, _⟩ => show win4_0.index t (0 : Fin 2) * 512 + 1 * p.val = t.val * 512 + p.val; omega
    | ⟨1, _⟩ => show win4_0.index t (1 : Fin 2) * 2000 + 1 * l.val = l.val; omega
  · show A1 (((cfg4.win 1).blk t).view.emb (ix2 l k)) = A1 (ix2 l k)
    refine congrArg A1 ?_
    funext a; apply Fin.ext
    match a with
    | ⟨0, _⟩ => show win4_1.index t (0 : Fin 2) * 2000 + 1 * l.val = l.val; omega
    | ⟨1, _⟩ => show win4_1.index t (1 : Fin 2) * 64 + 1 * k.val = k.val; omega
  · show A2 (((cfg4.win 2).blk t).view.emb (ix2 (0 : Fin 1) k)) = A2 (ix2 (0 : Fin 1) k)
    refine congrArg A2 ?_
    funext a; apply Fin.ext
    match a with
    | ⟨0, _⟩ => show win4_2.index t (0 : Fin 2) * 1 + 1 * 0 = 0; omega
    | ⟨1, _⟩ => show win4_2.index t (1 : Fin 2) * 64 + 1 * k.val = k.val; omega
  · show A3 (((cfg4.win 3).blk t).view.emb (ix2 k j')) = A3 (ix2 k j')
    refine congrArg A3 ?_
    funext a; apply Fin.ext
    match a with
    | ⟨0, _⟩ => show win4_3.index t (0 : Fin 2) * 64 + 1 * k.val = k.val; omega
    | ⟨1, _⟩ => show win4_3.index t (1 : Fin 2) * 4000 + 1 * j'.val = j'.val; omega
  · show A4 (((cfg4.win 4).blk t).view.emb (ix2 (0 : Fin 1) j')) = A4 (ix2 (0 : Fin 1) j')
    refine congrArg A4 ?_
    funext a; apply Fin.ext
    match a with
    | ⟨0, _⟩ => show win4_4.index t (0 : Fin 2) * 1 + 1 * 0 = 0; omega
    | ⟨1, _⟩ => show win4_4.index t (1 : Fin 2) * 4000 + 1 * j'.val = j'.val; omega

variable (V : (c : Dev nD) → (b : Ref sig .tc) → Buf (Elt Ideal) ((c : Thread nD τ).loc b))

/-- What point `t` writes back is block `t` of the layer function of the operand arrays as the region finds them. -/
theorem written_block (c : Dev nD) (t : Fin cfg4.N) :
    (dat4 V c).flushed 5 t = ((cfg4.win 5).blk t).view.read (Elt Ideal)
      (G (V c (Pipeline.arrRef spec4 0)) (V c (Pipeline.arrRef spec4 1)) (V c (Pipeline.arrRef spec4 2))
        (V c (Pipeline.arrRef spec4 3)) (V c (Pipeline.arrRef spec4 4))) := by
  show (cfg4.win 5).cut (grid4.coords t) ((dat4 V c).after 5 t) = _
  rw [after4_5]
  unfold out4_5
  rw [View.canon_unit_zero zero_offsets]
  simp only [View.ld_unit_zero (S := S512x2000) zero_offsets, View.ld_unit_zero (S := S2000x64) zero_offsets,
    View.ld_unit_zero (S := S1x64) zero_offsets, View.ld_unit_zero (S := S64x4000) zero_offsets,
    View.ld_unit_zero (S := S1x4000) zero_offsets]
  exact payload_block (V c (Pipeline.arrRef spec4 0)) (V c (Pipeline.arrRef spec4 1)) (V c (Pipeline.arrRef spec4 2))
    (V c (Pipeline.arrRef spec4 3)) (V c (Pipeline.arrRef spec4 4)) t

/-- An index of the output array is in point `t`'s block iff each coordinate is in the block's range on its axis. -/
theorem mem_block (t : Fin cfg4.N) (i : S4096x4000.Idx) :
    i ∈ ((cfg4.win 5).blk t).view.set ↔ ∀ a : Fin 2, win4_5.index t a * S512x4000.size a ≤ (i a).val
      ∧ (i a).val < win4_5.index t a * S512x4000.size a + S512x4000.size a := by
  show i ∈ ((View.whole main_v255).slice (win4_5.rect t)).set ↔ _
  rw [View.set_slice_whole, Rect.mem_set_unit]
  exact Iff.rfl

/-- Every entry of the output array is in some point's block: row `r` is written by point `r / 512`. -/
theorem cover (i : S4096x4000.Idx) :
    ∃ t : Fin cfg4.N, (cfg4.win 5).flush t = true ∧ i ∈ ((cfg4.win 5).blk t).view.set := by
  have hi0 : (i 0).val < 4096 := (i 0).isLt
  have hi1 : (i 1).val < 4000 := (i 1).isLt
  obtain ⟨t, htv⟩ : ∃ t : Fin cfg4.N, t.val = (i 0).val / 512 :=
    ⟨⟨(i 0).val / 512, by show (i 0).val / 512 < 8; omega⟩, rfl⟩
  obtain ⟨-, -, -, -, -, -, -, -, -, -, e50, e51⟩ := block_indices t
  refine ⟨t, flush4_5 t, ?_⟩
  rw [mem_block]
  intro a
  match a with
  | ⟨0, _⟩ =>
    show win4_5.index t (0 : Fin 2) * 512 ≤ (i 0).val ∧ (i 0).val < win4_5.index t (0 : Fin 2) * 512 + 512
    omega
  | ⟨1, _⟩ =>
    show win4_5.index t (1 : Fin 2) * 4000 ≤ (i 1).val ∧ (i 1).val < win4_5.index t (1 : Fin 2) * 4000 + 4000
    omega

/-- The region's output array after its eight write-backs: the layer function of the five operand arrays as the
    region finds them. -/
theorem regionOut (c : Dev nD) :
    (dat4 V c).arrAt 5 cfg4.N = Cert.KernelIdeal.MlpArray.G (V c (Pipeline.arrRef spec4 0))
      (V c (Pipeline.arrRef spec4 1)) (V c (Pipeline.arrRef spec4 2)) (V c (Pipeline.arrRef spec4 3))
      (V c (Pipeline.arrRef spec4 4)) :=
  (dat4 V c).arrAt_eq_of_cover 5
    (G (V c (Pipeline.arrRef spec4 0)) (V c (Pipeline.arrRef spec4 1)) (V c (Pipeline.arrRef spec4 2))
      (V c (Pipeline.arrRef spec4 3)) (V c (Pipeline.arrRef spec4 4)))
    (fun t _ => written_block V c t) cover

end Cert.KernelIdeal.Region4

end
-- ==== Proof.LayerK4.lean ====
/- The host operations the kernel program runs between kernel region 3 and kernel region 4, read as functions. Each buffer the
  next stage needs is written out as the composition of the operations that produce it from the buffers the stretch
  reads; a buffer the stretch does not write keeps its contents; and the fold of the stretch's operations at each of
  these buffers is that function of the contents the stretch starts from.
-/
import proofs.«140670_j11424613007642_1_alg».proof.Proof.Gen.KernelIdeal.Launch
import Idealize.ShloMosaic.Lib.StableHlo.Run

set_option maxRecDepth 16384

noncomputable section

namespace Cert.KernelIdeal.Layer4

open Cert.KernelIdeal Cert.KernelIdeal.Gen Idealize.ShloMosaic Idealize.ShloMosaic.StableHlo Idealize.ShloMosaic.TcCoe

variable {F : FTy → Type} [FloatOps F]

/-- Buffer main_v252 as a function of the buffers the stretch reads: its 64 operations, in program order. -/
def f_dense (x_main_v3 : (⟨S4096x61, .i32⟩ : BufTy).Contents (Elt F)) (x_main_v108 : (⟨S4096x61, .f32⟩ : BufTy).Contents (Elt F)) (x_main_v171 : (⟨S4096x122, .i32⟩ : BufTy).Contents (Elt F)) (x_main_v201 : (⟨S4096x4000, .f32⟩ : BufTy).Contents (Elt F)) :
    (⟨S4096x2000, .f32⟩ : BufTy).Contents (Elt F) :=
  have x_main_cst_45 : (⟨S_, .f32⟩ : BufTy).Contents (Elt F) := (constant S_ .f32 0x00000000#32)
  have x_main_v202 : (⟨S4096x1, .f32⟩ : BufTy).Contents (Elt F) := ((broadcastInDim S4096x1 ![] bcast_S_S4096x1 : (⟨S_, .f32⟩ : BufTy).Contents (Elt F) → (⟨S4096x1, .f32⟩ : BufTy).Contents (Elt F))) x_main_cst_45
  have x_main_v203 : (⟨S4096x4001, .f32⟩ : BufTy).Contents (Elt F) := (((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F))) x_main_v201 x_main_v202
  have x_main_call7_c : (⟨S_, .i32⟩ : BufTy).Contents (Elt F) := (constantI S_ 32 0#32)
  have x_main_call7_v0 : (⟨S4096x122, .i32⟩ : BufTy).Contents (Elt F) := ((broadcastInDim S4096x122 ![] bcast_S_S4096x122)) x_main_call7_c
  have x_main_call7_v1 : (⟨S4096x122, .i1⟩ : BufTy).Contents (Elt F) := ((cmpi .slt)) x_main_v171 x_main_call7_v0
  have x_main_call7_c_0 : (⟨S_, .i32⟩ : BufTy).Contents (Elt F) := (constantI S_ 32 4001#32)
  have x_main_call7_v2 : (⟨S4096x122, .i32⟩ : BufTy).Contents (Elt F) := ((broadcastInDim S4096x122 ![] bcast_S_S4096x122)) x_main_call7_c_0
  have x_main_call7_v3 : (⟨S4096x122, .i32⟩ : BufTy).Contents (Elt F) := (addi) x_main_v171 x_main_call7_v2
  have x_main_call7_v4 : (⟨S4096x122, .i32⟩ : BufTy).Contents (Elt F) := (select) x_main_call7_v1 x_main_call7_v3 x_main_v171
  have x_main_call7_v5 : (⟨S4096x122x1, .i32⟩ : BufTy).Contents (Elt F) := shapeCast S4096x122x1 x_main_call7_v4 shapeCasts_S4096x122_S4096x122x1
  have x_main_call7_c_1 : (⟨S1, .i32⟩ : BufTy).Contents (Elt F) := (constantI S1 32 4000#32)
  have x_main_call7_c_2 : (⟨S_, .i32⟩ : BufTy).Contents (Elt F) := (constantI S_ 32 0#32)
  have x_main_call7_v6 : (⟨S4096x122x1, .i32⟩ : BufTy).Contents (Elt F) := ((broadcastInDim S4096x122x1 ![] bcast_S_S4096x122x1)) x_main_call7_c_2
  have x_main_call7_v7 : (⟨S4096x122x1, .i1⟩ : BufTy).Contents (Elt F) := ((cmpi .sge)) x_main_call7_v5 x_main_call7_v6
  have x_main_call7_v8 : (⟨S1x1x1, .i32⟩ : BufTy).Contents (Elt F) := ((broadcastInDim S1x1x1 ![2] bcast_S1_S1x1x1_2)) x_main_call7_c_1
  have x_main_call7_v9 : (⟨S4096x122x1, .i32⟩ : BufTy).Contents (Elt F) := ((broadcastInDim S4096x122x1 ![0, 1, 2] bcast_S1x1x1_S4096x122x1_0_1_2)) x_main_call7_v8
  have x_main_call7_v10 : (⟨S4096x122x1, .i1⟩ : BufTy).Contents (Elt F) := ((cmpi .sle)) x_main_call7_v5 x_main_call7_v9
  have x_main_call7_v11 : (⟨S4096x122x1, .i1⟩ : BufTy).Contents (Elt F) := (andi) x_main_call7_v7 x_main_call7_v10
  have x_main_call7_c_3 : (⟨S_, .i1⟩ : BufTy).Contents (Elt F) := (constantI S_ 1 1#1)
  have x_main_call7_v12 : (⟨S4096x122, .i1⟩ : BufTy).Contents (Elt F) := ((fun x v => Host.reduce IntOp.andi x v reducesTo_S4096x122x1_S4096x122_d2 h_S_)) x_main_call7_v11 x_main_call7_c_3
  have x_main_call7_v13 : (⟨S4096x122, .f32⟩ : BufTy).Contents (Elt F) := ((fun x i => Host.gather gather_S4096x4001_S4096x122x1_S4096x122_n_1_0_0_1_2_11 x i)) x_main_v203 x_main_call7_v5
  have x_main_call7_cst : (⟨S_, .f32⟩ : BufTy).Contents (Elt F) := (constant S_ .f32 0x7FC00000#32)
  have x_main_call7_v14 : (⟨S4096x122, .f32⟩ : BufTy).Contents (Elt F) := ((broadcastInDim S4096x122 ![] bcast_S_S4096x122)) x_main_call7_cst
  have x_main_v204 : (⟨S4096x122, .f32⟩ : BufTy).Contents (Elt F) := (select) x_main_call7_v12 x_main_call7_v13 x_main_call7_v14
  have x_main_v205 : (⟨S4096x61, .f32⟩ : BufTy).Contents (Elt F) := (((extractStridedSlice S4096x61 ![0, 0] · slices_S4096x122_S4096x61_0_0) : (⟨S4096x122, .f32⟩ : BufTy).Contents (Elt F) → (⟨S4096x61, .f32⟩ : BufTy).Contents (Elt F))) x_main_v204
  have x_main_v206 : (⟨S4096x61, .f32⟩ : BufTy).Contents (Elt F) := (((extractStridedSlice S4096x61 ![0, 61] · slices_S4096x122_S4096x61_0_61) : (⟨S4096x122, .f32⟩ : BufTy).Contents (Elt F) → (⟨S4096x61, .f32⟩ : BufTy).Contents (Elt F))) x_main_v204
  have x_main_cst_46 : (⟨S_, .f32⟩ : BufTy).Contents (Elt F) := (constant S_ .f32 0x40000000#32)
  have x_main_v207 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_46
  have x_main_v208 : (⟨S4096x61, .f32⟩ : BufTy).Contents (Elt F) := ((addf : (⟨S4096x61, .f32⟩ : BufTy).Contents (Elt F) → (⟨S4096x61, .f32⟩ : BufTy).Contents (Elt F) → (⟨S4096x61, .f32⟩ : BufTy).Contents (Elt F))) x_main_v205 x_main_v207
  have x_main_v209 : (⟨S4096x61, .f32⟩ : BufTy).Contents (Elt F) := ((Host.negf : (⟨S4096x61, .f32⟩ : BufTy).Contents (Elt F) → (⟨S4096x61, .f32⟩ : BufTy).Contents (Elt F))) x_main_v208
  have x_main_v210 : (⟨S4096x61, .f32⟩ : BufTy).Contents (Elt F) := ((Host.exp : (⟨S4096x61, .f32⟩ : BufTy).Contents (Elt F) → (⟨S4096x61, .f32⟩ : BufTy).Contents (Elt F))) x_main_v209
  have x_main_cst_47 : (⟨S_, .f32⟩ : BufTy).Contents (Elt F) := (constant S_ .f32 0x3F800000#32)
  have x_main_v211 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_47
  have x_main_v212 : (⟨S4096x61, .f32⟩ : BufTy).Contents (Elt F) := ((addf : (⟨S4096x61, .f32⟩ : BufTy).Contents (Elt F) → (⟨S4096x61, .f32⟩ : BufTy).Contents (Elt F) → (⟨S4096x61, .f32⟩ : BufTy).Contents (Elt F))) x_main_v211 x_main_v210
  have x_main_cst_48 : (⟨S_, .f32⟩ : BufTy).Contents (Elt F) := (constant S_ .f32 0x3F800000#32)
  have x_main_v213 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_48
  have x_main_v214 : (⟨S4096x61, .f32⟩ : BufTy).Contents (Elt F) := ((Host.divf : (⟨S4096x61, .f32⟩ : BufTy).Contents (Elt F) → (⟨S4096x61, .f32⟩ : BufTy).Contents (Elt F) → (⟨S4096x61, .f32⟩ : BufTy).Contents (Elt F))) x_main_v213 x_main_v212
  have x_main_v215 : (⟨S4096x61, .f32⟩ : BufTy).Contents (Elt F) := ((mulf : (⟨S4096x61, .f32⟩ : BufTy).Contents (Elt F) → (⟨S4096x61, .f32⟩ : BufTy).Contents (Elt F) → (⟨S4096x61, .f32⟩ : BufTy).Contents (Elt F))) x_main_v214 x_main_v108
  have x_main_v216 : (⟨S4096x61, .f32⟩ : BufTy).Contents (Elt F) := ((addf : (⟨S4096x61, .f32⟩ : BufTy).Contents (Elt F) → (⟨S4096x61, .f32⟩ : BufTy).Contents (Elt F) → (⟨S4096x61, .f32⟩ : BufTy).Contents (Elt F))) x_main_v215 x_main_v206
  have x_main_v234 : (⟨S4096, .i32⟩ : BufTy).Contents (Elt F) := (iotaInDim S4096 32 0)
  have x_main_v235 : (⟨S4096x1, .i32⟩ : BufTy).Contents (Elt F) := ((broadcastInDim S4096x1 ![0] bcast_S4096_S4096x1_0 : (⟨S4096, .i32⟩ : BufTy).Contents (Elt F) → (⟨S4096x1, .i32⟩ : BufTy).Contents (Elt F))) x_main_v234
  have x_main_cst_53 : (⟨S_, .f32⟩ : BufTy).Contents (Elt F) := (constant S_ .f32 0x00000000#32)
  have x_main_v236 : (⟨S4096x2001, .f32⟩ : BufTy).Contents (Elt F) := ((broadcastInDim S4096x2001 ![] bcast_S_S4096x2001 : (⟨S_, .f32⟩ : BufTy).Contents (Elt F) → (⟨S4096x2001, .f32⟩ : BufTy).Contents (Elt F))) x_main_cst_53
  have x_main_c_54 : (⟨S_, .i32⟩ : BufTy).Contents (Elt F) := (constantI S_ 32 0#32)
  have x_main_v237 : (⟨S4096x1, .i32⟩ : BufTy).Contents (Elt F) := ((broadcastInDim S4096x1 ![] bcast_S_S4096x1 : (⟨S_, .i32⟩ : BufTy).Contents (Elt F) → (⟨S4096x1, .i32⟩ : BufTy).Contents (Elt F))) x_main_c_54
  have x_main_v238 : (⟨S4096x1, .i1⟩ : BufTy).Contents (Elt F) := ((cmpi .slt : (⟨S4096x1, .i32⟩ : BufTy).Contents (Elt F) → (⟨S4096x1, .i32⟩ : BufTy).Contents (Elt F) → (⟨S4096x1, .i1⟩ : BufTy).Contents (Elt F))) x_main_v235 x_main_v237
  have x_main_c_55 : (⟨S_, .i32⟩ : BufTy).Contents (Elt F) := (constantI S_ 32 4096#32)
  have x_main_v239 : (⟨S4096x1, .i32⟩ : BufTy).Contents (Elt F) := ((broadcastInDim S4096x1 ![] bcast_S_S4096x1 : (⟨S_, .i32⟩ : BufTy).Contents (Elt F) → (⟨S4096x1, .i32⟩ : BufTy).Contents (Elt F))) x_main_c_55
  have x_main_v240 : (⟨S4096x1, .i32⟩ : BufTy).Contents (Elt F) := ((addi : (⟨S4096x1, .i32⟩ : BufTy).Contents (Elt F) → (⟨S4096x1, .i32⟩ : BufTy).Contents (Elt F) → (⟨S4096x1, .i32⟩ : BufTy).Contents (Elt F))) x_main_v235 x_main_v239
  have x_main_v241 : (⟨S4096x1, .i32⟩ : BufTy).Contents (Elt F) := ((select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F))) x_main_v238 x_main_v240 x_main_v235
  have x_main_c_56 : (⟨S_, .i32⟩ : BufTy).Contents (Elt F) := (constantI S_ 32 0#32)
  have x_main_v242 : (⟨S4096x61, .i32⟩ : BufTy).Contents (Elt F) := ((broadcastInDim S4096x61 ![] bcast_S_S4096x61 : (⟨S_, .i32⟩ : BufTy).Contents (Elt F) → (⟨S4096x61, .i32⟩ : BufTy).Contents (Elt F))) x_main_c_56
  have x_main_v243 : (⟨S4096x61, .i1⟩ : BufTy).Contents (Elt F) := ((cmpi .slt : (⟨S4096x61, .i32⟩ : BufTy).Contents (Elt F) → (⟨S4096x61, .i32⟩ : BufTy).Contents (Elt F) → (⟨S4096x61, .i1⟩ : BufTy).Contents (Elt F))) x_main_v3 x_main_v242
  have x_main_c_57 : (⟨S_, .i32⟩ : BufTy).Contents (Elt F) := (constantI S_ 32 2001#32)
  have x_main_v244 : (⟨S4096x61, .i32⟩ : BufTy).Contents (Elt F) := ((broadcastInDim S4096x61 ![] bcast_S_S4096x61 : (⟨S_, .i32⟩ : BufTy).Contents (Elt F) → (⟨S4096x61, .i32⟩ : BufTy).Contents (Elt F))) x_main_c_57
  have x_main_v245 : (⟨S4096x61, .i32⟩ : BufTy).Contents (Elt F) := ((addi : (⟨S4096x61, .i32⟩ : BufTy).Contents (Elt F) → (⟨S4096x61, .i32⟩ : BufTy).Contents (Elt F) → (⟨S4096x61, .i32⟩ : BufTy).Contents (Elt F))) x_main_v3 x_main_v244
  have x_main_v246 : (⟨S4096x61, .i32⟩ : BufTy).Contents (Elt F) := ((select : (⟨S4096x61, .i1⟩ : BufTy).Contents (Elt F) → (⟨S4096x61, .i32⟩ : BufTy).Contents (Elt F) → (⟨S4096x61, .i32⟩ : BufTy).Contents (Elt F) → (⟨S4096x61, .i32⟩ : BufTy).Contents (Elt F))) x_main_v243 x_main_v245 x_main_v3
  have x_main_v247 : (⟨S4096x61, .i32⟩ : BufTy).Contents (Elt F) := ((broadcastInDim S4096x61 ![0, 1] bcast_S4096x1_S4096x61_0_1 : (⟨S4096x1, .i32⟩ : BufTy).Contents (Elt F) → (⟨S4096x61, .i32⟩ : BufTy).Contents (Elt F))) x_main_v241
  have x_main_v248 : (⟨S4096x61x1, .i32⟩ : BufTy).Contents (Elt F) := ((broadcastInDim S4096x61x1 ![0, 1] bcast_S4096x61_S4096x61x1_0_1 : (⟨S4096x61, .i32⟩ : BufTy).Contents (Elt F) → (⟨S4096x61x1, .i32⟩ : BufTy).Contents (Elt F))) x_main_v247
  have x_main_v249 : (⟨S4096x61x1, .i32⟩ : BufTy).Contents (Elt F) := ((broadcastInDim S4096x61x1 ![0, 1] bcast_S4096x61_S4096x61x1_0_1 : (⟨S4096x61, .i32⟩ : BufTy).Contents (Elt F) → (⟨S4096x61x1, .i32⟩ : BufTy).Contents (Elt F))) x_main_v246
  have x_main_v250 : (⟨S4096x61x2, .i32⟩ : BufTy).Contents (Elt F) := (((fun a b => concatenate S4096x61x2 2 [⟨S4096x61x1, a⟩, ⟨S4096x61x1, b⟩] concatenates_S4096x61x1_S4096x61x1_S4096x61x2_d2) : (⟨S4096x61x1, .i32⟩ : BufTy).Contents (Elt F) → (⟨S4096x61x1, .i32⟩ : BufTy).Contents (Elt F) → (⟨S4096x61x2, .i32⟩ : BufTy).Contents (Elt F))) x_main_v248 x_main_v249
  have x_main_v251 : (⟨S4096x2001, .f32⟩ : BufTy).Contents (Elt F) := (((fun x i u => Host.scatterAdd scatter_S4096x2001_S4096x61x2_S4096x61_n_01_01_2 x i u) : (⟨S4096x2001, .f32⟩ : BufTy).Contents (Elt F) → (⟨S4096x61x2, .i32⟩ : BufTy).Contents (Elt F) → (⟨S4096x61, .f32⟩ : BufTy).Contents (Elt F) → (⟨S4096x2001, .f32⟩ : BufTy).Contents (Elt F))) x_main_v236 x_main_v250 x_main_v216
  have x_main_v252 : (⟨S4096x2000, .f32⟩ : BufTy).Contents (Elt F) := (((extractStridedSlice S4096x2000 ![0, 0] · slices_S4096x2001_S4096x2000_0_0) : (⟨S4096x2001, .f32⟩ : BufTy).Contents (Elt F) → (⟨S4096x2000, .f32⟩ : BufTy).Contents (Elt F))) x_main_v251
  x_main_v252

/-- Buffer main_v227 as a function of the buffers the stretch reads: its 2 operations, in program order. -/
def f_w1 (x_main_arg2 : (⟨S10x2000x64, .f32⟩ : BufTy).Contents (Elt F)) :
    (⟨S2000x64, .f32⟩ : BufTy).Contents (Elt F) :=
  have x_main_v226 : (⟨S1x2000x64, .f32⟩ : BufTy).Contents (Elt F) := (((extractStridedSlice S1x2000x64 ![4, 0, 0] · slices_S10x2000x64_S1x2000x64_4_0_0) : (⟨S10x2000x64, .f32⟩ : BufTy).Contents (Elt F) → (⟨S1x2000x64, .f32⟩ : BufTy).Contents (Elt F))) x_main_arg2
  have x_main_v227 : (⟨S2000x64, .f32⟩ : BufTy).Contents (Elt F) := shapeCast S2000x64 x_main_v226 shapeCasts_S1x2000x64_S2000x64
  x_main_v227

/-- Buffer main_v229 as a function of the buffers the stretch reads: its 2 operations, in program order. -/
def f_b1 (x_main_arg3 : (⟨S10x64, .f32⟩ : BufTy).Contents (Elt F)) :
    (⟨S64, .f32⟩ : BufTy).Contents (Elt F) :=
  have x_main_v228 : (⟨S1x64, .f32⟩ : BufTy).Contents (Elt F) := (((extractStridedSlice S1x64 ![4, 0] · slices_S10x64_S1x64_4_0) : (⟨S10x64, .f32⟩ : BufTy).Contents (Elt F) → (⟨S1x64, .f32⟩ : BufTy).Contents (Elt F))) x_main_arg3
  have x_main_v229 : (⟨S64, .f32⟩ : BufTy).Contents (Elt F) := shapeCast S64 x_main_v228 shapeCasts_S1x64_S64
  x_main_v229

/-- Buffer main_v253 as a function of the buffers the stretch reads: its 3 operations, in program order. -/
def f_b1r (x_main_arg3 : (⟨S10x64, .f32⟩ : BufTy).Contents (Elt F)) :
    (⟨S1x64, .f32⟩ : BufTy).Contents (Elt F) :=
  have x_main_v228 : (⟨S1x64, .f32⟩ : BufTy).Contents (Elt F) := (((extractStridedSlice S1x64 ![4, 0] · slices_S10x64_S1x64_4_0) : (⟨S10x64, .f32⟩ : BufTy).Contents (Elt F) → (⟨S1x64, .f32⟩ : BufTy).Contents (Elt F))) x_main_arg3
  have x_main_v229 : (⟨S64, .f32⟩ : BufTy).Contents (Elt F) := shapeCast S64 x_main_v228 shapeCasts_S1x64_S64
  have x_main_v253 : (⟨S1x64, .f32⟩ : BufTy).Contents (Elt F) := shapeCast S1x64 x_main_v229 shapeCasts_S64_S1x64
  x_main_v253

/-- Buffer main_v231 as a function of the buffers the stretch reads: its 2 operations, in program order. -/
def f_w2 (x_main_arg4 : (⟨S10x64x4000, .f32⟩ : BufTy).Contents (Elt F)) :
    (⟨S64x4000, .f32⟩ : BufTy).Contents (Elt F) :=
  have x_main_v230 : (⟨S1x64x4000, .f32⟩ : BufTy).Contents (Elt F) := (((extractStridedSlice S1x64x4000 ![4, 0, 0] · slices_S10x64x4000_S1x64x4000_4_0_0) : (⟨S10x64x4000, .f32⟩ : BufTy).Contents (Elt F) → (⟨S1x64x4000, .f32⟩ : BufTy).Contents (Elt F))) x_main_arg4
  have x_main_v231 : (⟨S64x4000, .f32⟩ : BufTy).Contents (Elt F) := shapeCast S64x4000 x_main_v230 shapeCasts_S1x64x4000_S64x4000
  x_main_v231

/-- Buffer main_v233 as a function of the buffers the stretch reads: its 2 operations, in program order. -/
def f_b2 (x_main_arg5 : (⟨S10x4000, .f32⟩ : BufTy).Contents (Elt F)) :
    (⟨S4000, .f32⟩ : BufTy).Contents (Elt F) :=
  have x_main_v232 : (⟨S1x4000, .f32⟩ : BufTy).Contents (Elt F) := (((extractStridedSlice S1x4000 ![4, 0] · slices_S10x4000_S1x4000_4_0) : (⟨S10x4000, .f32⟩ : BufTy).Contents (Elt F) → (⟨S1x4000, .f32⟩ : BufTy).Contents (Elt F))) x_main_arg5
  have x_main_v233 : (⟨S4000, .f32⟩ : BufTy).Contents (Elt F) := shapeCast S4000 x_main_v232 shapeCasts_S1x4000_S4000
  x_main_v233

/-- Buffer main_v254 as a function of the buffers the stretch reads: its 3 operations, in program order. -/
def f_b2r (x_main_arg5 : (⟨S10x4000, .f32⟩ : BufTy).Contents (Elt F)) :
    (⟨S1x4000, .f32⟩ : BufTy).Contents (Elt F) :=
  have x_main_v232 : (⟨S1x4000, .f32⟩ : BufTy).Contents (Elt F) := (((extractStridedSlice S1x4000 ![4, 0] · slices_S10x4000_S1x4000_4_0) : (⟨S10x4000, .f32⟩ : BufTy).Contents (Elt F) → (⟨S1x4000, .f32⟩ : BufTy).Contents (Elt F))) x_main_arg5
  have x_main_v233 : (⟨S4000, .f32⟩ : BufTy).Contents (Elt F) := shapeCast S4000 x_main_v232 shapeCasts_S1x4000_S4000
  have x_main_v254 : (⟨S1x4000, .f32⟩ : BufTy).Contents (Elt F) := shapeCast S1x4000 x_main_v233 shapeCasts_S4000_S1x4000
  x_main_v254

/-- Buffer main_v225 as a function of the buffers the stretch reads: its 11 operations, in program order. -/
def f_oidx (x_main_v2 : (⟨S4096x64, .i32⟩ : BufTy).Contents (Elt F)) :
    (⟨S4096x128, .i32⟩ : BufTy).Contents (Elt F) :=
  have x_main_c_50 : (⟨S_, .i32⟩ : BufTy).Contents (Elt F) := (constantI S_ 32 2000#32)
  have x_main_v220 : (⟨S4096x64, .i32⟩ : BufTy).Contents (Elt F) := ((broadcastInDim S4096x64 ![] bcast_S_S4096x64 : (⟨S_, .i32⟩ : BufTy).Contents (Elt F) → (⟨S4096x64, .i32⟩ : BufTy).Contents (Elt F))) x_main_c_50
  have x_main_v221 : (⟨S4096x64, .i1⟩ : BufTy).Contents (Elt F) := ((cmpi .eq : (⟨S4096x64, .i32⟩ : BufTy).Contents (Elt F) → (⟨S4096x64, .i32⟩ : BufTy).Contents (Elt F) → (⟨S4096x64, .i1⟩ : BufTy).Contents (Elt F))) x_main_v2 x_main_v220
  have x_main_c_51 : (⟨S_, .i32⟩ : BufTy).Contents (Elt F) := (constantI S_ 32 2000#32)
  have x_main_v222 : (⟨S4096x64, .i32⟩ : BufTy).Contents (Elt F) := ((broadcastInDim S4096x64 ![] bcast_S_S4096x64 : (⟨S_, .i32⟩ : BufTy).Contents (Elt F) → (⟨S4096x64, .i32⟩ : BufTy).Contents (Elt F))) x_main_c_51
  have x_main_v223 : (⟨S4096x64, .i32⟩ : BufTy).Contents (Elt F) := ((addi : (⟨S4096x64, .i32⟩ : BufTy).Contents (Elt F) → (⟨S4096x64, .i32⟩ : BufTy).Contents (Elt F) → (⟨S4096x64, .i32⟩ : BufTy).Contents (Elt F))) x_main_v2 x_main_v222
  have x_main_c_52 : (⟨S_, .i32⟩ : BufTy).Contents (Elt F) := (constantI S_ 32 4000#32)
  have x_main_call8_v0 : (⟨S_, .i32⟩ : BufTy).Contents (Elt F) := (id) x_main_c_52
  have x_main_call8_v1 : (⟨S4096x64, .i32⟩ : BufTy).Contents (Elt F) := ((broadcastInDim S4096x64 ![] bcast_S_S4096x64)) x_main_call8_v0
  have x_main_v224 : (⟨S4096x64, .i32⟩ : BufTy).Contents (Elt F) := (select) x_main_v221 x_main_call8_v1 x_main_v223
  have x_main_v225 : (⟨S4096x128, .i32⟩ : BufTy).Contents (Elt F) := (((fun a b => concatenate S4096x128 1 [⟨S4096x64, a⟩, ⟨S4096x64, b⟩] concatenates_S4096x64_S4096x64_S4096x128_d1) : (⟨S4096x64, .i32⟩ : BufTy).Contents (Elt F) → (⟨S4096x64, .i32⟩ : BufTy).Contents (Elt F) → (⟨S4096x128, .i32⟩ : BufTy).Contents (Elt F))) x_main_v2 x_main_v224
  x_main_v225

/-- Buffer main_v216 as a function of the buffers the stretch reads: its 40 operations, in program order. -/
def f_xnew (x_main_v108 : (⟨S4096x61, .f32⟩ : BufTy).Contents (Elt F)) (x_main_v171 : (⟨S4096x122, .i32⟩ : BufTy).Contents (Elt F)) (x_main_v201 : (⟨S4096x4000, .f32⟩ : BufTy).Contents (Elt F)) :
    (⟨S4096x61, .f32⟩ : BufTy).Contents (Elt F) :=
  have x_main_cst_45 : (⟨S_, .f32⟩ : BufTy).Contents (Elt F) := (constant S_ .f32 0x00000000#32)
  have x_main_v202 : (⟨S4096x1, .f32⟩ : BufTy).Contents (Elt F) := ((broadcastInDim S4096x1 ![] bcast_S_S4096x1 : (⟨S_, .f32⟩ : BufTy).Contents (Elt F) → (⟨S4096x1, .f32⟩ : BufTy).Contents (Elt F))) x_main_cst_45
  have x_main_v203 : (⟨S4096x4001, .f32⟩ : BufTy).Contents (Elt F) := (((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F))) x_main_v201 x_main_v202
  have x_main_call7_c : (⟨S_, .i32⟩ : BufTy).Contents (Elt F) := (constantI S_ 32 0#32)
  have x_main_call7_v0 : (⟨S4096x122, .i32⟩ : BufTy).Contents (Elt F) := ((broadcastInDim S4096x122 ![] bcast_S_S4096x122)) x_main_call7_c
  have x_main_call7_v1 : (⟨S4096x122, .i1⟩ : BufTy).Contents (Elt F) := ((cmpi .slt)) x_main_v171 x_main_call7_v0
  have x_main_call7_c_0 : (⟨S_, .i32⟩ : BufTy).Contents (Elt F) := (constantI S_ 32 4001#32)
  have x_main_call7_v2 : (⟨S4096x122, .i32⟩ : BufTy).Contents (Elt F) := ((broadcastInDim S4096x122 ![] bcast_S_S4096x122)) x_main_call7_c_0
  have x_main_call7_v3 : (⟨S4096x122, .i32⟩ : BufTy).Contents (Elt F) := (addi) x_main_v171 x_main_call7_v2
  have x_main_call7_v4 : (⟨S4096x122, .i32⟩ : BufTy).Contents (Elt F) := (select) x_main_call7_v1 x_main_call7_v3 x_main_v171
  have x_main_call7_v5 : (⟨S4096x122x1, .i32⟩ : BufTy).Contents (Elt F) := shapeCast S4096x122x1 x_main_call7_v4 shapeCasts_S4096x122_S4096x122x1
  have x_main_call7_c_1 : (⟨S1, .i32⟩ : BufTy).Contents (Elt F) := (constantI S1 32 4000#32)
  have x_main_call7_c_2 : (⟨S_, .i32⟩ : BufTy).Contents (Elt F) := (constantI S_ 32 0#32)
  have x_main_call7_v6 : (⟨S4096x122x1, .i32⟩ : BufTy).Contents (Elt F) := ((broadcastInDim S4096x122x1 ![] bcast_S_S4096x122x1)) x_main_call7_c_2
  have x_main_call7_v7 : (⟨S4096x122x1, .i1⟩ : BufTy).Contents (Elt F) := ((cmpi .sge)) x_main_call7_v5 x_main_call7_v6
  have x_main_call7_v8 : (⟨S1x1x1, .i32⟩ : BufTy).Contents (Elt F) := ((broadcastInDim S1x1x1 ![2] bcast_S1_S1x1x1_2)) x_main_call7_c_1
  have x_main_call7_v9 : (⟨S4096x122x1, .i32⟩ : BufTy).Contents (Elt F) := ((broadcastInDim S4096x122x1 ![0, 1, 2] bcast_S1x1x1_S4096x122x1_0_1_2)) x_main_call7_v8
  have x_main_call7_v10 : (⟨S4096x122x1, .i1⟩ : BufTy).Contents (Elt F) := ((cmpi .sle)) x_main_call7_v5 x_main_call7_v9
  have x_main_call7_v11 : (⟨S4096x122x1, .i1⟩ : BufTy).Contents (Elt F) := (andi) x_main_call7_v7 x_main_call7_v10
  have x_main_call7_c_3 : (⟨S_, .i1⟩ : BufTy).Contents (Elt F) := (constantI S_ 1 1#1)
  have x_main_call7_v12 : (⟨S4096x122, .i1⟩ : BufTy).Contents (Elt F) := ((fun x v => Host.reduce IntOp.andi x v reducesTo_S4096x122x1_S4096x122_d2 h_S_)) x_main_call7_v11 x_main_call7_c_3
  have x_main_call7_v13 : (⟨S4096x122, .f32⟩ : BufTy).Contents (Elt F) := ((fun x i => Host.gather gather_S4096x4001_S4096x122x1_S4096x122_n_1_0_0_1_2_11 x i)) x_main_v203 x_main_call7_v5
  have x_main_call7_cst : (⟨S_, .f32⟩ : BufTy).Contents (Elt F) := (constant S_ .f32 0x7FC00000#32)
  have x_main_call7_v14 : (⟨S4096x122, .f32⟩ : BufTy).Contents (Elt F) := ((broadcastInDim S4096x122 ![] bcast_S_S4096x122)) x_main_call7_cst
  have x_main_v204 : (⟨S4096x122, .f32⟩ : BufTy).Contents (Elt F) := (select) x_main_call7_v12 x_main_call7_v13 x_main_call7_v14
  have x_main_v205 : (⟨S4096x61, .f32⟩ : BufTy).Contents (Elt F) := (((extractStridedSlice S4096x61 ![0, 0] · slices_S4096x122_S4096x61_0_0) : (⟨S4096x122, .f32⟩ : BufTy).Contents (Elt F) → (⟨S4096x61, .f32⟩ : BufTy).Contents (Elt F))) x_main_v204
  have x_main_v206 : (⟨S4096x61, .f32⟩ : BufTy).Contents (Elt F) := (((extractStridedSlice S4096x61 ![0, 61] · slices_S4096x122_S4096x61_0_61) : (⟨S4096x122, .f32⟩ : BufTy).Contents (Elt F) → (⟨S4096x61, .f32⟩ : BufTy).Contents (Elt F))) x_main_v204
  have x_main_cst_46 : (⟨S_, .f32⟩ : BufTy).Contents (Elt F) := (constant S_ .f32 0x40000000#32)
  have x_main_v207 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_46
  have x_main_v208 : (⟨S4096x61, .f32⟩ : BufTy).Contents (Elt F) := ((addf : (⟨S4096x61, .f32⟩ : BufTy).Contents (Elt F) → (⟨S4096x61, .f32⟩ : BufTy).Contents (Elt F) → (⟨S4096x61, .f32⟩ : BufTy).Contents (Elt F))) x_main_v205 x_main_v207
  have x_main_v209 : (⟨S4096x61, .f32⟩ : BufTy).Contents (Elt F) := ((Host.negf : (⟨S4096x61, .f32⟩ : BufTy).Contents (Elt F) → (⟨S4096x61, .f32⟩ : BufTy).Contents (Elt F))) x_main_v208
  have x_main_v210 : (⟨S4096x61, .f32⟩ : BufTy).Contents (Elt F) := ((Host.exp : (⟨S4096x61, .f32⟩ : BufTy).Contents (Elt F) → (⟨S4096x61, .f32⟩ : BufTy).Contents (Elt F))) x_main_v209
  have x_main_cst_47 : (⟨S_, .f32⟩ : BufTy).Contents (Elt F) := (constant S_ .f32 0x3F800000#32)
  have x_main_v211 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_47
  have x_main_v212 : (⟨S4096x61, .f32⟩ : BufTy).Contents (Elt F) := ((addf : (⟨S4096x61, .f32⟩ : BufTy).Contents (Elt F) → (⟨S4096x61, .f32⟩ : BufTy).Contents (Elt F) → (⟨S4096x61, .f32⟩ : BufTy).Contents (Elt F))) x_main_v211 x_main_v210
  have x_main_cst_48 : (⟨S_, .f32⟩ : BufTy).Contents (Elt F) := (constant S_ .f32 0x3F800000#32)
  have x_main_v213 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_48
  have x_main_v214 : (⟨S4096x61, .f32⟩ : BufTy).Contents (Elt F) := ((Host.divf : (⟨S4096x61, .f32⟩ : BufTy).Contents (Elt F) → (⟨S4096x61, .f32⟩ : BufTy).Contents (Elt F) → (⟨S4096x61, .f32⟩ : BufTy).Contents (Elt F))) x_main_v213 x_main_v212
  have x_main_v215 : (⟨S4096x61, .f32⟩ : BufTy).Contents (Elt F) := ((mulf : (⟨S4096x61, .f32⟩ : BufTy).Contents (Elt F) → (⟨S4096x61, .f32⟩ : BufTy).Contents (Elt F) → (⟨S4096x61, .f32⟩ : BufTy).Contents (Elt F))) x_main_v214 x_main_v108
  have x_main_v216 : (⟨S4096x61, .f32⟩ : BufTy).Contents (Elt F) := ((addf : (⟨S4096x61, .f32⟩ : BufTy).Contents (Elt F) → (⟨S4096x61, .f32⟩ : BufTy).Contents (Elt F) → (⟨S4096x61, .f32⟩ : BufTy).Contents (Elt F))) x_main_v215 x_main_v206
  x_main_v216

/-- Buffer main_v219 as a function of the buffers the stretch reads: its 41 operations, in program order. -/
def f_qnew (x_main_v165 : (⟨S4096, .f32⟩ : BufTy).Contents (Elt F)) (x_main_v171 : (⟨S4096x122, .i32⟩ : BufTy).Contents (Elt F)) (x_main_v201 : (⟨S4096x4000, .f32⟩ : BufTy).Contents (Elt F)) :
    (⟨S4096, .f32⟩ : BufTy).Contents (Elt F) :=
  have x_main_cst_45 : (⟨S_, .f32⟩ : BufTy).Contents (Elt F) := (constant S_ .f32 0x00000000#32)
  have x_main_v202 : (⟨S4096x1, .f32⟩ : BufTy).Contents (Elt F) := ((broadcastInDim S4096x1 ![] bcast_S_S4096x1 : (⟨S_, .f32⟩ : BufTy).Contents (Elt F) → (⟨S4096x1, .f32⟩ : BufTy).Contents (Elt F))) x_main_cst_45
  have x_main_v203 : (⟨S4096x4001, .f32⟩ : BufTy).Contents (Elt F) := (((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F))) x_main_v201 x_main_v202
  have x_main_call7_c : (⟨S_, .i32⟩ : BufTy).Contents (Elt F) := (constantI S_ 32 0#32)
  have x_main_call7_v0 : (⟨S4096x122, .i32⟩ : BufTy).Contents (Elt F) := ((broadcastInDim S4096x122 ![] bcast_S_S4096x122)) x_main_call7_c
  have x_main_call7_v1 : (⟨S4096x122, .i1⟩ : BufTy).Contents (Elt F) := ((cmpi .slt)) x_main_v171 x_main_call7_v0
  have x_main_call7_c_0 : (⟨S_, .i32⟩ : BufTy).Contents (Elt F) := (constantI S_ 32 4001#32)
  have x_main_call7_v2 : (⟨S4096x122, .i32⟩ : BufTy).Contents (Elt F) := ((broadcastInDim S4096x122 ![] bcast_S_S4096x122)) x_main_call7_c_0
  have x_main_call7_v3 : (⟨S4096x122, .i32⟩ : BufTy).Contents (Elt F) := (addi) x_main_v171 x_main_call7_v2
  have x_main_call7_v4 : (⟨S4096x122, .i32⟩ : BufTy).Contents (Elt F) := (select) x_main_call7_v1 x_main_call7_v3 x_main_v171
  have x_main_call7_v5 : (⟨S4096x122x1, .i32⟩ : BufTy).Contents (Elt F) := shapeCast S4096x122x1 x_main_call7_v4 shapeCasts_S4096x122_S4096x122x1
  have x_main_call7_c_1 : (⟨S1, .i32⟩ : BufTy).Contents (Elt F) := (constantI S1 32 4000#32)
  have x_main_call7_c_2 : (⟨S_, .i32⟩ : BufTy).Contents (Elt F) := (constantI S_ 32 0#32)
  have x_main_call7_v6 : (⟨S4096x122x1, .i32⟩ : BufTy).Contents (Elt F) := ((broadcastInDim S4096x122x1 ![] bcast_S_S4096x122x1)) x_main_call7_c_2
  have x_main_call7_v7 : (⟨S4096x122x1, .i1⟩ : BufTy).Contents (Elt F) := ((cmpi .sge)) x_main_call7_v5 x_main_call7_v6
  have x_main_call7_v8 : (⟨S1x1x1, .i32⟩ : BufTy).Contents (Elt F) := ((broadcastInDim S1x1x1 ![2] bcast_S1_S1x1x1_2)) x_main_call7_c_1
  have x_main_call7_v9 : (⟨S4096x122x1, .i32⟩ : BufTy).Contents (Elt F) := ((broadcastInDim S4096x122x1 ![0, 1, 2] bcast_S1x1x1_S4096x122x1_0_1_2)) x_main_call7_v8
  have x_main_call7_v10 : (⟨S4096x122x1, .i1⟩ : BufTy).Contents (Elt F) := ((cmpi .sle)) x_main_call7_v5 x_main_call7_v9
  have x_main_call7_v11 : (⟨S4096x122x1, .i1⟩ : BufTy).Contents (Elt F) := (andi) x_main_call7_v7 x_main_call7_v10
  have x_main_call7_c_3 : (⟨S_, .i1⟩ : BufTy).Contents (Elt F) := (constantI S_ 1 1#1)
  have x_main_call7_v12 : (⟨S4096x122, .i1⟩ : BufTy).Contents (Elt F) := ((fun x v => Host.reduce IntOp.andi x v reducesTo_S4096x122x1_S4096x122_d2 h_S_)) x_main_call7_v11 x_main_call7_c_3
  have x_main_call7_v13 : (⟨S4096x122, .f32⟩ : BufTy).Contents (Elt F) := ((fun x i => Host.gather gather_S4096x4001_S4096x122x1_S4096x122_n_1_0_0_1_2_11 x i)) x_main_v203 x_main_call7_v5
  have x_main_call7_cst : (⟨S_, .f32⟩ : BufTy).Contents (Elt F) := (constant S_ .f32 0x7FC00000#32)
  have x_main_call7_v14 : (⟨S4096x122, .f32⟩ : BufTy).Contents (Elt F) := ((broadcastInDim S4096x122 ![] bcast_S_S4096x122)) x_main_call7_cst
  have x_main_v204 : (⟨S4096x122, .f32⟩ : BufTy).Contents (Elt F) := (select) x_main_call7_v12 x_main_call7_v13 x_main_call7_v14
  have x_main_v205 : (⟨S4096x61, .f32⟩ : BufTy).Contents (Elt F) := (((extractStridedSlice S4096x61 ![0, 0] · slices_S4096x122_S4096x61_0_0) : (⟨S4096x122, .f32⟩ : BufTy).Contents (Elt F) → (⟨S4096x61, .f32⟩ : BufTy).Contents (Elt F))) x_main_v204
  have x_main_cst_46 : (⟨S_, .f32⟩ : BufTy).Contents (Elt F) := (constant S_ .f32 0x40000000#32)
  have x_main_v207 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_46
  have x_main_v208 : (⟨S4096x61, .f32⟩ : BufTy).Contents (Elt F) := ((addf : (⟨S4096x61, .f32⟩ : BufTy).Contents (Elt F) → (⟨S4096x61, .f32⟩ : BufTy).Contents (Elt F) → (⟨S4096x61, .f32⟩ : BufTy).Contents (Elt F))) x_main_v205 x_main_v207
  have x_main_v209 : (⟨S4096x61, .f32⟩ : BufTy).Contents (Elt F) := ((Host.negf : (⟨S4096x61, .f32⟩ : BufTy).Contents (Elt F) → (⟨S4096x61, .f32⟩ : BufTy).Contents (Elt F))) x_main_v208
  have x_main_v210 : (⟨S4096x61, .f32⟩ : BufTy).Contents (Elt F) := ((Host.exp : (⟨S4096x61, .f32⟩ : BufTy).Contents (Elt F) → (⟨S4096x61, .f32⟩ : BufTy).Contents (Elt F))) x_main_v209
  have x_main_cst_47 : (⟨S_, .f32⟩ : BufTy).Contents (Elt F) := (constant S_ .f32 0x3F800000#32)
  have x_main_v211 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_47
  have x_main_v212 : (⟨S4096x61, .f32⟩ : BufTy).Contents (Elt F) := ((addf : (⟨S4096x61, .f32⟩ : BufTy).Contents (Elt F) → (⟨S4096x61, .f32⟩ : BufTy).Contents (Elt F) → (⟨S4096x61, .f32⟩ : BufTy).Contents (Elt F))) x_main_v211 x_main_v210
  have x_main_cst_48 : (⟨S_, .f32⟩ : BufTy).Contents (Elt F) := (constant S_ .f32 0x3F800000#32)
  have x_main_v213 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_48
  have x_main_v214 : (⟨S4096x61, .f32⟩ : BufTy).Contents (Elt F) := ((Host.divf : (⟨S4096x61, .f32⟩ : BufTy).Contents (Elt F) → (⟨S4096x61, .f32⟩ : BufTy).Contents (Elt F) → (⟨S4096x61, .f32⟩ : BufTy).Contents (Elt F))) x_main_v213 x_main_v212
  have x_main_v217 : (⟨S4096x61, .f32⟩ : BufTy).Contents (Elt F) := ((Host.log : (⟨S4096x61, .f32⟩ : BufTy).Contents (Elt F) → (⟨S4096x61, .f32⟩ : BufTy).Contents (Elt F))) x_main_v214
  have x_main_cst_49 : (⟨S_, .f32⟩ : BufTy).Contents (Elt F) := (constant S_ .f32 0x00000000#32)
  have x_main_v218 : (⟨S4096, .f32⟩ : BufTy).Contents (Elt F) := (((fun x v => Host.reduceAdd x v reducesTo_S4096x61_S4096_d1 h_S_) : (⟨S4096x61, .f32⟩ : BufTy).Contents (Elt F) → (⟨S_, .f32⟩ : BufTy).Contents (Elt F) → (⟨S4096, .f32⟩ : BufTy).Contents (Elt F))) x_main_v217 x_main_cst_49
  have x_main_v219 : (⟨S4096, .f32⟩ : BufTy).Contents (Elt F) := ((subf : (⟨S4096, .f32⟩ : BufTy).Contents (Elt F) → (⟨S4096, .f32⟩ : BufTy).Contents (Elt F) → (⟨S4096, .f32⟩ : BufTy).Contents (Elt F))) x_main_v165 x_main_v218
  x_main_v219

-- the gather, the scatter and the reductions are never opened: both sides apply them to equal arguments
attribute [local irreducible] Host.scatterAdd Host.reduce Host.gather Host.reduceAdd concatenate extractStridedSlice broadcastInDim iotaInDim in
set_option maxHeartbeats 8000000 in
set_option maxRecDepth 100000 in
/-- The stretch's fold at each of those buffers. -/
theorem reads (V : Valuation τ sig (Elt F)) :
    after hostOps4_4 (after hostOps4_3 (after hostOps4_2 (after hostOps4_1 (after hostOps4 V)))) (Proc.devRef .tc main_v252) = f_dense (V (Proc.devRef .tc main_v3)) (V (Proc.devRef .tc main_v108)) (V (Proc.devRef .tc main_v171)) (V (Proc.devRef .tc main_v201))
    ∧ after hostOps4_4 (after hostOps4_3 (after hostOps4_2 (after hostOps4_1 (after hostOps4 V)))) (Proc.devRef .tc main_v227) = f_w1 (V (Proc.devRef .tc main_arg2))
    ∧ after hostOps4_4 (after hostOps4_3 (after hostOps4_2 (after hostOps4_1 (after hostOps4 V)))) (Proc.devRef .tc main_v229) = f_b1 (V (Proc.devRef .tc main_arg3))
    ∧ after hostOps4_4 (after hostOps4_3 (after hostOps4_2 (after hostOps4_1 (after hostOps4 V)))) (Proc.devRef .tc main_v253) = f_b1r (V (Proc.devRef .tc main_arg3))
    ∧ after hostOps4_4 (after hostOps4_3 (after hostOps4_2 (after hostOps4_1 (after hostOps4 V)))) (Proc.devRef .tc main_v231) = f_w2 (V (Proc.devRef .tc main_arg4))
    ∧ after hostOps4_4 (after hostOps4_3 (after hostOps4_2 (after hostOps4_1 (after hostOps4 V)))) (Proc.devRef .tc main_v233) = f_b2 (V (Proc.devRef .tc main_arg5))
    ∧ after hostOps4_4 (after hostOps4_3 (after hostOps4_2 (after hostOps4_1 (after hostOps4 V)))) (Proc.devRef .tc main_v254) = f_b2r (V (Proc.devRef .tc main_arg5))
    ∧ after hostOps4_4 (after hostOps4_3 (after hostOps4_2 (after hostOps4_1 (after hostOps4 V)))) (Proc.devRef .tc main_v225) = f_oidx (V (Proc.devRef .tc main_v2))
    ∧ after hostOps4_4 (after hostOps4_3 (after hostOps4_2 (after hostOps4_1 (after hostOps4 V)))) (Proc.devRef .tc main_v216) = f_xnew (V (Proc.devRef .tc main_v108)) (V (Proc.devRef .tc main_v171)) (V (Proc.devRef .tc main_v201))
    ∧ after hostOps4_4 (after hostOps4_3 (after hostOps4_2 (after hostOps4_1 (after hostOps4 V)))) (Proc.devRef .tc main_v219) = f_qnew (V (Proc.devRef .tc main_v165)) (V (Proc.devRef .tc main_v171)) (V (Proc.devRef .tc main_v201))
    ∧ after hostOps4_4 (after hostOps4_3 (after hostOps4_2 (after hostOps4_1 (after hostOps4 V)))) (Proc.devRef .tc main_v162) = V (Proc.devRef .tc main_v162)
    ∧ after hostOps4_4 (after hostOps4_3 (after hostOps4_2 (after hostOps4_1 (after hostOps4 V)))) (Proc.devRef .tc main_v2) = V (Proc.devRef .tc main_v2)
    ∧ after hostOps4_4 (after hostOps4_3 (after hostOps4_2 (after hostOps4_1 (after hostOps4 V)))) (Proc.devRef .tc main_v3) = V (Proc.devRef .tc main_v3)
    ∧ after hostOps4_4 (after hostOps4_3 (after hostOps4_2 (after hostOps4_1 (after hostOps4 V)))) (Proc.devRef .tc main_arg2) = V (Proc.devRef .tc main_arg2)
    ∧ after hostOps4_4 (after hostOps4_3 (after hostOps4_2 (after hostOps4_1 (after hostOps4 V)))) (Proc.devRef .tc main_arg3) = V (Proc.devRef .tc main_arg3)
    ∧ after hostOps4_4 (after hostOps4_3 (after hostOps4_2 (after hostOps4_1 (after hostOps4 V)))) (Proc.devRef .tc main_arg4) = V (Proc.devRef .tc main_arg4)
    ∧ after hostOps4_4 (after hostOps4_3 (after hostOps4_2 (after hostOps4_1 (after hostOps4 V)))) (Proc.devRef .tc main_arg5) = V (Proc.devRef .tc main_arg5) := by
  simp only [hostOps4, hostOps4_1, hostOps4_2, hostOps4_3, hostOps4_4]
  after_results_simp
  refine ⟨?_, ?_, ?_, ?_, ?_, ?_, ?_, ?_, ?_, ?_, ?_, ?_, ?_, ?_, ?_, ?_, ?_⟩ <;> first | rfl | trivial

end Cert.KernelIdeal.Layer4

end
-- ==== Proof.LayerR4a.lean ====
/- The reference's operations of the same stage (kernel region 3 and kernel region 4 on the kernel side), read as the SAME functions
  as the kernel program's: the five buffers the layer's perceptron is computed from.
-/
import proofs.«140670_j11424613007642_1_alg».proof.Proof.RefRun
import proofs.«140670_j11424613007642_1_alg».proof.Proof.LayerK4
import proofs.«140670_j11424613007642_1_alg».proof.Proof.LibTRef
import Idealize.ShloMosaic.PureOps.Ideal

set_option maxRecDepth 16384

noncomputable section

namespace Cert.ReferenceIdeal.LayerR4

open Cert.ReferenceIdeal Cert.ReferenceIdeal.Gen Cert.ReferenceIdeal.RefRun Idealize.ShloMosaic Idealize.ShloMosaic.StableHlo Idealize.ShloMosaic.TcCoe

-- the gather, the scatter and the reductions are never opened: both sides apply them to equal arguments
attribute [local irreducible] Host.scatterAdd Host.reduce Host.gather Host.reduceAdd concatenate extractStridedSlice broadcastInDim iotaInDim in
set_option maxHeartbeats 16000000 in
set_option maxRecDepth 100000 in
/-- The five buffers the layer's perceptron is computed from. -/
theorem readsIn (V' : Valuation τ sig (Elt Ideal)) :
    after rseg4 V' (Proc.devRef .tc main_v276) = Cert.KernelIdeal.Layer4.f_dense (V' (Proc.devRef .tc main_v3)) (V' (Proc.devRef .tc main_v120)) (V' (Proc.devRef .tc main_v189)) (V' (Proc.devRef .tc main_v225))
    ∧ after rseg4 V' (Proc.devRef .tc main_v251) = Cert.KernelIdeal.Layer4.f_w1 (V' (Proc.devRef .tc main_arg2))
    ∧ after rseg4 V' (Proc.devRef .tc main_v253) = Cert.KernelIdeal.Layer4.f_b1 (V' (Proc.devRef .tc main_arg3))
    ∧ after rseg4 V' (Proc.devRef .tc main_v255) = Cert.KernelIdeal.Layer4.f_w2 (V' (Proc.devRef .tc main_arg4))
    ∧ after rseg4 V' (Proc.devRef .tc main_v257) = Cert.KernelIdeal.Layer4.f_b2 (V' (Proc.devRef .tc main_arg5)) := by
  simp only [after_append_line, rseg4, rseg4_a, rseg4_b, rseg4_c, rseg4_d]
  after_results_simp
  -- contents stored through a typed reference and read back through it are unchanged
  try simp only [Cert.LibTRef.ofBuf_toBuf]
  refine ⟨?_, ?_, ?_, ?_, ?_⟩ <;> first | rfl | trivial

end Cert.ReferenceIdeal.LayerR4

end
-- ==== Proof.LayerR4b.lean ====
/- The reference's operations of the same stage (kernel region 3 and kernel region 4 on the kernel side), read as the SAME functions
  as the kernel program's: the other buffers the next stage needs; a buffer the segment does not write keeps its contents.
-/
import proofs.«140670_j11424613007642_1_alg».proof.Proof.RefRun
import proofs.«140670_j11424613007642_1_alg».proof.Proof.LayerK4
import proofs.«140670_j11424613007642_1_alg».proof.Proof.LibTRef
import Idealize.ShloMosaic.PureOps.Ideal

set_option maxRecDepth 16384

noncomputable section

namespace Cert.ReferenceIdeal.LayerR4

open Cert.ReferenceIdeal Cert.ReferenceIdeal.Gen Cert.ReferenceIdeal.RefRun Idealize.ShloMosaic Idealize.ShloMosaic.StableHlo Idealize.ShloMosaic.TcCoe

-- the gather, the scatter and the reductions are never opened: both sides apply them to equal arguments
attribute [local irreducible] Host.scatterAdd Host.reduce Host.gather Host.reduceAdd concatenate extractStridedSlice broadcastInDim iotaInDim in
set_option maxHeartbeats 16000000 in
set_option maxRecDepth 100000 in
/-- The other buffers the next stage needs. -/
theorem reads (V' : Valuation τ sig (Elt Ideal)) :
    after rseg4 V' (Proc.devRef .tc main_v249) = Cert.KernelIdeal.Layer4.f_oidx (V' (Proc.devRef .tc main_v2))
    ∧ after rseg4 V' (Proc.devRef .tc main_v240) = Cert.KernelIdeal.Layer4.f_xnew (V' (Proc.devRef .tc main_v120)) (V' (Proc.devRef .tc main_v189)) (V' (Proc.devRef .tc main_v225))
    ∧ after rseg4 V' (Proc.devRef .tc main_v243) = Cert.KernelIdeal.Layer4.f_qnew (V' (Proc.devRef .tc main_v183)) (V' (Proc.devRef .tc main_v189)) (V' (Proc.devRef .tc main_v225))
    ∧ after rseg4 V' (Proc.devRef .tc main_v180) = V' (Proc.devRef .tc main_v180)
    ∧ after rseg4 V' (Proc.devRef .tc main_v2) = V' (Proc.devRef .tc main_v2)
    ∧ after rseg4 V' (Proc.devRef .tc main_v3) = V' (Proc.devRef .tc main_v3)
    ∧ after rseg4 V' (Proc.devRef .tc main_arg2) = V' (Proc.devRef .tc main_arg2)
    ∧ after rseg4 V' (Proc.devRef .tc main_arg3) = V' (Proc.devRef .tc main_arg3)
    ∧ after rseg4 V' (Proc.devRef .tc main_arg4) = V' (Proc.devRef .tc main_arg4)
    ∧ after rseg4 V' (Proc.devRef .tc main_arg5) = V' (Proc.devRef .tc main_arg5) := by
  simp only [after_append_line, rseg4, rseg4_a, rseg4_b, rseg4_c, rseg4_d]
  after_results_simp
  -- contents stored through a typed reference and read back through it are unchanged
  try simp only [Cert.LibTRef.ofBuf_toBuf]
  refine ⟨?_, ?_, ?_, ?_, ?_, ?_, ?_, ?_, ?_, ?_⟩ <;> first | rfl | trivial

end Cert.ReferenceIdeal.LayerR4

end
-- ==== Proof.LayerR4c.lean ====
/- The reference's operations of the same stage (kernel region 3 and kernel region 4 on the kernel side), read as the SAME functions
  as the kernel program's: the layer's perceptron output is the host perceptron of the five buffers it is computed from.
-/
import proofs.«140670_j11424613007642_1_alg».proof.Proof.RefRun
import proofs.«140670_j11424613007642_1_alg».proof.Proof.MlpHost
import Idealize.ShloMosaic.PureOps.Ideal

set_option maxRecDepth 16384

noncomputable section

namespace Cert.ReferenceIdeal.LayerR4

open Cert.ReferenceIdeal Cert.ReferenceIdeal.Gen Cert.ReferenceIdeal.RefRun Idealize.ShloMosaic Idealize.ShloMosaic.StableHlo Idealize.ShloMosaic.TcCoe

-- the gather, the scatter and the reductions are never opened: both sides apply them to equal arguments
attribute [local irreducible] Host.scatterAdd Host.reduce Host.gather Host.reduceAdd concatenate extractStridedSlice broadcastInDim iotaInDim in
set_option maxHeartbeats 16000000 in
set_option maxRecDepth 100000 in
/-- The layer's perceptron output is the host perceptron of those five buffers. -/
theorem readsOut (V' : Valuation τ sig (Elt Ideal)) :
    after rseg4 V' (Proc.devRef .tc main_v285) = Cert.ReferenceIdeal.MlpHost.hostMlp (after rseg4 V' (Proc.devRef .tc main_v276)) (after rseg4 V' (Proc.devRef .tc main_v251)) (after rseg4 V' (Proc.devRef .tc main_v253)) (after rseg4 V' (Proc.devRef .tc main_v255)) (after rseg4 V' (Proc.devRef .tc main_v257)) := by
  simp only [after_append_line, rseg4, rseg4_a, rseg4_b, rseg4_c, rseg4_d]
  after_results_simp
  first | rfl | trivial

end Cert.ReferenceIdeal.LayerR4

end
-- ==== Proof.LayerR4.lean ====
/- The reference's side of this stage, collected: the three statements live in one module each.
-/
import proofs.«140670_j11424613007642_1_alg».proof.Proof.LayerR4a
import proofs.«140670_j11424613007642_1_alg».proof.Proof.LayerR4b
import proofs.«140670_j11424613007642_1_alg».proof.Proof.LayerR4c
-- ==== Proof.Step4.lean ====
/-
  Layer 4. If after layer 3's perceptron output the two programs hold the same eleven values, they do so again after
  layer 4's. On the kernel side the host operations up to region 4 read as functions of those values, the region leaves
  the layer function of its five operand arrays, and nothing else the next layer needs is touched; on the reference side
  the same operations read as the same functions, and its host perceptron is the layer function.
-/
import proofs.«140670_j11424613007642_1_alg».proof.Proof.KernelIdealFrameP
import proofs.«140670_j11424613007642_1_alg».proof.Proof.BridgeDefs
import proofs.«140670_j11424613007642_1_alg».proof.Proof.Congr
import proofs.«140670_j11424613007642_1_alg».proof.Proof.MlpBridge
import proofs.«140670_j11424613007642_1_alg».proof.Proof.Region4
import proofs.«140670_j11424613007642_1_alg».proof.Proof.LayerK4
import proofs.«140670_j11424613007642_1_alg».proof.Proof.LayerR4

set_option maxRecDepth 16384

noncomputable section

namespace Cert.Bridge

open Cert.KernelIdeal Cert.KernelIdeal.Gen Cert.KernelIdeal.GenP Cert.KernelIdeal.MlpArray
open Idealize.ShloMosaic Idealize.ShloMosaic.StableHlo Idealize.ShloMosaic.TcCoe Idealize.SL.Sem

set_option maxHeartbeats 4000000 in
theorem step4 (m : (ℓ : Loc nD τ sig) → Buf (Elt Ideal) ℓ) (ρ : Dev nD → PrngReg) (c : Dev nD) (V' : RV)
    (h : Inv3 (W22 m ρ c) V') :
    Inv4 (W28 m ρ c) (after Cert.ReferenceIdeal.RefRun.rseg4 V') := by
  obtain ⟨out, oidx, a, b, q, ia, ib, w1s, b1s, w2s, b2s, ⟨kout, rout⟩, ⟨koidx, roidx⟩, ⟨ka, ra⟩, ⟨kb, rb⟩, ⟨kq, rq⟩, ⟨kia, ria⟩, ⟨kib, rib⟩,
    ⟨kw1s, rw1s⟩, ⟨kb1s, rb1s⟩, ⟨kw2s, rw2s⟩, ⟨kb2s, rb2s⟩⟩ := h
  obtain ⟨Kdense, Kw1, Kb1, Kb1r, Kw2, Kb2, Kb2r, Koidx, Kxnew, Kqnew, Kkeepb, Kia, Kib, Kw1s, Kb1s, Kw2s, Kb2s⟩ :=
    Cert.KernelIdeal.Layer4.reads (F := Ideal) (W22 m ρ c)
  obtain ⟨Rdense, Rw1, Rb1, Rw2, Rb2⟩ := Cert.ReferenceIdeal.LayerR4.readsIn V'
  obtain ⟨Roidx, Rxnew, Rqnew, Rkeepb, Ria, Rib, Rw1s, Rb1s, Rw2s, Rb2s⟩ := Cert.ReferenceIdeal.LayerR4.reads V'
  have Rout := Cert.ReferenceIdeal.LayerR4.readsOut V'
  -- the kernel program's reads, at the eleven values
  have Kdense' := Kdense.trans (show _ = Cert.KernelIdeal.Layer4.f_dense ib a oidx out by simp only [kib, ka, koidx, kout])
  have Kw1' := Kw1.trans (show _ = Cert.KernelIdeal.Layer4.f_w1 w1s by simp only [kw1s])
  have Kb1r' := Kb1r.trans (show _ = Cert.KernelIdeal.Layer4.f_b1r b1s by simp only [kb1s])
  have Kw2' := Kw2.trans (show _ = Cert.KernelIdeal.Layer4.f_w2 w2s by simp only [kw2s])
  have Kb2r' := Kb2r.trans (show _ = Cert.KernelIdeal.Layer4.f_b2r b2s by simp only [kb2s])
  have Koidx' := Koidx.trans (show _ = Cert.KernelIdeal.Layer4.f_oidx ia by simp only [kia])
  have Kxnew' := Kxnew.trans (show _ = Cert.KernelIdeal.Layer4.f_xnew a oidx out by simp only [ka, koidx, kout])
  have Kqnew' := Kqnew.trans (show _ = Cert.KernelIdeal.Layer4.f_qnew q oidx out by simp only [kq, koidx, kout])
  -- the reference's reads, at the same values
  have Rdense' := Rdense.trans (show _ = Cert.KernelIdeal.Layer4.f_dense ib a oidx out by simp only [rib, ra, roidx, rout])
  have Rw1' := Rw1.trans (show _ = Cert.KernelIdeal.Layer4.f_w1 w1s by simp only [rw1s])
  have Rb1' := Rb1.trans (show _ = Cert.KernelIdeal.Layer4.f_b1 b1s by simp only [rb1s])
  have Rw2' := Rw2.trans (show _ = Cert.KernelIdeal.Layer4.f_w2 w2s by simp only [rw2s])
  have Rb2' := Rb2.trans (show _ = Cert.KernelIdeal.Layer4.f_b2 b2s by simp only [rb2s])
  have Roidx' := Roidx.trans (show _ = Cert.KernelIdeal.Layer4.f_oidx ia by simp only [ria])
  have Rxnew' := Rxnew.trans (show _ = Cert.KernelIdeal.Layer4.f_xnew a oidx out by simp only [ra, roidx, rout])
  have Rqnew' := Rqnew.trans (show _ = Cert.KernelIdeal.Layer4.f_qnew q oidx out by simp only [rq, roidx, rout])
  refine ⟨G (Cert.KernelIdeal.Layer4.f_dense ib a oidx out) (Cert.KernelIdeal.Layer4.f_w1 w1s) (Cert.KernelIdeal.Layer4.f_b1r b1s)
      (Cert.KernelIdeal.Layer4.f_w2 w2s) (Cert.KernelIdeal.Layer4.f_b2r b2s),
    Cert.KernelIdeal.Layer4.f_oidx ia, b, Cert.KernelIdeal.Layer4.f_xnew a oidx out, Cert.KernelIdeal.Layer4.f_qnew q oidx out,
    ia, ib, w1s, b1s, w2s, b2s, ⟨?_, ?_⟩,
    ⟨(W28_of_ne m ρ c Cert.KernelIdeal.main_v225 (by decide)).trans Koidx', Roidx'⟩,
    ⟨(W28_of_ne m ρ c Cert.KernelIdeal.main_v162 (by decide)).trans (Kkeepb.trans kb), Rkeepb.trans rb⟩,
    ⟨(W28_of_ne m ρ c Cert.KernelIdeal.main_v216 (by decide)).trans Kxnew', Rxnew'⟩,
    ⟨(W28_of_ne m ρ c Cert.KernelIdeal.main_v219 (by decide)).trans Kqnew', Rqnew'⟩,
    ⟨(W28_of_ne m ρ c Cert.KernelIdeal.main_v2 (by decide)).trans (Kia.trans kia), Ria.trans ria⟩, ⟨(W28_of_ne m ρ c Cert.KernelIdeal.main_v3 (by decide)).trans (Kib.trans kib), Rib.trans rib⟩,
    ⟨(W28_of_ne m ρ c Cert.KernelIdeal.main_arg2 (by decide)).trans (Kw1s.trans kw1s), Rw1s.trans rw1s⟩, ⟨(W28_of_ne m ρ c Cert.KernelIdeal.main_arg3 (by decide)).trans (Kb1s.trans kb1s), Rb1s.trans rb1s⟩, ⟨(W28_of_ne m ρ c Cert.KernelIdeal.main_arg4 (by decide)).trans (Kw2s.trans kw2s), Rw2s.trans rw2s⟩, ⟨(W28_of_ne m ρ c Cert.KernelIdeal.main_arg5 (by decide)).trans (Kb2s.trans kb2s), Rb2s.trans rb2s⟩⟩
  · -- the region's output array is the layer function of its operand arrays as it finds them
    exact (W28_arr m ρ c 5).trans ((Cert.KernelIdeal.Region4.regionOut (V27 m ρ) c).trans (G_congr Kdense' Kw1' Kb1r' Kw2' Kb2r'))
  · -- the reference's host perceptron of the same five arrays is the same function
    exact Rout.trans ((hostMlp_congr Rdense' Rw1' Rb1' Rw2' Rb2').trans (Cert.MlpBridge.host_eq_G _ _ _ _ _))

end Cert.Bridge

end
-- ==== Proof.Region5.lean ====
/-
  python3 scratch/gen_regions.py 5

  Kernel region 5 (one layer's perceptron): whatever the TensorCore's buffers hold when the region is entered,
  the region leaves its output array holding the layer function of its five operand arrays. The grid has eight
  points; point t is given rows 512·t … 512·t+511 of the input and all of both weight matrices and biases, and
  writes rows 512·t … 512·t+511 of the output. Entry (r, j) of the output depends on row r of the input alone, so
  each written block is the restriction of ONE whole-array function, and the eight blocks tile the output.
-/
import proofs.«140670_j11424613007642_1_alg».proof.Proof.KernelIdealFrameP
import proofs.«140670_j11424613007642_1_alg».proof.Proof.MlpKernel
import proofs.«140670_j11424613007642_1_alg».proof.Proof.MlpArray
import Idealize.ShloMosaic.Lib.Pipeline.Value
import Idealize.ShloMosaic.Lib.ValueIdx

set_option maxRecDepth 16384

noncomputable section

namespace Cert.KernelIdeal.Region5

open Cert.KernelIdeal Cert.KernelIdeal.Gen Cert.KernelIdeal.GenP Cert.KernelIdeal.MlpArray
open Idealize.ShloMosaic Idealize.ShloMosaic.TcCoe Idealize.ShloMosaic.ValueIdx Idealize.SL.Sem
open Idealize.ShloMosaic.Pipeline (Dat Cfg Window)

/-- The body reads and writes its staging buffers whole: at offsets zero. -/
theorem zero_offsets : (![0, 0] : Fin 2 → Nat) = fun _ => 0 := funext fun a => by fin_cases a <;> rfl

/-- The printed index maps over the grid: the input's and the output's row block is the grid point, every other
    block index is zero. -/
theorem block_indices : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The row function depends on its five arguments through their values alone. -/
theorem mlpRow_congr {d d' : Fin 2000 → EReal} {w1 w1' : Fin 2000 → Fin 64 → EReal} {b1 b1' : Fin 64 → EReal}
    {w2 w2' : Fin 64 → Fin 4000 → EReal} {b2 b2' : Fin 4000 → EReal}
    (hd : ∀ l, d l = d' l) (hw1 : ∀ l k, w1 l k = w1' l k) (hb1 : ∀ k, b1 k = b1' k)
    (hw2 : ∀ k j, w2 k j = w2' k j) (hb2 : ∀ j, b2 j = b2' j) (j : Fin 4000) :
    Cert.MlpSpec.mlpRow d w1 b1 w2 b2 j = Cert.MlpSpec.mlpRow d' w1' b1' w2' b2' j := by
  have e1 : d = d' := funext hd
  have e2 : w1 = w1' := funext fun l => funext (hw1 l)
  have e3 : b1 = b1' := funext hb1
  have e4 : w2 = w2' := funext fun k => funext (hw2 k)
  have e5 : b2 = b2' := funext hb2
  rw [e1, e2, e3, e4, e5]

/-- The payload of the operand arrays' blocks at point `t` is block `t` of the layer function of the arrays:
    entry `(p, q)` of the block is entry `(512·t + p, q)` of the array; the input's block holds rows
    `512·t + p`, and the weights' and biases' blocks are the whole arrays. -/
theorem payload_block (A0 : S4096x2000.Idx → EReal) (A1 : S2000x64.Idx → EReal) (A2 : S1x64.Idx → EReal)
    (A3 : S64x4000.Idx → EReal) (A4 : S1x4000.Idx → EReal) (t : Fin cfg5.N) :
    k5_pay1 (F := Ideal) (((cfg5.win 0).blk t).view.read (Elt Ideal) A0) (((cfg5.win 1).blk t).view.read (Elt Ideal) A1)
        (((cfg5.win 2).blk t).view.read (Elt Ideal) A2) (((cfg5.win 3).blk t).view.read (Elt Ideal) A3)
        (((cfg5.win 4).blk t).view.read (Elt Ideal) A4)
      = ((cfg5.win 5).blk t).view.read (Elt Ideal) (G A0 A1 A2 A3 A4) := by
  obtain ⟨e00, e01, e10, e11, e20, e21, e30, e31, e40, e41, e50, e51⟩ := block_indices t
  have hN : cfg5.N = 8 := rfl
  have ht : t.val < 8 := hN ▸ t.isLt
  rw [Cert.KernelIdeal.MlpKernel.pay5_eq]
  funext j
  obtain ⟨p, q, rfl⟩ : ∃ (p : Fin 512) (q : Fin 4000), j = ix2 p q := ⟨j 0, j 1, eq_ix2 j⟩
  refine (Cert.KernelIdeal.MlpKernel.pay_apply (((cfg5.win 0).blk t).view.read (Elt Ideal) A0)
    (((cfg5.win 1).blk t).view.read (Elt Ideal) A1) (((cfg5.win 2).blk t).view.read (Elt Ideal) A2)
    (((cfg5.win 3).blk t).view.read (Elt Ideal) A3) (((cfg5.win 4).blk t).view.read (Elt Ideal) A4) p q).trans ?_
  have h5 : ((cfg5.win 5).blk t).view.emb (ix2 p q)
      = ix2 (⟨t.val * 512 + p.val, by have := p.isLt; omega⟩ : Fin 4096) q := by
    funext a; apply Fin.ext
    match a with
    | ⟨0, _⟩ => show win5_5.index t (0 : Fin 2) * 512 + 1 * p.val = t.val * 512 + p.val; omega
    | ⟨1, _⟩ => show win5_5.index t (1 : Fin 2) * 4000 + 1 * q.val = q.val; omega
  show _ = G A0 A1 A2 A3 A4 (((cfg5.win 5).blk t).view.emb (ix2 p q))
  rw [h5, G_apply]
  refine mlpRow_congr (fun l => ?_) (fun l k => ?_) (fun k => ?_) (fun k j' => ?_) (fun j' => ?_) q
  · show A0 (((cfg5.win 0).blk t).view.emb (ix2 p l)) = A0 (ix2 (⟨t.val * 512 + p.val, by have := p.isLt; omega⟩ : Fin 4096) l)
    refine congrArg A0 ?_
    funext a; apply Fin.ext
    match a with
    | ⟨0, _⟩ => show win5_0.index t (0 : Fin 2) * 512 + 1 * p.val = t.val * 512 + p.val; omega
    | ⟨1, _⟩ => show win5_0.index t (1 : Fin 2) * 2000 + 1 * l.val = l.val; omega
  · show A1 (((cfg5.win 1).blk t).view.emb (ix2 l k)) = A1 (ix2 l k)
    refine congrArg A1 ?_
    funext a; apply Fin.ext
    match a with
    | ⟨0, _⟩ => show win5_1.index t (0 : Fin 2) * 2000 + 1 * l.val = l.val; omega
    | ⟨1, _⟩ => show win5_1.index t (1 : Fin 2) * 64 + 1 * k.val = k.val; omega
  · show A2 (((cfg5.win 2).blk t).view.emb (ix2 (0 : Fin 1) k)) = A2 (ix2 (0 : Fin 1) k)
    refine congrArg A2 ?_
    funext a; apply Fin.ext
    match a with
    | ⟨0, _⟩ => show win5_2.index t (0 : Fin 2) * 1 + 1 * 0 = 0; omega
    | ⟨1, _⟩ => show win5_2.index t (1 : Fin 2) * 64 + 1 * k.val = k.val; omega
  · show A3 (((cfg5.win 3).blk t).view.emb (ix2 k j')) = A3 (ix2 k j')
    refine congrArg A3 ?_
    funext a; apply Fin.ext
    match a with
    | ⟨0, _⟩ => show win5_3.index t (0 : Fin 2) * 64 + 1 * k.val = k.val; omega
    | ⟨1, _⟩ => show win5_3.index t (1 : Fin 2) * 4000 + 1 * j'.val = j'.val; omega
  · show A4 (((cfg5.win 4).blk t).view.emb (ix2 (0 : Fin 1) j')) = A4 (ix2 (0 : Fin 1) j')
    refine congrArg A4 ?_
    funext a; apply Fin.ext
    match a with
    | ⟨0, _⟩ => show win5_4.index t (0 : Fin 2) * 1 + 1 * 0 = 0; omega
    | ⟨1, _⟩ => show win5_4.index t (1 : Fin 2) * 4000 + 1 * j'.val = j'.val; omega

variable (V : (c : Dev nD) → (b : Ref sig .tc) → Buf (Elt Ideal) ((c : Thread nD τ).loc b))

/-- What point `t` writes back is block `t` of the layer function of the operand arrays as the region finds them. -/
theorem written_block (c : Dev nD) (t : Fin cfg5.N) :
    (dat5 V c).flushed 5 t = ((cfg5.win 5).blk t).view.read (Elt Ideal)
      (G (V c (Pipeline.arrRef spec5 0)) (V c (Pipeline.arrRef spec5 1)) (V c (Pipeline.arrRef spec5 2))
        (V c (Pipeline.arrRef spec5 3)) (V c (Pipeline.arrRef spec5 4))) := by
  show (cfg5.win 5).cut (grid5.coords t) ((dat5 V c).after 5 t) = _
  rw [after5_5]
  unfold out5_5
  rw [View.canon_unit_zero zero_offsets]
  simp only [View.ld_unit_zero (S := S512x2000) zero_offsets, View.ld_unit_zero (S := S2000x64) zero_offsets,
    View.ld_unit_zero (S := S1x64) zero_offsets, View.ld_unit_zero (S := S64x4000) zero_offsets,
    View.ld_unit_zero (S := S1x4000) zero_offsets]
  exact payload_block (V c (Pipeline.arrRef spec5 0)) (V c (Pipeline.arrRef spec5 1)) (V c (Pipeline.arrRef spec5 2))
    (V c (Pipeline.arrRef spec5 3)) (V c (Pipeline.arrRef spec5 4)) t

/-- An index of the output array is in point `t`'s block iff each coordinate is in the block's range on its axis. -/
theorem mem_block (t : Fin cfg5.N) (i : S4096x4000.Idx) :
    i ∈ ((cfg5.win 5).blk t).view.set ↔ ∀ a : Fin 2, win5_5.index t a * S512x4000.size a ≤ (i a).val
      ∧ (i a).val < win5_5.index t a * S512x4000.size a + S512x4000.size a := by
  show i ∈ ((View.whole main_v309).slice (win5_5.rect t)).set ↔ _
  rw [View.set_slice_whole, Rect.mem_set_unit]
  exact Iff.rfl

/-- Every entry of the output array is in some point's block: row `r` is written by point `r / 512`. -/
theorem cover (i : S4096x4000.Idx) :
    ∃ t : Fin cfg5.N, (cfg5.win 5).flush t = true ∧ i ∈ ((cfg5.win 5).blk t).view.set := by
  have hi0 : (i 0).val < 4096 := (i 0).isLt
  have hi1 : (i 1).val < 4000 := (i 1).isLt
  obtain ⟨t, htv⟩ : ∃ t : Fin cfg5.N, t.val = (i 0).val / 512 :=
    ⟨⟨(i 0).val / 512, by show (i 0).val / 512 < 8; omega⟩, rfl⟩
  obtain ⟨-, -, -, -, -, -, -, -, -, -, e50, e51⟩ := block_indices t
  refine ⟨t, flush5_5 t, ?_⟩
  rw [mem_block]
  intro a
  match a with
  | ⟨0, _⟩ =>
    show win5_5.index t (0 : Fin 2) * 512 ≤ (i 0).val ∧ (i 0).val < win5_5.index t (0 : Fin 2) * 512 + 512
    omega
  | ⟨1, _⟩ =>
    show win5_5.index t (1 : Fin 2) * 4000 ≤ (i 1).val ∧ (i 1).val < win5_5.index t (1 : Fin 2) * 4000 + 4000
    omega

/-- The region's output array after its eight write-backs: the layer function of the five operand arrays as the
    region finds them. -/
theorem regionOut (c : Dev nD) :
    (dat5 V c).arrAt 5 cfg5.N = Cert.KernelIdeal.MlpArray.G (V c (Pipeline.arrRef spec5 0))
      (V c (Pipeline.arrRef spec5 1)) (V c (Pipeline.arrRef spec5 2)) (V c (Pipeline.arrRef spec5 3))
      (V c (Pipeline.arrRef spec5 4)) :=
  (dat5 V c).arrAt_eq_of_cover 5
    (G (V c (Pipeline.arrRef spec5 0)) (V c (Pipeline.arrRef spec5 1)) (V c (Pipeline.arrRef spec5 2))
      (V c (Pipeline.arrRef spec5 3)) (V c (Pipeline.arrRef spec5 4)))
    (fun t _ => written_block V c t) cover

end Cert.KernelIdeal.Region5

end
-- ==== Proof.LayerK5.lean ====
/- The host operations the kernel program runs between kernel region 4 and kernel region 5, read as functions. Each buffer the
  next stage needs is written out as the composition of the operations that produce it from the buffers the stretch
  reads; a buffer the stretch does not write keeps its contents; and the fold of the stretch's operations at each of
  these buffers is that function of the contents the stretch starts from.
-/
import proofs.«140670_j11424613007642_1_alg».proof.Proof.Gen.KernelIdeal.Launch
import Idealize.ShloMosaic.Lib.StableHlo.Run

set_option maxRecDepth 16384

noncomputable section

namespace Cert.KernelIdeal.Layer5

open Cert.KernelIdeal Cert.KernelIdeal.Gen Idealize.ShloMosaic Idealize.ShloMosaic.StableHlo Idealize.ShloMosaic.TcCoe

variable {F : FTy → Type} [FloatOps F]

/-- Buffer main_v306 as a function of the buffers the stretch reads: its 64 operations, in program order. -/
def f_dense (x_main_v2 : (⟨S4096x64, .i32⟩ : BufTy).Contents (Elt F)) (x_main_v162 : (⟨S4096x64, .f32⟩ : BufTy).Contents (Elt F)) (x_main_v225 : (⟨S4096x128, .i32⟩ : BufTy).Contents (Elt F)) (x_main_v255 : (⟨S4096x4000, .f32⟩ : BufTy).Contents (Elt F)) :
    (⟨S4096x2000, .f32⟩ : BufTy).Contents (Elt F) :=
  have x_main_cst_58 : (⟨S_, .f32⟩ : BufTy).Contents (Elt F) := (constant S_ .f32 0x00000000#32)
  have x_main_v256 : (⟨S4096x1, .f32⟩ : BufTy).Contents (Elt F) := ((broadcastInDim S4096x1 ![] bcast_S_S4096x1 : (⟨S_, .f32⟩ : BufTy).Contents (Elt F) → (⟨S4096x1, .f32⟩ : BufTy).Contents (Elt F))) x_main_cst_58
  have x_main_v257 : (⟨S4096x4001, .f32⟩ : BufTy).Contents (Elt F) := (((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F))) x_main_v255 x_main_v256
  have x_main_call9_c : (⟨S_, .i32⟩ : BufTy).Contents (Elt F) := (constantI S_ 32 0#32)
  have x_main_call9_v0 : (⟨S4096x128, .i32⟩ : BufTy).Contents (Elt F) := ((broadcastInDim S4096x128 ![] bcast_S_S4096x128)) x_main_call9_c
  have x_main_call9_v1 : (⟨S4096x128, .i1⟩ : BufTy).Contents (Elt F) := ((cmpi .slt)) x_main_v225 x_main_call9_v0
  have x_main_call9_c_0 : (⟨S_, .i32⟩ : BufTy).Contents (Elt F) := (constantI S_ 32 4001#32)
  have x_main_call9_v2 : (⟨S4096x128, .i32⟩ : BufTy).Contents (Elt F) := ((broadcastInDim S4096x128 ![] bcast_S_S4096x128)) x_main_call9_c_0
  have x_main_call9_v3 : (⟨S4096x128, .i32⟩ : BufTy).Contents (Elt F) := (addi) x_main_v225 x_main_call9_v2
  have x_main_call9_v4 : (⟨S4096x128, .i32⟩ : BufTy).Contents (Elt F) := (select) x_main_call9_v1 x_main_call9_v3 x_main_v225
  have x_main_call9_v5 : (⟨S4096x128x1, .i32⟩ : BufTy).Contents (Elt F) := shapeCast S4096x128x1 x_main_call9_v4 shapeCasts_S4096x128_S4096x128x1
  have x_main_call9_c_1 : (⟨S1, .i32⟩ : BufTy).Contents (Elt F) := (constantI S1 32 4000#32)
  have x_main_call9_c_2 : (⟨S_, .i32⟩ : BufTy).Contents (Elt F) := (constantI S_ 32 0#32)
  have x_main_call9_v6 : (⟨S4096x128x1, .i32⟩ : BufTy).Contents (Elt F) := ((broadcastInDim S4096x128x1 ![] bcast_S_S4096x128x1)) x_main_call9_c_2
  have x_main_call9_v7 : (⟨S4096x128x1, .i1⟩ : BufTy).Contents (Elt F) := ((cmpi .sge)) x_main_call9_v5 x_main_call9_v6
  have x_main_call9_v8 : (⟨S1x1x1, .i32⟩ : BufTy).Contents (Elt F) := ((broadcastInDim S1x1x1 ![2] bcast_S1_S1x1x1_2)) x_main_call9_c_1
  have x_main_call9_v9 : (⟨S4096x128x1, .i32⟩ : BufTy).Contents (Elt F) := ((broadcastInDim S4096x128x1 ![0, 1, 2] bcast_S1x1x1_S4096x128x1_0_1_2)) x_main_call9_v8
  have x_main_call9_v10 : (⟨S4096x128x1, .i1⟩ : BufTy).Contents (Elt F) := ((cmpi .sle)) x_main_call9_v5 x_main_call9_v9
  have x_main_call9_v11 : (⟨S4096x128x1, .i1⟩ : BufTy).Contents (Elt F) := (andi) x_main_call9_v7 x_main_call9_v10
  have x_main_call9_c_3 : (⟨S_, .i1⟩ : BufTy).Contents (Elt F) := (constantI S_ 1 1#1)
  have x_main_call9_v12 : (⟨S4096x128, .i1⟩ : BufTy).Contents (Elt F) := ((fun x v => Host.reduce IntOp.andi x v reducesTo_S4096x128x1_S4096x128_d2 h_S_)) x_main_call9_v11 x_main_call9_c_3
  have x_main_call9_v13 : (⟨S4096x128, .f32⟩ : BufTy).Contents (Elt F) := ((fun x i => Host.gather gather_S4096x4001_S4096x128x1_S4096x128_n_1_0_0_1_2_11 x i)) x_main_v257 x_main_call9_v5
  have x_main_call9_cst : (⟨S_, .f32⟩ : BufTy).Contents (Elt F) := (constant S_ .f32 0x7FC00000#32)
  have x_main_call9_v14 : (⟨S4096x128, .f32⟩ : BufTy).Contents (Elt F) := ((broadcastInDim S4096x128 ![] bcast_S_S4096x128)) x_main_call9_cst
  have x_main_v258 : (⟨S4096x128, .f32⟩ : BufTy).Contents (Elt F) := (select) x_main_call9_v12 x_main_call9_v13 x_main_call9_v14
  have x_main_v259 : (⟨S4096x64, .f32⟩ : BufTy).Contents (Elt F) := (((extractStridedSlice S4096x64 ![0, 0] · slices_S4096x128_S4096x64_0_0) : (⟨S4096x128, .f32⟩ : BufTy).Contents (Elt F) → (⟨S4096x64, .f32⟩ : BufTy).Contents (Elt F))) x_main_v258
  have x_main_v260 : (⟨S4096x64, .f32⟩ : BufTy).Contents (Elt F) := (((extractStridedSlice S4096x64 ![0, 64] · slices_S4096x128_S4096x64_0_64) : (⟨S4096x128, .f32⟩ : BufTy).Contents (Elt F) → (⟨S4096x64, .f32⟩ : BufTy).Contents (Elt F))) x_main_v258
  have x_main_cst_59 : (⟨S_, .f32⟩ : BufTy).Contents (Elt F) := (constant S_ .f32 0x40000000#32)
  have x_main_v261 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_59
  have x_main_v262 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v259 x_main_v261
  have x_main_v263 : (⟨S4096x64, .f32⟩ : BufTy).Contents (Elt F) := ((Host.negf : (⟨S4096x64, .f32⟩ : BufTy).Contents (Elt F) → (⟨S4096x64, .f32⟩ : BufTy).Contents (Elt F))) x_main_v262
  have x_main_v264 : (⟨S4096x64, .f32⟩ : BufTy).Contents (Elt F) := ((Host.exp : (⟨S4096x64, .f32⟩ : BufTy).Contents (Elt F) → (⟨S4096x64, .f32⟩ : BufTy).Contents (Elt F))) x_main_v263
  have x_main_cst_60 : (⟨S_, .f32⟩ : BufTy).Contents (Elt F) := (constant S_ .f32 0x3F800000#32)
  have x_main_v265 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_60
  have x_main_v266 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v265 x_main_v264
  have x_main_cst_61 : (⟨S_, .f32⟩ : BufTy).Contents (Elt F) := (constant S_ .f32 0x3F800000#32)
  have x_main_v267 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_61
  have x_main_v268 : (⟨S4096x64, .f32⟩ : BufTy).Contents (Elt F) := ((Host.divf : (⟨S4096x64, .f32⟩ : BufTy).Contents (Elt F) → (⟨S4096x64, .f32⟩ : BufTy).Contents (Elt F) → (⟨S4096x64, .f32⟩ : BufTy).Contents (Elt F))) x_main_v267 x_main_v266
  have x_main_v269 : (⟨S4096x64, .f32⟩ : BufTy).Contents (Elt F) := ((mulf : (⟨S4096x64, .f32⟩ : BufTy).Contents (Elt F) → (⟨S4096x64, .f32⟩ : BufTy).Contents (Elt F) → (⟨S4096x64, .f32⟩ : BufTy).Contents (Elt F))) x_main_v268 x_main_v162
  have x_main_v270 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v269 x_main_v260
  have x_main_v288 : (⟨S4096, .i32⟩ : BufTy).Contents (Elt F) := (iotaInDim S4096 32 0)
  have x_main_v289 : (⟨S4096x1, .i32⟩ : BufTy).Contents (Elt F) := ((broadcastInDim S4096x1 ![0] bcast_S4096_S4096x1_0 : (⟨S4096, .i32⟩ : BufTy).Contents (Elt F) → (⟨S4096x1, .i32⟩ : BufTy).Contents (Elt F))) x_main_v288
  have x_main_cst_66 : (⟨S_, .f32⟩ : BufTy).Contents (Elt F) := (constant S_ .f32 0x00000000#32)
  have x_main_v290 : (⟨S4096x2001, .f32⟩ : BufTy).Contents (Elt F) := ((broadcastInDim S4096x2001 ![] bcast_S_S4096x2001 : (⟨S_, .f32⟩ : BufTy).Contents (Elt F) → (⟨S4096x2001, .f32⟩ : BufTy).Contents (Elt F))) x_main_cst_66
  have x_main_c_67 : (⟨S_, .i32⟩ : BufTy).Contents (Elt F) := (constantI S_ 32 0#32)
  have x_main_v291 : (⟨S4096x1, .i32⟩ : BufTy).Contents (Elt F) := ((broadcastInDim S4096x1 ![] bcast_S_S4096x1 : (⟨S_, .i32⟩ : BufTy).Contents (Elt F) → (⟨S4096x1, .i32⟩ : BufTy).Contents (Elt F))) x_main_c_67
  have x_main_v292 : (⟨S4096x1, .i1⟩ : BufTy).Contents (Elt F) := ((cmpi .slt : (⟨S4096x1, .i32⟩ : BufTy).Contents (Elt F) → (⟨S4096x1, .i32⟩ : BufTy).Contents (Elt F) → (⟨S4096x1, .i1⟩ : BufTy).Contents (Elt F))) x_main_v289 x_main_v291
  have x_main_c_68 : (⟨S_, .i32⟩ : BufTy).Contents (Elt F) := (constantI S_ 32 4096#32)
  have x_main_v293 : (⟨S4096x1, .i32⟩ : BufTy).Contents (Elt F) := ((broadcastInDim S4096x1 ![] bcast_S_S4096x1 : (⟨S_, .i32⟩ : BufTy).Contents (Elt F) → (⟨S4096x1, .i32⟩ : BufTy).Contents (Elt F))) x_main_c_68
  have x_main_v294 : (⟨S4096x1, .i32⟩ : BufTy).Contents (Elt F) := ((addi : (⟨S4096x1, .i32⟩ : BufTy).Contents (Elt F) → (⟨S4096x1, .i32⟩ : BufTy).Contents (Elt F) → (⟨S4096x1, .i32⟩ : BufTy).Contents (Elt F))) x_main_v289 x_main_v293
  have x_main_v295 : (⟨S4096x1, .i32⟩ : BufTy).Contents (Elt F) := ((select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F))) x_main_v292 x_main_v294 x_main_v289
  have x_main_c_69 : (⟨S_, .i32⟩ : BufTy).Contents (Elt F) := (constantI S_ 32 0#32)
  have x_main_v296 : (⟨S4096x64, .i32⟩ : BufTy).Contents (Elt F) := ((broadcastInDim S4096x64 ![] bcast_S_S4096x64 : (⟨S_, .i32⟩ : BufTy).Contents (Elt F) → (⟨S4096x64, .i32⟩ : BufTy).Contents (Elt F))) x_main_c_69
  have x_main_v297 : (⟨S4096x64, .i1⟩ : BufTy).Contents (Elt F) := ((cmpi .slt : (⟨S4096x64, .i32⟩ : BufTy).Contents (Elt F) → (⟨S4096x64, .i32⟩ : BufTy).Contents (Elt F) → (⟨S4096x64, .i1⟩ : BufTy).Contents (Elt F))) x_main_v2 x_main_v296
  have x_main_c_70 : (⟨S_, .i32⟩ : BufTy).Contents (Elt F) := (constantI S_ 32 2001#32)
  have x_main_v298 : (⟨S4096x64, .i32⟩ : BufTy).Contents (Elt F) := ((broadcastInDim S4096x64 ![] bcast_S_S4096x64 : (⟨S_, .i32⟩ : BufTy).Contents (Elt F) → (⟨S4096x64, .i32⟩ : BufTy).Contents (Elt F))) x_main_c_70
  have x_main_v299 : (⟨S4096x64, .i32⟩ : BufTy).Contents (Elt F) := ((addi : (⟨S4096x64, .i32⟩ : BufTy).Contents (Elt F) → (⟨S4096x64, .i32⟩ : BufTy).Contents (Elt F) → (⟨S4096x64, .i32⟩ : BufTy).Contents (Elt F))) x_main_v2 x_main_v298
  have x_main_v300 : (⟨S4096x64, .i32⟩ : BufTy).Contents (Elt F) := ((select : (⟨S4096x64, .i1⟩ : BufTy).Contents (Elt F) → (⟨S4096x64, .i32⟩ : BufTy).Contents (Elt F) → (⟨S4096x64, .i32⟩ : BufTy).Contents (Elt F) → (⟨S4096x64, .i32⟩ : BufTy).Contents (Elt F))) x_main_v297 x_main_v299 x_main_v2
  have x_main_v301 : (⟨S4096x64, .i32⟩ : BufTy).Contents (Elt F) := ((broadcastInDim S4096x64 ![0, 1] bcast_S4096x1_S4096x64_0_1 : (⟨S4096x1, .i32⟩ : BufTy).Contents (Elt F) → (⟨S4096x64, .i32⟩ : BufTy).Contents (Elt F))) x_main_v295
  have x_main_v302 : (⟨S4096x64x1, .i32⟩ : BufTy).Contents (Elt F) := ((broadcastInDim S4096x64x1 ![0, 1] bcast_S4096x64_S4096x64x1_0_1 : (⟨S4096x64, .i32⟩ : BufTy).Contents (Elt F) → (⟨S4096x64x1, .i32⟩ : BufTy).Contents (Elt F))) x_main_v301
  have x_main_v303 : (⟨S4096x64x1, .i32⟩ : BufTy).Contents (Elt F) := ((broadcastInDim S4096x64x1 ![0, 1] bcast_S4096x64_S4096x64x1_0_1 : (⟨S4096x64, .i32⟩ : BufTy).Contents (Elt F) → (⟨S4096x64x1, .i32⟩ : BufTy).Contents (Elt F))) x_main_v300
  have x_main_v304 : (⟨S4096x64x2, .i32⟩ : BufTy).Contents (Elt F) := (((fun a b => concatenate S4096x64x2 2 [⟨S4096x64x1, a⟩, ⟨S4096x64x1, b⟩] concatenates_S4096x64x1_S4096x64x1_S4096x64x2_d2) : (⟨S4096x64x1, .i32⟩ : BufTy).Contents (Elt F) → (⟨S4096x64x1, .i32⟩ : BufTy).Contents (Elt F) → (⟨S4096x64x2, .i32⟩ : BufTy).Contents (Elt F))) x_main_v302 x_main_v303
  have x_main_v305 : (⟨S4096x2001, .f32⟩ : BufTy).Contents (Elt F) := (((fun x i u => Host.scatterAdd scatter_S4096x2001_S4096x64x2_S4096x64_n_01_01_2 x i u) : (⟨S4096x2001, .f32⟩ : BufTy).Contents (Elt F) → (⟨S4096x64x2, .i32⟩ : BufTy).Contents (Elt F) → (⟨S4096x64, .f32⟩ : BufTy).Contents (Elt F) → (⟨S4096x2001, .f32⟩ : BufTy).Contents (Elt F))) x_main_v290 x_main_v304 x_main_v270
  have x_main_v306 : (⟨S4096x2000, .f32⟩ : BufTy).Contents (Elt F) := (((extractStridedSlice S4096x2000 ![0, 0] · slices_S4096x2001_S4096x2000_0_0) : (⟨S4096x2001, .f32⟩ : BufTy).Contents (Elt F) → (⟨S4096x2000, .f32⟩ : BufTy).Contents (Elt F))) x_main_v305
  x_main_v306

/-- Buffer main_v281 as a function of the buffers the stretch reads: its 2 operations, in program order. -/
def f_w1 (x_main_arg2 : (⟨S10x2000x64, .f32⟩ : BufTy).Contents (Elt F)) :
    (⟨S2000x64, .f32⟩ : BufTy).Contents (Elt F) :=
  have x_main_v280 : (⟨S1x2000x64, .f32⟩ : BufTy).Contents (Elt F) := (((extractStridedSlice S1x2000x64 ![5, 0, 0] · slices_S10x2000x64_S1x2000x64_5_0_0) : (⟨S10x2000x64, .f32⟩ : BufTy).Contents (Elt F) → (⟨S1x2000x64, .f32⟩ : BufTy).Contents (Elt F))) x_main_arg2
  have x_main_v281 : (⟨S2000x64, .f32⟩ : BufTy).Contents (Elt F) := shapeCast S2000x64 x_main_v280 shapeCasts_S1x2000x64_S2000x64
  x_main_v281

/-- Buffer main_v283 as a function of the buffers the stretch reads: its 2 operations, in program order. -/
def f_b1 (x_main_arg3 : (⟨S10x64, .f32⟩ : BufTy).Contents (Elt F)) :
    (⟨S64, .f32⟩ : BufTy).Contents (Elt F) :=
  have x_main_v282 : (⟨S1x64, .f32⟩ : BufTy).Contents (Elt F) := (((extractStridedSlice S1x64 ![5, 0] · slices_S10x64_S1x64_5_0) : (⟨S10x64, .f32⟩ : BufTy).Contents (Elt F) → (⟨S1x64, .f32⟩ : BufTy).Contents (Elt F))) x_main_arg3
  have x_main_v283 : (⟨S64, .f32⟩ : BufTy).Contents (Elt F) := shapeCast S64 x_main_v282 shapeCasts_S1x64_S64
  x_main_v283

/-- Buffer main_v307 as a function of the buffers the stretch reads: its 3 operations, in program order. -/
def f_b1r (x_main_arg3 : (⟨S10x64, .f32⟩ : BufTy).Contents (Elt F)) :
    (⟨S1x64, .f32⟩ : BufTy).Contents (Elt F) :=
  have x_main_v282 : (⟨S1x64, .f32⟩ : BufTy).Contents (Elt F) := (((extractStridedSlice S1x64 ![5, 0] · slices_S10x64_S1x64_5_0) : (⟨S10x64, .f32⟩ : BufTy).Contents (Elt F) → (⟨S1x64, .f32⟩ : BufTy).Contents (Elt F))) x_main_arg3
  have x_main_v283 : (⟨S64, .f32⟩ : BufTy).Contents (Elt F) := shapeCast S64 x_main_v282 shapeCasts_S1x64_S64
  have x_main_v307 : (⟨S1x64, .f32⟩ : BufTy).Contents (Elt F) := shapeCast S1x64 x_main_v283 shapeCasts_S64_S1x64
  x_main_v307

/-- Buffer main_v285 as a function of the buffers the stretch reads: its 2 operations, in program order. -/
def f_w2 (x_main_arg4 : (⟨S10x64x4000, .f32⟩ : BufTy).Contents (Elt F)) :
    (⟨S64x4000, .f32⟩ : BufTy).Contents (Elt F) :=
  have x_main_v284 : (⟨S1x64x4000, .f32⟩ : BufTy).Contents (Elt F) := (((extractStridedSlice S1x64x4000 ![5, 0, 0] · slices_S10x64x4000_S1x64x4000_5_0_0) : (⟨S10x64x4000, .f32⟩ : BufTy).Contents (Elt F) → (⟨S1x64x4000, .f32⟩ : BufTy).Contents (Elt F))) x_main_arg4
  have x_main_v285 : (⟨S64x4000, .f32⟩ : BufTy).Contents (Elt F) := shapeCast S64x4000 x_main_v284 shapeCasts_S1x64x4000_S64x4000
  x_main_v285

/-- Buffer main_v287 as a function of the buffers the stretch reads: its 2 operations, in program order. -/
def f_b2 (x_main_arg5 : (⟨S10x4000, .f32⟩ : BufTy).Contents (Elt F)) :
    (⟨S4000, .f32⟩ : BufTy).Contents (Elt F) :=
  have x_main_v286 : (⟨S1x4000, .f32⟩ : BufTy).Contents (Elt F) := (((extractStridedSlice S1x4000 ![5, 0] · slices_S10x4000_S1x4000_5_0) : (⟨S10x4000, .f32⟩ : BufTy).Contents (Elt F) → (⟨S1x4000, .f32⟩ : BufTy).Contents (Elt F))) x_main_arg5
  have x_main_v287 : (⟨S4000, .f32⟩ : BufTy).Contents (Elt F) := shapeCast S4000 x_main_v286 shapeCasts_S1x4000_S4000
  x_main_v287

/-- Buffer main_v308 as a function of the buffers the stretch reads: its 3 operations, in program order. -/
def f_b2r (x_main_arg5 : (⟨S10x4000, .f32⟩ : BufTy).Contents (Elt F)) :
    (⟨S1x4000, .f32⟩ : BufTy).Contents (Elt F) :=
  have x_main_v286 : (⟨S1x4000, .f32⟩ : BufTy).Contents (Elt F) := (((extractStridedSlice S1x4000 ![5, 0] · slices_S10x4000_S1x4000_5_0) : (⟨S10x4000, .f32⟩ : BufTy).Contents (Elt F) → (⟨S1x4000, .f32⟩ : BufTy).Contents (Elt F))) x_main_arg5
  have x_main_v287 : (⟨S4000, .f32⟩ : BufTy).Contents (Elt F) := shapeCast S4000 x_main_v286 shapeCasts_S1x4000_S4000
  have x_main_v308 : (⟨S1x4000, .f32⟩ : BufTy).Contents (Elt F) := shapeCast S1x4000 x_main_v287 shapeCasts_S4000_S1x4000
  x_main_v308

/-- Buffer main_v279 as a function of the buffers the stretch reads: its 11 operations, in program order. -/
def f_oidx (x_main_v3 : (⟨S4096x61, .i32⟩ : BufTy).Contents (Elt F)) :
    (⟨S4096x122, .i32⟩ : BufTy).Contents (Elt F) :=
  have x_main_c_63 : (⟨S_, .i32⟩ : BufTy).Contents (Elt F) := (constantI S_ 32 2000#32)
  have x_main_v274 : (⟨S4096x61, .i32⟩ : BufTy).Contents (Elt F) := ((broadcastInDim S4096x61 ![] bcast_S_S4096x61 : (⟨S_, .i32⟩ : BufTy).Contents (Elt F) → (⟨S4096x61, .i32⟩ : BufTy).Contents (Elt F))) x_main_c_63
  have x_main_v275 : (⟨S4096x61, .i1⟩ : BufTy).Contents (Elt F) := ((cmpi .eq : (⟨S4096x61, .i32⟩ : BufTy).Contents (Elt F) → (⟨S4096x61, .i32⟩ : BufTy).Contents (Elt F) → (⟨S4096x61, .i1⟩ : BufTy).Contents (Elt F))) x_main_v3 x_main_v274
  have x_main_c_64 : (⟨S_, .i32⟩ : BufTy).Contents (Elt F) := (constantI S_ 32 2000#32)
  have x_main_v276 : (⟨S4096x61, .i32⟩ : BufTy).Contents (Elt F) := ((broadcastInDim S4096x61 ![] bcast_S_S4096x61 : (⟨S_, .i32⟩ : BufTy).Contents (Elt F) → (⟨S4096x61, .i32⟩ : BufTy).Contents (Elt F))) x_main_c_64
  have x_main_v277 : (⟨S4096x61, .i32⟩ : BufTy).Contents (Elt F) := ((addi : (⟨S4096x61, .i32⟩ : BufTy).Contents (Elt F) → (⟨S4096x61, .i32⟩ : BufTy).Contents (Elt F) → (⟨S4096x61, .i32⟩ : BufTy).Contents (Elt F))) x_main_v3 x_main_v276
  have x_main_c_65 : (⟨S_, .i32⟩ : BufTy).Contents (Elt F) := (constantI S_ 32 4000#32)
  have x_main_call10_v0 : (⟨S_, .i32⟩ : BufTy).Contents (Elt F) := (id) x_main_c_65
  have x_main_call10_v1 : (⟨S4096x61, .i32⟩ : BufTy).Contents (Elt F) := ((broadcastInDim S4096x61 ![] bcast_S_S4096x61)) x_main_call10_v0
  have x_main_v278 : (⟨S4096x61, .i32⟩ : BufTy).Contents (Elt F) := (select) x_main_v275 x_main_call10_v1 x_main_v277
  have x_main_v279 : (⟨S4096x122, .i32⟩ : BufTy).Contents (Elt F) := (((fun a b => concatenate S4096x122 1 [⟨S4096x61, a⟩, ⟨S4096x61, b⟩] concatenates_S4096x61_S4096x61_S4096x122_d1) : (⟨S4096x61, .i32⟩ : BufTy).Contents (Elt F) → (⟨S4096x61, .i32⟩ : BufTy).Contents (Elt F) → (⟨S4096x122, .i32⟩ : BufTy).Contents (Elt F))) x_main_v3 x_main_v278
  x_main_v279

/-- Buffer main_v270 as a function of the buffers the stretch reads: its 40 operations, in program order. -/
def f_xnew (x_main_v162 : (⟨S4096x64, .f32⟩ : BufTy).Contents (Elt F)) (x_main_v225 : (⟨S4096x128, .i32⟩ : BufTy).Contents (Elt F)) (x_main_v255 : (⟨S4096x4000, .f32⟩ : BufTy).Contents (Elt F)) :
    (⟨S4096x64, .f32⟩ : BufTy).Contents (Elt F) :=
  have x_main_cst_58 : (⟨S_, .f32⟩ : BufTy).Contents (Elt F) := (constant S_ .f32 0x00000000#32)
  have x_main_v256 : (⟨S4096x1, .f32⟩ : BufTy).Contents (Elt F) := ((broadcastInDim S4096x1 ![] bcast_S_S4096x1 : (⟨S_, .f32⟩ : BufTy).Contents (Elt F) → (⟨S4096x1, .f32⟩ : BufTy).Contents (Elt F))) x_main_cst_58
  have x_main_v257 : (⟨S4096x4001, .f32⟩ : BufTy).Contents (Elt F) := (((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F))) x_main_v255 x_main_v256
  have x_main_call9_c : (⟨S_, .i32⟩ : BufTy).Contents (Elt F) := (constantI S_ 32 0#32)
  have x_main_call9_v0 : (⟨S4096x128, .i32⟩ : BufTy).Contents (Elt F) := ((broadcastInDim S4096x128 ![] bcast_S_S4096x128)) x_main_call9_c
  have x_main_call9_v1 : (⟨S4096x128, .i1⟩ : BufTy).Contents (Elt F) := ((cmpi .slt)) x_main_v225 x_main_call9_v0
  have x_main_call9_c_0 : (⟨S_, .i32⟩ : BufTy).Contents (Elt F) := (constantI S_ 32 4001#32)
  have x_main_call9_v2 : (⟨S4096x128, .i32⟩ : BufTy).Contents (Elt F) := ((broadcastInDim S4096x128 ![] bcast_S_S4096x128)) x_main_call9_c_0
  have x_main_call9_v3 : (⟨S4096x128, .i32⟩ : BufTy).Contents (Elt F) := (addi) x_main_v225 x_main_call9_v2
  have x_main_call9_v4 : (⟨S4096x128, .i32⟩ : BufTy).Contents (Elt F) := (select) x_main_call9_v1 x_main_call9_v3 x_main_v225
  have x_main_call9_v5 : (⟨S4096x128x1, .i32⟩ : BufTy).Contents (Elt F) := shapeCast S4096x128x1 x_main_call9_v4 shapeCasts_S4096x128_S4096x128x1
  have x_main_call9_c_1 : (⟨S1, .i32⟩ : BufTy).Contents (Elt F) := (constantI S1 32 4000#32)
  have x_main_call9_c_2 : (⟨S_, .i32⟩ : BufTy).Contents (Elt F) := (constantI S_ 32 0#32)
  have x_main_call9_v6 : (⟨S4096x128x1, .i32⟩ : BufTy).Contents (Elt F) := ((broadcastInDim S4096x128x1 ![] bcast_S_S4096x128x1)) x_main_call9_c_2
  have x_main_call9_v7 : (⟨S4096x128x1, .i1⟩ : BufTy).Contents (Elt F) := ((cmpi .sge)) x_main_call9_v5 x_main_call9_v6
  have x_main_call9_v8 : (⟨S1x1x1, .i32⟩ : BufTy).Contents (Elt F) := ((broadcastInDim S1x1x1 ![2] bcast_S1_S1x1x1_2)) x_main_call9_c_1
  have x_main_call9_v9 : (⟨S4096x128x1, .i32⟩ : BufTy).Contents (Elt F) := ((broadcastInDim S4096x128x1 ![0, 1, 2] bcast_S1x1x1_S4096x128x1_0_1_2)) x_main_call9_v8
  have x_main_call9_v10 : (⟨S4096x128x1, .i1⟩ : BufTy).Contents (Elt F) := ((cmpi .sle)) x_main_call9_v5 x_main_call9_v9
  have x_main_call9_v11 : (⟨S4096x128x1, .i1⟩ : BufTy).Contents (Elt F) := (andi) x_main_call9_v7 x_main_call9_v10
  have x_main_call9_c_3 : (⟨S_, .i1⟩ : BufTy).Contents (Elt F) := (constantI S_ 1 1#1)
  have x_main_call9_v12 : (⟨S4096x128, .i1⟩ : BufTy).Contents (Elt F) := ((fun x v => Host.reduce IntOp.andi x v reducesTo_S4096x128x1_S4096x128_d2 h_S_)) x_main_call9_v11 x_main_call9_c_3
  have x_main_call9_v13 : (⟨S4096x128, .f32⟩ : BufTy).Contents (Elt F) := ((fun x i => Host.gather gather_S4096x4001_S4096x128x1_S4096x128_n_1_0_0_1_2_11 x i)) x_main_v257 x_main_call9_v5
  have x_main_call9_cst : (⟨S_, .f32⟩ : BufTy).Contents (Elt F) := (constant S_ .f32 0x7FC00000#32)
  have x_main_call9_v14 : (⟨S4096x128, .f32⟩ : BufTy).Contents (Elt F) := ((broadcastInDim S4096x128 ![] bcast_S_S4096x128)) x_main_call9_cst
  have x_main_v258 : (⟨S4096x128, .f32⟩ : BufTy).Contents (Elt F) := (select) x_main_call9_v12 x_main_call9_v13 x_main_call9_v14
  have x_main_v259 : (⟨S4096x64, .f32⟩ : BufTy).Contents (Elt F) := (((extractStridedSlice S4096x64 ![0, 0] · slices_S4096x128_S4096x64_0_0) : (⟨S4096x128, .f32⟩ : BufTy).Contents (Elt F) → (⟨S4096x64, .f32⟩ : BufTy).Contents (Elt F))) x_main_v258
  have x_main_v260 : (⟨S4096x64, .f32⟩ : BufTy).Contents (Elt F) := (((extractStridedSlice S4096x64 ![0, 64] · slices_S4096x128_S4096x64_0_64) : (⟨S4096x128, .f32⟩ : BufTy).Contents (Elt F) → (⟨S4096x64, .f32⟩ : BufTy).Contents (Elt F))) x_main_v258
  have x_main_cst_59 : (⟨S_, .f32⟩ : BufTy).Contents (Elt F) := (constant S_ .f32 0x40000000#32)
  have x_main_v261 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_59
  have x_main_v262 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v259 x_main_v261
  have x_main_v263 : (⟨S4096x64, .f32⟩ : BufTy).Contents (Elt F) := ((Host.negf : (⟨S4096x64, .f32⟩ : BufTy).Contents (Elt F) → (⟨S4096x64, .f32⟩ : BufTy).Contents (Elt F))) x_main_v262
  have x_main_v264 : (⟨S4096x64, .f32⟩ : BufTy).Contents (Elt F) := ((Host.exp : (⟨S4096x64, .f32⟩ : BufTy).Contents (Elt F) → (⟨S4096x64, .f32⟩ : BufTy).Contents (Elt F))) x_main_v263
  have x_main_cst_60 : (⟨S_, .f32⟩ : BufTy).Contents (Elt F) := (constant S_ .f32 0x3F800000#32)
  have x_main_v265 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_60
  have x_main_v266 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v265 x_main_v264
  have x_main_cst_61 : (⟨S_, .f32⟩ : BufTy).Contents (Elt F) := (constant S_ .f32 0x3F800000#32)
  have x_main_v267 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_61
  have x_main_v268 : (⟨S4096x64, .f32⟩ : BufTy).Contents (Elt F) := ((Host.divf : (⟨S4096x64, .f32⟩ : BufTy).Contents (Elt F) → (⟨S4096x64, .f32⟩ : BufTy).Contents (Elt F) → (⟨S4096x64, .f32⟩ : BufTy).Contents (Elt F))) x_main_v267 x_main_v266
  have x_main_v269 : (⟨S4096x64, .f32⟩ : BufTy).Contents (Elt F) := ((mulf : (⟨S4096x64, .f32⟩ : BufTy).Contents (Elt F) → (⟨S4096x64, .f32⟩ : BufTy).Contents (Elt F) → (⟨S4096x64, .f32⟩ : BufTy).Contents (Elt F))) x_main_v268 x_main_v162
  have x_main_v270 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v269 x_main_v260
  x_main_v270

/-- Buffer main_v273 as a function of the buffers the stretch reads: its 41 operations, in program order. -/
def f_qnew (x_main_v219 : (⟨S4096, .f32⟩ : BufTy).Contents (Elt F)) (x_main_v225 : (⟨S4096x128, .i32⟩ : BufTy).Contents (Elt F)) (x_main_v255 : (⟨S4096x4000, .f32⟩ : BufTy).Contents (Elt F)) :
    (⟨S4096, .f32⟩ : BufTy).Contents (Elt F) :=
  have x_main_cst_58 : (⟨S_, .f32⟩ : BufTy).Contents (Elt F) := (constant S_ .f32 0x00000000#32)
  have x_main_v256 : (⟨S4096x1, .f32⟩ : BufTy).Contents (Elt F) := ((broadcastInDim S4096x1 ![] bcast_S_S4096x1 : (⟨S_, .f32⟩ : BufTy).Contents (Elt F) → (⟨S4096x1, .f32⟩ : BufTy).Contents (Elt F))) x_main_cst_58
  have x_main_v257 : (⟨S4096x4001, .f32⟩ : BufTy).Contents (Elt F) := (((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F))) x_main_v255 x_main_v256
  have x_main_call9_c : (⟨S_, .i32⟩ : BufTy).Contents (Elt F) := (constantI S_ 32 0#32)
  have x_main_call9_v0 : (⟨S4096x128, .i32⟩ : BufTy).Contents (Elt F) := ((broadcastInDim S4096x128 ![] bcast_S_S4096x128)) x_main_call9_c
  have x_main_call9_v1 : (⟨S4096x128, .i1⟩ : BufTy).Contents (Elt F) := ((cmpi .slt)) x_main_v225 x_main_call9_v0
  have x_main_call9_c_0 : (⟨S_, .i32⟩ : BufTy).Contents (Elt F) := (constantI S_ 32 4001#32)
  have x_main_call9_v2 : (⟨S4096x128, .i32⟩ : BufTy).Contents (Elt F) := ((broadcastInDim S4096x128 ![] bcast_S_S4096x128)) x_main_call9_c_0
  have x_main_call9_v3 : (⟨S4096x128, .i32⟩ : BufTy).Contents (Elt F) := (addi) x_main_v225 x_main_call9_v2
  have x_main_call9_v4 : (⟨S4096x128, .i32⟩ : BufTy).Contents (Elt F) := (select) x_main_call9_v1 x_main_call9_v3 x_main_v225
  have x_main_call9_v5 : (⟨S4096x128x1, .i32⟩ : BufTy).Contents (Elt F) := shapeCast S4096x128x1 x_main_call9_v4 shapeCasts_S4096x128_S4096x128x1
  have x_main_call9_c_1 : (⟨S1, .i32⟩ : BufTy).Contents (Elt F) := (constantI S1 32 4000#32)
  have x_main_call9_c_2 : (⟨S_, .i32⟩ : BufTy).Contents (Elt F) := (constantI S_ 32 0#32)
  have x_main_call9_v6 : (⟨S4096x128x1, .i32⟩ : BufTy).Contents (Elt F) := ((broadcastInDim S4096x128x1 ![] bcast_S_S4096x128x1)) x_main_call9_c_2
  have x_main_call9_v7 : (⟨S4096x128x1, .i1⟩ : BufTy).Contents (Elt F) := ((cmpi .sge)) x_main_call9_v5 x_main_call9_v6
  have x_main_call9_v8 : (⟨S1x1x1, .i32⟩ : BufTy).Contents (Elt F) := ((broadcastInDim S1x1x1 ![2] bcast_S1_S1x1x1_2)) x_main_call9_c_1
  have x_main_call9_v9 : (⟨S4096x128x1, .i32⟩ : BufTy).Contents (Elt F) := ((broadcastInDim S4096x128x1 ![0, 1, 2] bcast_S1x1x1_S4096x128x1_0_1_2)) x_main_call9_v8
  have x_main_call9_v10 : (⟨S4096x128x1, .i1⟩ : BufTy).Contents (Elt F) := ((cmpi .sle)) x_main_call9_v5 x_main_call9_v9
  have x_main_call9_v11 : (⟨S4096x128x1, .i1⟩ : BufTy).Contents (Elt F) := (andi) x_main_call9_v7 x_main_call9_v10
  have x_main_call9_c_3 : (⟨S_, .i1⟩ : BufTy).Contents (Elt F) := (constantI S_ 1 1#1)
  have x_main_call9_v12 : (⟨S4096x128, .i1⟩ : BufTy).Contents (Elt F) := ((fun x v => Host.reduce IntOp.andi x v reducesTo_S4096x128x1_S4096x128_d2 h_S_)) x_main_call9_v11 x_main_call9_c_3
  have x_main_call9_v13 : (⟨S4096x128, .f32⟩ : BufTy).Contents (Elt F) := ((fun x i => Host.gather gather_S4096x4001_S4096x128x1_S4096x128_n_1_0_0_1_2_11 x i)) x_main_v257 x_main_call9_v5
  have x_main_call9_cst : (⟨S_, .f32⟩ : BufTy).Contents (Elt F) := (constant S_ .f32 0x7FC00000#32)
  have x_main_call9_v14 : (⟨S4096x128, .f32⟩ : BufTy).Contents (Elt F) := ((broadcastInDim S4096x128 ![] bcast_S_S4096x128)) x_main_call9_cst
  have x_main_v258 : (⟨S4096x128, .f32⟩ : BufTy).Contents (Elt F) := (select) x_main_call9_v12 x_main_call9_v13 x_main_call9_v14
  have x_main_v259 : (⟨S4096x64, .f32⟩ : BufTy).Contents (Elt F) := (((extractStridedSlice S4096x64 ![0, 0] · slices_S4096x128_S4096x64_0_0) : (⟨S4096x128, .f32⟩ : BufTy).Contents (Elt F) → (⟨S4096x64, .f32⟩ : BufTy).Contents (Elt F))) x_main_v258
  have x_main_cst_59 : (⟨S_, .f32⟩ : BufTy).Contents (Elt F) := (constant S_ .f32 0x40000000#32)
  have x_main_v261 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_59
  have x_main_v262 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v259 x_main_v261
  have x_main_v263 : (⟨S4096x64, .f32⟩ : BufTy).Contents (Elt F) := ((Host.negf : (⟨S4096x64, .f32⟩ : BufTy).Contents (Elt F) → (⟨S4096x64, .f32⟩ : BufTy).Contents (Elt F))) x_main_v262
  have x_main_v264 : (⟨S4096x64, .f32⟩ : BufTy).Contents (Elt F) := ((Host.exp : (⟨S4096x64, .f32⟩ : BufTy).Contents (Elt F) → (⟨S4096x64, .f32⟩ : BufTy).Contents (Elt F))) x_main_v263
  have x_main_cst_60 : (⟨S_, .f32⟩ : BufTy).Contents (Elt F) := (constant S_ .f32 0x3F800000#32)
  have x_main_v265 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_60
  have x_main_v266 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v265 x_main_v264
  have x_main_cst_61 : (⟨S_, .f32⟩ : BufTy).Contents (Elt F) := (constant S_ .f32 0x3F800000#32)
  have x_main_v267 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_61
  have x_main_v268 : (⟨S4096x64, .f32⟩ : BufTy).Contents (Elt F) := ((Host.divf : (⟨S4096x64, .f32⟩ : BufTy).Contents (Elt F) → (⟨S4096x64, .f32⟩ : BufTy).Contents (Elt F) → (⟨S4096x64, .f32⟩ : BufTy).Contents (Elt F))) x_main_v267 x_main_v266
  have x_main_v271 : (⟨S4096x64, .f32⟩ : BufTy).Contents (Elt F) := ((Host.log : (⟨S4096x64, .f32⟩ : BufTy).Contents (Elt F) → (⟨S4096x64, .f32⟩ : BufTy).Contents (Elt F))) x_main_v268
  have x_main_cst_62 : (⟨S_, .f32⟩ : BufTy).Contents (Elt F) := (constant S_ .f32 0x00000000#32)
  have x_main_v272 : (⟨S4096, .f32⟩ : BufTy).Contents (Elt F) := (((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F))) x_main_v271 x_main_cst_62
  have x_main_v273 : (⟨S4096, .f32⟩ : BufTy).Contents (Elt F) := ((subf : (⟨S4096, .f32⟩ : BufTy).Contents (Elt F) → (⟨S4096, .f32⟩ : BufTy).Contents (Elt F) → (⟨S4096, .f32⟩ : BufTy).Contents (Elt F))) x_main_v219 x_main_v272
  x_main_v273

-- the gather, the scatter and the reductions are never opened: both sides apply them to equal arguments
attribute [local irreducible] Host.scatterAdd Host.reduce Host.gather Host.reduceAdd concatenate extractStridedSlice broadcastInDim iotaInDim in
set_option maxHeartbeats 8000000 in
set_option maxRecDepth 100000 in
/-- The stretch's fold at each of those buffers. -/
theorem reads (V : Valuation τ sig (Elt F)) :
    after hostOps5_4 (after hostOps5_3 (after hostOps5_2 (after hostOps5_1 (after hostOps5 V)))) (Proc.devRef .tc main_v306) = f_dense (V (Proc.devRef .tc main_v2)) (V (Proc.devRef .tc main_v162)) (V (Proc.devRef .tc main_v225)) (V (Proc.devRef .tc main_v255))
    ∧ after hostOps5_4 (after hostOps5_3 (after hostOps5_2 (after hostOps5_1 (after hostOps5 V)))) (Proc.devRef .tc main_v281) = f_w1 (V (Proc.devRef .tc main_arg2))
    ∧ after hostOps5_4 (after hostOps5_3 (after hostOps5_2 (after hostOps5_1 (after hostOps5 V)))) (Proc.devRef .tc main_v283) = f_b1 (V (Proc.devRef .tc main_arg3))
    ∧ after hostOps5_4 (after hostOps5_3 (after hostOps5_2 (after hostOps5_1 (after hostOps5 V)))) (Proc.devRef .tc main_v307) = f_b1r (V (Proc.devRef .tc main_arg3))
    ∧ after hostOps5_4 (after hostOps5_3 (after hostOps5_2 (after hostOps5_1 (after hostOps5 V)))) (Proc.devRef .tc main_v285) = f_w2 (V (Proc.devRef .tc main_arg4))
    ∧ after hostOps5_4 (after hostOps5_3 (after hostOps5_2 (after hostOps5_1 (after hostOps5 V)))) (Proc.devRef .tc main_v287) = f_b2 (V (Proc.devRef .tc main_arg5))
    ∧ after hostOps5_4 (after hostOps5_3 (after hostOps5_2 (after hostOps5_1 (after hostOps5 V)))) (Proc.devRef .tc main_v308) = f_b2r (V (Proc.devRef .tc main_arg5))
    ∧ after hostOps5_4 (after hostOps5_3 (after hostOps5_2 (after hostOps5_1 (after hostOps5 V)))) (Proc.devRef .tc main_v279) = f_oidx (V (Proc.devRef .tc main_v3))
    ∧ after hostOps5_4 (after hostOps5_3 (after hostOps5_2 (after hostOps5_1 (after hostOps5 V)))) (Proc.devRef .tc main_v270) = f_xnew (V (Proc.devRef .tc main_v162)) (V (Proc.devRef .tc main_v225)) (V (Proc.devRef .tc main_v255))
    ∧ after hostOps5_4 (after hostOps5_3 (after hostOps5_2 (after hostOps5_1 (after hostOps5 V)))) (Proc.devRef .tc main_v273) = f_qnew (V (Proc.devRef .tc main_v219)) (V (Proc.devRef .tc main_v225)) (V (Proc.devRef .tc main_v255))
    ∧ after hostOps5_4 (after hostOps5_3 (after hostOps5_2 (after hostOps5_1 (after hostOps5 V)))) (Proc.devRef .tc main_v216) = V (Proc.devRef .tc main_v216)
    ∧ after hostOps5_4 (after hostOps5_3 (after hostOps5_2 (after hostOps5_1 (after hostOps5 V)))) (Proc.devRef .tc main_v2) = V (Proc.devRef .tc main_v2)
    ∧ after hostOps5_4 (after hostOps5_3 (after hostOps5_2 (after hostOps5_1 (after hostOps5 V)))) (Proc.devRef .tc main_v3) = V (Proc.devRef .tc main_v3)
    ∧ after hostOps5_4 (after hostOps5_3 (after hostOps5_2 (after hostOps5_1 (after hostOps5 V)))) (Proc.devRef .tc main_arg2) = V (Proc.devRef .tc main_arg2)
    ∧ after hostOps5_4 (after hostOps5_3 (after hostOps5_2 (after hostOps5_1 (after hostOps5 V)))) (Proc.devRef .tc main_arg3) = V (Proc.devRef .tc main_arg3)
    ∧ after hostOps5_4 (after hostOps5_3 (after hostOps5_2 (after hostOps5_1 (after hostOps5 V)))) (Proc.devRef .tc main_arg4) = V (Proc.devRef .tc main_arg4)
    ∧ after hostOps5_4 (after hostOps5_3 (after hostOps5_2 (after hostOps5_1 (after hostOps5 V)))) (Proc.devRef .tc main_arg5) = V (Proc.devRef .tc main_arg5) := by
  simp only [hostOps5, hostOps5_1, hostOps5_2, hostOps5_3, hostOps5_4]
  after_results_simp
  refine ⟨?_, ?_, ?_, ?_, ?_, ?_, ?_, ?_, ?_, ?_, ?_, ?_, ?_, ?_, ?_, ?_, ?_⟩ <;> first | rfl | trivial

end Cert.KernelIdeal.Layer5

end
-- ==== Proof.LayerR5a.lean ====
/- The reference's operations of the same stage (kernel region 4 and kernel region 5 on the kernel side), read as the SAME functions
  as the kernel program's: the five buffers the layer's perceptron is computed from.
-/
import proofs.«140670_j11424613007642_1_alg».proof.Proof.RefRun
import proofs.«140670_j11424613007642_1_alg».proof.Proof.LayerK5
import proofs.«140670_j11424613007642_1_alg».proof.Proof.LibTRef
import Idealize.ShloMosaic.PureOps.Ideal

set_option maxRecDepth 16384

noncomputable section

namespace Cert.ReferenceIdeal.LayerR5

open Cert.ReferenceIdeal Cert.ReferenceIdeal.Gen Cert.ReferenceIdeal.RefRun Idealize.ShloMosaic Idealize.ShloMosaic.StableHlo Idealize.ShloMosaic.TcCoe

-- the gather, the scatter and the reductions are never opened: both sides apply them to equal arguments
attribute [local irreducible] Host.scatterAdd Host.reduce Host.gather Host.reduceAdd concatenate extractStridedSlice broadcastInDim iotaInDim in
set_option maxHeartbeats 16000000 in
set_option maxRecDepth 100000 in
/-- The five buffers the layer's perceptron is computed from. -/
theorem readsIn (V' : Valuation τ sig (Elt Ideal)) :
    after rseg5 V' (Proc.devRef .tc main_v336) = Cert.KernelIdeal.Layer5.f_dense (V' (Proc.devRef .tc main_v2)) (V' (Proc.devRef .tc main_v180)) (V' (Proc.devRef .tc main_v249)) (V' (Proc.devRef .tc main_v285))
    ∧ after rseg5 V' (Proc.devRef .tc main_v311) = Cert.KernelIdeal.Layer5.f_w1 (V' (Proc.devRef .tc main_arg2))
    ∧ after rseg5 V' (Proc.devRef .tc main_v313) = Cert.KernelIdeal.Layer5.f_b1 (V' (Proc.devRef .tc main_arg3))
    ∧ after rseg5 V' (Proc.devRef .tc main_v315) = Cert.KernelIdeal.Layer5.f_w2 (V' (Proc.devRef .tc main_arg4))
    ∧ after rseg5 V' (Proc.devRef .tc main_v317) = Cert.KernelIdeal.Layer5.f_b2 (V' (Proc.devRef .tc main_arg5)) := by
  simp only [after_append_line, rseg5, rseg5_a, rseg5_b, rseg5_c]
  after_results_simp
  -- contents stored through a typed reference and read back through it are unchanged
  try simp only [Cert.LibTRef.ofBuf_toBuf]
  refine ⟨?_, ?_, ?_, ?_, ?_⟩ <;> first | rfl | trivial

end Cert.ReferenceIdeal.LayerR5

end
-- ==== Proof.LayerR5b.lean ====
/- The reference's operations of the same stage (kernel region 4 and kernel region 5 on the kernel side), read as the SAME functions
  as the kernel program's: the other buffers the next stage needs; a buffer the segment does not write keeps its contents.
-/
import proofs.«140670_j11424613007642_1_alg».proof.Proof.RefRun
import proofs.«140670_j11424613007642_1_alg».proof.Proof.LayerK5
import proofs.«140670_j11424613007642_1_alg».proof.Proof.LibTRef
import Idealize.ShloMosaic.PureOps.Ideal

set_option maxRecDepth 16384

noncomputable section

namespace Cert.ReferenceIdeal.LayerR5

open Cert.ReferenceIdeal Cert.ReferenceIdeal.Gen Cert.ReferenceIdeal.RefRun Idealize.ShloMosaic Idealize.ShloMosaic.StableHlo Idealize.ShloMosaic.TcCoe

-- the gather, the scatter and the reductions are never opened: both sides apply them to equal arguments
attribute [local irreducible] Host.scatterAdd Host.reduce Host.gather Host.reduceAdd concatenate extractStridedSlice broadcastInDim iotaInDim in
set_option maxHeartbeats 16000000 in
set_option maxRecDepth 100000 in
/-- The other buffers the next stage needs. -/
theorem reads (V' : Valuation τ sig (Elt Ideal)) :
    after rseg5 V' (Proc.devRef .tc main_v309) = Cert.KernelIdeal.Layer5.f_oidx (V' (Proc.devRef .tc main_v3))
    ∧ after rseg5 V' (Proc.devRef .tc main_v300) = Cert.KernelIdeal.Layer5.f_xnew (V' (Proc.devRef .tc main_v180)) (V' (Proc.devRef .tc main_v249)) (V' (Proc.devRef .tc main_v285))
    ∧ after rseg5 V' (Proc.devRef .tc main_v303) = Cert.KernelIdeal.Layer5.f_qnew (V' (Proc.devRef .tc main_v243)) (V' (Proc.devRef .tc main_v249)) (V' (Proc.devRef .tc main_v285))
    ∧ after rseg5 V' (Proc.devRef .tc main_v240) = V' (Proc.devRef .tc main_v240)
    ∧ after rseg5 V' (Proc.devRef .tc main_v2) = V' (Proc.devRef .tc main_v2)
    ∧ after rseg5 V' (Proc.devRef .tc main_v3) = V' (Proc.devRef .tc main_v3)
    ∧ after rseg5 V' (Proc.devRef .tc main_arg2) = V' (Proc.devRef .tc main_arg2)
    ∧ after rseg5 V' (Proc.devRef .tc main_arg3) = V' (Proc.devRef .tc main_arg3)
    ∧ after rseg5 V' (Proc.devRef .tc main_arg4) = V' (Proc.devRef .tc main_arg4)
    ∧ after rseg5 V' (Proc.devRef .tc main_arg5) = V' (Proc.devRef .tc main_arg5) := by
  simp only [after_append_line, rseg5, rseg5_a, rseg5_b, rseg5_c]
  after_results_simp
  -- contents stored through a typed reference and read back through it are unchanged
  try simp only [Cert.LibTRef.ofBuf_toBuf]
  refine ⟨?_, ?_, ?_, ?_, ?_, ?_, ?_, ?_, ?_, ?_⟩ <;> first | rfl | trivial

end Cert.ReferenceIdeal.LayerR5

end
-- ==== Proof.LayerR5c.lean ====
/- The reference's operations of the same stage (kernel region 4 and kernel region 5 on the kernel side), read as the SAME functions
  as the kernel program's: the layer's perceptron output is the host perceptron of the five buffers it is computed from.
-/
import proofs.«140670_j11424613007642_1_alg».proof.Proof.RefRun
import proofs.«140670_j11424613007642_1_alg».proof.Proof.MlpHost
import Idealize.ShloMosaic.PureOps.Ideal

set_option maxRecDepth 16384

noncomputable section

namespace Cert.ReferenceIdeal.LayerR5

open Cert.ReferenceIdeal Cert.ReferenceIdeal.Gen Cert.ReferenceIdeal.RefRun Idealize.ShloMosaic Idealize.ShloMosaic.StableHlo Idealize.ShloMosaic.TcCoe

-- the gather, the scatter and the reductions are never opened: both sides apply them to equal arguments
attribute [local irreducible] Host.scatterAdd Host.reduce Host.gather Host.reduceAdd concatenate extractStridedSlice broadcastInDim iotaInDim in
set_option maxHeartbeats 16000000 in
set_option maxRecDepth 100000 in
/-- The layer's perceptron output is the host perceptron of those five buffers. -/
theorem readsOut (V' : Valuation τ sig (Elt Ideal)) :
    after rseg5 V' (Proc.devRef .tc main_v345) = Cert.ReferenceIdeal.MlpHost.hostMlp (after rseg5 V' (Proc.devRef .tc main_v336)) (after rseg5 V' (Proc.devRef .tc main_v311)) (after rseg5 V' (Proc.devRef .tc main_v313)) (after rseg5 V' (Proc.devRef .tc main_v315)) (after rseg5 V' (Proc.devRef .tc main_v317)) := by
  simp only [after_append_line, rseg5, rseg5_a, rseg5_b, rseg5_c]
  after_results_simp
  first | rfl | trivial

end Cert.ReferenceIdeal.LayerR5

end
-- ==== Proof.LayerR5.lean ====
/- The reference's side of this stage, collected: the three statements live in one module each.
-/
import proofs.«140670_j11424613007642_1_alg».proof.Proof.LayerR5a
import proofs.«140670_j11424613007642_1_alg».proof.Proof.LayerR5b
import proofs.«140670_j11424613007642_1_alg».proof.Proof.LayerR5c
-- ==== Proof.Step5.lean ====
/-
  Layer 5. If after layer 4's perceptron output the two programs hold the same eleven values, they do so again after
  layer 5's. On the kernel side the host operations up to region 5 read as functions of those values, the region leaves
  the layer function of its five operand arrays, and nothing else the next layer needs is touched; on the reference side
  the same operations read as the same functions, and its host perceptron is the layer function.
-/
import proofs.«140670_j11424613007642_1_alg».proof.Proof.KernelIdealFrameP
import proofs.«140670_j11424613007642_1_alg».proof.Proof.BridgeDefs
import proofs.«140670_j11424613007642_1_alg».proof.Proof.Congr
import proofs.«140670_j11424613007642_1_alg».proof.Proof.MlpBridge
import proofs.«140670_j11424613007642_1_alg».proof.Proof.Region5
import proofs.«140670_j11424613007642_1_alg».proof.Proof.LayerK5
import proofs.«140670_j11424613007642_1_alg».proof.Proof.LayerR5

set_option maxRecDepth 16384

noncomputable section

namespace Cert.Bridge

open Cert.KernelIdeal Cert.KernelIdeal.Gen Cert.KernelIdeal.GenP Cert.KernelIdeal.MlpArray
open Idealize.ShloMosaic Idealize.ShloMosaic.StableHlo Idealize.ShloMosaic.TcCoe Idealize.SL.Sem

set_option maxHeartbeats 4000000 in
theorem step5 (m : (ℓ : Loc nD τ sig) → Buf (Elt Ideal) ℓ) (ρ : Dev nD → PrngReg) (c : Dev nD) (V' : RV)
    (h : Inv4 (W28 m ρ c) V') :
    Inv5 (W34 m ρ c) (after Cert.ReferenceIdeal.RefRun.rseg5 V') := by
  obtain ⟨out, oidx, a, b, q, ia, ib, w1s, b1s, w2s, b2s, ⟨kout, rout⟩, ⟨koidx, roidx⟩, ⟨ka, ra⟩, ⟨kb, rb⟩, ⟨kq, rq⟩, ⟨kia, ria⟩, ⟨kib, rib⟩,
    ⟨kw1s, rw1s⟩, ⟨kb1s, rb1s⟩, ⟨kw2s, rw2s⟩, ⟨kb2s, rb2s⟩⟩ := h
  obtain ⟨Kdense, Kw1, Kb1, Kb1r, Kw2, Kb2, Kb2r, Koidx, Kxnew, Kqnew, Kkeepb, Kia, Kib, Kw1s, Kb1s, Kw2s, Kb2s⟩ :=
    Cert.KernelIdeal.Layer5.reads (F := Ideal) (W28 m ρ c)
  obtain ⟨Rdense, Rw1, Rb1, Rw2, Rb2⟩ := Cert.ReferenceIdeal.LayerR5.readsIn V'
  obtain ⟨Roidx, Rxnew, Rqnew, Rkeepb, Ria, Rib, Rw1s, Rb1s, Rw2s, Rb2s⟩ := Cert.ReferenceIdeal.LayerR5.reads V'
  have Rout := Cert.ReferenceIdeal.LayerR5.readsOut V'
  -- the kernel program's reads, at the eleven values
  have Kdense' := Kdense.trans (show _ = Cert.KernelIdeal.Layer5.f_dense ia a oidx out by simp only [kia, ka, koidx, kout])
  have Kw1' := Kw1.trans (show _ = Cert.KernelIdeal.Layer5.f_w1 w1s by simp only [kw1s])
  have Kb1r' := Kb1r.trans (show _ = Cert.KernelIdeal.Layer5.f_b1r b1s by simp only [kb1s])
  have Kw2' := Kw2.trans (show _ = Cert.KernelIdeal.Layer5.f_w2 w2s by simp only [kw2s])
  have Kb2r' := Kb2r.trans (show _ = Cert.KernelIdeal.Layer5.f_b2r b2s by simp only [kb2s])
  have Koidx' := Koidx.trans (show _ = Cert.KernelIdeal.Layer5.f_oidx ib by simp only [kib])
  have Kxnew' := Kxnew.trans (show _ = Cert.KernelIdeal.Layer5.f_xnew a oidx out by simp only [ka, koidx, kout])
  have Kqnew' := Kqnew.trans (show _ = Cert.KernelIdeal.Layer5.f_qnew q oidx out by simp only [kq, koidx, kout])
  -- the reference's reads, at the same values
  have Rdense' := Rdense.trans (show _ = Cert.KernelIdeal.Layer5.f_dense ia a oidx out by simp only [ria, ra, roidx, rout])
  have Rw1' := Rw1.trans (show _ = Cert.KernelIdeal.Layer5.f_w1 w1s by simp only [rw1s])
  have Rb1' := Rb1.trans (show _ = Cert.KernelIdeal.Layer5.f_b1 b1s by simp only [rb1s])
  have Rw2' := Rw2.trans (show _ = Cert.KernelIdeal.Layer5.f_w2 w2s by simp only [rw2s])
  have Rb2' := Rb2.trans (show _ = Cert.KernelIdeal.Layer5.f_b2 b2s by simp only [rb2s])
  have Roidx' := Roidx.trans (show _ = Cert.KernelIdeal.Layer5.f_oidx ib by simp only [rib])
  have Rxnew' := Rxnew.trans (show _ = Cert.KernelIdeal.Layer5.f_xnew a oidx out by simp only [ra, roidx, rout])
  have Rqnew' := Rqnew.trans (show _ = Cert.KernelIdeal.Layer5.f_qnew q oidx out by simp only [rq, roidx, rout])
  refine ⟨G (Cert.KernelIdeal.Layer5.f_dense ia a oidx out) (Cert.KernelIdeal.Layer5.f_w1 w1s) (Cert.KernelIdeal.Layer5.f_b1r b1s)
      (Cert.KernelIdeal.Layer5.f_w2 w2s) (Cert.KernelIdeal.Layer5.f_b2r b2s),
    Cert.KernelIdeal.Layer5.f_oidx ib, b, Cert.KernelIdeal.Layer5.f_xnew a oidx out, Cert.KernelIdeal.Layer5.f_qnew q oidx out,
    ia, ib, w1s, b1s, w2s, b2s, ⟨?_, ?_⟩,
    ⟨(W34_of_ne m ρ c Cert.KernelIdeal.main_v279 (by decide)).trans Koidx', Roidx'⟩,
    ⟨(W34_of_ne m ρ c Cert.KernelIdeal.main_v216 (by decide)).trans (Kkeepb.trans kb), Rkeepb.trans rb⟩,
    ⟨(W34_of_ne m ρ c Cert.KernelIdeal.main_v270 (by decide)).trans Kxnew', Rxnew'⟩,
    ⟨(W34_of_ne m ρ c Cert.KernelIdeal.main_v273 (by decide)).trans Kqnew', Rqnew'⟩,
    ⟨(W34_of_ne m ρ c Cert.KernelIdeal.main_v2 (by decide)).trans (Kia.trans kia), Ria.trans ria⟩, ⟨(W34_of_ne m ρ c Cert.KernelIdeal.main_v3 (by decide)).trans (Kib.trans kib), Rib.trans rib⟩,
    ⟨(W34_of_ne m ρ c Cert.KernelIdeal.main_arg2 (by decide)).trans (Kw1s.trans kw1s), Rw1s.trans rw1s⟩, ⟨(W34_of_ne m ρ c Cert.KernelIdeal.main_arg3 (by decide)).trans (Kb1s.trans kb1s), Rb1s.trans rb1s⟩, ⟨(W34_of_ne m ρ c Cert.KernelIdeal.main_arg4 (by decide)).trans (Kw2s.trans kw2s), Rw2s.trans rw2s⟩, ⟨(W34_of_ne m ρ c Cert.KernelIdeal.main_arg5 (by decide)).trans (Kb2s.trans kb2s), Rb2s.trans rb2s⟩⟩
  · -- the region's output array is the layer function of its operand arrays as it finds them
    exact (W34_arr m ρ c 5).trans ((Cert.KernelIdeal.Region5.regionOut (V33 m ρ) c).trans (G_congr Kdense' Kw1' Kb1r' Kw2' Kb2r'))
  · -- the reference's host perceptron of the same five arrays is the same function
    exact Rout.trans ((hostMlp_congr Rdense' Rw1' Rb1' Rw2' Rb2').trans (Cert.MlpBridge.host_eq_G _ _ _ _ _))

end Cert.Bridge

end
-- ==== Proof.Region6.lean ====
/-
  python3 scratch/gen_regions.py 6

  Kernel region 6 (one layer's perceptron): whatever the TensorCore's buffers hold when the region is entered,
  the region leaves its output array holding the layer function of its five operand arrays. The grid has eight
  points; point t is given rows 512·t … 512·t+511 of the input and all of both weight matrices and biases, and
  writes rows 512·t … 512·t+511 of the output. Entry (r, j) of the output depends on row r of the input alone, so
  each written block is the restriction of ONE whole-array function, and the eight blocks tile the output.
-/
import proofs.«140670_j11424613007642_1_alg».proof.Proof.KernelIdealFrameP
import proofs.«140670_j11424613007642_1_alg».proof.Proof.MlpKernel
import proofs.«140670_j11424613007642_1_alg».proof.Proof.MlpArray
import Idealize.ShloMosaic.Lib.Pipeline.Value
import Idealize.ShloMosaic.Lib.ValueIdx

set_option maxRecDepth 16384

noncomputable section

namespace Cert.KernelIdeal.Region6

open Cert.KernelIdeal Cert.KernelIdeal.Gen Cert.KernelIdeal.GenP Cert.KernelIdeal.MlpArray
open Idealize.ShloMosaic Idealize.ShloMosaic.TcCoe Idealize.ShloMosaic.ValueIdx Idealize.SL.Sem
open Idealize.ShloMosaic.Pipeline (Dat Cfg Window)

/-- The body reads and writes its staging buffers whole: at offsets zero. -/
theorem zero_offsets : (![0, 0] : Fin 2 → Nat) = fun _ => 0 := funext fun a => by fin_cases a <;> rfl

/-- The printed index maps over the grid: the input's and the output's row block is the grid point, every other
    block index is zero. -/
theorem block_indices : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- The row function depends on its five arguments through their values alone. -/
theorem mlpRow_congr {d d' : Fin 2000 → EReal} {w1 w1' : Fin 2000 → Fin 64 → EReal} {b1 b1' : Fin 64 → EReal}
    {w2 w2' : Fin 64 → Fin 4000 → EReal} {b2 b2' : Fin 4000 → EReal}
    (hd : ∀ l, d l = d' l) (hw1 : ∀ l k, w1 l k = w1' l k) (hb1 : ∀ k, b1 k = b1' k)
    (hw2 : ∀ k j, w2 k j = w2' k j) (hb2 : ∀ j, b2 j = b2' j) (j : Fin 4000) :
    Cert.MlpSpec.mlpRow d w1 b1 w2 b2 j = Cert.MlpSpec.mlpRow d' w1' b1' w2' b2' j := by
  have e1 : d = d' := funext hd
  have e2 : w1 = w1' := funext fun l => funext (hw1 l)
  have e3 : b1 = b1' := funext hb1
  have e4 : w2 = w2' := funext fun k => funext (hw2 k)
  have e5 : b2 = b2' := funext hb2
  rw [e1, e2, e3, e4, e5]

/-- The payload of the operand arrays' blocks at point `t` is block `t` of the layer function of the arrays:
    entry `(p, q)` of the block is entry `(512·t + p, q)` of the array; the input's block holds rows
    `512·t + p`, and the weights' and biases' blocks are the whole arrays. -/
theorem payload_block (A0 : S4096x2000.Idx → EReal) (A1 : S2000x64.Idx → EReal) (A2 : S1x64.Idx → EReal)
    (A3 : S64x4000.Idx → EReal) (A4 : S1x4000.Idx → EReal) (t : Fin cfg6.N) :
    k6_pay1 (F := Ideal) (((cfg6.win 0).blk t).view.read (Elt Ideal) A0) (((cfg6.win 1).blk t).view.read (Elt Ideal) A1)
        (((cfg6.win 2).blk t).view.read (Elt Ideal) A2) (((cfg6.win 3).blk t).view.read (Elt Ideal) A3)
        (((cfg6.win 4).blk t).view.read (Elt Ideal) A4)
      = ((cfg6.win 5).blk t).view.read (Elt Ideal) (G A0 A1 A2 A3 A4) := by
  obtain ⟨e00, e01, e10, e11, e20, e21, e30, e31, e40, e41, e50, e51⟩ := block_indices t
  have hN : cfg6.N = 8 := rfl
  have ht : t.val < 8 := hN ▸ t.isLt
  rw [Cert.KernelIdeal.MlpKernel.pay6_eq]
  funext j
  obtain ⟨p, q, rfl⟩ : ∃ (p : Fin 512) (q : Fin 4000), j = ix2 p q := ⟨j 0, j 1, eq_ix2 j⟩
  refine (Cert.KernelIdeal.MlpKernel.pay_apply (((cfg6.win 0).blk t).view.read (Elt Ideal) A0)
    (((cfg6.win 1).blk t).view.read (Elt Ideal) A1) (((cfg6.win 2).blk t).view.read (Elt Ideal) A2)
    (((cfg6.win 3).blk t).view.read (Elt Ideal) A3) (((cfg6.win 4).blk t).view.read (Elt Ideal) A4) p q).trans ?_
  have h5 : ((cfg6.win 5).blk t).view.emb (ix2 p q)
      = ix2 (⟨t.val * 512 + p.val, by have := p.isLt; omega⟩ : Fin 4096) q := by
    funext a; apply Fin.ext
    match a with
    | ⟨0, _⟩ => show win6_5.index t (0 : Fin 2) * 512 + 1 * p.val = t.val * 512 + p.val; omega
    | ⟨1, _⟩ => show win6_5.index t (1 : Fin 2) * 4000 + 1 * q.val = q.val; omega
  show _ = G A0 A1 A2 A3 A4 (((cfg6.win 5).blk t).view.emb (ix2 p q))
  rw [h5, G_apply]
  refine mlpRow_congr (fun l => ?_) (fun l k => ?_) (fun k => ?_) (fun k j' => ?_) (fun j' => ?_) q
  · show A0 (((cfg6.win 0).blk t).view.emb (ix2 p l)) = A0 (ix2 (⟨t.val * 512 + p.val, by have := p.isLt; omega⟩ : Fin 4096) l)
    refine congrArg A0 ?_
    funext a; apply Fin.ext
    match a with
    | ⟨0, _⟩ => show win6_0.index t (0 : Fin 2) * 512 + 1 * p.val = t.val * 512 + p.val; omega
    | ⟨1, _⟩ => show win6_0.index t (1 : Fin 2) * 2000 + 1 * l.val = l.val; omega
  · show A1 (((cfg6.win 1).blk t).view.emb (ix2 l k)) = A1 (ix2 l k)
    refine congrArg A1 ?_
    funext a; apply Fin.ext
    match a with
    | ⟨0, _⟩ => show win6_1.index t (0 : Fin 2) * 2000 + 1 * l.val = l.val; omega
    | ⟨1, _⟩ => show win6_1.index t (1 : Fin 2) * 64 + 1 * k.val = k.val; omega
  · show A2 (((cfg6.win 2).blk t).view.emb (ix2 (0 : Fin 1) k)) = A2 (ix2 (0 : Fin 1) k)
    refine congrArg A2 ?_
    funext a; apply Fin.ext
    match a with
    | ⟨0, _⟩ => show win6_2.index t (0 : Fin 2) * 1 + 1 * 0 = 0; omega
    | ⟨1, _⟩ => show win6_2.index t (1 : Fin 2) * 64 + 1 * k.val = k.val; omega
  · show A3 (((cfg6.win 3).blk t).view.emb (ix2 k j')) = A3 (ix2 k j')
    refine congrArg A3 ?_
    funext a; apply Fin.ext
    match a with
    | ⟨0, _⟩ => show win6_3.index t (0 : Fin 2) * 64 + 1 * k.val = k.val; omega
    | ⟨1, _⟩ => show win6_3.index t (1 : Fin 2) * 4000 + 1 * j'.val = j'.val; omega
  · show A4 (((cfg6.win 4).blk t).view.emb (ix2 (0 : Fin 1) j')) = A4 (ix2 (0 : Fin 1) j')
    refine congrArg A4 ?_
    funext a; apply Fin.ext
    match a with
    | ⟨0, _⟩ => show win6_4.index t (0 : Fin 2) * 1 + 1 * 0 = 0; omega
    | ⟨1, _⟩ => show win6_4.index t (1 : Fin 2) * 4000 + 1 * j'.val = j'.val; omega

variable (V : (c : Dev nD) → (b : Ref sig .tc) → Buf (Elt Ideal) ((c : Thread nD τ).loc b))

/-- What point `t` writes back is block `t` of the layer function of the operand arrays as the region finds them. -/
theorem written_block (c : Dev nD) (t : Fin cfg6.N) :
    (dat6 V c).flushed 5 t = ((cfg6.win 5).blk t).view.read (Elt Ideal)
      (G (V c (Pipeline.arrRef spec6 0)) (V c (Pipeline.arrRef spec6 1)) (V c (Pipeline.arrRef spec6 2))
        (V c (Pipeline.arrRef spec6 3)) (V c (Pipeline.arrRef spec6 4))) := by
  show (cfg6.win 5).cut (grid6.coords t) ((dat6 V c).after 5 t) = _
  rw [after6_5]
  unfold out6_5
  rw [View.canon_unit_zero zero_offsets]
  simp only [View.ld_unit_zero (S := S512x2000) zero_offsets, View.ld_unit_zero (S := S2000x64) zero_offsets,
    View.ld_unit_zero (S := S1x64) zero_offsets, View.ld_unit_zero (S := S64x4000) zero_offsets,
    View.ld_unit_zero (S := S1x4000) zero_offsets]
  exact payload_block (V c (Pipeline.arrRef spec6 0)) (V c (Pipeline.arrRef spec6 1)) (V c (Pipeline.arrRef spec6 2))
    (V c (Pipeline.arrRef spec6 3)) (V c (Pipeline.arrRef spec6 4)) t

/-- An index of the output array is in point `t`'s block iff each coordinate is in the block's range on its axis. -/
theorem mem_block (t : Fin cfg6.N) (i : S4096x4000.Idx) :
    i ∈ ((cfg6.win 5).blk t).view.set ↔ ∀ a : Fin 2, win6_5.index t a * S512x4000.size a ≤ (i a).val
      ∧ (i a).val < win6_5.index t a * S512x4000.size a + S512x4000.size a := by
  show i ∈ ((View.whole main_v363).slice (win6_5.rect t)).set ↔ _
  rw [View.set_slice_whole, Rect.mem_set_unit]
  exact Iff.rfl

/-- Every entry of the output array is in some point's block: row `r` is written by point `r / 512`. -/
theorem cover (i : S4096x4000.Idx) :
    ∃ t : Fin cfg6.N, (cfg6.win 5).flush t = true ∧ i ∈ ((cfg6.win 5).blk t).view.set := by
  have hi0 : (i 0).val < 4096 := (i 0).isLt
  have hi1 : (i 1).val < 4000 := (i 1).isLt
  obtain ⟨t, htv⟩ : ∃ t : Fin cfg6.N, t.val = (i 0).val / 512 :=
    ⟨⟨(i 0).val / 512, by show (i 0).val / 512 < 8; omega⟩, rfl⟩
  obtain ⟨-, -, -, -, -, -, -, -, -, -, e50, e51⟩ := block_indices t
  refine ⟨t, flush6_5 t, ?_⟩
  rw [mem_block]
  intro a
  match a with
  | ⟨0, _⟩ =>
    show win6_5.index t (0 : Fin 2) * 512 ≤ (i 0).val ∧ (i 0).val < win6_5.index t (0 : Fin 2) * 512 + 512
    omega
  | ⟨1, _⟩ =>
    show win6_5.index t (1 : Fin 2) * 4000 ≤ (i 1).val ∧ (i 1).val < win6_5.index t (1 : Fin 2) * 4000 + 4000
    omega

/-- The region's output array after its eight write-backs: the layer function of the five operand arrays as the
    region finds them. -/
theorem regionOut (c : Dev nD) :
    (dat6 V c).arrAt 5 cfg6.N = Cert.KernelIdeal.MlpArray.G (V c (Pipeline.arrRef spec6 0))
      (V c (Pipeline.arrRef spec6 1)) (V c (Pipeline.arrRef spec6 2)) (V c (Pipeline.arrRef spec6 3))
      (V c (Pipeline.arrRef spec6 4)) :=
  (dat6 V c).arrAt_eq_of_cover 5
    (G (V c (Pipeline.arrRef spec6 0)) (V c (Pipeline.arrRef spec6 1)) (V c (Pipeline.arrRef spec6 2))
      (V c (Pipeline.arrRef spec6 3)) (V c (Pipeline.arrRef spec6 4)))
    (fun t _ => written_block V c t) cover

end Cert.KernelIdeal.Region6

end
-- ==== Proof.LayerK6.lean ====
/- The host operations the kernel program runs between kernel region 5 and kernel region 6, read as functions. Each buffer the
  next stage needs is written out as the composition of the operations that produce it from the buffers the stretch
  reads; a buffer the stretch does not write keeps its contents; and the fold of the stretch's operations at each of
  these buffers is that function of the contents the stretch starts from.
-/
import proofs.«140670_j11424613007642_1_alg».proof.Proof.Gen.KernelIdeal.Launch
import Idealize.ShloMosaic.Lib.StableHlo.Run

set_option maxRecDepth 16384

noncomputable section

namespace Cert.KernelIdeal.Layer6

open Cert.KernelIdeal Cert.KernelIdeal.Gen Idealize.ShloMosaic Idealize.ShloMosaic.StableHlo Idealize.ShloMosaic.TcCoe

variable {F : FTy → Type} [FloatOps F]

/-- Buffer main_v360 as a function of the buffers the stretch reads: its 64 operations, in program order. -/
def f_dense (x_main_v3 : (⟨S4096x61, .i32⟩ : BufTy).Contents (Elt F)) (x_main_v216 : (⟨S4096x61, .f32⟩ : BufTy).Contents (Elt F)) (x_main_v279 : (⟨S4096x122, .i32⟩ : BufTy).Contents (Elt F)) (x_main_v309 : (⟨S4096x4000, .f32⟩ : BufTy).Contents (Elt F)) :
    (⟨S4096x2000, .f32⟩ : BufTy).Contents (Elt F) :=
  have x_main_cst_71 : (⟨S_, .f32⟩ : BufTy).Contents (Elt F) := (constant S_ .f32 0x00000000#32)
  have x_main_v310 : (⟨S4096x1, .f32⟩ : BufTy).Contents (Elt F) := ((broadcastInDim S4096x1 ![] bcast_S_S4096x1 : (⟨S_, .f32⟩ : BufTy).Contents (Elt F) → (⟨S4096x1, .f32⟩ : BufTy).Contents (Elt F))) x_main_cst_71
  have x_main_v311 : (⟨S4096x4001, .f32⟩ : BufTy).Contents (Elt F) := (((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F))) x_main_v309 x_main_v310
  have x_main_call11_c : (⟨S_, .i32⟩ : BufTy).Contents (Elt F) := (constantI S_ 32 0#32)
  have x_main_call11_v0 : (⟨S4096x122, .i32⟩ : BufTy).Contents (Elt F) := ((broadcastInDim S4096x122 ![] bcast_S_S4096x122)) x_main_call11_c
  have x_main_call11_v1 : (⟨S4096x122, .i1⟩ : BufTy).Contents (Elt F) := ((cmpi .slt)) x_main_v279 x_main_call11_v0
  have x_main_call11_c_0 : (⟨S_, .i32⟩ : BufTy).Contents (Elt F) := (constantI S_ 32 4001#32)
  have x_main_call11_v2 : (⟨S4096x122, .i32⟩ : BufTy).Contents (Elt F) := ((broadcastInDim S4096x122 ![] bcast_S_S4096x122)) x_main_call11_c_0
  have x_main_call11_v3 : (⟨S4096x122, .i32⟩ : BufTy).Contents (Elt F) := (addi) x_main_v279 x_main_call11_v2
  have x_main_call11_v4 : (⟨S4096x122, .i32⟩ : BufTy).Contents (Elt F) := (select) x_main_call11_v1 x_main_call11_v3 x_main_v279
  have x_main_call11_v5 : (⟨S4096x122x1, .i32⟩ : BufTy).Contents (Elt F) := shapeCast S4096x122x1 x_main_call11_v4 shapeCasts_S4096x122_S4096x122x1
  have x_main_call11_c_1 : (⟨S1, .i32⟩ : BufTy).Contents (Elt F) := (constantI S1 32 4000#32)
  have x_main_call11_c_2 : (⟨S_, .i32⟩ : BufTy).Contents (Elt F) := (constantI S_ 32 0#32)
  have x_main_call11_v6 : (⟨S4096x122x1, .i32⟩ : BufTy).Contents (Elt F) := ((broadcastInDim S4096x122x1 ![] bcast_S_S4096x122x1)) x_main_call11_c_2
  have x_main_call11_v7 : (⟨S4096x122x1, .i1⟩ : BufTy).Contents (Elt F) := ((cmpi .sge)) x_main_call11_v5 x_main_call11_v6
  have x_main_call11_v8 : (⟨S1x1x1, .i32⟩ : BufTy).Contents (Elt F) := ((broadcastInDim S1x1x1 ![2] bcast_S1_S1x1x1_2)) x_main_call11_c_1
  have x_main_call11_v9 : (⟨S4096x122x1, .i32⟩ : BufTy).Contents (Elt F) := ((broadcastInDim S4096x122x1 ![0, 1, 2] bcast_S1x1x1_S4096x122x1_0_1_2)) x_main_call11_v8
  have x_main_call11_v10 : (⟨S4096x122x1, .i1⟩ : BufTy).Contents (Elt F) := ((cmpi .sle)) x_main_call11_v5 x_main_call11_v9
  have x_main_call11_v11 : (⟨S4096x122x1, .i1⟩ : BufTy).Contents (Elt F) := (andi) x_main_call11_v7 x_main_call11_v10
  have x_main_call11_c_3 : (⟨S_, .i1⟩ : BufTy).Contents (Elt F) := (constantI S_ 1 1#1)
  have x_main_call11_v12 : (⟨S4096x122, .i1⟩ : BufTy).Contents (Elt F) := ((fun x v => Host.reduce IntOp.andi x v reducesTo_S4096x122x1_S4096x122_d2 h_S_)) x_main_call11_v11 x_main_call11_c_3
  have x_main_call11_v13 : (⟨S4096x122, .f32⟩ : BufTy).Contents (Elt F) := ((fun x i => Host.gather gather_S4096x4001_S4096x122x1_S4096x122_n_1_0_0_1_2_11 x i)) x_main_v311 x_main_call11_v5
  have x_main_call11_cst : (⟨S_, .f32⟩ : BufTy).Contents (Elt F) := (constant S_ .f32 0x7FC00000#32)
  have x_main_call11_v14 : (⟨S4096x122, .f32⟩ : BufTy).Contents (Elt F) := ((broadcastInDim S4096x122 ![] bcast_S_S4096x122)) x_main_call11_cst
  have x_main_v312 : (⟨S4096x122, .f32⟩ : BufTy).Contents (Elt F) := (select) x_main_call11_v12 x_main_call11_v13 x_main_call11_v14
  have x_main_v313 : (⟨S4096x61, .f32⟩ : BufTy).Contents (Elt F) := (((extractStridedSlice S4096x61 ![0, 0] · slices_S4096x122_S4096x61_0_0) : (⟨S4096x122, .f32⟩ : BufTy).Contents (Elt F) → (⟨S4096x61, .f32⟩ : BufTy).Contents (Elt F))) x_main_v312
  have x_main_v314 : (⟨S4096x61, .f32⟩ : BufTy).Contents (Elt F) := (((extractStridedSlice S4096x61 ![0, 61] · slices_S4096x122_S4096x61_0_61) : (⟨S4096x122, .f32⟩ : BufTy).Contents (Elt F) → (⟨S4096x61, .f32⟩ : BufTy).Contents (Elt F))) x_main_v312
  have x_main_cst_72 : (⟨S_, .f32⟩ : BufTy).Contents (Elt F) := (constant S_ .f32 0x40000000#32)
  have x_main_v315 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_72
  have x_main_v316 : (⟨S4096x61, .f32⟩ : BufTy).Contents (Elt F) := ((addf : (⟨S4096x61, .f32⟩ : BufTy).Contents (Elt F) → (⟨S4096x61, .f32⟩ : BufTy).Contents (Elt F) → (⟨S4096x61, .f32⟩ : BufTy).Contents (Elt F))) x_main_v313 x_main_v315
  have x_main_v317 : (⟨S4096x61, .f32⟩ : BufTy).Contents (Elt F) := ((Host.negf : (⟨S4096x61, .f32⟩ : BufTy).Contents (Elt F) → (⟨S4096x61, .f32⟩ : BufTy).Contents (Elt F))) x_main_v316
  have x_main_v318 : (⟨S4096x61, .f32⟩ : BufTy).Contents (Elt F) := ((Host.exp : (⟨S4096x61, .f32⟩ : BufTy).Contents (Elt F) → (⟨S4096x61, .f32⟩ : BufTy).Contents (Elt F))) x_main_v317
  have x_main_cst_73 : (⟨S_, .f32⟩ : BufTy).Contents (Elt F) := (constant S_ .f32 0x3F800000#32)
  have x_main_v319 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_73
  have x_main_v320 : (⟨S4096x61, .f32⟩ : BufTy).Contents (Elt F) := ((addf : (⟨S4096x61, .f32⟩ : BufTy).Contents (Elt F) → (⟨S4096x61, .f32⟩ : BufTy).Contents (Elt F) → (⟨S4096x61, .f32⟩ : BufTy).Contents (Elt F))) x_main_v319 x_main_v318
  have x_main_cst_74 : (⟨S_, .f32⟩ : BufTy).Contents (Elt F) := (constant S_ .f32 0x3F800000#32)
  have x_main_v321 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_74
  have x_main_v322 : (⟨S4096x61, .f32⟩ : BufTy).Contents (Elt F) := ((Host.divf : (⟨S4096x61, .f32⟩ : BufTy).Contents (Elt F) → (⟨S4096x61, .f32⟩ : BufTy).Contents (Elt F) → (⟨S4096x61, .f32⟩ : BufTy).Contents (Elt F))) x_main_v321 x_main_v320
  have x_main_v323 : (⟨S4096x61, .f32⟩ : BufTy).Contents (Elt F) := ((mulf : (⟨S4096x61, .f32⟩ : BufTy).Contents (Elt F) → (⟨S4096x61, .f32⟩ : BufTy).Contents (Elt F) → (⟨S4096x61, .f32⟩ : BufTy).Contents (Elt F))) x_main_v322 x_main_v216
  have x_main_v324 : (⟨S4096x61, .f32⟩ : BufTy).Contents (Elt F) := ((addf : (⟨S4096x61, .f32⟩ : BufTy).Contents (Elt F) → (⟨S4096x61, .f32⟩ : BufTy).Contents (Elt F) → (⟨S4096x61, .f32⟩ : BufTy).Contents (Elt F))) x_main_v323 x_main_v314
  have x_main_v342 : (⟨S4096, .i32⟩ : BufTy).Contents (Elt F) := (iotaInDim S4096 32 0)
  have x_main_v343 : (⟨S4096x1, .i32⟩ : BufTy).Contents (Elt F) := ((broadcastInDim S4096x1 ![0] bcast_S4096_S4096x1_0 : (⟨S4096, .i32⟩ : BufTy).Contents (Elt F) → (⟨S4096x1, .i32⟩ : BufTy).Contents (Elt F))) x_main_v342
  have x_main_cst_79 : (⟨S_, .f32⟩ : BufTy).Contents (Elt F) := (constant S_ .f32 0x00000000#32)
  have x_main_v344 : (⟨S4096x2001, .f32⟩ : BufTy).Contents (Elt F) := ((broadcastInDim S4096x2001 ![] bcast_S_S4096x2001 : (⟨S_, .f32⟩ : BufTy).Contents (Elt F) → (⟨S4096x2001, .f32⟩ : BufTy).Contents (Elt F))) x_main_cst_79
  have x_main_c_80 : (⟨S_, .i32⟩ : BufTy).Contents (Elt F) := (constantI S_ 32 0#32)
  have x_main_v345 : (⟨S4096x1, .i32⟩ : BufTy).Contents (Elt F) := ((broadcastInDim S4096x1 ![] bcast_S_S4096x1 : (⟨S_, .i32⟩ : BufTy).Contents (Elt F) → (⟨S4096x1, .i32⟩ : BufTy).Contents (Elt F))) x_main_c_80
  have x_main_v346 : (⟨S4096x1, .i1⟩ : BufTy).Contents (Elt F) := ((cmpi .slt : (⟨S4096x1, .i32⟩ : BufTy).Contents (Elt F) → (⟨S4096x1, .i32⟩ : BufTy).Contents (Elt F) → (⟨S4096x1, .i1⟩ : BufTy).Contents (Elt F))) x_main_v343 x_main_v345
  have x_main_c_81 : (⟨S_, .i32⟩ : BufTy).Contents (Elt F) := (constantI S_ 32 4096#32)
  have x_main_v347 : (⟨S4096x1, .i32⟩ : BufTy).Contents (Elt F) := ((broadcastInDim S4096x1 ![] bcast_S_S4096x1 : (⟨S_, .i32⟩ : BufTy).Contents (Elt F) → (⟨S4096x1, .i32⟩ : BufTy).Contents (Elt F))) x_main_c_81
  have x_main_v348 : (⟨S4096x1, .i32⟩ : BufTy).Contents (Elt F) := ((addi : (⟨S4096x1, .i32⟩ : BufTy).Contents (Elt F) → (⟨S4096x1, .i32⟩ : BufTy).Contents (Elt F) → (⟨S4096x1, .i32⟩ : BufTy).Contents (Elt F))) x_main_v343 x_main_v347
  have x_main_v349 : (⟨S4096x1, .i32⟩ : BufTy).Contents (Elt F) := ((select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F))) x_main_v346 x_main_v348 x_main_v343
  have x_main_c_82 : (⟨S_, .i32⟩ : BufTy).Contents (Elt F) := (constantI S_ 32 0#32)
  have x_main_v350 : (⟨S4096x61, .i32⟩ : BufTy).Contents (Elt F) := ((broadcastInDim S4096x61 ![] bcast_S_S4096x61 : (⟨S_, .i32⟩ : BufTy).Contents (Elt F) → (⟨S4096x61, .i32⟩ : BufTy).Contents (Elt F))) x_main_c_82
  have x_main_v351 : (⟨S4096x61, .i1⟩ : BufTy).Contents (Elt F) := ((cmpi .slt : (⟨S4096x61, .i32⟩ : BufTy).Contents (Elt F) → (⟨S4096x61, .i32⟩ : BufTy).Contents (Elt F) → (⟨S4096x61, .i1⟩ : BufTy).Contents (Elt F))) x_main_v3 x_main_v350
  have x_main_c_83 : (⟨S_, .i32⟩ : BufTy).Contents (Elt F) := (constantI S_ 32 2001#32)
  have x_main_v352 : (⟨S4096x61, .i32⟩ : BufTy).Contents (Elt F) := ((broadcastInDim S4096x61 ![] bcast_S_S4096x61 : (⟨S_, .i32⟩ : BufTy).Contents (Elt F) → (⟨S4096x61, .i32⟩ : BufTy).Contents (Elt F))) x_main_c_83
  have x_main_v353 : (⟨S4096x61, .i32⟩ : BufTy).Contents (Elt F) := ((addi : (⟨S4096x61, .i32⟩ : BufTy).Contents (Elt F) → (⟨S4096x61, .i32⟩ : BufTy).Contents (Elt F) → (⟨S4096x61, .i32⟩ : BufTy).Contents (Elt F))) x_main_v3 x_main_v352
  have x_main_v354 : (⟨S4096x61, .i32⟩ : BufTy).Contents (Elt F) := ((select : (⟨S4096x61, .i1⟩ : BufTy).Contents (Elt F) → (⟨S4096x61, .i32⟩ : BufTy).Contents (Elt F) → (⟨S4096x61, .i32⟩ : BufTy).Contents (Elt F) → (⟨S4096x61, .i32⟩ : BufTy).Contents (Elt F))) x_main_v351 x_main_v353 x_main_v3
  have x_main_v355 : (⟨S4096x61, .i32⟩ : BufTy).Contents (Elt F) := ((broadcastInDim S4096x61 ![0, 1] bcast_S4096x1_S4096x61_0_1 : (⟨S4096x1, .i32⟩ : BufTy).Contents (Elt F) → (⟨S4096x61, .i32⟩ : BufTy).Contents (Elt F))) x_main_v349
  have x_main_v356 : (⟨S4096x61x1, .i32⟩ : BufTy).Contents (Elt F) := ((broadcastInDim S4096x61x1 ![0, 1] bcast_S4096x61_S4096x61x1_0_1 : (⟨S4096x61, .i32⟩ : BufTy).Contents (Elt F) → (⟨S4096x61x1, .i32⟩ : BufTy).Contents (Elt F))) x_main_v355
  have x_main_v357 : (⟨S4096x61x1, .i32⟩ : BufTy).Contents (Elt F) := ((broadcastInDim S4096x61x1 ![0, 1] bcast_S4096x61_S4096x61x1_0_1 : (⟨S4096x61, .i32⟩ : BufTy).Contents (Elt F) → (⟨S4096x61x1, .i32⟩ : BufTy).Contents (Elt F))) x_main_v354
  have x_main_v358 : (⟨S4096x61x2, .i32⟩ : BufTy).Contents (Elt F) := (((fun a b => concatenate S4096x61x2 2 [⟨S4096x61x1, a⟩, ⟨S4096x61x1, b⟩] concatenates_S4096x61x1_S4096x61x1_S4096x61x2_d2) : (⟨S4096x61x1, .i32⟩ : BufTy).Contents (Elt F) → (⟨S4096x61x1, .i32⟩ : BufTy).Contents (Elt F) → (⟨S4096x61x2, .i32⟩ : BufTy).Contents (Elt F))) x_main_v356 x_main_v357
  have x_main_v359 : (⟨S4096x2001, .f32⟩ : BufTy).Contents (Elt F) := (((fun x i u => Host.scatterAdd scatter_S4096x2001_S4096x61x2_S4096x61_n_01_01_2 x i u) : (⟨S4096x2001, .f32⟩ : BufTy).Contents (Elt F) → (⟨S4096x61x2, .i32⟩ : BufTy).Contents (Elt F) → (⟨S4096x61, .f32⟩ : BufTy).Contents (Elt F) → (⟨S4096x2001, .f32⟩ : BufTy).Contents (Elt F))) x_main_v344 x_main_v358 x_main_v324
  have x_main_v360 : (⟨S4096x2000, .f32⟩ : BufTy).Contents (Elt F) := (((extractStridedSlice S4096x2000 ![0, 0] · slices_S4096x2001_S4096x2000_0_0) : (⟨S4096x2001, .f32⟩ : BufTy).Contents (Elt F) → (⟨S4096x2000, .f32⟩ : BufTy).Contents (Elt F))) x_main_v359
  x_main_v360

/-- Buffer main_v335 as a function of the buffers the stretch reads: its 2 operations, in program order. -/
def f_w1 (x_main_arg2 : (⟨S10x2000x64, .f32⟩ : BufTy).Contents (Elt F)) :
    (⟨S2000x64, .f32⟩ : BufTy).Contents (Elt F) :=
  have x_main_v334 : (⟨S1x2000x64, .f32⟩ : BufTy).Contents (Elt F) := (((extractStridedSlice S1x2000x64 ![6, 0, 0] · slices_S10x2000x64_S1x2000x64_6_0_0) : (⟨S10x2000x64, .f32⟩ : BufTy).Contents (Elt F) → (⟨S1x2000x64, .f32⟩ : BufTy).Contents (Elt F))) x_main_arg2
  have x_main_v335 : (⟨S2000x64, .f32⟩ : BufTy).Contents (Elt F) := shapeCast S2000x64 x_main_v334 shapeCasts_S1x2000x64_S2000x64
  x_main_v335

/-- Buffer main_v337 as a function of the buffers the stretch reads: its 2 operations, in program order. -/
def f_b1 (x_main_arg3 : (⟨S10x64, .f32⟩ : BufTy).Contents (Elt F)) :
    (⟨S64, .f32⟩ : BufTy).Contents (Elt F) :=
  have x_main_v336 : (⟨S1x64, .f32⟩ : BufTy).Contents (Elt F) := (((extractStridedSlice S1x64 ![6, 0] · slices_S10x64_S1x64_6_0) : (⟨S10x64, .f32⟩ : BufTy).Contents (Elt F) → (⟨S1x64, .f32⟩ : BufTy).Contents (Elt F))) x_main_arg3
  have x_main_v337 : (⟨S64, .f32⟩ : BufTy).Contents (Elt F) := shapeCast S64 x_main_v336 shapeCasts_S1x64_S64
  x_main_v337

/-- Buffer main_v361 as a function of the buffers the stretch reads: its 3 operations, in program order. -/
def f_b1r (x_main_arg3 : (⟨S10x64, .f32⟩ : BufTy).Contents (Elt F)) :
    (⟨S1x64, .f32⟩ : BufTy).Contents (Elt F) :=
  have x_main_v336 : (⟨S1x64, .f32⟩ : BufTy).Contents (Elt F) := (((extractStridedSlice S1x64 ![6, 0] · slices_S10x64_S1x64_6_0) : (⟨S10x64, .f32⟩ : BufTy).Contents (Elt F) → (⟨S1x64, .f32⟩ : BufTy).Contents (Elt F))) x_main_arg3
  have x_main_v337 : (⟨S64, .f32⟩ : BufTy).Contents (Elt F) := shapeCast S64 x_main_v336 shapeCasts_S1x64_S64
  have x_main_v361 : (⟨S1x64, .f32⟩ : BufTy).Contents (Elt F) := shapeCast S1x64 x_main_v337 shapeCasts_S64_S1x64
  x_main_v361

/-- Buffer main_v339 as a function of the buffers the stretch reads: its 2 operations, in program order. -/
def f_w2 (x_main_arg4 : (⟨S10x64x4000, .f32⟩ : BufTy).Contents (Elt F)) :
    (⟨S64x4000, .f32⟩ : BufTy).Contents (Elt F) :=
  have x_main_v338 : (⟨S1x64x4000, .f32⟩ : BufTy).Contents (Elt F) := (((extractStridedSlice S1x64x4000 ![6, 0, 0] · slices_S10x64x4000_S1x64x4000_6_0_0) : (⟨S10x64x4000, .f32⟩ : BufTy).Contents (Elt F) → (⟨S1x64x4000, .f32⟩ : BufTy).Contents (Elt F))) x_main_arg4
  have x_main_v339 : (⟨S64x4000, .f32⟩ : BufTy).Contents (Elt F) := shapeCast S64x4000 x_main_v338 shapeCasts_S1x64x4000_S64x4000
  x_main_v339

/-- Buffer main_v341 as a function of the buffers the stretch reads: its 2 operations, in program order. -/
def f_b2 (x_main_arg5 : (⟨S10x4000, .f32⟩ : BufTy).Contents (Elt F)) :
    (⟨S4000, .f32⟩ : BufTy).Contents (Elt F) :=
  have x_main_v340 : (⟨S1x4000, .f32⟩ : BufTy).Contents (Elt F) := (((extractStridedSlice S1x4000 ![6, 0] · slices_S10x4000_S1x4000_6_0) : (⟨S10x4000, .f32⟩ : BufTy).Contents (Elt F) → (⟨S1x4000, .f32⟩ : BufTy).Contents (Elt F))) x_main_arg5
  have x_main_v341 : (⟨S4000, .f32⟩ : BufTy).Contents (Elt F) := shapeCast S4000 x_main_v340 shapeCasts_S1x4000_S4000
  x_main_v341

/-- Buffer main_v362 as a function of the buffers the stretch reads: its 3 operations, in program order. -/
def f_b2r (x_main_arg5 : (⟨S10x4000, .f32⟩ : BufTy).Contents (Elt F)) :
    (⟨S1x4000, .f32⟩ : BufTy).Contents (Elt F) :=
  have x_main_v340 : (⟨S1x4000, .f32⟩ : BufTy).Contents (Elt F) := (((extractStridedSlice S1x4000 ![6, 0] · slices_S10x4000_S1x4000_6_0) : (⟨S10x4000, .f32⟩ : BufTy).Contents (Elt F) → (⟨S1x4000, .f32⟩ : BufTy).Contents (Elt F))) x_main_arg5
  have x_main_v341 : (⟨S4000, .f32⟩ : BufTy).Contents (Elt F) := shapeCast S4000 x_main_v340 shapeCasts_S1x4000_S4000
  have x_main_v362 : (⟨S1x4000, .f32⟩ : BufTy).Contents (Elt F) := shapeCast S1x4000 x_main_v341 shapeCasts_S4000_S1x4000
  x_main_v362

/-- Buffer main_v333 as a function of the buffers the stretch reads: its 11 operations, in program order. -/
def f_oidx (x_main_v2 : (⟨S4096x64, .i32⟩ : BufTy).Contents (Elt F)) :
    (⟨S4096x128, .i32⟩ : BufTy).Contents (Elt F) :=
  have x_main_c_76 : (⟨S_, .i32⟩ : BufTy).Contents (Elt F) := (constantI S_ 32 2000#32)
  have x_main_v328 : (⟨S4096x64, .i32⟩ : BufTy).Contents (Elt F) := ((broadcastInDim S4096x64 ![] bcast_S_S4096x64 : (⟨S_, .i32⟩ : BufTy).Contents (Elt F) → (⟨S4096x64, .i32⟩ : BufTy).Contents (Elt F))) x_main_c_76
  have x_main_v329 : (⟨S4096x64, .i1⟩ : BufTy).Contents (Elt F) := ((cmpi .eq : (⟨S4096x64, .i32⟩ : BufTy).Contents (Elt F) → (⟨S4096x64, .i32⟩ : BufTy).Contents (Elt F) → (⟨S4096x64, .i1⟩ : BufTy).Contents (Elt F))) x_main_v2 x_main_v328
  have x_main_c_77 : (⟨S_, .i32⟩ : BufTy).Contents (Elt F) := (constantI S_ 32 2000#32)
  have x_main_v330 : (⟨S4096x64, .i32⟩ : BufTy).Contents (Elt F) := ((broadcastInDim S4096x64 ![] bcast_S_S4096x64 : (⟨S_, .i32⟩ : BufTy).Contents (Elt F) → (⟨S4096x64, .i32⟩ : BufTy).Contents (Elt F))) x_main_c_77
  have x_main_v331 : (⟨S4096x64, .i32⟩ : BufTy).Contents (Elt F) := ((addi : (⟨S4096x64, .i32⟩ : BufTy).Contents (Elt F) → (⟨S4096x64, .i32⟩ : BufTy).Contents (Elt F) → (⟨S4096x64, .i32⟩ : BufTy).Contents (Elt F))) x_main_v2 x_main_v330
  have x_main_c_78 : (⟨S_, .i32⟩ : BufTy).Contents (Elt F) := (constantI S_ 32 4000#32)
  have x_main_call12_v0 : (⟨S_, .i32⟩ : BufTy).Contents (Elt F) := (id) x_main_c_78
  have x_main_call12_v1 : (⟨S4096x64, .i32⟩ : BufTy).Contents (Elt F) := ((broadcastInDim S4096x64 ![] bcast_S_S4096x64)) x_main_call12_v0
  have x_main_v332 : (⟨S4096x64, .i32⟩ : BufTy).Contents (Elt F) := (select) x_main_v329 x_main_call12_v1 x_main_v331
  have x_main_v333 : (⟨S4096x128, .i32⟩ : BufTy).Contents (Elt F) := (((fun a b => concatenate S4096x128 1 [⟨S4096x64, a⟩, ⟨S4096x64, b⟩] concatenates_S4096x64_S4096x64_S4096x128_d1) : (⟨S4096x64, .i32⟩ : BufTy).Contents (Elt F) → (⟨S4096x64, .i32⟩ : BufTy).Contents (Elt F) → (⟨S4096x128, .i32⟩ : BufTy).Contents (Elt F))) x_main_v2 x_main_v332
  x_main_v333

/-- Buffer main_v324 as a function of the buffers the stretch reads: its 40 operations, in program order. -/
def f_xnew (x_main_v216 : (⟨S4096x61, .f32⟩ : BufTy).Contents (Elt F)) (x_main_v279 : (⟨S4096x122, .i32⟩ : BufTy).Contents (Elt F)) (x_main_v309 : (⟨S4096x4000, .f32⟩ : BufTy).Contents (Elt F)) :
    (⟨S4096x61, .f32⟩ : BufTy).Contents (Elt F) :=
  have x_main_cst_71 : (⟨S_, .f32⟩ : BufTy).Contents (Elt F) := (constant S_ .f32 0x00000000#32)
  have x_main_v310 : (⟨S4096x1, .f32⟩ : BufTy).Contents (Elt F) := ((broadcastInDim S4096x1 ![] bcast_S_S4096x1 : (⟨S_, .f32⟩ : BufTy).Contents (Elt F) → (⟨S4096x1, .f32⟩ : BufTy).Contents (Elt F))) x_main_cst_71
  have x_main_v311 : (⟨S4096x4001, .f32⟩ : BufTy).Contents (Elt F) := (((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F))) x_main_v309 x_main_v310
  have x_main_call11_c : (⟨S_, .i32⟩ : BufTy).Contents (Elt F) := (constantI S_ 32 0#32)
  have x_main_call11_v0 : (⟨S4096x122, .i32⟩ : BufTy).Contents (Elt F) := ((broadcastInDim S4096x122 ![] bcast_S_S4096x122)) x_main_call11_c
  have x_main_call11_v1 : (⟨S4096x122, .i1⟩ : BufTy).Contents (Elt F) := ((cmpi .slt)) x_main_v279 x_main_call11_v0
  have x_main_call11_c_0 : (⟨S_, .i32⟩ : BufTy).Contents (Elt F) := (constantI S_ 32 4001#32)
  have x_main_call11_v2 : (⟨S4096x122, .i32⟩ : BufTy).Contents (Elt F) := ((broadcastInDim S4096x122 ![] bcast_S_S4096x122)) x_main_call11_c_0
  have x_main_call11_v3 : (⟨S4096x122, .i32⟩ : BufTy).Contents (Elt F) := (addi) x_main_v279 x_main_call11_v2
  have x_main_call11_v4 : (⟨S4096x122, .i32⟩ : BufTy).Contents (Elt F) := (select) x_main_call11_v1 x_main_call11_v3 x_main_v279
  have x_main_call11_v5 : (⟨S4096x122x1, .i32⟩ : BufTy).Contents (Elt F) := shapeCast S4096x122x1 x_main_call11_v4 shapeCasts_S4096x122_S4096x122x1
  have x_main_call11_c_1 : (⟨S1, .i32⟩ : BufTy).Contents (Elt F) := (constantI S1 32 4000#32)
  have x_main_call11_c_2 : (⟨S_, .i32⟩ : BufTy).Contents (Elt F) := (constantI S_ 32 0#32)
  have x_main_call11_v6 : (⟨S4096x122x1, .i32⟩ : BufTy).Contents (Elt F) := ((broadcastInDim S4096x122x1 ![] bcast_S_S4096x122x1)) x_main_call11_c_2
  have x_main_call11_v7 : (⟨S4096x122x1, .i1⟩ : BufTy).Contents (Elt F) := ((cmpi .sge)) x_main_call11_v5 x_main_call11_v6
  have x_main_call11_v8 : (⟨S1x1x1, .i32⟩ : BufTy).Contents (Elt F) := ((broadcastInDim S1x1x1 ![2] bcast_S1_S1x1x1_2)) x_main_call11_c_1
  have x_main_call11_v9 : (⟨S4096x122x1, .i32⟩ : BufTy).Contents (Elt F) := ((broadcastInDim S4096x122x1 ![0, 1, 2] bcast_S1x1x1_S4096x122x1_0_1_2)) x_main_call11_v8
  have x_main_call11_v10 : (⟨S4096x122x1, .i1⟩ : BufTy).Contents (Elt F) := ((cmpi .sle)) x_main_call11_v5 x_main_call11_v9
  have x_main_call11_v11 : (⟨S4096x122x1, .i1⟩ : BufTy).Contents (Elt F) := (andi) x_main_call11_v7 x_main_call11_v10
  have x_main_call11_c_3 : (⟨S_, .i1⟩ : BufTy).Contents (Elt F) := (constantI S_ 1 1#1)
  have x_main_call11_v12 : (⟨S4096x122, .i1⟩ : BufTy).Contents (Elt F) := ((fun x v => Host.reduce IntOp.andi x v reducesTo_S4096x122x1_S4096x122_d2 h_S_)) x_main_call11_v11 x_main_call11_c_3
  have x_main_call11_v13 : (⟨S4096x122, .f32⟩ : BufTy).Contents (Elt F) := ((fun x i => Host.gather gather_S4096x4001_S4096x122x1_S4096x122_n_1_0_0_1_2_11 x i)) x_main_v311 x_main_call11_v5
  have x_main_call11_cst : (⟨S_, .f32⟩ : BufTy).Contents (Elt F) := (constant S_ .f32 0x7FC00000#32)
  have x_main_call11_v14 : (⟨S4096x122, .f32⟩ : BufTy).Contents (Elt F) := ((broadcastInDim S4096x122 ![] bcast_S_S4096x122)) x_main_call11_cst
  have x_main_v312 : (⟨S4096x122, .f32⟩ : BufTy).Contents (Elt F) := (select) x_main_call11_v12 x_main_call11_v13 x_main_call11_v14
  have x_main_v313 : (⟨S4096x61, .f32⟩ : BufTy).Contents (Elt F) := (((extractStridedSlice S4096x61 ![0, 0] · slices_S4096x122_S4096x61_0_0) : (⟨S4096x122, .f32⟩ : BufTy).Contents (Elt F) → (⟨S4096x61, .f32⟩ : BufTy).Contents (Elt F))) x_main_v312
  have x_main_v314 : (⟨S4096x61, .f32⟩ : BufTy).Contents (Elt F) := (((extractStridedSlice S4096x61 ![0, 61] · slices_S4096x122_S4096x61_0_61) : (⟨S4096x122, .f32⟩ : BufTy).Contents (Elt F) → (⟨S4096x61, .f32⟩ : BufTy).Contents (Elt F))) x_main_v312
  have x_main_cst_72 : (⟨S_, .f32⟩ : BufTy).Contents (Elt F) := (constant S_ .f32 0x40000000#32)
  have x_main_v315 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_72
  have x_main_v316 : (⟨S4096x61, .f32⟩ : BufTy).Contents (Elt F) := ((addf : (⟨S4096x61, .f32⟩ : BufTy).Contents (Elt F) → (⟨S4096x61, .f32⟩ : BufTy).Contents (Elt F) → (⟨S4096x61, .f32⟩ : BufTy).Contents (Elt F))) x_main_v313 x_main_v315
  have x_main_v317 : (⟨S4096x61, .f32⟩ : BufTy).Contents (Elt F) := ((Host.negf : (⟨S4096x61, .f32⟩ : BufTy).Contents (Elt F) → (⟨S4096x61, .f32⟩ : BufTy).Contents (Elt F))) x_main_v316
  have x_main_v318 : (⟨S4096x61, .f32⟩ : BufTy).Contents (Elt F) := ((Host.exp : (⟨S4096x61, .f32⟩ : BufTy).Contents (Elt F) → (⟨S4096x61, .f32⟩ : BufTy).Contents (Elt F))) x_main_v317
  have x_main_cst_73 : (⟨S_, .f32⟩ : BufTy).Contents (Elt F) := (constant S_ .f32 0x3F800000#32)
  have x_main_v319 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_73
  have x_main_v320 : (⟨S4096x61, .f32⟩ : BufTy).Contents (Elt F) := ((addf : (⟨S4096x61, .f32⟩ : BufTy).Contents (Elt F) → (⟨S4096x61, .f32⟩ : BufTy).Contents (Elt F) → (⟨S4096x61, .f32⟩ : BufTy).Contents (Elt F))) x_main_v319 x_main_v318
  have x_main_cst_74 : (⟨S_, .f32⟩ : BufTy).Contents (Elt F) := (constant S_ .f32 0x3F800000#32)
  have x_main_v321 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_74
  have x_main_v322 : (⟨S4096x61, .f32⟩ : BufTy).Contents (Elt F) := ((Host.divf : (⟨S4096x61, .f32⟩ : BufTy).Contents (Elt F) → (⟨S4096x61, .f32⟩ : BufTy).Contents (Elt F) → (⟨S4096x61, .f32⟩ : BufTy).Contents (Elt F))) x_main_v321 x_main_v320
  have x_main_v323 : (⟨S4096x61, .f32⟩ : BufTy).Contents (Elt F) := ((mulf : (⟨S4096x61, .f32⟩ : BufTy).Contents (Elt F) → (⟨S4096x61, .f32⟩ : BufTy).Contents (Elt F) → (⟨S4096x61, .f32⟩ : BufTy).Contents (Elt F))) x_main_v322 x_main_v216
  have x_main_v324 : (⟨S4096x61, .f32⟩ : BufTy).Contents (Elt F) := ((addf : (⟨S4096x61, .f32⟩ : BufTy).Contents (Elt F) → (⟨S4096x61, .f32⟩ : BufTy).Contents (Elt F) → (⟨S4096x61, .f32⟩ : BufTy).Contents (Elt F))) x_main_v323 x_main_v314
  x_main_v324

/-- Buffer main_v327 as a function of the buffers the stretch reads: its 41 operations, in program order. -/
def f_qnew (x_main_v273 : (⟨S4096, .f32⟩ : BufTy).Contents (Elt F)) (x_main_v279 : (⟨S4096x122, .i32⟩ : BufTy).Contents (Elt F)) (x_main_v309 : (⟨S4096x4000, .f32⟩ : BufTy).Contents (Elt F)) :
    (⟨S4096, .f32⟩ : BufTy).Contents (Elt F) :=
  have x_main_cst_71 : (⟨S_, .f32⟩ : BufTy).Contents (Elt F) := (constant S_ .f32 0x00000000#32)
  have x_main_v310 : (⟨S4096x1, .f32⟩ : BufTy).Contents (Elt F) := ((broadcastInDim S4096x1 ![] bcast_S_S4096x1 : (⟨S_, .f32⟩ : BufTy).Contents (Elt F) → (⟨S4096x1, .f32⟩ : BufTy).Contents (Elt F))) x_main_cst_71
  have x_main_v311 : (⟨S4096x4001, .f32⟩ : BufTy).Contents (Elt F) := (((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F))) x_main_v309 x_main_v310
  have x_main_call11_c : (⟨S_, .i32⟩ : BufTy).Contents (Elt F) := (constantI S_ 32 0#32)
  have x_main_call11_v0 : (⟨S4096x122, .i32⟩ : BufTy).Contents (Elt F) := ((broadcastInDim S4096x122 ![] bcast_S_S4096x122)) x_main_call11_c
  have x_main_call11_v1 : (⟨S4096x122, .i1⟩ : BufTy).Contents (Elt F) := ((cmpi .slt)) x_main_v279 x_main_call11_v0
  have x_main_call11_c_0 : (⟨S_, .i32⟩ : BufTy).Contents (Elt F) := (constantI S_ 32 4001#32)
  have x_main_call11_v2 : (⟨S4096x122, .i32⟩ : BufTy).Contents (Elt F) := ((broadcastInDim S4096x122 ![] bcast_S_S4096x122)) x_main_call11_c_0
  have x_main_call11_v3 : (⟨S4096x122, .i32⟩ : BufTy).Contents (Elt F) := (addi) x_main_v279 x_main_call11_v2
  have x_main_call11_v4 : (⟨S4096x122, .i32⟩ : BufTy).Contents (Elt F) := (select) x_main_call11_v1 x_main_call11_v3 x_main_v279
  have x_main_call11_v5 : (⟨S4096x122x1, .i32⟩ : BufTy).Contents (Elt F) := shapeCast S4096x122x1 x_main_call11_v4 shapeCasts_S4096x122_S4096x122x1
  have x_main_call11_c_1 : (⟨S1, .i32⟩ : BufTy).Contents (Elt F) := (constantI S1 32 4000#32)
  have x_main_call11_c_2 : (⟨S_, .i32⟩ : BufTy).Contents (Elt F) := (constantI S_ 32 0#32)
  have x_main_call11_v6 : (⟨S4096x122x1, .i32⟩ : BufTy).Contents (Elt F) := ((broadcastInDim S4096x122x1 ![] bcast_S_S4096x122x1)) x_main_call11_c_2
  have x_main_call11_v7 : (⟨S4096x122x1, .i1⟩ : BufTy).Contents (Elt F) := ((cmpi .sge)) x_main_call11_v5 x_main_call11_v6
  have x_main_call11_v8 : (⟨S1x1x1, .i32⟩ : BufTy).Contents (Elt F) := ((broadcastInDim S1x1x1 ![2] bcast_S1_S1x1x1_2)) x_main_call11_c_1
  have x_main_call11_v9 : (⟨S4096x122x1, .i32⟩ : BufTy).Contents (Elt F) := ((broadcastInDim S4096x122x1 ![0, 1, 2] bcast_S1x1x1_S4096x122x1_0_1_2)) x_main_call11_v8
  have x_main_call11_v10 : (⟨S4096x122x1, .i1⟩ : BufTy).Contents (Elt F) := ((cmpi .sle)) x_main_call11_v5 x_main_call11_v9
  have x_main_call11_v11 : (⟨S4096x122x1, .i1⟩ : BufTy).Contents (Elt F) := (andi) x_main_call11_v7 x_main_call11_v10
  have x_main_call11_c_3 : (⟨S_, .i1⟩ : BufTy).Contents (Elt F) := (constantI S_ 1 1#1)
  have x_main_call11_v12 : (⟨S4096x122, .i1⟩ : BufTy).Contents (Elt F) := ((fun x v => Host.reduce IntOp.andi x v reducesTo_S4096x122x1_S4096x122_d2 h_S_)) x_main_call11_v11 x_main_call11_c_3
  have x_main_call11_v13 : (⟨S4096x122, .f32⟩ : BufTy).Contents (Elt F) := ((fun x i => Host.gather gather_S4096x4001_S4096x122x1_S4096x122_n_1_0_0_1_2_11 x i)) x_main_v311 x_main_call11_v5
  have x_main_call11_cst : (⟨S_, .f32⟩ : BufTy).Contents (Elt F) := (constant S_ .f32 0x7FC00000#32)
  have x_main_call11_v14 : (⟨S4096x122, .f32⟩ : BufTy).Contents (Elt F) := ((broadcastInDim S4096x122 ![] bcast_S_S4096x122)) x_main_call11_cst
  have x_main_v312 : (⟨S4096x122, .f32⟩ : BufTy).Contents (Elt F) := (select) x_main_call11_v12 x_main_call11_v13 x_main_call11_v14
  have x_main_v313 : (⟨S4096x61, .f32⟩ : BufTy).Contents (Elt F) := (((extractStridedSlice S4096x61 ![0, 0] · slices_S4096x122_S4096x61_0_0) : (⟨S4096x122, .f32⟩ : BufTy).Contents (Elt F) → (⟨S4096x61, .f32⟩ : BufTy).Contents (Elt F))) x_main_v312
  have x_main_cst_72 : (⟨S_, .f32⟩ : BufTy).Contents (Elt F) := (constant S_ .f32 0x40000000#32)
  have x_main_v315 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_72
  have x_main_v316 : (⟨S4096x61, .f32⟩ : BufTy).Contents (Elt F) := ((addf : (⟨S4096x61, .f32⟩ : BufTy).Contents (Elt F) → (⟨S4096x61, .f32⟩ : BufTy).Contents (Elt F) → (⟨S4096x61, .f32⟩ : BufTy).Contents (Elt F))) x_main_v313 x_main_v315
  have x_main_v317 : (⟨S4096x61, .f32⟩ : BufTy).Contents (Elt F) := ((Host.negf : (⟨S4096x61, .f32⟩ : BufTy).Contents (Elt F) → (⟨S4096x61, .f32⟩ : BufTy).Contents (Elt F))) x_main_v316
  have x_main_v318 : (⟨S4096x61, .f32⟩ : BufTy).Contents (Elt F) := ((Host.exp : (⟨S4096x61, .f32⟩ : BufTy).Contents (Elt F) → (⟨S4096x61, .f32⟩ : BufTy).Contents (Elt F))) x_main_v317
  have x_main_cst_73 : (⟨S_, .f32⟩ : BufTy).Contents (Elt F) := (constant S_ .f32 0x3F800000#32)
  have x_main_v319 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_73
  have x_main_v320 : (⟨S4096x61, .f32⟩ : BufTy).Contents (Elt F) := ((addf : (⟨S4096x61, .f32⟩ : BufTy).Contents (Elt F) → (⟨S4096x61, .f32⟩ : BufTy).Contents (Elt F) → (⟨S4096x61, .f32⟩ : BufTy).Contents (Elt F))) x_main_v319 x_main_v318
  have x_main_cst_74 : (⟨S_, .f32⟩ : BufTy).Contents (Elt F) := (constant S_ .f32 0x3F800000#32)
  have x_main_v321 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_74
  have x_main_v322 : (⟨S4096x61, .f32⟩ : BufTy).Contents (Elt F) := ((Host.divf : (⟨S4096x61, .f32⟩ : BufTy).Contents (Elt F) → (⟨S4096x61, .f32⟩ : BufTy).Contents (Elt F) → (⟨S4096x61, .f32⟩ : BufTy).Contents (Elt F))) x_main_v321 x_main_v320
  have x_main_v325 : (⟨S4096x61, .f32⟩ : BufTy).Contents (Elt F) := ((Host.log : (⟨S4096x61, .f32⟩ : BufTy).Contents (Elt F) → (⟨S4096x61, .f32⟩ : BufTy).Contents (Elt F))) x_main_v322
  have x_main_cst_75 : (⟨S_, .f32⟩ : BufTy).Contents (Elt F) := (constant S_ .f32 0x00000000#32)
  have x_main_v326 : (⟨S4096, .f32⟩ : BufTy).Contents (Elt F) := (((fun x v => Host.reduceAdd x v reducesTo_S4096x61_S4096_d1 h_S_) : (⟨S4096x61, .f32⟩ : BufTy).Contents (Elt F) → (⟨S_, .f32⟩ : BufTy).Contents (Elt F) → (⟨S4096, .f32⟩ : BufTy).Contents (Elt F))) x_main_v325 x_main_cst_75
  have x_main_v327 : (⟨S4096, .f32⟩ : BufTy).Contents (Elt F) := ((subf : (⟨S4096, .f32⟩ : BufTy).Contents (Elt F) → (⟨S4096, .f32⟩ : BufTy).Contents (Elt F) → (⟨S4096, .f32⟩ : BufTy).Contents (Elt F))) x_main_v273 x_main_v326
  x_main_v327

-- the gather, the scatter and the reductions are never opened: both sides apply them to equal arguments
attribute [local irreducible] Host.scatterAdd Host.reduce Host.gather Host.reduceAdd concatenate extractStridedSlice broadcastInDim iotaInDim in
set_option maxHeartbeats 8000000 in
set_option maxRecDepth 100000 in
/-- The stretch's fold at each of those buffers. -/
theorem reads (V : Valuation τ sig (Elt F)) :
    after hostOps6_4 (after hostOps6_3 (after hostOps6_2 (after hostOps6_1 (after hostOps6 V)))) (Proc.devRef .tc main_v360) = f_dense (V (Proc.devRef .tc main_v3)) (V (Proc.devRef .tc main_v216)) (V (Proc.devRef .tc main_v279)) (V (Proc.devRef .tc main_v309))
    ∧ after hostOps6_4 (after hostOps6_3 (after hostOps6_2 (after hostOps6_1 (after hostOps6 V)))) (Proc.devRef .tc main_v335) = f_w1 (V (Proc.devRef .tc main_arg2))
    ∧ after hostOps6_4 (after hostOps6_3 (after hostOps6_2 (after hostOps6_1 (after hostOps6 V)))) (Proc.devRef .tc main_v337) = f_b1 (V (Proc.devRef .tc main_arg3))
    ∧ after hostOps6_4 (after hostOps6_3 (after hostOps6_2 (after hostOps6_1 (after hostOps6 V)))) (Proc.devRef .tc main_v361) = f_b1r (V (Proc.devRef .tc main_arg3))
    ∧ after hostOps6_4 (after hostOps6_3 (after hostOps6_2 (after hostOps6_1 (after hostOps6 V)))) (Proc.devRef .tc main_v339) = f_w2 (V (Proc.devRef .tc main_arg4))
    ∧ after hostOps6_4 (after hostOps6_3 (after hostOps6_2 (after hostOps6_1 (after hostOps6 V)))) (Proc.devRef .tc main_v341) = f_b2 (V (Proc.devRef .tc main_arg5))
    ∧ after hostOps6_4 (after hostOps6_3 (after hostOps6_2 (after hostOps6_1 (after hostOps6 V)))) (Proc.devRef .tc main_v362) = f_b2r (V (Proc.devRef .tc main_arg5))
    ∧ after hostOps6_4 (after hostOps6_3 (after hostOps6_2 (after hostOps6_1 (after hostOps6 V)))) (Proc.devRef .tc main_v333) = f_oidx (V (Proc.devRef .tc main_v2))
    ∧ after hostOps6_4 (after hostOps6_3 (after hostOps6_2 (after hostOps6_1 (after hostOps6 V)))) (Proc.devRef .tc main_v324) = f_xnew (V (Proc.devRef .tc main_v216)) (V (Proc.devRef .tc main_v279)) (V (Proc.devRef .tc main_v309))
    ∧ after hostOps6_4 (after hostOps6_3 (after hostOps6_2 (after hostOps6_1 (after hostOps6 V)))) (Proc.devRef .tc main_v327) = f_qnew (V (Proc.devRef .tc main_v273)) (V (Proc.devRef .tc main_v279)) (V (Proc.devRef .tc main_v309))
    ∧ after hostOps6_4 (after hostOps6_3 (after hostOps6_2 (after hostOps6_1 (after hostOps6 V)))) (Proc.devRef .tc main_v270) = V (Proc.devRef .tc main_v270)
    ∧ after hostOps6_4 (after hostOps6_3 (after hostOps6_2 (after hostOps6_1 (after hostOps6 V)))) (Proc.devRef .tc main_v2) = V (Proc.devRef .tc main_v2)
    ∧ after hostOps6_4 (after hostOps6_3 (after hostOps6_2 (after hostOps6_1 (after hostOps6 V)))) (Proc.devRef .tc main_v3) = V (Proc.devRef .tc main_v3)
    ∧ after hostOps6_4 (after hostOps6_3 (after hostOps6_2 (after hostOps6_1 (after hostOps6 V)))) (Proc.devRef .tc main_arg2) = V (Proc.devRef .tc main_arg2)
    ∧ after hostOps6_4 (after hostOps6_3 (after hostOps6_2 (after hostOps6_1 (after hostOps6 V)))) (Proc.devRef .tc main_arg3) = V (Proc.devRef .tc main_arg3)
    ∧ after hostOps6_4 (after hostOps6_3 (after hostOps6_2 (after hostOps6_1 (after hostOps6 V)))) (Proc.devRef .tc main_arg4) = V (Proc.devRef .tc main_arg4)
    ∧ after hostOps6_4 (after hostOps6_3 (after hostOps6_2 (after hostOps6_1 (after hostOps6 V)))) (Proc.devRef .tc main_arg5) = V (Proc.devRef .tc main_arg5) := by
  simp only [hostOps6, hostOps6_1, hostOps6_2, hostOps6_3, hostOps6_4]
  after_results_simp
  refine ⟨?_, ?_, ?_, ?_, ?_, ?_, ?_, ?_, ?_, ?_, ?_, ?_, ?_, ?_, ?_, ?_, ?_⟩ <;> first | rfl | trivial

end Cert.KernelIdeal.Layer6

end
-- ==== Proof.LayerR6a.lean ====
/- The reference's operations of the same stage (kernel region 5 and kernel region 6 on the kernel side), read as the SAME functions
  as the kernel program's: the five buffers the layer's perceptron is computed from.
-/
import proofs.«140670_j11424613007642_1_alg».proof.Proof.RefRun
import proofs.«140670_j11424613007642_1_alg».proof.Proof.LayerK6
import proofs.«140670_j11424613007642_1_alg».proof.Proof.LibTRef
import Idealize.ShloMosaic.PureOps.Ideal

set_option maxRecDepth 16384

noncomputable section

namespace Cert.ReferenceIdeal.LayerR6

open Cert.ReferenceIdeal Cert.ReferenceIdeal.Gen Cert.ReferenceIdeal.RefRun Idealize.ShloMosaic Idealize.ShloMosaic.StableHlo Idealize.ShloMosaic.TcCoe

-- the gather, the scatter and the reductions are never opened: both sides apply them to equal arguments
attribute [local irreducible] Host.scatterAdd Host.reduce Host.gather Host.reduceAdd concatenate extractStridedSlice broadcastInDim iotaInDim in
set_option maxHeartbeats 16000000 in
set_option maxRecDepth 100000 in
/-- The five buffers the layer's perceptron is computed from. -/
theorem readsIn (V' : Valuation τ sig (Elt Ideal)) :
    after rseg6 V' (Proc.devRef .tc main_v396) = Cert.KernelIdeal.Layer6.f_dense (V' (Proc.devRef .tc main_v3)) (V' (Proc.devRef .tc main_v240)) (V' (Proc.devRef .tc main_v309)) (V' (Proc.devRef .tc main_v345))
    ∧ after rseg6 V' (Proc.devRef .tc main_v371) = Cert.KernelIdeal.Layer6.f_w1 (V' (Proc.devRef .tc main_arg2))
    ∧ after rseg6 V' (Proc.devRef .tc main_v373) = Cert.KernelIdeal.Layer6.f_b1 (V' (Proc.devRef .tc main_arg3))
    ∧ after rseg6 V' (Proc.devRef .tc main_v375) = Cert.KernelIdeal.Layer6.f_w2 (V' (Proc.devRef .tc main_arg4))
    ∧ after rseg6 V' (Proc.devRef .tc main_v377) = Cert.KernelIdeal.Layer6.f_b2 (V' (Proc.devRef .tc main_arg5)) := by
  simp only [after_append_line, rseg6, rseg6_a, rseg6_b, rseg6_c, rseg6_d, rseg6_e]
  after_results_simp
  -- contents stored through a typed reference and read back through it are unchanged
  try simp only [Cert.LibTRef.ofBuf_toBuf]
  refine ⟨?_, ?_, ?_, ?_, ?_⟩ <;> first | rfl | trivial

end Cert.ReferenceIdeal.LayerR6

end
-- ==== Proof.LayerR6b.lean ====
/- The reference's operations of the same stage (kernel region 5 and kernel region 6 on the kernel side), read as the SAME functions
  as the kernel program's: the other buffers the next stage needs; a buffer the segment does not write keeps its contents.
-/
import proofs.«140670_j11424613007642_1_alg».proof.Proof.RefRun
import proofs.«140670_j11424613007642_1_alg».proof.Proof.LayerK6
import proofs.«140670_j11424613007642_1_alg».proof.Proof.LibTRef
import Idealize.ShloMosaic.PureOps.Ideal

set_option maxRecDepth 16384

noncomputable section

namespace Cert.ReferenceIdeal.LayerR6

open Cert.ReferenceIdeal Cert.ReferenceIdeal.Gen Cert.ReferenceIdeal.RefRun Idealize.ShloMosaic Idealize.ShloMosaic.StableHlo Idealize.ShloMosaic.TcCoe

-- the gather, the scatter and the reductions are never opened: both sides apply them to equal arguments
attribute [local irreducible] Host.scatterAdd Host.reduce Host.gather Host.reduceAdd concatenate extractStridedSlice broadcastInDim iotaInDim in
set_option maxHeartbeats 16000000 in
set_option maxRecDepth 100000 in
/-- The other buffers the next stage needs. -/
theorem reads (V' : Valuation τ sig (Elt Ideal)) :
    after rseg6 V' (Proc.devRef .tc main_v369) = Cert.KernelIdeal.Layer6.f_oidx (V' (Proc.devRef .tc main_v2))
    ∧ after rseg6 V' (Proc.devRef .tc main_v360) = Cert.KernelIdeal.Layer6.f_xnew (V' (Proc.devRef .tc main_v240)) (V' (Proc.devRef .tc main_v309)) (V' (Proc.devRef .tc main_v345))
    ∧ after rseg6 V' (Proc.devRef .tc main_v363) = Cert.KernelIdeal.Layer6.f_qnew (V' (Proc.devRef .tc main_v303)) (V' (Proc.devRef .tc main_v309)) (V' (Proc.devRef .tc main_v345))
    ∧ after rseg6 V' (Proc.devRef .tc main_v300) = V' (Proc.devRef .tc main_v300)
    ∧ after rseg6 V' (Proc.devRef .tc main_v2) = V' (Proc.devRef .tc main_v2)
    ∧ after rseg6 V' (Proc.devRef .tc main_v3) = V' (Proc.devRef .tc main_v3)
    ∧ after rseg6 V' (Proc.devRef .tc main_arg2) = V' (Proc.devRef .tc main_arg2)
    ∧ after rseg6 V' (Proc.devRef .tc main_arg3) = V' (Proc.devRef .tc main_arg3)
    ∧ after rseg6 V' (Proc.devRef .tc main_arg4) = V' (Proc.devRef .tc main_arg4)
    ∧ after rseg6 V' (Proc.devRef .tc main_arg5) = V' (Proc.devRef .tc main_arg5) := by
  simp only [after_append_line, rseg6, rseg6_a, rseg6_b, rseg6_c, rseg6_d, rseg6_e]
  after_results_simp
  -- contents stored through a typed reference and read back through it are unchanged
  try simp only [Cert.LibTRef.ofBuf_toBuf]
  refine ⟨?_, ?_, ?_, ?_, ?_, ?_, ?_, ?_, ?_, ?_⟩ <;> first | rfl | trivial

end Cert.ReferenceIdeal.LayerR6

end
-- ==== Proof.LayerR6c.lean ====
/- The reference's operations of the same stage (kernel region 5 and kernel region 6 on the kernel side), read as the SAME functions
  as the kernel program's: the layer's perceptron output is the host perceptron of the five buffers it is computed from.
-/
import proofs.«140670_j11424613007642_1_alg».proof.Proof.RefRun
import proofs.«140670_j11424613007642_1_alg».proof.Proof.MlpHost
import Idealize.ShloMosaic.PureOps.Ideal

set_option maxRecDepth 16384

noncomputable section

namespace Cert.ReferenceIdeal.LayerR6

open Cert.ReferenceIdeal Cert.ReferenceIdeal.Gen Cert.ReferenceIdeal.RefRun Idealize.ShloMosaic Idealize.ShloMosaic.StableHlo Idealize.ShloMosaic.TcCoe

-- the gather, the scatter and the reductions are never opened: both sides apply them to equal arguments
attribute [local irreducible] Host.scatterAdd Host.reduce Host.gather Host.reduceAdd concatenate extractStridedSlice broadcastInDim iotaInDim in
set_option maxHeartbeats 16000000 in
set_option maxRecDepth 100000 in
/-- The layer's perceptron output is the host perceptron of those five buffers. -/
theorem readsOut (V' : Valuation τ sig (Elt Ideal)) :
    after rseg6 V' (Proc.devRef .tc main_v405) = Cert.ReferenceIdeal.MlpHost.hostMlp (after rseg6 V' (Proc.devRef .tc main_v396)) (after rseg6 V' (Proc.devRef .tc main_v371)) (after rseg6 V' (Proc.devRef .tc main_v373)) (after rseg6 V' (Proc.devRef .tc main_v375)) (after rseg6 V' (Proc.devRef .tc main_v377)) := by
  simp only [after_append_line, rseg6, rseg6_a, rseg6_b, rseg6_c, rseg6_d, rseg6_e]
  after_results_simp
  first | rfl | trivial

end Cert.ReferenceIdeal.LayerR6

end
-- ==== Proof.LayerR6.lean ====
/- The reference's side of this stage, collected: the three statements live in one module each.
-/
import proofs.«140670_j11424613007642_1_alg».proof.Proof.LayerR6a
import proofs.«140670_j11424613007642_1_alg».proof.Proof.LayerR6b
import proofs.«140670_j11424613007642_1_alg».proof.Proof.LayerR6c
-- ==== Proof.Step6.lean ====
/-
  Layer 6. If after layer 5's perceptron output the two programs hold the same eleven values, they do so again after
  layer 6's. On the kernel side the host operations up to region 6 read as functions of those values, the region leaves
  the layer function of its five operand arrays, and nothing else the next layer needs is touched; on the reference side
  the same operations read as the same functions, and its host perceptron is the layer function.
-/
import proofs.«140670_j11424613007642_1_alg».proof.Proof.KernelIdealFrameP
import proofs.«140670_j11424613007642_1_alg».proof.Proof.BridgeDefs
import proofs.«140670_j11424613007642_1_alg».proof.Proof.Congr
import proofs.«140670_j11424613007642_1_alg».proof.Proof.MlpBridge
import proofs.«140670_j11424613007642_1_alg».proof.Proof.Region6
import proofs.«140670_j11424613007642_1_alg».proof.Proof.LayerK6
import proofs.«140670_j11424613007642_1_alg».proof.Proof.LayerR6

set_option maxRecDepth 16384

noncomputable section

namespace Cert.Bridge

open Cert.KernelIdeal Cert.KernelIdeal.Gen Cert.KernelIdeal.GenP Cert.KernelIdeal.MlpArray
open Idealize.ShloMosaic Idealize.ShloMosaic.StableHlo Idealize.ShloMosaic.TcCoe Idealize.SL.Sem

set_option maxHeartbeats 4000000 in
theorem step6 (m : (ℓ : Loc nD τ sig) → Buf (Elt Ideal) ℓ) (ρ : Dev nD → PrngReg) (c : Dev nD) (V' : RV)
    (h : Inv5 (W34 m ρ c) V') :
    Inv6 (W40 m ρ c) (after Cert.ReferenceIdeal.RefRun.rseg6 V') := by
  obtain ⟨out, oidx, a, b, q, ia, ib, w1s, b1s, w2s, b2s, ⟨kout, rout⟩, ⟨koidx, roidx⟩, ⟨ka, ra⟩, ⟨kb, rb⟩, ⟨kq, rq⟩, ⟨kia, ria⟩, ⟨kib, rib⟩,
    ⟨kw1s, rw1s⟩, ⟨kb1s, rb1s⟩, ⟨kw2s, rw2s⟩, ⟨kb2s, rb2s⟩⟩ := h
  obtain ⟨Kdense, Kw1, Kb1, Kb1r, Kw2, Kb2, Kb2r, Koidx, Kxnew, Kqnew, Kkeepb, Kia, Kib, Kw1s, Kb1s, Kw2s, Kb2s⟩ :=
    Cert.KernelIdeal.Layer6.reads (F := Ideal) (W34 m ρ c)
  obtain ⟨Rdense, Rw1, Rb1, Rw2, Rb2⟩ := Cert.ReferenceIdeal.LayerR6.readsIn V'
  obtain ⟨Roidx, Rxnew, Rqnew, Rkeepb, Ria, Rib, Rw1s, Rb1s, Rw2s, Rb2s⟩ := Cert.ReferenceIdeal.LayerR6.reads V'
  have Rout := Cert.ReferenceIdeal.LayerR6.readsOut V'
  -- the kernel program's reads, at the eleven values
  have Kdense' := Kdense.trans (show _ = Cert.KernelIdeal.Layer6.f_dense ib a oidx out by simp only [kib, ka, koidx, kout])
  have Kw1' := Kw1.trans (show _ = Cert.KernelIdeal.Layer6.f_w1 w1s by simp only [kw1s])
  have Kb1r' := Kb1r.trans (show _ = Cert.KernelIdeal.Layer6.f_b1r b1s by simp only [kb1s])
  have Kw2' := Kw2.trans (show _ = Cert.KernelIdeal.Layer6.f_w2 w2s by simp only [kw2s])
  have Kb2r' := Kb2r.trans (show _ = Cert.KernelIdeal.Layer6.f_b2r b2s by simp only [kb2s])
  have Koidx' := Koidx.trans (show _ = Cert.KernelIdeal.Layer6.f_oidx ia by simp only [kia])
  have Kxnew' := Kxnew.trans (show _ = Cert.KernelIdeal.Layer6.f_xnew a oidx out by simp only [ka, koidx, kout])
  have Kqnew' := Kqnew.trans (show _ = Cert.KernelIdeal.Layer6.f_qnew q oidx out by simp only [kq, koidx, kout])
  -- the reference's reads, at the same values
  have Rdense' := Rdense.trans (show _ = Cert.KernelIdeal.Layer6.f_dense ib a oidx out by simp only [rib, ra, roidx, rout])
  have Rw1' := Rw1.trans (show _ = Cert.KernelIdeal.Layer6.f_w1 w1s by simp only [rw1s])
  have Rb1' := Rb1.trans (show _ = Cert.KernelIdeal.Layer6.f_b1 b1s by simp only [rb1s])
  have Rw2' := Rw2.trans (show _ = Cert.KernelIdeal.Layer6.f_w2 w2s by simp only [rw2s])
  have Rb2' := Rb2.trans (show _ = Cert.KernelIdeal.Layer6.f_b2 b2s by simp only [rb2s])
  have Roidx' := Roidx.trans (show _ = Cert.KernelIdeal.Layer6.f_oidx ia by simp only [ria])
  have Rxnew' := Rxnew.trans (show _ = Cert.KernelIdeal.Layer6.f_xnew a oidx out by simp only [ra, roidx, rout])
  have Rqnew' := Rqnew.trans (show _ = Cert.KernelIdeal.Layer6.f_qnew q oidx out by simp only [rq, roidx, rout])
  refine ⟨G (Cert.KernelIdeal.Layer6.f_dense ib a oidx out) (Cert.KernelIdeal.Layer6.f_w1 w1s) (Cert.KernelIdeal.Layer6.f_b1r b1s)
      (Cert.KernelIdeal.Layer6.f_w2 w2s) (Cert.KernelIdeal.Layer6.f_b2r b2s),
    Cert.KernelIdeal.Layer6.f_oidx ia, b, Cert.KernelIdeal.Layer6.f_xnew a oidx out, Cert.KernelIdeal.Layer6.f_qnew q oidx out,
    ia, ib, w1s, b1s, w2s, b2s, ⟨?_, ?_⟩,
    ⟨(W40_of_ne m ρ c Cert.KernelIdeal.main_v333 (by decide)).trans Koidx', Roidx'⟩,
    ⟨(W40_of_ne m ρ c Cert.KernelIdeal.main_v270 (by decide)).trans (Kkeepb.trans kb), Rkeepb.trans rb⟩,
    ⟨(W40_of_ne m ρ c Cert.KernelIdeal.main_v324 (by decide)).trans Kxnew', Rxnew'⟩,
    ⟨(W40_of_ne m ρ c Cert.KernelIdeal.main_v327 (by decide)).trans Kqnew', Rqnew'⟩,
    ⟨(W40_of_ne m ρ c Cert.KernelIdeal.main_v2 (by decide)).trans (Kia.trans kia), Ria.trans ria⟩, ⟨(W40_of_ne m ρ c Cert.KernelIdeal.main_v3 (by decide)).trans (Kib.trans kib), Rib.trans rib⟩,
    ⟨(W40_of_ne m ρ c Cert.KernelIdeal.main_arg2 (by decide)).trans (Kw1s.trans kw1s), Rw1s.trans rw1s⟩, ⟨(W40_of_ne m ρ c Cert.KernelIdeal.main_arg3 (by decide)).trans (Kb1s.trans kb1s), Rb1s.trans rb1s⟩, ⟨(W40_of_ne m ρ c Cert.KernelIdeal.main_arg4 (by decide)).trans (Kw2s.trans kw2s), Rw2s.trans rw2s⟩, ⟨(W40_of_ne m ρ c Cert.KernelIdeal.main_arg5 (by decide)).trans (Kb2s.trans kb2s), Rb2s.trans rb2s⟩⟩
  · -- the region's output array is the layer function of its operand arrays as it finds them
    exact (W40_arr m ρ c 5).trans ((Cert.KernelIdeal.Region6.regionOut (V39 m ρ) c).trans (G_congr Kdense' Kw1' Kb1r' Kw2' Kb2r'))
  · -- the reference's host perceptron of the same five arrays is the same function
    exact Rout.trans ((hostMlp_congr Rdense' Rw1' Rb1' Rw2' Rb2').trans (Cert.MlpBridge.host_eq_G _ _ _ _ _))

end Cert.Bridge

end
-- ==== Proof.Region7.lean ====
/-
  python3 scratch/gen_regions.py 7

  Kernel region 7 (one layer's perceptron): whatever the TensorCore's buffers hold when the region is entered,
  the region leaves its output array holding the layer function of its five operand arrays. The grid has eight
  points; point t is given rows 512·t … 512·t+511 of the input and all of both weight matrices and biases, and
  writes rows 512·t … 512·t+511 of the output. Entry (r, j) of the output depends on row r of the input alone, so
  each written block is the restriction of ONE whole-array function, and the eight blocks tile the output.
-/
import proofs.«140670_j11424613007642_1_alg».proof.Proof.KernelIdealFrameP
import proofs.«140670_j11424613007642_1_alg».proof.Proof.MlpKernel
import proofs.«140670_j11424613007642_1_alg».proof.Proof.MlpArray
import Idealize.ShloMosaic.Lib.Pipeline.Value
import Idealize.ShloMosaic.Lib.ValueIdx

set_option maxRecDepth 16384

noncomputable section

namespace Cert.KernelIdeal.Region7

open Cert.KernelIdeal Cert.KernelIdeal.Gen Cert.KernelIdeal.GenP Cert.KernelIdeal.MlpArray
open Idealize.ShloMosaic Idealize.ShloMosaic.TcCoe Idealize.ShloMosaic.ValueIdx Idealize.SL.Sem
open Idealize.ShloMosaic.Pipeline (Dat Cfg Window)

/-- The body reads and writes its staging buffers whole: at offsets zero. -/
theorem zero_offsets : (![0, 0] : Fin 2 → Nat) = fun _ => 0 := funext fun a => by fin_cases a <;> rfl

/-- The printed index maps over the grid: the input's and the output's row block is the grid point, every other
    block index is zero. -/
theorem block_indices : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- The row function depends on its five arguments through their values alone. -/
theorem mlpRow_congr {d d' : Fin 2000 → EReal} {w1 w1' : Fin 2000 → Fin 64 → EReal} {b1 b1' : Fin 64 → EReal}
    {w2 w2' : Fin 64 → Fin 4000 → EReal} {b2 b2' : Fin 4000 → EReal}
    (hd : ∀ l, d l = d' l) (hw1 : ∀ l k, w1 l k = w1' l k) (hb1 : ∀ k, b1 k = b1' k)
    (hw2 : ∀ k j, w2 k j = w2' k j) (hb2 : ∀ j, b2 j = b2' j) (j : Fin 4000) :
    Cert.MlpSpec.mlpRow d w1 b1 w2 b2 j = Cert.MlpSpec.mlpRow d' w1' b1' w2' b2' j := by
  have e1 : d = d' := funext hd
  have e2 : w1 = w1' := funext fun l => funext (hw1 l)
  have e3 : b1 = b1' := funext hb1
  have e4 : w2 = w2' := funext fun k => funext (hw2 k)
  have e5 : b2 = b2' := funext hb2
  rw [e1, e2, e3, e4, e5]

/-- The payload of the operand arrays' blocks at point `t` is block `t` of the layer function of the arrays:
    entry `(p, q)` of the block is entry `(512·t + p, q)` of the array; the input's block holds rows
    `512·t + p`, and the weights' and biases' blocks are the whole arrays. -/
theorem payload_block (A0 : S4096x2000.Idx → EReal) (A1 : S2000x64.Idx → EReal) (A2 : S1x64.Idx → EReal)
    (A3 : S64x4000.Idx → EReal) (A4 : S1x4000.Idx → EReal) (t : Fin cfg7.N) :
    k7_pay1 (F := Ideal) (((cfg7.win 0).blk t).view.read (Elt Ideal) A0) (((cfg7.win 1).blk t).view.read (Elt Ideal) A1)
        (((cfg7.win 2).blk t).view.read (Elt Ideal) A2) (((cfg7.win 3).blk t).view.read (Elt Ideal) A3)
        (((cfg7.win 4).blk t).view.read (Elt Ideal) A4)
      = ((cfg7.win 5).blk t).view.read (Elt Ideal) (G A0 A1 A2 A3 A4) := by
  obtain ⟨e00, e01, e10, e11, e20, e21, e30, e31, e40, e41, e50, e51⟩ := block_indices t
  have hN : cfg7.N = 8 := rfl
  have ht : t.val < 8 := hN ▸ t.isLt
  rw [Cert.KernelIdeal.MlpKernel.pay7_eq]
  funext j
  obtain ⟨p, q, rfl⟩ : ∃ (p : Fin 512) (q : Fin 4000), j = ix2 p q := ⟨j 0, j 1, eq_ix2 j⟩
  refine (Cert.KernelIdeal.MlpKernel.pay_apply (((cfg7.win 0).blk t).view.read (Elt Ideal) A0)
    (((cfg7.win 1).blk t).view.read (Elt Ideal) A1) (((cfg7.win 2).blk t).view.read (Elt Ideal) A2)
    (((cfg7.win 3).blk t).view.read (Elt Ideal) A3) (((cfg7.win 4).blk t).view.read (Elt Ideal) A4) p q).trans ?_
  have h5 : ((cfg7.win 5).blk t).view.emb (ix2 p q)
      = ix2 (⟨t.val * 512 + p.val, by have := p.isLt; omega⟩ : Fin 4096) q := by
    funext a; apply Fin.ext
    match a with
    | ⟨0, _⟩ => show win7_5.index t (0 : Fin 2) * 512 + 1 * p.val = t.val * 512 + p.val; omega
    | ⟨1, _⟩ => show win7_5.index t (1 : Fin 2) * 4000 + 1 * q.val = q.val; omega
  show _ = G A0 A1 A2 A3 A4 (((cfg7.win 5).blk t).view.emb (ix2 p q))
  rw [h5, G_apply]
  refine mlpRow_congr (fun l => ?_) (fun l k => ?_) (fun k => ?_) (fun k j' => ?_) (fun j' => ?_) q
  · show A0 (((cfg7.win 0).blk t).view.emb (ix2 p l)) = A0 (ix2 (⟨t.val * 512 + p.val, by have := p.isLt; omega⟩ : Fin 4096) l)
    refine congrArg A0 ?_
    funext a; apply Fin.ext
    match a with
    | ⟨0, _⟩ => show win7_0.index t (0 : Fin 2) * 512 + 1 * p.val = t.val * 512 + p.val; omega
    | ⟨1, _⟩ => show win7_0.index t (1 : Fin 2) * 2000 + 1 * l.val = l.val; omega
  · show A1 (((cfg7.win 1).blk t).view.emb (ix2 l k)) = A1 (ix2 l k)
    refine congrArg A1 ?_
    funext a; apply Fin.ext
    match a with
    | ⟨0, _⟩ => show win7_1.index t (0 : Fin 2) * 2000 + 1 * l.val = l.val; omega
    | ⟨1, _⟩ => show win7_1.index t (1 : Fin 2) * 64 + 1 * k.val = k.val; omega
  · show A2 (((cfg7.win 2).blk t).view.emb (ix2 (0 : Fin 1) k)) = A2 (ix2 (0 : Fin 1) k)
    refine congrArg A2 ?_
    funext a; apply Fin.ext
    match a with
    | ⟨0, _⟩ => show win7_2.index t (0 : Fin 2) * 1 + 1 * 0 = 0; omega
    | ⟨1, _⟩ => show win7_2.index t (1 : Fin 2) * 64 + 1 * k.val = k.val; omega
  · show A3 (((cfg7.win 3).blk t).view.emb (ix2 k j')) = A3 (ix2 k j')
    refine congrArg A3 ?_
    funext a; apply Fin.ext
    match a with
    | ⟨0, _⟩ => show win7_3.index t (0 : Fin 2) * 64 + 1 * k.val = k.val; omega
    | ⟨1, _⟩ => show win7_3.index t (1 : Fin 2) * 4000 + 1 * j'.val = j'.val; omega
  · show A4 (((cfg7.win 4).blk t).view.emb (ix2 (0 : Fin 1) j')) = A4 (ix2 (0 : Fin 1) j')
    refine congrArg A4 ?_
    funext a; apply Fin.ext
    match a with
    | ⟨0, _⟩ => show win7_4.index t (0 : Fin 2) * 1 + 1 * 0 = 0; omega
    | ⟨1, _⟩ => show win7_4.index t (1 : Fin 2) * 4000 + 1 * j'.val = j'.val; omega

variable (V : (c : Dev nD) → (b : Ref sig .tc) → Buf (Elt Ideal) ((c : Thread nD τ).loc b))

/-- What point `t` writes back is block `t` of the layer function of the operand arrays as the region finds them. -/
theorem written_block (c : Dev nD) (t : Fin cfg7.N) :
    (dat7 V c).flushed 5 t = ((cfg7.win 5).blk t).view.read (Elt Ideal)
      (G (V c (Pipeline.arrRef spec7 0)) (V c (Pipeline.arrRef spec7 1)) (V c (Pipeline.arrRef spec7 2))
        (V c (Pipeline.arrRef spec7 3)) (V c (Pipeline.arrRef spec7 4))) := by
  show (cfg7.win 5).cut (grid7.coords t) ((dat7 V c).after 5 t) = _
  rw [after7_5]
  unfold out7_5
  rw [View.canon_unit_zero zero_offsets]
  simp only [View.ld_unit_zero (S := S512x2000) zero_offsets, View.ld_unit_zero (S := S2000x64) zero_offsets,
    View.ld_unit_zero (S := S1x64) zero_offsets, View.ld_unit_zero (S := S64x4000) zero_offsets,
    View.ld_unit_zero (S := S1x4000) zero_offsets]
  exact payload_block (V c (Pipeline.arrRef spec7 0)) (V c (Pipeline.arrRef spec7 1)) (V c (Pipeline.arrRef spec7 2))
    (V c (Pipeline.arrRef spec7 3)) (V c (Pipeline.arrRef spec7 4)) t

/-- An index of the output array is in point `t`'s block iff each coordinate is in the block's range on its axis. -/
theorem mem_block (t : Fin cfg7.N) (i : S4096x4000.Idx) :
    i ∈ ((cfg7.win 5).blk t).view.set ↔ ∀ a : Fin 2, win7_5.index t a * S512x4000.size a ≤ (i a).val
      ∧ (i a).val < win7_5.index t a * S512x4000.size a + S512x4000.size a := by
  show i ∈ ((View.whole main_v417).slice (win7_5.rect t)).set ↔ _
  rw [View.set_slice_whole, Rect.mem_set_unit]
  exact Iff.rfl

/-- Every entry of the output array is in some point's block: row `r` is written by point `r / 512`. -/
theorem cover (i : S4096x4000.Idx) :
    ∃ t : Fin cfg7.N, (cfg7.win 5).flush t = true ∧ i ∈ ((cfg7.win 5).blk t).view.set := by
  have hi0 : (i 0).val < 4096 := (i 0).isLt
  have hi1 : (i 1).val < 4000 := (i 1).isLt
  obtain ⟨t, htv⟩ : ∃ t : Fin cfg7.N, t.val = (i 0).val / 512 :=
    ⟨⟨(i 0).val / 512, by show (i 0).val / 512 < 8; omega⟩, rfl⟩
  obtain ⟨-, -, -, -, -, -, -, -, -, -, e50, e51⟩ := block_indices t
  refine ⟨t, flush7_5 t, ?_⟩
  rw [mem_block]
  intro a
  match a with
  | ⟨0, _⟩ =>
    show win7_5.index t (0 : Fin 2) * 512 ≤ (i 0).val ∧ (i 0).val < win7_5.index t (0 : Fin 2) * 512 + 512
    omega
  | ⟨1, _⟩ =>
    show win7_5.index t (1 : Fin 2) * 4000 ≤ (i 1).val ∧ (i 1).val < win7_5.index t (1 : Fin 2) * 4000 + 4000
    omega

/-- The region's output array after its eight write-backs: the layer function of the five operand arrays as the
    region finds them. -/
theorem regionOut (c : Dev nD) :
    (dat7 V c).arrAt 5 cfg7.N = Cert.KernelIdeal.MlpArray.G (V c (Pipeline.arrRef spec7 0))
      (V c (Pipeline.arrRef spec7 1)) (V c (Pipeline.arrRef spec7 2)) (V c (Pipeline.arrRef spec7 3))
      (V c (Pipeline.arrRef spec7 4)) :=
  (dat7 V c).arrAt_eq_of_cover 5
    (G (V c (Pipeline.arrRef spec7 0)) (V c (Pipeline.arrRef spec7 1)) (V c (Pipeline.arrRef spec7 2))
      (V c (Pipeline.arrRef spec7 3)) (V c (Pipeline.arrRef spec7 4)))
    (fun t _ => written_block V c t) cover

end Cert.KernelIdeal.Region7

end
-- ==== Proof.LayerK7.lean ====
/- The host operations the kernel program runs between kernel region 6 and kernel region 7, read as functions. Each buffer the
  next stage needs is written out as the composition of the operations that produce it from the buffers the stretch
  reads; a buffer the stretch does not write keeps its contents; and the fold of the stretch's operations at each of
  these buffers is that function of the contents the stretch starts from.
-/
import proofs.«140670_j11424613007642_1_alg».proof.Proof.Gen.KernelIdeal.Launch
import Idealize.ShloMosaic.Lib.StableHlo.Run

set_option maxRecDepth 16384

noncomputable section

namespace Cert.KernelIdeal.Layer7

open Cert.KernelIdeal Cert.KernelIdeal.Gen Idealize.ShloMosaic Idealize.ShloMosaic.StableHlo Idealize.ShloMosaic.TcCoe

variable {F : FTy → Type} [FloatOps F]

/-- Buffer main_v414 as a function of the buffers the stretch reads: its 64 operations, in program order. -/
def f_dense (x_main_v2 : (⟨S4096x64, .i32⟩ : BufTy).Contents (Elt F)) (x_main_v270 : (⟨S4096x64, .f32⟩ : BufTy).Contents (Elt F)) (x_main_v333 : (⟨S4096x128, .i32⟩ : BufTy).Contents (Elt F)) (x_main_v363 : (⟨S4096x4000, .f32⟩ : BufTy).Contents (Elt F)) :
    (⟨S4096x2000, .f32⟩ : BufTy).Contents (Elt F) :=
  have x_main_cst_84 : (⟨S_, .f32⟩ : BufTy).Contents (Elt F) := (constant S_ .f32 0x00000000#32)
  have x_main_v364 : (⟨S4096x1, .f32⟩ : BufTy).Contents (Elt F) := ((broadcastInDim S4096x1 ![] bcast_S_S4096x1 : (⟨S_, .f32⟩ : BufTy).Contents (Elt F) → (⟨S4096x1, .f32⟩ : BufTy).Contents (Elt F))) x_main_cst_84
  have x_main_v365 : (⟨S4096x4001, .f32⟩ : BufTy).Contents (Elt F) := (((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F))) x_main_v363 x_main_v364
  have x_main_call13_c : (⟨S_, .i32⟩ : BufTy).Contents (Elt F) := (constantI S_ 32 0#32)
  have x_main_call13_v0 : (⟨S4096x128, .i32⟩ : BufTy).Contents (Elt F) := ((broadcastInDim S4096x128 ![] bcast_S_S4096x128)) x_main_call13_c
  have x_main_call13_v1 : (⟨S4096x128, .i1⟩ : BufTy).Contents (Elt F) := ((cmpi .slt)) x_main_v333 x_main_call13_v0
  have x_main_call13_c_0 : (⟨S_, .i32⟩ : BufTy).Contents (Elt F) := (constantI S_ 32 4001#32)
  have x_main_call13_v2 : (⟨S4096x128, .i32⟩ : BufTy).Contents (Elt F) := ((broadcastInDim S4096x128 ![] bcast_S_S4096x128)) x_main_call13_c_0
  have x_main_call13_v3 : (⟨S4096x128, .i32⟩ : BufTy).Contents (Elt F) := (addi) x_main_v333 x_main_call13_v2
  have x_main_call13_v4 : (⟨S4096x128, .i32⟩ : BufTy).Contents (Elt F) := (select) x_main_call13_v1 x_main_call13_v3 x_main_v333
  have x_main_call13_v5 : (⟨S4096x128x1, .i32⟩ : BufTy).Contents (Elt F) := shapeCast S4096x128x1 x_main_call13_v4 shapeCasts_S4096x128_S4096x128x1
  have x_main_call13_c_1 : (⟨S1, .i32⟩ : BufTy).Contents (Elt F) := (constantI S1 32 4000#32)
  have x_main_call13_c_2 : (⟨S_, .i32⟩ : BufTy).Contents (Elt F) := (constantI S_ 32 0#32)
  have x_main_call13_v6 : (⟨S4096x128x1, .i32⟩ : BufTy).Contents (Elt F) := ((broadcastInDim S4096x128x1 ![] bcast_S_S4096x128x1)) x_main_call13_c_2
  have x_main_call13_v7 : (⟨S4096x128x1, .i1⟩ : BufTy).Contents (Elt F) := ((cmpi .sge)) x_main_call13_v5 x_main_call13_v6
  have x_main_call13_v8 : (⟨S1x1x1, .i32⟩ : BufTy).Contents (Elt F) := ((broadcastInDim S1x1x1 ![2] bcast_S1_S1x1x1_2)) x_main_call13_c_1
  have x_main_call13_v9 : (⟨S4096x128x1, .i32⟩ : BufTy).Contents (Elt F) := ((broadcastInDim S4096x128x1 ![0, 1, 2] bcast_S1x1x1_S4096x128x1_0_1_2)) x_main_call13_v8
  have x_main_call13_v10 : (⟨S4096x128x1, .i1⟩ : BufTy).Contents (Elt F) := ((cmpi .sle)) x_main_call13_v5 x_main_call13_v9
  have x_main_call13_v11 : (⟨S4096x128x1, .i1⟩ : BufTy).Contents (Elt F) := (andi) x_main_call13_v7 x_main_call13_v10
  have x_main_call13_c_3 : (⟨S_, .i1⟩ : BufTy).Contents (Elt F) := (constantI S_ 1 1#1)
  have x_main_call13_v12 : (⟨S4096x128, .i1⟩ : BufTy).Contents (Elt F) := ((fun x v => Host.reduce IntOp.andi x v reducesTo_S4096x128x1_S4096x128_d2 h_S_)) x_main_call13_v11 x_main_call13_c_3
  have x_main_call13_v13 : (⟨S4096x128, .f32⟩ : BufTy).Contents (Elt F) := ((fun x i => Host.gather gather_S4096x4001_S4096x128x1_S4096x128_n_1_0_0_1_2_11 x i)) x_main_v365 x_main_call13_v5
  have x_main_call13_cst : (⟨S_, .f32⟩ : BufTy).Contents (Elt F) := (constant S_ .f32 0x7FC00000#32)
  have x_main_call13_v14 : (⟨S4096x128, .f32⟩ : BufTy).Contents (Elt F) := ((broadcastInDim S4096x128 ![] bcast_S_S4096x128)) x_main_call13_cst
  have x_main_v366 : (⟨S4096x128, .f32⟩ : BufTy).Contents (Elt F) := (select) x_main_call13_v12 x_main_call13_v13 x_main_call13_v14
  have x_main_v367 : (⟨S4096x64, .f32⟩ : BufTy).Contents (Elt F) := (((extractStridedSlice S4096x64 ![0, 0] · slices_S4096x128_S4096x64_0_0) : (⟨S4096x128, .f32⟩ : BufTy).Contents (Elt F) → (⟨S4096x64, .f32⟩ : BufTy).Contents (Elt F))) x_main_v366
  have x_main_v368 : (⟨S4096x64, .f32⟩ : BufTy).Contents (Elt F) := (((extractStridedSlice S4096x64 ![0, 64] · slices_S4096x128_S4096x64_0_64) : (⟨S4096x128, .f32⟩ : BufTy).Contents (Elt F) → (⟨S4096x64, .f32⟩ : BufTy).Contents (Elt F))) x_main_v366
  have x_main_cst_85 : (⟨S_, .f32⟩ : BufTy).Contents (Elt F) := (constant S_ .f32 0x40000000#32)
  have x_main_v369 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_85
  have x_main_v370 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v367 x_main_v369
  have x_main_v371 : (⟨S4096x64, .f32⟩ : BufTy).Contents (Elt F) := ((Host.negf : (⟨S4096x64, .f32⟩ : BufTy).Contents (Elt F) → (⟨S4096x64, .f32⟩ : BufTy).Contents (Elt F))) x_main_v370
  have x_main_v372 : (⟨S4096x64, .f32⟩ : BufTy).Contents (Elt F) := ((Host.exp : (⟨S4096x64, .f32⟩ : BufTy).Contents (Elt F) → (⟨S4096x64, .f32⟩ : BufTy).Contents (Elt F))) x_main_v371
  have x_main_cst_86 : (⟨S_, .f32⟩ : BufTy).Contents (Elt F) := (constant S_ .f32 0x3F800000#32)
  have x_main_v373 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_86
  have x_main_v374 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v373 x_main_v372
  have x_main_cst_87 : (⟨S_, .f32⟩ : BufTy).Contents (Elt F) := (constant S_ .f32 0x3F800000#32)
  have x_main_v375 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_87
  have x_main_v376 : (⟨S4096x64, .f32⟩ : BufTy).Contents (Elt F) := ((Host.divf : (⟨S4096x64, .f32⟩ : BufTy).Contents (Elt F) → (⟨S4096x64, .f32⟩ : BufTy).Contents (Elt F) → (⟨S4096x64, .f32⟩ : BufTy).Contents (Elt F))) x_main_v375 x_main_v374
  have x_main_v377 : (⟨S4096x64, .f32⟩ : BufTy).Contents (Elt F) := ((mulf : (⟨S4096x64, .f32⟩ : BufTy).Contents (Elt F) → (⟨S4096x64, .f32⟩ : BufTy).Contents (Elt F) → (⟨S4096x64, .f32⟩ : BufTy).Contents (Elt F))) x_main_v376 x_main_v270
  have x_main_v378 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v377 x_main_v368
  have x_main_v396 : (⟨S4096, .i32⟩ : BufTy).Contents (Elt F) := (iotaInDim S4096 32 0)
  have x_main_v397 : (⟨S4096x1, .i32⟩ : BufTy).Contents (Elt F) := ((broadcastInDim S4096x1 ![0] bcast_S4096_S4096x1_0 : (⟨S4096, .i32⟩ : BufTy).Contents (Elt F) → (⟨S4096x1, .i32⟩ : BufTy).Contents (Elt F))) x_main_v396
  have x_main_cst_92 : (⟨S_, .f32⟩ : BufTy).Contents (Elt F) := (constant S_ .f32 0x00000000#32)
  have x_main_v398 : (⟨S4096x2001, .f32⟩ : BufTy).Contents (Elt F) := ((broadcastInDim S4096x2001 ![] bcast_S_S4096x2001 : (⟨S_, .f32⟩ : BufTy).Contents (Elt F) → (⟨S4096x2001, .f32⟩ : BufTy).Contents (Elt F))) x_main_cst_92
  have x_main_c_93 : (⟨S_, .i32⟩ : BufTy).Contents (Elt F) := (constantI S_ 32 0#32)
  have x_main_v399 : (⟨S4096x1, .i32⟩ : BufTy).Contents (Elt F) := ((broadcastInDim S4096x1 ![] bcast_S_S4096x1 : (⟨S_, .i32⟩ : BufTy).Contents (Elt F) → (⟨S4096x1, .i32⟩ : BufTy).Contents (Elt F))) x_main_c_93
  have x_main_v400 : (⟨S4096x1, .i1⟩ : BufTy).Contents (Elt F) := ((cmpi .slt : (⟨S4096x1, .i32⟩ : BufTy).Contents (Elt F) → (⟨S4096x1, .i32⟩ : BufTy).Contents (Elt F) → (⟨S4096x1, .i1⟩ : BufTy).Contents (Elt F))) x_main_v397 x_main_v399
  have x_main_c_94 : (⟨S_, .i32⟩ : BufTy).Contents (Elt F) := (constantI S_ 32 4096#32)
  have x_main_v401 : (⟨S4096x1, .i32⟩ : BufTy).Contents (Elt F) := ((broadcastInDim S4096x1 ![] bcast_S_S4096x1 : (⟨S_, .i32⟩ : BufTy).Contents (Elt F) → (⟨S4096x1, .i32⟩ : BufTy).Contents (Elt F))) x_main_c_94
  have x_main_v402 : (⟨S4096x1, .i32⟩ : BufTy).Contents (Elt F) := ((addi : (⟨S4096x1, .i32⟩ : BufTy).Contents (Elt F) → (⟨S4096x1, .i32⟩ : BufTy).Contents (Elt F) → (⟨S4096x1, .i32⟩ : BufTy).Contents (Elt F))) x_main_v397 x_main_v401
  have x_main_v403 : (⟨S4096x1, .i32⟩ : BufTy).Contents (Elt F) := ((select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F))) x_main_v400 x_main_v402 x_main_v397
  have x_main_c_95 : (⟨S_, .i32⟩ : BufTy).Contents (Elt F) := (constantI S_ 32 0#32)
  have x_main_v404 : (⟨S4096x64, .i32⟩ : BufTy).Contents (Elt F) := ((broadcastInDim S4096x64 ![] bcast_S_S4096x64 : (⟨S_, .i32⟩ : BufTy).Contents (Elt F) → (⟨S4096x64, .i32⟩ : BufTy).Contents (Elt F))) x_main_c_95
  have x_main_v405 : (⟨S4096x64, .i1⟩ : BufTy).Contents (Elt F) := ((cmpi .slt : (⟨S4096x64, .i32⟩ : BufTy).Contents (Elt F) → (⟨S4096x64, .i32⟩ : BufTy).Contents (Elt F) → (⟨S4096x64, .i1⟩ : BufTy).Contents (Elt F))) x_main_v2 x_main_v404
  have x_main_c_96 : (⟨S_, .i32⟩ : BufTy).Contents (Elt F) := (constantI S_ 32 2001#32)
  have x_main_v406 : (⟨S4096x64, .i32⟩ : BufTy).Contents (Elt F) := ((broadcastInDim S4096x64 ![] bcast_S_S4096x64 : (⟨S_, .i32⟩ : BufTy).Contents (Elt F) → (⟨S4096x64, .i32⟩ : BufTy).Contents (Elt F))) x_main_c_96
  have x_main_v407 : (⟨S4096x64, .i32⟩ : BufTy).Contents (Elt F) := ((addi : (⟨S4096x64, .i32⟩ : BufTy).Contents (Elt F) → (⟨S4096x64, .i32⟩ : BufTy).Contents (Elt F) → (⟨S4096x64, .i32⟩ : BufTy).Contents (Elt F))) x_main_v2 x_main_v406
  have x_main_v408 : (⟨S4096x64, .i32⟩ : BufTy).Contents (Elt F) := ((select : (⟨S4096x64, .i1⟩ : BufTy).Contents (Elt F) → (⟨S4096x64, .i32⟩ : BufTy).Contents (Elt F) → (⟨S4096x64, .i32⟩ : BufTy).Contents (Elt F) → (⟨S4096x64, .i32⟩ : BufTy).Contents (Elt F))) x_main_v405 x_main_v407 x_main_v2
  have x_main_v409 : (⟨S4096x64, .i32⟩ : BufTy).Contents (Elt F) := ((broadcastInDim S4096x64 ![0, 1] bcast_S4096x1_S4096x64_0_1 : (⟨S4096x1, .i32⟩ : BufTy).Contents (Elt F) → (⟨S4096x64, .i32⟩ : BufTy).Contents (Elt F))) x_main_v403
  have x_main_v410 : (⟨S4096x64x1, .i32⟩ : BufTy).Contents (Elt F) := ((broadcastInDim S4096x64x1 ![0, 1] bcast_S4096x64_S4096x64x1_0_1 : (⟨S4096x64, .i32⟩ : BufTy).Contents (Elt F) → (⟨S4096x64x1, .i32⟩ : BufTy).Contents (Elt F))) x_main_v409
  have x_main_v411 : (⟨S4096x64x1, .i32⟩ : BufTy).Contents (Elt F) := ((broadcastInDim S4096x64x1 ![0, 1] bcast_S4096x64_S4096x64x1_0_1 : (⟨S4096x64, .i32⟩ : BufTy).Contents (Elt F) → (⟨S4096x64x1, .i32⟩ : BufTy).Contents (Elt F))) x_main_v408
  have x_main_v412 : (⟨S4096x64x2, .i32⟩ : BufTy).Contents (Elt F) := (((fun a b => concatenate S4096x64x2 2 [⟨S4096x64x1, a⟩, ⟨S4096x64x1, b⟩] concatenates_S4096x64x1_S4096x64x1_S4096x64x2_d2) : (⟨S4096x64x1, .i32⟩ : BufTy).Contents (Elt F) → (⟨S4096x64x1, .i32⟩ : BufTy).Contents (Elt F) → (⟨S4096x64x2, .i32⟩ : BufTy).Contents (Elt F))) x_main_v410 x_main_v411
  have x_main_v413 : (⟨S4096x2001, .f32⟩ : BufTy).Contents (Elt F) := (((fun x i u => Host.scatterAdd scatter_S4096x2001_S4096x64x2_S4096x64_n_01_01_2 x i u) : (⟨S4096x2001, .f32⟩ : BufTy).Contents (Elt F) → (⟨S4096x64x2, .i32⟩ : BufTy).Contents (Elt F) → (⟨S4096x64, .f32⟩ : BufTy).Contents (Elt F) → (⟨S4096x2001, .f32⟩ : BufTy).Contents (Elt F))) x_main_v398 x_main_v412 x_main_v378
  have x_main_v414 : (⟨S4096x2000, .f32⟩ : BufTy).Contents (Elt F) := (((extractStridedSlice S4096x2000 ![0, 0] · slices_S4096x2001_S4096x2000_0_0) : (⟨S4096x2001, .f32⟩ : BufTy).Contents (Elt F) → (⟨S4096x2000, .f32⟩ : BufTy).Contents (Elt F))) x_main_v413
  x_main_v414

/-- Buffer main_v389 as a function of the buffers the stretch reads: its 2 operations, in program order. -/
def f_w1 (x_main_arg2 : (⟨S10x2000x64, .f32⟩ : BufTy).Contents (Elt F)) :
    (⟨S2000x64, .f32⟩ : BufTy).Contents (Elt F) :=
  have x_main_v388 : (⟨S1x2000x64, .f32⟩ : BufTy).Contents (Elt F) := (((extractStridedSlice S1x2000x64 ![7, 0, 0] · slices_S10x2000x64_S1x2000x64_7_0_0) : (⟨S10x2000x64, .f32⟩ : BufTy).Contents (Elt F) → (⟨S1x2000x64, .f32⟩ : BufTy).Contents (Elt F))) x_main_arg2
  have x_main_v389 : (⟨S2000x64, .f32⟩ : BufTy).Contents (Elt F) := shapeCast S2000x64 x_main_v388 shapeCasts_S1x2000x64_S2000x64
  x_main_v389

/-- Buffer main_v391 as a function of the buffers the stretch reads: its 2 operations, in program order. -/
def f_b1 (x_main_arg3 : (⟨S10x64, .f32⟩ : BufTy).Contents (Elt F)) :
    (⟨S64, .f32⟩ : BufTy).Contents (Elt F) :=
  have x_main_v390 : (⟨S1x64, .f32⟩ : BufTy).Contents (Elt F) := (((extractStridedSlice S1x64 ![7, 0] · slices_S10x64_S1x64_7_0) : (⟨S10x64, .f32⟩ : BufTy).Contents (Elt F) → (⟨S1x64, .f32⟩ : BufTy).Contents (Elt F))) x_main_arg3
  have x_main_v391 : (⟨S64, .f32⟩ : BufTy).Contents (Elt F) := shapeCast S64 x_main_v390 shapeCasts_S1x64_S64
  x_main_v391

/-- Buffer main_v415 as a function of the buffers the stretch reads: its 3 operations, in program order. -/
def f_b1r (x_main_arg3 : (⟨S10x64, .f32⟩ : BufTy).Contents (Elt F)) :
    (⟨S1x64, .f32⟩ : BufTy).Contents (Elt F) :=
  have x_main_v390 : (⟨S1x64, .f32⟩ : BufTy).Contents (Elt F) := (((extractStridedSlice S1x64 ![7, 0] · slices_S10x64_S1x64_7_0) : (⟨S10x64, .f32⟩ : BufTy).Contents (Elt F) → (⟨S1x64, .f32⟩ : BufTy).Contents (Elt F))) x_main_arg3
  have x_main_v391 : (⟨S64, .f32⟩ : BufTy).Contents (Elt F) := shapeCast S64 x_main_v390 shapeCasts_S1x64_S64
  have x_main_v415 : (⟨S1x64, .f32⟩ : BufTy).Contents (Elt F) := shapeCast S1x64 x_main_v391 shapeCasts_S64_S1x64
  x_main_v415

/-- Buffer main_v393 as a function of the buffers the stretch reads: its 2 operations, in program order. -/
def f_w2 (x_main_arg4 : (⟨S10x64x4000, .f32⟩ : BufTy).Contents (Elt F)) :
    (⟨S64x4000, .f32⟩ : BufTy).Contents (Elt F) :=
  have x_main_v392 : (⟨S1x64x4000, .f32⟩ : BufTy).Contents (Elt F) := (((extractStridedSlice S1x64x4000 ![7, 0, 0] · slices_S10x64x4000_S1x64x4000_7_0_0) : (⟨S10x64x4000, .f32⟩ : BufTy).Contents (Elt F) → (⟨S1x64x4000, .f32⟩ : BufTy).Contents (Elt F))) x_main_arg4
  have x_main_v393 : (⟨S64x4000, .f32⟩ : BufTy).Contents (Elt F) := shapeCast S64x4000 x_main_v392 shapeCasts_S1x64x4000_S64x4000
  x_main_v393

/-- Buffer main_v395 as a function of the buffers the stretch reads: its 2 operations, in program order. -/
def f_b2 (x_main_arg5 : (⟨S10x4000, .f32⟩ : BufTy).Contents (Elt F)) :
    (⟨S4000, .f32⟩ : BufTy).Contents (Elt F) :=
  have x_main_v394 : (⟨S1x4000, .f32⟩ : BufTy).Contents (Elt F) := (((extractStridedSlice S1x4000 ![7, 0] · slices_S10x4000_S1x4000_7_0) : (⟨S10x4000, .f32⟩ : BufTy).Contents (Elt F) → (⟨S1x4000, .f32⟩ : BufTy).Contents (Elt F))) x_main_arg5
  have x_main_v395 : (⟨S4000, .f32⟩ : BufTy).Contents (Elt F) := shapeCast S4000 x_main_v394 shapeCasts_S1x4000_S4000
  x_main_v395

/-- Buffer main_v416 as a function of the buffers the stretch reads: its 3 operations, in program order. -/
def f_b2r (x_main_arg5 : (⟨S10x4000, .f32⟩ : BufTy).Contents (Elt F)) :
    (⟨S1x4000, .f32⟩ : BufTy).Contents (Elt F) :=
  have x_main_v394 : (⟨S1x4000, .f32⟩ : BufTy).Contents (Elt F) := (((extractStridedSlice S1x4000 ![7, 0] · slices_S10x4000_S1x4000_7_0) : (⟨S10x4000, .f32⟩ : BufTy).Contents (Elt F) → (⟨S1x4000, .f32⟩ : BufTy).Contents (Elt F))) x_main_arg5
  have x_main_v395 : (⟨S4000, .f32⟩ : BufTy).Contents (Elt F) := shapeCast S4000 x_main_v394 shapeCasts_S1x4000_S4000
  have x_main_v416 : (⟨S1x4000, .f32⟩ : BufTy).Contents (Elt F) := shapeCast S1x4000 x_main_v395 shapeCasts_S4000_S1x4000
  x_main_v416

/-- Buffer main_v387 as a function of the buffers the stretch reads: its 11 operations, in program order. -/
def f_oidx (x_main_v3 : (⟨S4096x61, .i32⟩ : BufTy).Contents (Elt F)) :
    (⟨S4096x122, .i32⟩ : BufTy).Contents (Elt F) :=
  have x_main_c_89 : (⟨S_, .i32⟩ : BufTy).Contents (Elt F) := (constantI S_ 32 2000#32)
  have x_main_v382 : (⟨S4096x61, .i32⟩ : BufTy).Contents (Elt F) := ((broadcastInDim S4096x61 ![] bcast_S_S4096x61 : (⟨S_, .i32⟩ : BufTy).Contents (Elt F) → (⟨S4096x61, .i32⟩ : BufTy).Contents (Elt F))) x_main_c_89
  have x_main_v383 : (⟨S4096x61, .i1⟩ : BufTy).Contents (Elt F) := ((cmpi .eq : (⟨S4096x61, .i32⟩ : BufTy).Contents (Elt F) → (⟨S4096x61, .i32⟩ : BufTy).Contents (Elt F) → (⟨S4096x61, .i1⟩ : BufTy).Contents (Elt F))) x_main_v3 x_main_v382
  have x_main_c_90 : (⟨S_, .i32⟩ : BufTy).Contents (Elt F) := (constantI S_ 32 2000#32)
  have x_main_v384 : (⟨S4096x61, .i32⟩ : BufTy).Contents (Elt F) := ((broadcastInDim S4096x61 ![] bcast_S_S4096x61 : (⟨S_, .i32⟩ : BufTy).Contents (Elt F) → (⟨S4096x61, .i32⟩ : BufTy).Contents (Elt F))) x_main_c_90
  have x_main_v385 : (⟨S4096x61, .i32⟩ : BufTy).Contents (Elt F) := ((addi : (⟨S4096x61, .i32⟩ : BufTy).Contents (Elt F) → (⟨S4096x61, .i32⟩ : BufTy).Contents (Elt F) → (⟨S4096x61, .i32⟩ : BufTy).Contents (Elt F))) x_main_v3 x_main_v384
  have x_main_c_91 : (⟨S_, .i32⟩ : BufTy).Contents (Elt F) := (constantI S_ 32 4000#32)
  have x_main_call14_v0 : (⟨S_, .i32⟩ : BufTy).Contents (Elt F) := (id) x_main_c_91
  have x_main_call14_v1 : (⟨S4096x61, .i32⟩ : BufTy).Contents (Elt F) := ((broadcastInDim S4096x61 ![] bcast_S_S4096x61)) x_main_call14_v0
  have x_main_v386 : (⟨S4096x61, .i32⟩ : BufTy).Contents (Elt F) := (select) x_main_v383 x_main_call14_v1 x_main_v385
  have x_main_v387 : (⟨S4096x122, .i32⟩ : BufTy).Contents (Elt F) := (((fun a b => concatenate S4096x122 1 [⟨S4096x61, a⟩, ⟨S4096x61, b⟩] concatenates_S4096x61_S4096x61_S4096x122_d1) : (⟨S4096x61, .i32⟩ : BufTy).Contents (Elt F) → (⟨S4096x61, .i32⟩ : BufTy).Contents (Elt F) → (⟨S4096x122, .i32⟩ : BufTy).Contents (Elt F))) x_main_v3 x_main_v386
  x_main_v387

/-- Buffer main_v378 as a function of the buffers the stretch reads: its 40 operations, in program order. -/
def f_xnew (x_main_v270 : (⟨S4096x64, .f32⟩ : BufTy).Contents (Elt F)) (x_main_v333 : (⟨S4096x128, .i32⟩ : BufTy).Contents (Elt F)) (x_main_v363 : (⟨S4096x4000, .f32⟩ : BufTy).Contents (Elt F)) :
    (⟨S4096x64, .f32⟩ : BufTy).Contents (Elt F) :=
  have x_main_cst_84 : (⟨S_, .f32⟩ : BufTy).Contents (Elt F) := (constant S_ .f32 0x00000000#32)
  have x_main_v364 : (⟨S4096x1, .f32⟩ : BufTy).Contents (Elt F) := ((broadcastInDim S4096x1 ![] bcast_S_S4096x1 : (⟨S_, .f32⟩ : BufTy).Contents (Elt F) → (⟨S4096x1, .f32⟩ : BufTy).Contents (Elt F))) x_main_cst_84
  have x_main_v365 : (⟨S4096x4001, .f32⟩ : BufTy).Contents (Elt F) := (((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F))) x_main_v363 x_main_v364
  have x_main_call13_c : (⟨S_, .i32⟩ : BufTy).Contents (Elt F) := (constantI S_ 32 0#32)
  have x_main_call13_v0 : (⟨S4096x128, .i32⟩ : BufTy).Contents (Elt F) := ((broadcastInDim S4096x128 ![] bcast_S_S4096x128)) x_main_call13_c
  have x_main_call13_v1 : (⟨S4096x128, .i1⟩ : BufTy).Contents (Elt F) := ((cmpi .slt)) x_main_v333 x_main_call13_v0
  have x_main_call13_c_0 : (⟨S_, .i32⟩ : BufTy).Contents (Elt F) := (constantI S_ 32 4001#32)
  have x_main_call13_v2 : (⟨S4096x128, .i32⟩ : BufTy).Contents (Elt F) := ((broadcastInDim S4096x128 ![] bcast_S_S4096x128)) x_main_call13_c_0
  have x_main_call13_v3 : (⟨S4096x128, .i32⟩ : BufTy).Contents (Elt F) := (addi) x_main_v333 x_main_call13_v2
  have x_main_call13_v4 : (⟨S4096x128, .i32⟩ : BufTy).Contents (Elt F) := (select) x_main_call13_v1 x_main_call13_v3 x_main_v333
  have x_main_call13_v5 : (⟨S4096x128x1, .i32⟩ : BufTy).Contents (Elt F) := shapeCast S4096x128x1 x_main_call13_v4 shapeCasts_S4096x128_S4096x128x1
  have x_main_call13_c_1 : (⟨S1, .i32⟩ : BufTy).Contents (Elt F) := (constantI S1 32 4000#32)
  have x_main_call13_c_2 : (⟨S_, .i32⟩ : BufTy).Contents (Elt F) := (constantI S_ 32 0#32)
  have x_main_call13_v6 : (⟨S4096x128x1, .i32⟩ : BufTy).Contents (Elt F) := ((broadcastInDim S4096x128x1 ![] bcast_S_S4096x128x1)) x_main_call13_c_2
  have x_main_call13_v7 : (⟨S4096x128x1, .i1⟩ : BufTy).Contents (Elt F) := ((cmpi .sge)) x_main_call13_v5 x_main_call13_v6
  have x_main_call13_v8 : (⟨S1x1x1, .i32⟩ : BufTy).Contents (Elt F) := ((broadcastInDim S1x1x1 ![2] bcast_S1_S1x1x1_2)) x_main_call13_c_1
  have x_main_call13_v9 : (⟨S4096x128x1, .i32⟩ : BufTy).Contents (Elt F) := ((broadcastInDim S4096x128x1 ![0, 1, 2] bcast_S1x1x1_S4096x128x1_0_1_2)) x_main_call13_v8
  have x_main_call13_v10 : (⟨S4096x128x1, .i1⟩ : BufTy).Contents (Elt F) := ((cmpi .sle)) x_main_call13_v5 x_main_call13_v9
  have x_main_call13_v11 : (⟨S4096x128x1, .i1⟩ : BufTy).Contents (Elt F) := (andi) x_main_call13_v7 x_main_call13_v10
  have x_main_call13_c_3 : (⟨S_, .i1⟩ : BufTy).Contents (Elt F) := (constantI S_ 1 1#1)
  have x_main_call13_v12 : (⟨S4096x128, .i1⟩ : BufTy).Contents (Elt F) := ((fun x v => Host.reduce IntOp.andi x v reducesTo_S4096x128x1_S4096x128_d2 h_S_)) x_main_call13_v11 x_main_call13_c_3
  have x_main_call13_v13 : (⟨S4096x128, .f32⟩ : BufTy).Contents (Elt F) := ((fun x i => Host.gather gather_S4096x4001_S4096x128x1_S4096x128_n_1_0_0_1_2_11 x i)) x_main_v365 x_main_call13_v5
  have x_main_call13_cst : (⟨S_, .f32⟩ : BufTy).Contents (Elt F) := (constant S_ .f32 0x7FC00000#32)
  have x_main_call13_v14 : (⟨S4096x128, .f32⟩ : BufTy).Contents (Elt F) := ((broadcastInDim S4096x128 ![] bcast_S_S4096x128)) x_main_call13_cst
  have x_main_v366 : (⟨S4096x128, .f32⟩ : BufTy).Contents (Elt F) := (select) x_main_call13_v12 x_main_call13_v13 x_main_call13_v14
  have x_main_v367 : (⟨S4096x64, .f32⟩ : BufTy).Contents (Elt F) := (((extractStridedSlice S4096x64 ![0, 0] · slices_S4096x128_S4096x64_0_0) : (⟨S4096x128, .f32⟩ : BufTy).Contents (Elt F) → (⟨S4096x64, .f32⟩ : BufTy).Contents (Elt F))) x_main_v366
  have x_main_v368 : (⟨S4096x64, .f32⟩ : BufTy).Contents (Elt F) := (((extractStridedSlice S4096x64 ![0, 64] · slices_S4096x128_S4096x64_0_64) : (⟨S4096x128, .f32⟩ : BufTy).Contents (Elt F) → (⟨S4096x64, .f32⟩ : BufTy).Contents (Elt F))) x_main_v366
  have x_main_cst_85 : (⟨S_, .f32⟩ : BufTy).Contents (Elt F) := (constant S_ .f32 0x40000000#32)
  have x_main_v369 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_85
  have x_main_v370 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v367 x_main_v369
  have x_main_v371 : (⟨S4096x64, .f32⟩ : BufTy).Contents (Elt F) := ((Host.negf : (⟨S4096x64, .f32⟩ : BufTy).Contents (Elt F) → (⟨S4096x64, .f32⟩ : BufTy).Contents (Elt F))) x_main_v370
  have x_main_v372 : (⟨S4096x64, .f32⟩ : BufTy).Contents (Elt F) := ((Host.exp : (⟨S4096x64, .f32⟩ : BufTy).Contents (Elt F) → (⟨S4096x64, .f32⟩ : BufTy).Contents (Elt F))) x_main_v371
  have x_main_cst_86 : (⟨S_, .f32⟩ : BufTy).Contents (Elt F) := (constant S_ .f32 0x3F800000#32)
  have x_main_v373 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_86
  have x_main_v374 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v373 x_main_v372
  have x_main_cst_87 : (⟨S_, .f32⟩ : BufTy).Contents (Elt F) := (constant S_ .f32 0x3F800000#32)
  have x_main_v375 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_87
  have x_main_v376 : (⟨S4096x64, .f32⟩ : BufTy).Contents (Elt F) := ((Host.divf : (⟨S4096x64, .f32⟩ : BufTy).Contents (Elt F) → (⟨S4096x64, .f32⟩ : BufTy).Contents (Elt F) → (⟨S4096x64, .f32⟩ : BufTy).Contents (Elt F))) x_main_v375 x_main_v374
  have x_main_v377 : (⟨S4096x64, .f32⟩ : BufTy).Contents (Elt F) := ((mulf : (⟨S4096x64, .f32⟩ : BufTy).Contents (Elt F) → (⟨S4096x64, .f32⟩ : BufTy).Contents (Elt F) → (⟨S4096x64, .f32⟩ : BufTy).Contents (Elt F))) x_main_v376 x_main_v270
  have x_main_v378 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v377 x_main_v368
  x_main_v378

/-- Buffer main_v381 as a function of the buffers the stretch reads: its 41 operations, in program order. -/
def f_qnew (x_main_v327 : (⟨S4096, .f32⟩ : BufTy).Contents (Elt F)) (x_main_v333 : (⟨S4096x128, .i32⟩ : BufTy).Contents (Elt F)) (x_main_v363 : (⟨S4096x4000, .f32⟩ : BufTy).Contents (Elt F)) :
    (⟨S4096, .f32⟩ : BufTy).Contents (Elt F) :=
  have x_main_cst_84 : (⟨S_, .f32⟩ : BufTy).Contents (Elt F) := (constant S_ .f32 0x00000000#32)
  have x_main_v364 : (⟨S4096x1, .f32⟩ : BufTy).Contents (Elt F) := ((broadcastInDim S4096x1 ![] bcast_S_S4096x1 : (⟨S_, .f32⟩ : BufTy).Contents (Elt F) → (⟨S4096x1, .f32⟩ : BufTy).Contents (Elt F))) x_main_cst_84
  have x_main_v365 : (⟨S4096x4001, .f32⟩ : BufTy).Contents (Elt F) := (((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F))) x_main_v363 x_main_v364
  have x_main_call13_c : (⟨S_, .i32⟩ : BufTy).Contents (Elt F) := (constantI S_ 32 0#32)
  have x_main_call13_v0 : (⟨S4096x128, .i32⟩ : BufTy).Contents (Elt F) := ((broadcastInDim S4096x128 ![] bcast_S_S4096x128)) x_main_call13_c
  have x_main_call13_v1 : (⟨S4096x128, .i1⟩ : BufTy).Contents (Elt F) := ((cmpi .slt)) x_main_v333 x_main_call13_v0
  have x_main_call13_c_0 : (⟨S_, .i32⟩ : BufTy).Contents (Elt F) := (constantI S_ 32 4001#32)
  have x_main_call13_v2 : (⟨S4096x128, .i32⟩ : BufTy).Contents (Elt F) := ((broadcastInDim S4096x128 ![] bcast_S_S4096x128)) x_main_call13_c_0
  have x_main_call13_v3 : (⟨S4096x128, .i32⟩ : BufTy).Contents (Elt F) := (addi) x_main_v333 x_main_call13_v2
  have x_main_call13_v4 : (⟨S4096x128, .i32⟩ : BufTy).Contents (Elt F) := (select) x_main_call13_v1 x_main_call13_v3 x_main_v333
  have x_main_call13_v5 : (⟨S4096x128x1, .i32⟩ : BufTy).Contents (Elt F) := shapeCast S4096x128x1 x_main_call13_v4 shapeCasts_S4096x128_S4096x128x1
  have x_main_call13_c_1 : (⟨S1, .i32⟩ : BufTy).Contents (Elt F) := (constantI S1 32 4000#32)
  have x_main_call13_c_2 : (⟨S_, .i32⟩ : BufTy).Contents (Elt F) := (constantI S_ 32 0#32)
  have x_main_call13_v6 : (⟨S4096x128x1, .i32⟩ : BufTy).Contents (Elt F) := ((broadcastInDim S4096x128x1 ![] bcast_S_S4096x128x1)) x_main_call13_c_2
  have x_main_call13_v7 : (⟨S4096x128x1, .i1⟩ : BufTy).Contents (Elt F) := ((cmpi .sge)) x_main_call13_v5 x_main_call13_v6
  have x_main_call13_v8 : (⟨S1x1x1, .i32⟩ : BufTy).Contents (Elt F) := ((broadcastInDim S1x1x1 ![2] bcast_S1_S1x1x1_2)) x_main_call13_c_1
  have x_main_call13_v9 : (⟨S4096x128x1, .i32⟩ : BufTy).Contents (Elt F) := ((broadcastInDim S4096x128x1 ![0, 1, 2] bcast_S1x1x1_S4096x128x1_0_1_2)) x_main_call13_v8
  have x_main_call13_v10 : (⟨S4096x128x1, .i1⟩ : BufTy).Contents (Elt F) := ((cmpi .sle)) x_main_call13_v5 x_main_call13_v9
  have x_main_call13_v11 : (⟨S4096x128x1, .i1⟩ : BufTy).Contents (Elt F) := (andi) x_main_call13_v7 x_main_call13_v10
  have x_main_call13_c_3 : (⟨S_, .i1⟩ : BufTy).Contents (Elt F) := (constantI S_ 1 1#1)
  have x_main_call13_v12 : (⟨S4096x128, .i1⟩ : BufTy).Contents (Elt F) := ((fun x v => Host.reduce IntOp.andi x v reducesTo_S4096x128x1_S4096x128_d2 h_S_)) x_main_call13_v11 x_main_call13_c_3
  have x_main_call13_v13 : (⟨S4096x128, .f32⟩ : BufTy).Contents (Elt F) := ((fun x i => Host.gather gather_S4096x4001_S4096x128x1_S4096x128_n_1_0_0_1_2_11 x i)) x_main_v365 x_main_call13_v5
  have x_main_call13_cst : (⟨S_, .f32⟩ : BufTy).Contents (Elt F) := (constant S_ .f32 0x7FC00000#32)
  have x_main_call13_v14 : (⟨S4096x128, .f32⟩ : BufTy).Contents (Elt F) := ((broadcastInDim S4096x128 ![] bcast_S_S4096x128)) x_main_call13_cst
  have x_main_v366 : (⟨S4096x128, .f32⟩ : BufTy).Contents (Elt F) := (select) x_main_call13_v12 x_main_call13_v13 x_main_call13_v14
  have x_main_v367 : (⟨S4096x64, .f32⟩ : BufTy).Contents (Elt F) := (((extractStridedSlice S4096x64 ![0, 0] · slices_S4096x128_S4096x64_0_0) : (⟨S4096x128, .f32⟩ : BufTy).Contents (Elt F) → (⟨S4096x64, .f32⟩ : BufTy).Contents (Elt F))) x_main_v366
  have x_main_cst_85 : (⟨S_, .f32⟩ : BufTy).Contents (Elt F) := (constant S_ .f32 0x40000000#32)
  have x_main_v369 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_85
  have x_main_v370 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v367 x_main_v369
  have x_main_v371 : (⟨S4096x64, .f32⟩ : BufTy).Contents (Elt F) := ((Host.negf : (⟨S4096x64, .f32⟩ : BufTy).Contents (Elt F) → (⟨S4096x64, .f32⟩ : BufTy).Contents (Elt F))) x_main_v370
  have x_main_v372 : (⟨S4096x64, .f32⟩ : BufTy).Contents (Elt F) := ((Host.exp : (⟨S4096x64, .f32⟩ : BufTy).Contents (Elt F) → (⟨S4096x64, .f32⟩ : BufTy).Contents (Elt F))) x_main_v371
  have x_main_cst_86 : (⟨S_, .f32⟩ : BufTy).Contents (Elt F) := (constant S_ .f32 0x3F800000#32)
  have x_main_v373 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_86
  have x_main_v374 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v373 x_main_v372
  have x_main_cst_87 : (⟨S_, .f32⟩ : BufTy).Contents (Elt F) := (constant S_ .f32 0x3F800000#32)
  have x_main_v375 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_87
  have x_main_v376 : (⟨S4096x64, .f32⟩ : BufTy).Contents (Elt F) := ((Host.divf : (⟨S4096x64, .f32⟩ : BufTy).Contents (Elt F) → (⟨S4096x64, .f32⟩ : BufTy).Contents (Elt F) → (⟨S4096x64, .f32⟩ : BufTy).Contents (Elt F))) x_main_v375 x_main_v374
  have x_main_v379 : (⟨S4096x64, .f32⟩ : BufTy).Contents (Elt F) := ((Host.log : (⟨S4096x64, .f32⟩ : BufTy).Contents (Elt F) → (⟨S4096x64, .f32⟩ : BufTy).Contents (Elt F))) x_main_v376
  have x_main_cst_88 : (⟨S_, .f32⟩ : BufTy).Contents (Elt F) := (constant S_ .f32 0x00000000#32)
  have x_main_v380 : (⟨S4096, .f32⟩ : BufTy).Contents (Elt F) := (((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F))) x_main_v379 x_main_cst_88
  have x_main_v381 : (⟨S4096, .f32⟩ : BufTy).Contents (Elt F) := ((subf : (⟨S4096, .f32⟩ : BufTy).Contents (Elt F) → (⟨S4096, .f32⟩ : BufTy).Contents (Elt F) → (⟨S4096, .f32⟩ : BufTy).Contents (Elt F))) x_main_v327 x_main_v380
  x_main_v381

-- the gather, the scatter and the reductions are never opened: both sides apply them to equal arguments
attribute [local irreducible] Host.scatterAdd Host.reduce Host.gather Host.reduceAdd concatenate extractStridedSlice broadcastInDim iotaInDim in
set_option maxHeartbeats 8000000 in
set_option maxRecDepth 100000 in
/-- The stretch's fold at each of those buffers. -/
theorem reads (V : Valuation τ sig (Elt F)) :
    after hostOps7_4 (after hostOps7_3 (after hostOps7_2 (after hostOps7_1 (after hostOps7 V)))) (Proc.devRef .tc main_v414) = f_dense (V (Proc.devRef .tc main_v2)) (V (Proc.devRef .tc main_v270)) (V (Proc.devRef .tc main_v333)) (V (Proc.devRef .tc main_v363))
    ∧ after hostOps7_4 (after hostOps7_3 (after hostOps7_2 (after hostOps7_1 (after hostOps7 V)))) (Proc.devRef .tc main_v389) = f_w1 (V (Proc.devRef .tc main_arg2))
    ∧ after hostOps7_4 (after hostOps7_3 (after hostOps7_2 (after hostOps7_1 (after hostOps7 V)))) (Proc.devRef .tc main_v391) = f_b1 (V (Proc.devRef .tc main_arg3))
    ∧ after hostOps7_4 (after hostOps7_3 (after hostOps7_2 (after hostOps7_1 (after hostOps7 V)))) (Proc.devRef .tc main_v415) = f_b1r (V (Proc.devRef .tc main_arg3))
    ∧ after hostOps7_4 (after hostOps7_3 (after hostOps7_2 (after hostOps7_1 (after hostOps7 V)))) (Proc.devRef .tc main_v393) = f_w2 (V (Proc.devRef .tc main_arg4))
    ∧ after hostOps7_4 (after hostOps7_3 (after hostOps7_2 (after hostOps7_1 (after hostOps7 V)))) (Proc.devRef .tc main_v395) = f_b2 (V (Proc.devRef .tc main_arg5))
    ∧ after hostOps7_4 (after hostOps7_3 (after hostOps7_2 (after hostOps7_1 (after hostOps7 V)))) (Proc.devRef .tc main_v416) = f_b2r (V (Proc.devRef .tc main_arg5))
    ∧ after hostOps7_4 (after hostOps7_3 (after hostOps7_2 (after hostOps7_1 (after hostOps7 V)))) (Proc.devRef .tc main_v387) = f_oidx (V (Proc.devRef .tc main_v3))
    ∧ after hostOps7_4 (after hostOps7_3 (after hostOps7_2 (after hostOps7_1 (after hostOps7 V)))) (Proc.devRef .tc main_v378) = f_xnew (V (Proc.devRef .tc main_v270)) (V (Proc.devRef .tc main_v333)) (V (Proc.devRef .tc main_v363))
    ∧ after hostOps7_4 (after hostOps7_3 (after hostOps7_2 (after hostOps7_1 (after hostOps7 V)))) (Proc.devRef .tc main_v381) = f_qnew (V (Proc.devRef .tc main_v327)) (V (Proc.devRef .tc main_v333)) (V (Proc.devRef .tc main_v363))
    ∧ after hostOps7_4 (after hostOps7_3 (after hostOps7_2 (after hostOps7_1 (after hostOps7 V)))) (Proc.devRef .tc main_v324) = V (Proc.devRef .tc main_v324)
    ∧ after hostOps7_4 (after hostOps7_3 (after hostOps7_2 (after hostOps7_1 (after hostOps7 V)))) (Proc.devRef .tc main_v2) = V (Proc.devRef .tc main_v2)
    ∧ after hostOps7_4 (after hostOps7_3 (after hostOps7_2 (after hostOps7_1 (after hostOps7 V)))) (Proc.devRef .tc main_v3) = V (Proc.devRef .tc main_v3)
    ∧ after hostOps7_4 (after hostOps7_3 (after hostOps7_2 (after hostOps7_1 (after hostOps7 V)))) (Proc.devRef .tc main_arg2) = V (Proc.devRef .tc main_arg2)
    ∧ after hostOps7_4 (after hostOps7_3 (after hostOps7_2 (after hostOps7_1 (after hostOps7 V)))) (Proc.devRef .tc main_arg3) = V (Proc.devRef .tc main_arg3)
    ∧ after hostOps7_4 (after hostOps7_3 (after hostOps7_2 (after hostOps7_1 (after hostOps7 V)))) (Proc.devRef .tc main_arg4) = V (Proc.devRef .tc main_arg4)
    ∧ after hostOps7_4 (after hostOps7_3 (after hostOps7_2 (after hostOps7_1 (after hostOps7 V)))) (Proc.devRef .tc main_arg5) = V (Proc.devRef .tc main_arg5) := by
  simp only [hostOps7, hostOps7_1, hostOps7_2, hostOps7_3, hostOps7_4]
  after_results_simp
  refine ⟨?_, ?_, ?_, ?_, ?_, ?_, ?_, ?_, ?_, ?_, ?_, ?_, ?_, ?_, ?_, ?_, ?_⟩ <;> first | rfl | trivial

end Cert.KernelIdeal.Layer7

end
-- ==== Proof.LayerR7a.lean ====
/- The reference's operations of the same stage (kernel region 6 and kernel region 7 on the kernel side), read as the SAME functions
  as the kernel program's: the five buffers the layer's perceptron is computed from.
-/
import proofs.«140670_j11424613007642_1_alg».proof.Proof.RefRun
import proofs.«140670_j11424613007642_1_alg».proof.Proof.LayerK7
import proofs.«140670_j11424613007642_1_alg».proof.Proof.LibTRef
import Idealize.ShloMosaic.PureOps.Ideal

set_option maxRecDepth 16384

noncomputable section

namespace Cert.ReferenceIdeal.LayerR7

open Cert.ReferenceIdeal Cert.ReferenceIdeal.Gen Cert.ReferenceIdeal.RefRun Idealize.ShloMosaic Idealize.ShloMosaic.StableHlo Idealize.ShloMosaic.TcCoe

-- the gather, the scatter and the reductions are never opened: both sides apply them to equal arguments
attribute [local irreducible] Host.scatterAdd Host.reduce Host.gather Host.reduceAdd concatenate extractStridedSlice broadcastInDim iotaInDim in
set_option maxHeartbeats 16000000 in
set_option maxRecDepth 100000 in
/-- The five buffers the layer's perceptron is computed from. -/
theorem readsIn (V' : Valuation τ sig (Elt Ideal)) :
    after rseg7 V' (Proc.devRef .tc main_v456) = Cert.KernelIdeal.Layer7.f_dense (V' (Proc.devRef .tc main_v2)) (V' (Proc.devRef .tc main_v300)) (V' (Proc.devRef .tc main_v369)) (V' (Proc.devRef .tc main_v405))
    ∧ after rseg7 V' (Proc.devRef .tc main_v431) = Cert.KernelIdeal.Layer7.f_w1 (V' (Proc.devRef .tc main_arg2))
    ∧ after rseg7 V' (Proc.devRef .tc main_v433) = Cert.KernelIdeal.Layer7.f_b1 (V' (Proc.devRef .tc main_arg3))
    ∧ after rseg7 V' (Proc.devRef .tc main_v435) = Cert.KernelIdeal.Layer7.f_w2 (V' (Proc.devRef .tc main_arg4))
    ∧ after rseg7 V' (Proc.devRef .tc main_v437) = Cert.KernelIdeal.Layer7.f_b2 (V' (Proc.devRef .tc main_arg5)) := by
  simp only [after_append_line, rseg7, rseg7_a, rseg7_b, rseg7_c]
  after_results_simp
  -- contents stored through a typed reference and read back through it are unchanged
  try simp only [Cert.LibTRef.ofBuf_toBuf]
  refine ⟨?_, ?_, ?_, ?_, ?_⟩ <;> first | rfl | trivial

end Cert.ReferenceIdeal.LayerR7

end
-- ==== Proof.LayerR7b.lean ====
/- The reference's operations of the same stage (kernel region 6 and kernel region 7 on the kernel side), read as the SAME functions
  as the kernel program's: the other buffers the next stage needs; a buffer the segment does not write keeps its contents.
-/
import proofs.«140670_j11424613007642_1_alg».proof.Proof.RefRun
import proofs.«140670_j11424613007642_1_alg».proof.Proof.LayerK7
import proofs.«140670_j11424613007642_1_alg».proof.Proof.LibTRef
import Idealize.ShloMosaic.PureOps.Ideal

set_option maxRecDepth 16384

noncomputable section

namespace Cert.ReferenceIdeal.LayerR7

open Cert.ReferenceIdeal Cert.ReferenceIdeal.Gen Cert.ReferenceIdeal.RefRun Idealize.ShloMosaic Idealize.ShloMosaic.StableHlo Idealize.ShloMosaic.TcCoe

-- the gather, the scatter and the reductions are never opened: both sides apply them to equal arguments
attribute [local irreducible] Host.scatterAdd Host.reduce Host.gather Host.reduceAdd concatenate extractStridedSlice broadcastInDim iotaInDim in
set_option maxHeartbeats 16000000 in
set_option maxRecDepth 100000 in
/-- The other buffers the next stage needs. -/
theorem reads (V' : Valuation τ sig (Elt Ideal)) :
    after rseg7 V' (Proc.devRef .tc main_v429) = Cert.KernelIdeal.Layer7.f_oidx (V' (Proc.devRef .tc main_v3))
    ∧ after rseg7 V' (Proc.devRef .tc main_v420) = Cert.KernelIdeal.Layer7.f_xnew (V' (Proc.devRef .tc main_v300)) (V' (Proc.devRef .tc main_v369)) (V' (Proc.devRef .tc main_v405))
    ∧ after rseg7 V' (Proc.devRef .tc main_v423) = Cert.KernelIdeal.Layer7.f_qnew (V' (Proc.devRef .tc main_v363)) (V' (Proc.devRef .tc main_v369)) (V' (Proc.devRef .tc main_v405))
    ∧ after rseg7 V' (Proc.devRef .tc main_v360) = V' (Proc.devRef .tc main_v360)
    ∧ after rseg7 V' (Proc.devRef .tc main_v2) = V' (Proc.devRef .tc main_v2)
    ∧ after rseg7 V' (Proc.devRef .tc main_v3) = V' (Proc.devRef .tc main_v3)
    ∧ after rseg7 V' (Proc.devRef .tc main_arg2) = V' (Proc.devRef .tc main_arg2)
    ∧ after rseg7 V' (Proc.devRef .tc main_arg3) = V' (Proc.devRef .tc main_arg3)
    ∧ after rseg7 V' (Proc.devRef .tc main_arg4) = V' (Proc.devRef .tc main_arg4)
    ∧ after rseg7 V' (Proc.devRef .tc main_arg5) = V' (Proc.devRef .tc main_arg5) := by
  simp only [after_append_line, rseg7, rseg7_a, rseg7_b, rseg7_c]
  after_results_simp
  -- contents stored through a typed reference and read back through it are unchanged
  try simp only [Cert.LibTRef.ofBuf_toBuf]
  refine ⟨?_, ?_, ?_, ?_, ?_, ?_, ?_, ?_, ?_, ?_⟩ <;> first | rfl | trivial

end Cert.ReferenceIdeal.LayerR7

end
-- ==== Proof.LayerR7c.lean ====
/- The reference's operations of the same stage (kernel region 6 and kernel region 7 on the kernel side), read as the SAME functions
  as the kernel program's: the layer's perceptron output is the host perceptron of the five buffers it is computed from.
-/
import proofs.«140670_j11424613007642_1_alg».proof.Proof.RefRun
import proofs.«140670_j11424613007642_1_alg».proof.Proof.MlpHost
import Idealize.ShloMosaic.PureOps.Ideal

set_option maxRecDepth 16384

noncomputable section

namespace Cert.ReferenceIdeal.LayerR7

open Cert.ReferenceIdeal Cert.ReferenceIdeal.Gen Cert.ReferenceIdeal.RefRun Idealize.ShloMosaic Idealize.ShloMosaic.StableHlo Idealize.ShloMosaic.TcCoe

-- the gather, the scatter and the reductions are never opened: both sides apply them to equal arguments
attribute [local irreducible] Host.scatterAdd Host.reduce Host.gather Host.reduceAdd concatenate extractStridedSlice broadcastInDim iotaInDim in
set_option maxHeartbeats 16000000 in
set_option maxRecDepth 100000 in
/-- The layer's perceptron output is the host perceptron of those five buffers. -/
theorem readsOut (V' : Valuation τ sig (Elt Ideal)) :
    after rseg7 V' (Proc.devRef .tc main_v465) = Cert.ReferenceIdeal.MlpHost.hostMlp (after rseg7 V' (Proc.devRef .tc main_v456)) (after rseg7 V' (Proc.devRef .tc main_v431)) (after rseg7 V' (Proc.devRef .tc main_v433)) (after rseg7 V' (Proc.devRef .tc main_v435)) (after rseg7 V' (Proc.devRef .tc main_v437)) := by
  simp only [after_append_line, rseg7, rseg7_a, rseg7_b, rseg7_c]
  after_results_simp
  first | rfl | trivial

end Cert.ReferenceIdeal.LayerR7

end
-- ==== Proof.LayerR7.lean ====
/- The reference's side of this stage, collected: the three statements live in one module each.
-/
import proofs.«140670_j11424613007642_1_alg».proof.Proof.LayerR7a
import proofs.«140670_j11424613007642_1_alg».proof.Proof.LayerR7b
import proofs.«140670_j11424613007642_1_alg».proof.Proof.LayerR7c
-- ==== Proof.Step7.lean ====
/-
  Layer 7. If after layer 6's perceptron output the two programs hold the same eleven values, they do so again after
  layer 7's. On the kernel side the host operations up to region 7 read as functions of those values, the region leaves
  the layer function of its five operand arrays, and nothing else the next layer needs is touched; on the reference side
  the same operations read as the same functions, and its host perceptron is the layer function.
-/
import proofs.«140670_j11424613007642_1_alg».proof.Proof.KernelIdealFrameP
import proofs.«140670_j11424613007642_1_alg».proof.Proof.BridgeDefs
import proofs.«140670_j11424613007642_1_alg».proof.Proof.Congr
import proofs.«140670_j11424613007642_1_alg».proof.Proof.MlpBridge
import proofs.«140670_j11424613007642_1_alg».proof.Proof.Region7
import proofs.«140670_j11424613007642_1_alg».proof.Proof.LayerK7
import proofs.«140670_j11424613007642_1_alg».proof.Proof.LayerR7

set_option maxRecDepth 16384

noncomputable section

namespace Cert.Bridge

open Cert.KernelIdeal Cert.KernelIdeal.Gen Cert.KernelIdeal.GenP Cert.KernelIdeal.MlpArray
open Idealize.ShloMosaic Idealize.ShloMosaic.StableHlo Idealize.ShloMosaic.TcCoe Idealize.SL.Sem

set_option maxHeartbeats 4000000 in
theorem step7 (m : (ℓ : Loc nD τ sig) → Buf (Elt Ideal) ℓ) (ρ : Dev nD → PrngReg) (c : Dev nD) (V' : RV)
    (h : Inv6 (W40 m ρ c) V') :
    Inv7 (W46 m ρ c) (after Cert.ReferenceIdeal.RefRun.rseg7 V') := by
  obtain ⟨out, oidx, a, b, q, ia, ib, w1s, b1s, w2s, b2s, ⟨kout, rout⟩, ⟨koidx, roidx⟩, ⟨ka, ra⟩, ⟨kb, rb⟩, ⟨kq, rq⟩, ⟨kia, ria⟩, ⟨kib, rib⟩,
    ⟨kw1s, rw1s⟩, ⟨kb1s, rb1s⟩, ⟨kw2s, rw2s⟩, ⟨kb2s, rb2s⟩⟩ := h
  obtain ⟨Kdense, Kw1, Kb1, Kb1r, Kw2, Kb2, Kb2r, Koidx, Kxnew, Kqnew, Kkeepb, Kia, Kib, Kw1s, Kb1s, Kw2s, Kb2s⟩ :=
    Cert.KernelIdeal.Layer7.reads (F := Ideal) (W40 m ρ c)
  obtain ⟨Rdense, Rw1, Rb1, Rw2, Rb2⟩ := Cert.ReferenceIdeal.LayerR7.readsIn V'
  obtain ⟨Roidx, Rxnew, Rqnew, Rkeepb, Ria, Rib, Rw1s, Rb1s, Rw2s, Rb2s⟩ := Cert.ReferenceIdeal.LayerR7.reads V'
  have Rout := Cert.ReferenceIdeal.LayerR7.readsOut V'
  -- the kernel program's reads, at the eleven values
  have Kdense' := Kdense.trans (show _ = Cert.KernelIdeal.Layer7.f_dense ia a oidx out by simp only [kia, ka, koidx, kout])
  have Kw1' := Kw1.trans (show _ = Cert.KernelIdeal.Layer7.f_w1 w1s by simp only [kw1s])
  have Kb1r' := Kb1r.trans (show _ = Cert.KernelIdeal.Layer7.f_b1r b1s by simp only [kb1s])
  have Kw2' := Kw2.trans (show _ = Cert.KernelIdeal.Layer7.f_w2 w2s by simp only [kw2s])
  have Kb2r' := Kb2r.trans (show _ = Cert.KernelIdeal.Layer7.f_b2r b2s by simp only [kb2s])
  have Koidx' := Koidx.trans (show _ = Cert.KernelIdeal.Layer7.f_oidx ib by simp only [kib])
  have Kxnew' := Kxnew.trans (show _ = Cert.KernelIdeal.Layer7.f_xnew a oidx out by simp only [ka, koidx, kout])
  have Kqnew' := Kqnew.trans (show _ = Cert.KernelIdeal.Layer7.f_qnew q oidx out by simp only [kq, koidx, kout])
  -- the reference's reads, at the same values
  have Rdense' := Rdense.trans (show _ = Cert.KernelIdeal.Layer7.f_dense ia a oidx out by simp only [ria, ra, roidx, rout])
  have Rw1' := Rw1.trans (show _ = Cert.KernelIdeal.Layer7.f_w1 w1s by simp only [rw1s])
  have Rb1' := Rb1.trans (show _ = Cert.KernelIdeal.Layer7.f_b1 b1s by simp only [rb1s])
  have Rw2' := Rw2.trans (show _ = Cert.KernelIdeal.Layer7.f_w2 w2s by simp only [rw2s])
  have Rb2' := Rb2.trans (show _ = Cert.KernelIdeal.Layer7.f_b2 b2s by simp only [rb2s])
  have Roidx' := Roidx.trans (show _ = Cert.KernelIdeal.Layer7.f_oidx ib by simp only [rib])
  have Rxnew' := Rxnew.trans (show _ = Cert.KernelIdeal.Layer7.f_xnew a oidx out by simp only [ra, roidx, rout])
  have Rqnew' := Rqnew.trans (show _ = Cert.KernelIdeal.Layer7.f_qnew q oidx out by simp only [rq, roidx, rout])
  refine ⟨G (Cert.KernelIdeal.Layer7.f_dense ia a oidx out) (Cert.KernelIdeal.Layer7.f_w1 w1s) (Cert.KernelIdeal.Layer7.f_b1r b1s)
      (Cert.KernelIdeal.Layer7.f_w2 w2s) (Cert.KernelIdeal.Layer7.f_b2r b2s),
    Cert.KernelIdeal.Layer7.f_oidx ib, b, Cert.KernelIdeal.Layer7.f_xnew a oidx out, Cert.KernelIdeal.Layer7.f_qnew q oidx out,
    ia, ib, w1s, b1s, w2s, b2s, ⟨?_, ?_⟩,
    ⟨(W46_of_ne m ρ c Cert.KernelIdeal.main_v387 (by decide)).trans Koidx', Roidx'⟩,
    ⟨(W46_of_ne m ρ c Cert.KernelIdeal.main_v324 (by decide)).trans (Kkeepb.trans kb), Rkeepb.trans rb⟩,
    ⟨(W46_of_ne m ρ c Cert.KernelIdeal.main_v378 (by decide)).trans Kxnew', Rxnew'⟩,
    ⟨(W46_of_ne m ρ c Cert.KernelIdeal.main_v381 (by decide)).trans Kqnew', Rqnew'⟩,
    ⟨(W46_of_ne m ρ c Cert.KernelIdeal.main_v2 (by decide)).trans (Kia.trans kia), Ria.trans ria⟩, ⟨(W46_of_ne m ρ c Cert.KernelIdeal.main_v3 (by decide)).trans (Kib.trans kib), Rib.trans rib⟩,
    ⟨(W46_of_ne m ρ c Cert.KernelIdeal.main_arg2 (by decide)).trans (Kw1s.trans kw1s), Rw1s.trans rw1s⟩, ⟨(W46_of_ne m ρ c Cert.KernelIdeal.main_arg3 (by decide)).trans (Kb1s.trans kb1s), Rb1s.trans rb1s⟩, ⟨(W46_of_ne m ρ c Cert.KernelIdeal.main_arg4 (by decide)).trans (Kw2s.trans kw2s), Rw2s.trans rw2s⟩, ⟨(W46_of_ne m ρ c Cert.KernelIdeal.main_arg5 (by decide)).trans (Kb2s.trans kb2s), Rb2s.trans rb2s⟩⟩
  · -- the region's output array is the layer function of its operand arrays as it finds them
    exact (W46_arr m ρ c 5).trans ((Cert.KernelIdeal.Region7.regionOut (V45 m ρ) c).trans (G_congr Kdense' Kw1' Kb1r' Kw2' Kb2r'))
  · -- the reference's host perceptron of the same five arrays is the same function
    exact Rout.trans ((hostMlp_congr Rdense' Rw1' Rb1' Rw2' Rb2').trans (Cert.MlpBridge.host_eq_G _ _ _ _ _))

end Cert.Bridge

end
-- ==== Proof.Region8.lean ====
/-
  python3 scratch/gen_regions.py 8

  Kernel region 8 (one layer's perceptron): whatever the TensorCore's buffers hold when the region is entered,
  the region leaves its output array holding the layer function of its five operand arrays. The grid has eight
  points; point t is given rows 512·t … 512·t+511 of the input and all of both weight matrices and biases, and
  writes rows 512·t … 512·t+511 of the output. Entry (r, j) of the output depends on row r of the input alone, so
  each written block is the restriction of ONE whole-array function, and the eight blocks tile the output.
-/
import proofs.«140670_j11424613007642_1_alg».proof.Proof.KernelIdealFrameP
import proofs.«140670_j11424613007642_1_alg».proof.Proof.MlpKernel
import proofs.«140670_j11424613007642_1_alg».proof.Proof.MlpArray
import Idealize.ShloMosaic.Lib.Pipeline.Value
import Idealize.ShloMosaic.Lib.ValueIdx

set_option maxRecDepth 16384

noncomputable section

namespace Cert.KernelIdeal.Region8

open Cert.KernelIdeal Cert.KernelIdeal.Gen Cert.KernelIdeal.GenP Cert.KernelIdeal.MlpArray
open Idealize.ShloMosaic Idealize.ShloMosaic.TcCoe Idealize.ShloMosaic.ValueIdx Idealize.SL.Sem
open Idealize.ShloMosaic.Pipeline (Dat Cfg Window)

/-- The body reads and writes its staging buffers whole: at offsets zero. -/
theorem zero_offsets : (![0, 0] : Fin 2 → Nat) = fun _ => 0 := funext fun a => by fin_cases a <;> rfl

/-- The printed index maps over the grid: the input's and the output's row block is the grid point, every other
    block index is zero. -/
theorem block_indices : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- The row function depends on its five arguments through their values alone. -/
theorem mlpRow_congr {d d' : Fin 2000 → EReal} {w1 w1' : Fin 2000 → Fin 64 → EReal} {b1 b1' : Fin 64 → EReal}
    {w2 w2' : Fin 64 → Fin 4000 → EReal} {b2 b2' : Fin 4000 → EReal}
    (hd : ∀ l, d l = d' l) (hw1 : ∀ l k, w1 l k = w1' l k) (hb1 : ∀ k, b1 k = b1' k)
    (hw2 : ∀ k j, w2 k j = w2' k j) (hb2 : ∀ j, b2 j = b2' j) (j : Fin 4000) :
    Cert.MlpSpec.mlpRow d w1 b1 w2 b2 j = Cert.MlpSpec.mlpRow d' w1' b1' w2' b2' j := by
  have e1 : d = d' := funext hd
  have e2 : w1 = w1' := funext fun l => funext (hw1 l)
  have e3 : b1 = b1' := funext hb1
  have e4 : w2 = w2' := funext fun k => funext (hw2 k)
  have e5 : b2 = b2' := funext hb2
  rw [e1, e2, e3, e4, e5]

/-- The payload of the operand arrays' blocks at point `t` is block `t` of the layer function of the arrays:
    entry `(p, q)` of the block is entry `(512·t + p, q)` of the array; the input's block holds rows
    `512·t + p`, and the weights' and biases' blocks are the whole arrays. -/
theorem payload_block (A0 : S4096x2000.Idx → EReal) (A1 : S2000x64.Idx → EReal) (A2 : S1x64.Idx → EReal)
    (A3 : S64x4000.Idx → EReal) (A4 : S1x4000.Idx → EReal) (t : Fin cfg8.N) :
    k8_pay1 (F := Ideal) (((cfg8.win 0).blk t).view.read (Elt Ideal) A0) (((cfg8.win 1).blk t).view.read (Elt Ideal) A1)
        (((cfg8.win 2).blk t).view.read (Elt Ideal) A2) (((cfg8.win 3).blk t).view.read (Elt Ideal) A3)
        (((cfg8.win 4).blk t).view.read (Elt Ideal) A4)
      = ((cfg8.win 5).blk t).view.read (Elt Ideal) (G A0 A1 A2 A3 A4) := by
  obtain ⟨e00, e01, e10, e11, e20, e21, e30, e31, e40, e41, e50, e51⟩ := block_indices t
  have hN : cfg8.N = 8 := rfl
  have ht : t.val < 8 := hN ▸ t.isLt
  rw [Cert.KernelIdeal.MlpKernel.pay8_eq]
  funext j
  obtain ⟨p, q, rfl⟩ : ∃ (p : Fin 512) (q : Fin 4000), j = ix2 p q := ⟨j 0, j 1, eq_ix2 j⟩
  refine (Cert.KernelIdeal.MlpKernel.pay_apply (((cfg8.win 0).blk t).view.read (Elt Ideal) A0)
    (((cfg8.win 1).blk t).view.read (Elt Ideal) A1) (((cfg8.win 2).blk t).view.read (Elt Ideal) A2)
    (((cfg8.win 3).blk t).view.read (Elt Ideal) A3) (((cfg8.win 4).blk t).view.read (Elt Ideal) A4) p q).trans ?_
  have h5 : ((cfg8.win 5).blk t).view.emb (ix2 p q)
      = ix2 (⟨t.val * 512 + p.val, by have := p.isLt; omega⟩ : Fin 4096) q := by
    funext a; apply Fin.ext
    match a with
    | ⟨0, _⟩ => show win8_5.index t (0 : Fin 2) * 512 + 1 * p.val = t.val * 512 + p.val; omega
    | ⟨1, _⟩ => show win8_5.index t (1 : Fin 2) * 4000 + 1 * q.val = q.val; omega
  show _ = G A0 A1 A2 A3 A4 (((cfg8.win 5).blk t).view.emb (ix2 p q))
  rw [h5, G_apply]
  refine mlpRow_congr (fun l => ?_) (fun l k => ?_) (fun k => ?_) (fun k j' => ?_) (fun j' => ?_) q
  · show A0 (((cfg8.win 0).blk t).view.emb (ix2 p l)) = A0 (ix2 (⟨t.val * 512 + p.val, by have := p.isLt; omega⟩ : Fin 4096) l)
    refine congrArg A0 ?_
    funext a; apply Fin.ext
    match a with
    | ⟨0, _⟩ => show win8_0.index t (0 : Fin 2) * 512 + 1 * p.val = t.val * 512 + p.val; omega
    | ⟨1, _⟩ => show win8_0.index t (1 : Fin 2) * 2000 + 1 * l.val = l.val; omega
  · show A1 (((cfg8.win 1).blk t).view.emb (ix2 l k)) = A1 (ix2 l k)
    refine congrArg A1 ?_
    funext a; apply Fin.ext
    match a with
    | ⟨0, _⟩ => show win8_1.index t (0 : Fin 2) * 2000 + 1 * l.val = l.val; omega
    | ⟨1, _⟩ => show win8_1.index t (1 : Fin 2) * 64 + 1 * k.val = k.val; omega
  · show A2 (((cfg8.win 2).blk t).view.emb (ix2 (0 : Fin 1) k)) = A2 (ix2 (0 : Fin 1) k)
    refine congrArg A2 ?_
    funext a; apply Fin.ext
    match a with
    | ⟨0, _⟩ => show win8_2.index t (0 : Fin 2) * 1 + 1 * 0 = 0; omega
    | ⟨1, _⟩ => show win8_2.index t (1 : Fin 2) * 64 + 1 * k.val = k.val; omega
  · show A3 (((cfg8.win 3).blk t).view.emb (ix2 k j')) = A3 (ix2 k j')
    refine congrArg A3 ?_
    funext a; apply Fin.ext
    match a with
    | ⟨0, _⟩ => show win8_3.index t (0 : Fin 2) * 64 + 1 * k.val = k.val; omega
    | ⟨1, _⟩ => show win8_3.index t (1 : Fin 2) * 4000 + 1 * j'.val = j'.val; omega
  · show A4 (((cfg8.win 4).blk t).view.emb (ix2 (0 : Fin 1) j')) = A4 (ix2 (0 : Fin 1) j')
    refine congrArg A4 ?_
    funext a; apply Fin.ext
    match a with
    | ⟨0, _⟩ => show win8_4.index t (0 : Fin 2) * 1 + 1 * 0 = 0; omega
    | ⟨1, _⟩ => show win8_4.index t (1 : Fin 2) * 4000 + 1 * j'.val = j'.val; omega

variable (V : (c : Dev nD) → (b : Ref sig .tc) → Buf (Elt Ideal) ((c : Thread nD τ).loc b))

/-- What point `t` writes back is block `t` of the layer function of the operand arrays as the region finds them. -/
theorem written_block (c : Dev nD) (t : Fin cfg8.N) :
    (dat8 V c).flushed 5 t = ((cfg8.win 5).blk t).view.read (Elt Ideal)
      (G (V c (Pipeline.arrRef spec8 0)) (V c (Pipeline.arrRef spec8 1)) (V c (Pipeline.arrRef spec8 2))
        (V c (Pipeline.arrRef spec8 3)) (V c (Pipeline.arrRef spec8 4))) := by
  show (cfg8.win 5).cut (grid8.coords t) ((dat8 V c).after 5 t) = _
  rw [after8_5]
  unfold out8_5
  rw [View.canon_unit_zero zero_offsets]
  simp only [View.ld_unit_zero (S := S512x2000) zero_offsets, View.ld_unit_zero (S := S2000x64) zero_offsets,
    View.ld_unit_zero (S := S1x64) zero_offsets, View.ld_unit_zero (S := S64x4000) zero_offsets,
    View.ld_unit_zero (S := S1x4000) zero_offsets]
  exact payload_block (V c (Pipeline.arrRef spec8 0)) (V c (Pipeline.arrRef spec8 1)) (V c (Pipeline.arrRef spec8 2))
    (V c (Pipeline.arrRef spec8 3)) (V c (Pipeline.arrRef spec8 4)) t

/-- An index of the output array is in point `t`'s block iff each coordinate is in the block's range on its axis. -/
theorem mem_block (t : Fin cfg8.N) (i : S4096x4000.Idx) :
    i ∈ ((cfg8.win 5).blk t).view.set ↔ ∀ a : Fin 2, win8_5.index t a * S512x4000.size a ≤ (i a).val
      ∧ (i a).val < win8_5.index t a * S512x4000.size a + S512x4000.size a := by
  show i ∈ ((View.whole main_v471).slice (win8_5.rect t)).set ↔ _
  rw [View.set_slice_whole, Rect.mem_set_unit]
  exact Iff.rfl

/-- Every entry of the output array is in some point's block: row `r` is written by point `r / 512`. -/
theorem cover (i : S4096x4000.Idx) :
    ∃ t : Fin cfg8.N, (cfg8.win 5).flush t = true ∧ i ∈ ((cfg8.win 5).blk t).view.set := by
  have hi0 : (i 0).val < 4096 := (i 0).isLt
  have hi1 : (i 1).val < 4000 := (i 1).isLt
  obtain ⟨t, htv⟩ : ∃ t : Fin cfg8.N, t.val = (i 0).val / 512 :=
    ⟨⟨(i 0).val / 512, by show (i 0).val / 512 < 8; omega⟩, rfl⟩
  obtain ⟨-, -, -, -, -, -, -, -, -, -, e50, e51⟩ := block_indices t
  refine ⟨t, flush8_5 t, ?_⟩
  rw [mem_block]
  intro a
  match a with
  | ⟨0, _⟩ =>
    show win8_5.index t (0 : Fin 2) * 512 ≤ (i 0).val ∧ (i 0).val < win8_5.index t (0 : Fin 2) * 512 + 512
    omega
  | ⟨1, _⟩ =>
    show win8_5.index t (1 : Fin 2) * 4000 ≤ (i 1).val ∧ (i 1).val < win8_5.index t (1 : Fin 2) * 4000 + 4000
    omega

/-- The region's output array after its eight write-backs: the layer function of the five operand arrays as the
    region finds them. -/
theorem regionOut (c : Dev nD) :
    (dat8 V c).arrAt 5 cfg8.N = Cert.KernelIdeal.MlpArray.G (V c (Pipeline.arrRef spec8 0))
      (V c (Pipeline.arrRef spec8 1)) (V c (Pipeline.arrRef spec8 2)) (V c (Pipeline.arrRef spec8 3))
      (V c (Pipeline.arrRef spec8 4)) :=
  (dat8 V c).arrAt_eq_of_cover 5
    (G (V c (Pipeline.arrRef spec8 0)) (V c (Pipeline.arrRef spec8 1)) (V c (Pipeline.arrRef spec8 2))
      (V c (Pipeline.arrRef spec8 3)) (V c (Pipeline.arrRef spec8 4)))
    (fun t _ => written_block V c t) cover

end Cert.KernelIdeal.Region8

end
-- ==== Proof.LayerK8.lean ====
/- The host operations the kernel program runs between kernel region 7 and kernel region 8, read as functions. Each buffer the
  next stage needs is written out as the composition of the operations that produce it from the buffers the stretch
  reads; a buffer the stretch does not write keeps its contents; and the fold of the stretch's operations at each of
  these buffers is that function of the contents the stretch starts from.
-/
import proofs.«140670_j11424613007642_1_alg».proof.Proof.Gen.KernelIdeal.Launch
import Idealize.ShloMosaic.Lib.StableHlo.Run

set_option maxRecDepth 16384

noncomputable section

namespace Cert.KernelIdeal.Layer8

open Cert.KernelIdeal Cert.KernelIdeal.Gen Idealize.ShloMosaic Idealize.ShloMosaic.StableHlo Idealize.ShloMosaic.TcCoe

variable {F : FTy → Type} [FloatOps F]

/-- Buffer main_v468 as a function of the buffers the stretch reads: its 64 operations, in program order. -/
def f_dense (x_main_v3 : (⟨S4096x61, .i32⟩ : BufTy).Contents (Elt F)) (x_main_v324 : (⟨S4096x61, .f32⟩ : BufTy).Contents (Elt F)) (x_main_v387 : (⟨S4096x122, .i32⟩ : BufTy).Contents (Elt F)) (x_main_v417 : (⟨S4096x4000, .f32⟩ : BufTy).Contents (Elt F)) :
    (⟨S4096x2000, .f32⟩ : BufTy).Contents (Elt F) :=
  have x_main_cst_97 : (⟨S_, .f32⟩ : BufTy).Contents (Elt F) := (constant S_ .f32 0x00000000#32)
  have x_main_v418 : (⟨S4096x1, .f32⟩ : BufTy).Contents (Elt F) := ((broadcastInDim S4096x1 ![] bcast_S_S4096x1 : (⟨S_, .f32⟩ : BufTy).Contents (Elt F) → (⟨S4096x1, .f32⟩ : BufTy).Contents (Elt F))) x_main_cst_97
  have x_main_v419 : (⟨S4096x4001, .f32⟩ : BufTy).Contents (Elt F) := (((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F))) x_main_v417 x_main_v418
  have x_main_call15_c : (⟨S_, .i32⟩ : BufTy).Contents (Elt F) := (constantI S_ 32 0#32)
  have x_main_call15_v0 : (⟨S4096x122, .i32⟩ : BufTy).Contents (Elt F) := ((broadcastInDim S4096x122 ![] bcast_S_S4096x122)) x_main_call15_c
  have x_main_call15_v1 : (⟨S4096x122, .i1⟩ : BufTy).Contents (Elt F) := ((cmpi .slt)) x_main_v387 x_main_call15_v0
  have x_main_call15_c_0 : (⟨S_, .i32⟩ : BufTy).Contents (Elt F) := (constantI S_ 32 4001#32)
  have x_main_call15_v2 : (⟨S4096x122, .i32⟩ : BufTy).Contents (Elt F) := ((broadcastInDim S4096x122 ![] bcast_S_S4096x122)) x_main_call15_c_0
  have x_main_call15_v3 : (⟨S4096x122, .i32⟩ : BufTy).Contents (Elt F) := (addi) x_main_v387 x_main_call15_v2
  have x_main_call15_v4 : (⟨S4096x122, .i32⟩ : BufTy).Contents (Elt F) := (select) x_main_call15_v1 x_main_call15_v3 x_main_v387
  have x_main_call15_v5 : (⟨S4096x122x1, .i32⟩ : BufTy).Contents (Elt F) := shapeCast S4096x122x1 x_main_call15_v4 shapeCasts_S4096x122_S4096x122x1
  have x_main_call15_c_1 : (⟨S1, .i32⟩ : BufTy).Contents (Elt F) := (constantI S1 32 4000#32)
  have x_main_call15_c_2 : (⟨S_, .i32⟩ : BufTy).Contents (Elt F) := (constantI S_ 32 0#32)
  have x_main_call15_v6 : (⟨S4096x122x1, .i32⟩ : BufTy).Contents (Elt F) := ((broadcastInDim S4096x122x1 ![] bcast_S_S4096x122x1)) x_main_call15_c_2
  have x_main_call15_v7 : (⟨S4096x122x1, .i1⟩ : BufTy).Contents (Elt F) := ((cmpi .sge)) x_main_call15_v5 x_main_call15_v6
  have x_main_call15_v8 : (⟨S1x1x1, .i32⟩ : BufTy).Contents (Elt F) := ((broadcastInDim S1x1x1 ![2] bcast_S1_S1x1x1_2)) x_main_call15_c_1
  have x_main_call15_v9 : (⟨S4096x122x1, .i32⟩ : BufTy).Contents (Elt F) := ((broadcastInDim S4096x122x1 ![0, 1, 2] bcast_S1x1x1_S4096x122x1_0_1_2)) x_main_call15_v8
  have x_main_call15_v10 : (⟨S4096x122x1, .i1⟩ : BufTy).Contents (Elt F) := ((cmpi .sle)) x_main_call15_v5 x_main_call15_v9
  have x_main_call15_v11 : (⟨S4096x122x1, .i1⟩ : BufTy).Contents (Elt F) := (andi) x_main_call15_v7 x_main_call15_v10
  have x_main_call15_c_3 : (⟨S_, .i1⟩ : BufTy).Contents (Elt F) := (constantI S_ 1 1#1)
  have x_main_call15_v12 : (⟨S4096x122, .i1⟩ : BufTy).Contents (Elt F) := ((fun x v => Host.reduce IntOp.andi x v reducesTo_S4096x122x1_S4096x122_d2 h_S_)) x_main_call15_v11 x_main_call15_c_3
  have x_main_call15_v13 : (⟨S4096x122, .f32⟩ : BufTy).Contents (Elt F) := ((fun x i => Host.gather gather_S4096x4001_S4096x122x1_S4096x122_n_1_0_0_1_2_11 x i)) x_main_v419 x_main_call15_v5
  have x_main_call15_cst : (⟨S_, .f32⟩ : BufTy).Contents (Elt F) := (constant S_ .f32 0x7FC00000#32)
  have x_main_call15_v14 : (⟨S4096x122, .f32⟩ : BufTy).Contents (Elt F) := ((broadcastInDim S4096x122 ![] bcast_S_S4096x122)) x_main_call15_cst
  have x_main_v420 : (⟨S4096x122, .f32⟩ : BufTy).Contents (Elt F) := (select) x_main_call15_v12 x_main_call15_v13 x_main_call15_v14
  have x_main_v421 : (⟨S4096x61, .f32⟩ : BufTy).Contents (Elt F) := (((extractStridedSlice S4096x61 ![0, 0] · slices_S4096x122_S4096x61_0_0) : (⟨S4096x122, .f32⟩ : BufTy).Contents (Elt F) → (⟨S4096x61, .f32⟩ : BufTy).Contents (Elt F))) x_main_v420
  have x_main_v422 : (⟨S4096x61, .f32⟩ : BufTy).Contents (Elt F) := (((extractStridedSlice S4096x61 ![0, 61] · slices_S4096x122_S4096x61_0_61) : (⟨S4096x122, .f32⟩ : BufTy).Contents (Elt F) → (⟨S4096x61, .f32⟩ : BufTy).Contents (Elt F))) x_main_v420
  have x_main_cst_98 : (⟨S_, .f32⟩ : BufTy).Contents (Elt F) := (constant S_ .f32 0x40000000#32)
  have x_main_v423 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_98
  have x_main_v424 : (⟨S4096x61, .f32⟩ : BufTy).Contents (Elt F) := ((addf : (⟨S4096x61, .f32⟩ : BufTy).Contents (Elt F) → (⟨S4096x61, .f32⟩ : BufTy).Contents (Elt F) → (⟨S4096x61, .f32⟩ : BufTy).Contents (Elt F))) x_main_v421 x_main_v423
  have x_main_v425 : (⟨S4096x61, .f32⟩ : BufTy).Contents (Elt F) := ((Host.negf : (⟨S4096x61, .f32⟩ : BufTy).Contents (Elt F) → (⟨S4096x61, .f32⟩ : BufTy).Contents (Elt F))) x_main_v424
  have x_main_v426 : (⟨S4096x61, .f32⟩ : BufTy).Contents (Elt F) := ((Host.exp : (⟨S4096x61, .f32⟩ : BufTy).Contents (Elt F) → (⟨S4096x61, .f32⟩ : BufTy).Contents (Elt F))) x_main_v425
  have x_main_cst_99 : (⟨S_, .f32⟩ : BufTy).Contents (Elt F) := (constant S_ .f32 0x3F800000#32)
  have x_main_v427 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_99
  have x_main_v428 : (⟨S4096x61, .f32⟩ : BufTy).Contents (Elt F) := ((addf : (⟨S4096x61, .f32⟩ : BufTy).Contents (Elt F) → (⟨S4096x61, .f32⟩ : BufTy).Contents (Elt F) → (⟨S4096x61, .f32⟩ : BufTy).Contents (Elt F))) x_main_v427 x_main_v426
  have x_main_cst_100 : (⟨S_, .f32⟩ : BufTy).Contents (Elt F) := (constant S_ .f32 0x3F800000#32)
  have x_main_v429 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_100
  have x_main_v430 : (⟨S4096x61, .f32⟩ : BufTy).Contents (Elt F) := ((Host.divf : (⟨S4096x61, .f32⟩ : BufTy).Contents (Elt F) → (⟨S4096x61, .f32⟩ : BufTy).Contents (Elt F) → (⟨S4096x61, .f32⟩ : BufTy).Contents (Elt F))) x_main_v429 x_main_v428
  have x_main_v431 : (⟨S4096x61, .f32⟩ : BufTy).Contents (Elt F) := ((mulf : (⟨S4096x61, .f32⟩ : BufTy).Contents (Elt F) → (⟨S4096x61, .f32⟩ : BufTy).Contents (Elt F) → (⟨S4096x61, .f32⟩ : BufTy).Contents (Elt F))) x_main_v430 x_main_v324
  have x_main_v432 : (⟨S4096x61, .f32⟩ : BufTy).Contents (Elt F) := ((addf : (⟨S4096x61, .f32⟩ : BufTy).Contents (Elt F) → (⟨S4096x61, .f32⟩ : BufTy).Contents (Elt F) → (⟨S4096x61, .f32⟩ : BufTy).Contents (Elt F))) x_main_v431 x_main_v422
  have x_main_v450 : (⟨S4096, .i32⟩ : BufTy).Contents (Elt F) := (iotaInDim S4096 32 0)
  have x_main_v451 : (⟨S4096x1, .i32⟩ : BufTy).Contents (Elt F) := ((broadcastInDim S4096x1 ![0] bcast_S4096_S4096x1_0 : (⟨S4096, .i32⟩ : BufTy).Contents (Elt F) → (⟨S4096x1, .i32⟩ : BufTy).Contents (Elt F))) x_main_v450
  have x_main_cst_105 : (⟨S_, .f32⟩ : BufTy).Contents (Elt F) := (constant S_ .f32 0x00000000#32)
  have x_main_v452 : (⟨S4096x2001, .f32⟩ : BufTy).Contents (Elt F) := ((broadcastInDim S4096x2001 ![] bcast_S_S4096x2001 : (⟨S_, .f32⟩ : BufTy).Contents (Elt F) → (⟨S4096x2001, .f32⟩ : BufTy).Contents (Elt F))) x_main_cst_105
  have x_main_c_106 : (⟨S_, .i32⟩ : BufTy).Contents (Elt F) := (constantI S_ 32 0#32)
  have x_main_v453 : (⟨S4096x1, .i32⟩ : BufTy).Contents (Elt F) := ((broadcastInDim S4096x1 ![] bcast_S_S4096x1 : (⟨S_, .i32⟩ : BufTy).Contents (Elt F) → (⟨S4096x1, .i32⟩ : BufTy).Contents (Elt F))) x_main_c_106
  have x_main_v454 : (⟨S4096x1, .i1⟩ : BufTy).Contents (Elt F) := ((cmpi .slt : (⟨S4096x1, .i32⟩ : BufTy).Contents (Elt F) → (⟨S4096x1, .i32⟩ : BufTy).Contents (Elt F) → (⟨S4096x1, .i1⟩ : BufTy).Contents (Elt F))) x_main_v451 x_main_v453
  have x_main_c_107 : (⟨S_, .i32⟩ : BufTy).Contents (Elt F) := (constantI S_ 32 4096#32)
  have x_main_v455 : (⟨S4096x1, .i32⟩ : BufTy).Contents (Elt F) := ((broadcastInDim S4096x1 ![] bcast_S_S4096x1 : (⟨S_, .i32⟩ : BufTy).Contents (Elt F) → (⟨S4096x1, .i32⟩ : BufTy).Contents (Elt F))) x_main_c_107
  have x_main_v456 : (⟨S4096x1, .i32⟩ : BufTy).Contents (Elt F) := ((addi : (⟨S4096x1, .i32⟩ : BufTy).Contents (Elt F) → (⟨S4096x1, .i32⟩ : BufTy).Contents (Elt F) → (⟨S4096x1, .i32⟩ : BufTy).Contents (Elt F))) x_main_v451 x_main_v455
  have x_main_v457 : (⟨S4096x1, .i32⟩ : BufTy).Contents (Elt F) := ((select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F))) x_main_v454 x_main_v456 x_main_v451
  have x_main_c_108 : (⟨S_, .i32⟩ : BufTy).Contents (Elt F) := (constantI S_ 32 0#32)
  have x_main_v458 : (⟨S4096x61, .i32⟩ : BufTy).Contents (Elt F) := ((broadcastInDim S4096x61 ![] bcast_S_S4096x61 : (⟨S_, .i32⟩ : BufTy).Contents (Elt F) → (⟨S4096x61, .i32⟩ : BufTy).Contents (Elt F))) x_main_c_108
  have x_main_v459 : (⟨S4096x61, .i1⟩ : BufTy).Contents (Elt F) := ((cmpi .slt : (⟨S4096x61, .i32⟩ : BufTy).Contents (Elt F) → (⟨S4096x61, .i32⟩ : BufTy).Contents (Elt F) → (⟨S4096x61, .i1⟩ : BufTy).Contents (Elt F))) x_main_v3 x_main_v458
  have x_main_c_109 : (⟨S_, .i32⟩ : BufTy).Contents (Elt F) := (constantI S_ 32 2001#32)
  have x_main_v460 : (⟨S4096x61, .i32⟩ : BufTy).Contents (Elt F) := ((broadcastInDim S4096x61 ![] bcast_S_S4096x61 : (⟨S_, .i32⟩ : BufTy).Contents (Elt F) → (⟨S4096x61, .i32⟩ : BufTy).Contents (Elt F))) x_main_c_109
  have x_main_v461 : (⟨S4096x61, .i32⟩ : BufTy).Contents (Elt F) := ((addi : (⟨S4096x61, .i32⟩ : BufTy).Contents (Elt F) → (⟨S4096x61, .i32⟩ : BufTy).Contents (Elt F) → (⟨S4096x61, .i32⟩ : BufTy).Contents (Elt F))) x_main_v3 x_main_v460
  have x_main_v462 : (⟨S4096x61, .i32⟩ : BufTy).Contents (Elt F) := ((select : (⟨S4096x61, .i1⟩ : BufTy).Contents (Elt F) → (⟨S4096x61, .i32⟩ : BufTy).Contents (Elt F) → (⟨S4096x61, .i32⟩ : BufTy).Contents (Elt F) → (⟨S4096x61, .i32⟩ : BufTy).Contents (Elt F))) x_main_v459 x_main_v461 x_main_v3
  have x_main_v463 : (⟨S4096x61, .i32⟩ : BufTy).Contents (Elt F) := ((broadcastInDim S4096x61 ![0, 1] bcast_S4096x1_S4096x61_0_1 : (⟨S4096x1, .i32⟩ : BufTy).Contents (Elt F) → (⟨S4096x61, .i32⟩ : BufTy).Contents (Elt F))) x_main_v457
  have x_main_v464 : (⟨S4096x61x1, .i32⟩ : BufTy).Contents (Elt F) := ((broadcastInDim S4096x61x1 ![0, 1] bcast_S4096x61_S4096x61x1_0_1 : (⟨S4096x61, .i32⟩ : BufTy).Contents (Elt F) → (⟨S4096x61x1, .i32⟩ : BufTy).Contents (Elt F))) x_main_v463
  have x_main_v465 : (⟨S4096x61x1, .i32⟩ : BufTy).Contents (Elt F) := ((broadcastInDim S4096x61x1 ![0, 1] bcast_S4096x61_S4096x61x1_0_1 : (⟨S4096x61, .i32⟩ : BufTy).Contents (Elt F) → (⟨S4096x61x1, .i32⟩ : BufTy).Contents (Elt F))) x_main_v462
  have x_main_v466 : (⟨S4096x61x2, .i32⟩ : BufTy).Contents (Elt F) := (((fun a b => concatenate S4096x61x2 2 [⟨S4096x61x1, a⟩, ⟨S4096x61x1, b⟩] concatenates_S4096x61x1_S4096x61x1_S4096x61x2_d2) : (⟨S4096x61x1, .i32⟩ : BufTy).Contents (Elt F) → (⟨S4096x61x1, .i32⟩ : BufTy).Contents (Elt F) → (⟨S4096x61x2, .i32⟩ : BufTy).Contents (Elt F))) x_main_v464 x_main_v465
  have x_main_v467 : (⟨S4096x2001, .f32⟩ : BufTy).Contents (Elt F) := (((fun x i u => Host.scatterAdd scatter_S4096x2001_S4096x61x2_S4096x61_n_01_01_2 x i u) : (⟨S4096x2001, .f32⟩ : BufTy).Contents (Elt F) → (⟨S4096x61x2, .i32⟩ : BufTy).Contents (Elt F) → (⟨S4096x61, .f32⟩ : BufTy).Contents (Elt F) → (⟨S4096x2001, .f32⟩ : BufTy).Contents (Elt F))) x_main_v452 x_main_v466 x_main_v432
  have x_main_v468 : (⟨S4096x2000, .f32⟩ : BufTy).Contents (Elt F) := (((extractStridedSlice S4096x2000 ![0, 0] · slices_S4096x2001_S4096x2000_0_0) : (⟨S4096x2001, .f32⟩ : BufTy).Contents (Elt F) → (⟨S4096x2000, .f32⟩ : BufTy).Contents (Elt F))) x_main_v467
  x_main_v468

/-- Buffer main_v443 as a function of the buffers the stretch reads: its 2 operations, in program order. -/
def f_w1 (x_main_arg2 : (⟨S10x2000x64, .f32⟩ : BufTy).Contents (Elt F)) :
    (⟨S2000x64, .f32⟩ : BufTy).Contents (Elt F) :=
  have x_main_v442 : (⟨S1x2000x64, .f32⟩ : BufTy).Contents (Elt F) := (((extractStridedSlice S1x2000x64 ![8, 0, 0] · slices_S10x2000x64_S1x2000x64_8_0_0) : (⟨S10x2000x64, .f32⟩ : BufTy).Contents (Elt F) → (⟨S1x2000x64, .f32⟩ : BufTy).Contents (Elt F))) x_main_arg2
  have x_main_v443 : (⟨S2000x64, .f32⟩ : BufTy).Contents (Elt F) := shapeCast S2000x64 x_main_v442 shapeCasts_S1x2000x64_S2000x64
  x_main_v443

/-- Buffer main_v445 as a function of the buffers the stretch reads: its 2 operations, in program order. -/
def f_b1 (x_main_arg3 : (⟨S10x64, .f32⟩ : BufTy).Contents (Elt F)) :
    (⟨S64, .f32⟩ : BufTy).Contents (Elt F) :=
  have x_main_v444 : (⟨S1x64, .f32⟩ : BufTy).Contents (Elt F) := (((extractStridedSlice S1x64 ![8, 0] · slices_S10x64_S1x64_8_0) : (⟨S10x64, .f32⟩ : BufTy).Contents (Elt F) → (⟨S1x64, .f32⟩ : BufTy).Contents (Elt F))) x_main_arg3
  have x_main_v445 : (⟨S64, .f32⟩ : BufTy).Contents (Elt F) := shapeCast S64 x_main_v444 shapeCasts_S1x64_S64
  x_main_v445

/-- Buffer main_v469 as a function of the buffers the stretch reads: its 3 operations, in program order. -/
def f_b1r (x_main_arg3 : (⟨S10x64, .f32⟩ : BufTy).Contents (Elt F)) :
    (⟨S1x64, .f32⟩ : BufTy).Contents (Elt F) :=
  have x_main_v444 : (⟨S1x64, .f32⟩ : BufTy).Contents (Elt F) := (((extractStridedSlice S1x64 ![8, 0] · slices_S10x64_S1x64_8_0) : (⟨S10x64, .f32⟩ : BufTy).Contents (Elt F) → (⟨S1x64, .f32⟩ : BufTy).Contents (Elt F))) x_main_arg3
  have x_main_v445 : (⟨S64, .f32⟩ : BufTy).Contents (Elt F) := shapeCast S64 x_main_v444 shapeCasts_S1x64_S64
  have x_main_v469 : (⟨S1x64, .f32⟩ : BufTy).Contents (Elt F) := shapeCast S1x64 x_main_v445 shapeCasts_S64_S1x64
  x_main_v469

/-- Buffer main_v447 as a function of the buffers the stretch reads: its 2 operations, in program order. -/
def f_w2 (x_main_arg4 : (⟨S10x64x4000, .f32⟩ : BufTy).Contents (Elt F)) :
    (⟨S64x4000, .f32⟩ : BufTy).Contents (Elt F) :=
  have x_main_v446 : (⟨S1x64x4000, .f32⟩ : BufTy).Contents (Elt F) := (((extractStridedSlice S1x64x4000 ![8, 0, 0] · slices_S10x64x4000_S1x64x4000_8_0_0) : (⟨S10x64x4000, .f32⟩ : BufTy).Contents (Elt F) → (⟨S1x64x4000, .f32⟩ : BufTy).Contents (Elt F))) x_main_arg4
  have x_main_v447 : (⟨S64x4000, .f32⟩ : BufTy).Contents (Elt F) := shapeCast S64x4000 x_main_v446 shapeCasts_S1x64x4000_S64x4000
  x_main_v447

/-- Buffer main_v449 as a function of the buffers the stretch reads: its 2 operations, in program order. -/
def f_b2 (x_main_arg5 : (⟨S10x4000, .f32⟩ : BufTy).Contents (Elt F)) :
    (⟨S4000, .f32⟩ : BufTy).Contents (Elt F) :=
  have x_main_v448 : (⟨S1x4000, .f32⟩ : BufTy).Contents (Elt F) := (((extractStridedSlice S1x4000 ![8, 0] · slices_S10x4000_S1x4000_8_0) : (⟨S10x4000, .f32⟩ : BufTy).Contents (Elt F) → (⟨S1x4000, .f32⟩ : BufTy).Contents (Elt F))) x_main_arg5
  have x_main_v449 : (⟨S4000, .f32⟩ : BufTy).Contents (Elt F) := shapeCast S4000 x_main_v448 shapeCasts_S1x4000_S4000
  x_main_v449

/-- Buffer main_v470 as a function of the buffers the stretch reads: its 3 operations, in program order. -/
def f_b2r (x_main_arg5 : (⟨S10x4000, .f32⟩ : BufTy).Contents (Elt F)) :
    (⟨S1x4000, .f32⟩ : BufTy).Contents (Elt F) :=
  have x_main_v448 : (⟨S1x4000, .f32⟩ : BufTy).Contents (Elt F) := (((extractStridedSlice S1x4000 ![8, 0] · slices_S10x4000_S1x4000_8_0) : (⟨S10x4000, .f32⟩ : BufTy).Contents (Elt F) → (⟨S1x4000, .f32⟩ : BufTy).Contents (Elt F))) x_main_arg5
  have x_main_v449 : (⟨S4000, .f32⟩ : BufTy).Contents (Elt F) := shapeCast S4000 x_main_v448 shapeCasts_S1x4000_S4000
  have x_main_v470 : (⟨S1x4000, .f32⟩ : BufTy).Contents (Elt F) := shapeCast S1x4000 x_main_v449 shapeCasts_S4000_S1x4000
  x_main_v470

/-- Buffer main_v441 as a function of the buffers the stretch reads: its 11 operations, in program order. -/
def f_oidx (x_main_v2 : (⟨S4096x64, .i32⟩ : BufTy).Contents (Elt F)) :
    (⟨S4096x128, .i32⟩ : BufTy).Contents (Elt F) :=
  have x_main_c_102 : (⟨S_, .i32⟩ : BufTy).Contents (Elt F) := (constantI S_ 32 2000#32)
  have x_main_v436 : (⟨S4096x64, .i32⟩ : BufTy).Contents (Elt F) := ((broadcastInDim S4096x64 ![] bcast_S_S4096x64 : (⟨S_, .i32⟩ : BufTy).Contents (Elt F) → (⟨S4096x64, .i32⟩ : BufTy).Contents (Elt F))) x_main_c_102
  have x_main_v437 : (⟨S4096x64, .i1⟩ : BufTy).Contents (Elt F) := ((cmpi .eq : (⟨S4096x64, .i32⟩ : BufTy).Contents (Elt F) → (⟨S4096x64, .i32⟩ : BufTy).Contents (Elt F) → (⟨S4096x64, .i1⟩ : BufTy).Contents (Elt F))) x_main_v2 x_main_v436
  have x_main_c_103 : (⟨S_, .i32⟩ : BufTy).Contents (Elt F) := (constantI S_ 32 2000#32)
  have x_main_v438 : (⟨S4096x64, .i32⟩ : BufTy).Contents (Elt F) := ((broadcastInDim S4096x64 ![] bcast_S_S4096x64 : (⟨S_, .i32⟩ : BufTy).Contents (Elt F) → (⟨S4096x64, .i32⟩ : BufTy).Contents (Elt F))) x_main_c_103
  have x_main_v439 : (⟨S4096x64, .i32⟩ : BufTy).Contents (Elt F) := ((addi : (⟨S4096x64, .i32⟩ : BufTy).Contents (Elt F) → (⟨S4096x64, .i32⟩ : BufTy).Contents (Elt F) → (⟨S4096x64, .i32⟩ : BufTy).Contents (Elt F))) x_main_v2 x_main_v438
  have x_main_c_104 : (⟨S_, .i32⟩ : BufTy).Contents (Elt F) := (constantI S_ 32 4000#32)
  have x_main_call16_v0 : (⟨S_, .i32⟩ : BufTy).Contents (Elt F) := (id) x_main_c_104
  have x_main_call16_v1 : (⟨S4096x64, .i32⟩ : BufTy).Contents (Elt F) := ((broadcastInDim S4096x64 ![] bcast_S_S4096x64)) x_main_call16_v0
  have x_main_v440 : (⟨S4096x64, .i32⟩ : BufTy).Contents (Elt F) := (select) x_main_v437 x_main_call16_v1 x_main_v439
  have x_main_v441 : (⟨S4096x128, .i32⟩ : BufTy).Contents (Elt F) := (((fun a b => concatenate S4096x128 1 [⟨S4096x64, a⟩, ⟨S4096x64, b⟩] concatenates_S4096x64_S4096x64_S4096x128_d1) : (⟨S4096x64, .i32⟩ : BufTy).Contents (Elt F) → (⟨S4096x64, .i32⟩ : BufTy).Contents (Elt F) → (⟨S4096x128, .i32⟩ : BufTy).Contents (Elt F))) x_main_v2 x_main_v440
  x_main_v441

/-- Buffer main_v432 as a function of the buffers the stretch reads: its 40 operations, in program order. -/
def f_xnew (x_main_v324 : (⟨S4096x61, .f32⟩ : BufTy).Contents (Elt F)) (x_main_v387 : (⟨S4096x122, .i32⟩ : BufTy).Contents (Elt F)) (x_main_v417 : (⟨S4096x4000, .f32⟩ : BufTy).Contents (Elt F)) :
    (⟨S4096x61, .f32⟩ : BufTy).Contents (Elt F) :=
  have x_main_cst_97 : (⟨S_, .f32⟩ : BufTy).Contents (Elt F) := (constant S_ .f32 0x00000000#32)
  have x_main_v418 : (⟨S4096x1, .f32⟩ : BufTy).Contents (Elt F) := ((broadcastInDim S4096x1 ![] bcast_S_S4096x1 : (⟨S_, .f32⟩ : BufTy).Contents (Elt F) → (⟨S4096x1, .f32⟩ : BufTy).Contents (Elt F))) x_main_cst_97
  have x_main_v419 : (⟨S4096x4001, .f32⟩ : BufTy).Contents (Elt F) := (((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F))) x_main_v417 x_main_v418
  have x_main_call15_c : (⟨S_, .i32⟩ : BufTy).Contents (Elt F) := (constantI S_ 32 0#32)
  have x_main_call15_v0 : (⟨S4096x122, .i32⟩ : BufTy).Contents (Elt F) := ((broadcastInDim S4096x122 ![] bcast_S_S4096x122)) x_main_call15_c
  have x_main_call15_v1 : (⟨S4096x122, .i1⟩ : BufTy).Contents (Elt F) := ((cmpi .slt)) x_main_v387 x_main_call15_v0
  have x_main_call15_c_0 : (⟨S_, .i32⟩ : BufTy).Contents (Elt F) := (constantI S_ 32 4001#32)
  have x_main_call15_v2 : (⟨S4096x122, .i32⟩ : BufTy).Contents (Elt F) := ((broadcastInDim S4096x122 ![] bcast_S_S4096x122)) x_main_call15_c_0
  have x_main_call15_v3 : (⟨S4096x122, .i32⟩ : BufTy).Contents (Elt F) := (addi) x_main_v387 x_main_call15_v2
  have x_main_call15_v4 : (⟨S4096x122, .i32⟩ : BufTy).Contents (Elt F) := (select) x_main_call15_v1 x_main_call15_v3 x_main_v387
  have x_main_call15_v5 : (⟨S4096x122x1, .i32⟩ : BufTy).Contents (Elt F) := shapeCast S4096x122x1 x_main_call15_v4 shapeCasts_S4096x122_S4096x122x1
  have x_main_call15_c_1 : (⟨S1, .i32⟩ : BufTy).Contents (Elt F) := (constantI S1 32 4000#32)
  have x_main_call15_c_2 : (⟨S_, .i32⟩ : BufTy).Contents (Elt F) := (constantI S_ 32 0#32)
  have x_main_call15_v6 : (⟨S4096x122x1, .i32⟩ : BufTy).Contents (Elt F) := ((broadcastInDim S4096x122x1 ![] bcast_S_S4096x122x1)) x_main_call15_c_2
  have x_main_call15_v7 : (⟨S4096x122x1, .i1⟩ : BufTy).Contents (Elt F) := ((cmpi .sge)) x_main_call15_v5 x_main_call15_v6
  have x_main_call15_v8 : (⟨S1x1x1, .i32⟩ : BufTy).Contents (Elt F) := ((broadcastInDim S1x1x1 ![2] bcast_S1_S1x1x1_2)) x_main_call15_c_1
  have x_main_call15_v9 : (⟨S4096x122x1, .i32⟩ : BufTy).Contents (Elt F) := ((broadcastInDim S4096x122x1 ![0, 1, 2] bcast_S1x1x1_S4096x122x1_0_1_2)) x_main_call15_v8
  have x_main_call15_v10 : (⟨S4096x122x1, .i1⟩ : BufTy).Contents (Elt F) := ((cmpi .sle)) x_main_call15_v5 x_main_call15_v9
  have x_main_call15_v11 : (⟨S4096x122x1, .i1⟩ : BufTy).Contents (Elt F) := (andi) x_main_call15_v7 x_main_call15_v10
  have x_main_call15_c_3 : (⟨S_, .i1⟩ : BufTy).Contents (Elt F) := (constantI S_ 1 1#1)
  have x_main_call15_v12 : (⟨S4096x122, .i1⟩ : BufTy).Contents (Elt F) := ((fun x v => Host.reduce IntOp.andi x v reducesTo_S4096x122x1_S4096x122_d2 h_S_)) x_main_call15_v11 x_main_call15_c_3
  have x_main_call15_v13 : (⟨S4096x122, .f32⟩ : BufTy).Contents (Elt F) := ((fun x i => Host.gather gather_S4096x4001_S4096x122x1_S4096x122_n_1_0_0_1_2_11 x i)) x_main_v419 x_main_call15_v5
  have x_main_call15_cst : (⟨S_, .f32⟩ : BufTy).Contents (Elt F) := (constant S_ .f32 0x7FC00000#32)
  have x_main_call15_v14 : (⟨S4096x122, .f32⟩ : BufTy).Contents (Elt F) := ((broadcastInDim S4096x122 ![] bcast_S_S4096x122)) x_main_call15_cst
  have x_main_v420 : (⟨S4096x122, .f32⟩ : BufTy).Contents (Elt F) := (select) x_main_call15_v12 x_main_call15_v13 x_main_call15_v14
  have x_main_v421 : (⟨S4096x61, .f32⟩ : BufTy).Contents (Elt F) := (((extractStridedSlice S4096x61 ![0, 0] · slices_S4096x122_S4096x61_0_0) : (⟨S4096x122, .f32⟩ : BufTy).Contents (Elt F) → (⟨S4096x61, .f32⟩ : BufTy).Contents (Elt F))) x_main_v420
  have x_main_v422 : (⟨S4096x61, .f32⟩ : BufTy).Contents (Elt F) := (((extractStridedSlice S4096x61 ![0, 61] · slices_S4096x122_S4096x61_0_61) : (⟨S4096x122, .f32⟩ : BufTy).Contents (Elt F) → (⟨S4096x61, .f32⟩ : BufTy).Contents (Elt F))) x_main_v420
  have x_main_cst_98 : (⟨S_, .f32⟩ : BufTy).Contents (Elt F) := (constant S_ .f32 0x40000000#32)
  have x_main_v423 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_98
  have x_main_v424 : (⟨S4096x61, .f32⟩ : BufTy).Contents (Elt F) := ((addf : (⟨S4096x61, .f32⟩ : BufTy).Contents (Elt F) → (⟨S4096x61, .f32⟩ : BufTy).Contents (Elt F) → (⟨S4096x61, .f32⟩ : BufTy).Contents (Elt F))) x_main_v421 x_main_v423
  have x_main_v425 : (⟨S4096x61, .f32⟩ : BufTy).Contents (Elt F) := ((Host.negf : (⟨S4096x61, .f32⟩ : BufTy).Contents (Elt F) → (⟨S4096x61, .f32⟩ : BufTy).Contents (Elt F))) x_main_v424
  have x_main_v426 : (⟨S4096x61, .f32⟩ : BufTy).Contents (Elt F) := ((Host.exp : (⟨S4096x61, .f32⟩ : BufTy).Contents (Elt F) → (⟨S4096x61, .f32⟩ : BufTy).Contents (Elt F))) x_main_v425
  have x_main_cst_99 : (⟨S_, .f32⟩ : BufTy).Contents (Elt F) := (constant S_ .f32 0x3F800000#32)
  have x_main_v427 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_99
  have x_main_v428 : (⟨S4096x61, .f32⟩ : BufTy).Contents (Elt F) := ((addf : (⟨S4096x61, .f32⟩ : BufTy).Contents (Elt F) → (⟨S4096x61, .f32⟩ : BufTy).Contents (Elt F) → (⟨S4096x61, .f32⟩ : BufTy).Contents (Elt F))) x_main_v427 x_main_v426
  have x_main_cst_100 : (⟨S_, .f32⟩ : BufTy).Contents (Elt F) := (constant S_ .f32 0x3F800000#32)
  have x_main_v429 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_100
  have x_main_v430 : (⟨S4096x61, .f32⟩ : BufTy).Contents (Elt F) := ((Host.divf : (⟨S4096x61, .f32⟩ : BufTy).Contents (Elt F) → (⟨S4096x61, .f32⟩ : BufTy).Contents (Elt F) → (⟨S4096x61, .f32⟩ : BufTy).Contents (Elt F))) x_main_v429 x_main_v428
  have x_main_v431 : (⟨S4096x61, .f32⟩ : BufTy).Contents (Elt F) := ((mulf : (⟨S4096x61, .f32⟩ : BufTy).Contents (Elt F) → (⟨S4096x61, .f32⟩ : BufTy).Contents (Elt F) → (⟨S4096x61, .f32⟩ : BufTy).Contents (Elt F))) x_main_v430 x_main_v324
  have x_main_v432 : (⟨S4096x61, .f32⟩ : BufTy).Contents (Elt F) := ((addf : (⟨S4096x61, .f32⟩ : BufTy).Contents (Elt F) → (⟨S4096x61, .f32⟩ : BufTy).Contents (Elt F) → (⟨S4096x61, .f32⟩ : BufTy).Contents (Elt F))) x_main_v431 x_main_v422
  x_main_v432

/-- Buffer main_v435 as a function of the buffers the stretch reads: its 41 operations, in program order. -/
def f_qnew (x_main_v381 : (⟨S4096, .f32⟩ : BufTy).Contents (Elt F)) (x_main_v387 : (⟨S4096x122, .i32⟩ : BufTy).Contents (Elt F)) (x_main_v417 : (⟨S4096x4000, .f32⟩ : BufTy).Contents (Elt F)) :
    (⟨S4096, .f32⟩ : BufTy).Contents (Elt F) :=
  have x_main_cst_97 : (⟨S_, .f32⟩ : BufTy).Contents (Elt F) := (constant S_ .f32 0x00000000#32)
  have x_main_v418 : (⟨S4096x1, .f32⟩ : BufTy).Contents (Elt F) := ((broadcastInDim S4096x1 ![] bcast_S_S4096x1 : (⟨S_, .f32⟩ : BufTy).Contents (Elt F) → (⟨S4096x1, .f32⟩ : BufTy).Contents (Elt F))) x_main_cst_97
  have x_main_v419 : (⟨S4096x4001, .f32⟩ : BufTy).Contents (Elt F) := (((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F))) x_main_v417 x_main_v418
  have x_main_call15_c : (⟨S_, .i32⟩ : BufTy).Contents (Elt F) := (constantI S_ 32 0#32)
  have x_main_call15_v0 : (⟨S4096x122, .i32⟩ : BufTy).Contents (Elt F) := ((broadcastInDim S4096x122 ![] bcast_S_S4096x122)) x_main_call15_c
  have x_main_call15_v1 : (⟨S4096x122, .i1⟩ : BufTy).Contents (Elt F) := ((cmpi .slt)) x_main_v387 x_main_call15_v0
  have x_main_call15_c_0 : (⟨S_, .i32⟩ : BufTy).Contents (Elt F) := (constantI S_ 32 4001#32)
  have x_main_call15_v2 : (⟨S4096x122, .i32⟩ : BufTy).Contents (Elt F) := ((broadcastInDim S4096x122 ![] bcast_S_S4096x122)) x_main_call15_c_0
  have x_main_call15_v3 : (⟨S4096x122, .i32⟩ : BufTy).Contents (Elt F) := (addi) x_main_v387 x_main_call15_v2
  have x_main_call15_v4 : (⟨S4096x122, .i32⟩ : BufTy).Contents (Elt F) := (select) x_main_call15_v1 x_main_call15_v3 x_main_v387
  have x_main_call15_v5 : (⟨S4096x122x1, .i32⟩ : BufTy).Contents (Elt F) := shapeCast S4096x122x1 x_main_call15_v4 shapeCasts_S4096x122_S4096x122x1
  have x_main_call15_c_1 : (⟨S1, .i32⟩ : BufTy).Contents (Elt F) := (constantI S1 32 4000#32)
  have x_main_call15_c_2 : (⟨S_, .i32⟩ : BufTy).Contents (Elt F) := (constantI S_ 32 0#32)
  have x_main_call15_v6 : (⟨S4096x122x1, .i32⟩ : BufTy).Contents (Elt F) := ((broadcastInDim S4096x122x1 ![] bcast_S_S4096x122x1)) x_main_call15_c_2
  have x_main_call15_v7 : (⟨S4096x122x1, .i1⟩ : BufTy).Contents (Elt F) := ((cmpi .sge)) x_main_call15_v5 x_main_call15_v6
  have x_main_call15_v8 : (⟨S1x1x1, .i32⟩ : BufTy).Contents (Elt F) := ((broadcastInDim S1x1x1 ![2] bcast_S1_S1x1x1_2)) x_main_call15_c_1
  have x_main_call15_v9 : (⟨S4096x122x1, .i32⟩ : BufTy).Contents (Elt F) := ((broadcastInDim S4096x122x1 ![0, 1, 2] bcast_S1x1x1_S4096x122x1_0_1_2)) x_main_call15_v8
  have x_main_call15_v10 : (⟨S4096x122x1, .i1⟩ : BufTy).Contents (Elt F) := ((cmpi .sle)) x_main_call15_v5 x_main_call15_v9
  have x_main_call15_v11 : (⟨S4096x122x1, .i1⟩ : BufTy).Contents (Elt F) := (andi) x_main_call15_v7 x_main_call15_v10
  have x_main_call15_c_3 : (⟨S_, .i1⟩ : BufTy).Contents (Elt F) := (constantI S_ 1 1#1)
  have x_main_call15_v12 : (⟨S4096x122, .i1⟩ : BufTy).Contents (Elt F) := ((fun x v => Host.reduce IntOp.andi x v reducesTo_S4096x122x1_S4096x122_d2 h_S_)) x_main_call15_v11 x_main_call15_c_3
  have x_main_call15_v13 : (⟨S4096x122, .f32⟩ : BufTy).Contents (Elt F) := ((fun x i => Host.gather gather_S4096x4001_S4096x122x1_S4096x122_n_1_0_0_1_2_11 x i)) x_main_v419 x_main_call15_v5
  have x_main_call15_cst : (⟨S_, .f32⟩ : BufTy).Contents (Elt F) := (constant S_ .f32 0x7FC00000#32)
  have x_main_call15_v14 : (⟨S4096x122, .f32⟩ : BufTy).Contents (Elt F) := ((broadcastInDim S4096x122 ![] bcast_S_S4096x122)) x_main_call15_cst
  have x_main_v420 : (⟨S4096x122, .f32⟩ : BufTy).Contents (Elt F) := (select) x_main_call15_v12 x_main_call15_v13 x_main_call15_v14
  have x_main_v421 : (⟨S4096x61, .f32⟩ : BufTy).Contents (Elt F) := (((extractStridedSlice S4096x61 ![0, 0] · slices_S4096x122_S4096x61_0_0) : (⟨S4096x122, .f32⟩ : BufTy).Contents (Elt F) → (⟨S4096x61, .f32⟩ : BufTy).Contents (Elt F))) x_main_v420
  have x_main_cst_98 : (⟨S_, .f32⟩ : BufTy).Contents (Elt F) := (constant S_ .f32 0x40000000#32)
  have x_main_v423 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_98
  have x_main_v424 : (⟨S4096x61, .f32⟩ : BufTy).Contents (Elt F) := ((addf : (⟨S4096x61, .f32⟩ : BufTy).Contents (Elt F) → (⟨S4096x61, .f32⟩ : BufTy).Contents (Elt F) → (⟨S4096x61, .f32⟩ : BufTy).Contents (Elt F))) x_main_v421 x_main_v423
  have x_main_v425 : (⟨S4096x61, .f32⟩ : BufTy).Contents (Elt F) := ((Host.negf : (⟨S4096x61, .f32⟩ : BufTy).Contents (Elt F) → (⟨S4096x61, .f32⟩ : BufTy).Contents (Elt F))) x_main_v424
  have x_main_v426 : (⟨S4096x61, .f32⟩ : BufTy).Contents (Elt F) := ((Host.exp : (⟨S4096x61, .f32⟩ : BufTy).Contents (Elt F) → (⟨S4096x61, .f32⟩ : BufTy).Contents (Elt F))) x_main_v425
  have x_main_cst_99 : (⟨S_, .f32⟩ : BufTy).Contents (Elt F) := (constant S_ .f32 0x3F800000#32)
  have x_main_v427 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_99
  have x_main_v428 : (⟨S4096x61, .f32⟩ : BufTy).Contents (Elt F) := ((addf : (⟨S4096x61, .f32⟩ : BufTy).Contents (Elt F) → (⟨S4096x61, .f32⟩ : BufTy).Contents (Elt F) → (⟨S4096x61, .f32⟩ : BufTy).Contents (Elt F))) x_main_v427 x_main_v426
  have x_main_cst_100 : (⟨S_, .f32⟩ : BufTy).Contents (Elt F) := (constant S_ .f32 0x3F800000#32)
  have x_main_v429 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_100
  have x_main_v430 : (⟨S4096x61, .f32⟩ : BufTy).Contents (Elt F) := ((Host.divf : (⟨S4096x61, .f32⟩ : BufTy).Contents (Elt F) → (⟨S4096x61, .f32⟩ : BufTy).Contents (Elt F) → (⟨S4096x61, .f32⟩ : BufTy).Contents (Elt F))) x_main_v429 x_main_v428
  have x_main_v433 : (⟨S4096x61, .f32⟩ : BufTy).Contents (Elt F) := ((Host.log : (⟨S4096x61, .f32⟩ : BufTy).Contents (Elt F) → (⟨S4096x61, .f32⟩ : BufTy).Contents (Elt F))) x_main_v430
  have x_main_cst_101 : (⟨S_, .f32⟩ : BufTy).Contents (Elt F) := (constant S_ .f32 0x00000000#32)
  have x_main_v434 : (⟨S4096, .f32⟩ : BufTy).Contents (Elt F) := (((fun x v => Host.reduceAdd x v reducesTo_S4096x61_S4096_d1 h_S_) : (⟨S4096x61, .f32⟩ : BufTy).Contents (Elt F) → (⟨S_, .f32⟩ : BufTy).Contents (Elt F) → (⟨S4096, .f32⟩ : BufTy).Contents (Elt F))) x_main_v433 x_main_cst_101
  have x_main_v435 : (⟨S4096, .f32⟩ : BufTy).Contents (Elt F) := ((subf : (⟨S4096, .f32⟩ : BufTy).Contents (Elt F) → (⟨S4096, .f32⟩ : BufTy).Contents (Elt F) → (⟨S4096, .f32⟩ : BufTy).Contents (Elt F))) x_main_v381 x_main_v434
  x_main_v435

-- the gather, the scatter and the reductions are never opened: both sides apply them to equal arguments
attribute [local irreducible] Host.scatterAdd Host.reduce Host.gather Host.reduceAdd concatenate extractStridedSlice broadcastInDim iotaInDim in
set_option maxHeartbeats 8000000 in
set_option maxRecDepth 100000 in
/-- The stretch's fold at each of those buffers. -/
theorem reads (V : Valuation τ sig (Elt F)) :
    after hostOps8_4 (after hostOps8_3 (after hostOps8_2 (after hostOps8_1 (after hostOps8 V)))) (Proc.devRef .tc main_v468) = f_dense (V (Proc.devRef .tc main_v3)) (V (Proc.devRef .tc main_v324)) (V (Proc.devRef .tc main_v387)) (V (Proc.devRef .tc main_v417))
    ∧ after hostOps8_4 (after hostOps8_3 (after hostOps8_2 (after hostOps8_1 (after hostOps8 V)))) (Proc.devRef .tc main_v443) = f_w1 (V (Proc.devRef .tc main_arg2))
    ∧ after hostOps8_4 (after hostOps8_3 (after hostOps8_2 (after hostOps8_1 (after hostOps8 V)))) (Proc.devRef .tc main_v445) = f_b1 (V (Proc.devRef .tc main_arg3))
    ∧ after hostOps8_4 (after hostOps8_3 (after hostOps8_2 (after hostOps8_1 (after hostOps8 V)))) (Proc.devRef .tc main_v469) = f_b1r (V (Proc.devRef .tc main_arg3))
    ∧ after hostOps8_4 (after hostOps8_3 (after hostOps8_2 (after hostOps8_1 (after hostOps8 V)))) (Proc.devRef .tc main_v447) = f_w2 (V (Proc.devRef .tc main_arg4))
    ∧ after hostOps8_4 (after hostOps8_3 (after hostOps8_2 (after hostOps8_1 (after hostOps8 V)))) (Proc.devRef .tc main_v449) = f_b2 (V (Proc.devRef .tc main_arg5))
    ∧ after hostOps8_4 (after hostOps8_3 (after hostOps8_2 (after hostOps8_1 (after hostOps8 V)))) (Proc.devRef .tc main_v470) = f_b2r (V (Proc.devRef .tc main_arg5))
    ∧ after hostOps8_4 (after hostOps8_3 (after hostOps8_2 (after hostOps8_1 (after hostOps8 V)))) (Proc.devRef .tc main_v441) = f_oidx (V (Proc.devRef .tc main_v2))
    ∧ after hostOps8_4 (after hostOps8_3 (after hostOps8_2 (after hostOps8_1 (after hostOps8 V)))) (Proc.devRef .tc main_v432) = f_xnew (V (Proc.devRef .tc main_v324)) (V (Proc.devRef .tc main_v387)) (V (Proc.devRef .tc main_v417))
    ∧ after hostOps8_4 (after hostOps8_3 (after hostOps8_2 (after hostOps8_1 (after hostOps8 V)))) (Proc.devRef .tc main_v435) = f_qnew (V (Proc.devRef .tc main_v381)) (V (Proc.devRef .tc main_v387)) (V (Proc.devRef .tc main_v417))
    ∧ after hostOps8_4 (after hostOps8_3 (after hostOps8_2 (after hostOps8_1 (after hostOps8 V)))) (Proc.devRef .tc main_v378) = V (Proc.devRef .tc main_v378)
    ∧ after hostOps8_4 (after hostOps8_3 (after hostOps8_2 (after hostOps8_1 (after hostOps8 V)))) (Proc.devRef .tc main_v2) = V (Proc.devRef .tc main_v2)
    ∧ after hostOps8_4 (after hostOps8_3 (after hostOps8_2 (after hostOps8_1 (after hostOps8 V)))) (Proc.devRef .tc main_v3) = V (Proc.devRef .tc main_v3)
    ∧ after hostOps8_4 (after hostOps8_3 (after hostOps8_2 (after hostOps8_1 (after hostOps8 V)))) (Proc.devRef .tc main_arg2) = V (Proc.devRef .tc main_arg2)
    ∧ after hostOps8_4 (after hostOps8_3 (after hostOps8_2 (after hostOps8_1 (after hostOps8 V)))) (Proc.devRef .tc main_arg3) = V (Proc.devRef .tc main_arg3)
    ∧ after hostOps8_4 (after hostOps8_3 (after hostOps8_2 (after hostOps8_1 (after hostOps8 V)))) (Proc.devRef .tc main_arg4) = V (Proc.devRef .tc main_arg4)
    ∧ after hostOps8_4 (after hostOps8_3 (after hostOps8_2 (after hostOps8_1 (after hostOps8 V)))) (Proc.devRef .tc main_arg5) = V (Proc.devRef .tc main_arg5) := by
  simp only [hostOps8, hostOps8_1, hostOps8_2, hostOps8_3, hostOps8_4]
  after_results_simp
  refine ⟨?_, ?_, ?_, ?_, ?_, ?_, ?_, ?_, ?_, ?_, ?_, ?_, ?_, ?_, ?_, ?_, ?_⟩ <;> first | rfl | trivial

end Cert.KernelIdeal.Layer8

end
-- ==== Proof.LayerR8a.lean ====
/- The reference's operations of the same stage (kernel region 7 and kernel region 8 on the kernel side), read as the SAME functions
  as the kernel program's: the five buffers the layer's perceptron is computed from.
-/
import proofs.«140670_j11424613007642_1_alg».proof.Proof.RefRun
import proofs.«140670_j11424613007642_1_alg».proof.Proof.LayerK8
import proofs.«140670_j11424613007642_1_alg».proof.Proof.LibTRef
import Idealize.ShloMosaic.PureOps.Ideal

set_option maxRecDepth 16384

noncomputable section

namespace Cert.ReferenceIdeal.LayerR8

open Cert.ReferenceIdeal Cert.ReferenceIdeal.Gen Cert.ReferenceIdeal.RefRun Idealize.ShloMosaic Idealize.ShloMosaic.StableHlo Idealize.ShloMosaic.TcCoe

-- the gather, the scatter and the reductions are never opened: both sides apply them to equal arguments
attribute [local irreducible] Host.scatterAdd Host.reduce Host.gather Host.reduceAdd concatenate extractStridedSlice broadcastInDim iotaInDim in
set_option maxHeartbeats 16000000 in
set_option maxRecDepth 100000 in
/-- The five buffers the layer's perceptron is computed from. -/
theorem readsIn (V' : Valuation τ sig (Elt Ideal)) :
    after rseg8 V' (Proc.devRef .tc main_v516) = Cert.KernelIdeal.Layer8.f_dense (V' (Proc.devRef .tc main_v3)) (V' (Proc.devRef .tc main_v360)) (V' (Proc.devRef .tc main_v429)) (V' (Proc.devRef .tc main_v465))
    ∧ after rseg8 V' (Proc.devRef .tc main_v491) = Cert.KernelIdeal.Layer8.f_w1 (V' (Proc.devRef .tc main_arg2))
    ∧ after rseg8 V' (Proc.devRef .tc main_v493) = Cert.KernelIdeal.Layer8.f_b1 (V' (Proc.devRef .tc main_arg3))
    ∧ after rseg8 V' (Proc.devRef .tc main_v495) = Cert.KernelIdeal.Layer8.f_w2 (V' (Proc.devRef .tc main_arg4))
    ∧ after rseg8 V' (Proc.devRef .tc main_v497) = Cert.KernelIdeal.Layer8.f_b2 (V' (Proc.devRef .tc main_arg5)) := by
  simp only [after_append_line, rseg8, rseg8_a, rseg8_b, rseg8_c, rseg8_d]
  after_results_simp
  -- contents stored through a typed reference and read back through it are unchanged
  try simp only [Cert.LibTRef.ofBuf_toBuf]
  refine ⟨?_, ?_, ?_, ?_, ?_⟩ <;> first | rfl | trivial

end Cert.ReferenceIdeal.LayerR8

end
-- ==== Proof.LayerR8b.lean ====
/- The reference's operations of the same stage (kernel region 7 and kernel region 8 on the kernel side), read as the SAME functions
  as the kernel program's: the other buffers the next stage needs; a buffer the segment does not write keeps its contents.
-/
import proofs.«140670_j11424613007642_1_alg».proof.Proof.RefRun
import proofs.«140670_j11424613007642_1_alg».proof.Proof.LayerK8
import proofs.«140670_j11424613007642_1_alg».proof.Proof.LibTRef
import Idealize.ShloMosaic.PureOps.Ideal

set_option maxRecDepth 16384

noncomputable section

namespace Cert.ReferenceIdeal.LayerR8

open Cert.ReferenceIdeal Cert.ReferenceIdeal.Gen Cert.ReferenceIdeal.RefRun Idealize.ShloMosaic Idealize.ShloMosaic.StableHlo Idealize.ShloMosaic.TcCoe

-- the gather, the scatter and the reductions are never opened: both sides apply them to equal arguments
attribute [local irreducible] Host.scatterAdd Host.reduce Host.gather Host.reduceAdd concatenate extractStridedSlice broadcastInDim iotaInDim in
set_option maxHeartbeats 16000000 in
set_option maxRecDepth 100000 in
/-- The other buffers the next stage needs. -/
theorem reads (V' : Valuation τ sig (Elt Ideal)) :
    after rseg8 V' (Proc.devRef .tc main_v489) = Cert.KernelIdeal.Layer8.f_oidx (V' (Proc.devRef .tc main_v2))
    ∧ after rseg8 V' (Proc.devRef .tc main_v480) = Cert.KernelIdeal.Layer8.f_xnew (V' (Proc.devRef .tc main_v360)) (V' (Proc.devRef .tc main_v429)) (V' (Proc.devRef .tc main_v465))
    ∧ after rseg8 V' (Proc.devRef .tc main_v483) = Cert.KernelIdeal.Layer8.f_qnew (V' (Proc.devRef .tc main_v423)) (V' (Proc.devRef .tc main_v429)) (V' (Proc.devRef .tc main_v465))
    ∧ after rseg8 V' (Proc.devRef .tc main_v420) = V' (Proc.devRef .tc main_v420)
    ∧ after rseg8 V' (Proc.devRef .tc main_v2) = V' (Proc.devRef .tc main_v2)
    ∧ after rseg8 V' (Proc.devRef .tc main_v3) = V' (Proc.devRef .tc main_v3)
    ∧ after rseg8 V' (Proc.devRef .tc main_arg2) = V' (Proc.devRef .tc main_arg2)
    ∧ after rseg8 V' (Proc.devRef .tc main_arg3) = V' (Proc.devRef .tc main_arg3)
    ∧ after rseg8 V' (Proc.devRef .tc main_arg4) = V' (Proc.devRef .tc main_arg4)
    ∧ after rseg8 V' (Proc.devRef .tc main_arg5) = V' (Proc.devRef .tc main_arg5) := by
  simp only [after_append_line, rseg8, rseg8_a, rseg8_b, rseg8_c, rseg8_d]
  after_results_simp
  -- contents stored through a typed reference and read back through it are unchanged
  try simp only [Cert.LibTRef.ofBuf_toBuf]
  refine ⟨?_, ?_, ?_, ?_, ?_, ?_, ?_, ?_, ?_, ?_⟩ <;> first | rfl | trivial

end Cert.ReferenceIdeal.LayerR8

end
-- ==== Proof.LayerR8c.lean ====
/- The reference's operations of the same stage (kernel region 7 and kernel region 8 on the kernel side), read as the SAME functions
  as the kernel program's: the layer's perceptron output is the host perceptron of the five buffers it is computed from.
-/
import proofs.«140670_j11424613007642_1_alg».proof.Proof.RefRun
import proofs.«140670_j11424613007642_1_alg».proof.Proof.MlpHost
import Idealize.ShloMosaic.PureOps.Ideal

set_option maxRecDepth 16384

noncomputable section

namespace Cert.ReferenceIdeal.LayerR8

open Cert.ReferenceIdeal Cert.ReferenceIdeal.Gen Cert.ReferenceIdeal.RefRun Idealize.ShloMosaic Idealize.ShloMosaic.StableHlo Idealize.ShloMosaic.TcCoe

-- the gather, the scatter and the reductions are never opened: both sides apply them to equal arguments
attribute [local irreducible] Host.scatterAdd Host.reduce Host.gather Host.reduceAdd concatenate extractStridedSlice broadcastInDim iotaInDim in
set_option maxHeartbeats 16000000 in
set_option maxRecDepth 100000 in
/-- The layer's perceptron output is the host perceptron of those five buffers. -/
theorem readsOut (V' : Valuation τ sig (Elt Ideal)) :
    after rseg8 V' (Proc.devRef .tc main_v525) = Cert.ReferenceIdeal.MlpHost.hostMlp (after rseg8 V' (Proc.devRef .tc main_v516)) (after rseg8 V' (Proc.devRef .tc main_v491)) (after rseg8 V' (Proc.devRef .tc main_v493)) (after rseg8 V' (Proc.devRef .tc main_v495)) (after rseg8 V' (Proc.devRef .tc main_v497)) := by
  simp only [after_append_line, rseg8, rseg8_a, rseg8_b, rseg8_c, rseg8_d]
  after_results_simp
  first | rfl | trivial

end Cert.ReferenceIdeal.LayerR8

end
-- ==== Proof.LayerR8.lean ====
/- The reference's side of this stage, collected: the three statements live in one module each.
-/
import proofs.«140670_j11424613007642_1_alg».proof.Proof.LayerR8a
import proofs.«140670_j11424613007642_1_alg».proof.Proof.LayerR8b
import proofs.«140670_j11424613007642_1_alg».proof.Proof.LayerR8c
-- ==== Proof.Step8.lean ====
/-
  Layer 8. If after layer 7's perceptron output the two programs hold the same eleven values, they do so again after
  layer 8's. On the kernel side the host operations up to region 8 read as functions of those values, the region leaves
  the layer function of its five operand arrays, and nothing else the next layer needs is touched; on the reference side
  the same operations read as the same functions, and its host perceptron is the layer function.
-/
import proofs.«140670_j11424613007642_1_alg».proof.Proof.KernelIdealFrameP
import proofs.«140670_j11424613007642_1_alg».proof.Proof.BridgeDefs
import proofs.«140670_j11424613007642_1_alg».proof.Proof.Congr
import proofs.«140670_j11424613007642_1_alg».proof.Proof.MlpBridge
import proofs.«140670_j11424613007642_1_alg».proof.Proof.Region8
import proofs.«140670_j11424613007642_1_alg».proof.Proof.LayerK8
import proofs.«140670_j11424613007642_1_alg».proof.Proof.LayerR8

set_option maxRecDepth 16384

noncomputable section

namespace Cert.Bridge

open Cert.KernelIdeal Cert.KernelIdeal.Gen Cert.KernelIdeal.GenP Cert.KernelIdeal.MlpArray
open Idealize.ShloMosaic Idealize.ShloMosaic.StableHlo Idealize.ShloMosaic.TcCoe Idealize.SL.Sem

set_option maxHeartbeats 4000000 in
theorem step8 (m : (ℓ : Loc nD τ sig) → Buf (Elt Ideal) ℓ) (ρ : Dev nD → PrngReg) (c : Dev nD) (V' : RV)
    (h : Inv7 (W46 m ρ c) V') :
    Inv8 (W52 m ρ c) (after Cert.ReferenceIdeal.RefRun.rseg8 V') := by
  obtain ⟨out, oidx, a, b, q, ia, ib, w1s, b1s, w2s, b2s, ⟨kout, rout⟩, ⟨koidx, roidx⟩, ⟨ka, ra⟩, ⟨kb, rb⟩, ⟨kq, rq⟩, ⟨kia, ria⟩, ⟨kib, rib⟩,
    ⟨kw1s, rw1s⟩, ⟨kb1s, rb1s⟩, ⟨kw2s, rw2s⟩, ⟨kb2s, rb2s⟩⟩ := h
  obtain ⟨Kdense, Kw1, Kb1, Kb1r, Kw2, Kb2, Kb2r, Koidx, Kxnew, Kqnew, Kkeepb, Kia, Kib, Kw1s, Kb1s, Kw2s, Kb2s⟩ :=
    Cert.KernelIdeal.Layer8.reads (F := Ideal) (W46 m ρ c)
  obtain ⟨Rdense, Rw1, Rb1, Rw2, Rb2⟩ := Cert.ReferenceIdeal.LayerR8.readsIn V'
  obtain ⟨Roidx, Rxnew, Rqnew, Rkeepb, Ria, Rib, Rw1s, Rb1s, Rw2s, Rb2s⟩ := Cert.ReferenceIdeal.LayerR8.reads V'
  have Rout := Cert.ReferenceIdeal.LayerR8.readsOut V'
  -- the kernel program's reads, at the eleven values
  have Kdense' := Kdense.trans (show _ = Cert.KernelIdeal.Layer8.f_dense ib a oidx out by simp only [kib, ka, koidx, kout])
  have Kw1' := Kw1.trans (show _ = Cert.KernelIdeal.Layer8.f_w1 w1s by simp only [kw1s])
  have Kb1r' := Kb1r.trans (show _ = Cert.KernelIdeal.Layer8.f_b1r b1s by simp only [kb1s])
  have Kw2' := Kw2.trans (show _ = Cert.KernelIdeal.Layer8.f_w2 w2s by simp only [kw2s])
  have Kb2r' := Kb2r.trans (show _ = Cert.KernelIdeal.Layer8.f_b2r b2s by simp only [kb2s])
  have Koidx' := Koidx.trans (show _ = Cert.KernelIdeal.Layer8.f_oidx ia by simp only [kia])
  have Kxnew' := Kxnew.trans (show _ = Cert.KernelIdeal.Layer8.f_xnew a oidx out by simp only [ka, koidx, kout])
  have Kqnew' := Kqnew.trans (show _ = Cert.KernelIdeal.Layer8.f_qnew q oidx out by simp only [kq, koidx, kout])
  -- the reference's reads, at the same values
  have Rdense' := Rdense.trans (show _ = Cert.KernelIdeal.Layer8.f_dense ib a oidx out by simp only [rib, ra, roidx, rout])
  have Rw1' := Rw1.trans (show _ = Cert.KernelIdeal.Layer8.f_w1 w1s by simp only [rw1s])
  have Rb1' := Rb1.trans (show _ = Cert.KernelIdeal.Layer8.f_b1 b1s by simp only [rb1s])
  have Rw2' := Rw2.trans (show _ = Cert.KernelIdeal.Layer8.f_w2 w2s by simp only [rw2s])
  have Rb2' := Rb2.trans (show _ = Cert.KernelIdeal.Layer8.f_b2 b2s by simp only [rb2s])
  have Roidx' := Roidx.trans (show _ = Cert.KernelIdeal.Layer8.f_oidx ia by simp only [ria])
  have Rxnew' := Rxnew.trans (show _ = Cert.KernelIdeal.Layer8.f_xnew a oidx out by simp only [ra, roidx, rout])
  have Rqnew' := Rqnew.trans (show _ = Cert.KernelIdeal.Layer8.f_qnew q oidx out by simp only [rq, roidx, rout])
  refine ⟨G (Cert.KernelIdeal.Layer8.f_dense ib a oidx out) (Cert.KernelIdeal.Layer8.f_w1 w1s) (Cert.KernelIdeal.Layer8.f_b1r b1s)
      (Cert.KernelIdeal.Layer8.f_w2 w2s) (Cert.KernelIdeal.Layer8.f_b2r b2s),
    Cert.KernelIdeal.Layer8.f_oidx ia, b, Cert.KernelIdeal.Layer8.f_xnew a oidx out, Cert.KernelIdeal.Layer8.f_qnew q oidx out,
    ia, ib, w1s, b1s, w2s, b2s, ⟨?_, ?_⟩,
    ⟨(W52_of_ne m ρ c Cert.KernelIdeal.main_v441 (by decide)).trans Koidx', Roidx'⟩,
    ⟨(W52_of_ne m ρ c Cert.KernelIdeal.main_v378 (by decide)).trans (Kkeepb.trans kb), Rkeepb.trans rb⟩,
    ⟨(W52_of_ne m ρ c Cert.KernelIdeal.main_v432 (by decide)).trans Kxnew', Rxnew'⟩,
    ⟨(W52_of_ne m ρ c Cert.KernelIdeal.main_v435 (by decide)).trans Kqnew', Rqnew'⟩,
    ⟨(W52_of_ne m ρ c Cert.KernelIdeal.main_v2 (by decide)).trans (Kia.trans kia), Ria.trans ria⟩, ⟨(W52_of_ne m ρ c Cert.KernelIdeal.main_v3 (by decide)).trans (Kib.trans kib), Rib.trans rib⟩,
    ⟨(W52_of_ne m ρ c Cert.KernelIdeal.main_arg2 (by decide)).trans (Kw1s.trans kw1s), Rw1s.trans rw1s⟩, ⟨(W52_of_ne m ρ c Cert.KernelIdeal.main_arg3 (by decide)).trans (Kb1s.trans kb1s), Rb1s.trans rb1s⟩, ⟨(W52_of_ne m ρ c Cert.KernelIdeal.main_arg4 (by decide)).trans (Kw2s.trans kw2s), Rw2s.trans rw2s⟩, ⟨(W52_of_ne m ρ c Cert.KernelIdeal.main_arg5 (by decide)).trans (Kb2s.trans kb2s), Rb2s.trans rb2s⟩⟩
  · -- the region's output array is the layer function of its operand arrays as it finds them
    exact (W52_arr m ρ c 5).trans ((Cert.KernelIdeal.Region8.regionOut (V51 m ρ) c).trans (G_congr Kdense' Kw1' Kb1r' Kw2' Kb2r'))
  · -- the reference's host perceptron of the same five arrays is the same function
    exact Rout.trans ((hostMlp_congr Rdense' Rw1' Rb1' Rw2' Rb2').trans (Cert.MlpBridge.host_eq_G _ _ _ _ _))

end Cert.Bridge

end
-- ==== Proof.Region9.lean ====
/-
  python3 scratch/gen_regions.py 9

  Kernel region 9 (one layer's perceptron): whatever the TensorCore's buffers hold when the region is entered,
  the region leaves its output array holding the layer function of its five operand arrays. The grid has eight
  points; point t is given rows 512·t … 512·t+511 of the input and all of both weight matrices and biases, and
  writes rows 512·t … 512·t+511 of the output. Entry (r, j) of the output depends on row r of the input alone, so
  each written block is the restriction of ONE whole-array function, and the eight blocks tile the output.
-/
import proofs.«140670_j11424613007642_1_alg».proof.Proof.KernelIdealFrameP
import proofs.«140670_j11424613007642_1_alg».proof.Proof.MlpKernel
import proofs.«140670_j11424613007642_1_alg».proof.Proof.MlpArray
import Idealize.ShloMosaic.Lib.Pipeline.Value
import Idealize.ShloMosaic.Lib.ValueIdx

set_option maxRecDepth 16384

noncomputable section

namespace Cert.KernelIdeal.Region9

open Cert.KernelIdeal Cert.KernelIdeal.Gen Cert.KernelIdeal.GenP Cert.KernelIdeal.MlpArray
open Idealize.ShloMosaic Idealize.ShloMosaic.TcCoe Idealize.ShloMosaic.ValueIdx Idealize.SL.Sem
open Idealize.ShloMosaic.Pipeline (Dat Cfg Window)

/-- The body reads and writes its staging buffers whole: at offsets zero. -/
theorem zero_offsets : (![0, 0] : Fin 2 → Nat) = fun _ => 0 := funext fun a => by fin_cases a <;> rfl

/-- The printed index maps over the grid: the input's and the output's row block is the grid point, every other
    block index is zero. -/
theorem block_indices : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

/-- The row function depends on its five arguments through their values alone. -/
theorem mlpRow_congr {d d' : Fin 2000 → EReal} {w1 w1' : Fin 2000 → Fin 64 → EReal} {b1 b1' : Fin 64 → EReal}
    {w2 w2' : Fin 64 → Fin 4000 → EReal} {b2 b2' : Fin 4000 → EReal}
    (hd : ∀ l, d l = d' l) (hw1 : ∀ l k, w1 l k = w1' l k) (hb1 : ∀ k, b1 k = b1' k)
    (hw2 : ∀ k j, w2 k j = w2' k j) (hb2 : ∀ j, b2 j = b2' j) (j : Fin 4000) :
    Cert.MlpSpec.mlpRow d w1 b1 w2 b2 j = Cert.MlpSpec.mlpRow d' w1' b1' w2' b2' j := by
  have e1 : d = d' := funext hd
  have e2 : w1 = w1' := funext fun l => funext (hw1 l)
  have e3 : b1 = b1' := funext hb1
  have e4 : w2 = w2' := funext fun k => funext (hw2 k)
  have e5 : b2 = b2' := funext hb2
  rw [e1, e2, e3, e4, e5]

/-- The payload of the operand arrays' blocks at point `t` is block `t` of the layer function of the arrays:
    entry `(p, q)` of the block is entry `(512·t + p, q)` of the array; the input's block holds rows
    `512·t + p`, and the weights' and biases' blocks are the whole arrays. -/
theorem payload_block (A0 : S4096x2000.Idx → EReal) (A1 : S2000x64.Idx → EReal) (A2 : S1x64.Idx → EReal)
    (A3 : S64x4000.Idx → EReal) (A4 : S1x4000.Idx → EReal) (t : Fin cfg9.N) :
    k9_pay1 (F := Ideal) (((cfg9.win 0).blk t).view.read (Elt Ideal) A0) (((cfg9.win 1).blk t).view.read (Elt Ideal) A1)
        (((cfg9.win 2).blk t).view.read (Elt Ideal) A2) (((cfg9.win 3).blk t).view.read (Elt Ideal) A3)
        (((cfg9.win 4).blk t).view.read (Elt Ideal) A4)
      = ((cfg9.win 5).blk t).view.read (Elt Ideal) (G A0 A1 A2 A3 A4) := by
  obtain ⟨e00, e01, e10, e11, e20, e21, e30, e31, e40, e41, e50, e51⟩ := block_indices t
  have hN : cfg9.N = 8 := rfl
  have ht : t.val < 8 := hN ▸ t.isLt
  rw [Cert.KernelIdeal.MlpKernel.pay9_eq]
  funext j
  obtain ⟨p, q, rfl⟩ : ∃ (p : Fin 512) (q : Fin 4000), j = ix2 p q := ⟨j 0, j 1, eq_ix2 j⟩
  refine (Cert.KernelIdeal.MlpKernel.pay_apply (((cfg9.win 0).blk t).view.read (Elt Ideal) A0)
    (((cfg9.win 1).blk t).view.read (Elt Ideal) A1) (((cfg9.win 2).blk t).view.read (Elt Ideal) A2)
    (((cfg9.win 3).blk t).view.read (Elt Ideal) A3) (((cfg9.win 4).blk t).view.read (Elt Ideal) A4) p q).trans ?_
  have h5 : ((cfg9.win 5).blk t).view.emb (ix2 p q)
      = ix2 (⟨t.val * 512 + p.val, by have := p.isLt; omega⟩ : Fin 4096) q := by
    funext a; apply Fin.ext
    match a with
    | ⟨0, _⟩ => show win9_5.index t (0 : Fin 2) * 512 + 1 * p.val = t.val * 512 + p.val; omega
    | ⟨1, _⟩ => show win9_5.index t (1 : Fin 2) * 4000 + 1 * q.val = q.val; omega
  show _ = G A0 A1 A2 A3 A4 (((cfg9.win 5).blk t).view.emb (ix2 p q))
  rw [h5, G_apply]
  refine mlpRow_congr (fun l => ?_) (fun l k => ?_) (fun k => ?_) (fun k j' => ?_) (fun j' => ?_) q
  · show A0 (((cfg9.win 0).blk t).view.emb (ix2 p l)) = A0 (ix2 (⟨t.val * 512 + p.val, by have := p.isLt; omega⟩ : Fin 4096) l)
    refine congrArg A0 ?_
    funext a; apply Fin.ext
    match a with
    | ⟨0, _⟩ => show win9_0.index t (0 : Fin 2) * 512 + 1 * p.val = t.val * 512 + p.val; omega
    | ⟨1, _⟩ => show win9_0.index t (1 : Fin 2) * 2000 + 1 * l.val = l.val; omega
  · show A1 (((cfg9.win 1).blk t).view.emb (ix2 l k)) = A1 (ix2 l k)
    refine congrArg A1 ?_
    funext a; apply Fin.ext
    match a with
    | ⟨0, _⟩ => show win9_1.index t (0 : Fin 2) * 2000 + 1 * l.val = l.val; omega
    | ⟨1, _⟩ => show win9_1.index t (1 : Fin 2) * 64 + 1 * k.val = k.val; omega
  · show A2 (((cfg9.win 2).blk t).view.emb (ix2 (0 : Fin 1) k)) = A2 (ix2 (0 : Fin 1) k)
    refine congrArg A2 ?_
    funext a; apply Fin.ext
    match a with
    | ⟨0, _⟩ => show win9_2.index t (0 : Fin 2) * 1 + 1 * 0 = 0; omega
    | ⟨1, _⟩ => show win9_2.index t (1 : Fin 2) * 64 + 1 * k.val = k.val; omega
  · show A3 (((cfg9.win 3).blk t).view.emb (ix2 k j')) = A3 (ix2 k j')
    refine congrArg A3 ?_
    funext a; apply Fin.ext
    match a with
    | ⟨0, _⟩ => show win9_3.index t (0 : Fin 2) * 64 + 1 * k.val = k.val; omega
    | ⟨1, _⟩ => show win9_3.index t (1 : Fin 2) * 4000 + 1 * j'.val = j'.val; omega
  · show A4 (((cfg9.win 4).blk t).view.emb (ix2 (0 : Fin 1) j')) = A4 (ix2 (0 : Fin 1) j')
    refine congrArg A4 ?_
    funext a; apply Fin.ext
    match a with
    | ⟨0, _⟩ => show win9_4.index t (0 : Fin 2) * 1 + 1 * 0 = 0; omega
    | ⟨1, _⟩ => show win9_4.index t (1 : Fin 2) * 4000 + 1 * j'.val = j'.val; omega

variable (V : (c : Dev nD) → (b : Ref sig .tc) → Buf (Elt Ideal) ((c : Thread nD τ).loc b))

/-- What point `t` writes back is block `t` of the layer function of the operand arrays as the region finds them. -/
theorem written_block (c : Dev nD) (t : Fin cfg9.N) :
    (dat9 V c).flushed 5 t = ((cfg9.win 5).blk t).view.read (Elt Ideal)
      (G (V c (Pipeline.arrRef spec9 0)) (V c (Pipeline.arrRef spec9 1)) (V c (Pipeline.arrRef spec9 2))
        (V c (Pipeline.arrRef spec9 3)) (V c (Pipeline.arrRef spec9 4))) := by
  show (cfg9.win 5).cut (grid9.coords t) ((dat9 V c).after 5 t) = _
  rw [after9_5]
  unfold out9_5
  rw [View.canon_unit_zero zero_offsets]
  simp only [View.ld_unit_zero (S := S512x2000) zero_offsets, View.ld_unit_zero (S := S2000x64) zero_offsets,
    View.ld_unit_zero (S := S1x64) zero_offsets, View.ld_unit_zero (S := S64x4000) zero_offsets,
    View.ld_unit_zero (S := S1x4000) zero_offsets]
  exact payload_block (V c (Pipeline.arrRef spec9 0)) (V c (Pipeline.arrRef spec9 1)) (V c (Pipeline.arrRef spec9 2))
    (V c (Pipeline.arrRef spec9 3)) (V c (Pipeline.arrRef spec9 4)) t

/-- An index of the output array is in point `t`'s block iff each coordinate is in the block's range on its axis. -/
theorem mem_block (t : Fin cfg9.N) (i : S4096x4000.Idx) :
    i ∈ ((cfg9.win 5).blk t).view.set ↔ ∀ a : Fin 2, win9_5.index t a * S512x4000.size a ≤ (i a).val
      ∧ (i a).val < win9_5.index t a * S512x4000.size a + S512x4000.size a := by
  show i ∈ ((View.whole main_v525).slice (win9_5.rect t)).set ↔ _
  rw [View.set_slice_whole, Rect.mem_set_unit]
  exact Iff.rfl

/-- Every entry of the output array is in some point's block: row `r` is written by point `r / 512`. -/
theorem cover (i : S4096x4000.Idx) :
    ∃ t : Fin cfg9.N, (cfg9.win 5).flush t = true ∧ i ∈ ((cfg9.win 5).blk t).view.set := by
  have hi0 : (i 0).val < 4096 := (i 0).isLt
  have hi1 : (i 1).val < 4000 := (i 1).isLt
  obtain ⟨t, htv⟩ : ∃ t : Fin cfg9.N, t.val = (i 0).val / 512 :=
    ⟨⟨(i 0).val / 512, by show (i 0).val / 512 < 8; omega⟩, rfl⟩
  obtain ⟨-, -, -, -, -, -, -, -, -, -, e50, e51⟩ := block_indices t
  refine ⟨t, flush9_5 t, ?_⟩
  rw [mem_block]
  intro a
  match a with
  | ⟨0, _⟩ =>
    show win9_5.index t (0 : Fin 2) * 512 ≤ (i 0).val ∧ (i 0).val < win9_5.index t (0 : Fin 2) * 512 + 512
    omega
  | ⟨1, _⟩ =>
    show win9_5.index t (1 : Fin 2) * 4000 ≤ (i 1).val ∧ (i 1).val < win9_5.index t (1 : Fin 2) * 4000 + 4000
    omega

/-- The region's output array after its eight write-backs: the layer function of the five operand arrays as the
    region finds them. -/
theorem regionOut (c : Dev nD) :
    (dat9 V c).arrAt 5 cfg9.N = Cert.KernelIdeal.MlpArray.G (V c (Pipeline.arrRef spec9 0))
      (V c (Pipeline.arrRef spec9 1)) (V c (Pipeline.arrRef spec9 2)) (V c (Pipeline.arrRef spec9 3))
      (V c (Pipeline.arrRef spec9 4)) :=
  (dat9 V c).arrAt_eq_of_cover 5
    (G (V c (Pipeline.arrRef spec9 0)) (V c (Pipeline.arrRef spec9 1)) (V c (Pipeline.arrRef spec9 2))
      (V c (Pipeline.arrRef spec9 3)) (V c (Pipeline.arrRef spec9 4)))
    (fun t _ => written_block V c t) cover

end Cert.KernelIdeal.Region9

end
-- ==== Proof.LayerK9.lean ====
/- The host operations the kernel program runs between kernel region 8 and kernel region 9, read as functions. Each buffer the
  next stage needs is written out as the composition of the operations that produce it from the buffers the stretch
  reads; a buffer the stretch does not write keeps its contents; and the fold of the stretch's operations at each of
  these buffers is that function of the contents the stretch starts from.
-/
import proofs.«140670_j11424613007642_1_alg».proof.Proof.Gen.KernelIdeal.Launch
import Idealize.ShloMosaic.Lib.StableHlo.Run

set_option maxRecDepth 16384

noncomputable section

namespace Cert.KernelIdeal.Layer9

open Cert.KernelIdeal Cert.KernelIdeal.Gen Idealize.ShloMosaic Idealize.ShloMosaic.StableHlo Idealize.ShloMosaic.TcCoe

variable {F : FTy → Type} [FloatOps F]

/-- Buffer main_v522 as a function of the buffers the stretch reads: its 64 operations, in program order. -/
def f_dense (x_main_v2 : (⟨S4096x64, .i32⟩ : BufTy).Contents (Elt F)) (x_main_v378 : (⟨S4096x64, .f32⟩ : BufTy).Contents (Elt F)) (x_main_v441 : (⟨S4096x128, .i32⟩ : BufTy).Contents (Elt F)) (x_main_v471 : (⟨S4096x4000, .f32⟩ : BufTy).Contents (Elt F)) :
    (⟨S4096x2000, .f32⟩ : BufTy).Contents (Elt F) :=
  have x_main_cst_110 : (⟨S_, .f32⟩ : BufTy).Contents (Elt F) := (constant S_ .f32 0x00000000#32)
  have x_main_v472 : (⟨S4096x1, .f32⟩ : BufTy).Contents (Elt F) := ((broadcastInDim S4096x1 ![] bcast_S_S4096x1 : (⟨S_, .f32⟩ : BufTy).Contents (Elt F) → (⟨S4096x1, .f32⟩ : BufTy).Contents (Elt F))) x_main_cst_110
  have x_main_v473 : (⟨S4096x4001, .f32⟩ : BufTy).Contents (Elt F) := (((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F))) x_main_v471 x_main_v472
  have x_main_call17_c : (⟨S_, .i32⟩ : BufTy).Contents (Elt F) := (constantI S_ 32 0#32)
  have x_main_call17_v0 : (⟨S4096x128, .i32⟩ : BufTy).Contents (Elt F) := ((broadcastInDim S4096x128 ![] bcast_S_S4096x128)) x_main_call17_c
  have x_main_call17_v1 : (⟨S4096x128, .i1⟩ : BufTy).Contents (Elt F) := ((cmpi .slt)) x_main_v441 x_main_call17_v0
  have x_main_call17_c_0 : (⟨S_, .i32⟩ : BufTy).Contents (Elt F) := (constantI S_ 32 4001#32)
  have x_main_call17_v2 : (⟨S4096x128, .i32⟩ : BufTy).Contents (Elt F) := ((broadcastInDim S4096x128 ![] bcast_S_S4096x128)) x_main_call17_c_0
  have x_main_call17_v3 : (⟨S4096x128, .i32⟩ : BufTy).Contents (Elt F) := (addi) x_main_v441 x_main_call17_v2
  have x_main_call17_v4 : (⟨S4096x128, .i32⟩ : BufTy).Contents (Elt F) := (select) x_main_call17_v1 x_main_call17_v3 x_main_v441
  have x_main_call17_v5 : (⟨S4096x128x1, .i32⟩ : BufTy).Contents (Elt F) := shapeCast S4096x128x1 x_main_call17_v4 shapeCasts_S4096x128_S4096x128x1
  have x_main_call17_c_1 : (⟨S1, .i32⟩ : BufTy).Contents (Elt F) := (constantI S1 32 4000#32)
  have x_main_call17_c_2 : (⟨S_, .i32⟩ : BufTy).Contents (Elt F) := (constantI S_ 32 0#32)
  have x_main_call17_v6 : (⟨S4096x128x1, .i32⟩ : BufTy).Contents (Elt F) := ((broadcastInDim S4096x128x1 ![] bcast_S_S4096x128x1)) x_main_call17_c_2
  have x_main_call17_v7 : (⟨S4096x128x1, .i1⟩ : BufTy).Contents (Elt F) := ((cmpi .sge)) x_main_call17_v5 x_main_call17_v6
  have x_main_call17_v8 : (⟨S1x1x1, .i32⟩ : BufTy).Contents (Elt F) := ((broadcastInDim S1x1x1 ![2] bcast_S1_S1x1x1_2)) x_main_call17_c_1
  have x_main_call17_v9 : (⟨S4096x128x1, .i32⟩ : BufTy).Contents (Elt F) := ((broadcastInDim S4096x128x1 ![0, 1, 2] bcast_S1x1x1_S4096x128x1_0_1_2)) x_main_call17_v8
  have x_main_call17_v10 : (⟨S4096x128x1, .i1⟩ : BufTy).Contents (Elt F) := ((cmpi .sle)) x_main_call17_v5 x_main_call17_v9
  have x_main_call17_v11 : (⟨S4096x128x1, .i1⟩ : BufTy).Contents (Elt F) := (andi) x_main_call17_v7 x_main_call17_v10
  have x_main_call17_c_3 : (⟨S_, .i1⟩ : BufTy).Contents (Elt F) := (constantI S_ 1 1#1)
  have x_main_call17_v12 : (⟨S4096x128, .i1⟩ : BufTy).Contents (Elt F) := ((fun x v => Host.reduce IntOp.andi x v reducesTo_S4096x128x1_S4096x128_d2 h_S_)) x_main_call17_v11 x_main_call17_c_3
  have x_main_call17_v13 : (⟨S4096x128, .f32⟩ : BufTy).Contents (Elt F) := ((fun x i => Host.gather gather_S4096x4001_S4096x128x1_S4096x128_n_1_0_0_1_2_11 x i)) x_main_v473 x_main_call17_v5
  have x_main_call17_cst : (⟨S_, .f32⟩ : BufTy).Contents (Elt F) := (constant S_ .f32 0x7FC00000#32)
  have x_main_call17_v14 : (⟨S4096x128, .f32⟩ : BufTy).Contents (Elt F) := ((broadcastInDim S4096x128 ![] bcast_S_S4096x128)) x_main_call17_cst
  have x_main_v474 : (⟨S4096x128, .f32⟩ : BufTy).Contents (Elt F) := (select) x_main_call17_v12 x_main_call17_v13 x_main_call17_v14
  have x_main_v475 : (⟨S4096x64, .f32⟩ : BufTy).Contents (Elt F) := (((extractStridedSlice S4096x64 ![0, 0] · slices_S4096x128_S4096x64_0_0) : (⟨S4096x128, .f32⟩ : BufTy).Contents (Elt F) → (⟨S4096x64, .f32⟩ : BufTy).Contents (Elt F))) x_main_v474
  have x_main_v476 : (⟨S4096x64, .f32⟩ : BufTy).Contents (Elt F) := (((extractStridedSlice S4096x64 ![0, 64] · slices_S4096x128_S4096x64_0_64) : (⟨S4096x128, .f32⟩ : BufTy).Contents (Elt F) → (⟨S4096x64, .f32⟩ : BufTy).Contents (Elt F))) x_main_v474
  have x_main_cst_111 : (⟨S_, .f32⟩ : BufTy).Contents (Elt F) := (constant S_ .f32 0x40000000#32)
  have x_main_v477 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_111
  have x_main_v478 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v475 x_main_v477
  have x_main_v479 : (⟨S4096x64, .f32⟩ : BufTy).Contents (Elt F) := ((Host.negf : (⟨S4096x64, .f32⟩ : BufTy).Contents (Elt F) → (⟨S4096x64, .f32⟩ : BufTy).Contents (Elt F))) x_main_v478
  have x_main_v480 : (⟨S4096x64, .f32⟩ : BufTy).Contents (Elt F) := ((Host.exp : (⟨S4096x64, .f32⟩ : BufTy).Contents (Elt F) → (⟨S4096x64, .f32⟩ : BufTy).Contents (Elt F))) x_main_v479
  have x_main_cst_112 : (⟨S_, .f32⟩ : BufTy).Contents (Elt F) := (constant S_ .f32 0x3F800000#32)
  have x_main_v481 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_112
  have x_main_v482 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v481 x_main_v480
  have x_main_cst_113 : (⟨S_, .f32⟩ : BufTy).Contents (Elt F) := (constant S_ .f32 0x3F800000#32)
  have x_main_v483 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_113
  have x_main_v484 : (⟨S4096x64, .f32⟩ : BufTy).Contents (Elt F) := ((Host.divf : (⟨S4096x64, .f32⟩ : BufTy).Contents (Elt F) → (⟨S4096x64, .f32⟩ : BufTy).Contents (Elt F) → (⟨S4096x64, .f32⟩ : BufTy).Contents (Elt F))) x_main_v483 x_main_v482
  have x_main_v485 : (⟨S4096x64, .f32⟩ : BufTy).Contents (Elt F) := ((mulf : (⟨S4096x64, .f32⟩ : BufTy).Contents (Elt F) → (⟨S4096x64, .f32⟩ : BufTy).Contents (Elt F) → (⟨S4096x64, .f32⟩ : BufTy).Contents (Elt F))) x_main_v484 x_main_v378
  have x_main_v486 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v485 x_main_v476
  have x_main_v504 : (⟨S4096, .i32⟩ : BufTy).Contents (Elt F) := (iotaInDim S4096 32 0)
  have x_main_v505 : (⟨S4096x1, .i32⟩ : BufTy).Contents (Elt F) := ((broadcastInDim S4096x1 ![0] bcast_S4096_S4096x1_0 : (⟨S4096, .i32⟩ : BufTy).Contents (Elt F) → (⟨S4096x1, .i32⟩ : BufTy).Contents (Elt F))) x_main_v504
  have x_main_cst_118 : (⟨S_, .f32⟩ : BufTy).Contents (Elt F) := (constant S_ .f32 0x00000000#32)
  have x_main_v506 : (⟨S4096x2001, .f32⟩ : BufTy).Contents (Elt F) := ((broadcastInDim S4096x2001 ![] bcast_S_S4096x2001 : (⟨S_, .f32⟩ : BufTy).Contents (Elt F) → (⟨S4096x2001, .f32⟩ : BufTy).Contents (Elt F))) x_main_cst_118
  have x_main_c_119 : (⟨S_, .i32⟩ : BufTy).Contents (Elt F) := (constantI S_ 32 0#32)
  have x_main_v507 : (⟨S4096x1, .i32⟩ : BufTy).Contents (Elt F) := ((broadcastInDim S4096x1 ![] bcast_S_S4096x1 : (⟨S_, .i32⟩ : BufTy).Contents (Elt F) → (⟨S4096x1, .i32⟩ : BufTy).Contents (Elt F))) x_main_c_119
  have x_main_v508 : (⟨S4096x1, .i1⟩ : BufTy).Contents (Elt F) := ((cmpi .slt : (⟨S4096x1, .i32⟩ : BufTy).Contents (Elt F) → (⟨S4096x1, .i32⟩ : BufTy).Contents (Elt F) → (⟨S4096x1, .i1⟩ : BufTy).Contents (Elt F))) x_main_v505 x_main_v507
  have x_main_c_120 : (⟨S_, .i32⟩ : BufTy).Contents (Elt F) := (constantI S_ 32 4096#32)
  have x_main_v509 : (⟨S4096x1, .i32⟩ : BufTy).Contents (Elt F) := ((broadcastInDim S4096x1 ![] bcast_S_S4096x1 : (⟨S_, .i32⟩ : BufTy).Contents (Elt F) → (⟨S4096x1, .i32⟩ : BufTy).Contents (Elt F))) x_main_c_120
  have x_main_v510 : (⟨S4096x1, .i32⟩ : BufTy).Contents (Elt F) := ((addi : (⟨S4096x1, .i32⟩ : BufTy).Contents (Elt F) → (⟨S4096x1, .i32⟩ : BufTy).Contents (Elt F) → (⟨S4096x1, .i32⟩ : BufTy).Contents (Elt F))) x_main_v505 x_main_v509
  have x_main_v511 : (⟨S4096x1, .i32⟩ : BufTy).Contents (Elt F) := ((select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F))) x_main_v508 x_main_v510 x_main_v505
  have x_main_c_121 : (⟨S_, .i32⟩ : BufTy).Contents (Elt F) := (constantI S_ 32 0#32)
  have x_main_v512 : (⟨S4096x64, .i32⟩ : BufTy).Contents (Elt F) := ((broadcastInDim S4096x64 ![] bcast_S_S4096x64 : (⟨S_, .i32⟩ : BufTy).Contents (Elt F) → (⟨S4096x64, .i32⟩ : BufTy).Contents (Elt F))) x_main_c_121
  have x_main_v513 : (⟨S4096x64, .i1⟩ : BufTy).Contents (Elt F) := ((cmpi .slt : (⟨S4096x64, .i32⟩ : BufTy).Contents (Elt F) → (⟨S4096x64, .i32⟩ : BufTy).Contents (Elt F) → (⟨S4096x64, .i1⟩ : BufTy).Contents (Elt F))) x_main_v2 x_main_v512
  have x_main_c_122 : (⟨S_, .i32⟩ : BufTy).Contents (Elt F) := (constantI S_ 32 2001#32)
  have x_main_v514 : (⟨S4096x64, .i32⟩ : BufTy).Contents (Elt F) := ((broadcastInDim S4096x64 ![] bcast_S_S4096x64 : (⟨S_, .i32⟩ : BufTy).Contents (Elt F) → (⟨S4096x64, .i32⟩ : BufTy).Contents (Elt F))) x_main_c_122
  have x_main_v515 : (⟨S4096x64, .i32⟩ : BufTy).Contents (Elt F) := ((addi : (⟨S4096x64, .i32⟩ : BufTy).Contents (Elt F) → (⟨S4096x64, .i32⟩ : BufTy).Contents (Elt F) → (⟨S4096x64, .i32⟩ : BufTy).Contents (Elt F))) x_main_v2 x_main_v514
  have x_main_v516 : (⟨S4096x64, .i32⟩ : BufTy).Contents (Elt F) := ((select : (⟨S4096x64, .i1⟩ : BufTy).Contents (Elt F) → (⟨S4096x64, .i32⟩ : BufTy).Contents (Elt F) → (⟨S4096x64, .i32⟩ : BufTy).Contents (Elt F) → (⟨S4096x64, .i32⟩ : BufTy).Contents (Elt F))) x_main_v513 x_main_v515 x_main_v2
  have x_main_v517 : (⟨S4096x64, .i32⟩ : BufTy).Contents (Elt F) := ((broadcastInDim S4096x64 ![0, 1] bcast_S4096x1_S4096x64_0_1 : (⟨S4096x1, .i32⟩ : BufTy).Contents (Elt F) → (⟨S4096x64, .i32⟩ : BufTy).Contents (Elt F))) x_main_v511
  have x_main_v518 : (⟨S4096x64x1, .i32⟩ : BufTy).Contents (Elt F) := ((broadcastInDim S4096x64x1 ![0, 1] bcast_S4096x64_S4096x64x1_0_1 : (⟨S4096x64, .i32⟩ : BufTy).Contents (Elt F) → (⟨S4096x64x1, .i32⟩ : BufTy).Contents (Elt F))) x_main_v517
  have x_main_v519 : (⟨S4096x64x1, .i32⟩ : BufTy).Contents (Elt F) := ((broadcastInDim S4096x64x1 ![0, 1] bcast_S4096x64_S4096x64x1_0_1 : (⟨S4096x64, .i32⟩ : BufTy).Contents (Elt F) → (⟨S4096x64x1, .i32⟩ : BufTy).Contents (Elt F))) x_main_v516
  have x_main_v520 : (⟨S4096x64x2, .i32⟩ : BufTy).Contents (Elt F) := (((fun a b => concatenate S4096x64x2 2 [⟨S4096x64x1, a⟩, ⟨S4096x64x1, b⟩] concatenates_S4096x64x1_S4096x64x1_S4096x64x2_d2) : (⟨S4096x64x1, .i32⟩ : BufTy).Contents (Elt F) → (⟨S4096x64x1, .i32⟩ : BufTy).Contents (Elt F) → (⟨S4096x64x2, .i32⟩ : BufTy).Contents (Elt F))) x_main_v518 x_main_v519
  have x_main_v521 : (⟨S4096x2001, .f32⟩ : BufTy).Contents (Elt F) := (((fun x i u => Host.scatterAdd scatter_S4096x2001_S4096x64x2_S4096x64_n_01_01_2 x i u) : (⟨S4096x2001, .f32⟩ : BufTy).Contents (Elt F) → (⟨S4096x64x2, .i32⟩ : BufTy).Contents (Elt F) → (⟨S4096x64, .f32⟩ : BufTy).Contents (Elt F) → (⟨S4096x2001, .f32⟩ : BufTy).Contents (Elt F))) x_main_v506 x_main_v520 x_main_v486
  have x_main_v522 : (⟨S4096x2000, .f32⟩ : BufTy).Contents (Elt F) := (((extractStridedSlice S4096x2000 ![0, 0] · slices_S4096x2001_S4096x2000_0_0) : (⟨S4096x2001, .f32⟩ : BufTy).Contents (Elt F) → (⟨S4096x2000, .f32⟩ : BufTy).Contents (Elt F))) x_main_v521
  x_main_v522

/-- Buffer main_v497 as a function of the buffers the stretch reads: its 2 operations, in program order. -/
def f_w1 (x_main_arg2 : (⟨S10x2000x64, .f32⟩ : BufTy).Contents (Elt F)) :
    (⟨S2000x64, .f32⟩ : BufTy).Contents (Elt F) :=
  have x_main_v496 : (⟨S1x2000x64, .f32⟩ : BufTy).Contents (Elt F) := (((extractStridedSlice S1x2000x64 ![9, 0, 0] · slices_S10x2000x64_S1x2000x64_9_0_0) : (⟨S10x2000x64, .f32⟩ : BufTy).Contents (Elt F) → (⟨S1x2000x64, .f32⟩ : BufTy).Contents (Elt F))) x_main_arg2
  have x_main_v497 : (⟨S2000x64, .f32⟩ : BufTy).Contents (Elt F) := shapeCast S2000x64 x_main_v496 shapeCasts_S1x2000x64_S2000x64
  x_main_v497

/-- Buffer main_v499 as a function of the buffers the stretch reads: its 2 operations, in program order. -/
def f_b1 (x_main_arg3 : (⟨S10x64, .f32⟩ : BufTy).Contents (Elt F)) :
    (⟨S64, .f32⟩ : BufTy).Contents (Elt F) :=
  have x_main_v498 : (⟨S1x64, .f32⟩ : BufTy).Contents (Elt F) := (((extractStridedSlice S1x64 ![9, 0] · slices_S10x64_S1x64_9_0) : (⟨S10x64, .f32⟩ : BufTy).Contents (Elt F) → (⟨S1x64, .f32⟩ : BufTy).Contents (Elt F))) x_main_arg3
  have x_main_v499 : (⟨S64, .f32⟩ : BufTy).Contents (Elt F) := shapeCast S64 x_main_v498 shapeCasts_S1x64_S64
  x_main_v499

/-- Buffer main_v523 as a function of the buffers the stretch reads: its 3 operations, in program order. -/
def f_b1r (x_main_arg3 : (⟨S10x64, .f32⟩ : BufTy).Contents (Elt F)) :
    (⟨S1x64, .f32⟩ : BufTy).Contents (Elt F) :=
  have x_main_v498 : (⟨S1x64, .f32⟩ : BufTy).Contents (Elt F) := (((extractStridedSlice S1x64 ![9, 0] · slices_S10x64_S1x64_9_0) : (⟨S10x64, .f32⟩ : BufTy).Contents (Elt F) → (⟨S1x64, .f32⟩ : BufTy).Contents (Elt F))) x_main_arg3
  have x_main_v499 : (⟨S64, .f32⟩ : BufTy).Contents (Elt F) := shapeCast S64 x_main_v498 shapeCasts_S1x64_S64
  have x_main_v523 : (⟨S1x64, .f32⟩ : BufTy).Contents (Elt F) := shapeCast S1x64 x_main_v499 shapeCasts_S64_S1x64
  x_main_v523

/-- Buffer main_v501 as a function of the buffers the stretch reads: its 2 operations, in program order. -/
def f_w2 (x_main_arg4 : (⟨S10x64x4000, .f32⟩ : BufTy).Contents (Elt F)) :
    (⟨S64x4000, .f32⟩ : BufTy).Contents (Elt F) :=
  have x_main_v500 : (⟨S1x64x4000, .f32⟩ : BufTy).Contents (Elt F) := (((extractStridedSlice S1x64x4000 ![9, 0, 0] · slices_S10x64x4000_S1x64x4000_9_0_0) : (⟨S10x64x4000, .f32⟩ : BufTy).Contents (Elt F) → (⟨S1x64x4000, .f32⟩ : BufTy).Contents (Elt F))) x_main_arg4
  have x_main_v501 : (⟨S64x4000, .f32⟩ : BufTy).Contents (Elt F) := shapeCast S64x4000 x_main_v500 shapeCasts_S1x64x4000_S64x4000
  x_main_v501

/-- Buffer main_v503 as a function of the buffers the stretch reads: its 2 operations, in program order. -/
def f_b2 (x_main_arg5 : (⟨S10x4000, .f32⟩ : BufTy).Contents (Elt F)) :
    (⟨S4000, .f32⟩ : BufTy).Contents (Elt F) :=
  have x_main_v502 : (⟨S1x4000, .f32⟩ : BufTy).Contents (Elt F) := (((extractStridedSlice S1x4000 ![9, 0] · slices_S10x4000_S1x4000_9_0) : (⟨S10x4000, .f32⟩ : BufTy).Contents (Elt F) → (⟨S1x4000, .f32⟩ : BufTy).Contents (Elt F))) x_main_arg5
  have x_main_v503 : (⟨S4000, .f32⟩ : BufTy).Contents (Elt F) := shapeCast S4000 x_main_v502 shapeCasts_S1x4000_S4000
  x_main_v503

/-- Buffer main_v524 as a function of the buffers the stretch reads: its 3 operations, in program order. -/
def f_b2r (x_main_arg5 : (⟨S10x4000, .f32⟩ : BufTy).Contents (Elt F)) :
    (⟨S1x4000, .f32⟩ : BufTy).Contents (Elt F) :=
  have x_main_v502 : (⟨S1x4000, .f32⟩ : BufTy).Contents (Elt F) := (((extractStridedSlice S1x4000 ![9, 0] · slices_S10x4000_S1x4000_9_0) : (⟨S10x4000, .f32⟩ : BufTy).Contents (Elt F) → (⟨S1x4000, .f32⟩ : BufTy).Contents (Elt F))) x_main_arg5
  have x_main_v503 : (⟨S4000, .f32⟩ : BufTy).Contents (Elt F) := shapeCast S4000 x_main_v502 shapeCasts_S1x4000_S4000
  have x_main_v524 : (⟨S1x4000, .f32⟩ : BufTy).Contents (Elt F) := shapeCast S1x4000 x_main_v503 shapeCasts_S4000_S1x4000
  x_main_v524

/-- Buffer main_v495 as a function of the buffers the stretch reads: its 11 operations, in program order. -/
def f_oidx (x_main_v3 : (⟨S4096x61, .i32⟩ : BufTy).Contents (Elt F)) :
    (⟨S4096x122, .i32⟩ : BufTy).Contents (Elt F) :=
  have x_main_c_115 : (⟨S_, .i32⟩ : BufTy).Contents (Elt F) := (constantI S_ 32 2000#32)
  have x_main_v490 : (⟨S4096x61, .i32⟩ : BufTy).Contents (Elt F) := ((broadcastInDim S4096x61 ![] bcast_S_S4096x61 : (⟨S_, .i32⟩ : BufTy).Contents (Elt F) → (⟨S4096x61, .i32⟩ : BufTy).Contents (Elt F))) x_main_c_115
  have x_main_v491 : (⟨S4096x61, .i1⟩ : BufTy).Contents (Elt F) := ((cmpi .eq : (⟨S4096x61, .i32⟩ : BufTy).Contents (Elt F) → (⟨S4096x61, .i32⟩ : BufTy).Contents (Elt F) → (⟨S4096x61, .i1⟩ : BufTy).Contents (Elt F))) x_main_v3 x_main_v490
  have x_main_c_116 : (⟨S_, .i32⟩ : BufTy).Contents (Elt F) := (constantI S_ 32 2000#32)
  have x_main_v492 : (⟨S4096x61, .i32⟩ : BufTy).Contents (Elt F) := ((broadcastInDim S4096x61 ![] bcast_S_S4096x61 : (⟨S_, .i32⟩ : BufTy).Contents (Elt F) → (⟨S4096x61, .i32⟩ : BufTy).Contents (Elt F))) x_main_c_116
  have x_main_v493 : (⟨S4096x61, .i32⟩ : BufTy).Contents (Elt F) := ((addi : (⟨S4096x61, .i32⟩ : BufTy).Contents (Elt F) → (⟨S4096x61, .i32⟩ : BufTy).Contents (Elt F) → (⟨S4096x61, .i32⟩ : BufTy).Contents (Elt F))) x_main_v3 x_main_v492
  have x_main_c_117 : (⟨S_, .i32⟩ : BufTy).Contents (Elt F) := (constantI S_ 32 4000#32)
  have x_main_call18_v0 : (⟨S_, .i32⟩ : BufTy).Contents (Elt F) := (id) x_main_c_117
  have x_main_call18_v1 : (⟨S4096x61, .i32⟩ : BufTy).Contents (Elt F) := ((broadcastInDim S4096x61 ![] bcast_S_S4096x61)) x_main_call18_v0
  have x_main_v494 : (⟨S4096x61, .i32⟩ : BufTy).Contents (Elt F) := (select) x_main_v491 x_main_call18_v1 x_main_v493
  have x_main_v495 : (⟨S4096x122, .i32⟩ : BufTy).Contents (Elt F) := (((fun a b => concatenate S4096x122 1 [⟨S4096x61, a⟩, ⟨S4096x61, b⟩] concatenates_S4096x61_S4096x61_S4096x122_d1) : (⟨S4096x61, .i32⟩ : BufTy).Contents (Elt F) → (⟨S4096x61, .i32⟩ : BufTy).Contents (Elt F) → (⟨S4096x122, .i32⟩ : BufTy).Contents (Elt F))) x_main_v3 x_main_v494
  x_main_v495

/-- Buffer main_v486 as a function of the buffers the stretch reads: its 40 operations, in program order. -/
def f_xnew (x_main_v378 : (⟨S4096x64, .f32⟩ : BufTy).Contents (Elt F)) (x_main_v441 : (⟨S4096x128, .i32⟩ : BufTy).Contents (Elt F)) (x_main_v471 : (⟨S4096x4000, .f32⟩ : BufTy).Contents (Elt F)) :
    (⟨S4096x64, .f32⟩ : BufTy).Contents (Elt F) :=
  have x_main_cst_110 : (⟨S_, .f32⟩ : BufTy).Contents (Elt F) := (constant S_ .f32 0x00000000#32)
  have x_main_v472 : (⟨S4096x1, .f32⟩ : BufTy).Contents (Elt F) := ((broadcastInDim S4096x1 ![] bcast_S_S4096x1 : (⟨S_, .f32⟩ : BufTy).Contents (Elt F) → (⟨S4096x1, .f32⟩ : BufTy).Contents (Elt F))) x_main_cst_110
  have x_main_v473 : (⟨S4096x4001, .f32⟩ : BufTy).Contents (Elt F) := (((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F))) x_main_v471 x_main_v472
  have x_main_call17_c : (⟨S_, .i32⟩ : BufTy).Contents (Elt F) := (constantI S_ 32 0#32)
  have x_main_call17_v0 : (⟨S4096x128, .i32⟩ : BufTy).Contents (Elt F) := ((broadcastInDim S4096x128 ![] bcast_S_S4096x128)) x_main_call17_c
  have x_main_call17_v1 : (⟨S4096x128, .i1⟩ : BufTy).Contents (Elt F) := ((cmpi .slt)) x_main_v441 x_main_call17_v0
  have x_main_call17_c_0 : (⟨S_, .i32⟩ : BufTy).Contents (Elt F) := (constantI S_ 32 4001#32)
  have x_main_call17_v2 : (⟨S4096x128, .i32⟩ : BufTy).Contents (Elt F) := ((broadcastInDim S4096x128 ![] bcast_S_S4096x128)) x_main_call17_c_0
  have x_main_call17_v3 : (⟨S4096x128, .i32⟩ : BufTy).Contents (Elt F) := (addi) x_main_v441 x_main_call17_v2
  have x_main_call17_v4 : (⟨S4096x128, .i32⟩ : BufTy).Contents (Elt F) := (select) x_main_call17_v1 x_main_call17_v3 x_main_v441
  have x_main_call17_v5 : (⟨S4096x128x1, .i32⟩ : BufTy).Contents (Elt F) := shapeCast S4096x128x1 x_main_call17_v4 shapeCasts_S4096x128_S4096x128x1
  have x_main_call17_c_1 : (⟨S1, .i32⟩ : BufTy).Contents (Elt F) := (constantI S1 32 4000#32)
  have x_main_call17_c_2 : (⟨S_, .i32⟩ : BufTy).Contents (Elt F) := (constantI S_ 32 0#32)
  have x_main_call17_v6 : (⟨S4096x128x1, .i32⟩ : BufTy).Contents (Elt F) := ((broadcastInDim S4096x128x1 ![] bcast_S_S4096x128x1)) x_main_call17_c_2
  have x_main_call17_v7 : (⟨S4096x128x1, .i1⟩ : BufTy).Contents (Elt F) := ((cmpi .sge)) x_main_call17_v5 x_main_call17_v6
  have x_main_call17_v8 : (⟨S1x1x1, .i32⟩ : BufTy).Contents (Elt F) := ((broadcastInDim S1x1x1 ![2] bcast_S1_S1x1x1_2)) x_main_call17_c_1
  have x_main_call17_v9 : (⟨S4096x128x1, .i32⟩ : BufTy).Contents (Elt F) := ((broadcastInDim S4096x128x1 ![0, 1, 2] bcast_S1x1x1_S4096x128x1_0_1_2)) x_main_call17_v8
  have x_main_call17_v10 : (⟨S4096x128x1, .i1⟩ : BufTy).Contents (Elt F) := ((cmpi .sle)) x_main_call17_v5 x_main_call17_v9
  have x_main_call17_v11 : (⟨S4096x128x1, .i1⟩ : BufTy).Contents (Elt F) := (andi) x_main_call17_v7 x_main_call17_v10
  have x_main_call17_c_3 : (⟨S_, .i1⟩ : BufTy).Contents (Elt F) := (constantI S_ 1 1#1)
  have x_main_call17_v12 : (⟨S4096x128, .i1⟩ : BufTy).Contents (Elt F) := ((fun x v => Host.reduce IntOp.andi x v reducesTo_S4096x128x1_S4096x128_d2 h_S_)) x_main_call17_v11 x_main_call17_c_3
  have x_main_call17_v13 : (⟨S4096x128, .f32⟩ : BufTy).Contents (Elt F) := ((fun x i => Host.gather gather_S4096x4001_S4096x128x1_S4096x128_n_1_0_0_1_2_11 x i)) x_main_v473 x_main_call17_v5
  have x_main_call17_cst : (⟨S_, .f32⟩ : BufTy).Contents (Elt F) := (constant S_ .f32 0x7FC00000#32)
  have x_main_call17_v14 : (⟨S4096x128, .f32⟩ : BufTy).Contents (Elt F) := ((broadcastInDim S4096x128 ![] bcast_S_S4096x128)) x_main_call17_cst
  have x_main_v474 : (⟨S4096x128, .f32⟩ : BufTy).Contents (Elt F) := (select) x_main_call17_v12 x_main_call17_v13 x_main_call17_v14
  have x_main_v475 : (⟨S4096x64, .f32⟩ : BufTy).Contents (Elt F) := (((extractStridedSlice S4096x64 ![0, 0] · slices_S4096x128_S4096x64_0_0) : (⟨S4096x128, .f32⟩ : BufTy).Contents (Elt F) → (⟨S4096x64, .f32⟩ : BufTy).Contents (Elt F))) x_main_v474
  have x_main_v476 : (⟨S4096x64, .f32⟩ : BufTy).Contents (Elt F) := (((extractStridedSlice S4096x64 ![0, 64] · slices_S4096x128_S4096x64_0_64) : (⟨S4096x128, .f32⟩ : BufTy).Contents (Elt F) → (⟨S4096x64, .f32⟩ : BufTy).Contents (Elt F))) x_main_v474
  have x_main_cst_111 : (⟨S_, .f32⟩ : BufTy).Contents (Elt F) := (constant S_ .f32 0x40000000#32)
  have x_main_v477 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_111
  have x_main_v478 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v475 x_main_v477
  have x_main_v479 : (⟨S4096x64, .f32⟩ : BufTy).Contents (Elt F) := ((Host.negf : (⟨S4096x64, .f32⟩ : BufTy).Contents (Elt F) → (⟨S4096x64, .f32⟩ : BufTy).Contents (Elt F))) x_main_v478
  have x_main_v480 : (⟨S4096x64, .f32⟩ : BufTy).Contents (Elt F) := ((Host.exp : (⟨S4096x64, .f32⟩ : BufTy).Contents (Elt F) → (⟨S4096x64, .f32⟩ : BufTy).Contents (Elt F))) x_main_v479
  have x_main_cst_112 : (⟨S_, .f32⟩ : BufTy).Contents (Elt F) := (constant S_ .f32 0x3F800000#32)
  have x_main_v481 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_112
  have x_main_v482 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v481 x_main_v480
  have x_main_cst_113 : (⟨S_, .f32⟩ : BufTy).Contents (Elt F) := (constant S_ .f32 0x3F800000#32)
  have x_main_v483 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_113
  have x_main_v484 : (⟨S4096x64, .f32⟩ : BufTy).Contents (Elt F) := ((Host.divf : (⟨S4096x64, .f32⟩ : BufTy).Contents (Elt F) → (⟨S4096x64, .f32⟩ : BufTy).Contents (Elt F) → (⟨S4096x64, .f32⟩ : BufTy).Contents (Elt F))) x_main_v483 x_main_v482
  have x_main_v485 : (⟨S4096x64, .f32⟩ : BufTy).Contents (Elt F) := ((mulf : (⟨S4096x64, .f32⟩ : BufTy).Contents (Elt F) → (⟨S4096x64, .f32⟩ : BufTy).Contents (Elt F) → (⟨S4096x64, .f32⟩ : BufTy).Contents (Elt F))) x_main_v484 x_main_v378
  have x_main_v486 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v485 x_main_v476
  x_main_v486

/-- Buffer main_v489 as a function of the buffers the stretch reads: its 41 operations, in program order. -/
def f_qnew (x_main_v435 : (⟨S4096, .f32⟩ : BufTy).Contents (Elt F)) (x_main_v441 : (⟨S4096x128, .i32⟩ : BufTy).Contents (Elt F)) (x_main_v471 : (⟨S4096x4000, .f32⟩ : BufTy).Contents (Elt F)) :
    (⟨S4096, .f32⟩ : BufTy).Contents (Elt F) :=
  have x_main_cst_110 : (⟨S_, .f32⟩ : BufTy).Contents (Elt F) := (constant S_ .f32 0x00000000#32)
  have x_main_v472 : (⟨S4096x1, .f32⟩ : BufTy).Contents (Elt F) := ((broadcastInDim S4096x1 ![] bcast_S_S4096x1 : (⟨S_, .f32⟩ : BufTy).Contents (Elt F) → (⟨S4096x1, .f32⟩ : BufTy).Contents (Elt F))) x_main_cst_110
  have x_main_v473 : (⟨S4096x4001, .f32⟩ : BufTy).Contents (Elt F) := (((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F))) x_main_v471 x_main_v472
  have x_main_call17_c : (⟨S_, .i32⟩ : BufTy).Contents (Elt F) := (constantI S_ 32 0#32)
  have x_main_call17_v0 : (⟨S4096x128, .i32⟩ : BufTy).Contents (Elt F) := ((broadcastInDim S4096x128 ![] bcast_S_S4096x128)) x_main_call17_c
  have x_main_call17_v1 : (⟨S4096x128, .i1⟩ : BufTy).Contents (Elt F) := ((cmpi .slt)) x_main_v441 x_main_call17_v0
  have x_main_call17_c_0 : (⟨S_, .i32⟩ : BufTy).Contents (Elt F) := (constantI S_ 32 4001#32)
  have x_main_call17_v2 : (⟨S4096x128, .i32⟩ : BufTy).Contents (Elt F) := ((broadcastInDim S4096x128 ![] bcast_S_S4096x128)) x_main_call17_c_0
  have x_main_call17_v3 : (⟨S4096x128, .i32⟩ : BufTy).Contents (Elt F) := (addi) x_main_v441 x_main_call17_v2
  have x_main_call17_v4 : (⟨S4096x128, .i32⟩ : BufTy).Contents (Elt F) := (select) x_main_call17_v1 x_main_call17_v3 x_main_v441
  have x_main_call17_v5 : (⟨S4096x128x1, .i32⟩ : BufTy).Contents (Elt F) := shapeCast S4096x128x1 x_main_call17_v4 shapeCasts_S4096x128_S4096x128x1
  have x_main_call17_c_1 : (⟨S1, .i32⟩ : BufTy).Contents (Elt F) := (constantI S1 32 4000#32)
  have x_main_call17_c_2 : (⟨S_, .i32⟩ : BufTy).Contents (Elt F) := (constantI S_ 32 0#32)
  have x_main_call17_v6 : (⟨S4096x128x1, .i32⟩ : BufTy).Contents (Elt F) := ((broadcastInDim S4096x128x1 ![] bcast_S_S4096x128x1)) x_main_call17_c_2
  have x_main_call17_v7 : (⟨S4096x128x1, .i1⟩ : BufTy).Contents (Elt F) := ((cmpi .sge)) x_main_call17_v5 x_main_call17_v6
  have x_main_call17_v8 : (⟨S1x1x1, .i32⟩ : BufTy).Contents (Elt F) := ((broadcastInDim S1x1x1 ![2] bcast_S1_S1x1x1_2)) x_main_call17_c_1
  have x_main_call17_v9 : (⟨S4096x128x1, .i32⟩ : BufTy).Contents (Elt F) := ((broadcastInDim S4096x128x1 ![0, 1, 2] bcast_S1x1x1_S4096x128x1_0_1_2)) x_main_call17_v8
  have x_main_call17_v10 : (⟨S4096x128x1, .i1⟩ : BufTy).Contents (Elt F) := ((cmpi .sle)) x_main_call17_v5 x_main_call17_v9
  have x_main_call17_v11 : (⟨S4096x128x1, .i1⟩ : BufTy).Contents (Elt F) := (andi) x_main_call17_v7 x_main_call17_v10
  have x_main_call17_c_3 : (⟨S_, .i1⟩ : BufTy).Contents (Elt F) := (constantI S_ 1 1#1)
  have x_main_call17_v12 : (⟨S4096x128, .i1⟩ : BufTy).Contents (Elt F) := ((fun x v => Host.reduce IntOp.andi x v reducesTo_S4096x128x1_S4096x128_d2 h_S_)) x_main_call17_v11 x_main_call17_c_3
  have x_main_call17_v13 : (⟨S4096x128, .f32⟩ : BufTy).Contents (Elt F) := ((fun x i => Host.gather gather_S4096x4001_S4096x128x1_S4096x128_n_1_0_0_1_2_11 x i)) x_main_v473 x_main_call17_v5
  have x_main_call17_cst : (⟨S_, .f32⟩ : BufTy).Contents (Elt F) := (constant S_ .f32 0x7FC00000#32)
  have x_main_call17_v14 : (⟨S4096x128, .f32⟩ : BufTy).Contents (Elt F) := ((broadcastInDim S4096x128 ![] bcast_S_S4096x128)) x_main_call17_cst
  have x_main_v474 : (⟨S4096x128, .f32⟩ : BufTy).Contents (Elt F) := (select) x_main_call17_v12 x_main_call17_v13 x_main_call17_v14
  have x_main_v475 : (⟨S4096x64, .f32⟩ : BufTy).Contents (Elt F) := (((extractStridedSlice S4096x64 ![0, 0] · slices_S4096x128_S4096x64_0_0) : (⟨S4096x128, .f32⟩ : BufTy).Contents (Elt F) → (⟨S4096x64, .f32⟩ : BufTy).Contents (Elt F))) x_main_v474
  have x_main_cst_111 : (⟨S_, .f32⟩ : BufTy).Contents (Elt F) := (constant S_ .f32 0x40000000#32)
  have x_main_v477 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_111
  have x_main_v478 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v475 x_main_v477
  have x_main_v479 : (⟨S4096x64, .f32⟩ : BufTy).Contents (Elt F) := ((Host.negf : (⟨S4096x64, .f32⟩ : BufTy).Contents (Elt F) → (⟨S4096x64, .f32⟩ : BufTy).Contents (Elt F))) x_main_v478
  have x_main_v480 : (⟨S4096x64, .f32⟩ : BufTy).Contents (Elt F) := ((Host.exp : (⟨S4096x64, .f32⟩ : BufTy).Contents (Elt F) → (⟨S4096x64, .f32⟩ : BufTy).Contents (Elt F))) x_main_v479
  have x_main_cst_112 : (⟨S_, .f32⟩ : BufTy).Contents (Elt F) := (constant S_ .f32 0x3F800000#32)
  have x_main_v481 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_112
  have x_main_v482 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) x_main_v481 x_main_v480
  have x_main_cst_113 : (⟨S_, .f32⟩ : BufTy).Contents (Elt F) := (constant S_ .f32 0x3F800000#32)
  have x_main_v483 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) x_main_cst_113
  have x_main_v484 : (⟨S4096x64, .f32⟩ : BufTy).Contents (Elt F) := ((Host.divf : (⟨S4096x64, .f32⟩ : BufTy).Contents (Elt F) → (⟨S4096x64, .f32⟩ : BufTy).Contents (Elt F) → (⟨S4096x64, .f32⟩ : BufTy).Contents (Elt F))) x_main_v483 x_main_v482
  have x_main_v487 : (⟨S4096x64, .f32⟩ : BufTy).Contents (Elt F) := ((Host.log : (⟨S4096x64, .f32⟩ : BufTy).Contents (Elt F) → (⟨S4096x64, .f32⟩ : BufTy).Contents (Elt F))) x_main_v484
  have x_main_cst_114 : (⟨S_, .f32⟩ : BufTy).Contents (Elt F) := (constant S_ .f32 0x00000000#32)
  have x_main_v488 : (⟨S4096, .f32⟩ : BufTy).Contents (Elt F) := (((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F))) x_main_v487 x_main_cst_114
  have x_main_v489 : (⟨S4096, .f32⟩ : BufTy).Contents (Elt F) := ((subf : (⟨S4096, .f32⟩ : BufTy).Contents (Elt F) → (⟨S4096, .f32⟩ : BufTy).Contents (Elt F) → (⟨S4096, .f32⟩ : BufTy).Contents (Elt F))) x_main_v435 x_main_v488
  x_main_v489

-- the gather, the scatter and the reductions are never opened: both sides apply them to equal arguments
attribute [local irreducible] Host.scatterAdd Host.reduce Host.gather Host.reduceAdd concatenate extractStridedSlice broadcastInDim iotaInDim in
set_option maxHeartbeats 8000000 in
set_option maxRecDepth 100000 in
/-- The stretch's fold at each of those buffers. -/
theorem reads (V : Valuation τ sig (Elt F)) :
    after hostOps9_4 (after hostOps9_3 (after hostOps9_2 (after hostOps9_1 (after hostOps9 V)))) (Proc.devRef .tc main_v522) = f_dense (V (Proc.devRef .tc main_v2)) (V (Proc.devRef .tc main_v378)) (V (Proc.devRef .tc main_v441)) (V (Proc.devRef .tc main_v471))
    ∧ after hostOps9_4 (after hostOps9_3 (after hostOps9_2 (after hostOps9_1 (after hostOps9 V)))) (Proc.devRef .tc main_v497) = f_w1 (V (Proc.devRef .tc main_arg2))
    ∧ after hostOps9_4 (after hostOps9_3 (after hostOps9_2 (after hostOps9_1 (after hostOps9 V)))) (Proc.devRef .tc main_v499) = f_b1 (V (Proc.devRef .tc main_arg3))
    ∧ after hostOps9_4 (after hostOps9_3 (after hostOps9_2 (after hostOps9_1 (after hostOps9 V)))) (Proc.devRef .tc main_v523) = f_b1r (V (Proc.devRef .tc main_arg3))
    ∧ after hostOps9_4 (after hostOps9_3 (after hostOps9_2 (after hostOps9_1 (after hostOps9 V)))) (Proc.devRef .tc main_v501) = f_w2 (V (Proc.devRef .tc main_arg4))
    ∧ after hostOps9_4 (after hostOps9_3 (after hostOps9_2 (after hostOps9_1 (after hostOps9 V)))) (Proc.devRef .tc main_v503) = f_b2 (V (Proc.devRef .tc main_arg5))
    ∧ after hostOps9_4 (after hostOps9_3 (after hostOps9_2 (after hostOps9_1 (after hostOps9 V)))) (Proc.devRef .tc main_v524) = f_b2r (V (Proc.devRef .tc main_arg5))
    ∧ after hostOps9_4 (after hostOps9_3 (after hostOps9_2 (after hostOps9_1 (after hostOps9 V)))) (Proc.devRef .tc main_v495) = f_oidx (V (Proc.devRef .tc main_v3))
    ∧ after hostOps9_4 (after hostOps9_3 (after hostOps9_2 (after hostOps9_1 (after hostOps9 V)))) (Proc.devRef .tc main_v486) = f_xnew (V (Proc.devRef .tc main_v378)) (V (Proc.devRef .tc main_v441)) (V (Proc.devRef .tc main_v471))
    ∧ after hostOps9_4 (after hostOps9_3 (after hostOps9_2 (after hostOps9_1 (after hostOps9 V)))) (Proc.devRef .tc main_v489) = f_qnew (V (Proc.devRef .tc main_v435)) (V (Proc.devRef .tc main_v441)) (V (Proc.devRef .tc main_v471))
    ∧ after hostOps9_4 (after hostOps9_3 (after hostOps9_2 (after hostOps9_1 (after hostOps9 V)))) (Proc.devRef .tc main_v432) = V (Proc.devRef .tc main_v432)
    ∧ after hostOps9_4 (after hostOps9_3 (after hostOps9_2 (after hostOps9_1 (after hostOps9 V)))) (Proc.devRef .tc main_v2) = V (Proc.devRef .tc main_v2)
    ∧ after hostOps9_4 (after hostOps9_3 (after hostOps9_2 (after hostOps9_1 (after hostOps9 V)))) (Proc.devRef .tc main_v3) = V (Proc.devRef .tc main_v3)
    ∧ after hostOps9_4 (after hostOps9_3 (after hostOps9_2 (after hostOps9_1 (after hostOps9 V)))) (Proc.devRef .tc main_arg2) = V (Proc.devRef .tc main_arg2)
    ∧ after hostOps9_4 (after hostOps9_3 (after hostOps9_2 (after hostOps9_1 (after hostOps9 V)))) (Proc.devRef .tc main_arg3) = V (Proc.devRef .tc main_arg3)
    ∧ after hostOps9_4 (after hostOps9_3 (after hostOps9_2 (after hostOps9_1 (after hostOps9 V)))) (Proc.devRef .tc main_arg4) = V (Proc.devRef .tc main_arg4)
    ∧ after hostOps9_4 (after hostOps9_3 (after hostOps9_2 (after hostOps9_1 (after hostOps9 V)))) (Proc.devRef .tc main_arg5) = V (Proc.devRef .tc main_arg5) := by
  simp only [hostOps9, hostOps9_1, hostOps9_2, hostOps9_3, hostOps9_4]
  after_results_simp
  refine ⟨?_, ?_, ?_, ?_, ?_, ?_, ?_, ?_, ?_, ?_, ?_, ?_, ?_, ?_, ?_, ?_, ?_⟩ <;> first | rfl | trivial

end Cert.KernelIdeal.Layer9

end
-- ==== Proof.LayerR9a.lean ====
/- The reference's operations of the same stage (kernel region 8 and kernel region 9 on the kernel side), read as the SAME functions
  as the kernel program's: the five buffers the layer's perceptron is computed from.
-/
import proofs.«140670_j11424613007642_1_alg».proof.Proof.RefRun
import proofs.«140670_j11424613007642_1_alg».proof.Proof.LayerK9
import proofs.«140670_j11424613007642_1_alg».proof.Proof.LibTRef
import Idealize.ShloMosaic.PureOps.Ideal

set_option maxRecDepth 16384

noncomputable section

namespace Cert.ReferenceIdeal.LayerR9

open Cert.ReferenceIdeal Cert.ReferenceIdeal.Gen Cert.ReferenceIdeal.RefRun Idealize.ShloMosaic Idealize.ShloMosaic.StableHlo Idealize.ShloMosaic.TcCoe

-- the gather, the scatter and the reductions are never opened: both sides apply them to equal arguments
attribute [local irreducible] Host.scatterAdd Host.reduce Host.gather Host.reduceAdd concatenate extractStridedSlice broadcastInDim iotaInDim in
set_option maxHeartbeats 16000000 in
set_option maxRecDepth 100000 in
/-- The five buffers the layer's perceptron is computed from. -/
theorem readsIn (V' : Valuation τ sig (Elt Ideal)) :
    after rseg9 V' (Proc.devRef .tc main_v576) = Cert.KernelIdeal.Layer9.f_dense (V' (Proc.devRef .tc main_v2)) (V' (Proc.devRef .tc main_v420)) (V' (Proc.devRef .tc main_v489)) (V' (Proc.devRef .tc main_v525))
    ∧ after rseg9 V' (Proc.devRef .tc main_v551) = Cert.KernelIdeal.Layer9.f_w1 (V' (Proc.devRef .tc main_arg2))
    ∧ after rseg9 V' (Proc.devRef .tc main_v553) = Cert.KernelIdeal.Layer9.f_b1 (V' (Proc.devRef .tc main_arg3))
    ∧ after rseg9 V' (Proc.devRef .tc main_v555) = Cert.KernelIdeal.Layer9.f_w2 (V' (Proc.devRef .tc main_arg4))
    ∧ after rseg9 V' (Proc.devRef .tc main_v557) = Cert.KernelIdeal.Layer9.f_b2 (V' (Proc.devRef .tc main_arg5)) := by
  simp only [after_append_line, rseg9, rseg9_a, rseg9_b, rseg9_c, rseg9_d]
  after_results_simp
  -- contents stored through a typed reference and read back through it are unchanged
  try simp only [Cert.LibTRef.ofBuf_toBuf]
  refine ⟨?_, ?_, ?_, ?_, ?_⟩ <;> first | rfl | trivial

end Cert.ReferenceIdeal.LayerR9

end
-- ==== Proof.LayerR9b.lean ====
/- The reference's operations of the same stage (kernel region 8 and kernel region 9 on the kernel side), read as the SAME functions
  as the kernel program's: the other buffers the next stage needs; a buffer the segment does not write keeps its contents.
-/
import proofs.«140670_j11424613007642_1_alg».proof.Proof.RefRun
import proofs.«140670_j11424613007642_1_alg».proof.Proof.LayerK9
import proofs.«140670_j11424613007642_1_alg».proof.Proof.LibTRef
import Idealize.ShloMosaic.PureOps.Ideal

set_option maxRecDepth 16384

noncomputable section

namespace Cert.ReferenceIdeal.LayerR9

open Cert.ReferenceIdeal Cert.ReferenceIdeal.Gen Cert.ReferenceIdeal.RefRun Idealize.ShloMosaic Idealize.ShloMosaic.StableHlo Idealize.ShloMosaic.TcCoe

-- the gather, the scatter and the reductions are never opened: both sides apply them to equal arguments
attribute [local irreducible] Host.scatterAdd Host.reduce Host.gather Host.reduceAdd concatenate extractStridedSlice broadcastInDim iotaInDim in
set_option maxHeartbeats 16000000 in
set_option maxRecDepth 100000 in
/-- The other buffers the next stage needs. -/
theorem reads (V' : Valuation τ sig (Elt Ideal)) :
    after rseg9 V' (Proc.devRef .tc main_v549) = Cert.KernelIdeal.Layer9.f_oidx (V' (Proc.devRef .tc main_v3))
    ∧ after rseg9 V' (Proc.devRef .tc main_v540) = Cert.KernelIdeal.Layer9.f_xnew (V' (Proc.devRef .tc main_v420)) (V' (Proc.devRef .tc main_v489)) (V' (Proc.devRef .tc main_v525))
    ∧ after rseg9 V' (Proc.devRef .tc main_v543) = Cert.KernelIdeal.Layer9.f_qnew (V' (Proc.devRef .tc main_v483)) (V' (Proc.devRef .tc main_v489)) (V' (Proc.devRef .tc main_v525))
    ∧ after rseg9 V' (Proc.devRef .tc main_v480) = V' (Proc.devRef .tc main_v480)
    ∧ after rseg9 V' (Proc.devRef .tc main_v2) = V' (Proc.devRef .tc main_v2)
    ∧ after rseg9 V' (Proc.devRef .tc main_v3) = V' (Proc.devRef .tc main_v3)
    ∧ after rseg9 V' (Proc.devRef .tc main_arg2) = V' (Proc.devRef .tc main_arg2)
    ∧ after rseg9 V' (Proc.devRef .tc main_arg3) = V' (Proc.devRef .tc main_arg3)
    ∧ after rseg9 V' (Proc.devRef .tc main_arg4) = V' (Proc.devRef .tc main_arg4)
    ∧ after rseg9 V' (Proc.devRef .tc main_arg5) = V' (Proc.devRef .tc main_arg5) := by
  simp only [after_append_line, rseg9, rseg9_a, rseg9_b, rseg9_c, rseg9_d]
  after_results_simp
  -- contents stored through a typed reference and read back through it are unchanged
  try simp only [Cert.LibTRef.ofBuf_toBuf]
  refine ⟨?_, ?_, ?_, ?_, ?_, ?_, ?_, ?_, ?_, ?_⟩ <;> first | rfl | trivial

end Cert.ReferenceIdeal.LayerR9

end
-- ==== Proof.LayerR9c.lean ====
/- The reference's operations of the same stage (kernel region 8 and kernel region 9 on the kernel side), read as the SAME functions
  as the kernel program's: the layer's perceptron output is the host perceptron of the five buffers it is computed from.
-/
import proofs.«140670_j11424613007642_1_alg».proof.Proof.RefRun
import proofs.«140670_j11424613007642_1_alg».proof.Proof.MlpHost
import Idealize.ShloMosaic.PureOps.Ideal

set_option maxRecDepth 16384

noncomputable section

namespace Cert.ReferenceIdeal.LayerR9

open Cert.ReferenceIdeal Cert.ReferenceIdeal.Gen Cert.ReferenceIdeal.RefRun Idealize.ShloMosaic Idealize.ShloMosaic.StableHlo Idealize.ShloMosaic.TcCoe

-- the gather, the scatter and the reductions are never opened: both sides apply them to equal arguments
attribute [local irreducible] Host.scatterAdd Host.reduce Host.gather Host.reduceAdd concatenate extractStridedSlice broadcastInDim iotaInDim in
set_option maxHeartbeats 16000000 in
set_option maxRecDepth 100000 in
/-- The layer's perceptron output is the host perceptron of those five buffers. -/
theorem readsOut (V' : Valuation τ sig (Elt Ideal)) :
    after rseg9 V' (Proc.devRef .tc main_v585) = Cert.ReferenceIdeal.MlpHost.hostMlp (after rseg9 V' (Proc.devRef .tc main_v576)) (after rseg9 V' (Proc.devRef .tc main_v551)) (after rseg9 V' (Proc.devRef .tc main_v553)) (after rseg9 V' (Proc.devRef .tc main_v555)) (after rseg9 V' (Proc.devRef .tc main_v557)) := by
  simp only [after_append_line, rseg9, rseg9_a, rseg9_b, rseg9_c, rseg9_d]
  after_results_simp
  first | rfl | trivial

end Cert.ReferenceIdeal.LayerR9

end
-- ==== Proof.LayerR9.lean ====
/- The reference's side of this stage, collected: the three statements live in one module each.
-/
import proofs.«140670_j11424613007642_1_alg».proof.Proof.LayerR9a
import proofs.«140670_j11424613007642_1_alg».proof.Proof.LayerR9b
import proofs.«140670_j11424613007642_1_alg».proof.Proof.LayerR9c
-- ==== Proof.Step9.lean ====
/-
  Layer 9. If after layer 8's perceptron output the two programs hold the same eleven values, they do so again after
  layer 9's. On the kernel side the host operations up to region 9 read as functions of those values, the region leaves
  the layer function of its five operand arrays, and nothing else the next layer needs is touched; on the reference side
  the same operations read as the same functions, and its host perceptron is the layer function.
-/
import proofs.«140670_j11424613007642_1_alg».proof.Proof.KernelIdealFrameP
import proofs.«140670_j11424613007642_1_alg».proof.Proof.BridgeDefs
import proofs.«140670_j11424613007642_1_alg».proof.Proof.Congr
import proofs.«140670_j11424613007642_1_alg».proof.Proof.MlpBridge
import proofs.«140670_j11424613007642_1_alg».proof.Proof.Region9
import proofs.«140670_j11424613007642_1_alg».proof.Proof.LayerK9
import proofs.«140670_j11424613007642_1_alg».proof.Proof.LayerR9

set_option maxRecDepth 16384

noncomputable section

namespace Cert.Bridge

open Cert.KernelIdeal Cert.KernelIdeal.Gen Cert.KernelIdeal.GenP Cert.KernelIdeal.MlpArray
open Idealize.ShloMosaic Idealize.ShloMosaic.StableHlo Idealize.ShloMosaic.TcCoe Idealize.SL.Sem

set_option maxHeartbeats 4000000 in
theorem step9 (m : (ℓ : Loc nD τ sig) → Buf (Elt Ideal) ℓ) (ρ : Dev nD → PrngReg) (c : Dev nD) (V' : RV)
    (h : Inv8 (W52 m ρ c) V') :
    Inv9 (W58 m ρ c) (after Cert.ReferenceIdeal.RefRun.rseg9 V') := by
  obtain ⟨out, oidx, a, b, q, ia, ib, w1s, b1s, w2s, b2s, ⟨kout, rout⟩, ⟨koidx, roidx⟩, ⟨ka, ra⟩, ⟨kb, rb⟩, ⟨kq, rq⟩, ⟨kia, ria⟩, ⟨kib, rib⟩,
    ⟨kw1s, rw1s⟩, ⟨kb1s, rb1s⟩, ⟨kw2s, rw2s⟩, ⟨kb2s, rb2s⟩⟩ := h
  obtain ⟨Kdense, Kw1, Kb1, Kb1r, Kw2, Kb2, Kb2r, Koidx, Kxnew, Kqnew, Kkeepb, Kia, Kib, Kw1s, Kb1s, Kw2s, Kb2s⟩ :=
    Cert.KernelIdeal.Layer9.reads (F := Ideal) (W52 m ρ c)
  obtain ⟨Rdense, Rw1, Rb1, Rw2, Rb2⟩ := Cert.ReferenceIdeal.LayerR9.readsIn V'
  obtain ⟨Roidx, Rxnew, Rqnew, Rkeepb, Ria, Rib, Rw1s, Rb1s, Rw2s, Rb2s⟩ := Cert.ReferenceIdeal.LayerR9.reads V'
  have Rout := Cert.ReferenceIdeal.LayerR9.readsOut V'
  -- the kernel program's reads, at the eleven values
  have Kdense' := Kdense.trans (show _ = Cert.KernelIdeal.Layer9.f_dense ia a oidx out by simp only [kia, ka, koidx, kout])
  have Kw1' := Kw1.trans (show _ = Cert.KernelIdeal.Layer9.f_w1 w1s by simp only [kw1s])
  have Kb1r' := Kb1r.trans (show _ = Cert.KernelIdeal.Layer9.f_b1r b1s by simp only [kb1s])
  have Kw2' := Kw2.trans (show _ = Cert.KernelIdeal.Layer9.f_w2 w2s by simp only [kw2s])
  have Kb2r' := Kb2r.trans (show _ = Cert.KernelIdeal.Layer9.f_b2r b2s by simp only [kb2s])
  have Koidx' := Koidx.trans (show _ = Cert.KernelIdeal.Layer9.f_oidx ib by simp only [kib])
  have Kxnew' := Kxnew.trans (show _ = Cert.KernelIdeal.Layer9.f_xnew a oidx out by simp only [ka, koidx, kout])
  have Kqnew' := Kqnew.trans (show _ = Cert.KernelIdeal.Layer9.f_qnew q oidx out by simp only [kq, koidx, kout])
  -- the reference's reads, at the same values
  have Rdense' := Rdense.trans (show _ = Cert.KernelIdeal.Layer9.f_dense ia a oidx out by simp only [ria, ra, roidx, rout])
  have Rw1' := Rw1.trans (show _ = Cert.KernelIdeal.Layer9.f_w1 w1s by simp only [rw1s])
  have Rb1' := Rb1.trans (show _ = Cert.KernelIdeal.Layer9.f_b1 b1s by simp only [rb1s])
  have Rw2' := Rw2.trans (show _ = Cert.KernelIdeal.Layer9.f_w2 w2s by simp only [rw2s])
  have Rb2' := Rb2.trans (show _ = Cert.KernelIdeal.Layer9.f_b2 b2s by simp only [rb2s])
  have Roidx' := Roidx.trans (show _ = Cert.KernelIdeal.Layer9.f_oidx ib by simp only [rib])
  have Rxnew' := Rxnew.trans (show _ = Cert.KernelIdeal.Layer9.f_xnew a oidx out by simp only [ra, roidx, rout])
  have Rqnew' := Rqnew.trans (show _ = Cert.KernelIdeal.Layer9.f_qnew q oidx out by simp only [rq, roidx, rout])
  refine ⟨G (Cert.KernelIdeal.Layer9.f_dense ia a oidx out) (Cert.KernelIdeal.Layer9.f_w1 w1s) (Cert.KernelIdeal.Layer9.f_b1r b1s)
      (Cert.KernelIdeal.Layer9.f_w2 w2s) (Cert.KernelIdeal.Layer9.f_b2r b2s),
    Cert.KernelIdeal.Layer9.f_oidx ib, b, Cert.KernelIdeal.Layer9.f_xnew a oidx out, Cert.KernelIdeal.Layer9.f_qnew q oidx out,
    ia, ib, w1s, b1s, w2s, b2s, ⟨?_, ?_⟩,
    ⟨(W58_of_ne m ρ c Cert.KernelIdeal.main_v495 (by decide)).trans Koidx', Roidx'⟩,
    ⟨(W58_of_ne m ρ c Cert.KernelIdeal.main_v432 (by decide)).trans (Kkeepb.trans kb), Rkeepb.trans rb⟩,
    ⟨(W58_of_ne m ρ c Cert.KernelIdeal.main_v486 (by decide)).trans Kxnew', Rxnew'⟩,
    ⟨(W58_of_ne m ρ c Cert.KernelIdeal.main_v489 (by decide)).trans Kqnew', Rqnew'⟩,
    ⟨(W58_of_ne m ρ c Cert.KernelIdeal.main_v2 (by decide)).trans (Kia.trans kia), Ria.trans ria⟩, ⟨(W58_of_ne m ρ c Cert.KernelIdeal.main_v3 (by decide)).trans (Kib.trans kib), Rib.trans rib⟩,
    ⟨(W58_of_ne m ρ c Cert.KernelIdeal.main_arg2 (by decide)).trans (Kw1s.trans kw1s), Rw1s.trans rw1s⟩, ⟨(W58_of_ne m ρ c Cert.KernelIdeal.main_arg3 (by decide)).trans (Kb1s.trans kb1s), Rb1s.trans rb1s⟩, ⟨(W58_of_ne m ρ c Cert.KernelIdeal.main_arg4 (by decide)).trans (Kw2s.trans kw2s), Rw2s.trans rw2s⟩, ⟨(W58_of_ne m ρ c Cert.KernelIdeal.main_arg5 (by decide)).trans (Kb2s.trans kb2s), Rb2s.trans rb2s⟩⟩
  · -- the region's output array is the layer function of its operand arrays as it finds them
    exact (W58_arr m ρ c 5).trans ((Cert.KernelIdeal.Region9.regionOut (V57 m ρ) c).trans (G_congr Kdense' Kw1' Kb1r' Kw2' Kb2r'))
  · -- the reference's host perceptron of the same five arrays is the same function
    exact Rout.trans ((hostMlp_congr Rdense' Rw1' Rb1' Rw2' Rb2').trans (Cert.MlpBridge.host_eq_G _ _ _ _ _))

end Cert.Bridge

end
-- ==== Proof.LayerK10.lean ====
/- The host operations the kernel program runs between kernel region 9 and the program's end, read as functions. Each buffer the
  next stage needs is written out as the composition of the operations that produce it from the buffers the stretch
  reads; a buffer the stretch does not write keeps its contents; and the fold of the stretch's operations at each of
  these buffers is that function of the contents the stretch starts from.
-/
import proofs.«140670_j11424613007642_1_alg».proof.Proof.Gen.KernelIdeal.Launch
import Idealize.ShloMosaic.Lib.StableHlo.Run

set_option maxRecDepth 16384

noncomputable section

namespace Cert.KernelIdeal.Layer10

open Cert.KernelIdeal Cert.KernelIdeal.Gen Idealize.ShloMosaic Idealize.ShloMosaic.StableHlo Idealize.ShloMosaic.TcCoe

variable {F : FTy → Type} [FloatOps F]

/-- Buffer main_v546 as a function of the buffers the stretch reads: its 44 operations, in program order. -/
def f_res0 (x_main_v486 : (⟨S4096x64, .f32⟩ : BufTy).Contents (Elt F)) (x_main_v432 : (⟨S4096x61, .f32⟩ : BufTy).Contents (Elt F)) (x_main_v495 : (⟨S4096x122, .i32⟩ : BufTy).Contents (Elt F)) (x_main_v525 : (⟨S4096x4000, .f32⟩ : BufTy).Contents (Elt F)) :
    (⟨S4096x125, .f32⟩ : BufTy).Contents (Elt F) :=
  have x_main_cst_123 : (⟨S_, .f32⟩ : BufTy).Contents (Elt F) := (constant S_ .f32 0x00000000#32)
  have x_main_v526 : (⟨S4096x1, .f32⟩ : BufTy).Contents (Elt F) := ((broadcastInDim S4096x1 ![] bcast_S_S4096x1 : (⟨S_, .f32⟩ : BufTy).Contents (Elt F) → (⟨S4096x1, .f32⟩ : BufTy).Contents (Elt F))) x_main_cst_123
  have x_main_v527 : (⟨S4096x4001, .f32⟩ : BufTy).Contents (Elt F) := (((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F))) x_main_v525 x_main_v526
  have x_main_call19_c : (⟨S_, .i32⟩ : BufTy).Contents (Elt F) := (constantI S_ 32 0#32)
  have x_main_call19_v0 : (⟨S4096x122, .i32⟩ : BufTy).Contents (Elt F) := ((broadcastInDim S4096x122 ![] bcast_S_S4096x122)) x_main_call19_c
  have x_main_call19_v1 : (⟨S4096x122, .i1⟩ : BufTy).Contents (Elt F) := ((cmpi .slt)) x_main_v495 x_main_call19_v0
  have x_main_call19_c_0 : (⟨S_, .i32⟩ : BufTy).Contents (Elt F) := (constantI S_ 32 4001#32)
  have x_main_call19_v2 : (⟨S4096x122, .i32⟩ : BufTy).Contents (Elt F) := ((broadcastInDim S4096x122 ![] bcast_S_S4096x122)) x_main_call19_c_0
  have x_main_call19_v3 : (⟨S4096x122, .i32⟩ : BufTy).Contents (Elt F) := (addi) x_main_v495 x_main_call19_v2
  have x_main_call19_v4 : (⟨S4096x122, .i32⟩ : BufTy).Contents (Elt F) := (select) x_main_call19_v1 x_main_call19_v3 x_main_v495
  have x_main_call19_v5 : (⟨S4096x122x1, .i32⟩ : BufTy).Contents (Elt F) := shapeCast S4096x122x1 x_main_call19_v4 shapeCasts_S4096x122_S4096x122x1
  have x_main_call19_c_1 : (⟨S1, .i32⟩ : BufTy).Contents (Elt F) := (constantI S1 32 4000#32)
  have x_main_call19_c_2 : (⟨S_, .i32⟩ : BufTy).Contents (Elt F) := (constantI S_ 32 0#32)
  have x_main_call19_v6 : (⟨S4096x122x1, .i32⟩ : BufTy).Contents (Elt F) := ((broadcastInDim S4096x122x1 ![] bcast_S_S4096x122x1)) x_main_call19_c_2
  have x_main_call19_v7 : (⟨S4096x122x1, .i1⟩ : BufTy).Contents (Elt F) := ((cmpi .sge)) x_main_call19_v5 x_main_call19_v6
  have x_main_call19_v8 : (⟨S1x1x1, .i32⟩ : BufTy).Contents (Elt F) := ((broadcastInDim S1x1x1 ![2] bcast_S1_S1x1x1_2)) x_main_call19_c_1
  have x_main_call19_v9 : (⟨S4096x122x1, .i32⟩ : BufTy).Contents (Elt F) := ((broadcastInDim S4096x122x1 ![0, 1, 2] bcast_S1x1x1_S4096x122x1_0_1_2)) x_main_call19_v8
  have x_main_call19_v10 : (⟨S4096x122x1, .i1⟩ : BufTy).Contents (Elt F) := ((cmpi .sle)) x_main_call19_v5 x_main_call19_v9
  have x_main_call19_v11 : (⟨S4096x122x1, .i1⟩ : BufTy).Contents (Elt F) := (andi) x_main_call19_v7 x_main_call19_v10
  have x_main_call19_c_3 : (⟨S_, .i1⟩ : BufTy).Contents (Elt F) := (constantI S_ 1 1#1)
  have x_main_call19_v12 : (⟨S4096x122, .i1⟩ : BufTy).Contents (Elt F) := ((fun x v => Host.reduce IntOp.andi x v reducesTo_S4096x122x1_S4096x122_d2 h_S_)) x_main_call19_v11 x_main_call19_c_3
  have x_main_call19_v13 : (⟨S4096x122, .f32⟩ : BufTy).Contents (Elt F) := ((fun x i => Host.gather gather_S4096x4001_S4096x122x1_S4096x122_n_1_0_0_1_2_11 x i)) x_main_v527 x_main_call19_v5
  have x_main_call19_cst : (⟨S_, .f32⟩ : BufTy).Contents (Elt F) := (constant S_ .f32 0x7FC00000#32)
  have x_main_call19_v14 : (⟨S4096x122, .f32⟩ : BufTy).Contents (Elt F) := ((broadcastInDim S4096x122 ![] bcast_S_S4096x122)) x_main_call19_cst
  have x_main_v528 : (⟨S4096x122, .f32⟩ : BufTy).Contents (Elt F) := (select) x_main_call19_v12 x_main_call19_v13 x_main_call19_v14
  have x_main_v529 : (⟨S4096x61, .f32⟩ : BufTy).Contents (Elt F) := (((extractStridedSlice S4096x61 ![0, 0] · slices_S4096x122_S4096x61_0_0) : (⟨S4096x122, .f32⟩ : BufTy).Contents (Elt F) → (⟨S4096x61, .f32⟩ : BufTy).Contents (Elt F))) x_main_v528
  have x_main_v530 : (⟨S4096x61, .f32⟩ : BufTy).Contents (Elt F) := (((extractStridedSlice S4096x61 ![0, 61] · slices_S4096x122_S4096x61_0_61) : (⟨S4096x122, .f32⟩ : BufTy).Contents (Elt F) → (⟨S4096x61, .f32⟩ : BufTy).Contents (Elt F))) x_main_v528
  have x_main_cst_124 : (⟨S_, .f32⟩ : BufTy).Contents (Elt F) := (constant S_ .f32 0x40000000#32)
  have x_main_v531 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_124
  have x_main_v532 : (⟨S4096x61, .f32⟩ : BufTy).Contents (Elt F) := ((addf : (⟨S4096x61, .f32⟩ : BufTy).Contents (Elt F) → (⟨S4096x61, .f32⟩ : BufTy).Contents (Elt F) → (⟨S4096x61, .f32⟩ : BufTy).Contents (Elt F))) x_main_v529 x_main_v531
  have x_main_v533 : (⟨S4096x61, .f32⟩ : BufTy).Contents (Elt F) := ((Host.negf : (⟨S4096x61, .f32⟩ : BufTy).Contents (Elt F) → (⟨S4096x61, .f32⟩ : BufTy).Contents (Elt F))) x_main_v532
  have x_main_v534 : (⟨S4096x61, .f32⟩ : BufTy).Contents (Elt F) := ((Host.exp : (⟨S4096x61, .f32⟩ : BufTy).Contents (Elt F) → (⟨S4096x61, .f32⟩ : BufTy).Contents (Elt F))) x_main_v533
  have x_main_cst_125 : (⟨S_, .f32⟩ : BufTy).Contents (Elt F) := (constant S_ .f32 0x3F800000#32)
  have x_main_v535 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_125
  have x_main_v536 : (⟨S4096x61, .f32⟩ : BufTy).Contents (Elt F) := ((addf : (⟨S4096x61, .f32⟩ : BufTy).Contents (Elt F) → (⟨S4096x61, .f32⟩ : BufTy).Contents (Elt F) → (⟨S4096x61, .f32⟩ : BufTy).Contents (Elt F))) x_main_v535 x_main_v534
  have x_main_cst_126 : (⟨S_, .f32⟩ : BufTy).Contents (Elt F) := (constant S_ .f32 0x3F800000#32)
  have x_main_v537 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_126
  have x_main_v538 : (⟨S4096x61, .f32⟩ : BufTy).Contents (Elt F) := ((Host.divf : (⟨S4096x61, .f32⟩ : BufTy).Contents (Elt F) → (⟨S4096x61, .f32⟩ : BufTy).Contents (Elt F) → (⟨S4096x61, .f32⟩ : BufTy).Contents (Elt F))) x_main_v537 x_main_v536
  have x_main_v539 : (⟨S4096x61, .f32⟩ : BufTy).Contents (Elt F) := ((mulf : (⟨S4096x61, .f32⟩ : BufTy).Contents (Elt F) → (⟨S4096x61, .f32⟩ : BufTy).Contents (Elt F) → (⟨S4096x61, .f32⟩ : BufTy).Contents (Elt F))) x_main_v538 x_main_v432
  have x_main_v540 : (⟨S4096x61, .f32⟩ : BufTy).Contents (Elt F) := ((addf : (⟨S4096x61, .f32⟩ : BufTy).Contents (Elt F) → (⟨S4096x61, .f32⟩ : BufTy).Contents (Elt F) → (⟨S4096x61, .f32⟩ : BufTy).Contents (Elt F))) x_main_v539 x_main_v530
  have x_main_v544 : (⟨S4096x125, .f32⟩ : BufTy).Contents (Elt F) := (((fun a b => concatenate S4096x125 1 [⟨S4096x64, a⟩, ⟨S4096x61, b⟩] concatenates_S4096x64_S4096x61_S4096x125_d1) : (⟨S4096x64, .f32⟩ : BufTy).Contents (Elt F) → (⟨S4096x61, .f32⟩ : BufTy).Contents (Elt F) → (⟨S4096x125, .f32⟩ : BufTy).Contents (Elt F))) x_main_v486 x_main_v540
  have x_main_cst_128 : (⟨S_, .f32⟩ : BufTy).Contents (Elt F) := (constant S_ .f32 0x40000000#32)
  have x_main_v545 : (⟨S4096x125, .f32⟩ : BufTy).Contents (Elt F) := ((broadcastInDim S4096x125 ![] bcast_S_S4096x125 : (⟨S_, .f32⟩ : BufTy).Contents (Elt F) → (⟨S4096x125, .f32⟩ : BufTy).Contents (Elt F))) x_main_cst_128
  have x_main_v546 : (⟨S4096x125, .f32⟩ : BufTy).Contents (Elt F) := ((subf : (⟨S4096x125, .f32⟩ : BufTy).Contents (Elt F) → (⟨S4096x125, .f32⟩ : BufTy).Contents (Elt F) → (⟨S4096x125, .f32⟩ : BufTy).Contents (Elt F))) x_main_v544 x_main_v545
  x_main_v546

/-- Buffer main_v543 as a function of the buffers the stretch reads: its 41 operations, in program order. -/
def f_res1 (x_main_v489 : (⟨S4096, .f32⟩ : BufTy).Contents (Elt F)) (x_main_v495 : (⟨S4096x122, .i32⟩ : BufTy).Contents (Elt F)) (x_main_v525 : (⟨S4096x4000, .f32⟩ : BufTy).Contents (Elt F)) :
    (⟨S4096, .f32⟩ : BufTy).Contents (Elt F) :=
  have x_main_cst_123 : (⟨S_, .f32⟩ : BufTy).Contents (Elt F) := (constant S_ .f32 0x00000000#32)
  have x_main_v526 : (⟨S4096x1, .f32⟩ : BufTy).Contents (Elt F) := ((broadcastInDim S4096x1 ![] bcast_S_S4096x1 : (⟨S_, .f32⟩ : BufTy).Contents (Elt F) → (⟨S4096x1, .f32⟩ : BufTy).Contents (Elt F))) x_main_cst_123
  have x_main_v527 : (⟨S4096x4001, .f32⟩ : BufTy).Contents (Elt F) := (((fun a b => concatenate S4096x4001 1 [⟨S4096x4000, a⟩, ⟨S4096x1, b⟩] concatenates_S4096x4000_S4096x1_S4096x4001_d1) : (⟨S4096x4000, .f32⟩ : BufTy).Contents (Elt F) → (⟨S4096x1, .f32⟩ : BufTy).Contents (Elt F) → (⟨S4096x4001, .f32⟩ : BufTy).Contents (Elt F))) x_main_v525 x_main_v526
  have x_main_call19_c : (⟨S_, .i32⟩ : BufTy).Contents (Elt F) := (constantI S_ 32 0#32)
  have x_main_call19_v0 : (⟨S4096x122, .i32⟩ : BufTy).Contents (Elt F) := ((broadcastInDim S4096x122 ![] bcast_S_S4096x122)) x_main_call19_c
  have x_main_call19_v1 : (⟨S4096x122, .i1⟩ : BufTy).Contents (Elt F) := ((cmpi .slt)) x_main_v495 x_main_call19_v0
  have x_main_call19_c_0 : (⟨S_, .i32⟩ : BufTy).Contents (Elt F) := (constantI S_ 32 4001#32)
  have x_main_call19_v2 : (⟨S4096x122, .i32⟩ : BufTy).Contents (Elt F) := ((broadcastInDim S4096x122 ![] bcast_S_S4096x122)) x_main_call19_c_0
  have x_main_call19_v3 : (⟨S4096x122, .i32⟩ : BufTy).Contents (Elt F) := (addi) x_main_v495 x_main_call19_v2
  have x_main_call19_v4 : (⟨S4096x122, .i32⟩ : BufTy).Contents (Elt F) := (select) x_main_call19_v1 x_main_call19_v3 x_main_v495
  have x_main_call19_v5 : (⟨S4096x122x1, .i32⟩ : BufTy).Contents (Elt F) := shapeCast S4096x122x1 x_main_call19_v4 shapeCasts_S4096x122_S4096x122x1
  have x_main_call19_c_1 : (⟨S1, .i32⟩ : BufTy).Contents (Elt F) := (constantI S1 32 4000#32)
  have x_main_call19_c_2 : (⟨S_, .i32⟩ : BufTy).Contents (Elt F) := (constantI S_ 32 0#32)
  have x_main_call19_v6 : (⟨S4096x122x1, .i32⟩ : BufTy).Contents (Elt F) := ((broadcastInDim S4096x122x1 ![] bcast_S_S4096x122x1)) x_main_call19_c_2
  have x_main_call19_v7 : (⟨S4096x122x1, .i1⟩ : BufTy).Contents (Elt F) := ((cmpi .sge)) x_main_call19_v5 x_main_call19_v6
  have x_main_call19_v8 : (⟨S1x1x1, .i32⟩ : BufTy).Contents (Elt F) := ((broadcastInDim S1x1x1 ![2] bcast_S1_S1x1x1_2)) x_main_call19_c_1
  have x_main_call19_v9 : (⟨S4096x122x1, .i32⟩ : BufTy).Contents (Elt F) := ((broadcastInDim S4096x122x1 ![0, 1, 2] bcast_S1x1x1_S4096x122x1_0_1_2)) x_main_call19_v8
  have x_main_call19_v10 : (⟨S4096x122x1, .i1⟩ : BufTy).Contents (Elt F) := ((cmpi .sle)) x_main_call19_v5 x_main_call19_v9
  have x_main_call19_v11 : (⟨S4096x122x1, .i1⟩ : BufTy).Contents (Elt F) := (andi) x_main_call19_v7 x_main_call19_v10
  have x_main_call19_c_3 : (⟨S_, .i1⟩ : BufTy).Contents (Elt F) := (constantI S_ 1 1#1)
  have x_main_call19_v12 : (⟨S4096x122, .i1⟩ : BufTy).Contents (Elt F) := ((fun x v => Host.reduce IntOp.andi x v reducesTo_S4096x122x1_S4096x122_d2 h_S_)) x_main_call19_v11 x_main_call19_c_3
  have x_main_call19_v13 : (⟨S4096x122, .f32⟩ : BufTy).Contents (Elt F) := ((fun x i => Host.gather gather_S4096x4001_S4096x122x1_S4096x122_n_1_0_0_1_2_11 x i)) x_main_v527 x_main_call19_v5
  have x_main_call19_cst : (⟨S_, .f32⟩ : BufTy).Contents (Elt F) := (constant S_ .f32 0x7FC00000#32)
  have x_main_call19_v14 : (⟨S4096x122, .f32⟩ : BufTy).Contents (Elt F) := ((broadcastInDim S4096x122 ![] bcast_S_S4096x122)) x_main_call19_cst
  have x_main_v528 : (⟨S4096x122, .f32⟩ : BufTy).Contents (Elt F) := (select) x_main_call19_v12 x_main_call19_v13 x_main_call19_v14
  have x_main_v529 : (⟨S4096x61, .f32⟩ : BufTy).Contents (Elt F) := (((extractStridedSlice S4096x61 ![0, 0] · slices_S4096x122_S4096x61_0_0) : (⟨S4096x122, .f32⟩ : BufTy).Contents (Elt F) → (⟨S4096x61, .f32⟩ : BufTy).Contents (Elt F))) x_main_v528
  have x_main_cst_124 : (⟨S_, .f32⟩ : BufTy).Contents (Elt F) := (constant S_ .f32 0x40000000#32)
  have x_main_v531 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_124
  have x_main_v532 : (⟨S4096x61, .f32⟩ : BufTy).Contents (Elt F) := ((addf : (⟨S4096x61, .f32⟩ : BufTy).Contents (Elt F) → (⟨S4096x61, .f32⟩ : BufTy).Contents (Elt F) → (⟨S4096x61, .f32⟩ : BufTy).Contents (Elt F))) x_main_v529 x_main_v531
  have x_main_v533 : (⟨S4096x61, .f32⟩ : BufTy).Contents (Elt F) := ((Host.negf : (⟨S4096x61, .f32⟩ : BufTy).Contents (Elt F) → (⟨S4096x61, .f32⟩ : BufTy).Contents (Elt F))) x_main_v532
  have x_main_v534 : (⟨S4096x61, .f32⟩ : BufTy).Contents (Elt F) := ((Host.exp : (⟨S4096x61, .f32⟩ : BufTy).Contents (Elt F) → (⟨S4096x61, .f32⟩ : BufTy).Contents (Elt F))) x_main_v533
  have x_main_cst_125 : (⟨S_, .f32⟩ : BufTy).Contents (Elt F) := (constant S_ .f32 0x3F800000#32)
  have x_main_v535 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_125
  have x_main_v536 : (⟨S4096x61, .f32⟩ : BufTy).Contents (Elt F) := ((addf : (⟨S4096x61, .f32⟩ : BufTy).Contents (Elt F) → (⟨S4096x61, .f32⟩ : BufTy).Contents (Elt F) → (⟨S4096x61, .f32⟩ : BufTy).Contents (Elt F))) x_main_v535 x_main_v534
  have x_main_cst_126 : (⟨S_, .f32⟩ : BufTy).Contents (Elt F) := (constant S_ .f32 0x3F800000#32)
  have x_main_v537 : (⟨S4096x61, .f32⟩ : BufTy).Contents (Elt F) := ((broadcastInDim S4096x61 ![] bcast_S_S4096x61 : (⟨S_, .f32⟩ : BufTy).Contents (Elt F) → (⟨S4096x61, .f32⟩ : BufTy).Contents (Elt F))) x_main_cst_126
  have x_main_v538 : (⟨S4096x61, .f32⟩ : BufTy).Contents (Elt F) := ((Host.divf : (⟨S4096x61, .f32⟩ : BufTy).Contents (Elt F) → (⟨S4096x61, .f32⟩ : BufTy).Contents (Elt F) → (⟨S4096x61, .f32⟩ : BufTy).Contents (Elt F))) x_main_v537 x_main_v536
  have x_main_v541 : (⟨S4096x61, .f32⟩ : BufTy).Contents (Elt F) := ((Host.log : (⟨S4096x61, .f32⟩ : BufTy).Contents (Elt F) → (⟨S4096x61, .f32⟩ : BufTy).Contents (Elt F))) x_main_v538
  have x_main_cst_127 : (⟨S_, .f32⟩ : BufTy).Contents (Elt F) := (constant S_ .f32 0x00000000#32)
  have x_main_v542 : (⟨S4096, .f32⟩ : BufTy).Contents (Elt F) := (((fun x v => Host.reduceAdd x v reducesTo_S4096x61_S4096_d1 h_S_) : (⟨S4096x61, .f32⟩ : BufTy).Contents (Elt F) → (⟨S_, .f32⟩ : BufTy).Contents (Elt F) → (⟨S4096, .f32⟩ : BufTy).Contents (Elt F))) x_main_v541 x_main_cst_127
  have x_main_v543 : (⟨S4096, .f32⟩ : BufTy).Contents (Elt F) := ((subf : (⟨S4096, .f32⟩ : BufTy).Contents (Elt F) → (⟨S4096, .f32⟩ : BufTy).Contents (Elt F) → (⟨S4096, .f32⟩ : BufTy).Contents (Elt F))) x_main_v489 x_main_v542
  x_main_v543

-- the gather, the scatter and the reductions are never opened: both sides apply them to equal arguments
attribute [local irreducible] Host.scatterAdd Host.reduce Host.gather Host.reduceAdd concatenate extractStridedSlice broadcastInDim iotaInDim in
set_option maxHeartbeats 8000000 in
set_option maxRecDepth 100000 in
/-- The stretch's fold at each of those buffers. -/
theorem reads (V : Valuation τ sig (Elt F)) :
    after hostOps10_2 (after hostOps10_1 (after hostOps10 V)) (Proc.devRef .tc main_v546) = f_res0 (V (Proc.devRef .tc main_v486)) (V (Proc.devRef .tc main_v432)) (V (Proc.devRef .tc main_v495)) (V (Proc.devRef .tc main_v525))
    ∧ after hostOps10_2 (after hostOps10_1 (after hostOps10 V)) (Proc.devRef .tc main_v543) = f_res1 (V (Proc.devRef .tc main_v489)) (V (Proc.devRef .tc main_v495)) (V (Proc.devRef .tc main_v525)) := by
  simp only [hostOps10, hostOps10_1, hostOps10_2]
  after_results_simp
  refine ⟨?_, ?_⟩ <;> first | rfl | trivial

end Cert.KernelIdeal.Layer10

end
-- ==== Proof.LayerR10b.lean ====
/- The reference's operations of the same stage (kernel region 9 and the program's end on the kernel side), read as the SAME functions
  as the kernel program's: the other buffers the next stage needs; a buffer the segment does not write keeps its contents.
-/
import proofs.«140670_j11424613007642_1_alg».proof.Proof.RefRun
import proofs.«140670_j11424613007642_1_alg».proof.Proof.LayerK10
import proofs.«140670_j11424613007642_1_alg».proof.Proof.LibTRef
import Idealize.ShloMosaic.PureOps.Ideal

set_option maxRecDepth 16384

noncomputable section

namespace Cert.ReferenceIdeal.LayerR10

open Cert.ReferenceIdeal Cert.ReferenceIdeal.Gen Cert.ReferenceIdeal.RefRun Idealize.ShloMosaic Idealize.ShloMosaic.StableHlo Idealize.ShloMosaic.TcCoe

-- the gather, the scatter and the reductions are never opened: both sides apply them to equal arguments
attribute [local irreducible] Host.scatterAdd Host.reduce Host.gather Host.reduceAdd concatenate extractStridedSlice broadcastInDim iotaInDim in
set_option maxHeartbeats 16000000 in
set_option maxRecDepth 100000 in
/-- The other buffers the next stage needs. -/
theorem reads (V' : Valuation τ sig (Elt Ideal)) :
    after rseg10 V' (Proc.devRef .tc main_v606) = Cert.KernelIdeal.Layer10.f_res0 (V' (Proc.devRef .tc main_v540)) (V' (Proc.devRef .tc main_v480)) (V' (Proc.devRef .tc main_v549)) (V' (Proc.devRef .tc main_v585))
    ∧ after rseg10 V' (Proc.devRef .tc main_v603) = Cert.KernelIdeal.Layer10.f_res1 (V' (Proc.devRef .tc main_v543)) (V' (Proc.devRef .tc main_v549)) (V' (Proc.devRef .tc main_v585)) := by
  simp only [after_append_line, rseg10, rseg10_a, rseg10_b]
  after_results_simp
  -- contents stored through a typed reference and read back through it are unchanged
  try simp only [Cert.LibTRef.ofBuf_toBuf]
  refine ⟨?_, ?_⟩ <;> first | rfl | trivial

end Cert.ReferenceIdeal.LayerR10

end
-- ==== Proof.LayerR10.lean ====
/- The reference's side of this stage, collected: the three statements live in one module each.
-/
import proofs.«140670_j11424613007642_1_alg».proof.Proof.LayerR10b
-- ==== Proof.Step10.lean ====
/-
  The end. If after the last layer's perceptron output the two programs hold the same eleven values, their two results
  are equal: the remaining host operations read, on both sides, as the same functions of those values.
-/
import proofs.«140670_j11424613007642_1_alg».proof.Proof.KernelIdealFrameP
import proofs.«140670_j11424613007642_1_alg».proof.Proof.BridgeDefs
import proofs.«140670_j11424613007642_1_alg».proof.Proof.LayerK10
import proofs.«140670_j11424613007642_1_alg».proof.Proof.LayerR10

set_option maxRecDepth 16384

noncomputable section

namespace Cert.Bridge

open Cert.KernelIdeal Cert.KernelIdeal.Gen Cert.KernelIdeal.GenP
open Idealize.ShloMosaic Idealize.ShloMosaic.StableHlo Idealize.ShloMosaic.TcCoe Idealize.SL.Sem

set_option maxHeartbeats 4000000 in
theorem step10 (m : (ℓ : Loc nD τ sig) → Buf (Elt Ideal) ℓ) (ρ : Dev nD → PrngReg) (c : Dev nD) (V' : RV)
    (h : Inv9 (W58 m ρ c) V') :
    ∃ (r0 : (⟨Cert.KernelIdeal.S4096x125, .f32⟩ : BufTy).Contents (Elt Ideal)) (r1 : (⟨Cert.KernelIdeal.S4096, .f32⟩ : BufTy).Contents (Elt Ideal)),
      (W61 m ρ c (Proc.devRef .tc main_v546) = r0 ∧ after Cert.ReferenceIdeal.RefRun.rseg10 V' (Proc.devRef .tc Cert.ReferenceIdeal.main_v606) = r0)
      ∧ (W61 m ρ c (Proc.devRef .tc main_v543) = r1 ∧ after Cert.ReferenceIdeal.RefRun.rseg10 V' (Proc.devRef .tc Cert.ReferenceIdeal.main_v603) = r1) := by
  obtain ⟨out, oidx, a, b, q, ia, ib, w1s, b1s, w2s, b2s, ⟨kout, rout⟩, ⟨koidx, roidx⟩, ⟨ka, ra⟩, ⟨kb, rb⟩, ⟨kq, rq⟩, ⟨kia, ria⟩, ⟨kib, rib⟩,
    ⟨kw1s, rw1s⟩, ⟨kb1s, rb1s⟩, ⟨kw2s, rw2s⟩, ⟨kb2s, rb2s⟩⟩ := h
  obtain ⟨Kres0, Kres1⟩ := Cert.KernelIdeal.Layer10.reads (F := Ideal) (W58 m ρ c)
  obtain ⟨Rres0, Rres1⟩ := Cert.ReferenceIdeal.LayerR10.reads V'
  exact ⟨Cert.KernelIdeal.Layer10.f_res0 b a oidx out, Cert.KernelIdeal.Layer10.f_res1 q oidx out,
    ⟨Kres0.trans (show _ = Cert.KernelIdeal.Layer10.f_res0 b a oidx out by simp only [kb, ka, koidx, kout]),
     Rres0.trans (show _ = Cert.KernelIdeal.Layer10.f_res0 b a oidx out by simp only [rb, ra, roidx, rout])⟩,
    ⟨Kres1.trans (show _ = Cert.KernelIdeal.Layer10.f_res1 q oidx out by simp only [kq, koidx, kout]),
     Rres1.trans (show _ = Cert.KernelIdeal.Layer10.f_res1 q oidx out by simp only [rq, roidx, rout])⟩⟩

end Cert.Bridge

end
-- ==== Proof.Chain.lean ====
/-
  The eleven steps composed. From launch memories agreeing on the arguments, the value the kernel program's fold leaves
  at each result buffer is the value the reference's operations leave at the corresponding one: the relation holds after
  layer 0's perceptron output, each layer carries it to the next, and the last host operations turn it into equal results.
  The reference's operation list is its eleven segments one after another, so its fold is the segments' folds composed.
-/
import proofs.«140670_j11424613007642_1_alg».proof.Proof.Step0
import proofs.«140670_j11424613007642_1_alg».proof.Proof.Step1
import proofs.«140670_j11424613007642_1_alg».proof.Proof.Step2
import proofs.«140670_j11424613007642_1_alg».proof.Proof.Step3
import proofs.«140670_j11424613007642_1_alg».proof.Proof.Step4
import proofs.«140670_j11424613007642_1_alg».proof.Proof.Step5
import proofs.«140670_j11424613007642_1_alg».proof.Proof.Step6
import proofs.«140670_j11424613007642_1_alg».proof.Proof.Step7
import proofs.«140670_j11424613007642_1_alg».proof.Proof.Step8
import proofs.«140670_j11424613007642_1_alg».proof.Proof.Step9
import proofs.«140670_j11424613007642_1_alg».proof.Proof.Step10
import Idealize.ShloMosaic.Lib.Pipeline.Frame

noncomputable section

namespace Cert.Bridge

open Cert.KernelIdeal Cert.KernelIdeal.Gen Cert.KernelIdeal.GenP
open Idealize.ShloMosaic Idealize.ShloMosaic.StableHlo Idealize.ShloMosaic.TcCoe Idealize.SL.Sem
open Cert.ReferenceIdeal.RefRun (rseg0 rseg1 rseg2 rseg3 rseg4 rseg5 rseg6 rseg7 rseg8 rseg9 rseg10 refOps)

/-- The fold of the whole list is the segments' folds, first segment innermost. -/
theorem refOps_fold (V' : RV) :
    after refOps V' = after rseg10 (after rseg9 (after rseg8 (after rseg7 (after rseg6 (after rseg5 (after rseg4 (after rseg3
      (after rseg2 (after rseg1 (after rseg0 V')))))))))) := by
  show after (rseg0 ++ rseg1 ++ rseg2 ++ rseg3 ++ rseg4 ++ rseg5 ++ rseg6 ++ rseg7 ++ rseg8 ++ rseg9 ++ rseg10) V' = _
  rw [StableHlo.after_append _ rseg10, StableHlo.after_append _ rseg9, StableHlo.after_append _ rseg8, StableHlo.after_append _ rseg7,
    StableHlo.after_append _ rseg6, StableHlo.after_append _ rseg5, StableHlo.after_append _ rseg4, StableHlo.after_append _ rseg3,
    StableHlo.after_append _ rseg2, StableHlo.after_append _ rseg1]

theorem results (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ) (c : Dev nD)
    (hag : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)) :
    ∃ (r0 : (⟨Cert.KernelIdeal.S4096x125, .f32⟩ : BufTy).Contents (Elt Ideal)) (r1 : (⟨Cert.KernelIdeal.S4096, .f32⟩ : BufTy).Contents (Elt Ideal)),
      (W61 m ρ c (Proc.devRef .tc main_v546) = r0 ∧ after refOps (launchContents m' c) (Proc.devRef .tc Cert.ReferenceIdeal.main_v606) = r0)
      ∧ (W61 m ρ c (Proc.devRef .tc main_v543) = r1 ∧ after refOps (launchContents m' c) (Proc.devRef .tc Cert.ReferenceIdeal.main_v603) = r1) := by
  have i0 := step0 m ρ m' c hag
  have i1 := step1 m ρ c _ i0
  have i2 := step2 m ρ c _ i1
  have i3 := step3 m ρ c _ i2
  have i4 := step4 m ρ c _ i3
  have i5 := step5 m ρ c _ i4
  have i6 := step6 m ρ c _ i5
  have i7 := step7 m ρ c _ i6
  have i8 := step8 m ρ c _ i7
  have i9 := step9 m ρ c _ i8
  obtain ⟨r0, r1, ⟨k0, e0⟩, ⟨k1, e1⟩⟩ := step10 m ρ c _ i9
  refine ⟨r0, r1, ⟨k0, ?_⟩, ⟨k1, ?_⟩⟩
  · rw [refOps_fold]; exact e0
  · rw [refOps_fold]; exact e1

end Cert.Bridge

end
-- ==== Proof.lean ====
/-
  The certificate's five conjuncts. The three frames: each program terminates without a fault with its arguments
  unchanged (the two kernel programs by their launch proofs, the reference because its run is a straight line of host
  operations that write none of the arguments). The idealized kernel is the kernel's own text read over the extended
  reals, so nothing is owed for the idealization. And the two idealized programs, from memories that agree on the
  arguments, end with equal results: both compute ten coupling layers; a layer's perceptron — two matrix products with
  biases around an exponential linear unit — is one function of its five operand arrays whether a kernel region computes
  it block of rows by block of rows or host operations compute it whole (at the extended reals exp x − 1 and expm1 x are
  one function and 1·y = y), and every other operation of a layer is the same host operation in both programs.
-/
import proofs.«140670_j11424613007642_1_alg».proof.Defs
import proofs.«140670_j11424613007642_1_alg».proof.Proof.Gen.Kernel
import proofs.«140670_j11424613007642_1_alg».proof.Proof.Gen.KernelIdeal
import proofs.«140670_j11424613007642_1_alg».proof.Proof.Gen.ReferenceIdeal
import proofs.«140670_j11424613007642_1_alg».proof.Proof.Gen.Pre_finite_inputs
import proofs.«140670_j11424613007642_1_alg».proof.Proof.KernelFrameP
import proofs.«140670_j11424613007642_1_alg».proof.Proof.KernelIdealFrameP
import proofs.«140670_j11424613007642_1_alg».proof.Proof.KRun
import proofs.«140670_j11424613007642_1_alg».proof.Proof.RefRun
import proofs.«140670_j11424613007642_1_alg».proof.Proof.RefFrame
import proofs.«140670_j11424613007642_1_alg».proof.Proof.Chain
import Idealize.ShloMosaic.Adequacy
import Idealize.ShloMosaic.Init

noncomputable section

namespace Cert.Proof

open Idealize.ShloMosaic Idealize.ShloMosaic.StableHlo Idealize.ShloMosaic.TcCoe Idealize.SL.Sem

/-- From memories agreeing on the arguments both idealized programs run and end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  have hres := fun c => Cert.Bridge.results m ρ m' c (hagree c)
  choose r0 r1 hr using hres
  refine ⟨r0, r1, ?_, ?_⟩
  · exact (θ_run Cert.KernelIdeal.defs _ _).mono (fun r h c => ⟨(h c).1.trans (hr c).1.1, (h c).2.1.trans (hr c).2.1, (h c).2.2⟩)
      (Cert.KernelIdeal.KRun.run_values m ρ)
  · exact (θ_run Cert.ReferenceIdeal.defs _ _).mono (fun r h c =>
      ⟨(h c Cert.ReferenceIdeal.main_v606).trans (hr c).1.2, (h c Cert.ReferenceIdeal.main_v603).trans (hr c).2.2,
       (h c Cert.ReferenceIdeal.main_arg0).trans (Cert.ReferenceIdeal.RefRun.refOps_keep_arg0 _),
       (h c Cert.ReferenceIdeal.main_arg1).trans (Cert.ReferenceIdeal.RefRun.refOps_keep_arg1 _),
       (h c Cert.ReferenceIdeal.main_arg2).trans (Cert.ReferenceIdeal.RefRun.refOps_keep_arg2 _),
       (h c Cert.ReferenceIdeal.main_arg3).trans (Cert.ReferenceIdeal.RefRun.refOps_keep_arg3 _),
       (h c Cert.ReferenceIdeal.main_arg4).trans (Cert.ReferenceIdeal.RefRun.refOps_keep_arg4 _),
       (h c Cert.ReferenceIdeal.main_arg5).trans (Cert.ReferenceIdeal.RefRun.refOps_keep_arg5 _),
       (h c Cert.ReferenceIdeal.main_arg6).trans (Cert.ReferenceIdeal.RefRun.refOps_keep_arg6 _)⟩)
      (Cert.ReferenceIdeal.RefRun.run_main m' ρ')

theorem claim : Cert.Claim := ⟨Cert.Kernel.Gen.facts, Cert.KernelIdeal.Gen.facts, Cert.ReferenceIdeal.Gen.facts, Cert.Pre_finite_inputs.Gen.facts,
  fun m ρ _ => Cert.Kernel.GenP.frame m ρ,
  fun m ρ _ => Cert.KernelIdeal.GenP.frame m ρ,
  Cert.ReferenceIdeal.RefFrame.frame,
  trivial,
  algebraic⟩

end Cert.Proof

end
